-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S2x320000 : Shape := ⟨2, ![2, 320000]⟩
abbrev S320000x4 : Shape := ⟨2, ![320000, 4]⟩
abbrev S320000x16 : Shape := ⟨2, ![320000, 16]⟩
abbrev S_ : Shape := ⟨0, ![]⟩
abbrev S128x128 : Shape := ⟨2, ![128, 128]⟩
abbrev S128 : Shape := ⟨1, ![128]⟩
abbrev S128x148 : Shape := ⟨2, ![128, 148]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S320000x4 : S_.BroadcastsInDim S320000x4 (![] : Fin 0 → Fin S320000x4.rank)
  reducesTo_S320000x4_S_d0_1 : S320000x4.ReducesTo [0, 1] S_
  bcast_S_S320000x16 : S_.BroadcastsInDim S320000x16 (![] : Fin 0 → Fin S320000x16.rank)
  reducesTo_S320000x16_S_d0_1 : S320000x16.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x148 : S_.BroadcastsInDim S128x148 (![] : Fin 0 → Fin S128x148.rank)
  reducesTo_S128x148_S_d0_1 : S128x148.ReducesTo [0, 1] S_
  bcast_S_S2x320000 : S_.BroadcastsInDim S2x320000 (![] : Fin 0 → Fin S2x320000.rank)
  reducesTo_S2x320000_S_d0_1 : S2x320000.ReducesTo [0, 1] S_
  reducesTo_S_S_d : S_.ReducesTo [] S_

variable [Facts]

def fn_part2 {F : FTy → Type} [FloatOps F] (main_arg1 : IVec S2x320000 32) (main_arg4 : IVec S_ 32) (main_v33 : IVec S_ 1) : IVec S_ 1 :=
  let main_c_12 : IVec S_ 32 := constantI S_ 32 0#32
  let main_v34 : IVec S2x320000 32 := broadcastInDim S2x320000 ![] bcast_S_S2x320000 main_c_12
  let main_v35 : IVec S2x320000 1 := cmpi .sge main_arg1 main_v34
  let main_c_13 : IVec S_ 32 := constantI S_ 32 9999#32
  let main_v36 : IVec S2x320000 32 := broadcastInDim S2x320000 ![] bcast_S_S2x320000 main_c_13
  let main_v37 : IVec S2x320000 1 := cmpi .sle main_arg1 main_v36
  let main_v38 : IVec S2x320000 1 := andi main_v35 main_v37
  let main_c_14 : IVec S_ 1 := constantI S_ 1 1#1
  let main_v39 : IVec S_ 1 := (fun x v => Host.reduce IntOp.andi x v reducesTo_S2x320000_S_d0_1 h_S_) main_v38 main_c_14
  let main_v40 : IVec S_ 1 := andi main_v33 main_v39
  let main_c_15 : IVec S_ 32 := constantI S_ 32 0#32
  let main_v41 : IVec S_ 1 := cmpi .sge main_arg4 main_c_15
  let main_c_16 : IVec S_ 32 := constantI S_ 32 0#32
  let main_v42 : IVec S_ 1 := cmpi .sle main_arg4 main_c_16
  let main_v43 : IVec S_ 1 := andi main_v41 main_v42
  let main_c_17 : IVec S_ 1 := constantI S_ 1 1#1
  let main_v44 : IVec S_ 1 := (fun x v => Host.reduce IntOp.andi x v reducesTo_S_S_d h_S_) main_v43 main_c_17
  let main_v45 : IVec S_ 1 := andi main_v40 main_v44
  main_v45

def fn_part1 {F : FTy → Type} [FloatOps F] (main_arg1 : IVec S2x320000 32) (main_arg4 : IVec S_ 32) (main_arg6 : FVec F S128 .f32) (main_arg7 : FVec F S128x148 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x148 .f32 := Host.absf main_arg7
  let main_cst_8 : FVec F S_ .f32 := constant S_ .f32 0x7F800000#32
  let main_v25 : FVec F S128x148 .f32 := broadcastInDim S128x148 ![] bcast_S_S128x148 main_cst_8
  let main_v26 : IVec S128x148 1 := cmpf .olt main_v24 main_v25
  let main_c_9 : IVec S_ 1 := constantI S_ 1 1#1
  let main_v27 : IVec S_ 1 := (fun x v => Host.reduce IntOp.andi x v reducesTo_S128x148_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg4 main_v33

def fn {F : FTy → Type} [FloatOps F] (main_arg0 : FVec F S10000x128 .f32) (main_arg1 : IVec S2x320000 32) (main_arg2 : FVec F S320000x4 .f32) (main_arg3 : FVec F S320000x16 .f32) (main_arg4 : IVec S_ 32) (main_arg5 : FVec F S128x128 .f32) (main_arg6 : FVec F S128 .f32) (main_arg7 : FVec F S128x148 .f32) (main_arg8 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S320000x4 .f32 := Host.absf main_arg2
  let main_cst_0 : FVec F S_ .f32 := constant S_ .f32 0x7F800000#32
  let main_v5 : FVec F S320000x4 .f32 := broadcastInDim S320000x4 ![] bcast_S_S320000x4 main_cst_0
  let main_v6 : IVec S320000x4 1 := cmpf .olt main_v4 main_v5
  let main_c_1 : IVec S_ 1 := constantI S_ 1 1#1
  let main_v7 : IVec S_ 1 := (fun x v => Host.reduce IntOp.andi x v reducesTo_S320000x4_S_d0_1 h_S_) main_v6 main_c_1
  let main_v8 : IVec S_ 1 := andi main_v3 main_v7
  let main_v9 : FVec F S320000x16 .f32 := Host.absf main_arg3
  let main_cst_2 : FVec F S_ .f32 := constant S_ .f32 0x7F800000#32
  let main_v10 : FVec F S320000x16 .f32 := broadcastInDim S320000x16 ![] bcast_S_S320000x16 main_cst_2
  let main_v11 : IVec S320000x16 1 := cmpf .olt main_v9 main_v10
  let main_c_3 : IVec S_ 1 := constantI S_ 1 1#1
  let main_v12 : IVec S_ 1 := (fun x v => Host.reduce IntOp.andi x v reducesTo_S320000x16_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg4 main_arg6 main_arg7 main_arg8 main_v13 main_v16
-- ==== Kernel.lean ====
abbrev S10000x128 : Shape := ⟨2, ![10000, 128]⟩
abbrev S2x320000 : Shape := ⟨2, ![2, 320000]⟩
abbrev S320000x4 : Shape := ⟨2, ![320000, 4]⟩
abbrev S320000x16 : Shape := ⟨2, ![320000, 16]⟩
abbrev S_ : Shape := ⟨0, ![]⟩
abbrev S128x128 : Shape := ⟨2, ![128, 128]⟩
abbrev S128 : Shape := ⟨1, ![128]⟩
abbrev S128x148 : Shape := ⟨2, ![128, 148]⟩
abbrev S1x320000 : Shape := ⟨2, ![1, 320000]⟩
abbrev S320000 : Shape := ⟨1, ![320000]⟩
abbrev S1x128 : Shape := ⟨2, ![1, 128]⟩
abbrev S1000x128 : Shape := ⟨2, ![1000, 128]⟩
abbrev S32x125x80 : Shape := ⟨3, ![32, 125, 80]⟩
abbrev S320000x128 : Shape := ⟨2, ![320000, 128]⟩
abbrev S125x80 : Shape := ⟨2, ![125, 80]⟩
abbrev S80x128 : Shape := ⟨2, ![80, 128]⟩
abbrev S1x125x80 : Shape := ⟨3, ![1, 125, 80]⟩
abbrev S1x80 : Shape := ⟨2, ![1, 80]⟩
abbrev S80 : Shape := ⟨1, ![80]⟩
abbrev S1x16 : Shape := ⟨2, ![1, 16]⟩
abbrev S16 : Shape := ⟨1, ![16]⟩
abbrev S148x128 : Shape := ⟨2, ![148, 128]⟩
abbrev S16x128 : Shape := ⟨2, ![16, 128]⟩
abbrev S4x128 : Shape := ⟨2, ![4, 128]⟩
abbrev S10000x16 : Shape := ⟨2, ![10000, 16]⟩
abbrev S10000x4 : Shape := ⟨2, ![10000, 4]⟩

abbrev nBuf : Table → Nat
  | .hbm => 25
  | .local .tc .vmem => 18
  | .local .scVector .vmem => 8
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S320000x4, .f32⟩
  | .hbm, ⟨3, _⟩ => ⟨S320000x16, .f32⟩
  | .hbm, ⟨4, _⟩ => ⟨S_, .i32⟩
  | .hbm, ⟨5, _⟩ => ⟨S128x128, .f32⟩
  | .hbm, ⟨6, _⟩ => ⟨S128, .f32⟩
  | .hbm, ⟨7, _⟩ => ⟨S128x148, .f32⟩
  | .hbm, ⟨8, _⟩ => ⟨S128, .f32⟩
  | .hbm, ⟨9, _⟩ => ⟨S1x320000, .i32⟩
  | .hbm, ⟨10, _⟩ => ⟨S320000, .i32⟩
  | .hbm, ⟨11, _⟩ => ⟨S1x320000, .i32⟩
  | .hbm, ⟨12, _⟩ => ⟨S320000, .i32⟩
  | .hbm, ⟨13, _⟩ => ⟨S128x128, .f32⟩
  | .hbm, ⟨14, _⟩ => ⟨S1x128, .f32⟩
  | .hbm, ⟨15, _⟩ => ⟨S10000x128, .f32⟩
  | .hbm, ⟨16, _⟩ => ⟨S32x125x80, .i32⟩
  | .hbm, ⟨17, _⟩ => ⟨S32x125x80, .i32⟩
  | .hbm, ⟨18, _⟩ => ⟨S320000x128, .f32⟩
  | .hbm, ⟨19, _⟩ => ⟨S148x128, .f32⟩
  | .hbm, ⟨20, _⟩ => ⟨S128x128, .f32⟩
  | .hbm, ⟨21, _⟩ => ⟨S16x128, .f32⟩
  | .hbm, ⟨22, _⟩ => ⟨S4x128, .f32⟩
  | .hbm, ⟨23, _⟩ => ⟨S1x128, .f32⟩
  | .hbm, ⟨24, _⟩ => ⟨S320000x128, .f32⟩
  | .local .tc .vmem, ⟨0, _⟩ => ⟨S1000x128, .f32⟩
  | .local .tc .vmem, ⟨1, _⟩ => ⟨S1000x128, .f32⟩
  | .local .tc .vmem, ⟨2, _⟩ => ⟨S128x128, .f32⟩
  | .local .tc .vmem, ⟨3, _⟩ => ⟨S1x128, .f32⟩
  | .local .tc .vmem, ⟨4, _⟩ => ⟨S1000x128, .f32⟩
  | .local .tc .vmem, ⟨5, _⟩ => ⟨S1000x128, .f32⟩
  | .local .tc .vmem, ⟨6, _⟩ => ⟨S10000x128, .f32⟩
  | .local .tc .vmem, ⟨7, _⟩ => ⟨S10000x128, .f32⟩
  | .local .tc .vmem, ⟨8, _⟩ => ⟨S10000x16, .f32⟩
  | .local .tc .vmem, ⟨9, _⟩ => ⟨S10000x16, .f32⟩
  | .local .tc .vmem, ⟨10, _⟩ => ⟨S10000x4, .f32⟩
  | .local .tc .vmem, ⟨11, _⟩ => ⟨S10000x4, .f32⟩
  | .local .tc .vmem, ⟨12, _⟩ => ⟨S128x128, .f32⟩
  | .local .tc .vmem, ⟨13, _⟩ => ⟨S16x128, .f32⟩
  | .local .tc .vmem, ⟨14, _⟩ => ⟨S4x128, .f32⟩
  | .local .tc .vmem, ⟨15, _⟩ => ⟨S1x128, .f32⟩
  | .local .tc .vmem, ⟨16, _⟩ => ⟨S10000x128, .f32⟩
  | .local .tc .vmem, ⟨17, _⟩ => ⟨S10000x128, .f32⟩
  | .local .scVector .vmem, ⟨0, _⟩ => ⟨S125x80, .i32⟩
  | .local .scVector .vmem, ⟨1, _⟩ => ⟨S125x80, .i32⟩
  | .local .scVector .vmem, ⟨2, _⟩ => ⟨S80x128, .f32⟩
  | .local .scVector .vmem, ⟨3, _⟩ => ⟨S80x128, .f32⟩
  | .local .scVector .vmem, ⟨4, _⟩ => ⟨S80x128, .f32⟩
  | .local .scVector .vmem, ⟨5, _⟩ => ⟨S80x128, .f32⟩
  | .local .scVector .vmem, ⟨6, _⟩ => ⟨S80x128, .f32⟩
  | .local .scVector .vmem, ⟨7, _⟩ => ⟨S80x128, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v6_scv : Ref sig .scVector := ⟨.hbm, 15, rfl⟩
abbrev main_v7_scv : Ref sig .scVector := ⟨.hbm, 16, rfl⟩
abbrev main_v8_scv : Ref sig .scVector := ⟨.hbm, 17, rfl⟩
abbrev main_v9_scv : Ref sig .scVector := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg5_0 : Ref sig .tc := ⟨.vmem, 14, rfl⟩
abbrev cc2_stg6_0 : Ref sig .tc := ⟨.vmem, 15, rfl⟩
abbrev cc2_stg7_0 : Ref sig .tc := ⟨.vmem, 16, rfl⟩
abbrev cc2_stg7_1 : Ref sig .tc := ⟨.vmem, 17, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem7_1 : DmaSem sig := 25
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_40_r0 : BitVec 32 := 0#32
  let c0_i32_41_r0 : BitVec 32 := 0#32
  ![v1.toNat, 0, 0]
@[reducible] def k1_t1_loop : Scf.Loop 32 :=
  let c0_i32_15 : BitVec 32 := 0#32
  let c62_i32 : BitVec 32 := 62#32
  let v15 : BitVec 32 := Scalar.addi c0_i32_15 c62_i32
  let c1_i32_16 : BitVec 32 := 1#32
  ⟨c0_i32_15, v15, c1_i32_16⟩
def k1_off2 (k1_t1 : Fin k1_t1_loop.trips) : Fin 2 → Nat :=
  let c0_i32_15 : BitVec 32 := 0#32
  let c1_i32_16 : BitVec 32 := 1#32
  let arg20 : BitVec 32 := Scf.iv c0_i32_15 c1_i32_16 k1_t1
  let c2_i32_40 : BitVec 32 := 2#32
  let v34 : BitVec 32 := Scalar.muli arg20 c2_i32_40
  let c0_i32_43 : BitVec 32 := 0#32
  ![v34.toNat, 0]
def k1_cond1 (k1_t1 : Fin k1_t1_loop.trips) : BitVec 1 :=
  let c0_i32_15 : BitVec 32 := 0#32
  let c1_i32_16 : BitVec 32 := 1#32
  let arg20 : BitVec 32 := Scf.iv c0_i32_15 c1_i32_16 k1_t1
  let c1_i32_41 : BitVec 32 := 1#32
  let v35 : BitVec 1 := Scalar.cmpi .slt arg20 c1_i32_41
  let true_49 : BitVec 1 := 1#1
  let v44 : BitVec 1 := Scalar.xori v35 true_49
  let v45 : BitVec 32 := Scalar.extui v44
  let c0_i32_50 : BitVec 32 := 0#32
  let v46 : BitVec 1 := Scalar.cmpi .ne v45 c0_i32_50
  v46

def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_80 : BitVec 32 := 0#32
  ![v2.toNat, 0]
@[reducible] def k1_t2_loop : Scf.Loop 32 :=
  let c0_i32_52 : BitVec 32 := 0#32
  let c80_i32_53 : BitVec 32 := 80#32
  let v47 : BitVec 32 := Scalar.addi c0_i32_52 c80_i32_53
  let c1_i32_54 : BitVec 32 := 1#32
  ⟨c0_i32_52, v47, c1_i32_54⟩
def k1_off4 (k1_t2 : Fin k1_t2_loop.trips) : Fin 2 → Nat :=
  let c0_i32_52 : BitVec 32 := 0#32
  let c1_i32_54 : BitVec 32 := 1#32
  let arg21 : BitVec 32 := Scf.iv c0_i32_52 c1_i32_54 k1_t2
  let v74 : Index := Scalar.indexCast arg21
  let c0 : Index := 0#32
  ![v74.toNat, 0]
def k1_off5 (k1_t2 : Fin k1_t2_loop.trips) : Fin 2 → Nat :=
  let c0_i32_52 : BitVec 32 := 0#32
  let c1_i32_54 : BitVec 32 := 1#32
  let arg21 : BitVec 32 := Scf.iv c0_i32_52 c1_i32_54 k1_t2
  let v87 : Index := Scalar.indexCast arg21
  let c16 : Index := 16#32
  ![v87.toNat, 16]
def k1_off6 (k1_t2 : Fin k1_t2_loop.trips) : Fin 2 → Nat :=
  let c0_i32_52 : BitVec 32 := 0#32
  let c1_i32_54 : BitVec 32 := 1#32
  let arg21 : BitVec 32 := Scf.iv c0_i32_52 c1_i32_54 k1_t2
  let v100 : Index := Scalar.indexCast arg21
  let c32 : Index := 32#32
  ![v100.toNat, 32]
def k1_off7 (k1_t2 : Fin k1_t2_loop.trips) : Fin 2 → Nat :=
  let c0_i32_52 : BitVec 32 := 0#32
  let c1_i32_54 : BitVec 32 := 1#32
  let arg21 : BitVec 32 := Scf.iv c0_i32_52 c1_i32_54 k1_t2
  let v113 : Index := Scalar.indexCast arg21
  let c48 : Index := 48#32
  ![v113.toNat, 48]
def k1_off8 (k1_t2 : Fin k1_t2_loop.trips) : Fin 2 → Nat :=
  let c0_i32_52 : BitVec 32 := 0#32
  let c1_i32_54 : BitVec 32 := 1#32
  let arg21 : BitVec 32 := Scf.iv c0_i32_52 c1_i32_54 k1_t2
  let v126 : Index := Scalar.indexCast arg21
  let c64 : Index := 64#32
  ![v126.toNat, 64]
def k1_off9 (k1_t2 : Fin k1_t2_loop.trips) : Fin 2 → Nat :=
  let c0_i32_52 : BitVec 32 := 0#32
  let c1_i32_54 : BitVec 32 := 1#32
  let arg21 : BitVec 32 := Scf.iv c0_i32_52 c1_i32_54 k1_t2
  let v139 : Index := Scalar.indexCast arg21
  let c80 : Index := 80#32
  ![v139.toNat, 80]
def k1_off10 (k1_t2 : Fin k1_t2_loop.trips) : Fin 2 → Nat :=
  let c0_i32_52 : BitVec 32 := 0#32
  let c1_i32_54 : BitVec 32 := 1#32
  let arg21 : BitVec 32 := Scf.iv c0_i32_52 c1_i32_54 k1_t2
  let v152 : Index := Scalar.indexCast arg21
  let c96 : Index := 96#32
  ![v152.toNat, 96]
def k1_off11 (k1_t2 : Fin k1_t2_loop.trips) : Fin 2 → Nat :=
  let c0_i32_52 : BitVec 32 := 0#32
  let c1_i32_54 : BitVec 32 := 1#32
  let arg21 : BitVec 32 := Scf.iv c0_i32_52 c1_i32_54 k1_t2
  let v165 : Index := Scalar.indexCast arg21
  let c112 : Index := 112#32
  ![v165.toNat, 112]
def k1_off12 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_15 : BitVec 32 := 0#32
  let c1_i32_16 : BitVec 32 := 1#32
  let arg20 : BitVec 32 := Scf.iv c0_i32_15 c1_i32_16 k1_t1
  let c2_i32_40 : BitVec 32 := 2#32
  let v34 : BitVec 32 := Scalar.muli arg20 c2_i32_40
  let c80_i32_56 : BitVec 32 := 80#32
  let v48 : BitVec 32 := Scalar.muli v34 c80_i32_56
  let v49 : BitVec 32 := Scalar.addi v2 v48
  let c0_i32_57 : BitVec 32 := 0#32
  ![v49.toNat, 0]
def k1_cond2 (k1_t1 : Fin k1_t1_loop.trips) : BitVec 1 :=
  let c0_i32_15 : BitVec 32 := 0#32
  let c1_i32_16 : BitVec 32 := 1#32
  let arg20 : BitVec 32 := Scf.iv c0_i32_15 c1_i32_16 k1_t1
  let c2_i32_40 : BitVec 32 := 2#32
  let v34 : BitVec 32 := Scalar.muli arg20 c2_i32_40
  let c2_i32_42 : BitVec 32 := 2#32
  let v36 : BitVec 32 := Scalar.addi v34 c2_i32_42
  let c125_i32 : BitVec 32 := 125#32
  let v37 : BitVec 1 := Scalar.cmpi .slt v36 c125_i32
  let v52 : BitVec 32 := Scalar.extui v37
  let c0_i32_59 : BitVec 32 := 0#32
  let v53 : BitVec 1 := Scalar.cmpi .ne v52 c0_i32_59
  v53

def k1_off13 (k1_t1 : Fin k1_t1_loop.trips) : Fin 2 → Nat :=
  let c0_i32_15 : BitVec 32 := 0#32
  let c1_i32_16 : BitVec 32 := 1#32
  let arg20 : BitVec 32 := Scf.iv c0_i32_15 c1_i32_16 k1_t1
  let c2_i32_40 : BitVec 32 := 2#32
  let v34 : BitVec 32 := Scalar.muli arg20 c2_i32_40
  let c2_i32_80 : BitVec 32 := 2#32
  let v74 : BitVec 32 := Scalar.addi v34 c2_i32_80
  let c0_i32_81 : BitVec 32 := 0#32
  ![v74.toNat, 0]
def k1_off14 (k1_t1 : Fin k1_t1_loop.trips) : Fin 2 → Nat :=
  let c0_i32_15 : BitVec 32 := 0#32
  let c1_i32_16 : BitVec 32 := 1#32
  let arg20 : BitVec 32 := Scf.iv c0_i32_15 c1_i32_16 k1_t1
  let c2_i32_40 : BitVec 32 := 2#32
  let v34 : BitVec 32 := Scalar.muli arg20 c2_i32_40
  let c1_i32_60 : BitVec 32 := 1#32
  let v54 : BitVec 32 := Scalar.addi v34 c1_i32_60
  let c0_i32_63 : BitVec 32 := 0#32
  ![v54.toNat, 0]
def k1_cond3 (k1_t1 : Fin k1_t1_loop.trips) : BitVec 1 :=
  let c0_i32_15 : BitVec 32 := 0#32
  let c1_i32_16 : BitVec 32 := 1#32
  let arg20 : BitVec 32 := Scf.iv c0_i32_15 c1_i32_16 k1_t1
  let c1_i32_61 : BitVec 32 := 1#32
  let v55 : BitVec 1 := Scalar.cmpi .slt arg20 c1_i32_61
  let true_69 : BitVec 1 := 1#1
  let v64 : BitVec 1 := Scalar.xori v55 true_69
  let v65 : BitVec 32 := Scalar.extui v64
  let c0_i32_70 : BitVec 32 := 0#32
  let v66 : BitVec 1 := Scalar.cmpi .ne v65 c0_i32_70
  v66

def k1_off15 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_80 : BitVec 32 := 0#32
  ![v2.toNat, 0]
@[reducible] def k1_t3_loop : Scf.Loop 32 :=
  let c0_i32_72 : BitVec 32 := 0#32
  let c80_i32_73 : BitVec 32 := 80#32
  let v67 : BitVec 32 := Scalar.addi c0_i32_72 c80_i32_73
  let c1_i32_74 : BitVec 32 := 1#32
  ⟨c0_i32_72, v67, c1_i32_74⟩
def k1_off16 (k1_t3 : Fin k1_t3_loop.trips) : Fin 2 → Nat :=
  let c0_i32_72 : BitVec 32 := 0#32
  let c1_i32_74 : BitVec 32 := 1#32
  let arg21 : BitVec 32 := Scf.iv c0_i32_72 c1_i32_74 k1_t3
  let v74 : Index := Scalar.indexCast arg21
  let c0 : Index := 0#32
  ![v74.toNat, 0]
def k1_off17 (k1_t3 : Fin k1_t3_loop.trips) : Fin 2 → Nat :=
  let c0_i32_72 : BitVec 32 := 0#32
  let c1_i32_74 : BitVec 32 := 1#32
  let arg21 : BitVec 32 := Scf.iv c0_i32_72 c1_i32_74 k1_t3
  let v87 : Index := Scalar.indexCast arg21
  let c16 : Index := 16#32
  ![v87.toNat, 16]
def k1_off18 (k1_t3 : Fin k1_t3_loop.trips) : Fin 2 → Nat :=
  let c0_i32_72 : BitVec 32 := 0#32
  let c1_i32_74 : BitVec 32 := 1#32
  let arg21 : BitVec 32 := Scf.iv c0_i32_72 c1_i32_74 k1_t3
  let v100 : Index := Scalar.indexCast arg21
  let c32 : Index := 32#32
  ![v100.toNat, 32]
def k1_off19 (k1_t3 : Fin k1_t3_loop.trips) : Fin 2 → Nat :=
  let c0_i32_72 : BitVec 32 := 0#32
  let c1_i32_74 : BitVec 32 := 1#32
  let arg21 : BitVec 32 := Scf.iv c0_i32_72 c1_i32_74 k1_t3
  let v113 : Index := Scalar.indexCast arg21
  let c48 : Index := 48#32
  ![v113.toNat, 48]
def k1_off20 (k1_t3 : Fin k1_t3_loop.trips) : Fin 2 → Nat :=
  let c0_i32_72 : BitVec 32 := 0#32
  let c1_i32_74 : BitVec 32 := 1#32
  let arg21 : BitVec 32 := Scf.iv c0_i32_72 c1_i32_74 k1_t3
  let v126 : Index := Scalar.indexCast arg21
  let c64 : Index := 64#32
  ![v126.toNat, 64]
def k1_off21 (k1_t3 : Fin k1_t3_loop.trips) : Fin 2 → Nat :=
  let c0_i32_72 : BitVec 32 := 0#32
  let c1_i32_74 : BitVec 32 := 1#32
  let arg21 : BitVec 32 := Scf.iv c0_i32_72 c1_i32_74 k1_t3
  let v139 : Index := Scalar.indexCast arg21
  let c80 : Index := 80#32
  ![v139.toNat, 80]
def k1_off22 (k1_t3 : Fin k1_t3_loop.trips) : Fin 2 → Nat :=
  let c0_i32_72 : BitVec 32 := 0#32
  let c1_i32_74 : BitVec 32 := 1#32
  let arg21 : BitVec 32 := Scf.iv c0_i32_72 c1_i32_74 k1_t3
  let v152 : Index := Scalar.indexCast arg21
  let c96 : Index := 96#32
  ![v152.toNat, 96]
def k1_off23 (k1_t3 : Fin k1_t3_loop.trips) : Fin 2 → Nat :=
  let c0_i32_72 : BitVec 32 := 0#32
  let c1_i32_74 : BitVec 32 := 1#32
  let arg21 : BitVec 32 := Scf.iv c0_i32_72 c1_i32_74 k1_t3
  let v165 : Index := Scalar.indexCast arg21
  let c112 : Index := 112#32
  ![v165.toNat, 112]
def k1_off24 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_15 : BitVec 32 := 0#32
  let c1_i32_16 : BitVec 32 := 1#32
  let arg20 : BitVec 32 := Scf.iv c0_i32_15 c1_i32_16 k1_t1
  let c2_i32_40 : BitVec 32 := 2#32
  let v34 : BitVec 32 := Scalar.muli arg20 c2_i32_40
  let c1_i32_60 : BitVec 32 := 1#32
  let v54 : BitVec 32 := Scalar.addi v34 c1_i32_60
  let c80_i32_76 : BitVec 32 := 80#32
  let v68 : BitVec 32 := Scalar.muli v54 c80_i32_76
  let v69 : BitVec 32 := Scalar.addi v2 v68
  let c0_i32_77 : BitVec 32 := 0#32
  ![v69.toNat, 0]
def k1_cond4 (k1_t1 : Fin k1_t1_loop.trips) : BitVec 1 :=
  let c0_i32_15 : BitVec 32 := 0#32
  let c1_i32_16 : BitVec 32 := 1#32
  let arg20 : BitVec 32 := Scf.iv c0_i32_15 c1_i32_16 k1_t1
  let c2_i32_40 : BitVec 32 := 2#32
  let v34 : BitVec 32 := Scalar.muli arg20 c2_i32_40
  let c3_i32 : BitVec 32 := 3#32
  let v56 : BitVec 32 := Scalar.addi v34 c3_i32
  let c125_i32_62 : BitVec 32 := 125#32
  let v57 : BitVec 1 := Scalar.cmpi .slt v56 c125_i32_62
  let v72 : BitVec 32 := Scalar.extui v57
  let c0_i32_79 : BitVec 32 := 0#32
  let v73 : BitVec 1 := Scalar.cmpi .ne v72 c0_i32_79
  v73

def k1_off25 (k1_t1 : Fin k1_t1_loop.trips) : Fin 2 → Nat :=
  let c0_i32_15 : BitVec 32 := 0#32
  let c1_i32_16 : BitVec 32 := 1#32
  let arg20 : BitVec 32 := Scf.iv c0_i32_15 c1_i32_16 k1_t1
  let c2_i32_40 : BitVec 32 := 2#32
  let v34 : BitVec 32 := Scalar.muli arg20 c2_i32_40
  let c1_i32_60 : BitVec 32 := 1#32
  let v54 : BitVec 32 := Scalar.addi v34 c1_i32_60
  let c2_i32_80 : BitVec 32 := 2#32
  let v74 : BitVec 32 := Scalar.addi v54 c2_i32_80
  let c0_i32_81 : BitVec 32 := 0#32
  ![v74.toNat, 0]
def k1_cond5 : BitVec 1 :=
  let v_false : BitVec 1 := 0#1
  let v_true : BitVec 1 := 1#1
  let v22 : BitVec 1 := Scalar.xori v_false v_true
  let v23 : BitVec 32 := Scalar.extui v22
  let c0_i32_25 : BitVec 32 := 0#32
  let v24 : BitVec 1 := Scalar.cmpi .ne v23 c0_i32_25
  v24

def k1_off26 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_40 : BitVec 32 := 0#32
  ![v2.toNat, 0]
@[reducible] def k1_t4_loop : Scf.Loop 32 :=
  let c0_i32_27 : BitVec 32 := 0#32
  let c80_i32 : BitVec 32 := 80#32
  let v25 : BitVec 32 := Scalar.addi c0_i32_27 c80_i32
  let c1_i32_28 : BitVec 32 := 1#32
  ⟨c0_i32_27, v25, c1_i32_28⟩
def k1_off27 (k1_t4 : Fin k1_t4_loop.trips) : Fin 2 → Nat :=
  let c0_i32_27 : BitVec 32 := 0#32
  let c1_i32_28 : BitVec 32 := 1#32
  let arg20 : BitVec 32 := Scf.iv c0_i32_27 c1_i32_28 k1_t4
  let v34 : Index := Scalar.indexCast arg20
  let c0 : Index := 0#32
  ![v34.toNat, 0]
def k1_off28 (k1_t4 : Fin k1_t4_loop.trips) : Fin 2 → Nat :=
  let c0_i32_27 : BitVec 32 := 0#32
  let c1_i32_28 : BitVec 32 := 1#32
  let arg20 : BitVec 32 := Scf.iv c0_i32_27 c1_i32_28 k1_t4
  let v47 : Index := Scalar.indexCast arg20
  let c16 : Index := 16#32
  ![v47.toNat, 16]
def k1_off29 (k1_t4 : Fin k1_t4_loop.trips) : Fin 2 → Nat :=
  let c0_i32_27 : BitVec 32 := 0#32
  let c1_i32_28 : BitVec 32 := 1#32
  let arg20 : BitVec 32 := Scf.iv c0_i32_27 c1_i32_28 k1_t4
  let v60 : Index := Scalar.indexCast arg20
  let c32 : Index := 32#32
  ![v60.toNat, 32]
def k1_off30 (k1_t4 : Fin k1_t4_loop.trips) : Fin 2 → Nat :=
  let c0_i32_27 : BitVec 32 := 0#32
  let c1_i32_28 : BitVec 32 := 1#32
  let arg20 : BitVec 32 := Scf.iv c0_i32_27 c1_i32_28 k1_t4
  let v73 : Index := Scalar.indexCast arg20
  let c48 : Index := 48#32
  ![v73.toNat, 48]
def k1_off31 (k1_t4 : Fin k1_t4_loop.trips) : Fin 2 → Nat :=
  let c0_i32_27 : BitVec 32 := 0#32
  let c1_i32_28 : BitVec 32 := 1#32
  let arg20 : BitVec 32 := Scf.iv c0_i32_27 c1_i32_28 k1_t4
  let v86 : Index := Scalar.indexCast arg20
  let c64 : Index := 64#32
  ![v86.toNat, 64]
def k1_off32 (k1_t4 : Fin k1_t4_loop.trips) : Fin 2 → Nat :=
  let c0_i32_27 : BitVec 32 := 0#32
  let c1_i32_28 : BitVec 32 := 1#32
  let arg20 : BitVec 32 := Scf.iv c0_i32_27 c1_i32_28 k1_t4
  let v99 : Index := Scalar.indexCast arg20
  let c80 : Index := 80#32
  ![v99.toNat, 80]
def k1_off33 (k1_t4 : Fin k1_t4_loop.trips) : Fin 2 → Nat :=
  let c0_i32_27 : BitVec 32 := 0#32
  let c1_i32_28 : BitVec 32 := 1#32
  let arg20 : BitVec 32 := Scf.iv c0_i32_27 c1_i32_28 k1_t4
  let v112 : Index := Scalar.indexCast arg20
  let c96 : Index := 96#32
  ![v112.toNat, 96]
def k1_off34 (k1_t4 : Fin k1_t4_loop.trips) : Fin 2 → Nat :=
  let c0_i32_27 : BitVec 32 := 0#32
  let c1_i32_28 : BitVec 32 := 1#32
  let arg20 : BitVec 32 := Scf.iv c0_i32_27 c1_i32_28 k1_t4
  let v125 : Index := Scalar.indexCast arg20
  let c112 : Index := 112#32
  ![v125.toNat, 112]
def k1_off35 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c124_i32_30 : BitVec 32 := 124#32
  let c80_i32_31 : BitVec 32 := 80#32
  let v26 : BitVec 32 := Scalar.muli c124_i32_30 c80_i32_31
  let v27 : BitVec 32 := Scalar.addi v2 v26
  let c0_i32_32 : BitVec 32 := 0#32
  ![v27.toNat, 0]
def k1_off36 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_36 : BitVec 32 := 0#32
  ![v2.toNat, 0]
abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x4 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S4x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  transposes_S128x128_S128x128_1_0 : S128x128.Transposes [1, 0] S128x128
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  shapeCasts_S320000_S32x125x80 : S320000.ShapeCasts S32x125x80
  squeezes_S1x125x80_S125x80 : S1x125x80.Squeezes S125x80
  inb_S125x80_S1x80_0_0 : ∀ a, (![0, 0] : Fin 2 → Nat) a + S1x80.size a ≤ S125x80.size a
  squeezes_S1x80_S80 : S1x80.Squeezes S80
  inb_S10000x128_S10000x128_0_0 : ∀ a, (![0, 0] : Fin 2 → Nat) a + S10000x128.size a ≤ S10000x128.size a
  gathers_S10000x128_S80x128 : S10000x128.Gathers 0 S80x128
  inb_S125x80_S1x80_1_0 : ∀ a, (![1, 0] : Fin 2 → Nat) a + S1x80.size a ≤ S125x80.size a
  h_S1x16 : 0 < S1x16.numel
  shapeCasts_S1x16_S16 : S1x16.ShapeCasts S16
  shapeCasts_S16_S1x16 : S16.ShapeCasts S1x16
  inb_S125x80_S1x80_124_0 : ∀ a, (![124, 0] : Fin 2 → Nat) a + S1x80.size a ≤ S125x80.size a
  transposes_S128x148_S148x128_1_0 : S128x148.Transposes [1, 0] S148x128
  slices_S148x128_S128x128_0_0 : S148x128.Slices ![0, 0] S128x128
  slices_S148x128_S16x128_128_0 : S148x128.Slices ![128, 0] S16x128
  slices_S148x128_S4x128_144_0 : S148x128.Slices ![144, 0] S4x128
  h_S10000x128 : 0 < S10000x128.numel
  shapeCasts_S10000x128_S10000x128 : S10000x128.ShapeCasts S10000x128
  inb_S10000x16_S10000x16_0_0 : ∀ a, (![0, 0] : Fin 2 → Nat) a + S10000x16.size a ≤ S10000x16.size a
  h_S10000x16 : 0 < S10000x16.numel
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S10000x4_S10000x4_0_0 : ∀ a, (![0, 0] : Fin 2 → Nat) a + S10000x4.size a ≤ S10000x4.size a
  h_S10000x4 : 0 < S10000x4.numel
  inb_S4x128_S4x128_0_0 : ∀ a, (![0, 0] : Fin 2 → Nat) a + S4x128.size a ≤ S4x128.size a
  h_S4x128 : 0 < S4x128.numel
  shapeCasts_S4x128_S4x128 : S4x128.ShapeCasts S4x128
  broadcasts_S1x128_S10000x128 : S1x128.Broadcasts S10000x128
  dot_S1000x128_S128x128_S1000x128_1_0_0_1_n_n_wf : DotDims.WF S1000x128 S128x128 S1000x128 [1] [0] [0] [1] [] []
  dot_S10000x128_S128x128_S10000x128_1_0_0_1_n_n_wf : DotDims.WF S10000x128 S128x128 S10000x128 [1] [0] [0] [1] [] []
  dot_S10000x16_S16x128_S10000x128_1_0_0_1_n_n_wf : DotDims.WF S10000x16 S16x128 S10000x128 [1] [0] [0] [1] [] []
  dot_S10000x4_S4x128_S10000x128_1_0_0_1_n_n_wf : DotDims.WF S10000x4 S4x128 S10000x128 [1] [0] [0] [1] [] []
  hcc1_scratch8 : 6 + S_.numel ≤ 26
  hcc1_scratch9 : 7 + S_.numel ≤ 26
  hcc1_scratch10 : 8 + S_.numel ≤ 26
  hcc1_scratch11 : 9 + S_.numel ≤ 26
  hcc1_scratch12 : 10 + S_.numel ≤ 26
  hcc1_scratch13 : 11 + S_.numel ≤ 26
  hcc1_scoped0 : 12 + S_.numel ≤ 26
  hcc1_scoped1 : 13 + S_.numel ≤ 26
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S10000x128.size a
  hwx0_3 : ∀ i : grid0.Coords, EltTy.bits .f32 = 32 ∨ (Rect.block (s := S10000x128) S1000x128.size (cc0_transform_3 i) (hinb0_3 i)).WholeWords (EltTy.packing .f32)
  hcore1 : grid1.bound 0 ≤ τ.nSC
  hsub1 : grid1.bound 1 ≤ τ.nSub
  k1_off1_inb : ∀ i : grid1.Coords, ∀ a, (k1_off1 i) a + S1x125x80.size a ≤ S32x125x80.size a
  k1_t1_ok : k1_t1_loop.OK
  k1_off2_inb : ∀ k1_t1 : Fin k1_t1_loop.trips, ∀ a, (k1_off2 k1_t1) a + S1x80.size a ≤ S125x80.size a
  k1_off3_inb : ∀ (i : grid1.Coords) (k1_t1 : Fin k1_t1_loop.trips), ∀ (k1_h1 : k1_cond1 k1_t1 = 1#1), ∀ a, (k1_off3 i) a + S80x128.size a ≤ S320000x128.size a
  k1_t2_ok : k1_t2_loop.OK
  k1_off4_inb : ∀ k1_t2 : Fin k1_t2_loop.trips, ∀ a, (k1_off4 k1_t2) a + S1x16.size a ≤ S80x128.size a
  k1_off5_inb : ∀ k1_t2 : Fin k1_t2_loop.trips, ∀ a, (k1_off5 k1_t2) a + S1x16.size a ≤ S80x128.size a
  k1_off6_inb : ∀ k1_t2 : Fin k1_t2_loop.trips, ∀ a, (k1_off6 k1_t2) a + S1x16.size a ≤ S80x128.size a
  k1_off7_inb : ∀ k1_t2 : Fin k1_t2_loop.trips, ∀ a, (k1_off7 k1_t2) a + S1x16.size a ≤ S80x128.size a
  k1_off8_inb : ∀ k1_t2 : Fin k1_t2_loop.trips, ∀ a, (k1_off8 k1_t2) a + S1x16.size a ≤ S80x128.size a
  k1_off9_inb : ∀ k1_t2 : Fin k1_t2_loop.trips, ∀ a, (k1_off9 k1_t2) a + S1x16.size a ≤ S80x128.size a
  k1_off10_inb : ∀ k1_t2 : Fin k1_t2_loop.trips, ∀ a, (k1_off10 k1_t2) a + S1x16.size a ≤ S80x128.size a
  k1_off11_inb : ∀ k1_t2 : Fin k1_t2_loop.trips, ∀ a, (k1_off11 k1_t2) a + S1x16.size a ≤ S80x128.size a
  k1_off12_inb : ∀ (i : grid1.Coords) (k1_t1 : Fin k1_t1_loop.trips), ∀ a, (k1_off12 i k1_t1) a + S80x128.size a ≤ S320000x128.size a
  k1_off13_inb : ∀ k1_t1 : Fin k1_t1_loop.trips, ∀ (k1_h2 : k1_cond2 k1_t1 = 1#1), ∀ a, (k1_off13 k1_t1) a + S1x80.size a ≤ S125x80.size a
  k1_off14_inb : ∀ k1_t1 : Fin k1_t1_loop.trips, ∀ a, (k1_off14 k1_t1) a + S1x80.size a ≤ S125x80.size a
  k1_off15_inb : ∀ (i : grid1.Coords) (k1_t1 : Fin k1_t1_loop.trips), ∀ (k1_h3 : k1_cond3 k1_t1 = 1#1), ∀ a, (k1_off15 i) a + S80x128.size a ≤ S320000x128.size a
  k1_t3_ok : k1_t3_loop.OK
  k1_off16_inb : ∀ k1_t3 : Fin k1_t3_loop.trips, ∀ a, (k1_off16 k1_t3) a + S1x16.size a ≤ S80x128.size a
  k1_off17_inb : ∀ k1_t3 : Fin k1_t3_loop.trips, ∀ a, (k1_off17 k1_t3) a + S1x16.size a ≤ S80x128.size a
  k1_off18_inb : ∀ k1_t3 : Fin k1_t3_loop.trips, ∀ a, (k1_off18 k1_t3) a + S1x16.size a ≤ S80x128.size a
  k1_off19_inb : ∀ k1_t3 : Fin k1_t3_loop.trips, ∀ a, (k1_off19 k1_t3) a + S1x16.size a ≤ S80x128.size a
  k1_off20_inb : ∀ k1_t3 : Fin k1_t3_loop.trips, ∀ a, (k1_off20 k1_t3) a + S1x16.size a ≤ S80x128.size a
  k1_off21_inb : ∀ k1_t3 : Fin k1_t3_loop.trips, ∀ a, (k1_off21 k1_t3) a + S1x16.size a ≤ S80x128.size a
  k1_off22_inb : ∀ k1_t3 : Fin k1_t3_loop.trips, ∀ a, (k1_off22 k1_t3) a + S1x16.size a ≤ S80x128.size a
  k1_off23_inb : ∀ k1_t3 : Fin k1_t3_loop.trips, ∀ a, (k1_off23 k1_t3) a + S1x16.size a ≤ S80x128.size a
  k1_off24_inb : ∀ (i : grid1.Coords) (k1_t1 : Fin k1_t1_loop.trips), ∀ a, (k1_off24 i k1_t1) a + S80x128.size a ≤ S320000x128.size a
  k1_off25_inb : ∀ k1_t1 : Fin k1_t1_loop.trips, ∀ (k1_h4 : k1_cond4 k1_t1 = 1#1), ∀ a, (k1_off25 k1_t1) a + S1x80.size a ≤ S125x80.size a
  k1_off26_inb : ∀ i : grid1.Coords, ∀ (k1_h5 : k1_cond5 = 1#1), ∀ a, (k1_off26 i) a + S80x128.size a ≤ S320000x128.size a
  k1_t4_ok : k1_t4_loop.OK
  k1_off27_inb : ∀ k1_t4 : Fin k1_t4_loop.trips, ∀ a, (k1_off27 k1_t4) a + S1x16.size a ≤ S80x128.size a
  k1_off28_inb : ∀ k1_t4 : Fin k1_t4_loop.trips, ∀ a, (k1_off28 k1_t4) a + S1x16.size a ≤ S80x128.size a
  k1_off29_inb : ∀ k1_t4 : Fin k1_t4_loop.trips, ∀ a, (k1_off29 k1_t4) a + S1x16.size a ≤ S80x128.size a
  k1_off30_inb : ∀ k1_t4 : Fin k1_t4_loop.trips, ∀ a, (k1_off30 k1_t4) a + S1x16.size a ≤ S80x128.size a
  k1_off31_inb : ∀ k1_t4 : Fin k1_t4_loop.trips, ∀ a, (k1_off31 k1_t4) a + S1x16.size a ≤ S80x128.size a
  k1_off32_inb : ∀ k1_t4 : Fin k1_t4_loop.trips, ∀ a, (k1_off32 k1_t4) a + S1x16.size a ≤ S80x128.size a
  k1_off33_inb : ∀ k1_t4 : Fin k1_t4_loop.trips, ∀ a, (k1_off33 k1_t4) a + S1x16.size a ≤ S80x128.size a
  k1_off34_inb : ∀ k1_t4 : Fin k1_t4_loop.trips, ∀ a, (k1_off34 k1_t4) a + S1x16.size a ≤ S80x128.size a
  k1_off35_inb : ∀ i : grid1.Coords, ∀ a, (k1_off35 i) a + S80x128.size a ≤ S320000x128.size a
  k1_off36_inb : ∀ i : grid1.Coords, ∀ a, (k1_off36 i) a + S80x128.size a ≤ S320000x128.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S320000x128.size a
  hwx2_0 : ∀ i : grid2.Coords, EltTy.bits .f32 = 32 ∨ (Rect.block (s := S320000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S320000x16.size a
  hwx2_1 : ∀ i : grid2.Coords, EltTy.bits .f32 = 32 ∨ (Rect.block (s := S320000x16) S10000x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x4.size a ≤ S320000x4.size a
  hwx2_2 : ∀ i : grid2.Coords, EltTy.bits .f32 = 32 ∨ (Rect.block (s := S320000x4) S10000x4.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16x128.size a ≤ S16x128.size a
  hwx2_4 : ∀ i : grid2.Coords, EltTy.bits .f32 = 32 ∨ (Rect.block (s := S16x128) S16x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S4x128.size a ≤ S4x128.size a
  hwx2_5 : ∀ i : grid2.Coords, EltTy.bits .f32 = 32 ∨ (Rect.block (s := S4x128) S4x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x128.size a ≤ S320000x128.size a
  hwx2_7 : ∀ i : grid2.Coords, EltTy.bits .f32 = 32 ∨ (Rect.block (s := S320000x128) S10000x128.size (cc2_transform_7 i) (hinb2_7 i)).WholeWords (EltTy.packing .f32)

variable [Facts₀]

abbrev cc1_scratch8 : DmaSems sig S_ := SemArray.consecutive 6 S_ hcc1_scratch8
abbrev cc1_scratch9 : DmaSems sig S_ := SemArray.consecutive 7 S_ hcc1_scratch9
abbrev cc1_scratch10 : DmaSems sig S_ := SemArray.consecutive 8 S_ hcc1_scratch10
abbrev cc1_scratch11 : DmaSems sig S_ := SemArray.consecutive 9 S_ hcc1_scratch11
abbrev cc1_scratch12 : DmaSems sig S_ := SemArray.consecutive 10 S_ hcc1_scratch12
abbrev cc1_scratch13 : DmaSems sig S_ := SemArray.consecutive 11 S_ hcc1_scratch13
abbrev cc1_scoped0 : DmaSems sig S_ := SemArray.consecutive 12 S_ hcc1_scoped0
abbrev cc1_scoped1 : DmaSems sig S_ := SemArray.consecutive 13 S_ hcc1_scoped1
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf
def dot_S10000x4_S4x128_S10000x128_1_0_0_1_n_n : DotDims S10000x4 S4x128 S10000x128 where
  lhsContracting := [1]
  rhsContracting := [0]
  lhsNonContracting := [0]
  rhsNonContracting := [1]
  lhsBatch := []
  rhsBatch := []
  wf := dot_S10000x4_S4x128_S10000x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win2_0 : Pipeline.Window sig grid2 :=
  Pipeline.Window.ofSpec (Memref.whole main_v9) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S10000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S10000x4.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v11) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v12) S16x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v13) S4x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v14) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v15) S10000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S320000x4 : Shape := ⟨2, ![320000, 4]⟩
abbrev S320000x16 : Shape := ⟨2, ![320000, 16]⟩
abbrev S_ : Shape := ⟨0, ![]⟩
abbrev S128x128 : Shape := ⟨2, ![128, 128]⟩
abbrev S128 : Shape := ⟨1, ![128]⟩
abbrev S128x148 : Shape := ⟨2, ![128, 148]⟩
abbrev S1x128 : Shape := ⟨2, ![1, 128]⟩
abbrev S1x320000 : Shape := ⟨2, ![1, 320000]⟩
abbrev S320000 : Shape := ⟨1, ![320000]⟩
abbrev S320000x1 : Shape := ⟨2, ![320000, 1]⟩
abbrev S1 : Shape := ⟨1, ![1]⟩
abbrev S1x1 : Shape := ⟨2, ![1, 1]⟩
abbrev S320000x128 : Shape := ⟨2, ![320000, 128]⟩
abbrev S320000x148 : Shape := ⟨2, ![320000, 148]⟩
abbrev S148x128 : Shape := ⟨2, ![148, 128]⟩

abbrev nBuf : Space → Nat
  | .hbm => 74
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000x4, .f32⟩
  | .hbm, ⟨3, _⟩ => ⟨S320000x16, .f32⟩
  | .hbm, ⟨4, _⟩ => ⟨S_, .i32⟩
  | .hbm, ⟨5, _⟩ => ⟨S128x128, .f32⟩
  | .hbm, ⟨6, _⟩ => ⟨S128, .f32⟩
  | .hbm, ⟨7, _⟩ => ⟨S128x148, .f32⟩
  | .hbm, ⟨8, _⟩ => ⟨S128, .f32⟩
  | .hbm, ⟨9, _⟩ => ⟨S128x128, .f32⟩
  | .hbm, ⟨10, _⟩ => ⟨S10000x128, .f32⟩
  | .hbm, ⟨11, _⟩ => ⟨S1x128, .f32⟩
  | .hbm, ⟨12, _⟩ => ⟨S10000x128, .f32⟩
  | .hbm, ⟨13, _⟩ => ⟨S10000x128, .f32⟩
  | .hbm, ⟨14, _⟩ => ⟨S1x320000, .i32⟩
  | .hbm, ⟨15, _⟩ => ⟨S320000, .i32⟩
  | .hbm, ⟨16, _⟩ => ⟨S_, .i32⟩
  | .hbm, ⟨17, _⟩ => ⟨S320000, .i32⟩
  | .hbm, ⟨18, _⟩ => ⟨S320000, .i1⟩
  | .hbm, ⟨19, _⟩ => ⟨S_, .i32⟩
  | .hbm, ⟨20, _⟩ => ⟨S320000, .i32⟩
  | .hbm, ⟨21, _⟩ => ⟨S320000, .i32⟩
  | .hbm, ⟨22, _⟩ => ⟨S320000, .i32⟩
  | .hbm, ⟨23, _⟩ => ⟨S320000x1, .i32⟩
  | .hbm, ⟨24, _⟩ => ⟨S1, .i32⟩
  | .hbm, ⟨25, _⟩ => ⟨S_, .i32⟩
  | .hbm, ⟨26, _⟩ => ⟨S320000x1, .i32⟩
  | .hbm, ⟨27, _⟩ => ⟨S320000x1, .i1⟩
  | .hbm, ⟨28, _⟩ => ⟨S1x1, .i32⟩
  | .hbm, ⟨29, _⟩ => ⟨S320000x1, .i32⟩
  | .hbm, ⟨30, _⟩ => ⟨S320000x1, .i1⟩
  | .hbm, ⟨31, _⟩ => ⟨S320000x1, .i1⟩
  | .hbm, ⟨32, _⟩ => ⟨S_, .i1⟩
  | .hbm, ⟨33, _⟩ => ⟨S320000, .i1⟩
  | .hbm, ⟨34, _⟩ => ⟨S320000x128, .f32⟩
  | .hbm, ⟨35, _⟩ => ⟨S320000x128, .i1⟩
  | .hbm, ⟨36, _⟩ => ⟨S_, .f32⟩
  | .hbm, ⟨37, _⟩ => ⟨S320000x128, .f32⟩
  | .hbm, ⟨38, _⟩ => ⟨S320000x128, .f32⟩
  | .hbm, ⟨39, _⟩ => ⟨S1x320000, .i32⟩
  | .hbm, ⟨40, _⟩ => ⟨S320000, .i32⟩
  | .hbm, ⟨41, _⟩ => ⟨S_, .i32⟩
  | .hbm, ⟨42, _⟩ => ⟨S320000, .i32⟩
  | .hbm, ⟨43, _⟩ => ⟨S320000, .i1⟩
  | .hbm, ⟨44, _⟩ => ⟨S_, .i32⟩
  | .hbm, ⟨45, _⟩ => ⟨S320000, .i32⟩
  | .hbm, ⟨46, _⟩ => ⟨S320000, .i32⟩
  | .hbm, ⟨47, _⟩ => ⟨S320000, .i32⟩
  | .hbm, ⟨48, _⟩ => ⟨S320000x1, .i32⟩
  | .hbm, ⟨49, _⟩ => ⟨S1, .i32⟩
  | .hbm, ⟨50, _⟩ => ⟨S_, .i32⟩
  | .hbm, ⟨51, _⟩ => ⟨S320000x1, .i32⟩
  | .hbm, ⟨52, _⟩ => ⟨S320000x1, .i1⟩
  | .hbm, ⟨53, _⟩ => ⟨S1x1, .i32⟩
  | .hbm, ⟨54, _⟩ => ⟨S320000x1, .i32⟩
  | .hbm, ⟨55, _⟩ => ⟨S320000x1, .i1⟩
  | .hbm, ⟨56, _⟩ => ⟨S320000x1, .i1⟩
  | .hbm, ⟨57, _⟩ => ⟨S_, .i1⟩
  | .hbm, ⟨58, _⟩ => ⟨S320000, .i1⟩
  | .hbm, ⟨59, _⟩ => ⟨S320000x128, .f32⟩
  | .hbm, ⟨60, _⟩ => ⟨S320000x128, .i1⟩
  | .hbm, ⟨61, _⟩ => ⟨S_, .f32⟩
  | .hbm, ⟨62, _⟩ => ⟨S320000x128, .f32⟩
  | .hbm, ⟨63, _⟩ => ⟨S320000x128, .f32⟩
  | .hbm, ⟨64, _⟩ => ⟨S320000x128, .f32⟩
  | .hbm, ⟨65, _⟩ => ⟨S_, .f32⟩
  | .hbm, ⟨66, _⟩ => ⟨S320000x128, .f32⟩
  | .hbm, ⟨67, _⟩ => ⟨S320000x128, .f32⟩
  | .hbm, ⟨68, _⟩ => ⟨S320000x148, .f32⟩
  | .hbm, ⟨69, _⟩ => ⟨S148x128, .f32⟩
  | .hbm, ⟨70, _⟩ => ⟨S320000x128, .f32⟩
  | .hbm, ⟨71, _⟩ => ⟨S1x128, .f32⟩
  | .hbm, ⟨72, _⟩ => ⟨S320000x128, .f32⟩
  | .hbm, ⟨73, _⟩ => ⟨S320000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v10 : Ref sig .tc := ⟨.hbm, 63, rfl⟩
abbrev main_v11 : Ref sig .tc := ⟨.hbm, 64, rfl⟩
abbrev main_call2_cst : Ref sig .tc := ⟨.hbm, 65, rfl⟩
abbrev main_call2_v0 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  slices_S2x320000_S1x320000_0_0 : S2x320000.Slices ![0, 0] S1x320000
  shapeCasts_S1x320000_S320000 : S1x320000.ShapeCasts S320000
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  slices_S2x320000_S1x320000_1_0 : S2x320000.Slices ![1, 0] S1x320000
  concatenates_S320000x128_S320000x16_S320000x4_S320000x148_d1 : Shape.Concatenates [S320000x128, S320000x16, S320000x4] S320000x148 1
  transposes_S128x148_S148x128_1_0 : S128x148.Transposes [1, 0] S148x128
  bcast_S1x128_S320000x128_0_1 : S1x128.BroadcastsInDim S320000x128 (![0, 1] : Fin 2 → Fin S320000x128.rank)
  dot_S10000x128_S128x128_S10000x128_1_0_0_1_n_n_wf : DotDims.WF S10000x128 S128x128 S10000x128 [1] [0] [0] [1] [] []
  gather_S10000x128_S320000x1_S320000x128_1_0_n_n_0_1_1128_wf : GatherDims.WF S10000x128 S320000x1 S320000x128 [1] [0] [] [0] [] 1 ![1, 128]
  dot_S320000x148_S148x128_S320000x128_1_0_0_1_n_n_wf : DotDims.WF S320000x148 S148x128 S320000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S320000x148_S148x128_S320000x128_1_0_0_1_n_n : DotDims S320000x148 S148x128 S320000x128 where
  lhsContracting := [1]
  rhsContracting := [0]
  lhsNonContracting := [0]
  rhsNonContracting := [1]
  lhsBatch := []
  rhsBatch := []
  wf := dot_S320000x148_S148x128_S320000x128_1_0_0_1_n_n_wf

class Facts : Prop extends Facts₀ where

variable [Facts]
-- ==== Proof.OnKernelIdeal.Setup.lean ====
/-
  The view the SparseCore launch theorem takes of this program: one vector-subcore call (the gather of node
  rows and their rectified sum) between two TensorCore kernel regions (the node projection before it, the edge
  projection after it). Fixed here once, for every module of the frame: the call table, the body table under the
  two pipelines, the variants, the stated facts of the call table, and the ghost-state algebra — the handshakes'
  rounds, the two pipelines' staging cells' rounds, and the transfers' counters side by side.
-/
import Idealize.ShloMosaic.Lib.SparseCore.Launch
import Idealize.ShloMosaic.Lib.StableHlo.Run
import Idealize.ShloMosaic.Lib.Pipeline.Kit
import Idealize.ShloMosaic.Lib.Tactic
import proofs.«206094_g687194767628_cont_sun_c4_81_43_alg».proof.Proof.Gen.KernelIdeal
import proofs.«206094_g687194767628_cont_sun_c4_81_43_alg».proof.Proof.Gen.KernelIdeal.Skeleton
import proofs.«206094_g687194767628_cont_sun_c4_81_43_alg».proof.Proof.Gen.KernelIdeal.Launch

noncomputable section

namespace Cert.Proof.OnKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' staging cells' rounds, the transfers' counters -/

abbrev UH : Type := URounds (GSem nD τ sig) ℕ
abbrev UP : Type := URounds (GSem nD τ sig) Unit
abbrev UU : Type := UH × (UP × Counters)

/-- The handshakes' rounds: the left factor. The counters are found by instance in the right. -/
abbrev EH : Emb UH (MT nD τ sig (HIx 1) (Elt F) ℕ UU ℕ) := embL

/-- The pipelines' staging cells' rounds: the left factor of the right factor. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP (MT nD τ sig (HIx 1) (Elt F) ℕ UU ℕ)).LandsIn (upEmb : UEmb _ (MT nD τ sig (HIx 1) (Elt F) ℕ UU ℕ)) := by
  unfold EP embR; infer_instance

example : CountersIn UU := inferInstance

end Cert.Proof.OnKernelIdeal

end
-- ==== Proof.OnKernelIdeal.TcData.lean ====
/-
  The two TensorCore kernel regions of the program — the node projection (pipeline 0) and the edge projection
  (pipeline 1) — as the pipeline library sees them: per region, each window's block at a grid point read off the
  arrays as the region finds them, what the body leaves in the output window's buffer as a function of the input
  blocks (the body's one store, its payload the skeleton's), and the proof data of the pipeline on a core. The
  arrays at entry, what the core owes throughout the region and the bound on its recorded waits are parameters:
  the launch instantiates them per region.
-/
import proofs.«206094_g687194767628_cont_sun_c4_81_43_alg».proof.Proof.OnKernelIdeal.Setup
import proofs.«206094_g687194767628_cont_sun_c4_81_43_alg».proof.Proof.Gen.KernelIdeal.Points
import Idealize.ShloMosaic.Lib.Pipeline.FrameBody
import Idealize.ShloMosaic.Lib.Pipeline.RegionsLoop
import Idealize.ShloMosaic.Lib.Tactic

set_option maxRecDepth 16384

noncomputable section

namespace Cert.Proof.OnKernelIdeal.Tc

open Cert.KernelIdeal Cert.KernelIdeal.Gen
open Cert.Proof.OnKernelIdeal

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The prefetched tables' admissible contents: no pipeline has a table. -/
abbrev adm : (p : Fin 2) → (pcfgs (F := F) p).Adm := fun p => (cfgs p).toPCfg_adm

/-- A region's invariant between grid points: the core's scoped buffers that are no staging buffer of the
    region, at some contents each, and its generator register at some state. The bodies touch neither. -/
def ΦR {gr : Nat} {W : Nat} (win : Fin W → Pipeline.WinSpec sig gr) (c : Dev nD) : sProp 𝕄 :=
  iprop(Pipeline.scopedRest (Ix := HIx 1) (Name := ℕ) (U := UU) (Lvl := ℕ) (Val := Elt F) win c ∗ ∃ r, prngReg c r)

section Regions
variable (V : (c : Dev nD) → (b : Ref sig .tc) → Buf (Elt F) ((c : Thread nD τ).loc b))
variable (O : Dev nD → CellTallies nD τ sig (HIx 1)) (B : Dev nD → Set (SemLoc sig × HIx 1))

/-! # The node projection (pipeline 0) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S1000x128 := Rect.unit (s := S1000x128) ![0, 0] S1000x128.size inb_S1000x128_S1000x128_0_0
abbrev r0_w : Rect S128x128 := Rect.unit (s := S128x128) ![0, 0] S128x128.size inb_S128x128_S128x128_0_0
abbrev r0_b : Rect S1x128 := Rect.unit (s := S1x128) ![0, 0] S1x128.size inb_S1x128_S1x128_0_0

/-- The output window's buffer after the body, from the input blocks: the one store's payload over the whole buffer. -/
def out0_3 (x0 : Vec F S1000x128 .f32) (x1 : Vec F S128x128 .f32) (x2 : Vec F S1x128 .f32) : Vec F S1000x128 .f32 :=
  View.canon [⟨r0_x, k0_pay1 (View.ld x0 r0_x) (View.ld x1 r0_w) (View.ld x2 r0_b)⟩]

/-- The store covers the buffer. -/
theorem cover0_3 (p0 : Vec F S1000x128 .f32) (y : S1000x128.Idx) :
    ∃ pc ∈ ([⟨r0_x, p0⟩] : List (View.Piece (Elt F) S1000x128 .f32)), y ∈ pc.1.set :=
  View.cover_of_tiled [⟨r0_x, p0⟩] S1000x128.size (by rfl) y

/-- The proof data of the node projection on core `c`: the arrays as the region finds them; after the body at point
    `t` each input's buffer at its block and the output's at the body's payload of the input blocks; the invariant
    `ΦR`; the core owing `O c` throughout, its recorded waits within `B c`; full shares. -/
def dat0 (c : Dev nD) : Dat τ (Elt F) (HIx 1) ℕ UU ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := ΦR spec0 c
  q _ := fullShare
  owed _ := O c
  recorded _ := B c

theorem A_eq0 (c : Dev nD) (w : Fin cfg0.W) : (dat0 V O B c).A w = V c (Pipeline.arrRef spec0 w) := by
  dsimp only [dat0]

theorem after0_0 (c : Dev nD) (t : Fin cfg0.N) : (dat0 V O B c).after 0 t = iblk0 V c 0 t := by dsimp only [dat0]
theorem after0_1 (c : Dev nD) (t : Fin cfg0.N) : (dat0 V O B c).after 1 t = iblk0 V c 1 t := by dsimp only [dat0]
theorem after0_2 (c : Dev nD) (t : Fin cfg0.N) : (dat0 V O B c).after 2 t = iblk0 V c 2 t := by dsimp only [dat0]
theorem after0_3 (c : Dev nD) (t : Fin cfg0.N) :
    (dat0 V O B c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V O B c).before 0 t d = iblk0 V c 0 t :=
  ((dat0 V O B c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V O B c).before 1 t d = iblk0 V c 1 t :=
  ((dat0 V O B c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V O B c).before 2 t d = iblk0 V c 2 t :=
  ((dat0 V O B c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! # The edge projection (pipeline 1) -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S10000x128 := Rect.unit (s := S10000x128) ![0, 0] S10000x128.size inb_S10000x128_S10000x128_0_0
abbrev r2_a : Rect S10000x16 := Rect.unit (s := S10000x16) ![0, 0] S10000x16.size inb_S10000x16_S10000x16_0_0
abbrev r2_f : Rect S10000x4 := Rect.unit (s := S10000x4) ![0, 0] S10000x4.size inb_S10000x4_S10000x4_0_0
abbrev r2_wa : Rect S128x128 := Rect.unit (s := S128x128) ![0, 0] S128x128.size inb_S128x128_S128x128_0_0
abbrev r2_wb : Rect S16x128 := Rect.unit (s := S16x128) ![0, 0] S16x128.size inb_S16x128_S16x128_0_0
abbrev r2_wc : Rect S4x128 := Rect.unit (s := S4x128) ![0, 0] S4x128.size inb_S4x128_S4x128_0_0
abbrev r2_b : Rect S1x128 := Rect.unit (s := S1x128) ![0, 0] S1x128.size inb_S1x128_S1x128_0_0

/-- The output window's buffer after the body, from the input blocks: the one store's payload over the whole buffer. -/
def out2_7 (x0 : Vec F S10000x128 .f32) (x1 : Vec F S10000x16 .f32) (x2 : Vec F S10000x4 .f32) (x3 : Vec F S128x128 .f32)
    (x4 : Vec F S16x128 .f32) (x5 : Vec F S4x128 .f32) (x6 : Vec F S1x128 .f32) : Vec F S10000x128 .f32 :=
  View.canon [⟨r2_x, k2_pay1 (View.ld x0 r2_x) (View.ld x3 r2_wa) (View.ld x1 r2_a) (View.ld x4 r2_wb) (View.ld x2 r2_f) (View.ld x5 r2_wc) (View.ld x6 r2_b)⟩]

/-- The store covers the buffer. -/
theorem cover2_7 (p0 : Vec F S10000x128 .f32) (y : S10000x128.Idx) :
    ∃ pc ∈ ([⟨r2_x, p0⟩] : List (View.Piece (Elt F) S10000x128 .f32)), y ∈ pc.1.set :=
  View.cover_of_tiled [⟨r2_x, p0⟩] S10000x128.size (by rfl) y

/-- The proof data of the edge projection on core `c`: as `dat0`. -/
def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := ΦR spec2 c
  q _ := fullShare
  owed _ := O c
  recorded _ := B c

theorem A_eq2 (c : Dev nD) (w : Fin cfg2.W) : (dat2 V O B c).A w = V c (Pipeline.arrRef spec2 w) := by
  dsimp only [dat2]

theorem after2_0 (c : Dev nD) (t : Fin cfg2.N) : (dat2 V O B c).after 0 t = iblk2 V c 0 t := by dsimp only [dat2]
theorem after2_1 (c : Dev nD) (t : Fin cfg2.N) : (dat2 V O B c).after 1 t = iblk2 V c 1 t := by dsimp only [dat2]
theorem after2_2 (c : Dev nD) (t : Fin cfg2.N) : (dat2 V O B c).after 2 t = iblk2 V c 2 t := by dsimp only [dat2]
theorem after2_3 (c : Dev nD) (t : Fin cfg2.N) : (dat2 V O B c).after 3 t = iblk2 V c 3 t := by dsimp only [dat2]
theorem after2_4 (c : Dev nD) (t : Fin cfg2.N) : (dat2 V O B c).after 4 t = iblk2 V c 4 t := by dsimp only [dat2]
theorem after2_5 (c : Dev nD) (t : Fin cfg2.N) : (dat2 V O B c).after 5 t = iblk2 V c 5 t := by dsimp only [dat2]
theorem after2_6 (c : Dev nD) (t : Fin cfg2.N) : (dat2 V O B c).after 6 t = iblk2 V c 6 t := by dsimp only [dat2]
theorem after2_7 (c : Dev nD) (t : Fin cfg2.N) :
    (dat2 V O B c).after 7 t = out2_7 (iblk2 V c 0 t) (iblk2 V c 1 t) (iblk2 V c 2 t) (iblk2 V c 3 t) (iblk2 V c 4 t) (iblk2 V c 5 t) (iblk2 V c 6 t) := by
  dsimp only [dat2]

theorem before2_0 (c : Dev nD) (t : Fin cfg2.N) (d) : (dat2 V O B c).before 0 t d = iblk2 V c 0 t :=
  ((dat2 V O B c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V O B c).before 1 t d = iblk2 V c 1 t :=
  ((dat2 V O B c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V O B c).before 2 t d = iblk2 V c 2 t :=
  ((dat2 V O B c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V O B c).before 3 t d = iblk2 V c 3 t :=
  ((dat2 V O B c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V O B c).before 4 t d = iblk2 V c 4 t :=
  ((dat2 V O B c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V O B c).before 5 t d = iblk2 V c 5 t :=
  ((dat2 V O B c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V O B c).before 6 t d = iblk2 V c 6 t :=
  ((dat2 V O B c).before_in_eq_fetched 6 rfl (fun _ => rfl) (fun _ _ _ => rfl)
    (fun t => by rw [after2_6]; unfold Dat.blockOf iblk2; rw [A_eq2]; try rfl) t d).trans
    (by unfold Dat.fetched Dat.blockOf iblk2; rw [A_eq2]; try rfl)

end Regions

/-! # The family -/

/-- Every pipeline's proof data: a literal match on the pipeline, so that the pipeline at a numeral reduces to the
    printed configuration. -/
def pdats (V : (c : Dev nD) → (b : Ref sig .tc) → Buf (Elt F) ((c : Thread nD τ).loc b))
    (O : Dev nD → CellTallies nD τ sig (HIx 1)) (B : Dev nD → Set (SemLoc sig × HIx 1)) :
    (p : Fin 2) → (c : Dev nD) → Dat τ (Elt F) (HIx 1) ℕ UU ℕ (Pipeline.pin (pcfgs (F := F)) adm p) c
  | ⟨0, _⟩ => fun c => dat0 V O B c
  | ⟨1, _⟩ => fun c => dat2 V O B c

end Cert.Proof.OnKernelIdeal.Tc

end
-- ==== Proof.OnKernelIdeal.Launch.lean ====
/-
  The launch of the program's thread family: what the one SparseCore call's handshakes carry (every SparseCore is
  handed its sixteen tasks' resources and hands back their results), how a SparseCore's operands are its tasks'
  side by side, and the launch element of the ghost state (the handshakes' rounds; the two TensorCore regions'
  staging cells' rounds, funded per device; the transfers' counters, which nothing here consumes).
  Parametric in what a task is handed and hands back.
-/
import proofs.«206094_g687194767628_cont_sun_c4_81_43_alg».proof.Proof.OnKernelIdeal.Setup
import proofs.«206094_g687194767628_cont_sun_c4_81_43_alg».proof.Proof.OnKernelIdeal.TcData

noncomputable section

namespace Cert.Proof.OnKernelIdeal.Launch

open Cert.KernelIdeal Cert.KernelIdeal.Gen Cert.Proof.OnKernelIdeal

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## What the handshakes carry -/

/-- What a task is handed, or hands back: one assertion per device, SparseCore and tile. -/
abbrev TaskRes (F : FTy → Type) : Type := Dev nD → Fin 2 → Fin 16 → sProp (MT nD τ sig (HIx 1) (Elt F) ℕ UU ℕ)

/-- The call hands SparseCore `c` its sixteen tasks' resources side by side and takes their results back the same
    way; a task is handed `goRes d c i` and hands back `tdRes d c i`. Nothing of the launch's is consumed. -/
def P (goRes tdRes : TaskRes F) : (K (F := F)).Pay (nD := nD) (Val := Elt F) (Name := ℕ) (U := UU) where
  st := fun q d c => match q with | 0 => bigSep Finset.univ fun i : Fin 16 => goRes d (Fin.cast nCore_zero c) i
  dn := fun q d c => match q with | 0 => bigSep Finset.univ fun i : Fin 16 => tdRes d (Fin.cast nCore_zero c) i
  go := fun q d c i => match q with | 0 => goRes d (Fin.cast nCore_zero c) (Fin.cast nSub_zero i)
  td := fun q d c i => match q with | 0 => tdRes d (Fin.cast nCore_zero c) (Fin.cast nSub_zero i)
  x := fun _ _ => iprop(emp)

/-- Every task resource can be stored in a handshake's invariant. -/
class TaskStorable (R : TaskRes F) : Prop where
  st : ∀ d c i, BI.Storable (upEmb : UEmb _ 𝕄) (R d c i)

instance (R : TaskRes F) [h : TaskStorable R] (d : Dev nD) (c : Fin 2) (i : Fin 16) : BI.Storable (upEmb : UEmb _ 𝕄) (R d c i) := h.st d c i

instance P_storable (goRes tdRes : TaskRes F) [TaskStorable goRes] [TaskStorable tdRes] : (P (F := F) goRes tdRes).IsStorable where
  st q d c := match q with | 0 => by unfold P; infer_instance
  dn q d c := match q with | 0 => by unfold P; infer_instance
  go q d c i := match q with
    | 0 => (inferInstance : BI.Storable (upEmb : UEmb _ 𝕄) (goRes d (Fin.cast nCore_zero c) (Fin.cast nSub_zero i)))
  td q d c i := match q with
    | 0 => (inferInstance : BI.Storable (upEmb : UEmb _ 𝕄) (tdRes d (Fin.cast nCore_zero c) (Fin.cast nSub_zero i)))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's operands ARE its tasks' resources side by side, and its results their results. -/
theorem vecSplit (goRes tdRes : TaskRes F) : (K (F := F)).VecSplit' (P goRes tdRes) 0 := by
  intro d c
  show (bigSep Finset.univ fun i : Fin 16 => goRes d (Fin.cast nCore_zero c) i) ⊢ |={Set.univ}=> iprop(
      (bigSep Finset.univ fun i : Fin ((K (F := F)).nSub 0) => goRes d (Fin.cast nCore_zero c) (Fin.cast nSub_zero i))
      ∗ ((bigSep Finset.univ fun i : Fin ((K (F := F)).nSub 0) => tdRes d (Fin.cast nCore_zero c) (Fin.cast nSub_zero i))
          -∗ bigSep Finset.univ fun i : Fin 16 => tdRes d (Fin.cast nCore_zero c) i))
  rw [bigSep_tasks (F := F) (fun i => goRes d (Fin.cast nCore_zero c) i), bigSep_tasks (F := F) (fun i => tdRes d (Fin.cast nCore_zero c) i)]
  iintro H; imodintro
  isplitl [H]; · iexact H
  iintro H; iexact H

/-! ## The launch element of the ghost state -/

/-- What @main's proof starts from on device `d`: both TensorCore regions' staging cells' ghost state and the
    tokens of the duties they will be paid. -/
def G (d : Dev nD) : sProp 𝕄 :=
  iprop((bigSep Finset.univ fun p : Fin 2 => Pipeline.cellsGhost (Pipeline.pin (pcfgs (F := F)) Tc.adm) EP p d) ∗ (bigSep Finset.univ fun p : Fin 2 => Pipeline.toksInit (Pipeline.pin (pcfgs (F := F)) Tc.adm) EP p d))

/-- The handshakes' rounds, the two regions' staging cells' rounds, and the counters' unit. -/
def u₀ : UU :=
  (initOf (K (F := F)).hsCells (K (F := F)).hsToks,
    (initOf (Pipeline.cells (nD := nD) (τ := τ) (Pipeline.pin (pcfgs (F := F)) Tc.adm) cellOf_inj) (Pipeline.launchToks (nD := nD) (τ := τ) (Pipeline.pin (pcfgs (F := F)) Tc.adm) cellOf_inj), 1))

theorem bigSep_emp' {I : Type} (s : Finset I) : (bigSep s fun _ => iprop(emp)) = (iprop(emp) : sProp 𝕄) := bigSep_emp_const s

theorem own_EP (a : UP) :
    (BI.own (((Emb.inl : Emb UP (UP × Counters)).trans (embR : Emb (UP × Counters) 𝕄)) a) : sProp 𝕄) = BI.own (EP (F := F) a) := rfl

theorem hu₀ (goRes tdRes : TaskRes F) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P goRes tdRes).x q thr) := by
  unfold u₀
  iintro Hu
  ihave H := (ownU_pair _ _) $$ Hu
  icases H with ⟨HH, HR⟩
  ihave HR' := (own_pair_emb (embR : Emb (UP × Counters) 𝕄) _ _) $$ HR
  icases HR' with ⟨HP, -⟩
  ihave HP' := (Entails.of_eq (own_EP (F := F) _)) $$ HP
  imod (Pipeline.fund_ghost (nD := nD) (τ := τ) (Pipeline.pin (pcfgs (F := F)) Tc.adm) (EP (F := F)) cellOf_inj) $$ HP' with HG
  icases HG with ⟨HG1, HG2⟩
  imodintro
  isplitl [HH]; · iexact HH
  isplitl [HG1 HG2]
  · unfold G; rw [bigSep_sep']
    isplitl [HG1]; · iexact HG1
    iexact HG2
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main as stretches of host operations around the three calls -/

/-- Before the node projection: the two rows of the edge list as flat vectors, the first weight transposed, the
    first bias as a row. -/
abbrev opsA : List (HloOp τ sig (Elt F)) :=
  [ StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 rfl shapeCasts_S1x320000_S320000,
    StableHlo.unary main_arg5 main_v4 ((transpose S128x128 [1, 0] · transposes_S128x128_S128x128_1_0) : (⟨S128x128, .f32⟩ : BufTy).Contents (Elt F) → (⟨S128x128, .f32⟩ : BufTy).Contents (Elt F)),
    StableHlo.reshape main_arg6 main_v5 rfl shapeCasts_S128_S1x128 ]

/-- Between the node projection and the gather: each edge-endpoint vector cut into the 32 tiles' 125 chunks of 80. -/
abbrev opsB : List (HloOp τ sig (Elt F)) :=
  [ StableHlo.reshape main_v1 main_v7 rfl shapeCasts_S320000_S32x125x80,
    StableHlo.reshape main_v3 main_v8 rfl shapeCasts_S320000_S32x125x80 ]

/-- Between the gather and the edge projection: the second weight transposed and cut into its three row bands, the
    second bias as a row. -/
abbrev opsC : List (HloOp τ sig (Elt F)) :=
  [ StableHlo.unary main_arg7 main_v10 ((transpose S148x128 [1, 0] · transposes_S128x148_S148x128_1_0) : (⟨S128x148, .f32⟩ : BufTy).Contents (Elt F) → (⟨S148x128, .f32⟩ : BufTy).Contents (Elt F)),
    StableHlo.unary main_v10 main_v11 ((extractStridedSlice S128x128 ![0, 0] · slices_S148x128_S128x128_0_0) : (⟨S148x128, .f32⟩ : BufTy).Contents (Elt F) → (⟨S128x128, .f32⟩ : BufTy).Contents (Elt F)),
    StableHlo.unary main_v10 main_v12 ((extractStridedSlice S16x128 ![128, 0] · slices_S148x128_S16x128_128_0) : (⟨S148x128, .f32⟩ : BufTy).Contents (Elt F) → (⟨S16x128, .f32⟩ : BufTy).Contents (Elt F)),
    StableHlo.unary main_v10 main_v13 ((extractStridedSlice S4x128 ![144, 0] · slices_S148x128_S4x128_144_0) : (⟨S148x128, .f32⟩ : BufTy).Contents (Elt F) → (⟨S4x128, .f32⟩ : BufTy).Contents (Elt F)),
    StableHlo.reshape main_arg8 main_v14 rfl shapeCasts_S128_S1x128 ]

theorem main_eq [FloatOps F] (d : Dev nD) : main (F := F) d =
    (StableHlo.seq opsA >>= fun _ =>
      Prog.lift (.customCall (SparseCore.inner (Pipeline.entry 0)) ()) >>= fun _ =>
      StableHlo.seq opsB >>= fun _ =>
      (sc (F := F)).run d 0 >>= fun _ =>
      StableHlo.seq opsC >>= fun _ =>
      Prog.lift (.customCall (SparseCore.inner (Pipeline.entry 1)) ()) >>= fun _ =>
      pure ⟨⟩) := by
  simp only [main, StableHlo.seq, bind_assoc, pure_bind]

end Cert.Proof.OnKernelIdeal.Launch

end
-- ==== Proof.OnKernelIdeal.TileRes.lean ====
/-
  One vector subcore's task of the gather kernel: what the task is handed and what it hands back, as
  functions of its place on the grid, and the statement of its body.

  The task at place (c, s) is task number w = 2 s + c of 32. It reads row w of the two index arrays
  (125 chunks of 80 node numbers each), gathers the 80 node rows each chunk names from the node
  features, and writes rows [10000 w + 80 t, 10000 w + 80 t + 80) of the result, chunk by chunk:
  row 10000 w + 80 t + r, lane j, is  max (h[src, j] + h[dst, j]) 0  with src, dst the r-th entries of
  chunk t of the two index rows.
-/
import Idealize.ShloMosaic.Lib.ValueIdx
import proofs.«206094_g687194767628_cont_sun_c4_81_43_alg».proof.Proof.OnKernelIdeal.Setup

noncomputable section

namespace Cert.Proof.OnKernelIdeal.Tile

open Cert.KernelIdeal Cert.KernelIdeal.Gen
open Cert.Proof.OnKernelIdeal

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The four arrays, as locations of a device and as the kernel's memrefs -/

/-- The node features (the first kernel's result), the two index arrays, the result. -/
abbrev hLoc (d : Dev nD) : Loc nD τ sig := (SparseCore.T d).loc main_v6
abbrev sLoc (d : Dev nD) : Loc nD τ sig := (SparseCore.T d).loc main_v7
abbrev dLoc (d : Dev nD) : Loc nD τ sig := (SparseCore.T d).loc main_v8
abbrev oLoc (d : Dev nD) : Loc nD τ sig := (SparseCore.T d).loc main_v9

abbrev hV : Memref sig .scVector .hbm S10000x128 .f32 := Memref.whole main_v6_scv
abbrev sV : Memref sig .scVector .hbm S32x125x80 .i32 := Memref.whole main_v7_scv
abbrev dV : Memref sig .scVector .hbm S32x125x80 .i32 := Memref.whole main_v8_scv
abbrev oV : Memref sig .scVector .hbm S320000x128 .f32 := Memref.whole main_v9_scv

/-! ## The place -/

abbrev cV (L : grid1.Coords) : Fin τ.nSC := (L 0).castLE hcore1
abbrev jV (L : grid1.Coords) : Fin τ.nSub := (L 1).castLE hsub1
/-- The task's thread. -/
abbrev thr (d : Dev nD) (L : grid1.Coords) : Thread nD τ := V d (cV L) (jV L)

/-- The task number of the place: 2 s + c. -/
def wid (L : grid1.Coords) : ℕ := 2 * (L 1).val + (L 0).val

theorem wid_lt (L : grid1.Coords) : wid L < 32 := by
  have h0 : (L 0).val < 2 := (L 0).isLt
  have h1 : (L 1).val < 16 := (L 1).isLt
  unfold wid; omega

/-- Row w of an index array, as the task slices it for its first two copies (squeezed to 125 × 80). -/
abbrev sRowK (L : grid1.Coords) : Memref sig .scVector .hbm S125x80 .i32 :=
  ((sV).slice (Rect.unit (s := S32x125x80) (k1_off1 L) S1x125x80.size (k1_off1_inb L)) (fun _ => rfl)).squeeze S125x80 squeezes_S1x125x80_S125x80
abbrev dRowK (L : grid1.Coords) : Memref sig .scVector .hbm S125x80 .i32 :=
  ((dV).slice (Rect.unit (s := S32x125x80) (k1_off1 L) S1x125x80.size (k1_off1_inb L)) (fun _ => rfl)).squeeze S125x80 squeezes_S1x125x80_S125x80

/-- The elements of row w of an index array. -/
abbrev idxSet (L : grid1.Coords) : Finset S32x125x80.Idx := (sRowK L).view.set

theorem outRect_inb (L : grid1.Coords) : ∀ a, (![10000 * wid L, 0] : Fin 2 → ℕ) a + (![10000, 128] : Fin 2 → ℕ) a ≤ S320000x128.size a := by
  have := wid_lt L
  intro a; fin_cases a
  · show 10000 * wid L + 10000 ≤ 320000; omega
  · show 0 + 128 ≤ 128; omega
/-- The task's 10000 rows of the result. -/
abbrev outRect (L : grid1.Coords) : Rect S320000x128 := Rect.unit (s := S320000x128) ![10000 * wid L, 0] ![10000, 128] (outRect_inb L)
abbrev outSet (L : grid1.Coords) : Finset S320000x128.Idx := (outRect L).set

/-! ## The value -/

variable [FloatOps F]

/-- One lane of the task's arithmetic: the sum of two node features, rectified. -/
def relu2 (a b : F .f32) : F .f32 := FloatOps.maximumf (FloatOps.addf a b) (Scalar.ofBits .f32 0x00000000#32)

/-- The node a 32-bit index word names among 10000: its unsigned value, clamped to the last node. -/
def nodeOf (w : BitVec 32) : Fin 10000 := ⟨min w.toNat 9999, by omega⟩

theorem nodeOf_val (w : BitVec 32) (h : w.toNat < 10000) : (nodeOf w).val = w.toNat := by
  show min w.toNat 9999 = w.toNat; omega

/-- Edge e of 320000 as (task, chunk, entry): e = 10000 w + 80 t + r. -/
def edgeIx (e : Fin 320000) : S32x125x80.Idx :=
  ix3 (⟨e.val / 10000, by have := e.isLt; omega⟩ : Fin 32) (⟨e.val % 10000 / 80, by omega⟩ : Fin 125) (⟨e.val % 80, by omega⟩ : Fin 80)

/-- The whole result as a function of the node features and the two index arrays: row e, lane j is
    relu2 of h[src e, j] and h[dst e, j]. A task's rows of it are this function on the task's row set. -/
def outRows (d : Dev nD) (hv : Buf (Elt F) (hLoc d)) (sv : Buf (Elt F) (sLoc d)) (dv : Buf (Elt F) (dLoc d)) : Buf (Elt F) (oLoc d) :=
  fun x => relu2 (F := F) (hv (ix2 (nodeOf (sv (edgeIx (x 0)))) (x 1))) (hv (ix2 (nodeOf (dv (edgeIx (x 0)))) (x 1)))

/-! ## What a task is handed and hands back -/

/-- Handed: a share q of the node features whole (every task reads arbitrary rows of them), the task's row of
    each index array outright, and the task's 10000 rows of the result at some contents. -/
def goRes (d : Dev nD) (L : grid1.Coords) (q : PosShare TreeShare) (hv : Buf (Elt F) (hLoc d)) (sv : Buf (Elt F) (sLoc d)) (dv : Buf (Elt F) (dLoc d)) : sProp 𝕄 :=
  iprop((hLoc d ↦{q} hv) ∗ (sLoc d ↦[idxSet L]{fullShare} sv) ∗ (dLoc d ↦[idxSet L]{fullShare} dv) ∗ ∃ f, oLoc d ↦[outSet L]{fullShare} f)

/-- Handed back: the same, the task's rows of the result at the value. -/
def tdRes (d : Dev nD) (L : grid1.Coords) (q : PosShare TreeShare) (hv : Buf (Elt F) (hLoc d)) (sv : Buf (Elt F) (sLoc d)) (dv : Buf (Elt F) (dLoc d)) : sProp 𝕄 :=
  iprop((hLoc d ↦{q} hv) ∗ (sLoc d ↦[idxSet L]{fullShare} sv) ∗ (dLoc d ↦[idxSet L]{fullShare} dv) ∗ (oLoc d ↦[outSet L]{fullShare} outRows d hv sv dv))

instance goRes_storable (d : Dev nD) (L : grid1.Coords) (q : PosShare TreeShare) (hv : Buf (Elt F) (hLoc d)) (sv : Buf (Elt F) (sLoc d)) (dv : Buf (Elt F) (dLoc d)) :
    BI.Storable (upEmb : UEmb _ 𝕄) (goRes d L q hv sv dv) := by unfold goRes; infer_instance
instance tdRes_storable (d : Dev nD) (L : grid1.Coords) (q : PosShare TreeShare) (hv : Buf (Elt F) (hLoc d)) (sv : Buf (Elt F) (sLoc d)) (dv : Buf (Elt F) (dLoc d)) :
    BI.Storable (upEmb : UEmb _ 𝕄) (tdRes d L q hv sv dv) := by unfold tdRes; infer_instance

/-- Every index word of the task's two rows names a node. -/
def IdxOK (d : Dev nD) (L : grid1.Coords) (sv : Buf (Elt F) (sLoc d)) (dv : Buf (Elt F) (dLoc d)) : Prop :=
  ∀ x ∈ idxSet L, (sv x).toNat < 10000 ∧ (dv x).toNat < 10000

/-- The kernel function on the task's operands, as the body table passes them. -/
abbrev tileProg (L : grid1.Coords) : Prog (TpuEff nD τ sig (Elt F) Λ₀ (.scVector (cV L) (jV L))) PUnit :=
  cc1__sc_body L hV (Memref.isWhole_whole _) sV (Memref.isWhole_whole _) dV (Memref.isWhole_whole _) oV (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    (Memref.whole cc1_scratch4) (Memref.isWhole_whole _) (Memref.whole cc1_scratch5) (Memref.isWhole_whole _)
    (Memref.whole cc1_scratch6) (Memref.isWhole_whole _) (Memref.whole cc1_scratch7) (Memref.isWhole_whole _)
    cc1_scratch8 cc1_scratch9 cc1_scratch10 cc1_scratch11 cc1_scratch12 cc1_scratch13 cc1_scoped0 cc1_scoped1

/-- The statement of the task's body: from what it is handed, its scratch and semaphores and what it owes the
    launch, the kernel function runs to its end and hands back the value. -/
def TileBody (d : Dev nD) (L : grid1.Coords) : Prop :=
  ∀ (q : PosShare TreeShare) (hv : Buf (Elt F) (hLoc d)) (sv : Buf (Elt F) (sLoc d)) (dv : Buf (Elt F) (dLoc d)) (_ : IdxOK (F := F) d L sv dv)
    (O : CellTallies nD τ sig (HIx 1)) (W : Waits sig (HIx 1)) (_ : ∀ g, O g none = 0),
    iprop(levAts (K (F := F)).L (K (F := F)).lev ∗ emp ∗ goRes d L q hv sv dv
        ∗ scopedBufs (thr d L) ∗ scopedSems0 (thr d L) ∗ owes (thr d L) O W)
      ⊢ wp frame (wpE (defs₀ (F := F)) 𝒱₀ (thr d L) none) Set.univ (tileProg (F := F) L)
          fun _ => iprop(tdRes d L q hv sv dv ∗ scopedBufs (thr d L) ∗ scopedSems0 (thr d L)
            ∗ ∃ W', ⌜∀ p ∈ W', p ∈ W ∨ p.2 = none⌝ ∗ owes (thr d L) O W')

/-! ## The body's statement in the launch theorem's spelling of thread and program -/

/-- The place of SparseCore c, vector subcore s of the kernel's grid. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 () = SparseCore.onTile hcore1 hsub1 (fun c s => tileProg (F := F) (coordsV c s)) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The place of task i of SparseCore c of the call. -/
abbrev placeOf (c : Fin ((K (F := F)).nCore 0)) (i : Fin ((K (F := F)).nSub 0)) : grid1.Coords :=
  coordsV ⟨((K (F := F)).core 0 c).val, c.isLt⟩ ⟨((K (F := F)).sub 0 i).val, i.isLt⟩

/-- From the body's statement at every place: the launch theorem's obligation for task i of SparseCore c, for
    whatever share and contents the launch hands the task. -/
theorem tile_obl (hb : ∀ d L, TileBody (F := F) d L) (d : Dev nD) (c : Fin ((K (F := F)).nCore 0)) (i : Fin ((K (F := F)).nSub 0))
    (q : PosShare TreeShare) (hv : Buf (Elt F) (hLoc d)) (sv : Buf (Elt F) (sLoc d)) (dv : Buf (Elt F) (dLoc d))
    (hidx : IdxOK (F := F) d (placeOf (F := F) c i) sv dv)
    (O : CellTallies nD τ sig (HIx 1)) (W : Waits sig (HIx 1)) (hO : ∀ g, O g none = 0) :
    iprop(levAts (K (F := F)).L (K (F := F)).lev ∗ emp ∗ goRes d (placeOf (F := F) c i) q hv sv dv
        ∗ scopedBufs (V d ((K (F := F)).core 0 c) ((K (F := F)).sub 0 i)) ∗ scopedSems0 (V d ((K (F := F)).core 0 c) ((K (F := F)).sub 0 i))
        ∗ owes (V d ((K (F := F)).core 0 c) ((K (F := F)).sub 0 i)) O W)
      ⊢ wp frame (wpE (D (F := F)) 𝒱 (V d ((K (F := F)).core 0 c) ((K (F := F)).sub 0 i)) (some v₀)) Set.univ
          (D (F := F) (.scVector ((K (F := F)).core 0 c) ((K (F := F)).sub 0 i)) ((K (F := F)).body 0) ((K (F := F)).args 0)) fun _ =>
          iprop(tdRes d (placeOf (F := F) c i) q hv sv dv
            ∗ scopedBufs (V d ((K (F := F)).core 0 c) ((K (F := F)).sub 0 i)) ∗ scopedSems0 (V d ((K (F := F)).core 0 c) ((K (F := F)).sub 0 i))
            ∗ ∃ W', ⌜∀ p ∈ W', p ∈ W ∨ p.2 = none ∨ p.2 = some (0 : Fin 1)⌝ ∗ owes (V d ((K (F := F)).core 0 c) ((K (F := F)).sub 0 i)) O W') := by
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (hb d (placeOf (F := F) c i) q hv sv dv hidx O W hO).trans (wp_mono frame _ _ fun _ => obl_post)

end Cert.Proof.OnKernelIdeal.Tile

end
-- ==== Proof.OnKernelIdeal.TileSplit.lean ====
/-
  How the four whole arrays of the gather kernel are dealt to its 32 tasks and gathered back.

  Task (c, i) — vector subcore i of SparseCore c — is task number w = 2 i + c of 32; (c, i) ↦ w is a
  bijection of 2 × 16 onto 32. The node features are read whole by every task: their full share is cut into
  one read token per task and a remainder. Each index array is cut along its first axis into its 32 rows,
  the result along its first axis into 32 blocks of 10000 rows; task w is dealt row w and block w. The
  parts are pairwise disjoint and cover, so a whole points-to is the separating conjunction of its parts,
  in both directions.
-/
import proofs.«206094_g687194767628_cont_sun_c4_81_43_alg».proof.Proof.OnKernelIdeal.TileRes

noncomputable section

namespace Cert.Proof.OnKernelIdeal.Tile

open Cert.KernelIdeal Cert.KernelIdeal.Gen
open Cert.Proof.OnKernelIdeal

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The task number as a bijection of 2 × 16 onto 32 -/

/-- The task number of SparseCore c's vector subcore i: 2 i + c. -/
def tileNo (c : Fin 2) (i : Fin 16) : Fin 32 := ⟨2 * i.val + c.val, by have := c.isLt; have := i.isLt; omega⟩

theorem wid_coordsV (c : Fin 2) (i : Fin 16) : wid (coordsV c i) = (tileNo c i).val := rfl

/-- The read token of the node features dealt to the task. -/
abbrev qTile (c : Fin 2) (i : Fin 16) : PosShare TreeShare := Transfers.shareTok fullShare 32 (tileNo c i)

theorem tileNo_injective : Function.Injective fun p : Fin 2 × Fin 16 => tileNo p.1 p.2 := by
  rintro ⟨c, i⟩ ⟨c', i'⟩ h
  have h' : 2 * i.val + c.val = 2 * i'.val + c'.val := congrArg Fin.val h
  have := c.isLt; have := c'.isLt
  refine Prod.ext (Fin.ext ?_) (Fin.ext ?_)
  · show c.val = c'.val; omega
  · show i.val = i'.val; omega

theorem tileNo_surjective : Function.Surjective fun p : Fin 2 × Fin 16 => tileNo p.1 p.2 := by
  intro j
  have hj := j.isLt
  refine ⟨(⟨j.val % 2, Nat.mod_lt _ (by omega)⟩, ⟨j.val / 2, by omega⟩), Fin.ext ?_⟩
  show 2 * (j.val / 2) + j.val % 2 = j.val
  omega

/-- A separating conjunction over the 32 tasks, taken SparseCore by SparseCore and subcore by subcore. -/
theorem bigSep_tiles (Φ : Fin 32 → sProp 𝕄) :
    bigSep Finset.univ Φ = bigSep Finset.univ fun c : Fin 2 => bigSep Finset.univ fun i : Fin 16 => Φ (tileNo c i) :=
  (congrArg (fun s => bigSep s Φ) (Finset.image_univ_of_surjective tileNo_surjective).symm).trans
    ((SparseCore.bigSep_image_of_injOn (tileNo_injective.injOn) Φ).trans (bigSep_univ_prod _))

/-! ## The rows of an index array and the blocks of the result -/

theorem hdivI : 32 ∣ S32x125x80.size 0 := ⟨1, rfl⟩
theorem hdivO : 32 ∣ S320000x128.size 0 := ⟨10000, rfl⟩

/-- Row w of an index array; block w of the result. -/
abbrev iPart (w : Fin 32) : Rect S32x125x80 := Rect.part (s := S32x125x80) (a₀ := 0) hdivI w
abbrev oPart (w : Fin 32) : Rect S320000x128 := Rect.part (s := S320000x128) (a₀ := 0) hdivO w

/-- The task's slice of an index array is row w. -/
theorem idxRect_eq (c : Fin 2) (i : Fin 16) :
    Rect.unit (s := S32x125x80) (k1_off1 (coordsV c i)) S1x125x80.size (k1_off1_inb (coordsV c i)) = iPart (tileNo c i) := by
  unfold iPart Rect.part Rect.block
  congr 1 <;> funext a
  · rw [k1_off1_eq]
    match a with
    | 0 => simp [Shape.partIx, Shape.partSize, coordsV, tileNo]
    | 1 => simp [Shape.partIx, Shape.partSize]
    | 2 => simp [Shape.partIx, Shape.partSize]
  · match a with
    | 0 => simp [Shape.partSize]
    | 1 => simp [Shape.partSize]
    | 2 => simp [Shape.partSize]

theorem idxSet_eq (c : Fin 2) (i : Fin 16) : idxSet (coordsV c i) = (iPart (tileNo c i)).set := by
  show (((View.whole (main_v7_scv : Ref sig .scVector)).slice
      (Rect.unit (s := S32x125x80) (k1_off1 (coordsV c i)) S1x125x80.size (k1_off1_inb (coordsV c i)))).reshape S125x80
        squeezes_S1x125x80_S125x80.numel_eq).set = _
  rw [View.set_reshape, View.set_slice_whole]
  exact idxRect_eq c i ▸ rfl

/-- The task's rows of the result are block w. -/
theorem outRect_eq (c : Fin 2) (i : Fin 16) : outRect (coordsV c i) = oPart (tileNo c i) := by
  unfold outRect oPart Rect.part Rect.block
  congr 1 <;> funext a
  · match a with
    | 0 => simp [Shape.partIx, Shape.partSize, wid_coordsV, Nat.mul_comm]
    | 1 => simp [Shape.partIx, Shape.partSize]
  · match a with
    | 0 => simp [Shape.partSize]
    | 1 => simp [Shape.partSize]

theorem outSet_eq (c : Fin 2) (i : Fin 16) : outSet (coordsV c i) = (oPart (tileNo c i)).set := by
  show (outRect (coordsV c i)).set = _
  rw [outRect_eq]

theorem iParts_disjoint : ∀ w ∈ (Finset.univ : Finset (Fin 32)), ∀ w' ∈ (Finset.univ : Finset (Fin 32)), w ≠ w' → Disjoint (iPart w).set (iPart w').set :=
  fun _ _ _ _ h => Rect.part_disjoint hdivI h
theorem oParts_disjoint : ∀ w ∈ (Finset.univ : Finset (Fin 32)), ∀ w' ∈ (Finset.univ : Finset (Fin 32)), w ≠ w' → Disjoint (oPart w).set (oPart w').set :=
  fun _ _ _ _ h => Rect.part_disjoint hdivO h

/-! ## A whole array is the separating conjunction of its 32 parts -/

theorem sPts_parts (d : Dev nD) (f : Buf (Elt F) (sLoc d)) :
    (sLoc d ↦{fullShare} f : sProp 𝕄) = bigSep Finset.univ fun w : Fin 32 => sLoc d ↦[(iPart w).set]{fullShare} f := by
  rw [← pointsTo_biUnion Finset.univ (ℓ := sLoc d) (fun w : Fin 32 => (iPart w).set) iParts_disjoint, Rect.biUnion_part hdivI]; try rfl
theorem dPts_parts (d : Dev nD) (f : Buf (Elt F) (dLoc d)) :
    (dLoc d ↦{fullShare} f : sProp 𝕄) = bigSep Finset.univ fun w : Fin 32 => dLoc d ↦[(iPart w).set]{fullShare} f := by
  rw [← pointsTo_biUnion Finset.univ (ℓ := dLoc d) (fun w : Fin 32 => (iPart w).set) iParts_disjoint, Rect.biUnion_part hdivI]; try rfl
theorem oPts_parts (d : Dev nD) (f : Buf (Elt F) (oLoc d)) :
    (oLoc d ↦{fullShare} f : sProp 𝕄) = bigSep Finset.univ fun w : Fin 32 => oLoc d ↦[(oPart w).set]{fullShare} f := by
  rw [← pointsTo_biUnion Finset.univ (ℓ := oLoc d) (fun w : Fin 32 => (oPart w).set) oParts_disjoint, Rect.biUnion_part hdivO]; try rfl

/-- A block of the result at given contents is that block at some contents; so for all 32 at once. -/
theorem oPart_some (d : Dev nD) (w : Fin 32) (f0 : Buf (Elt F) (oLoc d)) :
    (oLoc d ↦[(oPart w).set]{fullShare} f0 : sProp 𝕄) ⊢ iprop(∃ f, oLoc d ↦[(oPart w).set]{fullShare} f) := by
  iintro H; iexists f0; iexact H
theorem oParts_some (d : Dev nD) (f0 : Buf (Elt F) (oLoc d)) :
    (bigSep Finset.univ fun w : Fin 32 => (oLoc d ↦[(oPart w).set]{fullShare} f0 : sProp 𝕄))
      ⊢ bigSep Finset.univ fun w : Fin 32 => (iprop(∃ f, oLoc d ↦[(oPart w).set]{fullShare} f) : sProp 𝕄) :=
  bigSep_mono fun w _ => oPart_some d w f0

/-! ## What task w is handed and hands back, by its number -/

/-- What task w is handed: its read token, its row of each index array, its block of the result at some contents. -/
def goW (d : Dev nD) (w : Fin 32) (hv : Buf (Elt F) (hLoc d)) (sv : Buf (Elt F) (sLoc d)) (dv : Buf (Elt F) (dLoc d)) : sProp 𝕄 :=
  iprop((hLoc d ↦{Transfers.shareTok fullShare 32 w} hv) ∗ (sLoc d ↦[(iPart w).set]{fullShare} sv) ∗ (dLoc d ↦[(iPart w).set]{fullShare} dv)
    ∗ ∃ f, oLoc d ↦[(oPart w).set]{fullShare} f)

/-- What task w hands back: the same, its block of the result at the value. -/
def tdW [FloatOps F] (d : Dev nD) (w : Fin 32) (hv : Buf (Elt F) (hLoc d)) (sv : Buf (Elt F) (sLoc d)) (dv : Buf (Elt F) (dLoc d)) : sProp 𝕄 :=
  iprop((hLoc d ↦{Transfers.shareTok fullShare 32 w} hv) ∗ (sLoc d ↦[(iPart w).set]{fullShare} sv) ∗ (dLoc d ↦[(iPart w).set]{fullShare} dv)
    ∗ (oLoc d ↦[(oPart w).set]{fullShare} outRows d hv sv dv))

theorem goRes_eq (d : Dev nD) (c : Fin 2) (i : Fin 16) (hv : Buf (Elt F) (hLoc d)) (sv : Buf (Elt F) (sLoc d)) (dv : Buf (Elt F) (dLoc d)) :
    goRes d (coordsV c i) (qTile c i) hv sv dv = goW d (tileNo c i) hv sv dv := by
  unfold goRes goW; rw [idxSet_eq, outSet_eq]

theorem tdRes_eq [FloatOps F] (d : Dev nD) (c : Fin 2) (i : Fin 16) (hv : Buf (Elt F) (hLoc d)) (sv : Buf (Elt F) (sLoc d)) (dv : Buf (Elt F) (dLoc d)) :
    tdRes d (coordsV c i) (qTile c i) hv sv dv = tdW d (tileNo c i) hv sv dv := by
  unfold tdRes tdW; rw [idxSet_eq, outSet_eq]

theorem goRes_tiles (d : Dev nD) (hv : Buf (Elt F) (hLoc d)) (sv : Buf (Elt F) (sLoc d)) (dv : Buf (Elt F) (dLoc d)) :
    (bigSep Finset.univ fun c : Fin 2 => bigSep Finset.univ fun i : Fin 16 => goRes d (coordsV c i) (qTile c i) hv sv dv)
      = bigSep Finset.univ fun w : Fin 32 => goW d w hv sv dv := by
  rw [bigSep_tiles (F := F) fun w => goW d w hv sv dv]
  exact bigSep_congr fun c _ => bigSep_congr fun i _ => goRes_eq d c i hv sv dv

theorem tdRes_tiles [FloatOps F] (d : Dev nD) (hv : Buf (Elt F) (hLoc d)) (sv : Buf (Elt F) (sLoc d)) (dv : Buf (Elt F) (dLoc d)) :
    (bigSep Finset.univ fun c : Fin 2 => bigSep Finset.univ fun i : Fin 16 => tdRes d (coordsV c i) (qTile c i) hv sv dv)
      = bigSep Finset.univ fun w : Fin 32 => tdW d w hv sv dv := by
  rw [bigSep_tiles (F := F) fun w => tdW d w hv sv dv]
  exact bigSep_congr fun c _ => bigSep_congr fun i _ => tdRes_eq d c i hv sv dv

/-! ## The split and the join -/

/-- The four whole arrays, dealt: the remainder of the node features' share is kept; every task gets its read
    token, its row of each index array, and its block of the result at the contents the result had. -/
theorem arrays_split (d : Dev nD) (hv : Buf (Elt F) (hLoc d)) (sv : Buf (Elt F) (sLoc d)) (dv : Buf (Elt F) (dLoc d)) (f0 : Buf (Elt F) (oLoc d)) :
    iprop((hLoc d ↦{fullShare} hv) ∗ (sLoc d ↦{fullShare} sv) ∗ (dLoc d ↦{fullShare} dv) ∗ (oLoc d ↦{fullShare} f0))
      ⊢ (iprop((hLoc d ↦{Transfers.shareDrop fullShare 32} hv)
          ∗ bigSep Finset.univ fun c : Fin 2 => bigSep Finset.univ fun i : Fin 16 => goRes d (coordsV c i) (qTile c i) hv sv dv) : sProp 𝕄) := by
  rw [goRes_tiles]
  unfold goW
  rw [bigSep_sep', bigSep_sep', bigSep_sep', sPts_parts, dPts_parts, oPts_parts]
  iintro ⟨Hh, Hs, Hd, Ho⟩
  ihave Hh' := (Transfers.pointsTo_toks_split fullShare 32) $$ Hh
  icases Hh' with ⟨Hr, Ht⟩
  isplitl [Hr]; · iexact Hr
  isplitl [Ht]; · iexact Ht
  isplitl [Hs]; · iexact Hs
  isplitl [Hd]; · iexact Hd
  iapply (oParts_some d f0); iexact Ho

/-- The tasks' resources, gathered: the read tokens and the remainder make the node features' full share again,
    the rows make each index array, and the blocks — each at the one function of the operands — make the result
    at that function. -/
theorem arrays_join [FloatOps F] (d : Dev nD) (hv : Buf (Elt F) (hLoc d)) (sv : Buf (Elt F) (sLoc d)) (dv : Buf (Elt F) (dLoc d)) :
    iprop((hLoc d ↦{Transfers.shareDrop fullShare 32} hv)
          ∗ bigSep Finset.univ fun c : Fin 2 => bigSep Finset.univ fun i : Fin 16 => tdRes d (coordsV c i) (qTile c i) hv sv dv)
      ⊢ (iprop((hLoc d ↦{fullShare} hv) ∗ (sLoc d ↦{fullShare} sv) ∗ (dLoc d ↦{fullShare} dv) ∗ (oLoc d ↦{fullShare} outRows d hv sv dv)) : sProp 𝕄) := by
  rw [tdRes_tiles]
  unfold tdW
  rw [bigSep_sep', bigSep_sep', bigSep_sep', sPts_parts, dPts_parts, oPts_parts]
  iintro ⟨Hr, Ht, Hs, Hd, Ho⟩
  isplitl [Hr Ht]
  · iapply (Transfers.pointsTo_toks_join fullShare 32)
    isplitl [Hr]; · iexact Hr
    iexact Ht
  isplitl [Hs]; · iexact Hs
  isplitl [Hd]; · iexact Hd
  iexact Ho

/-! ## The launch's own numbering of SparseCores and subcores -/

/-- The place of the call's task i of SparseCore c is the place of (c, i). -/
theorem placeOf_eq (c : Fin ((K (F := F)).nCore 0)) (i : Fin ((K (F := F)).nSub 0)) :
    placeOf (F := F) c i = coordsV (Fin.cast nCore_zero c) (Fin.cast nSub_zero i) := rfl

/-- A separating conjunction over the call's SparseCores (subcores) is one over 2 (16). -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

end Cert.Proof.OnKernelIdeal.Tile

end
-- ==== Proof.OnKernelIdeal.TcBody0.lean ====
/-
  The body obligation of the node projection (pipeline 0) at a symbolic grid point: the body loads its three input
  blocks whole, and stores the payload (the block times the transposed weights, plus the bias row) over the whole
  output buffer; the invariant and what the core owes pass through unread.
-/
import proofs.«206094_g687194767628_cont_sun_c4_81_43_alg».proof.Proof.OnKernelIdeal.TcData

set_option maxRecDepth 16384

noncomputable section

namespace Cert.Proof.OnKernelIdeal.Tc

open Cert.KernelIdeal Cert.KernelIdeal.Gen
open Cert.Proof.OnKernelIdeal

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section
variable (V : (c : Dev nD) → (b : Ref sig .tc) → Buf (Elt F) ((c : Thread nD τ).loc b))
variable (O : Dev nD → CellTallies nD τ sig (HIx 1)) (B : Dev nD → Set (SemLoc sig × HIx 1))

set_option maxHeartbeats 1000000 in
/-- The body on whole staging memrefs, the inputs' at read contents and the output's at anything, runs to the
    continuation holding the inputs' as they were and the output's at `out0_3` of the inputs'. -/
theorem sound_kernel0 (c : Dev nD) (E : Set ℕ) (i : grid0.Coords)
    (arg1 : Memref sig .tc .vmem S1000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1000x128 .f32) (harg4 : arg4.IsWhole)
    (x0 : Vec F S1000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__lin1_body i arg1 harg1 arg2 harg2 arg3 harg3 arg4 harg4) K := by
  simp only [cc0__lin1_body_eq_skeleton]; unfold cc0__lin1_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- What the body is called with at point `t`, the windows one by one, -/
def bodyPre0 (c : Dev nD) (t : Fin cfg0.N) : sProp 𝕄 :=
  iprop((dat0 V O B c).Φ t.castSucc ∗ (dat0 V O B c).owesAt none t.castSucc
    ∗ (∃ d, owns (c : Thread nD τ) (st0_0 t) fullShare ((dat0 V O B c).before 0 t d))
    ∗ (∃ d, owns (c : Thread nD τ) (st0_1 t) fullShare ((dat0 V O B c).before 1 t d))
    ∗ (∃ d, owns (c : Thread nD τ) (st0_2 t) fullShare ((dat0 V O B c).before 2 t d))
    ∗ (∃ d, owns (c : Thread nD τ) (st0_3 t) fullShare ((dat0 V O B c).before 3 t d)))

/-- and what it returns. -/
def bodyPost0 (c : Dev nD) (t : Fin cfg0.N) : sProp 𝕄 :=
  iprop((dat0 V O B c).Φ t.succ ∗ (dat0 V O B c).owesAt none t.succ
    ∗ owns (c : Thread nD τ) (st0_0 t) fullShare ((dat0 V O B c).after 0 t)
    ∗ owns (c : Thread nD τ) (st0_1 t) fullShare ((dat0 V O B c).after 1 t)
    ∗ owns (c : Thread nD τ) (st0_2 t) fullShare ((dat0 V O B c).after 2 t)
    ∗ owns (c : Thread nD τ) (st0_3 t) fullShare ((dat0 V O B c).after 3 t))

/-- The body at any point: the inputs' memrefs hold their blocks, so `sound_kernel0` applies. -/
theorem sound_body0 (c : Dev nD) (t : Fin cfg0.N) :
    bodyPre0 V O B c t ⊢ wp frame (wpE (defs₀ (F := F)) Variants.none c none) Set.univ (bodyAt0 t) (fun _ => bodyPost0 V O B c t) := by
  unfold bodyPre0 bodyPost0 bodyAt0
  simp only [before0_0, before0_1, before0_2]
  rw [show (dat0 V O B c).Φ t.succ = (dat0 V O B c).Φ t.castSucc from rfl,
    show (dat0 V O B c).owesAt none t.succ = (dat0 V O B c).owesAt none t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V O B c) (defs₀ (F := F)) Variants.none none Set.univ := fun t => by
  rw [bigSep_W0, bigSep_W0]
  exact sound_body0 V O B c t

end

end Cert.Proof.OnKernelIdeal.Tc

end
-- ==== Proof.OnKernelIdeal.TcBody2.lean ====
/-
  The body obligation of the edge projection (pipeline 1) at a symbolic grid point: the body loads its seven input
  blocks whole, and stores the payload (the three products summed in the order the kernel sums them, plus the bias
  row) over the whole output buffer; the invariant and what the core owes pass through unread.
-/
import proofs.«206094_g687194767628_cont_sun_c4_81_43_alg».proof.Proof.OnKernelIdeal.TcData

set_option maxRecDepth 16384

noncomputable section

namespace Cert.Proof.OnKernelIdeal.Tc

open Cert.KernelIdeal Cert.KernelIdeal.Gen
open Cert.Proof.OnKernelIdeal

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section
variable (V : (c : Dev nD) → (b : Ref sig .tc) → Buf (Elt F) ((c : Thread nD τ).loc b))
variable (O : Dev nD → CellTallies nD τ sig (HIx 1)) (B : Dev nD → Set (SemLoc sig × HIx 1))

set_option maxHeartbeats 1000000 in
/-- The body on whole staging memrefs, the inputs' at read contents and the output's at anything, runs to the
    continuation holding the inputs' as they were and the output's at `out2_7` of the inputs'. -/
theorem sound_kernel2 (c : Dev nD) (E : Set ℕ) (i : grid2.Coords)
    (arg1 : Memref sig .tc .vmem S10000x128 .f32) (harg1 : arg1.IsWhole) (arg2 : Memref sig .tc .vmem S10000x16 .f32) (harg2 : arg2.IsWhole) (arg3 : Memref sig .tc .vmem S10000x4 .f32) (harg3 : arg3.IsWhole) (arg4 : Memref sig .tc .vmem S128x128 .f32) (harg4 : arg4.IsWhole) (arg5 : Memref sig .tc .vmem S16x128 .f32) (harg5 : arg5.IsWhole) (arg6 : Memref sig .tc .vmem S4x128 .f32) (harg6 : arg6.IsWhole) (arg7 : Memref sig .tc .vmem S1x128 .f32) (harg7 : arg7.IsWhole) (arg8 : Memref sig .tc .vmem S10000x128 .f32) (harg8 : arg8.IsWhole)
    (x0 : Vec F S10000x128 .f32) (x1 : Vec F S10000x16 .f32) (x2 : Vec F S10000x4 .f32) (x3 : Vec F S128x128 .f32) (x4 : Vec F S16x128 .f32) (x5 : Vec F S4x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out2_7 x0 x1 x2 x3 x4 x5 x6)) -∗ K ⟨⟩))
      ⊢ wp frame (wpE (defs₀ (F := F)) Variants.none c none) E (cc2__lin2_body i arg1 harg1 arg2 harg2 arg3 harg3 arg4 harg4 arg5 harg5 arg6 harg6 arg7 harg7 arg8 harg8) K := by
  simp only [cc2__lin2_body_eq_skeleton]; unfold cc2__lin2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-- What the body is called with at point `t`, the windows one by one, -/
def bodyPre2 (c : Dev nD) (t : Fin cfg2.N) : sProp 𝕄 :=
  iprop((dat2 V O B c).Φ t.castSucc ∗ (dat2 V O B c).owesAt none t.castSucc
    ∗ (∃ d, owns (c : Thread nD τ) (st2_0 t) fullShare ((dat2 V O B c).before 0 t d))
    ∗ (∃ d, owns (c : Thread nD τ) (st2_1 t) fullShare ((dat2 V O B c).before 1 t d))
    ∗ (∃ d, owns (c : Thread nD τ) (st2_2 t) fullShare ((dat2 V O B c).before 2 t d))
    ∗ (∃ d, owns (c : Thread nD τ) (st2_3 t) fullShare ((dat2 V O B c).before 3 t d))
    ∗ (∃ d, owns (c : Thread nD τ) (st2_4 t) fullShare ((dat2 V O B c).before 4 t d))
    ∗ (∃ d, owns (c : Thread nD τ) (st2_5 t) fullShare ((dat2 V O B c).before 5 t d))
    ∗ (∃ d, owns (c : Thread nD τ) (st2_6 t) fullShare ((dat2 V O B c).before 6 t d))
    ∗ (∃ d, owns (c : Thread nD τ) (st2_7 t) fullShare ((dat2 V O B c).before 7 t d)))

/-- and what it returns. -/
def bodyPost2 (c : Dev nD) (t : Fin cfg2.N) : sProp 𝕄 :=
  iprop((dat2 V O B c).Φ t.succ ∗ (dat2 V O B c).owesAt none t.succ
    ∗ owns (c : Thread nD τ) (st2_0 t) fullShare ((dat2 V O B c).after 0 t)
    ∗ owns (c : Thread nD τ) (st2_1 t) fullShare ((dat2 V O B c).after 1 t)
    ∗ owns (c : Thread nD τ) (st2_2 t) fullShare ((dat2 V O B c).after 2 t)
    ∗ owns (c : Thread nD τ) (st2_3 t) fullShare ((dat2 V O B c).after 3 t)
    ∗ owns (c : Thread nD τ) (st2_4 t) fullShare ((dat2 V O B c).after 4 t)
    ∗ owns (c : Thread nD τ) (st2_5 t) fullShare ((dat2 V O B c).after 5 t)
    ∗ owns (c : Thread nD τ) (st2_6 t) fullShare ((dat2 V O B c).after 6 t)
    ∗ owns (c : Thread nD τ) (st2_7 t) fullShare ((dat2 V O B c).after 7 t))

/-- The body at any point: the inputs' memrefs hold their blocks, so `sound_kernel2` applies. -/
theorem sound_body2 (c : Dev nD) (t : Fin cfg2.N) :
    bodyPre2 V O B c t ⊢ wp frame (wpE (defs₀ (F := F)) Variants.none c none) Set.univ (bodyAt2 t) (fun _ => bodyPost2 V O B c t) := by
  unfold bodyPre2 bodyPost2 bodyAt2
  simp only [before2_0, before2_1, before2_2, before2_3, before2_4, before2_5, before2_6]
  rw [show (dat2 V O B c).Φ t.succ = (dat2 V O B c).Φ t.castSucc from rfl,
    show (dat2 V O B c).owesAt none t.succ = (dat2 V O B c).owesAt none t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V O B c) (defs₀ (F := F)) Variants.none none Set.univ := fun t => by
  rw [bigSep_W2, bigSep_W2]
  exact sound_body2 V O B c t

end

end Cert.Proof.OnKernelIdeal.Tc

end
-- ==== Proof.OnKernelIdeal.TcRegion.lean ====
/-
  The two TensorCore kernel regions as the TensorCore thread meets them inside the program: each call, from the
  region boundary, every unscoped buffer at the entry contents, the generator register, what the core owes and the
  pipeline's staging cells' ghost state, runs to the boundary and every unscoped buffer at the exit contents — the
  region's arrays at what the pipeline's write-backs leave, every other buffer as entered.
-/
import proofs.«206094_g687194767628_cont_sun_c4_81_43_alg».proof.Proof.OnKernelIdeal.TcBody0
import proofs.«206094_g687194767628_cont_sun_c4_81_43_alg».proof.Proof.OnKernelIdeal.TcBody2
import Idealize.ShloMosaic.Lib.SparseCore.Threads

set_option maxRecDepth 16384

noncomputable section

namespace Cert.Proof.OnKernelIdeal.Tc

open Cert.KernelIdeal Cert.KernelIdeal.Gen
open Cert.Proof.OnKernelIdeal

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.SparseCore (T)

section
variable (V V' : (c : Dev nD) → (b : Ref sig .tc) → Buf (Elt F) ((c : Thread nD τ).loc b))
variable (O : Dev nD → CellTallies nD τ sig (HIx 1)) (B : Dev nD → Set (SemLoc sig × HIx 1))

/-- What the TensorCore holds around a kernel region: every unscoped buffer at a valuation, its generator register at
    some state, and what it owes, its recorded waits within a bound. -/
def tcHold (c : Dev nD) : sProp 𝕄 :=
  iprop(unscopedBufs c (V c) ∗ (∃ r, prngReg c r) ∗ ∃ W : Waits sig (HIx 1), ⌜(↑W : Set (SemLoc sig × HIx 1)) ⊆ B c⌝ ∗ owes (c : Thread nD τ) (O c) W)

set_option backward.isDefEq.respectTransparency.types false in
/-- The node projection as a kernel region over the thread state `tcHold`: entered from every unscoped buffer at `V`, left at
    `V'`. Its arrays are split out of the unscoped buffers and put back at the exit contents; the generator register
    goes into the invariant and comes out; what the core owes rides through; no semaphore of the kernel's own. -/
def reg0 (hO : ∀ c g, O c g none = 0) (hB : ∀ c, cfg0.waitPairs none ⊆ B c)
    (hF : ∀ c (w : Fin cfg0.W), (dat0 V O B c).arrAt w cfg0.N = V' c (Pipeline.arrRef spec0 w))
    (hrest : ∀ c b, b ∉ Finset.univ.image (Pipeline.arrRef spec0) → V' c b = V c b) :
    Pipeline.RegionSeg (pcfgs (F := F)) adm (pdats V O B) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 V O B c).loose
  hwaits c := Pipeline.cellsWaits_intro (Pipeline.pin (pcfgs (F := F)) adm) (pdats V O B) none 0 c fun w s t =>
    (K (F := F)).mayWait_none _ (hO c)
  pre c := tcHold V O B c
  post c := tcHold V' O B c
  X c := iprop(∃ r, prngReg c r)
  Y c := iprop(∃ r, prngReg c r)
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V O B) launch0.win launch0.arr_whole c
      ((pdats V O B 0 c).share_full fun _ => rfl) (V c) fun _ => rfl
    unfold tcHold
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitl [Hp]; · iexact Hp
    iexact Hrest
  hin c := by
    rw [show (pdats V O B 0 c).Φ 0 = ΦR spec0 c from rfl]; unfold ΦR
    iintro ⟨Hp, -, Hr⟩
    isplitl [Hr]; · iexact Hr
    iexact Hp
  hout c := by
    rw [Pipeline.ownSems0_none, show (pdats V O B 0 c).Φ (Fin.last _) = ΦR spec0 c from rfl]; unfold ΦR
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats V O B) ((pdats V O B 0 c).share_full fun _ => rfl)
      (V c) (V' c) ((pdats V O B 0 c).arrAt · cfg0.N) (hF c) (hrest c)
    unfold tcHold
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; exact fun x hx => (hW hx).elim id fun h => hB c h
    iexact HO

set_option backward.isDefEq.respectTransparency.types false in
/-- The node projection's region under the two pipelines' body table, before any continuation `k`: from the region boundary, the
    thread state at `V`, the level facts and the pipeline's staging cells' ghost state and duty tokens, the call runs to
    the boundary and the thread state at `V'`. -/
theorem region0_wpD (hO : ∀ c g, O c g none = 0) (hB : ∀ c, cfg0.waitPairs none ⊆ B c)
    (hF : ∀ c (w : Fin cfg0.W), (dat0 V O B c).arrAt w cfg0.N = V' c (Pipeline.arrRef spec0 w))
    (hrest : ∀ c b, b ∉ Finset.univ.image (Pipeline.arrRef spec0) → V' c b = V c b)
    (d : Dev nD) {α : Type} (k : PUnit → Prog (TpuEff nD τ sig (Elt F) (ΛP (F := F)) .tc) α) (Q : α → sProp 𝕄) :
    iprop((iprop(boundary (d : Thread nD τ) ∗ tcHold V' O B d) -∗ wp frame (wpE (D (F := F)) 𝒱 (d : Thread nD τ) none) Set.univ (k ⟨⟩) Q)
        ∗ boundary (d : Thread nD τ) ∗ tcHold V O B d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (d : Thread nD τ) none) Set.univ (.op (.customCall (Pipeline.entry 0) ()) k) Q :=
  Pipeline.RegionSeg.wp (pcfgs (F := F)) adm (pdats V O B) none cellOf_inj EP defs₀ 𝒱₀ (K (F := F)).L (K (F := F)).lev
    (reg0 V V' O B hO hB hF hrest) d none (fun _ h => by cases h) k Q

set_option maxHeartbeats 1000000 in
set_option backward.isDefEq.respectTransparency.types false in
/-- The same as the TensorCore thread meets it inside the program with the vector-subcore call: the call lifted to the
    extended body table, to any post. -/
theorem region0_wp (hO : ∀ c g, O c g none = 0) (hB : ∀ c, cfg0.waitPairs none ⊆ B c)
    (hF : ∀ c (w : Fin cfg0.W), (dat0 V O B c).arrAt w cfg0.N = V' c (Pipeline.arrRef spec0 w))
    (hrest : ∀ c b, b ∉ Finset.univ.image (Pipeline.arrRef spec0) → V' c b = V c b)
    (d : Dev nD) (Q : PUnit → sProp 𝕄) :
    iprop((iprop(boundary (T d) ∗ tcHold V' O B d) -∗ Q ⟨⟩)
        ∗ boundary (T d) ∗ tcHold V O B d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (T d) none) Set.univ
          (Prog.lift (.customCall (SparseCore.inner (Pipeline.entry 0)) ())) Q := by
  have hD := region0_wpD V V' O B hO hB hF hrest d (fun _ => (.ret ⟨⟩ : Prog (TpuEff nD τ sig (Elt F) (ΛP (F := F)) .tc) PUnit)) Q
  have hL := (K (F := F)).wp_liftProg (D (F := F)) 𝒱 (T d) (Set.univ : Set ℕ) none
    (.op (.customCall (Pipeline.entry 0) ()) fun _ => (.ret ⟨⟩ : Prog (TpuEff nD τ sig (Elt F) (ΛP (F := F)) .tc) PUnit)) Q
  refine .trans ?_ (hD.trans hL)
  iintro ⟨Hk, Hrest⟩
  isplitl [Hk]
  · iintro H; rw [wp_ret]; imodintro; iapply Hk; iexact H
  iexact Hrest

set_option backward.isDefEq.respectTransparency.types false in
/-- The edge projection as a kernel region over the thread state `tcHold`: entered from every unscoped buffer at `V`, left at
    `V'`. Its arrays are split out of the unscoped buffers and put back at the exit contents; the generator register
    goes into the invariant and comes out; what the core owes rides through; no semaphore of the kernel's own. -/
def reg1 (hO : ∀ c g, O c g none = 0) (hB : ∀ c, cfg2.waitPairs none ⊆ B c)
    (hF : ∀ c (w : Fin cfg2.W), (dat2 V O B c).arrAt w cfg2.N = V' c (Pipeline.arrRef spec2 w))
    (hrest : ∀ c b, b ∉ Finset.univ.image (Pipeline.arrRef spec2) → V' c b = V c b) :
    Pipeline.RegionSeg (pcfgs (F := F)) adm (pdats V O B) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 V O B c).loose
  hwaits c := Pipeline.cellsWaits_intro (Pipeline.pin (pcfgs (F := F)) adm) (pdats V O B) none 1 c fun w s t =>
    (K (F := F)).mayWait_none _ (hO c)
  pre c := tcHold V O B c
  post c := tcHold V' O B c
  X c := iprop(∃ r, prngReg c r)
  Y c := iprop(∃ r, prngReg c r)
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats V O B) launch2.win launch2.arr_whole c
      ((pdats V O B 1 c).share_full fun _ => rfl) (V c) fun _ => rfl
    unfold tcHold
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitl [Hp]; · iexact Hp
    iexact Hrest
  hin c := by
    rw [show (pdats V O B 1 c).Φ 0 = ΦR spec2 c from rfl]; unfold ΦR
    iintro ⟨Hp, -, Hr⟩
    isplitl [Hr]; · iexact Hr
    iexact Hp
  hout c := by
    rw [Pipeline.ownSems0_none, show (pdats V O B 1 c).Φ (Fin.last _) = ΦR spec2 c from rfl]; unfold ΦR
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats V O B) ((pdats V O B 1 c).share_full fun _ => rfl)
      (V c) (V' c) ((pdats V O B 1 c).arrAt · cfg2.N) (hF c) (hrest c)
    unfold tcHold
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; exact fun x hx => (hW hx).elim id fun h => hB c h
    iexact HO

set_option backward.isDefEq.respectTransparency.types false in
/-- The edge projection's region under the two pipelines' body table, before any continuation `k`: from the region boundary, the
    thread state at `V`, the level facts and the pipeline's staging cells' ghost state and duty tokens, the call runs to
    the boundary and the thread state at `V'`. -/
theorem region1_wpD (hO : ∀ c g, O c g none = 0) (hB : ∀ c, cfg2.waitPairs none ⊆ B c)
    (hF : ∀ c (w : Fin cfg2.W), (dat2 V O B c).arrAt w cfg2.N = V' c (Pipeline.arrRef spec2 w))
    (hrest : ∀ c b, b ∉ Finset.univ.image (Pipeline.arrRef spec2) → V' c b = V c b)
    (d : Dev nD) {α : Type} (k : PUnit → Prog (TpuEff nD τ sig (Elt F) (ΛP (F := F)) .tc) α) (Q : α → sProp 𝕄) :
    iprop((iprop(boundary (d : Thread nD τ) ∗ tcHold V' O B d) -∗ wp frame (wpE (D (F := F)) 𝒱 (d : Thread nD τ) none) Set.univ (k ⟨⟩) Q)
        ∗ boundary (d : Thread nD τ) ∗ tcHold V O B d ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE (D (F := F)) 𝒱 (d : Thread nD τ) none) Set.univ (.op (.customCall (Pipeline.entry 1) ()) k) Q :=
  Pipeline.RegionSeg.wp (pcfgs (F := F)) adm (pdats V O B) none cellOf_inj EP defs₀ 𝒱₀ (K (F := F)).L (K (F := F)).lev
    (reg1 V V' O B hO hB hF hrest) d none (fun _ h => by cases h) k Q

set_option maxHeartbeats 1000000 in
set_option backward.isDefEq.respectTransparency.types false in
/-- The same as the TensorCore thread meets it inside the program with the vector-subcore call: the call lifted to the
    extended body table, to any post. -/
theorem region1_wp (hO : ∀ c g, O c g none = 0) (hB : ∀ c, cfg2.waitPairs none ⊆ B c)
    (hF : ∀ c (w : Fin cfg2.W), (dat2 V O B c).arrAt w cfg2.N = V' c (Pipeline.arrRef spec2 w))
    (hrest : ∀ c b, b ∉ Finset.univ.image (Pipeline.arrRef spec2) → V' c b = V c b)
    (d : Dev nD) (Q : PUnit → sProp 𝕄) :
    iprop((iprop(boundary (T d) ∗ tcHold V' O B d) -∗ Q ⟨⟩)
        ∗ boundary (T d) ∗ tcHold V O B d ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (T d) none) Set.univ
          (Prog.lift (.customCall (SparseCore.inner (Pipeline.entry 1)) ())) Q := by
  have hD := region1_wpD V V' O B hO hB hF hrest d (fun _ => (.ret ⟨⟩ : Prog (TpuEff nD τ sig (Elt F) (ΛP (F := F)) .tc) PUnit)) Q
  have hL := (K (F := F)).wp_liftProg (D (F := F)) 𝒱 (T d) (Set.univ : Set ℕ) none
    (.op (.customCall (Pipeline.entry 1) ()) fun _ => (.ret ⟨⟩ : Prog (TpuEff nD τ sig (Elt F) (ΛP (F := F)) .tc) PUnit)) Q
  refine .trans ?_ (hD.trans hL)
  iintro ⟨Hk, Hrest⟩
  isplitl [Hk]
  · iintro H; rw [wp_ret]; imodintro; iapply Hk; iexact H
  iexact Hrest

end

end Cert.Proof.OnKernelIdeal.Tc

end
-- ==== Proof.OnKernelIdeal.TcStep.lean ====
/-
  The two kernel regions stepped over valuations of the TensorCore's buffers: the exit valuation of a region is the
  entry one with the region's result array at what the pipeline's write-backs leave; and the instance of what the
  TensorCore owes, and of the bound on its recorded waits, before call `n` of the vector-subcore protocol.
-/
import proofs.«206094_g687194767628_cont_sun_c4_81_43_alg».proof.Proof.OnKernelIdeal.TcRegion
import Idealize.ShloMosaic.Lib.StableHlo.Run

set_option maxRecDepth 16384

noncomputable section

namespace Cert.Proof.OnKernelIdeal.Tc

open Cert.KernelIdeal Cert.KernelIdeal.Gen
open Cert.Proof.OnKernelIdeal

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.SparseCore (T)

/-- A valuation of the device's buffers read at the TensorCore's references. -/
def Vr (W : Dev nD → Valuation τ sig (Elt F)) : (c : Dev nD) → (b : Ref sig .tc) → Buf (Elt F) ((c : Thread nD τ).loc b) :=
  fun c b => W c (Proc.devRef .tc b)

section
variable (W : Dev nD → Valuation τ sig (Elt F))
variable (O : Dev nD → CellTallies nD τ sig (HIx 1)) (B : Dev nD → Set (SemLoc sig × HIx 1))

/-- The valuation the node projection leaves: as entered, but the result array at what the pipeline's write-backs leave. -/
def R0 (W : Dev nD → Valuation τ sig (Elt F)) (O : Dev nD → CellTallies nD τ sig (HIx 1)) (B : Dev nD → Set (SemLoc sig × HIx 1)) :
    Dev nD → Valuation τ sig (Elt F) := fun c =>
  Function.update (W c) (Proc.devRef .tc main_v6) ((dat0 (Vr W) O B c).arrAt 3 cfg0.N)

theorem R0_out (c : Dev nD) : R0 W O B c (Proc.devRef .tc main_v6) = (dat0 (Vr W) O B c).arrAt 3 cfg0.N := by
  unfold R0; exact Function.update_self ..

theorem R0_of_ne (c : Dev nD) (b : Ref sig .tc) (hb : b ≠ main_v6) : R0 W O B c (Proc.devRef .tc b) = W c (Proc.devRef .tc b) := by
  unfold R0; exact Function.update_of_ne (StableHlo.devRef_ne_of_ne hb) _ _

/-- Each of the region's arrays ends at the exit valuation: an input as it began, the result at the update's own value. -/
theorem R0_arr (c : Dev nD) (w : Fin cfg0.W) : (dat0 (Vr W) O B c).arrAt w cfg0.N = Vr (R0 W O B) c (Pipeline.arrRef spec0 w) := by
  match w with
  | ⟨0, _⟩ => exact (((dat0 (Vr W) O B c).arrAt_in 0 rfl _).trans (A_eq0 (Vr W) O B c 0)).trans (R0_of_ne W O B c main_arg0 (by decide)).symm
  | ⟨1, _⟩ => exact (((dat0 (Vr W) O B c).arrAt_in 1 rfl _).trans (A_eq0 (Vr W) O B c 1)).trans (R0_of_ne W O B c main_v4 (by decide)).symm
  | ⟨2, _⟩ => exact (((dat0 (Vr W) O B c).arrAt_in 2 rfl _).trans (A_eq0 (Vr W) O B c 2)).trans (R0_of_ne W O B c main_v5 (by decide)).symm
  | ⟨3, _⟩ => exact (R0_out W O B c).symm

/-- Off the region's arrays the exit valuation is the entry one. -/
theorem R0_rest (c : Dev nD) (b : Ref sig .tc) (hb : b ∉ Finset.univ.image (Pipeline.arrRef spec0)) : Vr (R0 W O B) c b = Vr W c b :=
  R0_of_ne W O B c b fun e => hb (Finset.mem_image.mpr ⟨3, Finset.mem_univ _, e.symm⟩)

/-- The node projection's call as the TensorCore thread meets it, from the valuation `W` to `R0 W O B`. -/
theorem region0_step (hO : ∀ c g, O c g none = 0) (hB : ∀ c, cfg0.waitPairs none ⊆ B c) (d : Dev nD) (Q : PUnit → sProp 𝕄) :
    iprop((iprop(boundary (T d) ∗ tcHold (Vr (R0 W O B)) O B d) -∗ Q ⟨⟩)
        ∗ boundary (T d) ∗ tcHold (Vr W) O B d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (T d) none) Set.univ
          (Prog.lift (.customCall (SparseCore.inner (Pipeline.entry 0)) ())) Q :=
  region0_wp (Vr W) (Vr (R0 W O B)) O B hO hB (R0_arr W O B) (R0_rest W O B) d Q

/-- The valuation the edge projection leaves: as entered, but the result array at what the pipeline's write-backs leave. -/
def R1 (W : Dev nD → Valuation τ sig (Elt F)) (O : Dev nD → CellTallies nD τ sig (HIx 1)) (B : Dev nD → Set (SemLoc sig × HIx 1)) :
    Dev nD → Valuation τ sig (Elt F) := fun c =>
  Function.update (W c) (Proc.devRef .tc main_v15) ((dat2 (Vr W) O B c).arrAt 7 cfg2.N)

theorem R1_out (c : Dev nD) : R1 W O B c (Proc.devRef .tc main_v15) = (dat2 (Vr W) O B c).arrAt 7 cfg2.N := by
  unfold R1; exact Function.update_self ..

theorem R1_of_ne (c : Dev nD) (b : Ref sig .tc) (hb : b ≠ main_v15) : R1 W O B c (Proc.devRef .tc b) = W c (Proc.devRef .tc b) := by
  unfold R1; exact Function.update_of_ne (StableHlo.devRef_ne_of_ne hb) _ _

/-- Each of the region's arrays ends at the exit valuation: an input as it began, the result at the update's own value. -/
theorem R1_arr (c : Dev nD) (w : Fin cfg2.W) : (dat2 (Vr W) O B c).arrAt w cfg2.N = Vr (R1 W O B) c (Pipeline.arrRef spec2 w) := by
  match w with
  | ⟨0, _⟩ => exact (((dat2 (Vr W) O B c).arrAt_in 0 rfl _).trans (A_eq2 (Vr W) O B c 0)).trans (R1_of_ne W O B c main_v9 (by decide)).symm
  | ⟨1, _⟩ => exact (((dat2 (Vr W) O B c).arrAt_in 1 rfl _).trans (A_eq2 (Vr W) O B c 1)).trans (R1_of_ne W O B c main_arg3 (by decide)).symm
  | ⟨2, _⟩ => exact (((dat2 (Vr W) O B c).arrAt_in 2 rfl _).trans (A_eq2 (Vr W) O B c 2)).trans (R1_of_ne W O B c main_arg2 (by decide)).symm
  | ⟨3, _⟩ => exact (((dat2 (Vr W) O B c).arrAt_in 3 rfl _).trans (A_eq2 (Vr W) O B c 3)).trans (R1_of_ne W O B c main_v11 (by decide)).symm
  | ⟨4, _⟩ => exact (((dat2 (Vr W) O B c).arrAt_in 4 rfl _).trans (A_eq2 (Vr W) O B c 4)).trans (R1_of_ne W O B c main_v12 (by decide)).symm
  | ⟨5, _⟩ => exact (((dat2 (Vr W) O B c).arrAt_in 5 rfl _).trans (A_eq2 (Vr W) O B c 5)).trans (R1_of_ne W O B c main_v13 (by decide)).symm
  | ⟨6, _⟩ => exact (((dat2 (Vr W) O B c).arrAt_in 6 rfl _).trans (A_eq2 (Vr W) O B c 6)).trans (R1_of_ne W O B c main_v14 (by decide)).symm
  | ⟨7, _⟩ => exact (R1_out W O B c).symm

/-- Off the region's arrays the exit valuation is the entry one. -/
theorem R1_rest (c : Dev nD) (b : Ref sig .tc) (hb : b ∉ Finset.univ.image (Pipeline.arrRef spec2)) : Vr (R1 W O B) c b = Vr W c b :=
  R1_of_ne W O B c b fun e => hb (Finset.mem_image.mpr ⟨7, Finset.mem_univ _, e.symm⟩)

/-- The edge projection's call as the TensorCore thread meets it, from the valuation `W` to `R1 W O B`. -/
theorem region1_step (hO : ∀ c g, O c g none = 0) (hB : ∀ c, cfg2.waitPairs none ⊆ B c) (d : Dev nD) (Q : PUnit → sProp 𝕄) :
    iprop((iprop(boundary (T d) ∗ tcHold (Vr (R1 W O B)) O B d) -∗ Q ⟨⟩)
        ∗ boundary (T d) ∗ tcHold (Vr W) O B d ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (T d) none) Set.univ
          (Prog.lift (.customCall (SparseCore.inner (Pipeline.entry 1)) ())) Q :=
  region1_wp (Vr W) (Vr (R1 W O B)) O B hO hB (R1_arr W O B) (R1_rest W O B) d Q

end

/-! ## What the TensorCore owes before call `n`, and the bound on its recorded waits -/

/-- Before call `n` the TensorCore owes its start signals of the later calls. -/
abbrev Otc (n : ℕ) : Dev nD → CellTallies nD τ sig (HIx 1) := fun d => (K (F := F)).Otc d n
/-- Its recorded waits sit at or below level `8 n`. -/
abbrev Btc (n : ℕ) : Dev nD → Set (SemLoc sig × HIx 1) := fun d => {p | (K (F := F)).lev (T d, p.1) p.2 ≤ 8 * n}

/-- Every unit it owes is at a call's index. -/
theorem Otc_none (n : ℕ) (c : Dev nD) (g : GSem nD τ sig) : Otc (F := F) n c g none = 0 :=
  Nat.eq_zero_of_not_pos fun h => by
    have := SparseCore.Cfg.lev_of_Otc_pos (K := K (F := F)) h
    rw [SparseCore.Cfg.lev_none] at this; omega

/-- The pipelines' own waits, at the index of a kernel's own waits, sit at level 0. -/
theorem waitPairs_sub_Btc (cfg : Pipeline.Cfg sig Λ₀) (n : ℕ) (c : Dev nD) : cfg.waitPairs none ⊆ Btc (F := F) n c := by
  rintro p ⟨w, s, rfl⟩
  show (K (F := F)).lev _ none ≤ 8 * n
  rw [SparseCore.Cfg.lev_none]; exact Nat.zero_le _

/-- The handshake state's account of what the TensorCore owes before call `n` is the regions' account at this instance, -/
theorem owes_of_tcSt (n : ℕ) (d : Dev nD) :
    (iprop(∃ W, ⌜(K (F := F)).WBelow (T d) W (8 * n)⌝ ∗ owes (T d) ((K (F := F)).Otc d n) W) : sProp 𝕄)
      ⊢ iprop(∃ W : Waits sig (HIx 1), ⌜(↑W : Set (SemLoc sig × HIx 1)) ⊆ Btc (F := F) n d⌝ ∗ owes (d : Thread nD τ) (Otc (F := F) n d) W) := by
  iintro ⟨%W, %hW, H⟩; iexists W; isplitr; · ipureintro; exact fun p hp => hW p (Finset.mem_coe.mp hp)
  iexact H

/-- and back. -/
theorem tcSt_of_owes (n : ℕ) (d : Dev nD) :
    (iprop(∃ W : Waits sig (HIx 1), ⌜(↑W : Set (SemLoc sig × HIx 1)) ⊆ Btc (F := F) n d⌝ ∗ owes (d : Thread nD τ) (Otc (F := F) n d) W) : sProp 𝕄)
      ⊢ iprop(∃ W, ⌜(K (F := F)).WBelow (T d) W (8 * n)⌝ ∗ owes (T d) ((K (F := F)).Otc d n) W) := by
  iintro ⟨%W, %hW, H⟩; iexists W; isplitr; · ipureintro; exact fun p hp => hW (Finset.mem_coe.mpr hp)
  iexact H

end Cert.Proof.OnKernelIdeal.Tc

end
-- ==== Proof.OnKernelIdeal.Chain.lean ====
/-
  The contents of the TensorCore's arrays along @main, stage by stage, as functions of the launch contents: the
  three stretches of host operations each rewrite their results, the gather call rewrites its result to the
  rectified sums of gathered node rows, and every other array is carried through.
-/
import proofs.«206094_g687194767628_cont_sun_c4_81_43_alg».proof.Proof.OnKernelIdeal.Launch
import proofs.«206094_g687194767628_cont_sun_c4_81_43_alg».proof.Proof.OnKernelIdeal.TileRes

noncomputable section

namespace Cert.Proof.OnKernelIdeal.Chain

open Cert.KernelIdeal Cert.KernelIdeal.Gen
open Cert.Proof.OnKernelIdeal

open Idealize.ShloMosaic

variable {F : FTy → Type}

/-- The launch contents, device by device. -/
def W0 (m : (ℓ : Loc nD τ sig) → Buf (Elt F) ℓ) : Dev nD → Valuation τ sig (Elt F) := fun d b => m (d, b)

/-- After the host operations before the node projection. -/
def stA (W : Dev nD → Valuation τ sig (Elt F)) : Dev nD → Valuation τ sig (Elt F) :=
  fun d => StableHlo.after (Launch.opsA (F := F)) (W d)

/-- After the host operations between the node projection and the gather. -/
def stB (W : Dev nD → Valuation τ sig (Elt F)) : Dev nD → Valuation τ sig (Elt F) :=
  fun d => StableHlo.after (Launch.opsB (F := F)) (W d)

/-- After the host operations between the gather and the edge projection. -/
def stC (W : Dev nD → Valuation τ sig (Elt F)) : Dev nD → Valuation τ sig (Elt F) :=
  fun d => StableHlo.after (Launch.opsC (F := F)) (W d)

/-- After the gather call: its result is the rectified sums of the node rows the two index arrays name. -/
def Rsc [FloatOps F] (W : Dev nD → Valuation τ sig (Elt F)) : Dev nD → Valuation τ sig (Elt F) :=
  fun d => Function.update (W d) (Proc.devRef .tc main_v9)
    (Tile.outRows d (W d (Proc.devRef .tc main_v6)) (W d (Proc.devRef .tc main_v7)) (W d (Proc.devRef .tc main_v8)))

end Cert.Proof.OnKernelIdeal.Chain

end
-- ==== Proof.OnKernelIdeal.Main.lean ====
/-
  @main on the TensorCore, as the launch theorem asks for it: three stretches of host operations, the two
  kernel regions and the SparseCore call between them, each taking the arrays at one valuation to the next;
  and how the final memory reads the arguments and the result off what @main is left holding.
-/
import proofs.«206094_g687194767628_cont_sun_c4_81_43_alg».proof.Proof.OnKernelIdeal.Launch
import proofs.«206094_g687194767628_cont_sun_c4_81_43_alg».proof.Proof.OnKernelIdeal.TileSplit
import proofs.«206094_g687194767628_cont_sun_c4_81_43_alg».proof.Proof.OnKernelIdeal.TcStep
import proofs.«206094_g687194767628_cont_sun_c4_81_43_alg».proof.Proof.OnKernelIdeal.Chain

noncomputable section

namespace Cert.Proof.OnKernelIdeal.Main

open Cert.KernelIdeal Cert.KernelIdeal.Gen Cert.Proof.OnKernelIdeal Cert.Proof.OnKernelIdeal.Launch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

local notation "𝕄" => MT nD τ sig (HIx 1) (Elt F) ℕ UU ℕ

/-! ## The TensorCore's arrays, as device references -/

/-- @main's arrays: every reference of the TensorCore that is not scoped. -/
def Sun : Finset (DevRef τ sig) :=
  (Finset.univ.filter fun b : Ref sig .tc => ¬ b.isScoped).map ⟨Proc.devRef .tc, Proc.devRef_injective _⟩

/-- Holding them all whole at a valuation is holding @main's arrays at it. -/
theorem unscoped_held (d : Dev nD) (W : Valuation τ sig (Elt F)) :
    (unscopedBufs d (fun b => W (Proc.devRef .tc b)) : sProp 𝕄) = held (T d) Sun W := by
  unfold unscopedBufs held Sun
  rw [bigSep_map]; rfl

theorem opsA_sub : ∀ op ∈ (opsA : List (HloOp τ sig (Elt F))), op.bufs ⊆ Sun := by
  intro op hop
  simp only [opsA, List.mem_cons, List.mem_nil_iff, or_false] at hop
  rcases hop with rfl | rfl | rfl | rfl | rfl | rfl <;> first | (rw [StableHlo.unary_bufs]; decide) | (rw [StableHlo.reshape_bufs]; decide)
theorem opsB_sub : ∀ op ∈ (opsB : List (HloOp τ sig (Elt F))), op.bufs ⊆ Sun := by
  intro op hop
  simp only [opsB, List.mem_cons, List.mem_nil_iff, or_false] at hop
  rcases hop with rfl | rfl <;> first | (rw [StableHlo.unary_bufs]; decide) | (rw [StableHlo.reshape_bufs]; decide)
theorem opsC_sub : ∀ op ∈ (opsC : List (HloOp τ sig (Elt F))), op.bufs ⊆ Sun := by
  intro op hop
  simp only [opsC, List.mem_cons, List.mem_nil_iff, or_false] at hop
  rcases hop with rfl | rfl | rfl | rfl | rfl <;> first | (rw [StableHlo.unary_bufs]; decide) | (rw [StableHlo.reshape_bufs]; decide)

theorem opsA_fresh : ∀ op ∈ (opsA : List (HloOp τ sig (Elt F))), op.fresh = ∅ := by
  intro op hop
  simp only [opsA, List.mem_cons, List.mem_nil_iff, or_false] at hop
  rcases hop with rfl | rfl | rfl | rfl | rfl | rfl <;> rfl
theorem opsB_fresh : ∀ op ∈ (opsB : List (HloOp τ sig (Elt F))), op.fresh = ∅ := by
  intro op hop
  simp only [opsB, List.mem_cons, List.mem_nil_iff, or_false] at hop
  rcases hop with rfl | rfl <;> rfl
theorem opsC_fresh : ∀ op ∈ (opsC : List (HloOp τ sig (Elt F))), op.fresh = ∅ := by
  intro op hop
  simp only [opsC, List.mem_cons, List.mem_nil_iff, or_false] at hop
  rcases hop with rfl | rfl | rfl | rfl | rfl <;> rfl

open Cert.Proof.OnKernelIdeal.Chain (W0 stA stB stC Rsc)

/-! ## Holding a set of arrays: one taken out, one rewritten -/

theorem held_take (c : Thread nD τ) {S : Finset (DevRef τ sig)} {b : DevRef τ sig} (hb : b ∈ S) (W : Valuation τ sig (Elt F)) :
    (held c S W : sProp 𝕄) = iprop(((c.1, b) ↦{fullShare} W b) ∗ held c (S.erase b) W) := by
  unfold held; exact SparseCore.bigSep_erase' hb

theorem held_erase_update (c : Thread nD τ) (S : Finset (DevRef τ sig)) (b : DevRef τ sig) (W : Valuation τ sig (Elt F))
    (f : b.ty.Contents (Elt F)) :
    (held c (S.erase b) (Function.update W b f) : sProp 𝕄) = held c (S.erase b) W :=
  held_congr c fun b' hb' => Function.update_of_ne (Finset.ne_of_mem_erase hb') _ _

/-! ## The valuations @main passes through -/

section Chain

abbrev v6' : DevRef τ sig := Proc.devRef .tc (main_v6 : Ref sig .tc)
abbrev v7' : DevRef τ sig := Proc.devRef .tc (main_v7 : Ref sig .tc)
abbrev v8' : DevRef τ sig := Proc.devRef .tc (main_v8 : Ref sig .tc)
abbrev v9' : DevRef τ sig := Proc.devRef .tc (main_v9 : Ref sig .tc)

variable [FloatOps F] (m : (ℓ : Loc nD τ sig) → Buf (Elt F) ℓ)

abbrev WA : Dev nD → Valuation τ sig (Elt F) := stA (W0 m)
abbrev WA' : Dev nD → Valuation τ sig (Elt F) := Tc.R0 (WA m) (Tc.Otc (F := F) 0) (Tc.Btc (F := F) 0)
abbrev WB : Dev nD → Valuation τ sig (Elt F) := stB (WA' m)
abbrev WB' : Dev nD → Valuation τ sig (Elt F) := Rsc (WB m)
abbrev WC : Dev nD → Valuation τ sig (Elt F) := stC (WB' m)
abbrev WC' : Dev nD → Valuation τ sig (Elt F) := Tc.R1 (WC m) (Tc.Otc (F := F) 1) (Tc.Btc (F := F) 1)

/-- What a task is handed at the call: its read share of the node rows, its rows of the two index arrays, its rows
    of the result. -/
def goT : TaskRes F := fun d c i => Tile.goRes d (Tile.coordsV c i) (Tile.qTile c i) (WB m d v6') (WB m d v7') (WB m d v8')
/-- What it hands back: the same with its rows of the result at their value. -/
def tdT : TaskRes F := fun d c i => Tile.tdRes d (Tile.coordsV c i) (Tile.qTile c i) (WB m d v6') (WB m d v7') (WB m d v8')

instance goT_storable : TaskStorable (goT m) := ⟨fun d c i => by unfold goT; infer_instance⟩
instance tdT_storable : TaskStorable (tdT m) := ⟨fun d c i => by unfold tdT; infer_instance⟩

end Chain

/-! ## Small regroupings -/

/-- What the TensorCore owes before call `n`, taken out of its handshake state and put back. -/
theorem tcSt_take (n : ℕ) (d : Dev nD) :
    ((K (F := F)).tcSt EH d n : sProp 𝕄)
      ⊢ iprop((∃ W, ⌜(K (F := F)).WBelow (T d) W (8 * n)⌝ ∗ owes (T d) ((K (F := F)).Otc d n) W)
          ∗ ((∃ W, ⌜(K (F := F)).WBelow (T d) W (8 * n)⌝ ∗ owes (T d) ((K (F := F)).Otc d n) W) -∗ (K (F := F)).tcSt EH d n)) := by
  unfold SparseCore.Cfg.tcSt
  iintro ⟨HO, Hrest⟩
  isplitl [HO]; · iexact HO
  iintro HO
  isplitl [HO]; · iexact HO
  iexact Hrest

theorem bigSep_two (Φ : Fin 2 → sProp 𝕄) : bigSep Finset.univ Φ = iprop(Φ 0 ∗ Φ 1) := by
  rw [show (Finset.univ : Finset (Fin 2)) = {0, 1} by decide, SparseCore.bigSep_insert' (by decide), bigSep_singleton]

/-- The two regions' ghost state, one region at a time. -/
theorem G_split (d : Dev nD) :
    (G (F := F) d : sProp 𝕄) ⊢ iprop((Pipeline.cellsGhost (Pipeline.pin (pcfgs (F := F)) Tc.adm) EP 0 d ∗ Pipeline.toksInit (Pipeline.pin (pcfgs (F := F)) Tc.adm) EP 0 d)
        ∗ (Pipeline.cellsGhost (Pipeline.pin (pcfgs (F := F)) Tc.adm) EP 1 d ∗ Pipeline.toksInit (Pipeline.pin (pcfgs (F := F)) Tc.adm) EP 1 d)) := by
  unfold G; rw [bigSep_two, bigSep_two]
  iintro ⟨⟨H0, H1⟩, ⟨T0, T1⟩⟩
  isplitl [H0 T0]
  · isplitl [H0] <;> iassumption
  · isplitl [H1] <;> iassumption

section Call

variable [FloatOps F] (m : (ℓ : Loc nD τ sig) → Buf (Elt F) ℓ)

theorem st0_eq (d : Dev nD) :
    (bigSep Finset.univ fun c : Fin ((K (F := F)).nCore 0) => (P (goT m) (tdT m)).st 0 d c)
      = bigSep Finset.univ fun c : Fin 2 => bigSep Finset.univ fun i : Fin 16 => goT m d c i :=
  Tile.bigSep_cores (F := F) fun c => bigSep Finset.univ fun i : Fin 16 => goT m d c i
theorem dn0_eq (d : Dev nD) :
    (bigSep Finset.univ fun c : Fin ((K (F := F)).nCore 0) => (P (goT m) (tdT m)).dn 0 d c)
      = bigSep Finset.univ fun c : Fin 2 => bigSep Finset.univ fun i : Fin 16 => tdT m d c i :=
  Tile.bigSep_cores (F := F) fun c => bigSep Finset.univ fun i : Fin 16 => tdT m d c i

end Call

/-! ## @main -/

section Main

variable [FloatOps F] (m : (ℓ : Loc nD τ sig) → Buf (Elt F) ℓ) (ρ : Dev nD → PrngReg)

/-- What @main is left holding: every array of the TensorCore at the last valuation. -/
abbrev FIN (d : Dev nD) : sProp 𝕄 := held (SparseCore.T d) Sun (WC' m d)

theorem v9_mem : v9' ∈ Sun := by decide
theorem v6_mem : v6' ∈ Sun.erase v9' := by decide
theorem v7_mem : v7' ∈ (Sun.erase v9').erase v6' := by decide
theorem v8_mem : v8' ∈ ((Sun.erase v9').erase v6').erase v7' := by decide

/-- The rest of the arrays while the call has the four it works on. -/
abbrev Srest : Finset (DevRef τ sig) := (((Sun.erase v9').erase v6').erase v7').erase v8'

theorem v9_notMem_Srest : v9' ∉ Srest := by decide

omit [FloatOps F] in
theorem held_update_of_notMem (c : Thread nD τ) {S : Finset (DevRef τ sig)} {b : DevRef τ sig} (hb : b ∉ S) (W : Valuation τ sig (Elt F))
    (f : b.ty.Contents (Elt F)) : (held c S (Function.update W b f) : sProp 𝕄) = held c S W :=
  held_congr c fun b' hb' => Function.update_of_ne (fun e => hb (by subst e; exact hb')) _ _

/-- The four arrays back from the call, the result's at its value, and the rest: every array at the valuation after
    the call. -/
theorem sc_rejoin (d : Dev nD) (W : Dev nD → Valuation τ sig (Elt F)) :
    iprop(((((SparseCore.T d : Thread nD τ).1, v6') : Loc nD τ sig) ↦{fullShare} W d v6') ∗ ((((SparseCore.T d : Thread nD τ).1, v7') : Loc nD τ sig) ↦{fullShare} W d v7') ∗ ((((SparseCore.T d : Thread nD τ).1, v8') : Loc nD τ sig) ↦{fullShare} W d v8')
        ∗ ((((SparseCore.T d : Thread nD τ).1, v9') : Loc nD τ sig) ↦{fullShare} Tile.outRows d (W d v6') (W d v7') (W d v8')) ∗ held (SparseCore.T d) Srest (W d))
      ⊢ (held (SparseCore.T d) Sun (Rsc W d) : sProp 𝕄) := by
  have e9 : Rsc W d v9' = Tile.outRows d (W d v6') (W d v7') (W d v8') := Function.update_self _ _ _
  have e6 : Rsc W d v6' = W d v6' := Function.update_of_ne (show v6' ≠ v9' by decide) _ _
  have e7 : Rsc W d v7' = W d v7' := Function.update_of_ne (show v7' ≠ v9' by decide) _ _
  have e8 : Rsc W d v8' = W d v8' := Function.update_of_ne (show v8' ≠ v9' by decide) _ _
  rw [held_take (SparseCore.T d) v9_mem (Rsc W d), held_take (SparseCore.T d) v6_mem (Rsc W d), held_take (SparseCore.T d) v7_mem (Rsc W d), held_take (SparseCore.T d) v8_mem (Rsc W d),
    e9, e6, e7, e8, show (held (SparseCore.T d) Srest (Rsc W d) : sProp 𝕄) = held (SparseCore.T d) Srest (W d) from held_update_of_notMem (SparseCore.T d) v9_notMem_Srest _ _]
  iintro ⟨H6, H7, H8, H9, Hr⟩
  isplitl [H9]; · iexact H9
  isplitl [H6]; · iexact H6
  isplitl [H7]; · iexact H7
  isplitl [H8]; · iexact H8
  iexact Hr

omit [FloatOps F] in
/-- Holding every array at a valuation, in the two spellings. -/
theorem to_hold (W : Dev nD → Valuation τ sig (Elt F)) (d : Dev nD) :
    (held (d.tc : Thread nD τ) Sun (W d) : sProp 𝕄) = unscopedBufs d (Tc.Vr W d) := by
  rw [show (d.tc : Thread nD τ) = SparseCore.T d from rfl, ← unscoped_held]; rfl

theorem hmain (κ : GSem nD τ sig → ℕ) (d : Dev nD) :
    iprop((K (F := F)).ctx EH (P (goT m) (tdT m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [main_eq]
  iintro ⟨#Hctx, Hst, ⟨Hb, Hub, -, Hprng⟩, HG⟩
  ihave Hlev := ((K (F := F)).ctx_levAts κ) $$ Hctx
  ihave HG' := (G_split (F := F) d) $$ HG
  icases HG' with ⟨⟨Hcg0, Hti0⟩, ⟨Hcg1, Hti1⟩⟩
  -- the first stretch of host operations
  ihave Hheld := (Entails.of_eq (show (unscopedBufs d (fun b => m ((SparseCore.T d).loc b)) : sProp 𝕄) = held (SparseCore.T d) Sun (W0 m d) from unscoped_held (F := F) d (W0 m d))) $$ Hub
  iapply (StableHlo.wp_seq (defs := (K (F := F)).defs (D (F := F))) 𝒱 none Set.univ d Sun _ opsA opsA_sub opsA_fresh (W0 m d)) $$ [Hb Hheld]
  · isplitl [Hb] <;> iassumption
  iintro ⟨Hb, Hheld⟩
  -- the node projection
  rw [wp_bind]
  ihave Hst' := (tcSt_take (F := F) 0 d) $$ Hst
  icases Hst' with ⟨HO, Hback⟩
  ihave HO' := (Tc.owes_of_tcSt (F := F) 0 d) $$ HO
  ihave Hub := (Entails.of_eq (show (held (d.tc : Thread nD τ) Sun (StableHlo.after opsA (W0 m d)) : sProp 𝕄) = unscopedBufs d (Tc.Vr (WA m) d) from to_hold (WA m) d)) $$ Hheld
  iapply (Tc.region0_step (WA m) (Tc.Otc (F := F) 0) (Tc.Btc (F := F) 0) (Tc.Otc_none 0) (Tc.waitPairs_sub_Btc cfg0 0) d _)
  isplitl [Hback Hcg1 Hti1]
  swap
  · isplitl [Hb]; · iexact Hb
    isplitl [Hub Hprng HO']
    · unfold Tc.tcHold
      isplitl [Hub]; · iexact Hub
      isplitl [Hprng]; · iexists _; iexact Hprng
      iexact HO'
    isplitr; · iexact Hlev
    isplitl [Hcg0] <;> iassumption
  iintro ⟨Hb, Hhold⟩
  unfold Tc.tcHold
  icases Hhold with ⟨Hub, ⟨%r1, Hprng⟩, HO'⟩
  ihave HO := (Tc.tcSt_of_owes (F := F) 0 d) $$ HO'
  ispecialize Hback $$ HO
  ihave Hheld := (Entails.of_eq (to_hold (F := F) (WA' m) d).symm) $$ Hub
  -- the second stretch
  iapply (StableHlo.wp_seq (defs := (K (F := F)).defs (D (F := F))) 𝒱 none Set.univ d Sun _ opsB opsB_sub opsB_fresh (WA' m d)) $$ [Hb Hheld]
  · isplitl [Hb] <;> iassumption
  iintro ⟨Hb, Hheld⟩
  -- the SparseCore call
  rw [wp_bind]
  ihave H1 := (Entails.of_eq (show (held (d.tc : Thread nD τ) Sun (StableHlo.after opsB (WA' m d)) : sProp 𝕄) = _ from held_take (F := F) (SparseCore.T d) v9_mem (WB m d))) $$ Hheld
  icases H1 with ⟨Ho, Hheld⟩
  ihave H2 := (Entails.of_eq (held_take (F := F) (SparseCore.T d) v6_mem (WB m d))) $$ Hheld
  icases H2 with ⟨Hh, Hheld⟩
  ihave H3 := (Entails.of_eq (held_take (F := F) (SparseCore.T d) v7_mem (WB m d))) $$ Hheld
  icases H3 with ⟨Hs, Hheld⟩
  ihave H4 := (Entails.of_eq (held_take (F := F) (SparseCore.T d) v8_mem (WB m d))) $$ Hheld
  icases H4 with ⟨Hd, Hheld⟩
  ihave Hsp := (Tile.arrays_split (F := F) d (WB m d v6') (WB m d v7') (WB m d v8') (WB m d v9')) $$ [Hh Hs Hd Ho]
  · isplitl [Hh]; · iexact Hh
    isplitl [Hs]; · iexact Hs
    isplitl [Hd]; · iexact Hd
    iexact Ho
  icases Hsp with ⟨Hdrop, Hgo⟩
  iapply ((K (F := F)).wp_run (D (F := F)) 𝒱 (EH := EH) (P := P (goT m) (tdT m)) κ d 0) $$ [Hback Hgo Hdrop Hb Hheld Hprng Hcg1 Hti1]
  isplitr; · iexact Hctx
  isplitl [Hback]; · iexact Hback
  isplitl [Hgo]
  · rw [st0_eq]; unfold goT; iexact Hgo
  iintro ⟨Hst0, Hdn⟩
  ihave Hst := (Entails.of_eq (show ((K (F := F)).tcSt EH d ((0 : Fin 1).val + 1) : sProp 𝕄) = (K (F := F)).tcSt EH d 1 from rfl)) $$ Hst0
  ihave Hdn' := (Entails.of_eq (dn0_eq (F := F) m d)) $$ Hdn
  ihave Hj := (Tile.arrays_join (F := F) d (WB m d v6') (WB m d v7') (WB m d v8')) $$ [Hdrop Hdn']
  · isplitl [Hdrop]; · iexact Hdrop
    unfold tdT; iexact Hdn'
  icases Hj with ⟨Hh, Hs, Hd, Ho⟩
  ihave Hheld := (sc_rejoin (F := F) d (WB m)) $$ [Hh Hs Hd Ho Hheld]
  · isplitl [Hh]; · iexact Hh
    isplitl [Hs]; · iexact Hs
    isplitl [Hd]; · iexact Hd
    isplitl [Ho]; · iexact Ho
    iexact Hheld
  -- the third stretch
  iapply (StableHlo.wp_seq (defs := (K (F := F)).defs (D (F := F))) 𝒱 none Set.univ d Sun _ opsC opsC_sub opsC_fresh (WB' m d)) $$ [Hb Hheld]
  · isplitl [Hb] <;> iassumption
  iintro ⟨Hb, Hheld⟩
  -- the edge projection
  rw [wp_bind]
  ihave Hst' := (tcSt_take (F := F) 1 d) $$ Hst
  icases Hst' with ⟨HO, Hback⟩
  ihave HO' := (Tc.owes_of_tcSt (F := F) 1 d) $$ HO
  ihave Hub := (Entails.of_eq (show (held (d.tc : Thread nD τ) Sun (StableHlo.after opsC (WB' m d)) : sProp 𝕄) = unscopedBufs d (Tc.Vr (WC m) d) from to_hold (WC m) d)) $$ Hheld
  iapply (Tc.region1_step (WC m) (Tc.Otc (F := F) 1) (Tc.Btc (F := F) 1) (Tc.Otc_none 1) (Tc.waitPairs_sub_Btc cfg2 1) d _)
  isplitl [Hback]
  swap
  · isplitl [Hb]; · iexact Hb
    isplitl [Hub Hprng HO']
    · unfold Tc.tcHold
      isplitl [Hub]; · iexact Hub
      isplitl [Hprng]; · iexists _; iexact Hprng
      iexact HO'
    isplitr; · iexact Hlev
    isplitl [Hcg1] <;> iassumption
  iintro ⟨Hb, Hhold⟩
  unfold Tc.tcHold
  icases Hhold with ⟨Hub, -, HO'⟩
  ihave HO := (Tc.tcSt_of_owes (F := F) 1 d) $$ HO'
  ispecialize Hback $$ HO
  ihave Hheld := (Entails.of_eq (to_hold (F := F) (WC' m) d).symm) $$ Hub
  rw [wp_pure]
  imodintro
  isplitl [Hback]; · iexact Hback
  iexact Hheld

end Main

/-! ## The final memory, and the program's run -/

section Run

variable [FloatOps F] (m : (ℓ : Loc nD τ sig) → Buf (Elt F) ℓ) (ρ : Dev nD → PrngReg)

/-- What the final memory reads on device `d`: every array of the TensorCore at the last valuation. -/
def fq (d : Dev nD) (s' : Phys nD τ sig (Elt F)) : Prop :=
  ∀ b ∈ Sun, s'.mem.mem ((SparseCore.T d : Thread nD τ).1, b) = WC' m d b

theorem hfin (d : Dev nD) (s' : Phys nD τ sig (Elt F)) : iprop(FIN m d ∗ SI s') ⊢ (⌜fq m d s'⌝ : sProp 𝕄) := by
  have hone : ∀ b (hb : b ∈ Sun), iprop(FIN m d ∗ SI s') ⊢ (⌜s'.mem.mem ((SparseCore.T d : Thread nD τ).1, b) = WC' m d b⌝ : sProp 𝕄) := by
    intro b hb
    show iprop(held (SparseCore.T d) Sun (WC' m d) ∗ SI s') ⊢ _
    rw [held_take (F := F) (SparseCore.T d) hb (WC' m d)]
    iintro ⟨⟨Hx, -⟩, HSI⟩
    ihave H := (SI_pointsTo_agree (st := s') (ℓ := ((SparseCore.T d : Thread nD τ).1, b)) (I := Finset.univ) (q := fullShare) (f := WC' m d b)) $$ [HSI Hx]
    · isplitl [HSI] <;> iassumption
    icases H with %hx
    ipureintro; exact funext fun i => hx i (Finset.mem_univ i)
  exact fun a ha b hb => hone b hb a ha

/-- Every final memory has every array of every TensorCore at the last valuation. -/
def QC : PUnit × MemSt nD τ sig (Elt F) → Prop :=
  fun r => ∀ d : Dev nD, ∀ b ∈ Sun, r.2.mem ((SparseCore.T d : Thread nD τ).1, b) = WC' m d b

/-- The thread family's run, from the task's body obligation: every weakly fair execution terminates, nothing
    faulting, with every array of the TensorCore at the last valuation. -/
theorem run_main [∀ e, Nonempty (Elt F e)] (htile : (K (F := F)).TileObl (D (F := F)) 𝒱 (P (goT m) (tdT m)) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (goT m) (tdT m)) facts v₀
    (fun q hq => match q with | 0 => nomatch hq)
    (fun q _ => match q with | 0 => htile)
    (fun q _ => match q with | 0 => SparseCore.Cfg.VecSplit.of_plain (vecSplit (goT m) (tdT m)))
    m ρ main (fun d => G (F := F) d) (FIN m) (u₀ (F := F)) (sep_elim_left.trans (hu₀ (goT m) (tdT m))) (hmain m ρ) (fq m) (hfin m) (QC m) (fun _ h => h)

end Run

end Cert.Proof.OnKernelIdeal.Main

end
-- ==== Proof.OnKernelIdeal.Frame.lean ====
/-
  The thread family's run read at the claim's places: every argument array ends as it began — no host
  operation, neither kernel region and not the SparseCore call writes one — and the result array ends at the last
  valuation's. From the task's body at every place and the index range of the edge list.
-/
import proofs.«206094_g687194767628_cont_sun_c4_81_43_alg».proof.Proof.OnKernelIdeal.Main

noncomputable section

namespace Cert.Proof.OnKernelIdeal.Frame

open Cert.KernelIdeal Cert.KernelIdeal.Gen Cert.Proof.OnKernelIdeal Cert.Proof.OnKernelIdeal.Launch Cert.Proof.OnKernelIdeal.Main
open Cert.Proof.OnKernelIdeal.Chain (W0 stA stB stC Rsc)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The nine argument arrays. -/
abbrev Args : Finset (Ref sig .tc) := {main_arg0, main_arg1, main_arg2, main_arg3, main_arg4, main_arg5, main_arg6, main_arg7, main_arg8}

omit [FloatOps F] in
theorem opsA_keeps (b : Ref sig .tc) (hb : b ∈ Args) : ∀ op ∈ (opsA : List (HloOp τ sig (Elt F))), Proc.devRef .tc b ∉ op.writes := by
  intro op hop
  simp only [opsA, List.mem_cons, List.mem_nil_iff, or_false] at hop
  rcases hop with rfl | rfl | rfl | rfl | rfl | rfl <;>
    (first | rw [StableHlo.unary_writes] | rw [StableHlo.reshape_writes]) <;> (revert b; decide)
omit [FloatOps F] in
theorem opsB_keeps (b : Ref sig .tc) (hb : b ∈ Args) : ∀ op ∈ (opsB : List (HloOp τ sig (Elt F))), Proc.devRef .tc b ∉ op.writes := by
  intro op hop
  simp only [opsB, List.mem_cons, List.mem_nil_iff, or_false] at hop
  rcases hop with rfl | rfl <;>
    (first | rw [StableHlo.unary_writes] | rw [StableHlo.reshape_writes]) <;> (revert b; decide)
omit [FloatOps F] in
theorem opsC_keeps (b : Ref sig .tc) (hb : b ∈ Args) : ∀ op ∈ (opsC : List (HloOp τ sig (Elt F))), Proc.devRef .tc b ∉ op.writes := by
  intro op hop
  simp only [opsC, List.mem_cons, List.mem_nil_iff, or_false] at hop
  rcases hop with rfl | rfl | rfl | rfl | rfl <;>
    (first | rw [StableHlo.unary_writes] | rw [StableHlo.reshape_writes]) <;> (revert b; decide)

variable (m : (ℓ : Loc nD τ sig) → Buf (Elt F) ℓ)

/-- An argument array is at its launch contents in the last valuation. -/
theorem WC'_arg (d : Dev nD) (b : Ref sig .tc) (hb : b ∈ Args) : WC' m d (Proc.devRef .tc b) = m (d, Proc.devRef .tc b) := by
  have h15 : b ≠ main_v15 := by revert b; decide
  have h6 : b ≠ main_v6 := by revert b; decide
  have h9 : (Proc.devRef .tc b : DevRef τ sig) ≠ v9' := by revert b; decide
  calc WC' m d (Proc.devRef .tc b)
      = WC m d (Proc.devRef .tc b) := Tc.R1_of_ne (WC m) _ _ d b h15
    _ = WB' m d (Proc.devRef .tc b) := StableHlo.after_of_forall_not_mem opsC _ (opsC_keeps b hb)
    _ = WB m d (Proc.devRef .tc b) := Function.update_of_ne h9 _ _
    _ = WA' m d (Proc.devRef .tc b) := StableHlo.after_of_forall_not_mem opsB _ (opsB_keeps b hb)
    _ = WA m d (Proc.devRef .tc b) := Tc.R0_of_ne (WA m) _ _ d b h6
    _ = W0 m d (Proc.devRef .tc b) := StableHlo.after_of_forall_not_mem opsA _ (opsA_keeps b hb)
    _ = m (d, Proc.devRef .tc b) := rfl

theorem arg_mem_Sun (b : Ref sig .tc) (hb : b ∈ Args) : (Proc.devRef .tc b : DevRef τ sig) ∈ Sun := by revert b; decide
theorem v15_mem_Sun : (Proc.devRef .tc (main_v15 : Ref sig .tc) : DevRef τ sig) ∈ Sun := by decide

/-- The launch theorem's obligation for the task, from the body at every place and the index range at the call. -/
theorem tileObl (hb : ∀ d L, Tile.TileBody (F := F) d L)
    (hidx : ∀ d L, Tile.IdxOK (F := F) d L (WB m d v7') (WB m d v8')) :
    (K (F := F)).TileObl (D (F := F)) 𝒱 (P (goT m) (tdT m)) v₀ 0 := by
  intro d c i O W hO _ _
  simp only [show (P (goT m) (tdT m)).ox = fun _ _ => 0 from rfl, add_zero]
  exact Tile.tile_obl hb d c i (Tile.qTile (Fin.cast nCore_zero c) (Fin.cast nSub_zero i)) (WB m d v6') (WB m d v7') (WB m d v8')
    (hidx d _) O W hO

/-- The run, read at the claim's places: the result array at the last valuation's, the nine arguments unchanged. -/
theorem run_read [∀ e, Nonempty (Elt F e)] (ρ : Dev nD → PrngReg) (hb : ∀ d L, Tile.TileBody (F := F) d L)
    (hidx : ∀ d L, Tile.IdxOK (F := F) d L (WB m d v7') (WB m d v8')) :
    θ_run (Cert.KernelIdeal.defs (F := F)) (Cert.KernelIdeal.threads (F := F)) ⟨m, fun _ => 0, ρ⟩ fun r => ∀ c : Dev nD,
      r.2.mem ((c.tc : Thread nD τ).loc main_v15) = WC' m c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run (Cert.KernelIdeal.defs (F := F)) _ _).mono (fun r h c =>
    have ha : ∀ b (hb : b ∈ Args), r.2.mem ((c.tc : Thread nD τ).loc b) = m ((c.tc : Thread nD τ).loc b) :=
      fun b hb => (h c _ (arg_mem_Sun b hb)).trans (WC'_arg m c b hb)
    ⟨h c _ v15_mem_Sun, ha _ (by decide), ha _ (by decide), ha _ (by decide), ha _ (by decide), ha _ (by decide),
      ha _ (by decide), ha _ (by decide), ha _ (by decide), ha _ (by decide)⟩)
    (run_main m ρ (tileObl m hb hidx))

end Cert.Proof.OnKernelIdeal.Frame

end
-- ==== Proof.OnKernelIdeal.IdxRange.lean ====
/-
  The index rows the gather's tasks are handed are entries of the edge list: each of the two index arrays is a
  row of the edge list, flattened and then cut into 32 × 125 × 80, and the node projection in between leaves
  them alone. So a bound on every entry of the edge list is a bound on every entry of both index arrays.
-/
import proofs.«206094_g687194767628_cont_sun_c4_81_43_alg».proof.Proof.OnKernelIdeal.Chain
import proofs.«206094_g687194767628_cont_sun_c4_81_43_alg».proof.Proof.OnKernelIdeal.TcStep
import proofs.«206094_g687194767628_cont_sun_c4_81_43_alg».proof.Proof.OnKernelIdeal.TileRes

noncomputable section

namespace Cert.Proof.OnKernelIdeal.Chain

open Cert.KernelIdeal Cert.KernelIdeal.Gen
open Cert.Proof.OnKernelIdeal

open Idealize.ShloMosaic Idealize.ShloMosaic.StableHlo
open Idealize.ShloMosaic.SparseCore.Cfg (HIx)

variable {F : FTy → Type} [FloatOps F]

/-- A TensorCore array's place among the device's buffers. -/
local notation:max "𝐫(" r ")" => (Proc.devRef (τ := τ) Proc.tc r : DevRef τ sig)

/-- A reshape read at an index is some entry of its operand; so is a slice. -/
theorem shapeCast_entry {s t : Shape} {α : Type} (x : s.Idx → α) (h : s.ShapeCasts t) (j : t.Idx) :
    ∃ k, shapeCast t x h j = x k := by
  unfold shapeCast; exact ⟨_, rfl⟩
theorem slice_entry {s t : Shape} {α : Type} (off : Fin s.rank → Nat) (x : s.Idx → α) (h : s.Slices off t) (j : t.Idx) :
    ∃ k, extractStridedSlice t off x h j = x k := by
  unfold extractStridedSlice; exact ⟨_, rfl⟩

variable (m : (ℓ : Loc nD τ sig) → Buf (Elt F) ℓ) (O : Dev nD → CellTallies nD τ sig (HIx 1)) (B : Dev nD → Set (SemLoc sig × HIx 1))

/-- Every entry of the first index array is an entry of the edge list. -/
theorem v7_entry (d : Dev nD) (x : S32x125x80.Idx) :
    ∃ i : S2x320000.Idx, (stB (Tc.R0 (stA (W0 m)) O B) d 𝐫(main_v7) : S32x125x80.Idx → BitVec 32) x
      = (W0 m d 𝐫(main_arg1) : S2x320000.Idx → BitVec 32) i := by
  have h7 : (stB (Tc.R0 (stA (W0 m)) O B) d 𝐫(main_v7) : S32x125x80.Idx → BitVec 32)
      = shapeCast S32x125x80 (Tc.R0 (stA (W0 m)) O B d 𝐫(main_v1) : S320000.Idx → BitVec 32) shapeCasts_S320000_S32x125x80 := by
    dsimp only [stB, Launch.opsB]; after_results; rfl
  have h1 : (stA (W0 m) d 𝐫(main_v1) : S320000.Idx → BitVec 32)
      = shapeCast S320000 (extractStridedSlice S1x320000 ![0, 0] (W0 m d 𝐫(main_arg1) : S2x320000.Idx → BitVec 32)
          slices_S2x320000_S1x320000_0_0) shapeCasts_S1x320000_S320000 := by
    dsimp only [stA, Launch.opsA]; after_results; rfl
  rw [h7, Tc.R0_of_ne _ _ _ d main_v1 (by decide), h1]
  obtain ⟨k1, e1⟩ := shapeCast_entry (shapeCast S320000 (extractStridedSlice S1x320000 ![0, 0] (W0 m d 𝐫(main_arg1) : S2x320000.Idx → BitVec 32)
      slices_S2x320000_S1x320000_0_0) shapeCasts_S1x320000_S320000) shapeCasts_S320000_S32x125x80 x
  obtain ⟨k2, e2⟩ := shapeCast_entry (extractStridedSlice S1x320000 ![0, 0] (W0 m d 𝐫(main_arg1) : S2x320000.Idx → BitVec 32)
      slices_S2x320000_S1x320000_0_0) shapeCasts_S1x320000_S320000 k1
  obtain ⟨k3, e3⟩ := slice_entry ![0, 0] (W0 m d 𝐫(main_arg1) : S2x320000.Idx → BitVec 32) slices_S2x320000_S1x320000_0_0 k2
  exact ⟨k3, e1.trans (e2.trans e3)⟩

/-- Every entry of the second index array is an entry of the edge list. -/
theorem v8_entry (d : Dev nD) (x : S32x125x80.Idx) :
    ∃ i : S2x320000.Idx, (stB (Tc.R0 (stA (W0 m)) O B) d 𝐫(main_v8) : S32x125x80.Idx → BitVec 32) x
      = (W0 m d 𝐫(main_arg1) : S2x320000.Idx → BitVec 32) i := by
  have h8 : (stB (Tc.R0 (stA (W0 m)) O B) d 𝐫(main_v8) : S32x125x80.Idx → BitVec 32)
      = shapeCast S32x125x80 (Tc.R0 (stA (W0 m)) O B d 𝐫(main_v3) : S320000.Idx → BitVec 32) shapeCasts_S320000_S32x125x80 := by
    dsimp only [stB, Launch.opsB]; after_results; rfl
  have h3 : (stA (W0 m) d 𝐫(main_v3) : S320000.Idx → BitVec 32)
      = shapeCast S320000 (extractStridedSlice S1x320000 ![1, 0] (W0 m d 𝐫(main_arg1) : S2x320000.Idx → BitVec 32)
          slices_S2x320000_S1x320000_1_0) shapeCasts_S1x320000_S320000 := by
    dsimp only [stA, Launch.opsA]; after_results; rfl
  rw [h8, Tc.R0_of_ne _ _ _ d main_v3 (by decide), h3]
  obtain ⟨k1, e1⟩ := shapeCast_entry (shapeCast S320000 (extractStridedSlice S1x320000 ![1, 0] (W0 m d 𝐫(main_arg1) : S2x320000.Idx → BitVec 32)
      slices_S2x320000_S1x320000_1_0) shapeCasts_S1x320000_S320000) shapeCasts_S320000_S32x125x80 x
  obtain ⟨k2, e2⟩ := shapeCast_entry (extractStridedSlice S1x320000 ![1, 0] (W0 m d 𝐫(main_arg1) : S2x320000.Idx → BitVec 32)
      slices_S2x320000_S1x320000_1_0) shapeCasts_S1x320000_S320000 k1
  obtain ⟨k3, e3⟩ := slice_entry ![1, 0] (W0 m d 𝐫(main_arg1) : S2x320000.Idx → BitVec 32) slices_S2x320000_S1x320000_1_0 k2
  exact ⟨k3, e1.trans (e2.trans e3)⟩

/-- A bound on every entry of the edge list bounds every index word every task is handed. -/
theorem idx_ok (d : Dev nD) (hlt : ∀ i, ((W0 m d (Proc.devRef .tc main_arg1)) i).toNat < 10000) (L : grid1.Coords) :
    Tile.IdxOK (F := F) d L (stB (Tc.R0 (stA (W0 m)) O B) d (Proc.devRef .tc main_v7)) (stB (Tc.R0 (stA (W0 m)) O B) d (Proc.devRef .tc main_v8)) := by
  intro x _
  obtain ⟨i, hi⟩ := v7_entry m O B d x
  obtain ⟨i', hi'⟩ := v8_entry m O B d x
  exact ⟨hi ▸ hlt i, hi' ▸ hlt i'⟩

end Cert.Proof.OnKernelIdeal.Chain

end
-- ==== Proof.OnKernel.Setup.lean ====
/-
  The view the SparseCore launch theorem takes of this program: one vector-subcore call (the gather of node
  rows and their rectified sum) between two TensorCore kernel regions (the node projection before it, the edge
  projection after it). Fixed here once, for every module of the frame: the call table, the body table under the
  two pipelines, the variants, the stated facts of the call table, and the ghost-state algebra — the handshakes'
  rounds, the two pipelines' staging cells' rounds, and the transfers' counters side by side.
-/
import Idealize.ShloMosaic.Lib.SparseCore.Launch
import Idealize.ShloMosaic.Lib.StableHlo.Run
import Idealize.ShloMosaic.Lib.Pipeline.Kit
import Idealize.ShloMosaic.Lib.Tactic
import proofs.«206094_g687194767628_cont_sun_c4_81_43_alg».proof.Proof.Gen.Kernel
import proofs.«206094_g687194767628_cont_sun_c4_81_43_alg».proof.Proof.Gen.Kernel.Skeleton
import proofs.«206094_g687194767628_cont_sun_c4_81_43_alg».proof.Proof.Gen.Kernel.Launch

noncomputable section

namespace Cert.Proof.OnKernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' staging cells' rounds, the transfers' counters -/

abbrev UH : Type := URounds (GSem nD τ sig) ℕ
abbrev UP : Type := URounds (GSem nD τ sig) Unit
abbrev UU : Type := UH × (UP × Counters)

/-- The handshakes' rounds: the left factor. The counters are found by instance in the right. -/
abbrev EH : Emb UH (MT nD τ sig (HIx 1) (Elt F) ℕ UU ℕ) := embL

/-- The pipelines' staging cells' rounds: the left factor of the right factor. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP (MT nD τ sig (HIx 1) (Elt F) ℕ UU ℕ)).LandsIn (upEmb : UEmb _ (MT nD τ sig (HIx 1) (Elt F) ℕ UU ℕ)) := by
  unfold EP embR; infer_instance

example : CountersIn UU := inferInstance

end Cert.Proof.OnKernel

end
-- ==== Proof.OnKernel.TcData.lean ====
/-
  The two TensorCore kernel regions of the program — the node projection (pipeline 0) and the edge projection
  (pipeline 1) — as the pipeline library sees them: per region, each window's block at a grid point read off the
  arrays as the region finds them, what the body leaves in the output window's buffer as a function of the input
  blocks (the body's one store, its payload the skeleton's), and the proof data of the pipeline on a core. The
  arrays at entry, what the core owes throughout the region and the bound on its recorded waits are parameters:
  the launch instantiates them per region.
-/
import proofs.«206094_g687194767628_cont_sun_c4_81_43_alg».proof.Proof.OnKernel.Setup
import proofs.«206094_g687194767628_cont_sun_c4_81_43_alg».proof.Proof.Gen.Kernel.Points
import Idealize.ShloMosaic.Lib.Pipeline.FrameBody
import Idealize.ShloMosaic.Lib.Pipeline.RegionsLoop
import Idealize.ShloMosaic.Lib.Tactic

set_option maxRecDepth 16384

noncomputable section

namespace Cert.Proof.OnKernel.Tc

open Cert.Kernel Cert.Kernel.Gen
open Cert.Proof.OnKernel

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The prefetched tables' admissible contents: no pipeline has a table. -/
abbrev adm : (p : Fin 2) → (pcfgs (F := F) p).Adm := fun p => (cfgs p).toPCfg_adm

/-- A region's invariant between grid points: the core's scoped buffers that are no staging buffer of the
    region, at some contents each, and its generator register at some state. The bodies touch neither. -/
def ΦR {gr : Nat} {W : Nat} (win : Fin W → Pipeline.WinSpec sig gr) (c : Dev nD) : sProp 𝕄 :=
  iprop(Pipeline.scopedRest (Ix := HIx 1) (Name := ℕ) (U := UU) (Lvl := ℕ) (Val := Elt F) win c ∗ ∃ r, prngReg c r)

section Regions
variable (V : (c : Dev nD) → (b : Ref sig .tc) → Buf (Elt F) ((c : Thread nD τ).loc b))
variable (O : Dev nD → CellTallies nD τ sig (HIx 1)) (B : Dev nD → Set (SemLoc sig × HIx 1))

/-! # The node projection (pipeline 0) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S1000x128 := Rect.unit (s := S1000x128) ![0, 0] S1000x128.size inb_S1000x128_S1000x128_0_0
abbrev r0_w : Rect S128x128 := Rect.unit (s := S128x128) ![0, 0] S128x128.size inb_S128x128_S128x128_0_0
abbrev r0_b : Rect S1x128 := Rect.unit (s := S1x128) ![0, 0] S1x128.size inb_S1x128_S1x128_0_0

/-- The output window's buffer after the body, from the input blocks: the one store's payload over the whole buffer. -/
def out0_3 (x0 : Vec F S1000x128 .f32) (x1 : Vec F S128x128 .f32) (x2 : Vec F S1x128 .f32) : Vec F S1000x128 .f32 :=
  View.canon [⟨r0_x, k0_pay1 (View.ld x0 r0_x) (View.ld x1 r0_w) (View.ld x2 r0_b)⟩]

/-- The store covers the buffer. -/
theorem cover0_3 (p0 : Vec F S1000x128 .f32) (y : S1000x128.Idx) :
    ∃ pc ∈ ([⟨r0_x, p0⟩] : List (View.Piece (Elt F) S1000x128 .f32)), y ∈ pc.1.set :=
  View.cover_of_tiled [⟨r0_x, p0⟩] S1000x128.size (by rfl) y

/-- The proof data of the node projection on core `c`: the arrays as the region finds them; after the body at point
    `t` each input's buffer at its block and the output's at the body's payload of the input blocks; the invariant
    `ΦR`; the core owing `O c` throughout, its recorded waits within `B c`; full shares. -/
def dat0 (c : Dev nD) : Dat τ (Elt F) (HIx 1) ℕ UU ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := ΦR spec0 c
  q _ := fullShare
  owed _ := O c
  recorded _ := B c

theorem A_eq0 (c : Dev nD) (w : Fin cfg0.W) : (dat0 V O B c).A w = V c (Pipeline.arrRef spec0 w) := by
  dsimp only [dat0]

theorem after0_0 (c : Dev nD) (t : Fin cfg0.N) : (dat0 V O B c).after 0 t = iblk0 V c 0 t := by dsimp only [dat0]
theorem after0_1 (c : Dev nD) (t : Fin cfg0.N) : (dat0 V O B c).after 1 t = iblk0 V c 1 t := by dsimp only [dat0]
theorem after0_2 (c : Dev nD) (t : Fin cfg0.N) : (dat0 V O B c).after 2 t = iblk0 V c 2 t := by dsimp only [dat0]
theorem after0_3 (c : Dev nD) (t : Fin cfg0.N) :
    (dat0 V O B c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V O B c).before 0 t d = iblk0 V c 0 t :=
  ((dat0 V O B c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V O B c).before 1 t d = iblk0 V c 1 t :=
  ((dat0 V O B c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V O B c).before 2 t d = iblk0 V c 2 t :=
  ((dat0 V O B c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! # The edge projection (pipeline 1) -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S10000x128 := Rect.unit (s := S10000x128) ![0, 0] S10000x128.size inb_S10000x128_S10000x128_0_0
abbrev r2_a : Rect S10000x16 := Rect.unit (s := S10000x16) ![0, 0] S10000x16.size inb_S10000x16_S10000x16_0_0
abbrev r2_f : Rect S10000x4 := Rect.unit (s := S10000x4) ![0, 0] S10000x4.size inb_S10000x4_S10000x4_0_0
abbrev r2_wa : Rect S128x128 := Rect.unit (s := S128x128) ![0, 0] S128x128.size inb_S128x128_S128x128_0_0
abbrev r2_wb : Rect S16x128 := Rect.unit (s := S16x128) ![0, 0] S16x128.size inb_S16x128_S16x128_0_0
abbrev r2_wc : Rect S4x128 := Rect.unit (s := S4x128) ![0, 0] S4x128.size inb_S4x128_S4x128_0_0
abbrev r2_b : Rect S1x128 := Rect.unit (s := S1x128) ![0, 0] S1x128.size inb_S1x128_S1x128_0_0

/-- The output window's buffer after the body, from the input blocks: the one store's payload over the whole buffer. -/
def out2_7 (x0 : Vec F S10000x128 .f32) (x1 : Vec F S10000x16 .f32) (x2 : Vec F S10000x4 .f32) (x3 : Vec F S128x128 .f32)
    (x4 : Vec F S16x128 .f32) (x5 : Vec F S4x128 .f32) (x6 : Vec F S1x128 .f32) : Vec F S10000x128 .f32 :=
  View.canon [⟨r2_x, k2_pay1 (View.ld x0 r2_x) (View.ld x3 r2_wa) (View.ld x1 r2_a) (View.ld x4 r2_wb) (View.ld x2 r2_f) (View.ld x5 r2_wc) (View.ld x6 r2_b)⟩]

/-- The store covers the buffer. -/
theorem cover2_7 (p0 : Vec F S10000x128 .f32) (y : S10000x128.Idx) :
    ∃ pc ∈ ([⟨r2_x, p0⟩] : List (View.Piece (Elt F) S10000x128 .f32)), y ∈ pc.1.set :=
  View.cover_of_tiled [⟨r2_x, p0⟩] S10000x128.size (by rfl) y

/-- The proof data of the edge projection on core `c`: as `dat0`. -/
def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := ΦR spec2 c
  q _ := fullShare
  owed _ := O c
  recorded _ := B c

theorem A_eq2 (c : Dev nD) (w : Fin cfg2.W) : (dat2 V O B c).A w = V c (Pipeline.arrRef spec2 w) := by
  dsimp only [dat2]

theorem after2_0 (c : Dev nD) (t : Fin cfg2.N) : (dat2 V O B c).after 0 t = iblk2 V c 0 t := by dsimp only [dat2]
theorem after2_1 (c : Dev nD) (t : Fin cfg2.N) : (dat2 V O B c).after 1 t = iblk2 V c 1 t := by dsimp only [dat2]
theorem after2_2 (c : Dev nD) (t : Fin cfg2.N) : (dat2 V O B c).after 2 t = iblk2 V c 2 t := by dsimp only [dat2]
theorem after2_3 (c : Dev nD) (t : Fin cfg2.N) : (dat2 V O B c).after 3 t = iblk2 V c 3 t := by dsimp only [dat2]
theorem after2_4 (c : Dev nD) (t : Fin cfg2.N) : (dat2 V O B c).after 4 t = iblk2 V c 4 t := by dsimp only [dat2]
theorem after2_5 (c : Dev nD) (t : Fin cfg2.N) : (dat2 V O B c).after 5 t = iblk2 V c 5 t := by dsimp only [dat2]
theorem after2_6 (c : Dev nD) (t : Fin cfg2.N) : (dat2 V O B c).after 6 t = iblk2 V c 6 t := by dsimp only [dat2]
theorem after2_7 (c : Dev nD) (t : Fin cfg2.N) :
    (dat2 V O B c).after 7 t = out2_7 (iblk2 V c 0 t) (iblk2 V c 1 t) (iblk2 V c 2 t) (iblk2 V c 3 t) (iblk2 V c 4 t) (iblk2 V c 5 t) (iblk2 V c 6 t) := by
  dsimp only [dat2]

theorem before2_0 (c : Dev nD) (t : Fin cfg2.N) (d) : (dat2 V O B c).before 0 t d = iblk2 V c 0 t :=
  ((dat2 V O B c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V O B c).before 1 t d = iblk2 V c 1 t :=
  ((dat2 V O B c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V O B c).before 2 t d = iblk2 V c 2 t :=
  ((dat2 V O B c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V O B c).before 3 t d = iblk2 V c 3 t :=
  ((dat2 V O B c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V O B c).before 4 t d = iblk2 V c 4 t :=
  ((dat2 V O B c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V O B c).before 5 t d = iblk2 V c 5 t :=
  ((dat2 V O B c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V O B c).before 6 t d = iblk2 V c 6 t :=
  ((dat2 V O B c).before_in_eq_fetched 6 rfl (fun _ => rfl) (fun _ _ _ => rfl)
    (fun t => by rw [after2_6]; unfold Dat.blockOf iblk2; rw [A_eq2]; try rfl) t d).trans
    (by unfold Dat.fetched Dat.blockOf iblk2; rw [A_eq2]; try rfl)

end Regions

/-! # The family -/

/-- Every pipeline's proof data: a literal match on the pipeline, so that the pipeline at a numeral reduces to the
    printed configuration. -/
def pdats (V : (c : Dev nD) → (b : Ref sig .tc) → Buf (Elt F) ((c : Thread nD τ).loc b))
    (O : Dev nD → CellTallies nD τ sig (HIx 1)) (B : Dev nD → Set (SemLoc sig × HIx 1)) :
    (p : Fin 2) → (c : Dev nD) → Dat τ (Elt F) (HIx 1) ℕ UU ℕ (Pipeline.pin (pcfgs (F := F)) adm p) c
  | ⟨0, _⟩ => fun c => dat0 V O B c
  | ⟨1, _⟩ => fun c => dat2 V O B c

end Cert.Proof.OnKernel.Tc

end
-- ==== Proof.OnKernel.Launch.lean ====
/-
  The launch of the program's thread family: what the one SparseCore call's handshakes carry (every SparseCore is
  handed its sixteen tasks' resources and hands back their results), how a SparseCore's operands are its tasks'
  side by side, and the launch element of the ghost state (the handshakes' rounds; the two TensorCore regions'
  staging cells' rounds, funded per device; the transfers' counters, which nothing here consumes).
  Parametric in what a task is handed and hands back.
-/
import proofs.«206094_g687194767628_cont_sun_c4_81_43_alg».proof.Proof.OnKernel.Setup
import proofs.«206094_g687194767628_cont_sun_c4_81_43_alg».proof.Proof.OnKernel.TcData

noncomputable section

namespace Cert.Proof.OnKernel.Launch

open Cert.Kernel Cert.Kernel.Gen Cert.Proof.OnKernel

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## What the handshakes carry -/

/-- What a task is handed, or hands back: one assertion per device, SparseCore and tile. -/
abbrev TaskRes (F : FTy → Type) : Type := Dev nD → Fin 2 → Fin 16 → sProp (MT nD τ sig (HIx 1) (Elt F) ℕ UU ℕ)

/-- The call hands SparseCore `c` its sixteen tasks' resources side by side and takes their results back the same
    way; a task is handed `goRes d c i` and hands back `tdRes d c i`. Nothing of the launch's is consumed. -/
def P (goRes tdRes : TaskRes F) : (K (F := F)).Pay (nD := nD) (Val := Elt F) (Name := ℕ) (U := UU) where
  st := fun q d c => match q with | 0 => bigSep Finset.univ fun i : Fin 16 => goRes d (Fin.cast nCore_zero c) i
  dn := fun q d c => match q with | 0 => bigSep Finset.univ fun i : Fin 16 => tdRes d (Fin.cast nCore_zero c) i
  go := fun q d c i => match q with | 0 => goRes d (Fin.cast nCore_zero c) (Fin.cast nSub_zero i)
  td := fun q d c i => match q with | 0 => tdRes d (Fin.cast nCore_zero c) (Fin.cast nSub_zero i)
  x := fun _ _ => iprop(emp)

/-- Every task resource can be stored in a handshake's invariant. -/
class TaskStorable (R : TaskRes F) : Prop where
  st : ∀ d c i, BI.Storable (upEmb : UEmb _ 𝕄) (R d c i)

instance (R : TaskRes F) [h : TaskStorable R] (d : Dev nD) (c : Fin 2) (i : Fin 16) : BI.Storable (upEmb : UEmb _ 𝕄) (R d c i) := h.st d c i

instance P_storable (goRes tdRes : TaskRes F) [TaskStorable goRes] [TaskStorable tdRes] : (P (F := F) goRes tdRes).IsStorable where
  st q d c := match q with | 0 => by unfold P; infer_instance
  dn q d c := match q with | 0 => by unfold P; infer_instance
  go q d c i := match q with
    | 0 => (inferInstance : BI.Storable (upEmb : UEmb _ 𝕄) (goRes d (Fin.cast nCore_zero c) (Fin.cast nSub_zero i)))
  td q d c i := match q with
    | 0 => (inferInstance : BI.Storable (upEmb : UEmb _ 𝕄) (tdRes d (Fin.cast nCore_zero c) (Fin.cast nSub_zero i)))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's operands ARE its tasks' resources side by side, and its results their results. -/
theorem vecSplit (goRes tdRes : TaskRes F) : (K (F := F)).VecSplit' (P goRes tdRes) 0 := by
  intro d c
  show (bigSep Finset.univ fun i : Fin 16 => goRes d (Fin.cast nCore_zero c) i) ⊢ |={Set.univ}=> iprop(
      (bigSep Finset.univ fun i : Fin ((K (F := F)).nSub 0) => goRes d (Fin.cast nCore_zero c) (Fin.cast nSub_zero i))
      ∗ ((bigSep Finset.univ fun i : Fin ((K (F := F)).nSub 0) => tdRes d (Fin.cast nCore_zero c) (Fin.cast nSub_zero i))
          -∗ bigSep Finset.univ fun i : Fin 16 => tdRes d (Fin.cast nCore_zero c) i))
  rw [bigSep_tasks (F := F) (fun i => goRes d (Fin.cast nCore_zero c) i), bigSep_tasks (F := F) (fun i => tdRes d (Fin.cast nCore_zero c) i)]
  iintro H; imodintro
  isplitl [H]; · iexact H
  iintro H; iexact H

/-! ## The launch element of the ghost state -/

/-- What @main's proof starts from on device `d`: both TensorCore regions' staging cells' ghost state and the
    tokens of the duties they will be paid. -/
def G (d : Dev nD) : sProp 𝕄 :=
  iprop((bigSep Finset.univ fun p : Fin 2 => Pipeline.cellsGhost (Pipeline.pin (pcfgs (F := F)) Tc.adm) EP p d) ∗ (bigSep Finset.univ fun p : Fin 2 => Pipeline.toksInit (Pipeline.pin (pcfgs (F := F)) Tc.adm) EP p d))

/-- The handshakes' rounds, the two regions' staging cells' rounds, and the counters' unit. -/
def u₀ : UU :=
  (initOf (K (F := F)).hsCells (K (F := F)).hsToks,
    (initOf (Pipeline.cells (nD := nD) (τ := τ) (Pipeline.pin (pcfgs (F := F)) Tc.adm) cellOf_inj) (Pipeline.launchToks (nD := nD) (τ := τ) (Pipeline.pin (pcfgs (F := F)) Tc.adm) cellOf_inj), 1))

theorem bigSep_emp' {I : Type} (s : Finset I) : (bigSep s fun _ => iprop(emp)) = (iprop(emp) : sProp 𝕄) := bigSep_emp_const s

theorem own_EP (a : UP) :
    (BI.own (((Emb.inl : Emb UP (UP × Counters)).trans (embR : Emb (UP × Counters) 𝕄)) a) : sProp 𝕄) = BI.own (EP (F := F) a) := rfl

theorem hu₀ (goRes tdRes : TaskRes F) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P goRes tdRes).x q thr) := by
  unfold u₀
  iintro Hu
  ihave H := (ownU_pair _ _) $$ Hu
  icases H with ⟨HH, HR⟩
  ihave HR' := (own_pair_emb (embR : Emb (UP × Counters) 𝕄) _ _) $$ HR
  icases HR' with ⟨HP, -⟩
  ihave HP' := (Entails.of_eq (own_EP (F := F) _)) $$ HP
  imod (Pipeline.fund_ghost (nD := nD) (τ := τ) (Pipeline.pin (pcfgs (F := F)) Tc.adm) (EP (F := F)) cellOf_inj) $$ HP' with HG
  icases HG with ⟨HG1, HG2⟩
  imodintro
  isplitl [HH]; · iexact HH
  isplitl [HG1 HG2]
  · unfold G; rw [bigSep_sep']
    isplitl [HG1]; · iexact HG1
    iexact HG2
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main as stretches of host operations around the three calls -/

/-- Before the node projection: the two rows of the edge list as flat vectors, the first weight transposed, the
    first bias as a row. -/
abbrev opsA : List (HloOp τ sig (Elt F)) :=
  [ StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 rfl shapeCasts_S1x320000_S320000,
    StableHlo.unary main_arg5 main_v4 ((transpose S128x128 [1, 0] · transposes_S128x128_S128x128_1_0) : (⟨S128x128, .f32⟩ : BufTy).Contents (Elt F) → (⟨S128x128, .f32⟩ : BufTy).Contents (Elt F)),
    StableHlo.reshape main_arg6 main_v5 rfl shapeCasts_S128_S1x128 ]

/-- Between the node projection and the gather: each edge-endpoint vector cut into the 32 tiles' 125 chunks of 80. -/
abbrev opsB : List (HloOp τ sig (Elt F)) :=
  [ StableHlo.reshape main_v1 main_v7 rfl shapeCasts_S320000_S32x125x80,
    StableHlo.reshape main_v3 main_v8 rfl shapeCasts_S320000_S32x125x80 ]

/-- Between the gather and the edge projection: the second weight transposed and cut into its three row bands, the
    second bias as a row. -/
abbrev opsC : List (HloOp τ sig (Elt F)) :=
  [ StableHlo.unary main_arg7 main_v10 ((transpose S148x128 [1, 0] · transposes_S128x148_S148x128_1_0) : (⟨S128x148, .f32⟩ : BufTy).Contents (Elt F) → (⟨S148x128, .f32⟩ : BufTy).Contents (Elt F)),
    StableHlo.unary main_v10 main_v11 ((extractStridedSlice S128x128 ![0, 0] · slices_S148x128_S128x128_0_0) : (⟨S148x128, .f32⟩ : BufTy).Contents (Elt F) → (⟨S128x128, .f32⟩ : BufTy).Contents (Elt F)),
    StableHlo.unary main_v10 main_v12 ((extractStridedSlice S16x128 ![128, 0] · slices_S148x128_S16x128_128_0) : (⟨S148x128, .f32⟩ : BufTy).Contents (Elt F) → (⟨S16x128, .f32⟩ : BufTy).Contents (Elt F)),
    StableHlo.unary main_v10 main_v13 ((extractStridedSlice S4x128 ![144, 0] · slices_S148x128_S4x128_144_0) : (⟨S148x128, .f32⟩ : BufTy).Contents (Elt F) → (⟨S4x128, .f32⟩ : BufTy).Contents (Elt F)),
    StableHlo.reshape main_arg8 main_v14 rfl shapeCasts_S128_S1x128 ]

theorem main_eq [FloatOps F] (d : Dev nD) : main (F := F) d =
    (StableHlo.seq opsA >>= fun _ =>
      Prog.lift (.customCall (SparseCore.inner (Pipeline.entry 0)) ()) >>= fun _ =>
      StableHlo.seq opsB >>= fun _ =>
      (sc (F := F)).run d 0 >>= fun _ =>
      StableHlo.seq opsC >>= fun _ =>
      Prog.lift (.customCall (SparseCore.inner (Pipeline.entry 1)) ()) >>= fun _ =>
      pure ⟨⟩) := by
  simp only [main, StableHlo.seq, bind_assoc, pure_bind]

end Cert.Proof.OnKernel.Launch

end
-- ==== Proof.OnKernel.TileRes.lean ====
/-
  One vector subcore's task of the gather kernel: what the task is handed and what it hands back, as
  functions of its place on the grid, and the statement of its body.

  The task at place (c, s) is task number w = 2 s + c of 32. It reads row w of the two index arrays
  (125 chunks of 80 node numbers each), gathers the 80 node rows each chunk names from the node
  features, and writes rows [10000 w + 80 t, 10000 w + 80 t + 80) of the result, chunk by chunk:
  row 10000 w + 80 t + r, lane j, is  max (h[src, j] + h[dst, j]) 0  with src, dst the r-th entries of
  chunk t of the two index rows.
-/
import Idealize.ShloMosaic.Lib.ValueIdx
import proofs.«206094_g687194767628_cont_sun_c4_81_43_alg».proof.Proof.OnKernel.Setup

noncomputable section

namespace Cert.Proof.OnKernel.Tile

open Cert.Kernel Cert.Kernel.Gen
open Cert.Proof.OnKernel

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The four arrays, as locations of a device and as the kernel's memrefs -/

/-- The node features (the first kernel's result), the two index arrays, the result. -/
abbrev hLoc (d : Dev nD) : Loc nD τ sig := (SparseCore.T d).loc main_v6
abbrev sLoc (d : Dev nD) : Loc nD τ sig := (SparseCore.T d).loc main_v7
abbrev dLoc (d : Dev nD) : Loc nD τ sig := (SparseCore.T d).loc main_v8
abbrev oLoc (d : Dev nD) : Loc nD τ sig := (SparseCore.T d).loc main_v9

abbrev hV : Memref sig .scVector .hbm S10000x128 .f32 := Memref.whole main_v6_scv
abbrev sV : Memref sig .scVector .hbm S32x125x80 .i32 := Memref.whole main_v7_scv
abbrev dV : Memref sig .scVector .hbm S32x125x80 .i32 := Memref.whole main_v8_scv
abbrev oV : Memref sig .scVector .hbm S320000x128 .f32 := Memref.whole main_v9_scv

/-! ## The place -/

abbrev cV (L : grid1.Coords) : Fin τ.nSC := (L 0).castLE hcore1
abbrev jV (L : grid1.Coords) : Fin τ.nSub := (L 1).castLE hsub1
/-- The task's thread. -/
abbrev thr (d : Dev nD) (L : grid1.Coords) : Thread nD τ := V d (cV L) (jV L)

/-- The task number of the place: 2 s + c. -/
def wid (L : grid1.Coords) : ℕ := 2 * (L 1).val + (L 0).val

theorem wid_lt (L : grid1.Coords) : wid L < 32 := by
  have h0 : (L 0).val < 2 := (L 0).isLt
  have h1 : (L 1).val < 16 := (L 1).isLt
  unfold wid; omega

/-- Row w of an index array, as the task slices it for its first two copies (squeezed to 125 × 80). -/
abbrev sRowK (L : grid1.Coords) : Memref sig .scVector .hbm S125x80 .i32 :=
  ((sV).slice (Rect.unit (s := S32x125x80) (k1_off1 L) S1x125x80.size (k1_off1_inb L)) (fun _ => rfl)).squeeze S125x80 squeezes_S1x125x80_S125x80
abbrev dRowK (L : grid1.Coords) : Memref sig .scVector .hbm S125x80 .i32 :=
  ((dV).slice (Rect.unit (s := S32x125x80) (k1_off1 L) S1x125x80.size (k1_off1_inb L)) (fun _ => rfl)).squeeze S125x80 squeezes_S1x125x80_S125x80

/-- The elements of row w of an index array. -/
abbrev idxSet (L : grid1.Coords) : Finset S32x125x80.Idx := (sRowK L).view.set

theorem outRect_inb (L : grid1.Coords) : ∀ a, (![10000 * wid L, 0] : Fin 2 → ℕ) a + (![10000, 128] : Fin 2 → ℕ) a ≤ S320000x128.size a := by
  have := wid_lt L
  intro a; fin_cases a
  · show 10000 * wid L + 10000 ≤ 320000; omega
  · show 0 + 128 ≤ 128; omega
/-- The task's 10000 rows of the result. -/
abbrev outRect (L : grid1.Coords) : Rect S320000x128 := Rect.unit (s := S320000x128) ![10000 * wid L, 0] ![10000, 128] (outRect_inb L)
abbrev outSet (L : grid1.Coords) : Finset S320000x128.Idx := (outRect L).set

/-! ## The value -/

variable [FloatOps F]

/-- One lane of the task's arithmetic: the sum of two node features, rectified. -/
def relu2 (a b : F .f32) : F .f32 := FloatOps.maximumf (FloatOps.addf a b) (Scalar.ofBits .f32 0x00000000#32)

/-- The node a 32-bit index word names among 10000: its unsigned value, clamped to the last node. -/
def nodeOf (w : BitVec 32) : Fin 10000 := ⟨min w.toNat 9999, by omega⟩

theorem nodeOf_val (w : BitVec 32) (h : w.toNat < 10000) : (nodeOf w).val = w.toNat := by
  show min w.toNat 9999 = w.toNat; omega

/-- Edge e of 320000 as (task, chunk, entry): e = 10000 w + 80 t + r. -/
def edgeIx (e : Fin 320000) : S32x125x80.Idx :=
  ix3 (⟨e.val / 10000, by have := e.isLt; omega⟩ : Fin 32) (⟨e.val % 10000 / 80, by omega⟩ : Fin 125) (⟨e.val % 80, by omega⟩ : Fin 80)

/-- The whole result as a function of the node features and the two index arrays: row e, lane j is
    relu2 of h[src e, j] and h[dst e, j]. A task's rows of it are this function on the task's row set. -/
def outRows (d : Dev nD) (hv : Buf (Elt F) (hLoc d)) (sv : Buf (Elt F) (sLoc d)) (dv : Buf (Elt F) (dLoc d)) : Buf (Elt F) (oLoc d) :=
  fun x => relu2 (F := F) (hv (ix2 (nodeOf (sv (edgeIx (x 0)))) (x 1))) (hv (ix2 (nodeOf (dv (edgeIx (x 0)))) (x 1)))

/-! ## What a task is handed and hands back -/

/-- Handed: a share q of the node features whole (every task reads arbitrary rows of them), the task's row of
    each index array outright, and the task's 10000 rows of the result at some contents. -/
def goRes (d : Dev nD) (L : grid1.Coords) (q : PosShare TreeShare) (hv : Buf (Elt F) (hLoc d)) (sv : Buf (Elt F) (sLoc d)) (dv : Buf (Elt F) (dLoc d)) : sProp 𝕄 :=
  iprop((hLoc d ↦{q} hv) ∗ (sLoc d ↦[idxSet L]{fullShare} sv) ∗ (dLoc d ↦[idxSet L]{fullShare} dv) ∗ ∃ f, oLoc d ↦[outSet L]{fullShare} f)

/-- Handed back: the same, the task's rows of the result at the value. -/
def tdRes (d : Dev nD) (L : grid1.Coords) (q : PosShare TreeShare) (hv : Buf (Elt F) (hLoc d)) (sv : Buf (Elt F) (sLoc d)) (dv : Buf (Elt F) (dLoc d)) : sProp 𝕄 :=
  iprop((hLoc d ↦{q} hv) ∗ (sLoc d ↦[idxSet L]{fullShare} sv) ∗ (dLoc d ↦[idxSet L]{fullShare} dv) ∗ (oLoc d ↦[outSet L]{fullShare} outRows d hv sv dv))

instance goRes_storable (d : Dev nD) (L : grid1.Coords) (q : PosShare TreeShare) (hv : Buf (Elt F) (hLoc d)) (sv : Buf (Elt F) (sLoc d)) (dv : Buf (Elt F) (dLoc d)) :
    BI.Storable (upEmb : UEmb _ 𝕄) (goRes d L q hv sv dv) := by unfold goRes; infer_instance
instance tdRes_storable (d : Dev nD) (L : grid1.Coords) (q : PosShare TreeShare) (hv : Buf (Elt F) (hLoc d)) (sv : Buf (Elt F) (sLoc d)) (dv : Buf (Elt F) (dLoc d)) :
    BI.Storable (upEmb : UEmb _ 𝕄) (tdRes d L q hv sv dv) := by unfold tdRes; infer_instance

/-- Every index word of the task's two rows names a node. -/
def IdxOK (d : Dev nD) (L : grid1.Coords) (sv : Buf (Elt F) (sLoc d)) (dv : Buf (Elt F) (dLoc d)) : Prop :=
  ∀ x ∈ idxSet L, (sv x).toNat < 10000 ∧ (dv x).toNat < 10000

/-- The kernel function on the task's operands, as the body table passes them. -/
abbrev tileProg (L : grid1.Coords) : Prog (TpuEff nD τ sig (Elt F) Λ₀ (.scVector (cV L) (jV L))) PUnit :=
  cc1__sc_body L hV (Memref.isWhole_whole _) sV (Memref.isWhole_whole _) dV (Memref.isWhole_whole _) oV (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    (Memref.whole cc1_scratch4) (Memref.isWhole_whole _) (Memref.whole cc1_scratch5) (Memref.isWhole_whole _)
    (Memref.whole cc1_scratch6) (Memref.isWhole_whole _) (Memref.whole cc1_scratch7) (Memref.isWhole_whole _)
    cc1_scratch8 cc1_scratch9 cc1_scratch10 cc1_scratch11 cc1_scratch12 cc1_scratch13 cc1_scoped0 cc1_scoped1

/-- The statement of the task's body: from what it is handed, its scratch and semaphores and what it owes the
    launch, the kernel function runs to its end and hands back the value. -/
def TileBody (d : Dev nD) (L : grid1.Coords) : Prop :=
  ∀ (q : PosShare TreeShare) (hv : Buf (Elt F) (hLoc d)) (sv : Buf (Elt F) (sLoc d)) (dv : Buf (Elt F) (dLoc d)) (_ : IdxOK (F := F) d L sv dv)
    (O : CellTallies nD τ sig (HIx 1)) (W : Waits sig (HIx 1)) (_ : ∀ g, O g none = 0),
    iprop(levAts (K (F := F)).L (K (F := F)).lev ∗ emp ∗ goRes d L q hv sv dv
        ∗ scopedBufs (thr d L) ∗ scopedSems0 (thr d L) ∗ owes (thr d L) O W)
      ⊢ wp frame (wpE (defs₀ (F := F)) 𝒱₀ (thr d L) none) Set.univ (tileProg (F := F) L)
          fun _ => iprop(tdRes d L q hv sv dv ∗ scopedBufs (thr d L) ∗ scopedSems0 (thr d L)
            ∗ ∃ W', ⌜∀ p ∈ W', p ∈ W ∨ p.2 = none⌝ ∗ owes (thr d L) O W')

/-! ## The body's statement in the launch theorem's spelling of thread and program -/

/-- The place of SparseCore c, vector subcore s of the kernel's grid. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 () = SparseCore.onTile hcore1 hsub1 (fun c s => tileProg (F := F) (coordsV c s)) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The place of task i of SparseCore c of the call. -/
abbrev placeOf (c : Fin ((K (F := F)).nCore 0)) (i : Fin ((K (F := F)).nSub 0)) : grid1.Coords :=
  coordsV ⟨((K (F := F)).core 0 c).val, c.isLt⟩ ⟨((K (F := F)).sub 0 i).val, i.isLt⟩

/-- From the body's statement at every place: the launch theorem's obligation for task i of SparseCore c, for
    whatever share and contents the launch hands the task. -/
theorem tile_obl (hb : ∀ d L, TileBody (F := F) d L) (d : Dev nD) (c : Fin ((K (F := F)).nCore 0)) (i : Fin ((K (F := F)).nSub 0))
    (q : PosShare TreeShare) (hv : Buf (Elt F) (hLoc d)) (sv : Buf (Elt F) (sLoc d)) (dv : Buf (Elt F) (dLoc d))
    (hidx : IdxOK (F := F) d (placeOf (F := F) c i) sv dv)
    (O : CellTallies nD τ sig (HIx 1)) (W : Waits sig (HIx 1)) (hO : ∀ g, O g none = 0) :
    iprop(levAts (K (F := F)).L (K (F := F)).lev ∗ emp ∗ goRes d (placeOf (F := F) c i) q hv sv dv
        ∗ scopedBufs (V d ((K (F := F)).core 0 c) ((K (F := F)).sub 0 i)) ∗ scopedSems0 (V d ((K (F := F)).core 0 c) ((K (F := F)).sub 0 i))
        ∗ owes (V d ((K (F := F)).core 0 c) ((K (F := F)).sub 0 i)) O W)
      ⊢ wp frame (wpE (D (F := F)) 𝒱 (V d ((K (F := F)).core 0 c) ((K (F := F)).sub 0 i)) (some v₀)) Set.univ
          (D (F := F) (.scVector ((K (F := F)).core 0 c) ((K (F := F)).sub 0 i)) ((K (F := F)).body 0) ((K (F := F)).args 0)) fun _ =>
          iprop(tdRes d (placeOf (F := F) c i) q hv sv dv
            ∗ scopedBufs (V d ((K (F := F)).core 0 c) ((K (F := F)).sub 0 i)) ∗ scopedSems0 (V d ((K (F := F)).core 0 c) ((K (F := F)).sub 0 i))
            ∗ ∃ W', ⌜∀ p ∈ W', p ∈ W ∨ p.2 = none ∨ p.2 = some (0 : Fin 1)⌝ ∗ owes (V d ((K (F := F)).core 0 c) ((K (F := F)).sub 0 i)) O W') := by
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (hb d (placeOf (F := F) c i) q hv sv dv hidx O W hO).trans (wp_mono frame _ _ fun _ => obl_post)

end Cert.Proof.OnKernel.Tile

end
-- ==== Proof.OnKernel.TileSplit.lean ====
/-
  How the four whole arrays of the gather kernel are dealt to its 32 tasks and gathered back.

  Task (c, i) — vector subcore i of SparseCore c — is task number w = 2 i + c of 32; (c, i) ↦ w is a
  bijection of 2 × 16 onto 32. The node features are read whole by every task: their full share is cut into
  one read token per task and a remainder. Each index array is cut along its first axis into its 32 rows,
  the result along its first axis into 32 blocks of 10000 rows; task w is dealt row w and block w. The
  parts are pairwise disjoint and cover, so a whole points-to is the separating conjunction of its parts,
  in both directions.
-/
import proofs.«206094_g687194767628_cont_sun_c4_81_43_alg».proof.Proof.OnKernel.TileRes

noncomputable section

namespace Cert.Proof.OnKernel.Tile

open Cert.Kernel Cert.Kernel.Gen
open Cert.Proof.OnKernel

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The task number as a bijection of 2 × 16 onto 32 -/

/-- The task number of SparseCore c's vector subcore i: 2 i + c. -/
def tileNo (c : Fin 2) (i : Fin 16) : Fin 32 := ⟨2 * i.val + c.val, by have := c.isLt; have := i.isLt; omega⟩

theorem wid_coordsV (c : Fin 2) (i : Fin 16) : wid (coordsV c i) = (tileNo c i).val := rfl

/-- The read token of the node features dealt to the task. -/
abbrev qTile (c : Fin 2) (i : Fin 16) : PosShare TreeShare := Transfers.shareTok fullShare 32 (tileNo c i)

theorem tileNo_injective : Function.Injective fun p : Fin 2 × Fin 16 => tileNo p.1 p.2 := by
  rintro ⟨c, i⟩ ⟨c', i'⟩ h
  have h' : 2 * i.val + c.val = 2 * i'.val + c'.val := congrArg Fin.val h
  have := c.isLt; have := c'.isLt
  refine Prod.ext (Fin.ext ?_) (Fin.ext ?_)
  · show c.val = c'.val; omega
  · show i.val = i'.val; omega

theorem tileNo_surjective : Function.Surjective fun p : Fin 2 × Fin 16 => tileNo p.1 p.2 := by
  intro j
  have hj := j.isLt
  refine ⟨(⟨j.val % 2, Nat.mod_lt _ (by omega)⟩, ⟨j.val / 2, by omega⟩), Fin.ext ?_⟩
  show 2 * (j.val / 2) + j.val % 2 = j.val
  omega

/-- A separating conjunction over the 32 tasks, taken SparseCore by SparseCore and subcore by subcore. -/
theorem bigSep_tiles (Φ : Fin 32 → sProp 𝕄) :
    bigSep Finset.univ Φ = bigSep Finset.univ fun c : Fin 2 => bigSep Finset.univ fun i : Fin 16 => Φ (tileNo c i) :=
  (congrArg (fun s => bigSep s Φ) (Finset.image_univ_of_surjective tileNo_surjective).symm).trans
    ((SparseCore.bigSep_image_of_injOn (tileNo_injective.injOn) Φ).trans (bigSep_univ_prod _))

/-! ## The rows of an index array and the blocks of the result -/

theorem hdivI : 32 ∣ S32x125x80.size 0 := ⟨1, rfl⟩
theorem hdivO : 32 ∣ S320000x128.size 0 := ⟨10000, rfl⟩

/-- Row w of an index array; block w of the result. -/
abbrev iPart (w : Fin 32) : Rect S32x125x80 := Rect.part (s := S32x125x80) (a₀ := 0) hdivI w
abbrev oPart (w : Fin 32) : Rect S320000x128 := Rect.part (s := S320000x128) (a₀ := 0) hdivO w

/-- The task's slice of an index array is row w. -/
theorem idxRect_eq (c : Fin 2) (i : Fin 16) :
    Rect.unit (s := S32x125x80) (k1_off1 (coordsV c i)) S1x125x80.size (k1_off1_inb (coordsV c i)) = iPart (tileNo c i) := by
  unfold iPart Rect.part Rect.block
  congr 1 <;> funext a
  · rw [k1_off1_eq]
    match a with
    | 0 => simp [Shape.partIx, Shape.partSize, coordsV, tileNo]
    | 1 => simp [Shape.partIx, Shape.partSize]
    | 2 => simp [Shape.partIx, Shape.partSize]
  · match a with
    | 0 => simp [Shape.partSize]
    | 1 => simp [Shape.partSize]
    | 2 => simp [Shape.partSize]

theorem idxSet_eq (c : Fin 2) (i : Fin 16) : idxSet (coordsV c i) = (iPart (tileNo c i)).set := by
  show (((View.whole (main_v7_scv : Ref sig .scVector)).slice
      (Rect.unit (s := S32x125x80) (k1_off1 (coordsV c i)) S1x125x80.size (k1_off1_inb (coordsV c i)))).reshape S125x80
        squeezes_S1x125x80_S125x80.numel_eq).set = _
  rw [View.set_reshape, View.set_slice_whole]
  exact idxRect_eq c i ▸ rfl

/-- The task's rows of the result are block w. -/
theorem outRect_eq (c : Fin 2) (i : Fin 16) : outRect (coordsV c i) = oPart (tileNo c i) := by
  unfold outRect oPart Rect.part Rect.block
  congr 1 <;> funext a
  · match a with
    | 0 => simp [Shape.partIx, Shape.partSize, wid_coordsV, Nat.mul_comm]
    | 1 => simp [Shape.partIx, Shape.partSize]
  · match a with
    | 0 => simp [Shape.partSize]
    | 1 => simp [Shape.partSize]

theorem outSet_eq (c : Fin 2) (i : Fin 16) : outSet (coordsV c i) = (oPart (tileNo c i)).set := by
  show (outRect (coordsV c i)).set = _
  rw [outRect_eq]

theorem iParts_disjoint : ∀ w ∈ (Finset.univ : Finset (Fin 32)), ∀ w' ∈ (Finset.univ : Finset (Fin 32)), w ≠ w' → Disjoint (iPart w).set (iPart w').set :=
  fun _ _ _ _ h => Rect.part_disjoint hdivI h
theorem oParts_disjoint : ∀ w ∈ (Finset.univ : Finset (Fin 32)), ∀ w' ∈ (Finset.univ : Finset (Fin 32)), w ≠ w' → Disjoint (oPart w).set (oPart w').set :=
  fun _ _ _ _ h => Rect.part_disjoint hdivO h

/-! ## A whole array is the separating conjunction of its 32 parts -/

theorem sPts_parts (d : Dev nD) (f : Buf (Elt F) (sLoc d)) :
    (sLoc d ↦{fullShare} f : sProp 𝕄) = bigSep Finset.univ fun w : Fin 32 => sLoc d ↦[(iPart w).set]{fullShare} f := by
  rw [← pointsTo_biUnion Finset.univ (ℓ := sLoc d) (fun w : Fin 32 => (iPart w).set) iParts_disjoint, Rect.biUnion_part hdivI]; try rfl
theorem dPts_parts (d : Dev nD) (f : Buf (Elt F) (dLoc d)) :
    (dLoc d ↦{fullShare} f : sProp 𝕄) = bigSep Finset.univ fun w : Fin 32 => dLoc d ↦[(iPart w).set]{fullShare} f := by
  rw [← pointsTo_biUnion Finset.univ (ℓ := dLoc d) (fun w : Fin 32 => (iPart w).set) iParts_disjoint, Rect.biUnion_part hdivI]; try rfl
theorem oPts_parts (d : Dev nD) (f : Buf (Elt F) (oLoc d)) :
    (oLoc d ↦{fullShare} f : sProp 𝕄) = bigSep Finset.univ fun w : Fin 32 => oLoc d ↦[(oPart w).set]{fullShare} f := by
  rw [← pointsTo_biUnion Finset.univ (ℓ := oLoc d) (fun w : Fin 32 => (oPart w).set) oParts_disjoint, Rect.biUnion_part hdivO]; try rfl

/-- A block of the result at given contents is that block at some contents; so for all 32 at once. -/
theorem oPart_some (d : Dev nD) (w : Fin 32) (f0 : Buf (Elt F) (oLoc d)) :
    (oLoc d ↦[(oPart w).set]{fullShare} f0 : sProp 𝕄) ⊢ iprop(∃ f, oLoc d ↦[(oPart w).set]{fullShare} f) := by
  iintro H; iexists f0; iexact H
theorem oParts_some (d : Dev nD) (f0 : Buf (Elt F) (oLoc d)) :
    (bigSep Finset.univ fun w : Fin 32 => (oLoc d ↦[(oPart w).set]{fullShare} f0 : sProp 𝕄))
      ⊢ bigSep Finset.univ fun w : Fin 32 => (iprop(∃ f, oLoc d ↦[(oPart w).set]{fullShare} f) : sProp 𝕄) :=
  bigSep_mono fun w _ => oPart_some d w f0

/-! ## What task w is handed and hands back, by its number -/

/-- What task w is handed: its read token, its row of each index array, its block of the result at some contents. -/
def goW (d : Dev nD) (w : Fin 32) (hv : Buf (Elt F) (hLoc d)) (sv : Buf (Elt F) (sLoc d)) (dv : Buf (Elt F) (dLoc d)) : sProp 𝕄 :=
  iprop((hLoc d ↦{Transfers.shareTok fullShare 32 w} hv) ∗ (sLoc d ↦[(iPart w).set]{fullShare} sv) ∗ (dLoc d ↦[(iPart w).set]{fullShare} dv)
    ∗ ∃ f, oLoc d ↦[(oPart w).set]{fullShare} f)

/-- What task w hands back: the same, its block of the result at the value. -/
def tdW [FloatOps F] (d : Dev nD) (w : Fin 32) (hv : Buf (Elt F) (hLoc d)) (sv : Buf (Elt F) (sLoc d)) (dv : Buf (Elt F) (dLoc d)) : sProp 𝕄 :=
  iprop((hLoc d ↦{Transfers.shareTok fullShare 32 w} hv) ∗ (sLoc d ↦[(iPart w).set]{fullShare} sv) ∗ (dLoc d ↦[(iPart w).set]{fullShare} dv)
    ∗ (oLoc d ↦[(oPart w).set]{fullShare} outRows d hv sv dv))

theorem goRes_eq (d : Dev nD) (c : Fin 2) (i : Fin 16) (hv : Buf (Elt F) (hLoc d)) (sv : Buf (Elt F) (sLoc d)) (dv : Buf (Elt F) (dLoc d)) :
    goRes d (coordsV c i) (qTile c i) hv sv dv = goW d (tileNo c i) hv sv dv := by
  unfold goRes goW; rw [idxSet_eq, outSet_eq]

theorem tdRes_eq [FloatOps F] (d : Dev nD) (c : Fin 2) (i : Fin 16) (hv : Buf (Elt F) (hLoc d)) (sv : Buf (Elt F) (sLoc d)) (dv : Buf (Elt F) (dLoc d)) :
    tdRes d (coordsV c i) (qTile c i) hv sv dv = tdW d (tileNo c i) hv sv dv := by
  unfold tdRes tdW; rw [idxSet_eq, outSet_eq]

theorem goRes_tiles (d : Dev nD) (hv : Buf (Elt F) (hLoc d)) (sv : Buf (Elt F) (sLoc d)) (dv : Buf (Elt F) (dLoc d)) :
    (bigSep Finset.univ fun c : Fin 2 => bigSep Finset.univ fun i : Fin 16 => goRes d (coordsV c i) (qTile c i) hv sv dv)
      = bigSep Finset.univ fun w : Fin 32 => goW d w hv sv dv := by
  rw [bigSep_tiles (F := F) fun w => goW d w hv sv dv]
  exact bigSep_congr fun c _ => bigSep_congr fun i _ => goRes_eq d c i hv sv dv

theorem tdRes_tiles [FloatOps F] (d : Dev nD) (hv : Buf (Elt F) (hLoc d)) (sv : Buf (Elt F) (sLoc d)) (dv : Buf (Elt F) (dLoc d)) :
    (bigSep Finset.univ fun c : Fin 2 => bigSep Finset.univ fun i : Fin 16 => tdRes d (coordsV c i) (qTile c i) hv sv dv)
      = bigSep Finset.univ fun w : Fin 32 => tdW d w hv sv dv := by
  rw [bigSep_tiles (F := F) fun w => tdW d w hv sv dv]
  exact bigSep_congr fun c _ => bigSep_congr fun i _ => tdRes_eq d c i hv sv dv

/-! ## The split and the join -/

/-- The four whole arrays, dealt: the remainder of the node features' share is kept; every task gets its read
    token, its row of each index array, and its block of the result at the contents the result had. -/
theorem arrays_split (d : Dev nD) (hv : Buf (Elt F) (hLoc d)) (sv : Buf (Elt F) (sLoc d)) (dv : Buf (Elt F) (dLoc d)) (f0 : Buf (Elt F) (oLoc d)) :
    iprop((hLoc d ↦{fullShare} hv) ∗ (sLoc d ↦{fullShare} sv) ∗ (dLoc d ↦{fullShare} dv) ∗ (oLoc d ↦{fullShare} f0))
      ⊢ (iprop((hLoc d ↦{Transfers.shareDrop fullShare 32} hv)
          ∗ bigSep Finset.univ fun c : Fin 2 => bigSep Finset.univ fun i : Fin 16 => goRes d (coordsV c i) (qTile c i) hv sv dv) : sProp 𝕄) := by
  rw [goRes_tiles]
  unfold goW
  rw [bigSep_sep', bigSep_sep', bigSep_sep', sPts_parts, dPts_parts, oPts_parts]
  iintro ⟨Hh, Hs, Hd, Ho⟩
  ihave Hh' := (Transfers.pointsTo_toks_split fullShare 32) $$ Hh
  icases Hh' with ⟨Hr, Ht⟩
  isplitl [Hr]; · iexact Hr
  isplitl [Ht]; · iexact Ht
  isplitl [Hs]; · iexact Hs
  isplitl [Hd]; · iexact Hd
  iapply (oParts_some d f0); iexact Ho

/-- The tasks' resources, gathered: the read tokens and the remainder make the node features' full share again,
    the rows make each index array, and the blocks — each at the one function of the operands — make the result
    at that function. -/
theorem arrays_join [FloatOps F] (d : Dev nD) (hv : Buf (Elt F) (hLoc d)) (sv : Buf (Elt F) (sLoc d)) (dv : Buf (Elt F) (dLoc d)) :
    iprop((hLoc d ↦{Transfers.shareDrop fullShare 32} hv)
          ∗ bigSep Finset.univ fun c : Fin 2 => bigSep Finset.univ fun i : Fin 16 => tdRes d (coordsV c i) (qTile c i) hv sv dv)
      ⊢ (iprop((hLoc d ↦{fullShare} hv) ∗ (sLoc d ↦{fullShare} sv) ∗ (dLoc d ↦{fullShare} dv) ∗ (oLoc d ↦{fullShare} outRows d hv sv dv)) : sProp 𝕄) := by
  rw [tdRes_tiles]
  unfold tdW
  rw [bigSep_sep', bigSep_sep', bigSep_sep', sPts_parts, dPts_parts, oPts_parts]
  iintro ⟨Hr, Ht, Hs, Hd, Ho⟩
  isplitl [Hr Ht]
  · iapply (Transfers.pointsTo_toks_join fullShare 32)
    isplitl [Hr]; · iexact Hr
    iexact Ht
  isplitl [Hs]; · iexact Hs
  isplitl [Hd]; · iexact Hd
  iexact Ho

/-! ## The launch's own numbering of SparseCores and subcores -/

/-- The place of the call's task i of SparseCore c is the place of (c, i). -/
theorem placeOf_eq (c : Fin ((K (F := F)).nCore 0)) (i : Fin ((K (F := F)).nSub 0)) :
    placeOf (F := F) c i = coordsV (Fin.cast nCore_zero c) (Fin.cast nSub_zero i) := rfl

/-- A separating conjunction over the call's SparseCores (subcores) is one over 2 (16). -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

end Cert.Proof.OnKernel.Tile

end
-- ==== Proof.OnKernel.TcBody0.lean ====
/-
  The body obligation of the node projection (pipeline 0) at a symbolic grid point: the body loads its three input
  blocks whole, and stores the payload (the block times the transposed weights, plus the bias row) over the whole
  output buffer; the invariant and what the core owes pass through unread.
-/
import proofs.«206094_g687194767628_cont_sun_c4_81_43_alg».proof.Proof.OnKernel.TcData

set_option maxRecDepth 16384

noncomputable section

namespace Cert.Proof.OnKernel.Tc

open Cert.Kernel Cert.Kernel.Gen
open Cert.Proof.OnKernel

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section
variable (V : (c : Dev nD) → (b : Ref sig .tc) → Buf (Elt F) ((c : Thread nD τ).loc b))
variable (O : Dev nD → CellTallies nD τ sig (HIx 1)) (B : Dev nD → Set (SemLoc sig × HIx 1))

set_option maxHeartbeats 1000000 in
/-- The body on whole staging memrefs, the inputs' at read contents and the output's at anything, runs to the
    continuation holding the inputs' as they were and the output's at `out0_3` of the inputs'. -/
theorem sound_kernel0 (c : Dev nD) (E : Set ℕ) (i : grid0.Coords)
    (arg1 : Memref sig .tc .vmem S1000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1000x128 .f32) (harg4 : arg4.IsWhole)
    (x0 : Vec F S1000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__lin1_body i arg1 harg1 arg2 harg2 arg3 harg3 arg4 harg4) K := by
  simp only [cc0__lin1_body_eq_skeleton]; unfold cc0__lin1_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- What the body is called with at point `t`, the windows one by one, -/
def bodyPre0 (c : Dev nD) (t : Fin cfg0.N) : sProp 𝕄 :=
  iprop((dat0 V O B c).Φ t.castSucc ∗ (dat0 V O B c).owesAt none t.castSucc
    ∗ (∃ d, owns (c : Thread nD τ) (st0_0 t) fullShare ((dat0 V O B c).before 0 t d))
    ∗ (∃ d, owns (c : Thread nD τ) (st0_1 t) fullShare ((dat0 V O B c).before 1 t d))
    ∗ (∃ d, owns (c : Thread nD τ) (st0_2 t) fullShare ((dat0 V O B c).before 2 t d))
    ∗ (∃ d, owns (c : Thread nD τ) (st0_3 t) fullShare ((dat0 V O B c).before 3 t d)))

/-- and what it returns. -/
def bodyPost0 (c : Dev nD) (t : Fin cfg0.N) : sProp 𝕄 :=
  iprop((dat0 V O B c).Φ t.succ ∗ (dat0 V O B c).owesAt none t.succ
    ∗ owns (c : Thread nD τ) (st0_0 t) fullShare ((dat0 V O B c).after 0 t)
    ∗ owns (c : Thread nD τ) (st0_1 t) fullShare ((dat0 V O B c).after 1 t)
    ∗ owns (c : Thread nD τ) (st0_2 t) fullShare ((dat0 V O B c).after 2 t)
    ∗ owns (c : Thread nD τ) (st0_3 t) fullShare ((dat0 V O B c).after 3 t))

/-- The body at any point: the inputs' memrefs hold their blocks, so `sound_kernel0` applies. -/
theorem sound_body0 (c : Dev nD) (t : Fin cfg0.N) :
    bodyPre0 V O B c t ⊢ wp frame (wpE (defs₀ (F := F)) Variants.none c none) Set.univ (bodyAt0 t) (fun _ => bodyPost0 V O B c t) := by
  unfold bodyPre0 bodyPost0 bodyAt0
  simp only [before0_0, before0_1, before0_2]
  rw [show (dat0 V O B c).Φ t.succ = (dat0 V O B c).Φ t.castSucc from rfl,
    show (dat0 V O B c).owesAt none t.succ = (dat0 V O B c).owesAt none t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V O B c) (defs₀ (F := F)) Variants.none none Set.univ := fun t => by
  rw [bigSep_W0, bigSep_W0]
  exact sound_body0 V O B c t

end

end Cert.Proof.OnKernel.Tc

end
-- ==== Proof.OnKernel.TcBody2.lean ====
/-
  The body obligation of the edge projection (pipeline 1) at a symbolic grid point: the body loads its seven input
  blocks whole, and stores the payload (the three products summed in the order the kernel sums them, plus the bias
  row) over the whole output buffer; the invariant and what the core owes pass through unread.
-/
import proofs.«206094_g687194767628_cont_sun_c4_81_43_alg».proof.Proof.OnKernel.TcData

set_option maxRecDepth 16384

noncomputable section

namespace Cert.Proof.OnKernel.Tc

open Cert.Kernel Cert.Kernel.Gen
open Cert.Proof.OnKernel

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section
variable (V : (c : Dev nD) → (b : Ref sig .tc) → Buf (Elt F) ((c : Thread nD τ).loc b))
variable (O : Dev nD → CellTallies nD τ sig (HIx 1)) (B : Dev nD → Set (SemLoc sig × HIx 1))

set_option maxHeartbeats 1000000 in
/-- The body on whole staging memrefs, the inputs' at read contents and the output's at anything, runs to the
    continuation holding the inputs' as they were and the output's at `out2_7` of the inputs'. -/
theorem sound_kernel2 (c : Dev nD) (E : Set ℕ) (i : grid2.Coords)
    (arg1 : Memref sig .tc .vmem S10000x128 .f32) (harg1 : arg1.IsWhole) (arg2 : Memref sig .tc .vmem S10000x16 .f32) (harg2 : arg2.IsWhole) (arg3 : Memref sig .tc .vmem S10000x4 .f32) (harg3 : arg3.IsWhole) (arg4 : Memref sig .tc .vmem S128x128 .f32) (harg4 : arg4.IsWhole) (arg5 : Memref sig .tc .vmem S16x128 .f32) (harg5 : arg5.IsWhole) (arg6 : Memref sig .tc .vmem S4x128 .f32) (harg6 : arg6.IsWhole) (arg7 : Memref sig .tc .vmem S1x128 .f32) (harg7 : arg7.IsWhole) (arg8 : Memref sig .tc .vmem S10000x128 .f32) (harg8 : arg8.IsWhole)
    (x0 : Vec F S10000x128 .f32) (x1 : Vec F S10000x16 .f32) (x2 : Vec F S10000x4 .f32) (x3 : Vec F S128x128 .f32) (x4 : Vec F S16x128 .f32) (x5 : Vec F S4x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out2_7 x0 x1 x2 x3 x4 x5 x6)) -∗ K ⟨⟩))
      ⊢ wp frame (wpE (defs₀ (F := F)) Variants.none c none) E (cc2__lin2_body i arg1 harg1 arg2 harg2 arg3 harg3 arg4 harg4 arg5 harg5 arg6 harg6 arg7 harg7 arg8 harg8) K := by
  simp only [cc2__lin2_body_eq_skeleton]; unfold cc2__lin2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-- What the body is called with at point `t`, the windows one by one, -/
def bodyPre2 (c : Dev nD) (t : Fin cfg2.N) : sProp 𝕄 :=
  iprop((dat2 V O B c).Φ t.castSucc ∗ (dat2 V O B c).owesAt none t.castSucc
    ∗ (∃ d, owns (c : Thread nD τ) (st2_0 t) fullShare ((dat2 V O B c).before 0 t d))
    ∗ (∃ d, owns (c : Thread nD τ) (st2_1 t) fullShare ((dat2 V O B c).before 1 t d))
    ∗ (∃ d, owns (c : Thread nD τ) (st2_2 t) fullShare ((dat2 V O B c).before 2 t d))
    ∗ (∃ d, owns (c : Thread nD τ) (st2_3 t) fullShare ((dat2 V O B c).before 3 t d))
    ∗ (∃ d, owns (c : Thread nD τ) (st2_4 t) fullShare ((dat2 V O B c).before 4 t d))
    ∗ (∃ d, owns (c : Thread nD τ) (st2_5 t) fullShare ((dat2 V O B c).before 5 t d))
    ∗ (∃ d, owns (c : Thread nD τ) (st2_6 t) fullShare ((dat2 V O B c).before 6 t d))
    ∗ (∃ d, owns (c : Thread nD τ) (st2_7 t) fullShare ((dat2 V O B c).before 7 t d)))

/-- and what it returns. -/
def bodyPost2 (c : Dev nD) (t : Fin cfg2.N) : sProp 𝕄 :=
  iprop((dat2 V O B c).Φ t.succ ∗ (dat2 V O B c).owesAt none t.succ
    ∗ owns (c : Thread nD τ) (st2_0 t) fullShare ((dat2 V O B c).after 0 t)
    ∗ owns (c : Thread nD τ) (st2_1 t) fullShare ((dat2 V O B c).after 1 t)
    ∗ owns (c : Thread nD τ) (st2_2 t) fullShare ((dat2 V O B c).after 2 t)
    ∗ owns (c : Thread nD τ) (st2_3 t) fullShare ((dat2 V O B c).after 3 t)
    ∗ owns (c : Thread nD τ) (st2_4 t) fullShare ((dat2 V O B c).after 4 t)
    ∗ owns (c : Thread nD τ) (st2_5 t) fullShare ((dat2 V O B c).after 5 t)
    ∗ owns (c : Thread nD τ) (st2_6 t) fullShare ((dat2 V O B c).after 6 t)
    ∗ owns (c : Thread nD τ) (st2_7 t) fullShare ((dat2 V O B c).after 7 t))

/-- The body at any point: the inputs' memrefs hold their blocks, so `sound_kernel2` applies. -/
theorem sound_body2 (c : Dev nD) (t : Fin cfg2.N) :
    bodyPre2 V O B c t ⊢ wp frame (wpE (defs₀ (F := F)) Variants.none c none) Set.univ (bodyAt2 t) (fun _ => bodyPost2 V O B c t) := by
  unfold bodyPre2 bodyPost2 bodyAt2
  simp only [before2_0, before2_1, before2_2, before2_3, before2_4, before2_5, before2_6]
  rw [show (dat2 V O B c).Φ t.succ = (dat2 V O B c).Φ t.castSucc from rfl,
    show (dat2 V O B c).owesAt none t.succ = (dat2 V O B c).owesAt none t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V O B c) (defs₀ (F := F)) Variants.none none Set.univ := fun t => by
  rw [bigSep_W2, bigSep_W2]
  exact sound_body2 V O B c t

end

end Cert.Proof.OnKernel.Tc

end
-- ==== Proof.OnKernel.TcRegion.lean ====
/-
  The two TensorCore kernel regions as the TensorCore thread meets them inside the program: each call, from the
  region boundary, every unscoped buffer at the entry contents, the generator register, what the core owes and the
  pipeline's staging cells' ghost state, runs to the boundary and every unscoped buffer at the exit contents — the
  region's arrays at what the pipeline's write-backs leave, every other buffer as entered.
-/
import proofs.«206094_g687194767628_cont_sun_c4_81_43_alg».proof.Proof.OnKernel.TcBody0
import proofs.«206094_g687194767628_cont_sun_c4_81_43_alg».proof.Proof.OnKernel.TcBody2
import Idealize.ShloMosaic.Lib.SparseCore.Threads

set_option maxRecDepth 16384

noncomputable section

namespace Cert.Proof.OnKernel.Tc

open Cert.Kernel Cert.Kernel.Gen
open Cert.Proof.OnKernel

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.SparseCore (T)

section
variable (V V' : (c : Dev nD) → (b : Ref sig .tc) → Buf (Elt F) ((c : Thread nD τ).loc b))
variable (O : Dev nD → CellTallies nD τ sig (HIx 1)) (B : Dev nD → Set (SemLoc sig × HIx 1))

/-- What the TensorCore holds around a kernel region: every unscoped buffer at a valuation, its generator register at
    some state, and what it owes, its recorded waits within a bound. -/
def tcHold (c : Dev nD) : sProp 𝕄 :=
  iprop(unscopedBufs c (V c) ∗ (∃ r, prngReg c r) ∗ ∃ W : Waits sig (HIx 1), ⌜(↑W : Set (SemLoc sig × HIx 1)) ⊆ B c⌝ ∗ owes (c : Thread nD τ) (O c) W)

set_option backward.isDefEq.respectTransparency.types false in
/-- The node projection as a kernel region over the thread state `tcHold`: entered from every unscoped buffer at `V`, left at
    `V'`. Its arrays are split out of the unscoped buffers and put back at the exit contents; the generator register
    goes into the invariant and comes out; what the core owes rides through; no semaphore of the kernel's own. -/
def reg0 (hO : ∀ c g, O c g none = 0) (hB : ∀ c, cfg0.waitPairs none ⊆ B c)
    (hF : ∀ c (w : Fin cfg0.W), (dat0 V O B c).arrAt w cfg0.N = V' c (Pipeline.arrRef spec0 w))
    (hrest : ∀ c b, b ∉ Finset.univ.image (Pipeline.arrRef spec0) → V' c b = V c b) :
    Pipeline.RegionSeg (pcfgs (F := F)) adm (pdats V O B) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 V O B c).loose
  hwaits c := Pipeline.cellsWaits_intro (Pipeline.pin (pcfgs (F := F)) adm) (pdats V O B) none 0 c fun w s t =>
    (K (F := F)).mayWait_none _ (hO c)
  pre c := tcHold V O B c
  post c := tcHold V' O B c
  X c := iprop(∃ r, prngReg c r)
  Y c := iprop(∃ r, prngReg c r)
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V O B) launch0.win launch0.arr_whole c
      ((pdats V O B 0 c).share_full fun _ => rfl) (V c) fun _ => rfl
    unfold tcHold
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitl [Hp]; · iexact Hp
    iexact Hrest
  hin c := by
    rw [show (pdats V O B 0 c).Φ 0 = ΦR spec0 c from rfl]; unfold ΦR
    iintro ⟨Hp, -, Hr⟩
    isplitl [Hr]; · iexact Hr
    iexact Hp
  hout c := by
    rw [Pipeline.ownSems0_none, show (pdats V O B 0 c).Φ (Fin.last _) = ΦR spec0 c from rfl]; unfold ΦR
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats V O B) ((pdats V O B 0 c).share_full fun _ => rfl)
      (V c) (V' c) ((pdats V O B 0 c).arrAt · cfg0.N) (hF c) (hrest c)
    unfold tcHold
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; exact fun x hx => (hW hx).elim id fun h => hB c h
    iexact HO

set_option backward.isDefEq.respectTransparency.types false in
/-- The node projection's region under the two pipelines' body table, before any continuation `k`: from the region boundary, the
    thread state at `V`, the level facts and the pipeline's staging cells' ghost state and duty tokens, the call runs to
    the boundary and the thread state at `V'`. -/
theorem region0_wpD (hO : ∀ c g, O c g none = 0) (hB : ∀ c, cfg0.waitPairs none ⊆ B c)
    (hF : ∀ c (w : Fin cfg0.W), (dat0 V O B c).arrAt w cfg0.N = V' c (Pipeline.arrRef spec0 w))
    (hrest : ∀ c b, b ∉ Finset.univ.image (Pipeline.arrRef spec0) → V' c b = V c b)
    (d : Dev nD) {α : Type} (k : PUnit → Prog (TpuEff nD τ sig (Elt F) (ΛP (F := F)) .tc) α) (Q : α → sProp 𝕄) :
    iprop((iprop(boundary (d : Thread nD τ) ∗ tcHold V' O B d) -∗ wp frame (wpE (D (F := F)) 𝒱 (d : Thread nD τ) none) Set.univ (k ⟨⟩) Q)
        ∗ boundary (d : Thread nD τ) ∗ tcHold V O B d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (d : Thread nD τ) none) Set.univ (.op (.customCall (Pipeline.entry 0) ()) k) Q :=
  Pipeline.RegionSeg.wp (pcfgs (F := F)) adm (pdats V O B) none cellOf_inj EP defs₀ 𝒱₀ (K (F := F)).L (K (F := F)).lev
    (reg0 V V' O B hO hB hF hrest) d none (fun _ h => by cases h) k Q

set_option maxHeartbeats 1000000 in
set_option backward.isDefEq.respectTransparency.types false in
/-- The same as the TensorCore thread meets it inside the program with the vector-subcore call: the call lifted to the
    extended body table, to any post. -/
theorem region0_wp (hO : ∀ c g, O c g none = 0) (hB : ∀ c, cfg0.waitPairs none ⊆ B c)
    (hF : ∀ c (w : Fin cfg0.W), (dat0 V O B c).arrAt w cfg0.N = V' c (Pipeline.arrRef spec0 w))
    (hrest : ∀ c b, b ∉ Finset.univ.image (Pipeline.arrRef spec0) → V' c b = V c b)
    (d : Dev nD) (Q : PUnit → sProp 𝕄) :
    iprop((iprop(boundary (T d) ∗ tcHold V' O B d) -∗ Q ⟨⟩)
        ∗ boundary (T d) ∗ tcHold V O B d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (T d) none) Set.univ
          (Prog.lift (.customCall (SparseCore.inner (Pipeline.entry 0)) ())) Q := by
  have hD := region0_wpD V V' O B hO hB hF hrest d (fun _ => (.ret ⟨⟩ : Prog (TpuEff nD τ sig (Elt F) (ΛP (F := F)) .tc) PUnit)) Q
  have hL := (K (F := F)).wp_liftProg (D (F := F)) 𝒱 (T d) (Set.univ : Set ℕ) none
    (.op (.customCall (Pipeline.entry 0) ()) fun _ => (.ret ⟨⟩ : Prog (TpuEff nD τ sig (Elt F) (ΛP (F := F)) .tc) PUnit)) Q
  refine .trans ?_ (hD.trans hL)
  iintro ⟨Hk, Hrest⟩
  isplitl [Hk]
  · iintro H; rw [wp_ret]; imodintro; iapply Hk; iexact H
  iexact Hrest

set_option backward.isDefEq.respectTransparency.types false in
/-- The edge projection as a kernel region over the thread state `tcHold`: entered from every unscoped buffer at `V`, left at
    `V'`. Its arrays are split out of the unscoped buffers and put back at the exit contents; the generator register
    goes into the invariant and comes out; what the core owes rides through; no semaphore of the kernel's own. -/
def reg1 (hO : ∀ c g, O c g none = 0) (hB : ∀ c, cfg2.waitPairs none ⊆ B c)
    (hF : ∀ c (w : Fin cfg2.W), (dat2 V O B c).arrAt w cfg2.N = V' c (Pipeline.arrRef spec2 w))
    (hrest : ∀ c b, b ∉ Finset.univ.image (Pipeline.arrRef spec2) → V' c b = V c b) :
    Pipeline.RegionSeg (pcfgs (F := F)) adm (pdats V O B) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 V O B c).loose
  hwaits c := Pipeline.cellsWaits_intro (Pipeline.pin (pcfgs (F := F)) adm) (pdats V O B) none 1 c fun w s t =>
    (K (F := F)).mayWait_none _ (hO c)
  pre c := tcHold V O B c
  post c := tcHold V' O B c
  X c := iprop(∃ r, prngReg c r)
  Y c := iprop(∃ r, prngReg c r)
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats V O B) launch2.win launch2.arr_whole c
      ((pdats V O B 1 c).share_full fun _ => rfl) (V c) fun _ => rfl
    unfold tcHold
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitl [Hp]; · iexact Hp
    iexact Hrest
  hin c := by
    rw [show (pdats V O B 1 c).Φ 0 = ΦR spec2 c from rfl]; unfold ΦR
    iintro ⟨Hp, -, Hr⟩
    isplitl [Hr]; · iexact Hr
    iexact Hp
  hout c := by
    rw [Pipeline.ownSems0_none, show (pdats V O B 1 c).Φ (Fin.last _) = ΦR spec2 c from rfl]; unfold ΦR
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats V O B) ((pdats V O B 1 c).share_full fun _ => rfl)
      (V c) (V' c) ((pdats V O B 1 c).arrAt · cfg2.N) (hF c) (hrest c)
    unfold tcHold
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; exact fun x hx => (hW hx).elim id fun h => hB c h
    iexact HO

set_option backward.isDefEq.respectTransparency.types false in
/-- The edge projection's region under the two pipelines' body table, before any continuation `k`: from the region boundary, the
    thread state at `V`, the level facts and the pipeline's staging cells' ghost state and duty tokens, the call runs to
    the boundary and the thread state at `V'`. -/
theorem region1_wpD (hO : ∀ c g, O c g none = 0) (hB : ∀ c, cfg2.waitPairs none ⊆ B c)
    (hF : ∀ c (w : Fin cfg2.W), (dat2 V O B c).arrAt w cfg2.N = V' c (Pipeline.arrRef spec2 w))
    (hrest : ∀ c b, b ∉ Finset.univ.image (Pipeline.arrRef spec2) → V' c b = V c b)
    (d : Dev nD) {α : Type} (k : PUnit → Prog (TpuEff nD τ sig (Elt F) (ΛP (F := F)) .tc) α) (Q : α → sProp 𝕄) :
    iprop((iprop(boundary (d : Thread nD τ) ∗ tcHold V' O B d) -∗ wp frame (wpE (D (F := F)) 𝒱 (d : Thread nD τ) none) Set.univ (k ⟨⟩) Q)
        ∗ boundary (d : Thread nD τ) ∗ tcHold V O B d ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE (D (F := F)) 𝒱 (d : Thread nD τ) none) Set.univ (.op (.customCall (Pipeline.entry 1) ()) k) Q :=
  Pipeline.RegionSeg.wp (pcfgs (F := F)) adm (pdats V O B) none cellOf_inj EP defs₀ 𝒱₀ (K (F := F)).L (K (F := F)).lev
    (reg1 V V' O B hO hB hF hrest) d none (fun _ h => by cases h) k Q

set_option maxHeartbeats 1000000 in
set_option backward.isDefEq.respectTransparency.types false in
/-- The same as the TensorCore thread meets it inside the program with the vector-subcore call: the call lifted to the
    extended body table, to any post. -/
theorem region1_wp (hO : ∀ c g, O c g none = 0) (hB : ∀ c, cfg2.waitPairs none ⊆ B c)
    (hF : ∀ c (w : Fin cfg2.W), (dat2 V O B c).arrAt w cfg2.N = V' c (Pipeline.arrRef spec2 w))
    (hrest : ∀ c b, b ∉ Finset.univ.image (Pipeline.arrRef spec2) → V' c b = V c b)
    (d : Dev nD) (Q : PUnit → sProp 𝕄) :
    iprop((iprop(boundary (T d) ∗ tcHold V' O B d) -∗ Q ⟨⟩)
        ∗ boundary (T d) ∗ tcHold V O B d ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (T d) none) Set.univ
          (Prog.lift (.customCall (SparseCore.inner (Pipeline.entry 1)) ())) Q := by
  have hD := region1_wpD V V' O B hO hB hF hrest d (fun _ => (.ret ⟨⟩ : Prog (TpuEff nD τ sig (Elt F) (ΛP (F := F)) .tc) PUnit)) Q
  have hL := (K (F := F)).wp_liftProg (D (F := F)) 𝒱 (T d) (Set.univ : Set ℕ) none
    (.op (.customCall (Pipeline.entry 1) ()) fun _ => (.ret ⟨⟩ : Prog (TpuEff nD τ sig (Elt F) (ΛP (F := F)) .tc) PUnit)) Q
  refine .trans ?_ (hD.trans hL)
  iintro ⟨Hk, Hrest⟩
  isplitl [Hk]
  · iintro H; rw [wp_ret]; imodintro; iapply Hk; iexact H
  iexact Hrest

end

end Cert.Proof.OnKernel.Tc

end
-- ==== Proof.OnKernel.TcStep.lean ====
/-
  The two kernel regions stepped over valuations of the TensorCore's buffers: the exit valuation of a region is the
  entry one with the region's result array at what the pipeline's write-backs leave; and the instance of what the
  TensorCore owes, and of the bound on its recorded waits, before call `n` of the vector-subcore protocol.
-/
import proofs.«206094_g687194767628_cont_sun_c4_81_43_alg».proof.Proof.OnKernel.TcRegion
import Idealize.ShloMosaic.Lib.StableHlo.Run

set_option maxRecDepth 16384

noncomputable section

namespace Cert.Proof.OnKernel.Tc

open Cert.Kernel Cert.Kernel.Gen
open Cert.Proof.OnKernel

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.SparseCore (T)

/-- A valuation of the device's buffers read at the TensorCore's references. -/
def Vr (W : Dev nD → Valuation τ sig (Elt F)) : (c : Dev nD) → (b : Ref sig .tc) → Buf (Elt F) ((c : Thread nD τ).loc b) :=
  fun c b => W c (Proc.devRef .tc b)

section
variable (W : Dev nD → Valuation τ sig (Elt F))
variable (O : Dev nD → CellTallies nD τ sig (HIx 1)) (B : Dev nD → Set (SemLoc sig × HIx 1))

/-- The valuation the node projection leaves: as entered, but the result array at what the pipeline's write-backs leave. -/
def R0 (W : Dev nD → Valuation τ sig (Elt F)) (O : Dev nD → CellTallies nD τ sig (HIx 1)) (B : Dev nD → Set (SemLoc sig × HIx 1)) :
    Dev nD → Valuation τ sig (Elt F) := fun c =>
  Function.update (W c) (Proc.devRef .tc main_v6) ((dat0 (Vr W) O B c).arrAt 3 cfg0.N)

theorem R0_out (c : Dev nD) : R0 W O B c (Proc.devRef .tc main_v6) = (dat0 (Vr W) O B c).arrAt 3 cfg0.N := by
  unfold R0; exact Function.update_self ..

theorem R0_of_ne (c : Dev nD) (b : Ref sig .tc) (hb : b ≠ main_v6) : R0 W O B c (Proc.devRef .tc b) = W c (Proc.devRef .tc b) := by
  unfold R0; exact Function.update_of_ne (StableHlo.devRef_ne_of_ne hb) _ _

/-- Each of the region's arrays ends at the exit valuation: an input as it began, the result at the update's own value. -/
theorem R0_arr (c : Dev nD) (w : Fin cfg0.W) : (dat0 (Vr W) O B c).arrAt w cfg0.N = Vr (R0 W O B) c (Pipeline.arrRef spec0 w) := by
  match w with
  | ⟨0, _⟩ => exact (((dat0 (Vr W) O B c).arrAt_in 0 rfl _).trans (A_eq0 (Vr W) O B c 0)).trans (R0_of_ne W O B c main_arg0 (by decide)).symm
  | ⟨1, _⟩ => exact (((dat0 (Vr W) O B c).arrAt_in 1 rfl _).trans (A_eq0 (Vr W) O B c 1)).trans (R0_of_ne W O B c main_v4 (by decide)).symm
  | ⟨2, _⟩ => exact (((dat0 (Vr W) O B c).arrAt_in 2 rfl _).trans (A_eq0 (Vr W) O B c 2)).trans (R0_of_ne W O B c main_v5 (by decide)).symm
  | ⟨3, _⟩ => exact (R0_out W O B c).symm

/-- Off the region's arrays the exit valuation is the entry one. -/
theorem R0_rest (c : Dev nD) (b : Ref sig .tc) (hb : b ∉ Finset.univ.image (Pipeline.arrRef spec0)) : Vr (R0 W O B) c b = Vr W c b :=
  R0_of_ne W O B c b fun e => hb (Finset.mem_image.mpr ⟨3, Finset.mem_univ _, e.symm⟩)

/-- The node projection's call as the TensorCore thread meets it, from the valuation `W` to `R0 W O B`. -/
theorem region0_step (hO : ∀ c g, O c g none = 0) (hB : ∀ c, cfg0.waitPairs none ⊆ B c) (d : Dev nD) (Q : PUnit → sProp 𝕄) :
    iprop((iprop(boundary (T d) ∗ tcHold (Vr (R0 W O B)) O B d) -∗ Q ⟨⟩)
        ∗ boundary (T d) ∗ tcHold (Vr W) O B d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (T d) none) Set.univ
          (Prog.lift (.customCall (SparseCore.inner (Pipeline.entry 0)) ())) Q :=
  region0_wp (Vr W) (Vr (R0 W O B)) O B hO hB (R0_arr W O B) (R0_rest W O B) d Q

/-- The valuation the edge projection leaves: as entered, but the result array at what the pipeline's write-backs leave. -/
def R1 (W : Dev nD → Valuation τ sig (Elt F)) (O : Dev nD → CellTallies nD τ sig (HIx 1)) (B : Dev nD → Set (SemLoc sig × HIx 1)) :
    Dev nD → Valuation τ sig (Elt F) := fun c =>
  Function.update (W c) (Proc.devRef .tc main_v15) ((dat2 (Vr W) O B c).arrAt 7 cfg2.N)

theorem R1_out (c : Dev nD) : R1 W O B c (Proc.devRef .tc main_v15) = (dat2 (Vr W) O B c).arrAt 7 cfg2.N := by
  unfold R1; exact Function.update_self ..

theorem R1_of_ne (c : Dev nD) (b : Ref sig .tc) (hb : b ≠ main_v15) : R1 W O B c (Proc.devRef .tc b) = W c (Proc.devRef .tc b) := by
  unfold R1; exact Function.update_of_ne (StableHlo.devRef_ne_of_ne hb) _ _

/-- Each of the region's arrays ends at the exit valuation: an input as it began, the result at the update's own value. -/
theorem R1_arr (c : Dev nD) (w : Fin cfg2.W) : (dat2 (Vr W) O B c).arrAt w cfg2.N = Vr (R1 W O B) c (Pipeline.arrRef spec2 w) := by
  match w with
  | ⟨0, _⟩ => exact (((dat2 (Vr W) O B c).arrAt_in 0 rfl _).trans (A_eq2 (Vr W) O B c 0)).trans (R1_of_ne W O B c main_v9 (by decide)).symm
  | ⟨1, _⟩ => exact (((dat2 (Vr W) O B c).arrAt_in 1 rfl _).trans (A_eq2 (Vr W) O B c 1)).trans (R1_of_ne W O B c main_arg3 (by decide)).symm
  | ⟨2, _⟩ => exact (((dat2 (Vr W) O B c).arrAt_in 2 rfl _).trans (A_eq2 (Vr W) O B c 2)).trans (R1_of_ne W O B c main_arg2 (by decide)).symm
  | ⟨3, _⟩ => exact (((dat2 (Vr W) O B c).arrAt_in 3 rfl _).trans (A_eq2 (Vr W) O B c 3)).trans (R1_of_ne W O B c main_v11 (by decide)).symm
  | ⟨4, _⟩ => exact (((dat2 (Vr W) O B c).arrAt_in 4 rfl _).trans (A_eq2 (Vr W) O B c 4)).trans (R1_of_ne W O B c main_v12 (by decide)).symm
  | ⟨5, _⟩ => exact (((dat2 (Vr W) O B c).arrAt_in 5 rfl _).trans (A_eq2 (Vr W) O B c 5)).trans (R1_of_ne W O B c main_v13 (by decide)).symm
  | ⟨6, _⟩ => exact (((dat2 (Vr W) O B c).arrAt_in 6 rfl _).trans (A_eq2 (Vr W) O B c 6)).trans (R1_of_ne W O B c main_v14 (by decide)).symm
  | ⟨7, _⟩ => exact (R1_out W O B c).symm

/-- Off the region's arrays the exit valuation is the entry one. -/
theorem R1_rest (c : Dev nD) (b : Ref sig .tc) (hb : b ∉ Finset.univ.image (Pipeline.arrRef spec2)) : Vr (R1 W O B) c b = Vr W c b :=
  R1_of_ne W O B c b fun e => hb (Finset.mem_image.mpr ⟨7, Finset.mem_univ _, e.symm⟩)

/-- The edge projection's call as the TensorCore thread meets it, from the valuation `W` to `R1 W O B`. -/
theorem region1_step (hO : ∀ c g, O c g none = 0) (hB : ∀ c, cfg2.waitPairs none ⊆ B c) (d : Dev nD) (Q : PUnit → sProp 𝕄) :
    iprop((iprop(boundary (T d) ∗ tcHold (Vr (R1 W O B)) O B d) -∗ Q ⟨⟩)
        ∗ boundary (T d) ∗ tcHold (Vr W) O B d ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (T d) none) Set.univ
          (Prog.lift (.customCall (SparseCore.inner (Pipeline.entry 1)) ())) Q :=
  region1_wp (Vr W) (Vr (R1 W O B)) O B hO hB (R1_arr W O B) (R1_rest W O B) d Q

end

/-! ## What the TensorCore owes before call `n`, and the bound on its recorded waits -/

/-- Before call `n` the TensorCore owes its start signals of the later calls. -/
abbrev Otc (n : ℕ) : Dev nD → CellTallies nD τ sig (HIx 1) := fun d => (K (F := F)).Otc d n
/-- Its recorded waits sit at or below level `8 n`. -/
abbrev Btc (n : ℕ) : Dev nD → Set (SemLoc sig × HIx 1) := fun d => {p | (K (F := F)).lev (T d, p.1) p.2 ≤ 8 * n}

/-- Every unit it owes is at a call's index. -/
theorem Otc_none (n : ℕ) (c : Dev nD) (g : GSem nD τ sig) : Otc (F := F) n c g none = 0 :=
  Nat.eq_zero_of_not_pos fun h => by
    have := SparseCore.Cfg.lev_of_Otc_pos (K := K (F := F)) h
    rw [SparseCore.Cfg.lev_none] at this; omega

/-- The pipelines' own waits, at the index of a kernel's own waits, sit at level 0. -/
theorem waitPairs_sub_Btc (cfg : Pipeline.Cfg sig Λ₀) (n : ℕ) (c : Dev nD) : cfg.waitPairs none ⊆ Btc (F := F) n c := by
  rintro p ⟨w, s, rfl⟩
  show (K (F := F)).lev _ none ≤ 8 * n
  rw [SparseCore.Cfg.lev_none]; exact Nat.zero_le _

/-- The handshake state's account of what the TensorCore owes before call `n` is the regions' account at this instance, -/
theorem owes_of_tcSt (n : ℕ) (d : Dev nD) :
    (iprop(∃ W, ⌜(K (F := F)).WBelow (T d) W (8 * n)⌝ ∗ owes (T d) ((K (F := F)).Otc d n) W) : sProp 𝕄)
      ⊢ iprop(∃ W : Waits sig (HIx 1), ⌜(↑W : Set (SemLoc sig × HIx 1)) ⊆ Btc (F := F) n d⌝ ∗ owes (d : Thread nD τ) (Otc (F := F) n d) W) := by
  iintro ⟨%W, %hW, H⟩; iexists W; isplitr; · ipureintro; exact fun p hp => hW p (Finset.mem_coe.mp hp)
  iexact H

/-- and back. -/
theorem tcSt_of_owes (n : ℕ) (d : Dev nD) :
    (iprop(∃ W : Waits sig (HIx 1), ⌜(↑W : Set (SemLoc sig × HIx 1)) ⊆ Btc (F := F) n d⌝ ∗ owes (d : Thread nD τ) (Otc (F := F) n d) W) : sProp 𝕄)
      ⊢ iprop(∃ W, ⌜(K (F := F)).WBelow (T d) W (8 * n)⌝ ∗ owes (T d) ((K (F := F)).Otc d n) W) := by
  iintro ⟨%W, %hW, H⟩; iexists W; isplitr; · ipureintro; exact fun p hp => hW (Finset.mem_coe.mpr hp)
  iexact H

end Cert.Proof.OnKernel.Tc

end
-- ==== Proof.OnKernel.Chain.lean ====
/-
  The contents of the TensorCore's arrays along @main, stage by stage, as functions of the launch contents: the
  three stretches of host operations each rewrite their results, the gather call rewrites its result to the
  rectified sums of gathered node rows, and every other array is carried through.
-/
import proofs.«206094_g687194767628_cont_sun_c4_81_43_alg».proof.Proof.OnKernel.Launch
import proofs.«206094_g687194767628_cont_sun_c4_81_43_alg».proof.Proof.OnKernel.TileRes

noncomputable section

namespace Cert.Proof.OnKernel.Chain

open Cert.Kernel Cert.Kernel.Gen
open Cert.Proof.OnKernel

open Idealize.ShloMosaic

variable {F : FTy → Type}

/-- The launch contents, device by device. -/
def W0 (m : (ℓ : Loc nD τ sig) → Buf (Elt F) ℓ) : Dev nD → Valuation τ sig (Elt F) := fun d b => m (d, b)

/-- After the host operations before the node projection. -/
def stA (W : Dev nD → Valuation τ sig (Elt F)) : Dev nD → Valuation τ sig (Elt F) :=
  fun d => StableHlo.after (Launch.opsA (F := F)) (W d)

/-- After the host operations between the node projection and the gather. -/
def stB (W : Dev nD → Valuation τ sig (Elt F)) : Dev nD → Valuation τ sig (Elt F) :=
  fun d => StableHlo.after (Launch.opsB (F := F)) (W d)

/-- After the host operations between the gather and the edge projection. -/
def stC (W : Dev nD → Valuation τ sig (Elt F)) : Dev nD → Valuation τ sig (Elt F) :=
  fun d => StableHlo.after (Launch.opsC (F := F)) (W d)

/-- After the gather call: its result is the rectified sums of the node rows the two index arrays name. -/
def Rsc [FloatOps F] (W : Dev nD → Valuation τ sig (Elt F)) : Dev nD → Valuation τ sig (Elt F) :=
  fun d => Function.update (W d) (Proc.devRef .tc main_v9)
    (Tile.outRows d (W d (Proc.devRef .tc main_v6)) (W d (Proc.devRef .tc main_v7)) (W d (Proc.devRef .tc main_v8)))

end Cert.Proof.OnKernel.Chain

end
-- ==== Proof.OnKernel.Main.lean ====
/-
  @main on the TensorCore, as the launch theorem asks for it: three stretches of host operations, the two
  kernel regions and the SparseCore call between them, each taking the arrays at one valuation to the next;
  and how the final memory reads the arguments and the result off what @main is left holding.
-/
import proofs.«206094_g687194767628_cont_sun_c4_81_43_alg».proof.Proof.OnKernel.Launch
import proofs.«206094_g687194767628_cont_sun_c4_81_43_alg».proof.Proof.OnKernel.TileSplit
import proofs.«206094_g687194767628_cont_sun_c4_81_43_alg».proof.Proof.OnKernel.TcStep
import proofs.«206094_g687194767628_cont_sun_c4_81_43_alg».proof.Proof.OnKernel.Chain

noncomputable section

namespace Cert.Proof.OnKernel.Main

open Cert.Kernel Cert.Kernel.Gen Cert.Proof.OnKernel Cert.Proof.OnKernel.Launch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

local notation "𝕄" => MT nD τ sig (HIx 1) (Elt F) ℕ UU ℕ

/-! ## The TensorCore's arrays, as device references -/

/-- @main's arrays: every reference of the TensorCore that is not scoped. -/
def Sun : Finset (DevRef τ sig) :=
  (Finset.univ.filter fun b : Ref sig .tc => ¬ b.isScoped).map ⟨Proc.devRef .tc, Proc.devRef_injective _⟩

/-- Holding them all whole at a valuation is holding @main's arrays at it. -/
theorem unscoped_held (d : Dev nD) (W : Valuation τ sig (Elt F)) :
    (unscopedBufs d (fun b => W (Proc.devRef .tc b)) : sProp 𝕄) = held (T d) Sun W := by
  unfold unscopedBufs held Sun
  rw [bigSep_map]; rfl

theorem opsA_sub : ∀ op ∈ (opsA : List (HloOp τ sig (Elt F))), op.bufs ⊆ Sun := by
  intro op hop
  simp only [opsA, List.mem_cons, List.mem_nil_iff, or_false] at hop
  rcases hop with rfl | rfl | rfl | rfl | rfl | rfl <;> first | (rw [StableHlo.unary_bufs]; decide) | (rw [StableHlo.reshape_bufs]; decide)
theorem opsB_sub : ∀ op ∈ (opsB : List (HloOp τ sig (Elt F))), op.bufs ⊆ Sun := by
  intro op hop
  simp only [opsB, List.mem_cons, List.mem_nil_iff, or_false] at hop
  rcases hop with rfl | rfl <;> first | (rw [StableHlo.unary_bufs]; decide) | (rw [StableHlo.reshape_bufs]; decide)
theorem opsC_sub : ∀ op ∈ (opsC : List (HloOp τ sig (Elt F))), op.bufs ⊆ Sun := by
  intro op hop
  simp only [opsC, List.mem_cons, List.mem_nil_iff, or_false] at hop
  rcases hop with rfl | rfl | rfl | rfl | rfl <;> first | (rw [StableHlo.unary_bufs]; decide) | (rw [StableHlo.reshape_bufs]; decide)

theorem opsA_fresh : ∀ op ∈ (opsA : List (HloOp τ sig (Elt F))), op.fresh = ∅ := by
  intro op hop
  simp only [opsA, List.mem_cons, List.mem_nil_iff, or_false] at hop
  rcases hop with rfl | rfl | rfl | rfl | rfl | rfl <;> rfl
theorem opsB_fresh : ∀ op ∈ (opsB : List (HloOp τ sig (Elt F))), op.fresh = ∅ := by
  intro op hop
  simp only [opsB, List.mem_cons, List.mem_nil_iff, or_false] at hop
  rcases hop with rfl | rfl <;> rfl
theorem opsC_fresh : ∀ op ∈ (opsC : List (HloOp τ sig (Elt F))), op.fresh = ∅ := by
  intro op hop
  simp only [opsC, List.mem_cons, List.mem_nil_iff, or_false] at hop
  rcases hop with rfl | rfl | rfl | rfl | rfl <;> rfl

open Cert.Proof.OnKernel.Chain (W0 stA stB stC Rsc)

/-! ## Holding a set of arrays: one taken out, one rewritten -/

theorem held_take (c : Thread nD τ) {S : Finset (DevRef τ sig)} {b : DevRef τ sig} (hb : b ∈ S) (W : Valuation τ sig (Elt F)) :
    (held c S W : sProp 𝕄) = iprop(((c.1, b) ↦{fullShare} W b) ∗ held c (S.erase b) W) := by
  unfold held; exact SparseCore.bigSep_erase' hb

theorem held_erase_update (c : Thread nD τ) (S : Finset (DevRef τ sig)) (b : DevRef τ sig) (W : Valuation τ sig (Elt F))
    (f : b.ty.Contents (Elt F)) :
    (held c (S.erase b) (Function.update W b f) : sProp 𝕄) = held c (S.erase b) W :=
  held_congr c fun b' hb' => Function.update_of_ne (Finset.ne_of_mem_erase hb') _ _

/-! ## The valuations @main passes through -/

section Chain

abbrev v6' : DevRef τ sig := Proc.devRef .tc (main_v6 : Ref sig .tc)
abbrev v7' : DevRef τ sig := Proc.devRef .tc (main_v7 : Ref sig .tc)
abbrev v8' : DevRef τ sig := Proc.devRef .tc (main_v8 : Ref sig .tc)
abbrev v9' : DevRef τ sig := Proc.devRef .tc (main_v9 : Ref sig .tc)

variable [FloatOps F] (m : (ℓ : Loc nD τ sig) → Buf (Elt F) ℓ)

abbrev WA : Dev nD → Valuation τ sig (Elt F) := stA (W0 m)
abbrev WA' : Dev nD → Valuation τ sig (Elt F) := Tc.R0 (WA m) (Tc.Otc (F := F) 0) (Tc.Btc (F := F) 0)
abbrev WB : Dev nD → Valuation τ sig (Elt F) := stB (WA' m)
abbrev WB' : Dev nD → Valuation τ sig (Elt F) := Rsc (WB m)
abbrev WC : Dev nD → Valuation τ sig (Elt F) := stC (WB' m)
abbrev WC' : Dev nD → Valuation τ sig (Elt F) := Tc.R1 (WC m) (Tc.Otc (F := F) 1) (Tc.Btc (F := F) 1)

/-- What a task is handed at the call: its read share of the node rows, its rows of the two index arrays, its rows
    of the result. -/
def goT : TaskRes F := fun d c i => Tile.goRes d (Tile.coordsV c i) (Tile.qTile c i) (WB m d v6') (WB m d v7') (WB m d v8')
/-- What it hands back: the same with its rows of the result at their value. -/
def tdT : TaskRes F := fun d c i => Tile.tdRes d (Tile.coordsV c i) (Tile.qTile c i) (WB m d v6') (WB m d v7') (WB m d v8')

instance goT_storable : TaskStorable (goT m) := ⟨fun d c i => by unfold goT; infer_instance⟩
instance tdT_storable : TaskStorable (tdT m) := ⟨fun d c i => by unfold tdT; infer_instance⟩

end Chain

/-! ## Small regroupings -/

/-- What the TensorCore owes before call `n`, taken out of its handshake state and put back. -/
theorem tcSt_take (n : ℕ) (d : Dev nD) :
    ((K (F := F)).tcSt EH d n : sProp 𝕄)
      ⊢ iprop((∃ W, ⌜(K (F := F)).WBelow (T d) W (8 * n)⌝ ∗ owes (T d) ((K (F := F)).Otc d n) W)
          ∗ ((∃ W, ⌜(K (F := F)).WBelow (T d) W (8 * n)⌝ ∗ owes (T d) ((K (F := F)).Otc d n) W) -∗ (K (F := F)).tcSt EH d n)) := by
  unfold SparseCore.Cfg.tcSt
  iintro ⟨HO, Hrest⟩
  isplitl [HO]; · iexact HO
  iintro HO
  isplitl [HO]; · iexact HO
  iexact Hrest

theorem bigSep_two (Φ : Fin 2 → sProp 𝕄) : bigSep Finset.univ Φ = iprop(Φ 0 ∗ Φ 1) := by
  rw [show (Finset.univ : Finset (Fin 2)) = {0, 1} by decide, SparseCore.bigSep_insert' (by decide), bigSep_singleton]

/-- The two regions' ghost state, one region at a time. -/
theorem G_split (d : Dev nD) :
    (G (F := F) d : sProp 𝕄) ⊢ iprop((Pipeline.cellsGhost (Pipeline.pin (pcfgs (F := F)) Tc.adm) EP 0 d ∗ Pipeline.toksInit (Pipeline.pin (pcfgs (F := F)) Tc.adm) EP 0 d)
        ∗ (Pipeline.cellsGhost (Pipeline.pin (pcfgs (F := F)) Tc.adm) EP 1 d ∗ Pipeline.toksInit (Pipeline.pin (pcfgs (F := F)) Tc.adm) EP 1 d)) := by
  unfold G; rw [bigSep_two, bigSep_two]
  iintro ⟨⟨H0, H1⟩, ⟨T0, T1⟩⟩
  isplitl [H0 T0]
  · isplitl [H0] <;> iassumption
  · isplitl [H1] <;> iassumption

section Call

variable [FloatOps F] (m : (ℓ : Loc nD τ sig) → Buf (Elt F) ℓ)

theorem st0_eq (d : Dev nD) :
    (bigSep Finset.univ fun c : Fin ((K (F := F)).nCore 0) => (P (goT m) (tdT m)).st 0 d c)
      = bigSep Finset.univ fun c : Fin 2 => bigSep Finset.univ fun i : Fin 16 => goT m d c i :=
  Tile.bigSep_cores (F := F) fun c => bigSep Finset.univ fun i : Fin 16 => goT m d c i
theorem dn0_eq (d : Dev nD) :
    (bigSep Finset.univ fun c : Fin ((K (F := F)).nCore 0) => (P (goT m) (tdT m)).dn 0 d c)
      = bigSep Finset.univ fun c : Fin 2 => bigSep Finset.univ fun i : Fin 16 => tdT m d c i :=
  Tile.bigSep_cores (F := F) fun c => bigSep Finset.univ fun i : Fin 16 => tdT m d c i

end Call

/-! ## @main -/

section Main

variable [FloatOps F] (m : (ℓ : Loc nD τ sig) → Buf (Elt F) ℓ) (ρ : Dev nD → PrngReg)

/-- What @main is left holding: every array of the TensorCore at the last valuation. -/
abbrev FIN (d : Dev nD) : sProp 𝕄 := held (SparseCore.T d) Sun (WC' m d)

theorem v9_mem : v9' ∈ Sun := by decide
theorem v6_mem : v6' ∈ Sun.erase v9' := by decide
theorem v7_mem : v7' ∈ (Sun.erase v9').erase v6' := by decide
theorem v8_mem : v8' ∈ ((Sun.erase v9').erase v6').erase v7' := by decide

/-- The rest of the arrays while the call has the four it works on. -/
abbrev Srest : Finset (DevRef τ sig) := (((Sun.erase v9').erase v6').erase v7').erase v8'

theorem v9_notMem_Srest : v9' ∉ Srest := by decide

omit [FloatOps F] in
theorem held_update_of_notMem (c : Thread nD τ) {S : Finset (DevRef τ sig)} {b : DevRef τ sig} (hb : b ∉ S) (W : Valuation τ sig (Elt F))
    (f : b.ty.Contents (Elt F)) : (held c S (Function.update W b f) : sProp 𝕄) = held c S W :=
  held_congr c fun b' hb' => Function.update_of_ne (fun e => hb (by subst e; exact hb')) _ _

/-- The four arrays back from the call, the result's at its value, and the rest: every array at the valuation after
    the call. -/
theorem sc_rejoin (d : Dev nD) (W : Dev nD → Valuation τ sig (Elt F)) :
    iprop(((((SparseCore.T d : Thread nD τ).1, v6') : Loc nD τ sig) ↦{fullShare} W d v6') ∗ ((((SparseCore.T d : Thread nD τ).1, v7') : Loc nD τ sig) ↦{fullShare} W d v7') ∗ ((((SparseCore.T d : Thread nD τ).1, v8') : Loc nD τ sig) ↦{fullShare} W d v8')
        ∗ ((((SparseCore.T d : Thread nD τ).1, v9') : Loc nD τ sig) ↦{fullShare} Tile.outRows d (W d v6') (W d v7') (W d v8')) ∗ held (SparseCore.T d) Srest (W d))
      ⊢ (held (SparseCore.T d) Sun (Rsc W d) : sProp 𝕄) := by
  have e9 : Rsc W d v9' = Tile.outRows d (W d v6') (W d v7') (W d v8') := Function.update_self _ _ _
  have e6 : Rsc W d v6' = W d v6' := Function.update_of_ne (show v6' ≠ v9' by decide) _ _
  have e7 : Rsc W d v7' = W d v7' := Function.update_of_ne (show v7' ≠ v9' by decide) _ _
  have e8 : Rsc W d v8' = W d v8' := Function.update_of_ne (show v8' ≠ v9' by decide) _ _
  rw [held_take (SparseCore.T d) v9_mem (Rsc W d), held_take (SparseCore.T d) v6_mem (Rsc W d), held_take (SparseCore.T d) v7_mem (Rsc W d), held_take (SparseCore.T d) v8_mem (Rsc W d),
    e9, e6, e7, e8, show (held (SparseCore.T d) Srest (Rsc W d) : sProp 𝕄) = held (SparseCore.T d) Srest (W d) from held_update_of_notMem (SparseCore.T d) v9_notMem_Srest _ _]
  iintro ⟨H6, H7, H8, H9, Hr⟩
  isplitl [H9]; · iexact H9
  isplitl [H6]; · iexact H6
  isplitl [H7]; · iexact H7
  isplitl [H8]; · iexact H8
  iexact Hr

omit [FloatOps F] in
/-- Holding every array at a valuation, in the two spellings. -/
theorem to_hold (W : Dev nD → Valuation τ sig (Elt F)) (d : Dev nD) :
    (held (d.tc : Thread nD τ) Sun (W d) : sProp 𝕄) = unscopedBufs d (Tc.Vr W d) := by
  rw [show (d.tc : Thread nD τ) = SparseCore.T d from rfl, ← unscoped_held]; rfl

theorem hmain (κ : GSem nD τ sig → ℕ) (d : Dev nD) :
    iprop((K (F := F)).ctx EH (P (goT m) (tdT m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [main_eq]
  iintro ⟨#Hctx, Hst, ⟨Hb, Hub, -, Hprng⟩, HG⟩
  ihave Hlev := ((K (F := F)).ctx_levAts κ) $$ Hctx
  ihave HG' := (G_split (F := F) d) $$ HG
  icases HG' with ⟨⟨Hcg0, Hti0⟩, ⟨Hcg1, Hti1⟩⟩
  -- the first stretch of host operations
  ihave Hheld := (Entails.of_eq (show (unscopedBufs d (fun b => m ((SparseCore.T d).loc b)) : sProp 𝕄) = held (SparseCore.T d) Sun (W0 m d) from unscoped_held (F := F) d (W0 m d))) $$ Hub
  iapply (StableHlo.wp_seq (defs := (K (F := F)).defs (D (F := F))) 𝒱 none Set.univ d Sun _ opsA opsA_sub opsA_fresh (W0 m d)) $$ [Hb Hheld]
  · isplitl [Hb] <;> iassumption
  iintro ⟨Hb, Hheld⟩
  -- the node projection
  rw [wp_bind]
  ihave Hst' := (tcSt_take (F := F) 0 d) $$ Hst
  icases Hst' with ⟨HO, Hback⟩
  ihave HO' := (Tc.owes_of_tcSt (F := F) 0 d) $$ HO
  ihave Hub := (Entails.of_eq (show (held (d.tc : Thread nD τ) Sun (StableHlo.after opsA (W0 m d)) : sProp 𝕄) = unscopedBufs d (Tc.Vr (WA m) d) from to_hold (WA m) d)) $$ Hheld
  iapply (Tc.region0_step (WA m) (Tc.Otc (F := F) 0) (Tc.Btc (F := F) 0) (Tc.Otc_none 0) (Tc.waitPairs_sub_Btc cfg0 0) d _)
  isplitl [Hback Hcg1 Hti1]
  swap
  · isplitl [Hb]; · iexact Hb
    isplitl [Hub Hprng HO']
    · unfold Tc.tcHold
      isplitl [Hub]; · iexact Hub
      isplitl [Hprng]; · iexists _; iexact Hprng
      iexact HO'
    isplitr; · iexact Hlev
    isplitl [Hcg0] <;> iassumption
  iintro ⟨Hb, Hhold⟩
  unfold Tc.tcHold
  icases Hhold with ⟨Hub, ⟨%r1, Hprng⟩, HO'⟩
  ihave HO := (Tc.tcSt_of_owes (F := F) 0 d) $$ HO'
  ispecialize Hback $$ HO
  ihave Hheld := (Entails.of_eq (to_hold (F := F) (WA' m) d).symm) $$ Hub
  -- the second stretch
  iapply (StableHlo.wp_seq (defs := (K (F := F)).defs (D (F := F))) 𝒱 none Set.univ d Sun _ opsB opsB_sub opsB_fresh (WA' m d)) $$ [Hb Hheld]
  · isplitl [Hb] <;> iassumption
  iintro ⟨Hb, Hheld⟩
  -- the SparseCore call
  rw [wp_bind]
  ihave H1 := (Entails.of_eq (show (held (d.tc : Thread nD τ) Sun (StableHlo.after opsB (WA' m d)) : sProp 𝕄) = _ from held_take (F := F) (SparseCore.T d) v9_mem (WB m d))) $$ Hheld
  icases H1 with ⟨Ho, Hheld⟩
  ihave H2 := (Entails.of_eq (held_take (F := F) (SparseCore.T d) v6_mem (WB m d))) $$ Hheld
  icases H2 with ⟨Hh, Hheld⟩
  ihave H3 := (Entails.of_eq (held_take (F := F) (SparseCore.T d) v7_mem (WB m d))) $$ Hheld
  icases H3 with ⟨Hs, Hheld⟩
  ihave H4 := (Entails.of_eq (held_take (F := F) (SparseCore.T d) v8_mem (WB m d))) $$ Hheld
  icases H4 with ⟨Hd, Hheld⟩
  ihave Hsp := (Tile.arrays_split (F := F) d (WB m d v6') (WB m d v7') (WB m d v8') (WB m d v9')) $$ [Hh Hs Hd Ho]
  · isplitl [Hh]; · iexact Hh
    isplitl [Hs]; · iexact Hs
    isplitl [Hd]; · iexact Hd
    iexact Ho
  icases Hsp with ⟨Hdrop, Hgo⟩
  iapply ((K (F := F)).wp_run (D (F := F)) 𝒱 (EH := EH) (P := P (goT m) (tdT m)) κ d 0) $$ [Hback Hgo Hdrop Hb Hheld Hprng Hcg1 Hti1]
  isplitr; · iexact Hctx
  isplitl [Hback]; · iexact Hback
  isplitl [Hgo]
  · rw [st0_eq]; unfold goT; iexact Hgo
  iintro ⟨Hst0, Hdn⟩
  ihave Hst := (Entails.of_eq (show ((K (F := F)).tcSt EH d ((0 : Fin 1).val + 1) : sProp 𝕄) = (K (F := F)).tcSt EH d 1 from rfl)) $$ Hst0
  ihave Hdn' := (Entails.of_eq (dn0_eq (F := F) m d)) $$ Hdn
  ihave Hj := (Tile.arrays_join (F := F) d (WB m d v6') (WB m d v7') (WB m d v8')) $$ [Hdrop Hdn']
  · isplitl [Hdrop]; · iexact Hdrop
    unfold tdT; iexact Hdn'
  icases Hj with ⟨Hh, Hs, Hd, Ho⟩
  ihave Hheld := (sc_rejoin (F := F) d (WB m)) $$ [Hh Hs Hd Ho Hheld]
  · isplitl [Hh]; · iexact Hh
    isplitl [Hs]; · iexact Hs
    isplitl [Hd]; · iexact Hd
    isplitl [Ho]; · iexact Ho
    iexact Hheld
  -- the third stretch
  iapply (StableHlo.wp_seq (defs := (K (F := F)).defs (D (F := F))) 𝒱 none Set.univ d Sun _ opsC opsC_sub opsC_fresh (WB' m d)) $$ [Hb Hheld]
  · isplitl [Hb] <;> iassumption
  iintro ⟨Hb, Hheld⟩
  -- the edge projection
  rw [wp_bind]
  ihave Hst' := (tcSt_take (F := F) 1 d) $$ Hst
  icases Hst' with ⟨HO, Hback⟩
  ihave HO' := (Tc.owes_of_tcSt (F := F) 1 d) $$ HO
  ihave Hub := (Entails.of_eq (show (held (d.tc : Thread nD τ) Sun (StableHlo.after opsC (WB' m d)) : sProp 𝕄) = unscopedBufs d (Tc.Vr (WC m) d) from to_hold (WC m) d)) $$ Hheld
  iapply (Tc.region1_step (WC m) (Tc.Otc (F := F) 1) (Tc.Btc (F := F) 1) (Tc.Otc_none 1) (Tc.waitPairs_sub_Btc cfg2 1) d _)
  isplitl [Hback]
  swap
  · isplitl [Hb]; · iexact Hb
    isplitl [Hub Hprng HO']
    · unfold Tc.tcHold
      isplitl [Hub]; · iexact Hub
      isplitl [Hprng]; · iexists _; iexact Hprng
      iexact HO'
    isplitr; · iexact Hlev
    isplitl [Hcg1] <;> iassumption
  iintro ⟨Hb, Hhold⟩
  unfold Tc.tcHold
  icases Hhold with ⟨Hub, -, HO'⟩
  ihave HO := (Tc.tcSt_of_owes (F := F) 1 d) $$ HO'
  ispecialize Hback $$ HO
  ihave Hheld := (Entails.of_eq (to_hold (F := F) (WC' m) d).symm) $$ Hub
  rw [wp_pure]
  imodintro
  isplitl [Hback]; · iexact Hback
  iexact Hheld

end Main

/-! ## The final memory, and the program's run -/

section Run

variable [FloatOps F] (m : (ℓ : Loc nD τ sig) → Buf (Elt F) ℓ) (ρ : Dev nD → PrngReg)

/-- What the final memory reads on device `d`: every array of the TensorCore at the last valuation. -/
def fq (d : Dev nD) (s' : Phys nD τ sig (Elt F)) : Prop :=
  ∀ b ∈ Sun, s'.mem.mem ((SparseCore.T d : Thread nD τ).1, b) = WC' m d b

theorem hfin (d : Dev nD) (s' : Phys nD τ sig (Elt F)) : iprop(FIN m d ∗ SI s') ⊢ (⌜fq m d s'⌝ : sProp 𝕄) := by
  have hone : ∀ b (hb : b ∈ Sun), iprop(FIN m d ∗ SI s') ⊢ (⌜s'.mem.mem ((SparseCore.T d : Thread nD τ).1, b) = WC' m d b⌝ : sProp 𝕄) := by
    intro b hb
    show iprop(held (SparseCore.T d) Sun (WC' m d) ∗ SI s') ⊢ _
    rw [held_take (F := F) (SparseCore.T d) hb (WC' m d)]
    iintro ⟨⟨Hx, -⟩, HSI⟩
    ihave H := (SI_pointsTo_agree (st := s') (ℓ := ((SparseCore.T d : Thread nD τ).1, b)) (I := Finset.univ) (q := fullShare) (f := WC' m d b)) $$ [HSI Hx]
    · isplitl [HSI] <;> iassumption
    icases H with %hx
    ipureintro; exact funext fun i => hx i (Finset.mem_univ i)
  exact fun a ha b hb => hone b hb a ha

/-- Every final memory has every array of every TensorCore at the last valuation. -/
def QC : PUnit × MemSt nD τ sig (Elt F) → Prop :=
  fun r => ∀ d : Dev nD, ∀ b ∈ Sun, r.2.mem ((SparseCore.T d : Thread nD τ).1, b) = WC' m d b

/-- The thread family's run, from the task's body obligation: every weakly fair execution terminates, nothing
    faulting, with every array of the TensorCore at the last valuation. -/
theorem run_main [∀ e, Nonempty (Elt F e)] (htile : (K (F := F)).TileObl (D (F := F)) 𝒱 (P (goT m) (tdT m)) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (goT m) (tdT m)) facts v₀
    (fun q hq => match q with | 0 => nomatch hq)
    (fun q _ => match q with | 0 => htile)
    (fun q _ => match q with | 0 => SparseCore.Cfg.VecSplit.of_plain (vecSplit (goT m) (tdT m)))
    m ρ main (fun d => G (F := F) d) (FIN m) (u₀ (F := F)) (sep_elim_left.trans (hu₀ (goT m) (tdT m))) (hmain m ρ) (fq m) (hfin m) (QC m) (fun _ h => h)

end Run

end Cert.Proof.OnKernel.Main

end
-- ==== Proof.OnKernel.Frame.lean ====
/-
  The thread family's run read at the claim's places: every argument array ends as it began — no host
  operation, neither kernel region and not the SparseCore call writes one — and the result array ends at the last
  valuation's. From the task's body at every place and the index range of the edge list.
-/
import proofs.«206094_g687194767628_cont_sun_c4_81_43_alg».proof.Proof.OnKernel.Main

noncomputable section

namespace Cert.Proof.OnKernel.Frame

open Cert.Kernel Cert.Kernel.Gen Cert.Proof.OnKernel Cert.Proof.OnKernel.Launch Cert.Proof.OnKernel.Main
open Cert.Proof.OnKernel.Chain (W0 stA stB stC Rsc)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The nine argument arrays. -/
abbrev Args : Finset (Ref sig .tc) := {main_arg0, main_arg1, main_arg2, main_arg3, main_arg4, main_arg5, main_arg6, main_arg7, main_arg8}

omit [FloatOps F] in
theorem opsA_keeps (b : Ref sig .tc) (hb : b ∈ Args) : ∀ op ∈ (opsA : List (HloOp τ sig (Elt F))), Proc.devRef .tc b ∉ op.writes := by
  intro op hop
  simp only [opsA, List.mem_cons, List.mem_nil_iff, or_false] at hop
  rcases hop with rfl | rfl | rfl | rfl | rfl | rfl <;>
    (first | rw [StableHlo.unary_writes] | rw [StableHlo.reshape_writes]) <;> (revert b; decide)
omit [FloatOps F] in
theorem opsB_keeps (b : Ref sig .tc) (hb : b ∈ Args) : ∀ op ∈ (opsB : List (HloOp τ sig (Elt F))), Proc.devRef .tc b ∉ op.writes := by
  intro op hop
  simp only [opsB, List.mem_cons, List.mem_nil_iff, or_false] at hop
  rcases hop with rfl | rfl <;>
    (first | rw [StableHlo.unary_writes] | rw [StableHlo.reshape_writes]) <;> (revert b; decide)
omit [FloatOps F] in
theorem opsC_keeps (b : Ref sig .tc) (hb : b ∈ Args) : ∀ op ∈ (opsC : List (HloOp τ sig (Elt F))), Proc.devRef .tc b ∉ op.writes := by
  intro op hop
  simp only [opsC, List.mem_cons, List.mem_nil_iff, or_false] at hop
  rcases hop with rfl | rfl | rfl | rfl | rfl <;>
    (first | rw [StableHlo.unary_writes] | rw [StableHlo.reshape_writes]) <;> (revert b; decide)

variable (m : (ℓ : Loc nD τ sig) → Buf (Elt F) ℓ)

/-- An argument array is at its launch contents in the last valuation. -/
theorem WC'_arg (d : Dev nD) (b : Ref sig .tc) (hb : b ∈ Args) : WC' m d (Proc.devRef .tc b) = m (d, Proc.devRef .tc b) := by
  have h15 : b ≠ main_v15 := by revert b; decide
  have h6 : b ≠ main_v6 := by revert b; decide
  have h9 : (Proc.devRef .tc b : DevRef τ sig) ≠ v9' := by revert b; decide
  calc WC' m d (Proc.devRef .tc b)
      = WC m d (Proc.devRef .tc b) := Tc.R1_of_ne (WC m) _ _ d b h15
    _ = WB' m d (Proc.devRef .tc b) := StableHlo.after_of_forall_not_mem opsC _ (opsC_keeps b hb)
    _ = WB m d (Proc.devRef .tc b) := Function.update_of_ne h9 _ _
    _ = WA' m d (Proc.devRef .tc b) := StableHlo.after_of_forall_not_mem opsB _ (opsB_keeps b hb)
    _ = WA m d (Proc.devRef .tc b) := Tc.R0_of_ne (WA m) _ _ d b h6
    _ = W0 m d (Proc.devRef .tc b) := StableHlo.after_of_forall_not_mem opsA _ (opsA_keeps b hb)
    _ = m (d, Proc.devRef .tc b) := rfl

theorem arg_mem_Sun (b : Ref sig .tc) (hb : b ∈ Args) : (Proc.devRef .tc b : DevRef τ sig) ∈ Sun := by revert b; decide
theorem v15_mem_Sun : (Proc.devRef .tc (main_v15 : Ref sig .tc) : DevRef τ sig) ∈ Sun := by decide

/-- The launch theorem's obligation for the task, from the body at every place and the index range at the call. -/
theorem tileObl (hb : ∀ d L, Tile.TileBody (F := F) d L)
    (hidx : ∀ d L, Tile.IdxOK (F := F) d L (WB m d v7') (WB m d v8')) :
    (K (F := F)).TileObl (D (F := F)) 𝒱 (P (goT m) (tdT m)) v₀ 0 := by
  intro d c i O W hO _ _
  simp only [show (P (goT m) (tdT m)).ox = fun _ _ => 0 from rfl, add_zero]
  exact Tile.tile_obl hb d c i (Tile.qTile (Fin.cast nCore_zero c) (Fin.cast nSub_zero i)) (WB m d v6') (WB m d v7') (WB m d v8')
    (hidx d _) O W hO

/-- The run, read at the claim's places: the result array at the last valuation's, the nine arguments unchanged. -/
theorem run_read [∀ e, Nonempty (Elt F e)] (ρ : Dev nD → PrngReg) (hb : ∀ d L, Tile.TileBody (F := F) d L)
    (hidx : ∀ d L, Tile.IdxOK (F := F) d L (WB m d v7') (WB m d v8')) :
    θ_run (Cert.Kernel.defs (F := F)) (Cert.Kernel.threads (F := F)) ⟨m, fun _ => 0, ρ⟩ fun r => ∀ c : Dev nD,
      r.2.mem ((c.tc : Thread nD τ).loc main_v15) = WC' m c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run (Cert.Kernel.defs (F := F)) _ _).mono (fun r h c =>
    have ha : ∀ b (hb : b ∈ Args), r.2.mem ((c.tc : Thread nD τ).loc b) = m ((c.tc : Thread nD τ).loc b) :=
      fun b hb => (h c _ (arg_mem_Sun b hb)).trans (WC'_arg m c b hb)
    ⟨h c _ v15_mem_Sun, ha _ (by decide), ha _ (by decide), ha _ (by decide), ha _ (by decide), ha _ (by decide),
      ha _ (by decide), ha _ (by decide), ha _ (by decide), ha _ (by decide)⟩)
    (run_main m ρ (tileObl m hb hidx))

end Cert.Proof.OnKernel.Frame

end
-- ==== Proof.OnKernel.IdxRange.lean ====
/-
  The index rows the gather's tasks are handed are entries of the edge list: each of the two index arrays is a
  row of the edge list, flattened and then cut into 32 × 125 × 80, and the node projection in between leaves
  them alone. So a bound on every entry of the edge list is a bound on every entry of both index arrays.
-/
import proofs.«206094_g687194767628_cont_sun_c4_81_43_alg».proof.Proof.OnKernel.Chain
import proofs.«206094_g687194767628_cont_sun_c4_81_43_alg».proof.Proof.OnKernel.TcStep
import proofs.«206094_g687194767628_cont_sun_c4_81_43_alg».proof.Proof.OnKernel.TileRes

noncomputable section

namespace Cert.Proof.OnKernel.Chain

open Cert.Kernel Cert.Kernel.Gen
open Cert.Proof.OnKernel

open Idealize.ShloMosaic Idealize.ShloMosaic.StableHlo
open Idealize.ShloMosaic.SparseCore.Cfg (HIx)

variable {F : FTy → Type} [FloatOps F]

/-- A TensorCore array's place among the device's buffers. -/
local notation:max "𝐫(" r ")" => (Proc.devRef (τ := τ) Proc.tc r : DevRef τ sig)

/-- A reshape read at an index is some entry of its operand; so is a slice. -/
theorem shapeCast_entry {s t : Shape} {α : Type} (x : s.Idx → α) (h : s.ShapeCasts t) (j : t.Idx) :
    ∃ k, shapeCast t x h j = x k := by
  unfold shapeCast; exact ⟨_, rfl⟩
theorem slice_entry {s t : Shape} {α : Type} (off : Fin s.rank → Nat) (x : s.Idx → α) (h : s.Slices off t) (j : t.Idx) :
    ∃ k, extractStridedSlice t off x h j = x k := by
  unfold extractStridedSlice; exact ⟨_, rfl⟩

variable (m : (ℓ : Loc nD τ sig) → Buf (Elt F) ℓ) (O : Dev nD → CellTallies nD τ sig (HIx 1)) (B : Dev nD → Set (SemLoc sig × HIx 1))

/-- Every entry of the first index array is an entry of the edge list. -/
theorem v7_entry (d : Dev nD) (x : S32x125x80.Idx) :
    ∃ i : S2x320000.Idx, (stB (Tc.R0 (stA (W0 m)) O B) d 𝐫(main_v7) : S32x125x80.Idx → BitVec 32) x
      = (W0 m d 𝐫(main_arg1) : S2x320000.Idx → BitVec 32) i := by
  have h7 : (stB (Tc.R0 (stA (W0 m)) O B) d 𝐫(main_v7) : S32x125x80.Idx → BitVec 32)
      = shapeCast S32x125x80 (Tc.R0 (stA (W0 m)) O B d 𝐫(main_v1) : S320000.Idx → BitVec 32) shapeCasts_S320000_S32x125x80 := by
    dsimp only [stB, Launch.opsB]; after_results; rfl
  have h1 : (stA (W0 m) d 𝐫(main_v1) : S320000.Idx → BitVec 32)
      = shapeCast S320000 (extractStridedSlice S1x320000 ![0, 0] (W0 m d 𝐫(main_arg1) : S2x320000.Idx → BitVec 32)
          slices_S2x320000_S1x320000_0_0) shapeCasts_S1x320000_S320000 := by
    dsimp only [stA, Launch.opsA]; after_results; rfl
  rw [h7, Tc.R0_of_ne _ _ _ d main_v1 (by decide), h1]
  obtain ⟨k1, e1⟩ := shapeCast_entry (shapeCast S320000 (extractStridedSlice S1x320000 ![0, 0] (W0 m d 𝐫(main_arg1) : S2x320000.Idx → BitVec 32)
      slices_S2x320000_S1x320000_0_0) shapeCasts_S1x320000_S320000) shapeCasts_S320000_S32x125x80 x
  obtain ⟨k2, e2⟩ := shapeCast_entry (extractStridedSlice S1x320000 ![0, 0] (W0 m d 𝐫(main_arg1) : S2x320000.Idx → BitVec 32)
      slices_S2x320000_S1x320000_0_0) shapeCasts_S1x320000_S320000 k1
  obtain ⟨k3, e3⟩ := slice_entry ![0, 0] (W0 m d 𝐫(main_arg1) : S2x320000.Idx → BitVec 32) slices_S2x320000_S1x320000_0_0 k2
  exact ⟨k3, e1.trans (e2.trans e3)⟩

/-- Every entry of the second index array is an entry of the edge list. -/
theorem v8_entry (d : Dev nD) (x : S32x125x80.Idx) :
    ∃ i : S2x320000.Idx, (stB (Tc.R0 (stA (W0 m)) O B) d 𝐫(main_v8) : S32x125x80.Idx → BitVec 32) x
      = (W0 m d 𝐫(main_arg1) : S2x320000.Idx → BitVec 32) i := by
  have h8 : (stB (Tc.R0 (stA (W0 m)) O B) d 𝐫(main_v8) : S32x125x80.Idx → BitVec 32)
      = shapeCast S32x125x80 (Tc.R0 (stA (W0 m)) O B d 𝐫(main_v3) : S320000.Idx → BitVec 32) shapeCasts_S320000_S32x125x80 := by
    dsimp only [stB, Launch.opsB]; after_results; rfl
  have h3 : (stA (W0 m) d 𝐫(main_v3) : S320000.Idx → BitVec 32)
      = shapeCast S320000 (extractStridedSlice S1x320000 ![1, 0] (W0 m d 𝐫(main_arg1) : S2x320000.Idx → BitVec 32)
          slices_S2x320000_S1x320000_1_0) shapeCasts_S1x320000_S320000 := by
    dsimp only [stA, Launch.opsA]; after_results; rfl
  rw [h8, Tc.R0_of_ne _ _ _ d main_v3 (by decide), h3]
  obtain ⟨k1, e1⟩ := shapeCast_entry (shapeCast S320000 (extractStridedSlice S1x320000 ![1, 0] (W0 m d 𝐫(main_arg1) : S2x320000.Idx → BitVec 32)
      slices_S2x320000_S1x320000_1_0) shapeCasts_S1x320000_S320000) shapeCasts_S320000_S32x125x80 x
  obtain ⟨k2, e2⟩ := shapeCast_entry (extractStridedSlice S1x320000 ![1, 0] (W0 m d 𝐫(main_arg1) : S2x320000.Idx → BitVec 32)
      slices_S2x320000_S1x320000_1_0) shapeCasts_S1x320000_S320000 k1
  obtain ⟨k3, e3⟩ := slice_entry ![1, 0] (W0 m d 𝐫(main_arg1) : S2x320000.Idx → BitVec 32) slices_S2x320000_S1x320000_1_0 k2
  exact ⟨k3, e1.trans (e2.trans e3)⟩

/-- A bound on every entry of the edge list bounds every index word every task is handed. -/
theorem idx_ok (d : Dev nD) (hlt : ∀ i, ((W0 m d (Proc.devRef .tc main_arg1)) i).toNat < 10000) (L : grid1.Coords) :
    Tile.IdxOK (F := F) d L (stB (Tc.R0 (stA (W0 m)) O B) d (Proc.devRef .tc main_v7)) (stB (Tc.R0 (stA (W0 m)) O B) d (Proc.devRef .tc main_v8)) := by
  intro x _
  obtain ⟨i, hi⟩ := v7_entry m O B d x
  obtain ⟨i', hi'⟩ := v8_entry m O B d x
  exact ⟨hi ▸ hlt i, hi' ▸ hlt i'⟩

end Cert.Proof.OnKernel.Chain

end
-- ==== Proof.RefRun.lean ====
/-
  The reference's run: its @main as the list of its host operations in order, each outlined
  function's operations listed inline at its call over that call's buffers; every weakly fair
  execution terminates with the result buffer at the operations' composed term of the argument
  arrays, and the arguments unchanged.
-/
import proofs.«206094_g687194767628_cont_sun_c4_81_43_alg».proof.Proof.Gen.ReferenceIdeal
import proofs.«206094_g687194767628_cont_sun_c4_81_43_alg».proof.Proof.Gen.Pre_input_domain
import proofs.«206094_g687194767628_cont_sun_c4_81_43_alg».proof.Defs
import Idealize.ShloMosaic.Lib.StableHlo.Run

noncomputable section

namespace Cert.Proof.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- @main's operations in order, the calls unfolded, over the typed references the outlined functions
    are stated with: the row gather twice (each the index normalisation, the range test, the gather and
    the select on the test), the maximum with zero. -/
abbrev opsT : List (HloOp τ sig (Elt F)) :=
  [
    StableHlo.unary main_arg5 main_v0 ((transpose S128x128 [1, 0] · transposes_S128x128_S128x128_1_0) : (⟨S128x128, .f32⟩ : BufTy).Contents (Elt F) → (⟨S128x128, .f32⟩ : BufTy).Contents (Elt F)),
    StableHlo.binary main_arg0 main_v0 main_v1 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg6 main_v2 (broadcastInDim S1x128 ![1] bcast_S128_S1x128_1 : (⟨S128, .f32⟩ : BufTy).Contents (Elt F) → (⟨S1x128, .f32⟩ : BufTy).Contents (Elt F)),
    StableHlo.unary main_v2 main_v3 (broadcastInDim S10000x128 ![0, 1] bcast_S1x128_S10000x128_0_1 : (⟨S1x128, .f32⟩ : BufTy).Contents (Elt F) → (⟨S10000x128, .f32⟩ : BufTy).Contents (Elt F)),
    StableHlo.binary main_v1 main_v3 main_v4 (addf : (⟨S10000x128, .f32⟩ : BufTy).Contents (Elt F) → (⟨S10000x128, .f32⟩ : BufTy).Contents (Elt F) → (⟨S10000x128, .f32⟩ : BufTy).Contents (Elt F)),
    StableHlo.unary main_arg1 main_v5 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v5 main_v6 rfl shapeCasts_S1x320000_S320000,
    StableHlo.TRef.nullary main_call0.c (constantI S_ 32 0#32),
    StableHlo.TRef.unary main_call0.c main_call0.v0 (broadcastInDim S320000 ![] bcast_S_S320000),
    StableHlo.TRef.binary (.of main_v6 : StableHlo.TRef sig ⟨S320000, .i32⟩) main_call0.v0 main_call0.v1 (cmpi .slt),
    StableHlo.TRef.nullary main_call0.c_0 (constantI S_ 32 10000#32),
    StableHlo.TRef.unary main_call0.c_0 main_call0.v2 (broadcastInDim S320000 ![] bcast_S_S320000),
    StableHlo.TRef.binary (.of main_v6 : StableHlo.TRef sig ⟨S320000, .i32⟩) main_call0.v2 main_call0.v3 addi,
    StableHlo.TRef.ternary main_call0.v1 main_call0.v3 (.of main_v6 : StableHlo.TRef sig ⟨S320000, .i32⟩) main_call0.call0.v0 select,
    StableHlo.TRef.unary main_call0.call0.v0 main_call0.v5 (broadcastInDim S320000x1 ![0] bcast_S320000_S320000x1_0),
    StableHlo.TRef.nullary main_call0.c_1 (constantI S1 32 9999#32),
    StableHlo.TRef.nullary main_call0.c_2 (constantI S_ 32 0#32),
    StableHlo.TRef.unary main_call0.c_2 main_call0.v6 (broadcastInDim S320000x1 ![] bcast_S_S320000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S320000x1 ![0, 1] bcast_S1x1_S320000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S320000x1_S320000_d1 h_S_),
    StableHlo.TRef.binary (.of main_v4 : StableHlo.TRef sig ⟨S10000x128, .f32⟩) main_call0.v5 main_call0.v13 (fun x i => Host.gather gather_S10000x128_S320000x1_S320000x128_1_0_n_n_0_1_1128 x i),
    StableHlo.TRef.unary main_call0.v12 main_call0.v14 (broadcastInDim S320000x128 ![0] bcast_S320000_S320000x128_0),
    StableHlo.TRef.nullary main_call0.cst (constant S_ .f32 0x7FC00000#32),
    StableHlo.TRef.unary main_call0.cst main_call0.v15 (broadcastInDim S320000x128 ![] bcast_S_S320000x128),
    StableHlo.TRef.ternary main_call0.v14 main_call0.v13 main_call0.v15 main_call0.v16 select,
    StableHlo.unary main_arg1 main_v8 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v8 main_v9 rfl shapeCasts_S1x320000_S320000,
    StableHlo.TRef.nullary main_call1.c (constantI S_ 32 0#32),
    StableHlo.TRef.unary main_call1.c main_call1.v0 (broadcastInDim S320000 ![] bcast_S_S320000),
    StableHlo.TRef.binary (.of main_v9 : StableHlo.TRef sig ⟨S320000, .i32⟩) main_call1.v0 main_call1.v1 (cmpi .slt),
    StableHlo.TRef.nullary main_call1.c_0 (constantI S_ 32 10000#32),
    StableHlo.TRef.unary main_call1.c_0 main_call1.v2 (broadcastInDim S320000 ![] bcast_S_S320000),
    StableHlo.TRef.binary (.of main_v9 : StableHlo.TRef sig ⟨S320000, .i32⟩) main_call1.v2 main_call1.v3 addi,
    StableHlo.TRef.ternary main_call1.v1 main_call1.v3 (.of main_v9 : StableHlo.TRef sig ⟨S320000, .i32⟩) main_call1.call0.v0 select,
    StableHlo.TRef.unary main_call1.call0.v0 main_call1.v5 (broadcastInDim S320000x1 ![0] bcast_S320000_S320000x1_0),
    StableHlo.TRef.nullary main_call1.c_1 (constantI S1 32 9999#32),
    StableHlo.TRef.nullary main_call1.c_2 (constantI S_ 32 0#32),
    StableHlo.TRef.unary main_call1.c_2 main_call1.v6 (broadcastInDim S320000x1 ![] bcast_S_S320000x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S320000x1 ![0, 1] bcast_S1x1_S320000x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S320000x1_S320000_d1 h_S_),
    StableHlo.TRef.binary (.of main_v4 : StableHlo.TRef sig ⟨S10000x128, .f32⟩) main_call1.v5 main_call1.v13 (fun x i => Host.gather gather_S10000x128_S320000x1_S320000x128_1_0_n_n_0_1_1128 x i),
    StableHlo.TRef.unary main_call1.v12 main_call1.v14 (broadcastInDim S320000x128 ![0] bcast_S320000_S320000x128_0),
    StableHlo.TRef.nullary main_call1.cst (constant S_ .f32 0x7FC00000#32),
    StableHlo.TRef.unary main_call1.cst main_call1.v15 (broadcastInDim S320000x128 ![] bcast_S_S320000x128),
    StableHlo.TRef.ternary main_call1.v14 main_call1.v13 main_call1.v15 main_call1.v16 select,
    StableHlo.binary main_v7 main_v10 main_v11 (addf : (⟨S320000x128, .f32⟩ : BufTy).Contents (Elt F) → (⟨S320000x128, .f32⟩ : BufTy).Contents (Elt F) → (⟨S320000x128, .f32⟩ : BufTy).Contents (Elt F)),
    StableHlo.TRef.nullary main_call2.cst (constant S_ .f32 0x00000000#32),
    StableHlo.TRef.unary main_call2.cst main_call2.v0 (broadcastInDim S320000x128 ![] bcast_S_S320000x128),
    StableHlo.TRef.binary (.of main_v11 : StableHlo.TRef sig ⟨S320000x128, .f32⟩) main_call2.v0 main_call2.v1 maximumf,
    StableHlo.nary ![main_v12, main_arg3, main_arg2] main_v13 (fun u => concatenate S320000x148 1 [⟨S320000x128, u 0⟩, ⟨S320000x16, u 1⟩, ⟨S320000x4, u 2⟩] concatenates_S320000x128_S320000x16_S320000x4_S320000x148_d1),
    StableHlo.unary main_arg7 main_v14 ((transpose S148x128 [1, 0] · transposes_S128x148_S148x128_1_0) : (⟨S128x148, .f32⟩ : BufTy).Contents (Elt F) → (⟨S148x128, .f32⟩ : BufTy).Contents (Elt F)),
    StableHlo.binary main_v13 main_v14 main_v15 ((fun l r => Host.dotGeneral dot_S320000x148_S148x128_S320000x128_1_0_0_1_n_n none l r) : (⟨S320000x148, .f32⟩ : BufTy).Contents (Elt F) → (⟨S148x128, .f32⟩ : BufTy).Contents (Elt F) → (⟨S320000x128, .f32⟩ : BufTy).Contents (Elt F)),
    StableHlo.unary main_arg8 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S320000x128 ![0, 1] bcast_S1x128_S320000x128_0_1 : (⟨S1x128, .f32⟩ : BufTy).Contents (Elt F) → (⟨S320000x128, .f32⟩ : BufTy).Contents (Elt F)),
    StableHlo.binary main_v15 main_v17 main_v18 (addf : (⟨S320000x128, .f32⟩ : BufTy).Contents (Elt F) → (⟨S320000x128, .f32⟩ : BufTy).Contents (Elt F) → (⟨S320000x128, .f32⟩ : BufTy).Contents (Elt F)) ]

set_option maxRecDepth 8192 in
set_option maxHeartbeats 1600000 in
/-- @main is that straight line: the functions' definitions unfolded at their calls; grafting a
    continuation onto a call's line is computed by the sequencing's own recursion. -/
theorem main_eqT (c : Dev nD) : main (F := F) c = seq opsT := rfl

/-- The same operations at the buffers themselves: an operation over typed references is the operation at
    their buffers, the transport along a literal reference's type equation being the identity. -/
abbrev ops : List (HloOp τ sig (Elt F)) :=
  [
    StableHlo.unary main_arg5 main_v0 ((transpose S128x128 [1, 0] · transposes_S128x128_S128x128_1_0) : (⟨S128x128, .f32⟩ : BufTy).Contents (Elt F) → (⟨S128x128, .f32⟩ : BufTy).Contents (Elt F)),
    StableHlo.binary main_arg0 main_v0 main_v1 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg6 main_v2 (broadcastInDim S1x128 ![1] bcast_S128_S1x128_1 : (⟨S128, .f32⟩ : BufTy).Contents (Elt F) → (⟨S1x128, .f32⟩ : BufTy).Contents (Elt F)),
    StableHlo.unary main_v2 main_v3 (broadcastInDim S10000x128 ![0, 1] bcast_S1x128_S10000x128_0_1 : (⟨S1x128, .f32⟩ : BufTy).Contents (Elt F) → (⟨S10000x128, .f32⟩ : BufTy).Contents (Elt F)),
    StableHlo.binary main_v1 main_v3 main_v4 (addf : (⟨S10000x128, .f32⟩ : BufTy).Contents (Elt F) → (⟨S10000x128, .f32⟩ : BufTy).Contents (Elt F) → (⟨S10000x128, .f32⟩ : BufTy).Contents (Elt F)),
    StableHlo.unary main_arg1 main_v5 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v5 main_v6 rfl shapeCasts_S1x320000_S320000,
    StableHlo.nullary main_call0_c ((constantI S_ 32 0#32) : (⟨S_, .i32⟩ : BufTy).Contents (Elt F)),
    StableHlo.unary main_call0_c main_call0_v0 ((broadcastInDim S320000 ![] bcast_S_S320000) : (⟨S_, .i32⟩ : BufTy).Contents (Elt F) → (⟨S320000, .i32⟩ : BufTy).Contents (Elt F)),
    StableHlo.binary main_v6 main_call0_v0 main_call0_v1 ((cmpi .slt) : (⟨S320000, .i32⟩ : BufTy).Contents (Elt F) → (⟨S320000, .i32⟩ : BufTy).Contents (Elt F) → (⟨S320000, .i1⟩ : BufTy).Contents (Elt F)),
    StableHlo.nullary main_call0_c_0 ((constantI S_ 32 10000#32) : (⟨S_, .i32⟩ : BufTy).Contents (Elt F)),
    StableHlo.unary main_call0_c_0 main_call0_v2 ((broadcastInDim S320000 ![] bcast_S_S320000) : (⟨S_, .i32⟩ : BufTy).Contents (Elt F) → (⟨S320000, .i32⟩ : BufTy).Contents (Elt F)),
    StableHlo.binary main_v6 main_call0_v2 main_call0_v3 ((addi) : (⟨S320000, .i32⟩ : BufTy).Contents (Elt F) → (⟨S320000, .i32⟩ : BufTy).Contents (Elt F) → (⟨S320000, .i32⟩ : BufTy).Contents (Elt F)),
    StableHlo.ternary main_call0_v1 main_call0_v3 main_v6 main_call0_v4 ((select) : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_call0_v4 main_call0_v5 ((broadcastInDim S320000x1 ![0] bcast_S320000_S320000x1_0) : (⟨S320000, .i32⟩ : BufTy).Contents (Elt F) → (⟨S320000x1, .i32⟩ : BufTy).Contents (Elt F)),
    StableHlo.nullary main_call0_c_1 ((constantI S1 32 9999#32) : (⟨S1, .i32⟩ : BufTy).Contents (Elt F)),
    StableHlo.nullary main_call0_c_2 ((constantI S_ 32 0#32) : (⟨S_, .i32⟩ : BufTy).Contents (Elt F)),
    StableHlo.unary main_call0_c_2 main_call0_v6 ((broadcastInDim S320000x1 ![] bcast_S_S320000x1) : (⟨S_, .i32⟩ : BufTy).Contents (Elt F) → (⟨S320000x1, .i32⟩ : BufTy).Contents (Elt F)),
    StableHlo.binary main_call0_v5 main_call0_v6 main_call0_v7 ((cmpi .sge) : (⟨S320000x1, .i32⟩ : BufTy).Contents (Elt F) → (⟨S320000x1, .i32⟩ : BufTy).Contents (Elt F) → (⟨S320000x1, .i1⟩ : BufTy).Contents (Elt F)),
    StableHlo.unary main_call0_c_1 main_call0_v8 ((broadcastInDim S1x1 ![1] bcast_S1_S1x1_1) : (⟨S1, .i32⟩ : BufTy).Contents (Elt F) → (⟨S1x1, .i32⟩ : BufTy).Contents (Elt F)),
    StableHlo.unary main_call0_v8 main_call0_v9 ((broadcastInDim S320000x1 ![0, 1] bcast_S1x1_S320000x1_0_1) : (⟨S1x1, .i32⟩ : BufTy).Contents (Elt F) → (⟨S320000x1, .i32⟩ : BufTy).Contents (Elt F)),
    StableHlo.binary main_call0_v5 main_call0_v9 main_call0_v10 ((cmpi .sle) : (⟨S320000x1, .i32⟩ : BufTy).Contents (Elt F) → (⟨S320000x1, .i32⟩ : BufTy).Contents (Elt F) → (⟨S320000x1, .i1⟩ : BufTy).Contents (Elt F)),
    StableHlo.binary main_call0_v7 main_call0_v10 main_call0_v11 ((andi) : (⟨S320000x1, .i1⟩ : BufTy).Contents (Elt F) → (⟨S320000x1, .i1⟩ : BufTy).Contents (Elt F) → (⟨S320000x1, .i1⟩ : BufTy).Contents (Elt F)),
    StableHlo.nullary main_call0_c_3 ((constantI S_ 1 1#1) : (⟨S_, .i1⟩ : BufTy).Contents (Elt F)),
    StableHlo.binary main_call0_v11 main_call0_c_3 main_call0_v12 ((fun x v => Host.reduce IntOp.andi x v reducesTo_S320000x1_S320000_d1 h_S_) : (⟨S320000x1, .i1⟩ : BufTy).Contents (Elt F) → (⟨S_, .i1⟩ : BufTy).Contents (Elt F) → (⟨S320000, .i1⟩ : BufTy).Contents (Elt F)),
    StableHlo.binary main_v4 main_call0_v5 main_call0_v13 ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F)),
    StableHlo.unary main_call0_v12 main_call0_v14 ((broadcastInDim S320000x128 ![0] bcast_S320000_S320000x128_0) : (⟨S320000, .i1⟩ : BufTy).Contents (Elt F) → (⟨S320000x128, .i1⟩ : BufTy).Contents (Elt F)),
    StableHlo.nullary main_call0_cst ((constant S_ .f32 0x7FC00000#32) : (⟨S_, .f32⟩ : BufTy).Contents (Elt F)),
    StableHlo.unary main_call0_cst main_call0_v15 ((broadcastInDim S320000x128 ![] bcast_S_S320000x128) : (⟨S_, .f32⟩ : BufTy).Contents (Elt F) → (⟨S320000x128, .f32⟩ : BufTy).Contents (Elt F)),
    StableHlo.ternary main_call0_v14 main_call0_v13 main_call0_v15 main_v7 ((select) : (⟨S320000x128, .i1⟩ : BufTy).Contents (Elt F) → (⟨S320000x128, .f32⟩ : BufTy).Contents (Elt F) → (⟨S320000x128, .f32⟩ : BufTy).Contents (Elt F) → (⟨S320000x128, .f32⟩ : BufTy).Contents (Elt F)),
    StableHlo.unary main_arg1 main_v8 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v8 main_v9 rfl shapeCasts_S1x320000_S320000,
    StableHlo.nullary main_call1_c ((constantI S_ 32 0#32) : (⟨S_, .i32⟩ : BufTy).Contents (Elt F)),
    StableHlo.unary main_call1_c main_call1_v0 ((broadcastInDim S320000 ![] bcast_S_S320000) : (⟨S_, .i32⟩ : BufTy).Contents (Elt F) → (⟨S320000, .i32⟩ : BufTy).Contents (Elt F)),
    StableHlo.binary main_v9 main_call1_v0 main_call1_v1 ((cmpi .slt) : (⟨S320000, .i32⟩ : BufTy).Contents (Elt F) → (⟨S320000, .i32⟩ : BufTy).Contents (Elt F) → (⟨S320000, .i1⟩ : BufTy).Contents (Elt F)),
    StableHlo.nullary main_call1_c_0 ((constantI S_ 32 10000#32) : (⟨S_, .i32⟩ : BufTy).Contents (Elt F)),
    StableHlo.unary main_call1_c_0 main_call1_v2 ((broadcastInDim S320000 ![] bcast_S_S320000) : (⟨S_, .i32⟩ : BufTy).Contents (Elt F) → (⟨S320000, .i32⟩ : BufTy).Contents (Elt F)),
    StableHlo.binary main_v9 main_call1_v2 main_call1_v3 ((addi) : (⟨S320000, .i32⟩ : BufTy).Contents (Elt F) → (⟨S320000, .i32⟩ : BufTy).Contents (Elt F) → (⟨S320000, .i32⟩ : BufTy).Contents (Elt F)),
    StableHlo.ternary main_call1_v1 main_call1_v3 main_v9 main_call1_v4 ((select) : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_call1_v4 main_call1_v5 ((broadcastInDim S320000x1 ![0] bcast_S320000_S320000x1_0) : (⟨S320000, .i32⟩ : BufTy).Contents (Elt F) → (⟨S320000x1, .i32⟩ : BufTy).Contents (Elt F)),
    StableHlo.nullary main_call1_c_1 ((constantI S1 32 9999#32) : (⟨S1, .i32⟩ : BufTy).Contents (Elt F)),
    StableHlo.nullary main_call1_c_2 ((constantI S_ 32 0#32) : (⟨S_, .i32⟩ : BufTy).Contents (Elt F)),
    StableHlo.unary main_call1_c_2 main_call1_v6 ((broadcastInDim S320000x1 ![] bcast_S_S320000x1) : (⟨S_, .i32⟩ : BufTy).Contents (Elt F) → (⟨S320000x1, .i32⟩ : BufTy).Contents (Elt F)),
    StableHlo.binary main_call1_v5 main_call1_v6 main_call1_v7 ((cmpi .sge) : (⟨S320000x1, .i32⟩ : BufTy).Contents (Elt F) → (⟨S320000x1, .i32⟩ : BufTy).Contents (Elt F) → (⟨S320000x1, .i1⟩ : BufTy).Contents (Elt F)),
    StableHlo.unary main_call1_c_1 main_call1_v8 ((broadcastInDim S1x1 ![1] bcast_S1_S1x1_1) : (⟨S1, .i32⟩ : BufTy).Contents (Elt F) → (⟨S1x1, .i32⟩ : BufTy).Contents (Elt F)),
    StableHlo.unary main_call1_v8 main_call1_v9 ((broadcastInDim S320000x1 ![0, 1] bcast_S1x1_S320000x1_0_1) : (⟨S1x1, .i32⟩ : BufTy).Contents (Elt F) → (⟨S320000x1, .i32⟩ : BufTy).Contents (Elt F)),
    StableHlo.binary main_call1_v5 main_call1_v9 main_call1_v10 ((cmpi .sle) : (⟨S320000x1, .i32⟩ : BufTy).Contents (Elt F) → (⟨S320000x1, .i32⟩ : BufTy).Contents (Elt F) → (⟨S320000x1, .i1⟩ : BufTy).Contents (Elt F)),
    StableHlo.binary main_call1_v7 main_call1_v10 main_call1_v11 ((andi) : (⟨S320000x1, .i1⟩ : BufTy).Contents (Elt F) → (⟨S320000x1, .i1⟩ : BufTy).Contents (Elt F) → (⟨S320000x1, .i1⟩ : BufTy).Contents (Elt F)),
    StableHlo.nullary main_call1_c_3 ((constantI S_ 1 1#1) : (⟨S_, .i1⟩ : BufTy).Contents (Elt F)),
    StableHlo.binary main_call1_v11 main_call1_c_3 main_call1_v12 ((fun x v => Host.reduce IntOp.andi x v reducesTo_S320000x1_S320000_d1 h_S_) : (⟨S320000x1, .i1⟩ : BufTy).Contents (Elt F) → (⟨S_, .i1⟩ : BufTy).Contents (Elt F) → (⟨S320000, .i1⟩ : BufTy).Contents (Elt F)),
    StableHlo.binary main_v4 main_call1_v5 main_call1_v13 ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F)),
    StableHlo.unary main_call1_v12 main_call1_v14 ((broadcastInDim S320000x128 ![0] bcast_S320000_S320000x128_0) : (⟨S320000, .i1⟩ : BufTy).Contents (Elt F) → (⟨S320000x128, .i1⟩ : BufTy).Contents (Elt F)),
    StableHlo.nullary main_call1_cst ((constant S_ .f32 0x7FC00000#32) : (⟨S_, .f32⟩ : BufTy).Contents (Elt F)),
    StableHlo.unary main_call1_cst main_call1_v15 ((broadcastInDim S320000x128 ![] bcast_S_S320000x128) : (⟨S_, .f32⟩ : BufTy).Contents (Elt F) → (⟨S320000x128, .f32⟩ : BufTy).Contents (Elt F)),
    StableHlo.ternary main_call1_v14 main_call1_v13 main_call1_v15 main_v10 ((select) : (⟨S320000x128, .i1⟩ : BufTy).Contents (Elt F) → (⟨S320000x128, .f32⟩ : BufTy).Contents (Elt F) → (⟨S320000x128, .f32⟩ : BufTy).Contents (Elt F) → (⟨S320000x128, .f32⟩ : BufTy).Contents (Elt F)),
    StableHlo.binary main_v7 main_v10 main_v11 (addf : (⟨S320000x128, .f32⟩ : BufTy).Contents (Elt F) → (⟨S320000x128, .f32⟩ : BufTy).Contents (Elt F) → (⟨S320000x128, .f32⟩ : BufTy).Contents (Elt F)),
    StableHlo.nullary main_call2_cst ((constant S_ .f32 0x00000000#32) : (⟨S_, .f32⟩ : BufTy).Contents (Elt F)),
    StableHlo.unary main_call2_cst main_call2_v0 ((broadcastInDim S320000x128 ![] bcast_S_S320000x128) : (⟨S_, .f32⟩ : BufTy).Contents (Elt F) → (⟨S320000x128, .f32⟩ : BufTy).Contents (Elt F)),
    StableHlo.binary main_v11 main_call2_v0 main_v12 ((maximumf) : (⟨S320000x128, .f32⟩ : BufTy).Contents (Elt F) → (⟨S320000x128, .f32⟩ : BufTy).Contents (Elt F) → (⟨S320000x128, .f32⟩ : BufTy).Contents (Elt F)),
    StableHlo.nary ![main_v12, main_arg3, main_arg2] main_v13 (fun u => concatenate S320000x148 1 [⟨S320000x128, u 0⟩, ⟨S320000x16, u 1⟩, ⟨S320000x4, u 2⟩] concatenates_S320000x128_S320000x16_S320000x4_S320000x148_d1),
    StableHlo.unary main_arg7 main_v14 ((transpose S148x128 [1, 0] · transposes_S128x148_S148x128_1_0) : (⟨S128x148, .f32⟩ : BufTy).Contents (Elt F) → (⟨S148x128, .f32⟩ : BufTy).Contents (Elt F)),
    StableHlo.binary main_v13 main_v14 main_v15 ((fun l r => Host.dotGeneral dot_S320000x148_S148x128_S320000x128_1_0_0_1_n_n none l r) : (⟨S320000x148, .f32⟩ : BufTy).Contents (Elt F) → (⟨S148x128, .f32⟩ : BufTy).Contents (Elt F) → (⟨S320000x128, .f32⟩ : BufTy).Contents (Elt F)),
    StableHlo.unary main_arg8 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S320000x128 ![0, 1] bcast_S1x128_S320000x128_0_1 : (⟨S1x128, .f32⟩ : BufTy).Contents (Elt F) → (⟨S320000x128, .f32⟩ : BufTy).Contents (Elt F)),
    StableHlo.binary main_v15 main_v17 main_v18 (addf : (⟨S320000x128, .f32⟩ : BufTy).Contents (Elt F) → (⟨S320000x128, .f32⟩ : BufTy).Contents (Elt F) → (⟨S320000x128, .f32⟩ : BufTy).Contents (Elt F)) ]

set_option maxRecDepth 8192 in
set_option maxHeartbeats 1600000 in
/-- The two lists agree operation by operation. -/
theorem opsT_eq : (opsT : List (HloOp τ sig (Elt F))) = ops := by
  unfold opsT ops
  repeat' (first | refine congr (congrArg List.cons ?_) ?_ | (with_reducible rfl))
  all_goals dsimp only [TRef.nullary, TRef.unary, TRef.binary, TRef.ternary, TRef.toBuf, TRef.ofBuf, TRef.of]
  all_goals (try simp only [cast_eq])
  all_goals (try (with_reducible rfl))
  all_goals rfl

theorem main_eq (c : Dev nD) : main (F := F) c = seq ops := (main_eqT c).trans (congrArg seq opsT_eq)

/-! ## The composed term

The value the operations leave in the result buffer, as a function of the argument arrays, in layers:
the node projection, the two index rows, one row gather (index normalisation, range test, gather,
select on the test), the maximum with zero, the concatenation, the edge projection. -/

section Term

/-- Row 0 of the index array, as a vector of 320000 words. -/
def rowIdx0 (ei : IVec S2x320000 32) : IVec S320000 32 :=
  shapeCast S320000 (extractStridedSlice S1x320000 ![0, 0] ei slices_S2x320000_S1x320000_0_0) shapeCasts_S1x320000_S320000

/-- Row 1 of the index array, as a vector of 320000 words. -/
def rowIdx1 (ei : IVec S2x320000 32) : IVec S320000 32 :=
  shapeCast S320000 (extractStridedSlice S1x320000 ![1, 0] ei slices_S2x320000_S1x320000_1_0) shapeCasts_S1x320000_S320000

/-- The index normalisation: a negative index counts from the end (plus 10000). -/
def wrapIdx (i : IVec S320000 32) : IVec S320000 32 :=
  select (cmpi .slt i (broadcastInDim S320000 ![] bcast_S_S320000 (constantI S_ 32 0#32)))
    (addi i (broadcastInDim S320000 ![] bcast_S_S320000 (constantI S_ 32 10000#32))) i

/-- The normalised indices as a column of start indices. -/
def colIdx (i : IVec S320000 32) : IVec S320000x1 32 :=
  broadcastInDim S320000x1 ![0] bcast_S320000_S320000x1_0 (wrapIdx i)

/-- The range test: per row, whether its start index is within 0 … 9999. -/
def inRange (c : IVec S320000x1 32) : IVec S320000 1 :=
  Host.reduce IntOp.andi
    (andi (cmpi .sge c (broadcastInDim S320000x1 ![] bcast_S_S320000x1 (constantI S_ 32 0#32)))
      (cmpi .sle c (broadcastInDim S320000x1 ![0, 1] bcast_S1x1_S320000x1_0_1
        (broadcastInDim S1x1 ![1] bcast_S1_S1x1_1 (constantI S1 32 9999#32)))))
    (constantI S_ 1 1#1) reducesTo_S320000x1_S320000_d1 h_S_

/-- One row gather: the gathered row where the index is in range, the fill word elsewhere. -/
def takeTerm (h : (⟨S10000x128, .f32⟩ : BufTy).Contents (Elt F)) (i : IVec S320000 32) :
    (⟨S320000x128, .f32⟩ : BufTy).Contents (Elt F) :=
  select (broadcastInDim S320000x128 ![0] bcast_S320000_S320000x128_0 (inRange (colIdx i)))
    (Host.gather gather_S10000x128_S320000x1_S320000x128_1_0_n_n_0_1_1128 h (colIdx i))
    (broadcastInDim S320000x128 ![] bcast_S_S320000x128 (constant S_ .f32 0x7FC00000#32))

/-- The node projection x·W1ᵀ + b1. -/
def hTerm (x : (⟨S10000x128, .f32⟩ : BufTy).Contents (Elt F)) (W1 : (⟨S128x128, .f32⟩ : BufTy).Contents (Elt F))
    (b1 : (⟨S128, .f32⟩ : BufTy).Contents (Elt F)) : (⟨S10000x128, .f32⟩ : BufTy).Contents (Elt F) :=
  addf (Host.dotGeneral dot_S10000x128_S128x128_S10000x128_1_0_0_1_n_n none x
      (transpose S128x128 [1, 0] W1 transposes_S128x128_S128x128_1_0))
    (broadcastInDim S10000x128 ![0, 1] bcast_S1x128_S10000x128_0_1 (broadcastInDim S1x128 ![1] bcast_S128_S1x128_1 b1))

/-- The maximum with zero. -/
def reluTerm (a : (⟨S320000x128, .f32⟩ : BufTy).Contents (Elt F)) : (⟨S320000x128, .f32⟩ : BufTy).Contents (Elt F) :=
  maximumf a (broadcastInDim S320000x128 ![] bcast_S_S320000x128 (constant S_ .f32 0x00000000#32))

/-- The three feature blocks side by side. -/
def featsTerm (xem : (⟨S320000x128, .f32⟩ : BufTy).Contents (Elt F)) (ea : (⟨S320000x16, .f32⟩ : BufTy).Contents (Elt F))
    (ef : (⟨S320000x4, .f32⟩ : BufTy).Contents (Elt F)) : (⟨S320000x148, .f32⟩ : BufTy).Contents (Elt F) :=
  concatenate S320000x148 1 [⟨S320000x128, xem⟩, ⟨S320000x16, ea⟩, ⟨S320000x4, ef⟩]
    concatenates_S320000x128_S320000x16_S320000x4_S320000x148_d1

/-- The edge projection feats·W2ᵀ + b2. -/
def outTerm (feats : (⟨S320000x148, .f32⟩ : BufTy).Contents (Elt F)) (W2 : (⟨S128x148, .f32⟩ : BufTy).Contents (Elt F))
    (b2 : (⟨S128, .f32⟩ : BufTy).Contents (Elt F)) : (⟨S320000x128, .f32⟩ : BufTy).Contents (Elt F) :=
  addf (Host.dotGeneral dot_S320000x148_S148x128_S320000x128_1_0_0_1_n_n none feats
      (transpose S148x128 [1, 0] W2 transposes_S128x148_S148x128_1_0))
    (broadcastInDim S320000x128 ![0, 1] bcast_S1x128_S320000x128_0_1 (broadcastInDim S1x128 ![1] bcast_S128_S1x128_1 b2))

/-- The whole result as a function of the argument arrays (x, ei, ef, ea, W1, b1, W2, b2: arguments 0, 1, 2, 3, 5, 6, 7, 8). -/
def refTerm (x : (⟨S10000x128, .f32⟩ : BufTy).Contents (Elt F)) (ei : IVec S2x320000 32)
    (ef : (⟨S320000x4, .f32⟩ : BufTy).Contents (Elt F)) (ea : (⟨S320000x16, .f32⟩ : BufTy).Contents (Elt F))
    (W1 : (⟨S128x128, .f32⟩ : BufTy).Contents (Elt F)) (b1 : (⟨S128, .f32⟩ : BufTy).Contents (Elt F))
    (W2 : (⟨S128x148, .f32⟩ : BufTy).Contents (Elt F)) (b2 : (⟨S128, .f32⟩ : BufTy).Contents (Elt F)) :
    (⟨S320000x128, .f32⟩ : BufTy).Contents (Elt F) :=
  outTerm (featsTerm (reluTerm (addf (takeTerm (hTerm x W1 b1) (rowIdx0 ei)) (takeTerm (hTerm x W1 b1) (rowIdx1 ei)))) ea ef) W2 b2

end Term

/-! ## The fold at the result and at the arguments -/

/-- The concatenation's result, each operand's contents at its own buffer. -/
theorem concat_result' (G : Valuation τ sig (Elt F)) :
    (StableHlo.nary ![main_v12, main_arg3, main_arg2] main_v13 (fun u => concatenate S320000x148 1 [⟨S320000x128, u 0⟩, ⟨S320000x16, u 1⟩, ⟨S320000x4, u 2⟩] concatenates_S320000x128_S320000x16_S320000x4_S320000x148_d1)).result G (no_index (Proc.devRef .tc main_v13))
      = featsTerm (G (Proc.devRef .tc main_v12)) (G (Proc.devRef .tc main_arg3)) (G (Proc.devRef .tc main_arg2)) := by
  rw [nary_result]
  rfl

set_option maxRecDepth 8192 in
set_option maxHeartbeats 4000000 in
/-- The result buffer after the line is the composed term of the argument buffers' contents. -/
theorem val_eq (V : Valuation τ sig (Elt F)) :
    after ops V (main_v18 : DevRef τ sig)
      = refTerm (V (main_arg0 : DevRef τ sig)) (V (main_arg1 : DevRef τ sig)) (V (main_arg2 : DevRef τ sig))
          (V (main_arg3 : DevRef τ sig)) (V (main_arg5 : DevRef τ sig)) (V (main_arg6 : DevRef τ sig))
          (V (main_arg7 : DevRef τ sig)) (V (main_arg8 : DevRef τ sig)) := by
  simp (disch := decide) only [after_cons, after_nil,
      nullary_result', unary_result', binary_result', ternary_result', reshape_result', concat_result',
      nullary_result_ne', unary_result_ne', binary_result_ne', ternary_result_ne', reshape_result_ne', nary_result_ne']
  rfl

/-! ## The arguments are not written -/

set_option maxRecDepth 8192 in
set_option maxHeartbeats 2000000 in
theorem arg0_eq (V : Valuation τ sig (Elt F)) : after ops V (main_arg0 : DevRef τ sig) = V (main_arg0 : DevRef τ sig) := by
  simp (disch := decide) only [after_cons, after_nil,
      nullary_result_ne', unary_result_ne', binary_result_ne', ternary_result_ne', reshape_result_ne', nary_result_ne']

set_option maxRecDepth 8192 in
set_option maxHeartbeats 2000000 in
theorem arg1_eq (V : Valuation τ sig (Elt F)) : after ops V (main_arg1 : DevRef τ sig) = V (main_arg1 : DevRef τ sig) := by
  simp (disch := decide) only [after_cons, after_nil,
      nullary_result_ne', unary_result_ne', binary_result_ne', ternary_result_ne', reshape_result_ne', nary_result_ne']

set_option maxRecDepth 8192 in
set_option maxHeartbeats 2000000 in
theorem arg2_eq (V : Valuation τ sig (Elt F)) : after ops V (main_arg2 : DevRef τ sig) = V (main_arg2 : DevRef τ sig) := by
  simp (disch := decide) only [after_cons, after_nil,
      nullary_result_ne', unary_result_ne', binary_result_ne', ternary_result_ne', reshape_result_ne', nary_result_ne']

set_option maxRecDepth 8192 in
set_option maxHeartbeats 2000000 in
theorem arg3_eq (V : Valuation τ sig (Elt F)) : after ops V (main_arg3 : DevRef τ sig) = V (main_arg3 : DevRef τ sig) := by
  simp (disch := decide) only [after_cons, after_nil,
      nullary_result_ne', unary_result_ne', binary_result_ne', ternary_result_ne', reshape_result_ne', nary_result_ne']

set_option maxRecDepth 8192 in
set_option maxHeartbeats 2000000 in
theorem arg4_eq (V : Valuation τ sig (Elt F)) : after ops V (main_arg4 : DevRef τ sig) = V (main_arg4 : DevRef τ sig) := by
  simp (disch := decide) only [after_cons, after_nil,
      nullary_result_ne', unary_result_ne', binary_result_ne', ternary_result_ne', reshape_result_ne', nary_result_ne']

set_option maxRecDepth 8192 in
set_option maxHeartbeats 2000000 in
theorem arg5_eq (V : Valuation τ sig (Elt F)) : after ops V (main_arg5 : DevRef τ sig) = V (main_arg5 : DevRef τ sig) := by
  simp (disch := decide) only [after_cons, after_nil,
      nullary_result_ne', unary_result_ne', binary_result_ne', ternary_result_ne', reshape_result_ne', nary_result_ne']

set_option maxRecDepth 8192 in
set_option maxHeartbeats 2000000 in
theorem arg6_eq (V : Valuation τ sig (Elt F)) : after ops V (main_arg6 : DevRef τ sig) = V (main_arg6 : DevRef τ sig) := by
  simp (disch := decide) only [after_cons, after_nil,
      nullary_result_ne', unary_result_ne', binary_result_ne', ternary_result_ne', reshape_result_ne', nary_result_ne']

set_option maxRecDepth 8192 in
set_option maxHeartbeats 2000000 in
theorem arg7_eq (V : Valuation τ sig (Elt F)) : after ops V (main_arg7 : DevRef τ sig) = V (main_arg7 : DevRef τ sig) := by
  simp (disch := decide) only [after_cons, after_nil,
      nullary_result_ne', unary_result_ne', binary_result_ne', ternary_result_ne', reshape_result_ne', nary_result_ne']

set_option maxRecDepth 8192 in
set_option maxHeartbeats 2000000 in
theorem arg8_eq (V : Valuation τ sig (Elt F)) : after ops V (main_arg8 : DevRef τ sig) = V (main_arg8 : DevRef τ sig) := by
  simp (disch := decide) only [after_cons, after_nil,
      nullary_result_ne', unary_result_ne', binary_result_ne', ternary_result_ne', reshape_result_ne', nary_result_ne']

/-! ## The run -/

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    unary_bufs_sub .., binary_bufs_sub .., unary_bufs_sub .., unary_bufs_sub .., binary_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., binary_bufs_sub .., nullary_bufs_sub .., unary_bufs_sub .., binary_bufs_sub .., nary_bufs_sub ..,
    unary_bufs_sub .., binary_bufs_sub .., unary_bufs_sub .., unary_bufs_sub .., binary_bufs_sub ..⟩

set_option maxRecDepth 8192 in
set_option maxHeartbeats 2000000 in
/-- On every device, for any float values, from any memory with zero counters: every weakly fair execution of
    @main terminates with the result buffer at the composed term of the argument arrays, the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v18) = refTerm (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg5)) (m ((c.tc : Thread nD τ).loc main_arg6))
          (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v18).trans (val_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_seq scopedRefs_eq scopedSems_eq defs main (fun _ => ops) main_eq (fun _ => ops_sub) m ρ)

/-- The reference runs and its argument arrays end unchanged. -/
theorem frame_ri [Cert.Pre_input_domain.Facts] : Cert.frame_ReferenceIdeal :=
  fun m g _ => (θ_run _ _ _).mono (fun _ h c => (h c).2) (run (F := Ideal) m g)

end Cert.Proof.RefRun

end
-- ==== Proof.Spec.lean ====
/-
  The specification: the result of the edge-feature computation as pure functions of the
  argument arrays, index by index, over literal shapes, at the ideal instance (every float an
  extended real, every operation exact).

    h[n, j]    = (∑ k < 128, x[n, k] * W1[j, k]) + b1[j]
    xem[e, j]  = max (h[src e, j] + h[dst e, j]) 0
    out[e, j]  = (∑ k < 148, feats[e, k] * W2[j, k]) + b2[j],   feats = xem ‖ ea ‖ ef along axis 1

  and the same result with the contraction split by the three blocks of feats.
-/
import Idealize.ShloMosaic.PureOps.Ideal
import Idealize.ShloMosaic.Lib.ValueIdx

noncomputable section

open scoped BigOperators

namespace Cert.Proof.Spec

open Idealize.ShloMosaic Idealize.ShloMosaic.ValueIdx

/-- The row a 32-bit index word selects among 10000 rows: its unsigned value, clamped to the last row. -/
def rowOf (w : BitVec 32) : Fin 10000 := ⟨min w.toNat 9999, by omega⟩

theorem rowOf_val (w : BitVec 32) (h : w.toNat < 10000) : (rowOf w).val = w.toNat := by
  show min w.toNat 9999 = w.toNat
  omega

/-- Source row of edge e: entry [0, e] of the index array. -/
def src (ei : (⟨2, ![2, 320000]⟩ : Shape).Idx → BitVec 32) (e : Fin 320000) : Fin 10000 :=
  rowOf (ei (ix2 (0 : Fin 2) e))

/-- Destination row of edge e: entry [1, e] of the index array. -/
def dst (ei : (⟨2, ![2, 320000]⟩ : Shape).Idx → BitVec 32) (e : Fin 320000) : Fin 10000 :=
  rowOf (ei (ix2 (1 : Fin 2) e))

/-- h[n, j] = (∑ k, x[n, k] * W1[j, k]) + b1[j]. -/
def nodeHAt (x : (⟨2, ![10000, 128]⟩ : Shape).Idx → EReal) (W1 : (⟨2, ![128, 128]⟩ : Shape).Idx → EReal)
    (b1 : (⟨1, ![128]⟩ : Shape).Idx → EReal) (n : Fin 10000) (j : Fin 128) : EReal :=
  (∑ k : Fin 128, x (ix2 n k) * W1 (ix2 j k)) + b1 (ix1 j)

def nodeH (x : (⟨2, ![10000, 128]⟩ : Shape).Idx → EReal) (W1 : (⟨2, ![128, 128]⟩ : Shape).Idx → EReal)
    (b1 : (⟨1, ![128]⟩ : Shape).Idx → EReal) : (⟨2, ![10000, 128]⟩ : Shape).Idx → EReal :=
  fun i => nodeHAt x W1 b1 (i 0) (i 1)

theorem nodeH_ix2 (x : (⟨2, ![10000, 128]⟩ : Shape).Idx → EReal) (W1 : (⟨2, ![128, 128]⟩ : Shape).Idx → EReal)
    (b1 : (⟨1, ![128]⟩ : Shape).Idx → EReal) (n : Fin 10000) (j : Fin 128) :
    nodeH x W1 b1 (ix2 n j) = nodeHAt x W1 b1 n j := rfl

/-- xem[e, j] = max (h[src e, j] + h[dst e, j]) 0. -/
def edgeReluAt (h : (⟨2, ![10000, 128]⟩ : Shape).Idx → EReal) (ei : (⟨2, ![2, 320000]⟩ : Shape).Idx → BitVec 32)
    (e : Fin 320000) (j : Fin 128) : EReal :=
  max (h (ix2 (src ei e) j) + h (ix2 (dst ei e) j)) 0

def edgeRelu (h : (⟨2, ![10000, 128]⟩ : Shape).Idx → EReal) (ei : (⟨2, ![2, 320000]⟩ : Shape).Idx → BitVec 32) :
    (⟨2, ![320000, 128]⟩ : Shape).Idx → EReal :=
  fun i => edgeReluAt h ei (i 0) (i 1)

theorem edgeRelu_ix2 (h : (⟨2, ![10000, 128]⟩ : Shape).Idx → EReal) (ei : (⟨2, ![2, 320000]⟩ : Shape).Idx → BitVec 32)
    (e : Fin 320000) (j : Fin 128) : edgeRelu h ei (ix2 e j) = edgeReluAt h ei e j := rfl

/-- The concatenated features along axis 1: columns 0..127 from xem, 128..143 from ea, 144..147 from ef. -/
def feats (xem : (⟨2, ![320000, 128]⟩ : Shape).Idx → EReal) (ea : (⟨2, ![320000, 16]⟩ : Shape).Idx → EReal)
    (ef : (⟨2, ![320000, 4]⟩ : Shape).Idx → EReal) (e : Fin 320000) (k : Fin 148) : EReal :=
  if h1 : k.val < 128 then xem (ix2 e (⟨k.val, h1⟩ : Fin 128))
  else if h2 : k.val < 144 then ea (ix2 e (⟨k.val - 128, by omega⟩ : Fin 16))
  else ef (ix2 e (⟨k.val - 144, by omega⟩ : Fin 4))

/-- out[e, j] in the one-contraction grouping: (∑ k < 148, feats[e, k] * W2[j, k]) + b2[j]. -/
def edgeOutAt (xem : (⟨2, ![320000, 128]⟩ : Shape).Idx → EReal) (ea : (⟨2, ![320000, 16]⟩ : Shape).Idx → EReal)
    (ef : (⟨2, ![320000, 4]⟩ : Shape).Idx → EReal) (W2 : (⟨2, ![128, 148]⟩ : Shape).Idx → EReal)
    (b2 : (⟨1, ![128]⟩ : Shape).Idx → EReal) (e : Fin 320000) (j : Fin 128) : EReal :=
  (∑ k : Fin 148, feats xem ea ef e k * W2 (ix2 j k)) + b2 (ix1 j)

def edgeOut (xem : (⟨2, ![320000, 128]⟩ : Shape).Idx → EReal) (ea : (⟨2, ![320000, 16]⟩ : Shape).Idx → EReal)
    (ef : (⟨2, ![320000, 4]⟩ : Shape).Idx → EReal) (W2 : (⟨2, ![128, 148]⟩ : Shape).Idx → EReal)
    (b2 : (⟨1, ![128]⟩ : Shape).Idx → EReal) : (⟨2, ![320000, 128]⟩ : Shape).Idx → EReal :=
  fun i => edgeOutAt xem ea ef W2 b2 (i 0) (i 1)

theorem edgeOut_ix2 (xem : (⟨2, ![320000, 128]⟩ : Shape).Idx → EReal) (ea : (⟨2, ![320000, 16]⟩ : Shape).Idx → EReal)
    (ef : (⟨2, ![320000, 4]⟩ : Shape).Idx → EReal) (W2 : (⟨2, ![128, 148]⟩ : Shape).Idx → EReal)
    (b2 : (⟨1, ![128]⟩ : Shape).Idx → EReal) (e : Fin 320000) (j : Fin 128) :
    edgeOut xem ea ef W2 b2 (ix2 e j) = edgeOutAt xem ea ef W2 b2 e j := rfl

/-- out[e, j] in the three-block grouping:
    (((∑ k < 128, xem[e,k] * W2[j,k]) + (∑ k < 16, ea[e,k] * W2[j,128+k])) + (∑ k < 4, ef[e,k] * W2[j,144+k])) + b2[j]. -/
def edgeOutSplitAt (xem : (⟨2, ![320000, 128]⟩ : Shape).Idx → EReal) (ea : (⟨2, ![320000, 16]⟩ : Shape).Idx → EReal)
    (ef : (⟨2, ![320000, 4]⟩ : Shape).Idx → EReal) (W2 : (⟨2, ![128, 148]⟩ : Shape).Idx → EReal)
    (b2 : (⟨1, ![128]⟩ : Shape).Idx → EReal) (e : Fin 320000) (j : Fin 128) : EReal :=
  (((∑ k : Fin 128, xem (ix2 e k) * W2 (ix2 j (⟨k.val, by omega⟩ : Fin 148)))
      + (∑ k : Fin 16, ea (ix2 e k) * W2 (ix2 j (⟨128 + k.val, by omega⟩ : Fin 148))))
      + (∑ k : Fin 4, ef (ix2 e k) * W2 (ix2 j (⟨144 + k.val, by omega⟩ : Fin 148))))
    + b2 (ix1 j)

def edgeOutSplit (xem : (⟨2, ![320000, 128]⟩ : Shape).Idx → EReal) (ea : (⟨2, ![320000, 16]⟩ : Shape).Idx → EReal)
    (ef : (⟨2, ![320000, 4]⟩ : Shape).Idx → EReal) (W2 : (⟨2, ![128, 148]⟩ : Shape).Idx → EReal)
    (b2 : (⟨1, ![128]⟩ : Shape).Idx → EReal) : (⟨2, ![320000, 128]⟩ : Shape).Idx → EReal :=
  fun i => edgeOutSplitAt xem ea ef W2 b2 (i 0) (i 1)

theorem edgeOutSplit_ix2 (xem : (⟨2, ![320000, 128]⟩ : Shape).Idx → EReal) (ea : (⟨2, ![320000, 16]⟩ : Shape).Idx → EReal)
    (ef : (⟨2, ![320000, 4]⟩ : Shape).Idx → EReal) (W2 : (⟨2, ![128, 148]⟩ : Shape).Idx → EReal)
    (b2 : (⟨1, ![128]⟩ : Shape).Idx → EReal) (e : Fin 320000) (j : Fin 128) :
    edgeOutSplit xem ea ef W2 b2 (ix2 e j) = edgeOutSplitAt xem ea ef W2 b2 e j := rfl

/-- A sum over 148 positions is the sum of its first 128, next 16 and last 4 (commutative monoid: no
    finiteness needed). -/
theorem sum_split3 {M : Type*} [AddCommMonoid M] (f : Fin 148 → M) :
    ∑ k : Fin 148, f k
      = ((∑ k : Fin 128, f (⟨k.val, by omega⟩ : Fin 148)) + ∑ k : Fin 16, f (⟨128 + k.val, by omega⟩ : Fin 148))
        + ∑ k : Fin 4, f (⟨144 + k.val, by omega⟩ : Fin 148) := by
  have h1 : ∑ k : Fin 148, f k
      = (∑ i : Fin 144, f (Fin.castAdd 4 i)) + ∑ i : Fin 4, f (Fin.natAdd 144 i) :=
    Fin.sum_univ_add (a := 144) (b := 4) f
  have h2 : ∑ i : Fin 144, f (Fin.castAdd 4 i)
      = (∑ i : Fin 128, f (Fin.castAdd 4 (Fin.castAdd 16 i))) + ∑ i : Fin 16, f (Fin.castAdd 4 (Fin.natAdd 128 i)) :=
    Fin.sum_univ_add (a := 128) (b := 16) (fun i => f (Fin.castAdd 4 i))
  rw [h1, h2]
  rfl

theorem feats_lo (xem : (⟨2, ![320000, 128]⟩ : Shape).Idx → EReal) (ea : (⟨2, ![320000, 16]⟩ : Shape).Idx → EReal)
    (ef : (⟨2, ![320000, 4]⟩ : Shape).Idx → EReal) (e : Fin 320000) (k : Fin 128) :
    feats xem ea ef e (⟨k.val, by omega⟩ : Fin 148) = xem (ix2 e k) := by
  unfold feats
  rw [dif_pos k.isLt]

theorem feats_mid (xem : (⟨2, ![320000, 128]⟩ : Shape).Idx → EReal) (ea : (⟨2, ![320000, 16]⟩ : Shape).Idx → EReal)
    (ef : (⟨2, ![320000, 4]⟩ : Shape).Idx → EReal) (e : Fin 320000) (k : Fin 16) :
    feats xem ea ef e (⟨128 + k.val, by omega⟩ : Fin 148) = ea (ix2 e k) := by
  unfold feats
  rw [dif_neg (by show ¬ (128 + k.val < 128); omega), dif_pos (by show 128 + k.val < 144; omega)]
  congr 2
  exact Fin.ext (by show 128 + k.val - 128 = k.val; omega)

theorem feats_hi (xem : (⟨2, ![320000, 128]⟩ : Shape).Idx → EReal) (ea : (⟨2, ![320000, 16]⟩ : Shape).Idx → EReal)
    (ef : (⟨2, ![320000, 4]⟩ : Shape).Idx → EReal) (e : Fin 320000) (k : Fin 4) :
    feats xem ea ef e (⟨144 + k.val, by omega⟩ : Fin 148) = ef (ix2 e k) := by
  unfold feats
  rw [dif_neg (by show ¬ (144 + k.val < 128); omega), dif_neg (by show ¬ (144 + k.val < 144); omega)]
  congr 2
  exact Fin.ext (by show 144 + k.val - 144 = k.val; omega)

theorem edgeOutAt_eq_splitAt (xem : (⟨2, ![320000, 128]⟩ : Shape).Idx → EReal) (ea : (⟨2, ![320000, 16]⟩ : Shape).Idx → EReal)
    (ef : (⟨2, ![320000, 4]⟩ : Shape).Idx → EReal) (W2 : (⟨2, ![128, 148]⟩ : Shape).Idx → EReal)
    (b2 : (⟨1, ![128]⟩ : Shape).Idx → EReal) (e : Fin 320000) (j : Fin 128) :
    edgeOutAt xem ea ef W2 b2 e j = edgeOutSplitAt xem ea ef W2 b2 e j := by
  unfold edgeOutAt edgeOutSplitAt
  rw [sum_split3]
  simp only [feats_lo, feats_mid, feats_hi]

/-- The two groupings agree: only commutativity and associativity of addition are used. -/
theorem edgeOut_eq_split (xem : (⟨2, ![320000, 128]⟩ : Shape).Idx → EReal) (ea : (⟨2, ![320000, 16]⟩ : Shape).Idx → EReal)
    (ef : (⟨2, ![320000, 4]⟩ : Shape).Idx → EReal) (W2 : (⟨2, ![128, 148]⟩ : Shape).Idx → EReal)
    (b2 : (⟨1, ![128]⟩ : Shape).Idx → EReal) :
    edgeOut xem ea ef W2 b2 = edgeOutSplit xem ea ef W2 b2 := by
  funext i
  exact edgeOutAt_eq_splitAt xem ea ef W2 b2 (i 0) (i 1)

end Cert.Proof.Spec

end
-- ==== Proof.PreIdx.lean ====
/-
  The index range, read back from the input-domain predicate: when the predicate holds (its one
  word is 1), every entry of the [2, 320000] index array, read as a signed integer, lies in 0 … 9999.
  The predicate is a conjunction of all-reductions; the index conjunct is the all-reduction of
  (0 ≤ entry) ∧ (entry ≤ 9999) over the whole array. Generic in the float instance.
-/
import proofs.«206094_g687194767628_cont_sun_c4_81_43_alg».proof.Pre_input_domain
import Idealize.ShloMosaic.Lib.ReduceAll
import Idealize.ShloMosaic.Lib.ValueIdx

noncomputable section

namespace Cert.Proof.PreIdx

open Idealize.ShloMosaic Cert.Pre_input_domain

/-- The rank-0 shape has one index. -/
instance : Subsingleton (Cert.Pre_input_domain.S_).Idx := ⟨fun a b => funext fun d => d.elim0⟩

/-- A conjunction of vectors read at an index. -/
theorem andi_apply {s : Shape} {w : Nat} (x y : IVec s w) (i : s.Idx) : andi x y i = IntOp.andi (x i) (y i) := rfl
/-- A comparison of vectors read at an index. -/
theorem cmpi_apply {s : Shape} {w : Nat} (p : CmpIPredicate) (x y : IVec s w) (i : s.Idx) :
    cmpi p x y i = IntOp.cmpi p (x i) (y i) := rfl

theorem toInt_zero32 : (0#32 : BitVec 32).toInt = 0 := by decide
theorem toInt_9999 : (9999#32 : BitVec 32).toInt = 9999 := by decide

variable [Cert.Pre_input_domain.Facts] {F : FTy → Type} [FloatOps F]

/-- From the predicate: every index entry is in 0 … 9999, read signed. -/
theorem idx_range (a0 : FVec F S10000x128 .f32) (a1 : IVec S2x320000 32) (a2 : FVec F S320000x4 .f32)
    (a3 : FVec F S320000x16 .f32) (a4 : IVec S_ 32) (a5 : FVec F S128x128 .f32) (a6 : FVec F S128 .f32)
    (a7 : FVec F S128x148 .f32) (a8 : FVec F S128 .f32)
    (h : Cert.Pre_input_domain.fn (F := F) a0 a1 a2 a3 a4 a5 a6 a7 a8 = (fun _ => 1#1))
    (i : (⟨2, ![2, 320000]⟩ : Shape).Idx) : 0 ≤ (a1 i).toInt ∧ (a1 i).toInt ≤ 9999 := by
  have e := congrFun h ValueIdx.ix0
  dsimp only [fn, fn_part1, fn_part2] at e
  rw [andi_apply, andi_apply] at e
  obtain ⟨e1, -⟩ := IntOp.andi_eq_one.1 e
  obtain ⟨-, e39⟩ := IntOp.andi_eq_one.1 e1
  have hi := Host.reduce_andi_all _ _ _ _ _ e39 i
  rw [andi_apply, cmpi_apply, cmpi_apply] at hi
  obtain ⟨hge, hle⟩ := IntOp.andi_eq_one.1 hi
  have h0 := IntOp.cmpi_sge.1 hge
  have h9 := IntOp.cmpi_sle.1 hle
  change (0#32 : BitVec 32).toInt ≤ (a1 i).toInt at h0
  change (a1 i).toInt ≤ (9999#32 : BitVec 32).toInt at h9
  rw [toInt_zero32] at h0
  rw [toInt_9999] at h9
  exact ⟨h0, h9⟩

/-- A word in 0 … 9999 read signed is below 10000 read unsigned. -/
theorem toNat_lt_of_range (w : BitVec 32) (h0 : 0 ≤ w.toInt) (h9 : w.toInt ≤ 9999) : w.toNat < 10000 := by
  have h32 := w.isLt
  rw [BitVec.toInt_eq_toNat_cond] at h0 h9
  split at h0 <;> omega

/-- The unsigned corollary: every index entry is below 10000. -/
theorem idx_lt (a0 : FVec F S10000x128 .f32) (a1 : IVec S2x320000 32) (a2 : FVec F S320000x4 .f32)
    (a3 : FVec F S320000x16 .f32) (a4 : IVec S_ 32) (a5 : FVec F S128x128 .f32) (a6 : FVec F S128 .f32)
    (a7 : FVec F S128x148 .f32) (a8 : FVec F S128 .f32)
    (h : Cert.Pre_input_domain.fn (F := F) a0 a1 a2 a3 a4 a5 a6 a7 a8 = (fun _ => 1#1))
    (i : (⟨2, ![2, 320000]⟩ : Shape).Idx) : (a1 i).toNat < 10000 :=
  toNat_lt_of_range _ (idx_range a0 a1 a2 a3 a4 a5 a6 a7 a8 h i).1 (idx_range a0 a1 a2 a3 a4 a5 a6 a7 a8 h i).2

end Cert.Proof.PreIdx

end
-- ==== Proof.RefValue.lean ====
/-
  The reference's composed term is the specification: under the index range (every entry of the
  [2, 320000] index array, read signed, in 0 … 9999) the run's result equals
  edgeOut (edgeRelu (nodeH x W1 b1) ei) ea ef W2 b2, index by index. Each operation is read at a
  symbolic index: the two products by the contraction sum re-indexed over its one coordinate, the
  row gather by the operand index of its dimension numbers, the index normalisation and the range
  test collapsing under the range hypothesis, the concatenation piece by piece.
-/
import proofs.«206094_g687194767628_cont_sun_c4_81_43_alg».proof.Proof.RefRun
import proofs.«206094_g687194767628_cont_sun_c4_81_43_alg».proof.Proof.Spec
import proofs.«206094_g687194767628_cont_sun_c4_81_43_alg».proof.Proof.PreIdx
import Idealize.ShloMosaic.Lib.ValueLayout
import Idealize.ShloMosaic.Lib.IdealHost
import Idealize.ShloMosaic.Lib.DynamicIndex
import Idealize.ShloMosaic.Lib.ReduceAll
import Idealize.ShloMosaic.PureOps.Ideal.Laws

noncomputable section

open scoped BigOperators

namespace Cert.Proof.RefValue

open Cert.ReferenceIdeal Cert.Proof.RefRun Idealize.ShloMosaic Idealize.ShloMosaic.ValueIdx
open Cert.ReferenceIdeal.Facts₀ Cert.ReferenceIdeal.Facts

variable [Cert.ReferenceIdeal.Facts]

/-! ## The index rows -/

theorem rowIdx0_apply (ei : IVec S2x320000 32) (e : Fin 320000) : rowIdx0 ei (ix1 e) = ei (ix2 (0 : Fin 2) e) := by
  unfold rowIdx0
  rw [shapeCast_1a_a_apply, slice2_axis0_apply 0 ei _ (0 : Fin 1) e (0 : Fin 2) rfl]

theorem rowIdx1_apply (ei : IVec S2x320000 32) (e : Fin 320000) : rowIdx1 ei (ix1 e) = ei (ix2 (1 : Fin 2) e) := by
  unfold rowIdx1
  rw [shapeCast_1a_a_apply, slice2_axis0_apply 1 ei _ (0 : Fin 1) e (1 : Fin 2) rfl]

/-! ## The index normalisation and the range test, under the range hypothesis -/

theorem wrapIdx_apply (i : IVec S320000 32) (j : S320000.Idx) (h : 0 ≤ (i j).toInt) : wrapIdx i j = i j := by
  unfold wrapIdx
  exact select_slt_zero_of_nonneg i _ _ j h

theorem colIdx_apply (i : IVec S320000 32) (e : Fin 320000) : colIdx i (ix2 e (0 : Fin 1)) = wrapIdx i (ix1 e) := by
  unfold colIdx
  exact broadcastInDim_apply _ _ _ _ (ix1 e) (fun a => match a with | ⟨0, _⟩ => rfl)

/-- A left fold by conjunction over words that are all 1, from 1, is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_ones f l (fun n hn => h n (List.mem_cons_of_mem _ hn))

/-- A reduction by conjunction of an array of ones, from 1, is 1 everywhere. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1)
    (hi : init (Shape.Idx.first hu) = 1#1) : Host.reduce IntOp.andi x init h hu j = 1#1 := by
  rw [Host.reduce_eq_foldl, hi]
  exact foldl_andi_ones x _ (fun n _ => hx n)

theorem toInt_zero32 : (0#32 : BitVec 32).toInt = 0 := by decide
theorem toInt_9999 : (9999#32 : BitVec 32).toInt = 9999 := by decide

theorem inRange_apply (c : IVec S320000x1 32) (hc : ∀ i, 0 ≤ (c i).toInt ∧ (c i).toInt ≤ 9999) (j : S320000.Idx) :
    inRange c j = 1#1 := by
  unfold inRange
  refine reduce_andi_ones _ _ _ _ j (fun i => ?_) rfl
  show IntOp.andi (IntOp.cmpi .sge (c i) 0#32) (IntOp.cmpi .sle (c i) 9999#32) = 1#1
  rw [IntOp.andi_eq_one, IntOp.cmpi_sge, IntOp.cmpi_sle, toInt_zero32, toInt_9999]
  exact hc i

/-! ## The row gather at an index -/

theorem gather_apply {α : Type} (h : S10000x128.Idx → α) (c : IVec S320000x1 32) (e : Fin 320000) (j : Fin 128) :
    Host.gather gather_S10000x128_S320000x1_S320000x128_1_0_n_n_0_1_1128 h c (ix2 e j)
      = h (ix2 (⟨min (c (ix2 e (0 : Fin 1))).toInt.toNat 9999, by omega⟩ : Fin 10000) j) := by
  unfold Host.gather
  congr 1
  funext a
  refine Fin.ext ?_
  match a with
  | ⟨0, _⟩ =>
    show gather_S10000x128_S320000x1_S320000x128_1_0_n_n_0_1_1128.start (ix2 e j) c 0
        + gather_S10000x128_S320000x1_S320000x128_1_0_n_n_0_1_1128.batchCoord (ix2 e j) 0
        + gather_S10000x128_S320000x1_S320000x128_1_0_n_n_0_1_1128.offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x128_S320000x1_S320000x128_1_0_n_n_0_1_1128.startIndexMap from
      List.mem_singleton.mpr rfl)]
    have hsi : gather_S10000x128_S320000x1_S320000x128_1_0_n_n_0_1_1128.siIdx (ix2 e j)
        ⟨List.idxOf (0 : Fin 2) gather_S10000x128_S320000x1_S320000x128_1_0_n_n_0_1_1128.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S10000x128_S320000x1_S320000x128_1_0_n_n_0_1_1128.start (ix2 e j) c 1
        + gather_S10000x128_S320000x1_S320000x128_1_0_n_n_0_1_1128.batchCoord (ix2 e j) 1
        + gather_S10000x128_S320000x1_S320000x128_1_0_n_n_0_1_1128.offCoord (ix2 e j) 1 = j.val
    rw [GatherDims.batchCoord_eq_zero _ _ _ List.not_mem_nil]
    unfold GatherDims.start
    rw [dif_neg (show (1 : Fin 2) ∉ gather_S10000x128_S320000x1_S320000x128_1_0_n_n_0_1_1128.startIndexMap from by decide)]
    unfold GatherDims.offCoord
    rw [dif_pos (show (1 : Fin 2) ∈ gather_S10000x128_S320000x1_S320000x128_1_0_n_n_0_1_1128.sKept from by decide)]
    have hk : ∀ hp : List.idxOf (1 : Fin 2) gather_S10000x128_S320000x1_S320000x128_1_0_n_n_0_1_1128.sKept
          < gather_S10000x128_S320000x1_S320000x128_1_0_n_n_0_1_1128.offsetDims.length,
        gather_S10000x128_S320000x1_S320000x128_1_0_n_n_0_1_1128.offsetDims[List.idxOf (1 : Fin 2)
          gather_S10000x128_S320000x1_S320000x128_1_0_n_n_0_1_1128.sKept]'hp = (1 : Fin 2) := by decide
    rw [hk]
    show 0 + 0 + j.val = j.val
    omega

/-- A word in 0 … 9999 read signed: its signed value clamped is its unsigned value clamped. -/
theorem clamp_eq (w : BitVec 32) (h0 : 0 ≤ w.toInt) : min w.toInt.toNat 9999 = min w.toNat 9999 := by
  have h32 := w.isLt
  rw [BitVec.toInt_eq_toNat_cond] at h0 ⊢
  split at h0 <;> rename_i hlt
  · rw [if_pos hlt]; simp
  · omega

theorem takeTerm_apply (h : (⟨S10000x128, .f32⟩ : BufTy).Contents (Elt Ideal)) (i : IVec S320000 32)
    (hi : ∀ k, 0 ≤ (i k).toInt ∧ (i k).toInt ≤ 9999) (e : Fin 320000) (j : Fin 128) :
    takeTerm (F := Ideal) h i (ix2 e j) = h (ix2 (Spec.rowOf (i (ix1 e))) j) := by
  have hcol : ∀ p : Fin 320000, colIdx i (ix2 p (0 : Fin 1)) = i (ix1 p) := fun p => by
    rw [colIdx_apply, wrapIdx_apply _ _ (hi _).1]
  have hc : ∀ k, 0 ≤ (colIdx i k).toInt ∧ (colIdx i k).toInt ≤ 9999 := by
    intro k
    obtain ⟨p, q, rfl⟩ : ∃ (p : Fin 320000) (q : Fin 1), k = ix2 p q := ⟨k 0, k 1, eq_ix2 k⟩
    obtain rfl : q = 0 := Subsingleton.elim _ _
    rw [hcol]; exact hi _
  unfold takeTerm
  rw [select_apply, broadcastInDim_apply _ _ _ (ix2 e j) (ix1 e) (fun a => match a with | ⟨0, _⟩ => rfl),
    inRange_apply _ hc, select_one, gather_apply]
  congr 1
  funext a
  match a with
  | ⟨0, _⟩ =>
    refine Fin.ext ?_
    show min (colIdx i (ix2 e (0 : Fin 1))).toInt.toNat 9999 = min (i (ix1 e)).toNat 9999
    rw [hcol]
    exact clamp_eq _ (hi _).1
  | ⟨1, _⟩ => rfl

/-! ## The two products with their biases -/

theorem hTerm_apply (x : (⟨S10000x128, .f32⟩ : BufTy).Contents (Elt Ideal)) (W1 : (⟨S128x128, .f32⟩ : BufTy).Contents (Elt Ideal))
    (b1 : (⟨S128, .f32⟩ : BufTy).Contents (Elt Ideal)) (n : Fin 10000) (j : Fin 128) :
    hTerm (F := Ideal) x W1 b1 (ix2 n j) = Spec.nodeHAt x W1 b1 n j := by
  unfold hTerm Spec.nodeHAt
  rw [addf_apply]
  congr 1
  · dsimp only [Host.dotGeneral]
    rw [Ideal.dotGeneral_apply]
    refine ((contrEquiv1 dot_S10000x128_S128x128_S10000x128_1_0_0_1_n_n 128 rfl rfl).symm.sum_comp _).symm.trans ?_
    refine Finset.sum_congr rfl fun k _ => ?_
    have hl : dot_S10000x128_S128x128_S10000x128_1_0_0_1_n_n.lhsIdx (ix2 n j)
        ((contrEquiv1 dot_S10000x128_S128x128_S10000x128_1_0_0_1_n_n 128 rfl rfl).symm k) = ix2 n k := by
      funext a; refine Fin.ext ?_
      match a with
      | ⟨0, _⟩ => rfl
      | ⟨1, _⟩ => exact contrEquiv1_symm_val dot_S10000x128_S128x128_S10000x128_1_0_0_1_n_n 128 rfl rfl k
    have hr : dot_S10000x128_S128x128_S10000x128_1_0_0_1_n_n.rhsIdx (ix2 n j)
        ((contrEquiv1 dot_S10000x128_S128x128_S10000x128_1_0_0_1_n_n 128 rfl rfl).symm k) = ix2 k j := by
      funext a; refine Fin.ext ?_
      match a with
      | ⟨0, _⟩ => exact contrEquiv1_symm_val dot_S10000x128_S128x128_S10000x128_1_0_0_1_n_n 128 rfl rfl k
      | ⟨1, _⟩ => rfl
    rw [hl, hr, transpose_ix2_apply]
  · rw [broadcastInDim_apply _ _ _ (ix2 n j) (ix2 (0 : Fin 1) j) (fun a => match a with | ⟨0, _⟩ => rfl | ⟨1, _⟩ => rfl),
      broadcastInDim_apply _ _ _ (ix2 (0 : Fin 1) j) (ix1 j) (fun a => match a with | ⟨0, _⟩ => rfl)]

theorem outTerm_apply (feats : (⟨S320000x148, .f32⟩ : BufTy).Contents (Elt Ideal)) (W2 : (⟨S128x148, .f32⟩ : BufTy).Contents (Elt Ideal))
    (b2 : (⟨S128, .f32⟩ : BufTy).Contents (Elt Ideal)) (e : Fin 320000) (j : Fin 128) :
    outTerm (F := Ideal) feats W2 b2 (ix2 e j) = (∑ k : Fin 148, feats (ix2 e k) * W2 (ix2 j k)) + b2 (ix1 j) := by
  unfold outTerm
  rw [addf_apply]
  congr 1
  · dsimp only [Host.dotGeneral]
    rw [Ideal.dotGeneral_apply]
    refine ((contrEquiv1 dot_S320000x148_S148x128_S320000x128_1_0_0_1_n_n 148 rfl rfl).symm.sum_comp _).symm.trans ?_
    refine Finset.sum_congr rfl fun k _ => ?_
    have hl : dot_S320000x148_S148x128_S320000x128_1_0_0_1_n_n.lhsIdx (ix2 e j)
        ((contrEquiv1 dot_S320000x148_S148x128_S320000x128_1_0_0_1_n_n 148 rfl rfl).symm k) = ix2 e k := by
      funext a; refine Fin.ext ?_
      match a with
      | ⟨0, _⟩ => rfl
      | ⟨1, _⟩ => exact contrEquiv1_symm_val dot_S320000x148_S148x128_S320000x128_1_0_0_1_n_n 148 rfl rfl k
    have hr : dot_S320000x148_S148x128_S320000x128_1_0_0_1_n_n.rhsIdx (ix2 e j)
        ((contrEquiv1 dot_S320000x148_S148x128_S320000x128_1_0_0_1_n_n 148 rfl rfl).symm k) = ix2 k j := by
      funext a; refine Fin.ext ?_
      match a with
      | ⟨0, _⟩ => exact contrEquiv1_symm_val dot_S320000x148_S148x128_S320000x128_1_0_0_1_n_n 148 rfl rfl k
      | ⟨1, _⟩ => rfl
    rw [hl, hr, transpose_ix2_apply]
  · rw [broadcastInDim_apply _ _ _ (ix2 e j) (ix2 (0 : Fin 1) j) (fun a => match a with | ⟨0, _⟩ => rfl | ⟨1, _⟩ => rfl),
      broadcastInDim_apply _ _ _ (ix2 (0 : Fin 1) j) (ix1 j) (fun a => match a with | ⟨0, _⟩ => rfl)]

/-! ## The maximum with zero, the concatenation -/

theorem reluTerm_apply (a : (⟨S320000x128, .f32⟩ : BufTy).Contents (Elt Ideal)) (i : S320000x128.Idx) :
    reluTerm (F := Ideal) a i = max (a i) 0 := by
  unfold reluTerm
  rw [maximumf_apply, broadcastInDim_scalar_apply, constant_apply, Ideal.ofBits_zero_f32]

theorem featsTerm_apply (xem : (⟨S320000x128, .f32⟩ : BufTy).Contents (Elt Ideal)) (ea : (⟨S320000x16, .f32⟩ : BufTy).Contents (Elt Ideal))
    (ef : (⟨S320000x4, .f32⟩ : BufTy).Contents (Elt Ideal)) (e : Fin 320000) (k : Fin 148) :
    featsTerm (F := Ideal) xem ea ef (ix2 e k) = Spec.feats xem ea ef e k := by
  unfold featsTerm Spec.feats
  by_cases h1 : k.val < 128
  · rw [dif_pos h1]
    exact concatenate_apply_piece 1 _ _ (ix2 e k) 0 (by show (0 : Nat) < 3; omega) S320000x128 xem rfl rfl 0 rfl
      (ix2 e (⟨k.val, h1⟩ : Fin 128))
      (fun b hb => match b with | ⟨0, _⟩ => rfl | ⟨1, _⟩ => absurd rfl hb)
      (by show 0 + k.val = k.val; omega)
  · rw [dif_neg h1]
    by_cases h2 : k.val < 144
    · rw [dif_pos h2]
      exact concatenate_apply_piece 1 _ _ (ix2 e k) 1 (by show (1 : Nat) < 3; omega) S320000x16 ea rfl rfl 128 rfl
        (ix2 e (⟨k.val - 128, by omega⟩ : Fin 16))
        (fun b hb => match b with | ⟨0, _⟩ => rfl | ⟨1, _⟩ => absurd rfl hb)
        (by show 128 + (k.val - 128) = k.val; omega)
    · rw [dif_neg h2]
      exact concatenate_apply_piece 1 _ _ (ix2 e k) 2 (by show (2 : Nat) < 3; omega) S320000x4 ef rfl rfl 144 rfl
        (ix2 e (⟨k.val - 144, by omega⟩ : Fin 4))
        (fun b hb => match b with | ⟨0, _⟩ => rfl | ⟨1, _⟩ => absurd rfl hb)
        (by show 144 + (k.val - 144) = k.val; have := k.isLt; omega)

/-! ## The reference is the specification -/

/-- The node projection is the specification's. -/
theorem hTerm_eq (x : (⟨S10000x128, .f32⟩ : BufTy).Contents (Elt Ideal)) (W1 : (⟨S128x128, .f32⟩ : BufTy).Contents (Elt Ideal))
    (b1 : (⟨S128, .f32⟩ : BufTy).Contents (Elt Ideal)) : hTerm (F := Ideal) x W1 b1 = Spec.nodeH x W1 b1 := by
  funext i
  obtain ⟨n, j, rfl⟩ : ∃ (n : Fin 10000) (j : Fin 128), i = ix2 n j := ⟨i 0, i 1, eq_ix2 i⟩
  rw [hTerm_apply, Spec.nodeH_ix2]

/-- The edge activations are the specification's, under the index range. -/
theorem xem_eq (h : (⟨S10000x128, .f32⟩ : BufTy).Contents (Elt Ideal)) (ei : IVec S2x320000 32)
    (hidx : ∀ i : (⟨2, ![2, 320000]⟩ : Shape).Idx, 0 ≤ (ei i).toInt ∧ (ei i).toInt ≤ 9999) :
    reluTerm (F := Ideal) (addf (F := Ideal) (s := S320000x128) (φ := .f32) (takeTerm (F := Ideal) h (rowIdx0 ei))
        (takeTerm (F := Ideal) h (rowIdx1 ei)))
      = Spec.edgeRelu h ei := by
  have h0 : ∀ k, 0 ≤ (rowIdx0 ei k).toInt ∧ (rowIdx0 ei k).toInt ≤ 9999 := fun k => by
    obtain ⟨p, rfl⟩ : ∃ p : Fin 320000, k = ix1 p := ⟨k 0, eq_ix1 k⟩
    rw [rowIdx0_apply]; exact hidx _
  have h1 : ∀ k, 0 ≤ (rowIdx1 ei k).toInt ∧ (rowIdx1 ei k).toInt ≤ 9999 := fun k => by
    obtain ⟨p, rfl⟩ : ∃ p : Fin 320000, k = ix1 p := ⟨k 0, eq_ix1 k⟩
    rw [rowIdx1_apply]; exact hidx _
  funext i
  obtain ⟨e, j, rfl⟩ : ∃ (e : Fin 320000) (j : Fin 128), i = ix2 e j := ⟨i 0, i 1, eq_ix2 i⟩
  rw [reluTerm_apply, addf_apply, takeTerm_apply h _ h0, takeTerm_apply h _ h1, rowIdx0_apply, rowIdx1_apply,
    Spec.edgeRelu_ix2]
  rfl

/-- THE REFERENCE'S VALUE: under the index range the composed term is the specification. -/
theorem refTerm_eq (x : (⟨S10000x128, .f32⟩ : BufTy).Contents (Elt Ideal)) (ei : IVec S2x320000 32)
    (ef : (⟨S320000x4, .f32⟩ : BufTy).Contents (Elt Ideal)) (ea : (⟨S320000x16, .f32⟩ : BufTy).Contents (Elt Ideal))
    (W1 : (⟨S128x128, .f32⟩ : BufTy).Contents (Elt Ideal)) (b1 : (⟨S128, .f32⟩ : BufTy).Contents (Elt Ideal))
    (W2 : (⟨S128x148, .f32⟩ : BufTy).Contents (Elt Ideal)) (b2 : (⟨S128, .f32⟩ : BufTy).Contents (Elt Ideal))
    (hidx : ∀ i : (⟨2, ![2, 320000]⟩ : Shape).Idx, 0 ≤ (ei i).toInt ∧ (ei i).toInt ≤ 9999) :
    refTerm (F := Ideal) x ei ef ea W1 b1 W2 b2
      = Spec.edgeOut (Spec.edgeRelu (Spec.nodeH x W1 b1) ei) ea ef W2 b2 := by
  unfold refTerm
  rw [xem_eq _ ei hidx, hTerm_eq]
  funext i
  obtain ⟨e, j, rfl⟩ : ∃ (e : Fin 320000) (j : Fin 128), i = ix2 e j := ⟨i 0, i 1, eq_ix2 i⟩
  rw [outTerm_apply, Spec.edgeOut_ix2]
  unfold Spec.edgeOutAt
  refine congrArg (fun s => s + b2 (ix1 j)) ?_
  exact Finset.sum_congr rfl fun k _ => by rw [featsTerm_apply]

/-! ## The run against the specification -/

open Idealize.SL.Sem in
/-- The reference's run with its result stated by the specification, from a memory whose index array is in
    range on every device. -/
theorem run_spec_of_idx (m : (ℓ : Loc nD τ sig) → Buf (Elt Ideal) ℓ) (ρ : Dev nD → PrngReg)
    (hidx : ∀ (c : Dev nD) (i : (⟨2, ![2, 320000]⟩ : Shape).Idx),
      0 ≤ (m ((c.tc : Thread nD τ).loc main_arg1) i).toInt ∧ (m ((c.tc : Thread nD τ).loc main_arg1) i).toInt ≤ 9999) :
    θ_run (defs (F := Ideal)) (onTc (τ := τ) (main (F := Ideal))) ⟨m, fun _ => 0, ρ⟩ fun r => ∀ c : Dev nD,
      r.2.mem ((c.tc : Thread nD τ).loc main_v18)
        = Spec.edgeOut (Spec.edgeRelu (Spec.nodeH (m ((c.tc : Thread nD τ).loc main_arg0)) (m ((c.tc : Thread nD τ).loc main_arg5)) (m ((c.tc : Thread nD τ).loc main_arg6))) (m ((c.tc : Thread nD τ).loc main_arg1)))
          (m ((c.tc : Thread nD τ).loc main_arg3)) (m ((c.tc : Thread nD τ).loc main_arg2)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run _ _ _).mono (fun _ h c => ⟨(h c).1.trans (refTerm_eq _ _ _ _ _ _ _ _ (hidx c)), (h c).2⟩)
    (Cert.Proof.RefRun.run (F := Ideal) m ρ)

open Idealize.SL.Sem in
/-- The same from the input-domain predicate. -/
theorem run_spec [Cert.Pre_input_domain.Facts] (m : (ℓ : Loc nD τ sig) → Buf (Elt Ideal) ℓ) (ρ : Dev nD → PrngReg)
    (hpre : Cert.Pre_ReferenceIdeal m) :
    θ_run (defs (F := Ideal)) (onTc (τ := τ) (main (F := Ideal))) ⟨m, fun _ => 0, ρ⟩ fun r => ∀ c : Dev nD,
      r.2.mem ((c.tc : Thread nD τ).loc main_v18)
        = Spec.edgeOut (Spec.edgeRelu (Spec.nodeH (m ((c.tc : Thread nD τ).loc main_arg0)) (m ((c.tc : Thread nD τ).loc main_arg5)) (m ((c.tc : Thread nD τ).loc main_arg6))) (m ((c.tc : Thread nD τ).loc main_arg1)))
          (m ((c.tc : Thread nD τ).loc main_arg3)) (m ((c.tc : Thread nD τ).loc main_arg2)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  run_spec_of_idx m ρ (fun c i => Cert.Proof.PreIdx.idx_range _ _ _ _ _ _ _ _ _ (hpre c) i)

end Cert.Proof.RefValue

end
-- ==== Proof.KernelValue.lean ====
/-
  The value of the program at the exact instance (every float an extended real, every operation exact): the
  contents of the TensorCore's arrays, carried stage by stage along @main from the launch contents, end with the
  result array at the specification's function of the arguments, index by index.
-/
import Idealize.ShloMosaic.Lib.Pipeline.Value
import Idealize.ShloMosaic.Lib.ValueLayout
import Idealize.ShloMosaic.PureOps.Ideal.Laws
import proofs.«206094_g687194767628_cont_sun_c4_81_43_alg».proof.Proof.Spec
import proofs.«206094_g687194767628_cont_sun_c4_81_43_alg».proof.Proof.OnKernelIdeal.TileRes
import proofs.«206094_g687194767628_cont_sun_c4_81_43_alg».proof.Proof.OnKernelIdeal.Launch
import proofs.«206094_g687194767628_cont_sun_c4_81_43_alg».proof.Proof.OnKernelIdeal.Chain

noncomputable section

open scoped BigOperators

namespace Cert.Proof.KernelValue

open Cert.KernelIdeal Cert.KernelIdeal.Gen
open Cert.Proof.OnKernelIdeal Cert.Proof.OnKernelIdeal.Chain

open Idealize.ShloMosaic Idealize.ShloMosaic.ValueIdx
open Idealize.ShloMosaic.StableHlo

/-- A TensorCore array's place among the device's buffers. -/
local notation:max "𝐫(" r ")" => (Proc.devRef (τ := τ) Proc.tc r : DevRef τ sig)

/-- A stage's contents: one valuation per device. -/
abbrev St : Type := Dev nD → Valuation τ sig (Elt Ideal)

/-! ## The arrays of a valuation at their literal types -/

abbrev a0 (V : Valuation τ sig (Elt Ideal)) : S10000x128.Idx → EReal := V 𝐫(main_arg0)
abbrev a1 (V : Valuation τ sig (Elt Ideal)) : S2x320000.Idx → BitVec 32 := V 𝐫(main_arg1)
abbrev a2 (V : Valuation τ sig (Elt Ideal)) : S320000x4.Idx → EReal := V 𝐫(main_arg2)
abbrev a3 (V : Valuation τ sig (Elt Ideal)) : S320000x16.Idx → EReal := V 𝐫(main_arg3)
abbrev a5 (V : Valuation τ sig (Elt Ideal)) : S128x128.Idx → EReal := V 𝐫(main_arg5)
abbrev a6 (V : Valuation τ sig (Elt Ideal)) : S128.Idx → EReal := V 𝐫(main_arg6)
abbrev a7 (V : Valuation τ sig (Elt Ideal)) : S128x148.Idx → EReal := V 𝐫(main_arg7)
abbrev a8 (V : Valuation τ sig (Elt Ideal)) : S128.Idx → EReal := V 𝐫(main_arg8)
abbrev v1 (V : Valuation τ sig (Elt Ideal)) : S320000.Idx → BitVec 32 := V 𝐫(main_v1)
abbrev v3 (V : Valuation τ sig (Elt Ideal)) : S320000.Idx → BitVec 32 := V 𝐫(main_v3)
abbrev v4 (V : Valuation τ sig (Elt Ideal)) : S128x128.Idx → EReal := V 𝐫(main_v4)
abbrev v5 (V : Valuation τ sig (Elt Ideal)) : S1x128.Idx → EReal := V 𝐫(main_v5)
abbrev v6 (V : Valuation τ sig (Elt Ideal)) : S10000x128.Idx → EReal := V 𝐫(main_v6)
abbrev v7 (V : Valuation τ sig (Elt Ideal)) : S32x125x80.Idx → BitVec 32 := V 𝐫(main_v7)
abbrev v8 (V : Valuation τ sig (Elt Ideal)) : S32x125x80.Idx → BitVec 32 := V 𝐫(main_v8)
abbrev v9 (V : Valuation τ sig (Elt Ideal)) : S320000x128.Idx → EReal := V 𝐫(main_v9)
abbrev v11 (V : Valuation τ sig (Elt Ideal)) : S128x128.Idx → EReal := V 𝐫(main_v11)
abbrev v12 (V : Valuation τ sig (Elt Ideal)) : S16x128.Idx → EReal := V 𝐫(main_v12)
abbrev v13 (V : Valuation τ sig (Elt Ideal)) : S4x128.Idx → EReal := V 𝐫(main_v13)
abbrev v14 (V : Valuation τ sig (Elt Ideal)) : S1x128.Idx → EReal := V 𝐫(main_v14)
abbrev v15 (V : Valuation τ sig (Elt Ideal)) : S320000x128.Idx → EReal := V 𝐫(main_v15)

/-! ## The host operations before the node projection, read at an index -/

theorem stA_v1 (W : St) (d : Dev nD) (e : Fin 320000) : v1 (stA W d) (ix1 e) = a1 (W d) (ix2 (0 : Fin 2) e) := by
  have h : v1 (stA W d) = shapeCast S320000 (extractStridedSlice S1x320000 ![0, 0] (a1 (W d)) slices_S2x320000_S1x320000_0_0) shapeCasts_S1x320000_S320000 := by
    dsimp only [v1, stA, Launch.opsA]; after_results; rfl
  rw [h]
  exact (shapeCast_1a_a_apply _ _ e).trans (slice2_axis0_apply 0 _ _ (0 : Fin 1) e (0 : Fin 2) rfl)

theorem stA_v3 (W : St) (d : Dev nD) (e : Fin 320000) : v3 (stA W d) (ix1 e) = a1 (W d) (ix2 (1 : Fin 2) e) := by
  have h : v3 (stA W d) = shapeCast S320000 (extractStridedSlice S1x320000 ![1, 0] (a1 (W d)) slices_S2x320000_S1x320000_1_0) shapeCasts_S1x320000_S320000 := by
    dsimp only [v3, stA, Launch.opsA]; after_results; rfl
  rw [h]
  exact (shapeCast_1a_a_apply _ _ e).trans (slice2_axis0_apply 1 _ _ (0 : Fin 1) e (1 : Fin 2) rfl)

theorem stA_v4 (W : St) (d : Dev nD) (k j : Fin 128) : v4 (stA W d) (ix2 k j) = a5 (W d) (ix2 j k) := by
  have h : v4 (stA W d) = transpose S128x128 [1, 0] (a5 (W d)) transposes_S128x128_S128x128_1_0 := by
    dsimp only [v4, stA, Launch.opsA]; after_results
  rw [h]
  exact transpose_ix2_apply _ _ k j

theorem stA_v5 (W : St) (d : Dev nD) (j : Fin 128) : v5 (stA W d) (ix2 (0 : Fin 1) j) = a6 (W d) (ix1 j) := by
  have h : v5 (stA W d) = shapeCast S1x128 (a6 (W d)) shapeCasts_S128_S1x128 := by
    dsimp only [v5, stA, Launch.opsA]; after_results; rfl
  rw [h]
  exact shapeCast_a_1a_apply _ _ (0 : Fin 1) j

/-! ## The host operations between the node projection and the gather, read at an index -/

theorem stB_v7 (W : St) (d : Dev nD) (w : Fin 32) (t : Fin 125) (r : Fin 80) (e : Fin 320000)
    (he : e.val = w.val * 10000 + t.val * 80 + r.val) : v7 (stB W d) (ix3 w t r) = v1 (W d) (ix1 e) := by
  have h : v7 (stB W d) = shapeCast S32x125x80 (v1 (W d)) shapeCasts_S320000_S32x125x80 := by
    dsimp only [v7, stB, Launch.opsB]; after_results; rfl
  rw [h]
  refine shapeCast_apply _ _ _ _ ?_
  rw [Shape.rowMajor_val_three, Shape.rowMajor_val_one]
  show e.val = (w.val * 125 + t.val) * 80 + r.val
  omega

theorem stB_v8 (W : St) (d : Dev nD) (w : Fin 32) (t : Fin 125) (r : Fin 80) (e : Fin 320000)
    (he : e.val = w.val * 10000 + t.val * 80 + r.val) : v8 (stB W d) (ix3 w t r) = v3 (W d) (ix1 e) := by
  have h : v8 (stB W d) = shapeCast S32x125x80 (v3 (W d)) shapeCasts_S320000_S32x125x80 := by
    dsimp only [v8, stB, Launch.opsB]; after_results; rfl
  rw [h]
  refine shapeCast_apply _ _ _ _ ?_
  rw [Shape.rowMajor_val_three, Shape.rowMajor_val_one]
  show e.val = (w.val * 125 + t.val) * 80 + r.val
  omega

/-! ## The host operations between the gather and the edge projection, read at an index -/

theorem stC_v11 (W : St) (d : Dev nD) (k j : Fin 128) :
    v11 (stC W d) (ix2 k j) = a7 (W d) (ix2 j (⟨k.val, by omega⟩ : Fin 148)) := by
  have h : v11 (stC W d) = extractStridedSlice S128x128 ![0, 0] (transpose S148x128 [1, 0] (a7 (W d)) transposes_S128x148_S148x128_1_0) slices_S148x128_S128x128_0_0 := by
    dsimp only [v11, stC, Launch.opsC]; after_results
  rw [h]
  exact (slice2_axis0_apply 0 _ _ k j (⟨k.val, by omega⟩ : Fin 148) (by simp)).trans (transpose_ix2_apply _ _ _ j)

theorem stC_v12 (W : St) (d : Dev nD) (k : Fin 16) (j : Fin 128) :
    v12 (stC W d) (ix2 k j) = a7 (W d) (ix2 j (⟨128 + k.val, by omega⟩ : Fin 148)) := by
  have h : v12 (stC W d) = extractStridedSlice S16x128 ![128, 0] (transpose S148x128 [1, 0] (a7 (W d)) transposes_S128x148_S148x128_1_0) slices_S148x128_S16x128_128_0 := by
    dsimp only [v12, stC, Launch.opsC]; after_results
  rw [h]
  exact (slice2_axis0_apply 128 _ _ k j (⟨128 + k.val, by omega⟩ : Fin 148) rfl).trans (transpose_ix2_apply _ _ _ j)

theorem stC_v13 (W : St) (d : Dev nD) (k : Fin 4) (j : Fin 128) :
    v13 (stC W d) (ix2 k j) = a7 (W d) (ix2 j (⟨144 + k.val, by omega⟩ : Fin 148)) := by
  have h : v13 (stC W d) = extractStridedSlice S4x128 ![144, 0] (transpose S148x128 [1, 0] (a7 (W d)) transposes_S128x148_S148x128_1_0) slices_S148x128_S4x128_144_0 := by
    dsimp only [v13, stC, Launch.opsC]; after_results
  rw [h]
  exact (slice2_axis0_apply 144 _ _ k j (⟨144 + k.val, by omega⟩ : Fin 148) rfl).trans (transpose_ix2_apply _ _ _ j)

theorem stC_v14 (W : St) (d : Dev nD) (j : Fin 128) : v14 (stC W d) (ix2 (0 : Fin 1) j) = a8 (W d) (ix1 j) := by
  have h : v14 (stC W d) = shapeCast S1x128 (a8 (W d)) shapeCasts_S128_S1x128 := by
    dsimp only [v14, stC, Launch.opsC]; after_results; rfl
  rw [h]
  exact shapeCast_a_1a_apply _ _ (0 : Fin 1) j

/-! ## What each stage leaves as it was -/

abbrev opsA_W : List (Ref sig .tc) := [main_v0, main_v1, main_v2, main_v3, main_v4, main_v5]
abbrev opsB_W : List (Ref sig .tc) := [main_v7, main_v8]
abbrev opsC_W : List (Ref sig .tc) := [main_v10, main_v11, main_v12, main_v13, main_v14]

theorem opsA_writes : (Launch.opsA : List (HloOp τ sig (Elt Ideal))).Forall fun op => op.writes ⊆ (opsA_W.map (Proc.devRef (τ := τ) .tc)).toFinset := by
  simp only [Launch.opsA, List.Forall, unary_writes, reshape_writes, Finset.singleton_subset_iff, List.mem_toFinset]
  refine ⟨?_, ?_, ?_, ?_, ?_, ?_⟩ <;> exact List.mem_map_of_mem (by decide)
theorem opsB_writes : (Launch.opsB : List (HloOp τ sig (Elt Ideal))).Forall fun op => op.writes ⊆ (opsB_W.map (Proc.devRef (τ := τ) .tc)).toFinset := by
  simp only [Launch.opsB, List.Forall, unary_writes, reshape_writes, Finset.singleton_subset_iff, List.mem_toFinset]
  refine ⟨?_, ?_⟩ <;> exact List.mem_map_of_mem (by decide)
theorem opsC_writes : (Launch.opsC : List (HloOp τ sig (Elt Ideal))).Forall fun op => op.writes ⊆ (opsC_W.map (Proc.devRef (τ := τ) .tc)).toFinset := by
  simp only [Launch.opsC, List.Forall, unary_writes, reshape_writes, Finset.singleton_subset_iff, List.mem_toFinset]
  refine ⟨?_, ?_, ?_, ?_, ?_⟩ <;> exact List.mem_map_of_mem (by decide)

theorem stA_keep (W : St) (d : Dev nD) (r : Ref sig .tc) (h : r ∉ opsA_W) : stA W d 𝐫(r) = W d 𝐫(r) :=
  after_of_writes_sub Launch.opsA _ opsA_writes h
theorem stB_keep (W : St) (d : Dev nD) (r : Ref sig .tc) (h : r ∉ opsB_W) : stB W d 𝐫(r) = W d 𝐫(r) :=
  after_of_writes_sub Launch.opsB _ opsB_writes h
theorem stC_keep (W : St) (d : Dev nD) (r : Ref sig .tc) (h : r ∉ opsC_W) : stC W d 𝐫(r) = W d 𝐫(r) :=
  after_of_writes_sub Launch.opsC _ opsC_writes h
theorem Rsc_keep (W : St) (d : Dev nD) (r : Ref sig .tc) (h : r ≠ main_v9) : Rsc W d 𝐫(r) = W d 𝐫(r) :=
  Function.update_of_ne (devRef_ne_of_ne h) _ _

/-! ## The two TensorCore kernel regions, as parameters -/

/-- What the node projection's region does to the stage's contents: it rewrites its result to the product with
    the transposed weight plus the bias row, and nothing else. -/
def H0 (R0 : St → St) : Prop :=
  ∀ (W : St) (d : Dev nD), (∀ b : DevRef τ sig, b ≠ 𝐫(main_v6) → R0 W d b = W d b)
    ∧ ∀ (n : Fin 10000) (j : Fin 128),
        v6 (R0 W d) (ix2 n j) = (∑ k : Fin 128, a0 (W d) (ix2 n k) * v4 (W d) (ix2 k j)) + v5 (W d) (ix2 (0 : Fin 1) j)

/-- What the edge projection's region does: it rewrites its result to the three products, summed in this order,
    plus the bias row, and nothing else. -/
def H1 (R1 : St → St) : Prop :=
  ∀ (W : St) (d : Dev nD), (∀ b : DevRef τ sig, b ≠ 𝐫(main_v15) → R1 W d b = W d b)
    ∧ ∀ (e : Fin 320000) (j : Fin 128),
        v15 (R1 W d) (ix2 e j)
          = (((∑ k : Fin 128, v9 (W d) (ix2 e k) * v11 (W d) (ix2 k j)) + (∑ k : Fin 16, a3 (W d) (ix2 e k) * v12 (W d) (ix2 k j)))
              + (∑ k : Fin 4, a2 (W d) (ix2 e k) * v13 (W d) (ix2 k j))) + v14 (W d) (ix2 (0 : Fin 1) j)

theorem R0_keep {R0 : St → St} (h0 : H0 R0) (W : St) (d : Dev nD) (r : Ref sig .tc) (h : r ≠ main_v6) : R0 W d 𝐫(r) = W d 𝐫(r) :=
  (h0 W d).1 _ (devRef_ne_of_ne h)
theorem R1_keep {R1 : St → St} (h1 : H1 R1) (W : St) (d : Dev nD) (r : Ref sig .tc) (h : r ≠ main_v15) : R1 W d 𝐫(r) = W d 𝐫(r) :=
  (h1 W d).1 _ (devRef_ne_of_ne h)

/-- The contents at the end of @main. -/
def Wfin (R0 R1 : St → St) (m : (ℓ : Loc nD τ sig) → Buf (Elt Ideal) ℓ) : St := R1 (stC (Rsc (stB (R0 (stA (W0 m))))))

/-! ## The stages composed, from the launch contents -/

section Chain

variable {R0 R1 : St → St}

/-- An array no stage up to the gather's result writes is as launched after the last host operations. -/
theorem keep5 (h0 : H0 R0) (W : St) (d : Dev nD) (r : Ref sig .tc) (hA : r ∉ opsA_W) (h6 : r ≠ main_v6) (hB : r ∉ opsB_W)
    (h9 : r ≠ main_v9) (hC : r ∉ opsC_W) : stC (Rsc (stB (R0 (stA W)))) d 𝐫(r) = W d 𝐫(r) := by
  rw [stC_keep _ _ _ hC, Rsc_keep _ _ _ h9, stB_keep _ _ _ hB, R0_keep h0 _ _ _ h6, stA_keep _ _ _ hA]

theorem keep4 (h0 : H0 R0) (W : St) (d : Dev nD) (r : Ref sig .tc) (hA : r ∉ opsA_W) (h6 : r ≠ main_v6) (hB : r ∉ opsB_W)
    (h9 : r ≠ main_v9) : Rsc (stB (R0 (stA W))) d 𝐫(r) = W d 𝐫(r) := by
  rw [Rsc_keep _ _ _ h9, stB_keep _ _ _ hB, R0_keep h0 _ _ _ h6, stA_keep _ _ _ hA]

/-- The node projection's result is the specification's node features of the arguments. -/
theorem v6_nodeH (h0 : H0 R0) (W : St) (d : Dev nD) :
    v6 (R0 (stA W) d) = Spec.nodeH (a0 (W d)) (a5 (W d)) (a6 (W d)) := by
  funext i
  obtain ⟨n, j, rfl⟩ : ∃ (n : Fin 10000) (j : Fin 128), i = ix2 n j := ⟨i 0, i 1, eq_ix2 (n0 := 10000) (n1 := 128) i⟩
  rw [Spec.nodeH_ix2, (h0 (stA W) d).2 n j, stA_v5]
  unfold Spec.nodeHAt
  have ha0 : a0 (stA W d) = a0 (W d) := stA_keep W d main_arg0 (by decide)
  rw [ha0]
  congr 1
  exact Finset.sum_congr rfl fun k _ => by rw [stA_v4]

/-- The index arrays the gather reads, at the place of edge e, are the two rows of the edge list at e. -/
theorem v7_edge (h0 : H0 R0) (W : St) (d : Dev nD) (e : Fin 320000) :
    v7 (stB (R0 (stA W)) d) (Tile.edgeIx e) = a1 (W d) (ix2 (0 : Fin 2) e) := by
  have hk : v1 (R0 (stA W) d) = v1 (stA W d) := R0_keep h0 (stA W) d main_v1 (by decide)
  unfold Tile.edgeIx
  rw [stB_v7 _ d _ _ _ e (by show e.val = e.val / 10000 * 10000 + e.val % 10000 / 80 * 80 + e.val % 80; omega), hk, stA_v1]

theorem v8_edge (h0 : H0 R0) (W : St) (d : Dev nD) (e : Fin 320000) :
    v8 (stB (R0 (stA W)) d) (Tile.edgeIx e) = a1 (W d) (ix2 (1 : Fin 2) e) := by
  have hk : v3 (R0 (stA W) d) = v3 (stA W d) := R0_keep h0 (stA W) d main_v3 (by decide)
  unfold Tile.edgeIx
  rw [stB_v8 _ d _ _ _ e (by show e.val = e.val / 10000 * 10000 + e.val % 10000 / 80 * 80 + e.val % 80; omega), hk, stA_v3]

/-- One lane of the gather's arithmetic, exactly. -/
theorem relu2_eq (a b : EReal) : Tile.relu2 (F := Ideal) a b = max (a + b) 0 := by
  unfold Tile.relu2
  show max (a + b) (Ideal.ofBits .f32 0x00000000#32) = _
  rw [Ideal.ofBits_zero_f32]

/-- The gather's result is the specification's rectified sums. -/
theorem v9_edgeRelu (h0 : H0 R0) (W : St) (d : Dev nD) :
    v9 (Rsc (stB (R0 (stA W))) d) = Spec.edgeRelu (Spec.nodeH (a0 (W d)) (a5 (W d)) (a6 (W d))) (a1 (W d)) := by
  have hu : v9 (Rsc (stB (R0 (stA W))) d)
      = (Tile.outRows (F := Ideal) d (v6 (stB (R0 (stA W)) d)) (v7 (stB (R0 (stA W)) d)) (v8 (stB (R0 (stA W)) d)) : S320000x128.Idx → EReal) := by
    show Function.update (stB (R0 (stA W)) d) 𝐫(main_v9) _ 𝐫(main_v9) = _
    exact Function.update_self _ _ _
  have h6 : v6 (stB (R0 (stA W)) d) = v6 (R0 (stA W) d) := stB_keep (R0 (stA W)) d main_v6 (by decide)
  rw [hu, h6, v6_nodeH h0]
  funext i
  obtain ⟨e, j, rfl⟩ : ∃ (e : Fin 320000) (j : Fin 128), i = ix2 e j := ⟨i 0, i 1, eq_ix2 (n0 := 320000) (n1 := 128) i⟩
  rw [Spec.edgeRelu_ix2]
  show Tile.relu2 (F := Ideal)
      (Spec.nodeH (a0 (W d)) (a5 (W d)) (a6 (W d)) (ix2 (Tile.nodeOf (v7 (stB (R0 (stA W)) d) (Tile.edgeIx e))) j))
      (Spec.nodeH (a0 (W d)) (a5 (W d)) (a6 (W d)) (ix2 (Tile.nodeOf (v8 (stB (R0 (stA W)) d) (Tile.edgeIx e))) j)) = _
  rw [relu2_eq, v7_edge h0, v8_edge h0]
  rfl

/-- THE VALUE: at the end of @main the result array is the specification's function of the launch contents of the
    arguments — the node features projected, gathered along the edge list and rectified, then the three blocks
    of edge features projected and summed with the bias. -/
theorem value (h0 : H0 R0) (h1 : H1 R1) (m : (ℓ : Loc nD τ sig) → Buf (Elt Ideal) ℓ) (d : Dev nD) :
    v15 (Wfin R0 R1 m d)
      = Spec.edgeOutSplit (Spec.edgeRelu (Spec.nodeH (a0 (W0 m d)) (a5 (W0 m d)) (a6 (W0 m d))) (a1 (W0 m d)))
          (a3 (W0 m d)) (a2 (W0 m d)) (a7 (W0 m d)) (a8 (W0 m d)) := by
  funext i
  obtain ⟨e, j, rfl⟩ : ∃ (e : Fin 320000) (j : Fin 128), i = ix2 e j := ⟨i 0, i 1, eq_ix2 (n0 := 320000) (n1 := 128) i⟩
  rw [Spec.edgeOutSplit_ix2]
  unfold Wfin
  rw [(h1 _ d).2 e j]
  unfold Spec.edgeOutSplitAt
  have e9 : v9 (stC (Rsc (stB (R0 (stA (W0 m))))) d) = v9 (Rsc (stB (R0 (stA (W0 m)))) d) := stC_keep _ d main_v9 (by decide)
  have e3 : a3 (stC (Rsc (stB (R0 (stA (W0 m))))) d) = a3 (W0 m d) :=
    keep5 h0 (W0 m) d main_arg3 (by decide) (by decide) (by decide) (by decide) (by decide)
  have e2 : a2 (stC (Rsc (stB (R0 (stA (W0 m))))) d) = a2 (W0 m d) :=
    keep5 h0 (W0 m) d main_arg2 (by decide) (by decide) (by decide) (by decide) (by decide)
  have e7 : a7 (Rsc (stB (R0 (stA (W0 m)))) d) = a7 (W0 m d) :=
    keep4 h0 (W0 m) d main_arg7 (by decide) (by decide) (by decide) (by decide)
  have e8 : a8 (Rsc (stB (R0 (stA (W0 m)))) d) = a8 (W0 m d) :=
    keep4 h0 (W0 m) d main_arg8 (by decide) (by decide) (by decide) (by decide)
  rw [e9, v9_edgeRelu h0, e3, e2, stC_v14, e8]
  congr 1; congr 1; congr 1
  · exact Finset.sum_congr rfl fun k _ => by rw [stC_v11, e7]
  · exact Finset.sum_congr rfl fun k _ => by rw [stC_v12, e7]
  · exact Finset.sum_congr rfl fun k _ => by rw [stC_v13, e7]

/-- No stage writes an argument: each is as launched at the end. -/
theorem Wfin_arg (h0 : H0 R0) (h1 : H1 R1) (m : (ℓ : Loc nD τ sig) → Buf (Elt Ideal) ℓ) (d : Dev nD) (r : Ref sig .tc)
    (hA : r ∉ opsA_W) (h6 : r ≠ main_v6) (hB : r ∉ opsB_W) (h9 : r ≠ main_v9) (hC : r ∉ opsC_W) (h15 : r ≠ main_v15) :
    Wfin R0 R1 m d 𝐫(r) = m (d, 𝐫(r)) := by
  unfold Wfin
  rw [R1_keep h1 _ _ _ h15, keep5 h0 (W0 m) d r hA h6 hB h9 hC]
  rfl

/-- The value, with the launch contents of the arguments spelt out. -/
theorem value_launch (h0 : H0 R0) (h1 : H1 R1) (m : (ℓ : Loc nD τ sig) → Buf (Elt Ideal) ℓ) (d : Dev nD) :
    (Wfin R0 R1 m d 𝐫(main_v15) : S320000x128.Idx → EReal)
      = Spec.edgeOutSplit (Spec.edgeRelu (Spec.nodeH (m (d, 𝐫(main_arg0))) (m (d, 𝐫(main_arg5))) (m (d, 𝐫(main_arg6)))) (m (d, 𝐫(main_arg1))))
          (m (d, 𝐫(main_arg3))) (m (d, 𝐫(main_arg2))) (m (d, 𝐫(main_arg7))) (m (d, 𝐫(main_arg8))) :=
  value h0 h1 m d

theorem Wfin_arg0 (h0 : H0 R0) (h1 : H1 R1) (m : (ℓ : Loc nD τ sig) → Buf (Elt Ideal) ℓ) (d : Dev nD) :
    Wfin R0 R1 m d 𝐫(main_arg0) = m (d, 𝐫(main_arg0)) :=
  Wfin_arg h0 h1 m d main_arg0 (by decide) (by decide) (by decide) (by decide) (by decide) (by decide)
theorem Wfin_arg1 (h0 : H0 R0) (h1 : H1 R1) (m : (ℓ : Loc nD τ sig) → Buf (Elt Ideal) ℓ) (d : Dev nD) :
    Wfin R0 R1 m d 𝐫(main_arg1) = m (d, 𝐫(main_arg1)) :=
  Wfin_arg h0 h1 m d main_arg1 (by decide) (by decide) (by decide) (by decide) (by decide) (by decide)
theorem Wfin_arg2 (h0 : H0 R0) (h1 : H1 R1) (m : (ℓ : Loc nD τ sig) → Buf (Elt Ideal) ℓ) (d : Dev nD) :
    Wfin R0 R1 m d 𝐫(main_arg2) = m (d, 𝐫(main_arg2)) :=
  Wfin_arg h0 h1 m d main_arg2 (by decide) (by decide) (by decide) (by decide) (by decide) (by decide)
theorem Wfin_arg3 (h0 : H0 R0) (h1 : H1 R1) (m : (ℓ : Loc nD τ sig) → Buf (Elt Ideal) ℓ) (d : Dev nD) :
    Wfin R0 R1 m d 𝐫(main_arg3) = m (d, 𝐫(main_arg3)) :=
  Wfin_arg h0 h1 m d main_arg3 (by decide) (by decide) (by decide) (by decide) (by decide) (by decide)
theorem Wfin_arg4 (h0 : H0 R0) (h1 : H1 R1) (m : (ℓ : Loc nD τ sig) → Buf (Elt Ideal) ℓ) (d : Dev nD) :
    Wfin R0 R1 m d 𝐫(main_arg4) = m (d, 𝐫(main_arg4)) :=
  Wfin_arg h0 h1 m d main_arg4 (by decide) (by decide) (by decide) (by decide) (by decide) (by decide)
theorem Wfin_arg5 (h0 : H0 R0) (h1 : H1 R1) (m : (ℓ : Loc nD τ sig) → Buf (Elt Ideal) ℓ) (d : Dev nD) :
    Wfin R0 R1 m d 𝐫(main_arg5) = m (d, 𝐫(main_arg5)) :=
  Wfin_arg h0 h1 m d main_arg5 (by decide) (by decide) (by decide) (by decide) (by decide) (by decide)
theorem Wfin_arg6 (h0 : H0 R0) (h1 : H1 R1) (m : (ℓ : Loc nD τ sig) → Buf (Elt Ideal) ℓ) (d : Dev nD) :
    Wfin R0 R1 m d 𝐫(main_arg6) = m (d, 𝐫(main_arg6)) :=
  Wfin_arg h0 h1 m d main_arg6 (by decide) (by decide) (by decide) (by decide) (by decide) (by decide)
theorem Wfin_arg7 (h0 : H0 R0) (h1 : H1 R1) (m : (ℓ : Loc nD τ sig) → Buf (Elt Ideal) ℓ) (d : Dev nD) :
    Wfin R0 R1 m d 𝐫(main_arg7) = m (d, 𝐫(main_arg7)) :=
  Wfin_arg h0 h1 m d main_arg7 (by decide) (by decide) (by decide) (by decide) (by decide) (by decide)
theorem Wfin_arg8 (h0 : H0 R0) (h1 : H1 R1) (m : (ℓ : Loc nD τ sig) → Buf (Elt Ideal) ℓ) (d : Dev nD) :
    Wfin R0 R1 m d 𝐫(main_arg8) = m (d, 𝐫(main_arg8)) :=
  Wfin_arg h0 h1 m d main_arg8 (by decide) (by decide) (by decide) (by decide) (by decide) (by decide)

end Chain

end Cert.Proof.KernelValue

end
-- ==== Proof.TcValue.lean ====
/-
  The two kernel regions' result arrays at the ideal values, as one function each of the arrays the region reads: a
  row of the node projection's result is the row of the node features times the transposed weights plus the bias row;
  a row of the edge projection's result is the three products — of the edge's gathered features, of its attributes and
  of its extra features, each with its rows of the transposed weights — summed in the order the kernel sums them, plus
  the bias row. A matrix product into a zero accumulator read at an index is the sum over the contracted axis; a grid
  point writes back the block of that function at its block index; the blocks cover the array.
-/
import proofs.«206094_g687194767628_cont_sun_c4_81_43_alg».proof.Proof.OnKernelIdeal.TcStep
import Idealize.ShloMosaic.Lib.Pipeline.Value
import Idealize.ShloMosaic.Lib.ValueIdx
import Idealize.ShloMosaic.PureOps.Ideal.Laws

set_option maxRecDepth 16384

noncomputable section

namespace Cert.Proof.TcValue

open Cert.KernelIdeal Cert.KernelIdeal.Gen
open Cert.Proof.OnKernelIdeal Cert.Proof.OnKernelIdeal.Tc
open Idealize.ShloMosaic Idealize.ShloMosaic.TcCoe
open Idealize.ShloMosaic.Pipeline (Dat)
open Idealize.ShloMosaic.ValueIdx
open Idealize.ShloMosaic.SparseCore.Cfg (HIx)
open scoped BigOperators

/-! ## A matrix product's contraction, re-indexed by the contracted coordinate -/

abbrev dN := dot_S1000x128_S128x128_S1000x128_1_0_0_1_n_n
abbrev dA := dot_S10000x128_S128x128_S10000x128_1_0_0_1_n_n
abbrev dB := dot_S10000x16_S16x128_S10000x128_1_0_0_1_n_n
abbrev dC := dot_S10000x4_S4x128_S10000x128_1_0_0_1_n_n

theorem dot_sumN (lhs : FVec Ideal S1000x128 .f32) (rhs : FVec Ideal S128x128 .f32) (p : Fin 1000) (q : Fin 128) :
    (∑ k : dN.contr.Idx, lhs (dN.lhsIdx (ix2 p q) k) * rhs (dN.rhsIdx (ix2 p q) k)) = ∑ k : Fin 128, lhs (ix2 p k) * rhs (ix2 k q) := by
  rw [← Equiv.sum_comp (contrEquiv1 dN 128 rfl rfl).symm]
  refine Finset.sum_congr rfl fun k _ => ?_
  have hl : dN.lhsIdx (ix2 p q) ((contrEquiv1 dN 128 rfl rfl).symm k) = ix2 p k := by
    funext a; apply Fin.ext
    match a with
    | ⟨0, _⟩ => rfl
    | ⟨1, _⟩ => exact (dN.lhsIdx_val_of_single (cl := 1) rfl _ _).trans (contrEquiv1_symm_val dN 128 rfl rfl k)
  have hr : dN.rhsIdx (ix2 p q) ((contrEquiv1 dN 128 rfl rfl).symm k) = ix2 k q := by
    funext a; apply Fin.ext
    match a with
    | ⟨0, _⟩ => exact (dN.rhsIdx_val_of_single (cr := 0) rfl _ _).trans (contrEquiv1_symm_val dN 128 rfl rfl k)
    | ⟨1, _⟩ => rfl
  rw [hl, hr]

theorem dot_sumA (lhs : FVec Ideal S10000x128 .f32) (rhs : FVec Ideal S128x128 .f32) (p : Fin 10000) (q : Fin 128) :
    (∑ k : dA.contr.Idx, lhs (dA.lhsIdx (ix2 p q) k) * rhs (dA.rhsIdx (ix2 p q) k)) = ∑ k : Fin 128, lhs (ix2 p k) * rhs (ix2 k q) := by
  rw [← Equiv.sum_comp (contrEquiv1 dA 128 rfl rfl).symm]
  refine Finset.sum_congr rfl fun k _ => ?_
  have hl : dA.lhsIdx (ix2 p q) ((contrEquiv1 dA 128 rfl rfl).symm k) = ix2 p k := by
    funext a; apply Fin.ext
    match a with
    | ⟨0, _⟩ => rfl
    | ⟨1, _⟩ => exact (dA.lhsIdx_val_of_single (cl := 1) rfl _ _).trans (contrEquiv1_symm_val dA 128 rfl rfl k)
  have hr : dA.rhsIdx (ix2 p q) ((contrEquiv1 dA 128 rfl rfl).symm k) = ix2 k q := by
    funext a; apply Fin.ext
    match a with
    | ⟨0, _⟩ => exact (dA.rhsIdx_val_of_single (cr := 0) rfl _ _).trans (contrEquiv1_symm_val dA 128 rfl rfl k)
    | ⟨1, _⟩ => rfl
  rw [hl, hr]

theorem dot_sumB (lhs : FVec Ideal S10000x16 .f32) (rhs : FVec Ideal S16x128 .f32) (p : Fin 10000) (q : Fin 128) :
    (∑ k : dB.contr.Idx, lhs (dB.lhsIdx (ix2 p q) k) * rhs (dB.rhsIdx (ix2 p q) k)) = ∑ k : Fin 16, lhs (ix2 p k) * rhs (ix2 k q) := by
  rw [← Equiv.sum_comp (contrEquiv1 dB 16 rfl rfl).symm]
  refine Finset.sum_congr rfl fun k _ => ?_
  have hl : dB.lhsIdx (ix2 p q) ((contrEquiv1 dB 16 rfl rfl).symm k) = ix2 p k := by
    funext a; apply Fin.ext
    match a with
    | ⟨0, _⟩ => rfl
    | ⟨1, _⟩ => exact (dB.lhsIdx_val_of_single (cl := 1) rfl _ _).trans (contrEquiv1_symm_val dB 16 rfl rfl k)
  have hr : dB.rhsIdx (ix2 p q) ((contrEquiv1 dB 16 rfl rfl).symm k) = ix2 k q := by
    funext a; apply Fin.ext
    match a with
    | ⟨0, _⟩ => exact (dB.rhsIdx_val_of_single (cr := 0) rfl _ _).trans (contrEquiv1_symm_val dB 16 rfl rfl k)
    | ⟨1, _⟩ => rfl
  rw [hl, hr]

theorem dot_sumC (lhs : FVec Ideal S10000x4 .f32) (rhs : FVec Ideal S4x128 .f32) (p : Fin 10000) (q : Fin 128) :
    (∑ k : dC.contr.Idx, lhs (dC.lhsIdx (ix2 p q) k) * rhs (dC.rhsIdx (ix2 p q) k)) = ∑ k : Fin 4, lhs (ix2 p k) * rhs (ix2 k q) := by
  rw [← Equiv.sum_comp (contrEquiv1 dC 4 rfl rfl).symm]
  refine Finset.sum_congr rfl fun k _ => ?_
  have hl : dC.lhsIdx (ix2 p q) ((contrEquiv1 dC 4 rfl rfl).symm k) = ix2 p k := by
    funext a; apply Fin.ext
    match a with
    | ⟨0, _⟩ => rfl
    | ⟨1, _⟩ => exact (dC.lhsIdx_val_of_single (cl := 1) rfl _ _).trans (contrEquiv1_symm_val dC 4 rfl rfl k)
  have hr : dC.rhsIdx (ix2 p q) ((contrEquiv1 dC 4 rfl rfl).symm k) = ix2 k q := by
    funext a; apply Fin.ext
    match a with
    | ⟨0, _⟩ => exact (dC.rhsIdx_val_of_single (cr := 0) rfl _ _).trans (contrEquiv1_symm_val dC 4 rfl rfl k)
    | ⟨1, _⟩ => rfl
  rw [hl, hr]

theorem hz2 : (![0, 0] : Fin 2 → Nat) = fun _ => 0 := funext fun a => by fin_cases a <;> rfl

/-! ## The payloads at an index -/

/-- The node projection's payload: the block times the transposed weights, plus the bias row. -/
theorem pay0_apply (x0 : Vec Ideal S1000x128 .f32) (x1 : Vec Ideal S128x128 .f32) (x2 : Vec Ideal S1x128 .f32) (p : Fin 1000) (q : Fin 128) :
    k0_pay1 (F := Ideal) x0 x1 x2 (ix2 p q) = (∑ k : Fin 128, x0 (ix2 p k) * x1 (ix2 k q)) + x2 (ix2 0 q) := by
  unfold k0_pay1
  simp only [shapeCast_self]
  rw [addf_apply]
  simp only [matmul]
  rw [Ideal.matmul_constant_zero_apply, dot_sumN]
  rw [broadcastTo_apply x2 broadcasts_S1x128_S1000x128 (ix2 p q) (ix2 0 q) (by
    intro a
    match a with
    | ⟨0, _⟩ => rfl
    | ⟨1, _⟩ => rfl)]

/-- The edge projection's payload: the three products summed in the kernel's order, plus the bias row. -/
theorem pay2_apply (x0 : Vec Ideal S10000x128 .f32) (wa : Vec Ideal S128x128 .f32) (ea : Vec Ideal S10000x16 .f32) (wb : Vec Ideal S16x128 .f32)
    (ef : Vec Ideal S10000x4 .f32) (wc : Vec Ideal S4x128 .f32) (b : Vec Ideal S1x128 .f32) (p : Fin 10000) (q : Fin 128) :
    k2_pay1 (F := Ideal) x0 wa ea wb ef wc b (ix2 p q)
      = (((∑ k : Fin 128, x0 (ix2 p k) * wa (ix2 k q)) + (∑ k : Fin 16, ea (ix2 p k) * wb (ix2 k q)))
          + (∑ k : Fin 4, ef (ix2 p k) * wc (ix2 k q))) + b (ix2 0 q) := by
  unfold k2_pay1
  simp only [shapeCast_self]
  rw [addf_apply, addf_apply, addf_apply]
  simp only [matmul]
  rw [Ideal.matmul_constant_zero_apply, Ideal.matmul_constant_zero_apply, Ideal.matmul_constant_zero_apply, dot_sumA, dot_sumB, dot_sumC]
  rw [broadcastTo_apply b broadcasts_S1x128_S10000x128 (ix2 p q) (ix2 0 q) (by
    intro a
    match a with
    | ⟨0, _⟩ => rfl
    | ⟨1, _⟩ => rfl)]

/-! ## The result arrays as functions of the arrays read -/

/-- The node projection's result from the node features, the transposed weights and the bias row. -/
def G0 (x : S10000x128.Idx → Elt Ideal .f32) (wt : S128x128.Idx → Elt Ideal .f32) (b : S1x128.Idx → Elt Ideal .f32) : S10000x128.Idx → Elt Ideal .f32 :=
  fun i => (∑ k : Fin 128, x (ix2 (i 0) k) * wt (ix2 k (i 1))) + b (ix2 0 (i 1))

/-- The edge projection's result from the gathered features, the attributes, the extra features, the three row groups
    of the transposed weights and the bias row. -/
def G2 (xe : S320000x128.Idx → Elt Ideal .f32) (ea : S320000x16.Idx → Elt Ideal .f32) (ef : S320000x4.Idx → Elt Ideal .f32)
    (wa : S128x128.Idx → Elt Ideal .f32) (wb : S16x128.Idx → Elt Ideal .f32) (wc : S4x128.Idx → Elt Ideal .f32) (b : S1x128.Idx → Elt Ideal .f32) :
    S320000x128.Idx → Elt Ideal .f32 :=
  fun i => (((∑ k : Fin 128, xe (ix2 (i 0) k) * wa (ix2 k (i 1))) + (∑ k : Fin 16, ea (ix2 (i 0) k) * wb (ix2 k (i 1))))
      + (∑ k : Fin 4, ef (ix2 (i 0) k) * wc (ix2 k (i 1)))) + b (ix2 0 (i 1))

theorem G0_apply (x : S10000x128.Idx → Elt Ideal .f32) (wt : S128x128.Idx → Elt Ideal .f32) (b : S1x128.Idx → Elt Ideal .f32) (n : Fin 10000) (j : Fin 128) :
    G0 x wt b (ix2 n j) = (∑ k : Fin 128, x (ix2 n k) * wt (ix2 k j)) + b (ix2 0 j) := rfl

theorem G2_apply (xe : S320000x128.Idx → Elt Ideal .f32) (ea : S320000x16.Idx → Elt Ideal .f32) (ef : S320000x4.Idx → Elt Ideal .f32)
    (wa : S128x128.Idx → Elt Ideal .f32) (wb : S16x128.Idx → Elt Ideal .f32) (wc : S4x128.Idx → Elt Ideal .f32) (b : S1x128.Idx → Elt Ideal .f32)
    (e : Fin 320000) (j : Fin 128) :
    G2 xe ea ef wa wb wc b (ix2 e j) = (((∑ k : Fin 128, xe (ix2 e k) * wa (ix2 k j)) + (∑ k : Fin 16, ea (ix2 e k) * wb (ix2 k j)))
      + (∑ k : Fin 4, ef (ix2 e k) * wc (ix2 k j))) + b (ix2 0 j) := rfl

/-- The printed index maps over the grid: the row-blocked windows move with the point, the others stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

section
variable (V : (c : Dev nD) → (b : Ref sig .tc) → Buf (Elt Ideal) ((c : Thread nD τ).loc b))
variable (O : Dev nD → CellTallies nD τ sig (HIx 1)) (B : Dev nD → Set (SemLoc sig × HIx 1))

/-! ### The node projection -/

/-- What a grid point writes back is its block of `G0` of the arrays as the region finds them. -/
theorem flushed0_eq (c : Dev nD) (t : Fin cfg0.N) :
    (dat0 V O B c).flushed 3 t = ((cfg0.win 3).blk t).view.read (Elt Ideal) (G0 (V c main_arg0) (V c main_v4) (V c main_v5)) := by
  show (cfg0.win 3).cut (grid0.coords t) ((dat0 V O B c).after 3 t) = _
  rw [after0_3]
  unfold out0_3
  rw [View.canon_unit_zero hz2]
  simp only [View.ld_unit_zero (S := S1000x128) hz2, View.ld_unit_zero (S := S128x128) hz2, View.ld_unit_zero (S := S1x128) hz2]
  obtain ⟨e0, e1, e2, e3, e4, e5, e6, e7⟩ := idx_facts0 t
  funext j
  obtain ⟨p, q, rfl⟩ : ∃ (p : Fin 1000) (q : Fin 128), j = ix2 p q := ⟨j 0, j 1, eq_ix2 j⟩
  show k0_pay1 (iblk0 V c 0 t) (iblk0 V c 1 t) (iblk0 V c 2 t) (ix2 p q) = G0 (V c main_arg0) (V c main_v4) (V c main_v5) (((cfg0.win 3).blk t).view.emb (ix2 p q))
  rw [pay0_apply]
  unfold G0
  have h0 : ∀ k : Fin 128, iblk0 V c 0 t (ix2 p k) = V c main_arg0 (ix2 ((((cfg0.win 3).blk t).view.emb (ix2 p q)) 0) k) := fun k => by
    show V c main_arg0 (((cfg0.win 0).blk t).view.emb (ix2 p k)) = _
    refine congrArg (V c main_arg0) (funext fun a => Fin.ext ?_)
    match a with
    | ⟨0, _⟩ => show win0_0.index t (0 : Fin 2) * 1000 + 1 * p.val = win0_3.index t (0 : Fin 2) * 1000 + 1 * p.val; omega
    | ⟨1, _⟩ => show win0_0.index t (1 : Fin 2) * 128 + 1 * k.val = k.val; omega
  have h1 : ∀ k : Fin 128, iblk0 V c 1 t (ix2 k q) = V c main_v4 (ix2 k ((((cfg0.win 3).blk t).view.emb (ix2 p q)) 1)) := fun k => by
    show V c main_v4 (((cfg0.win 1).blk t).view.emb (ix2 k q)) = _
    refine congrArg (V c main_v4) (funext fun a => Fin.ext ?_)
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  have h2 : iblk0 V c 2 t (ix2 0 q) = V c main_v5 (ix2 0 ((((cfg0.win 3).blk t).view.emb (ix2 p q)) 1)) := by
    show V c main_v5 (((cfg0.win 2).blk t).view.emb (ix2 0 q)) = _
    refine congrArg (V c main_v5) (funext fun a => Fin.ext ?_)
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega
  rw [h2]
  exact congrArg (· + _) (Finset.sum_congr rfl fun k _ => by rw [h0 k, h1 k])

theorem mem_blk0_3 (t : Fin cfg0.N) (i : S10000x128.Idx) :
    i ∈ ((cfg0.win 3).blk t).view.set ↔ ∀ a : Fin 2, win0_3.index t a * S1000x128.size a ≤ (i a).val ∧ (i a).val < win0_3.index t a * S1000x128.size a + S1000x128.size a := by
  show i ∈ ((View.whole main_v6).slice (win0_3.rect t)).set ↔ _
  rw [View.set_slice_whole, Rect.mem_set_unit]
  exact Iff.rfl

/-- Row `r` is in the block of point `r / 1000`. -/
theorem covered0_3 (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  have hN : (i 0).val / 1000 < cfg0.N := by rw [show cfg0.N = 10 from N_0]; omega
  obtain ⟨-, -, -, -, -, -, e6, e7⟩ := idx_facts0 ⟨(i 0).val / 1000, hN⟩
  refine ⟨⟨(i 0).val / 1000, hN⟩, flush0_3 _, ?_⟩
  rw [mem_blk0_3]
  intro a
  match a with
  | ⟨0, _⟩ => show win0_3.index ⟨(i 0).val / 1000, hN⟩ (0 : Fin 2) * 1000 ≤ (i 0).val ∧ (i 0).val < win0_3.index ⟨(i 0).val / 1000, hN⟩ (0 : Fin 2) * 1000 + 1000; simp only [] at e6; omega
  | ⟨1, _⟩ => show win0_3.index ⟨(i 0).val / 1000, hN⟩ (1 : Fin 2) * 128 ≤ (i 1).val ∧ (i 1).val < win0_3.index ⟨(i 0).val / 1000, hN⟩ (1 : Fin 2) * 128 + 128; omega

/-- The node projection's result array after the region. -/
theorem final0 (c : Dev nD) : (dat0 V O B c).arrAt 3 cfg0.N = G0 (V c main_arg0) (V c main_v4) (V c main_v5) :=
  (dat0 V O B c).arrAt_eq_of_cover 3 _ (fun t _ => flushed0_eq V O B c t) covered0_3

/-! ### The edge projection -/

/-- What a grid point writes back is its block of `G2` of the arrays as the region finds them. -/
theorem flushed2_eq (c : Dev nD) (t : Fin cfg2.N) :
    (dat2 V O B c).flushed 7 t = ((cfg2.win 7).blk t).view.read (Elt Ideal)
      (G2 (V c main_v9) (V c main_arg3) (V c main_arg2) (V c main_v11) (V c main_v12) (V c main_v13) (V c main_v14)) := by
  show (cfg2.win 7).cut (grid2.coords t) ((dat2 V O B c).after 7 t) = _
  rw [after2_7]
  unfold out2_7
  rw [View.canon_unit_zero hz2]
  simp only [View.ld_unit_zero (S := S10000x128) hz2, View.ld_unit_zero (S := S10000x16) hz2, View.ld_unit_zero (S := S10000x4) hz2,
    View.ld_unit_zero (S := S128x128) hz2, View.ld_unit_zero (S := S16x128) hz2, View.ld_unit_zero (S := S4x128) hz2, View.ld_unit_zero (S := S1x128) hz2]
  obtain ⟨a0, a1, b0, b1, c0, c1, d0, d1, f0, f1, g0, g1, k0, k1, o0, o1⟩ := idx_facts2 t
  funext j
  obtain ⟨p, q, rfl⟩ : ∃ (p : Fin 10000) (q : Fin 128), j = ix2 p q := ⟨j 0, j 1, eq_ix2 j⟩
  show k2_pay1 (iblk2 V c 0 t) (iblk2 V c 3 t) (iblk2 V c 1 t) (iblk2 V c 4 t) (iblk2 V c 2 t) (iblk2 V c 5 t) (iblk2 V c 6 t) (ix2 p q)
    = G2 (V c main_v9) (V c main_arg3) (V c main_arg2) (V c main_v11) (V c main_v12) (V c main_v13) (V c main_v14) (((cfg2.win 7).blk t).view.emb (ix2 p q))
  rw [pay2_apply]
  unfold G2
  have h0 : ∀ k : Fin 128, iblk2 V c 0 t (ix2 p k) = V c main_v9 (ix2 ((((cfg2.win 7).blk t).view.emb (ix2 p q)) 0) k) := fun k => by
    show V c main_v9 (((cfg2.win 0).blk t).view.emb (ix2 p k)) = _
    refine congrArg (V c main_v9) (funext fun a => Fin.ext ?_)
    match a with
    | ⟨0, _⟩ => show win2_0.index t (0 : Fin 2) * 10000 + 1 * p.val = win2_7.index t (0 : Fin 2) * 10000 + 1 * p.val; omega
    | ⟨1, _⟩ => show win2_0.index t (1 : Fin 2) * 128 + 1 * k.val = k.val; omega
  have h1 : ∀ k : Fin 16, iblk2 V c 1 t (ix2 p k) = V c main_arg3 (ix2 ((((cfg2.win 7).blk t).view.emb (ix2 p q)) 0) k) := fun k => by
    show V c main_arg3 (((cfg2.win 1).blk t).view.emb (ix2 p k)) = _
    refine congrArg (V c main_arg3) (funext fun a => Fin.ext ?_)
    match a with
    | ⟨0, _⟩ => show win2_1.index t (0 : Fin 2) * 10000 + 1 * p.val = win2_7.index t (0 : Fin 2) * 10000 + 1 * p.val; omega
    | ⟨1, _⟩ => show win2_1.index t (1 : Fin 2) * 16 + 1 * k.val = k.val; omega
  have h2 : ∀ k : Fin 4, iblk2 V c 2 t (ix2 p k) = V c main_arg2 (ix2 ((((cfg2.win 7).blk t).view.emb (ix2 p q)) 0) k) := fun k => by
    show V c main_arg2 (((cfg2.win 2).blk t).view.emb (ix2 p k)) = _
    refine congrArg (V c main_arg2) (funext fun a => Fin.ext ?_)
    match a with
    | ⟨0, _⟩ => show win2_2.index t (0 : Fin 2) * 10000 + 1 * p.val = win2_7.index t (0 : Fin 2) * 10000 + 1 * p.val; omega
    | ⟨1, _⟩ => show win2_2.index t (1 : Fin 2) * 4 + 1 * k.val = k.val; omega
  have h3 : ∀ k : Fin 128, iblk2 V c 3 t (ix2 k q) = V c main_v11 (ix2 k ((((cfg2.win 7).blk t).view.emb (ix2 p q)) 1)) := fun k => by
    show V c main_v11 (((cfg2.win 3).blk t).view.emb (ix2 k q)) = _
    refine congrArg (V c main_v11) (funext fun a => Fin.ext ?_)
    match a with
    | ⟨0, _⟩ => show win2_3.index t (0 : Fin 2) * 128 + 1 * k.val = k.val; omega
    | ⟨1, _⟩ => show win2_3.index t (1 : Fin 2) * 128 + 1 * q.val = win2_7.index t (1 : Fin 2) * 128 + 1 * q.val; omega
  have h4 : ∀ k : Fin 16, iblk2 V c 4 t (ix2 k q) = V c main_v12 (ix2 k ((((cfg2.win 7).blk t).view.emb (ix2 p q)) 1)) := fun k => by
    show V c main_v12 (((cfg2.win 4).blk t).view.emb (ix2 k q)) = _
    refine congrArg (V c main_v12) (funext fun a => Fin.ext ?_)
    match a with
    | ⟨0, _⟩ => show win2_4.index t (0 : Fin 2) * 16 + 1 * k.val = k.val; omega
    | ⟨1, _⟩ => show win2_4.index t (1 : Fin 2) * 128 + 1 * q.val = win2_7.index t (1 : Fin 2) * 128 + 1 * q.val; omega
  have h5 : ∀ k : Fin 4, iblk2 V c 5 t (ix2 k q) = V c main_v13 (ix2 k ((((cfg2.win 7).blk t).view.emb (ix2 p q)) 1)) := fun k => by
    show V c main_v13 (((cfg2.win 5).blk t).view.emb (ix2 k q)) = _
    refine congrArg (V c main_v13) (funext fun a => Fin.ext ?_)
    match a with
    | ⟨0, _⟩ => show win2_5.index t (0 : Fin 2) * 4 + 1 * k.val = k.val; omega
    | ⟨1, _⟩ => show win2_5.index t (1 : Fin 2) * 128 + 1 * q.val = win2_7.index t (1 : Fin 2) * 128 + 1 * q.val; omega
  have h6 : iblk2 V c 6 t (ix2 0 q) = V c main_v14 (ix2 0 ((((cfg2.win 7).blk t).view.emb (ix2 p q)) 1)) := by
    show V c main_v14 (((cfg2.win 6).blk t).view.emb (ix2 0 q)) = _
    refine congrArg (V c main_v14) (funext fun a => Fin.ext ?_)
    match a with
    | ⟨0, _⟩ => show win2_6.index t (0 : Fin 2) * 1 + 1 * 0 = 0; omega
    | ⟨1, _⟩ => show win2_6.index t (1 : Fin 2) * 128 + 1 * q.val = win2_7.index t (1 : Fin 2) * 128 + 1 * q.val; omega
  simp only [h0, h1, h2, h3, h4, h5, h6]

theorem mem_blk2_7 (t : Fin cfg2.N) (i : S320000x128.Idx) :
    i ∈ ((cfg2.win 7).blk t).view.set ↔ ∀ a : Fin 2, win2_7.index t a * S10000x128.size a ≤ (i a).val ∧ (i a).val < win2_7.index t a * S10000x128.size a + S10000x128.size a := by
  show i ∈ ((View.whole main_v15).slice (win2_7.rect t)).set ↔ _
  rw [View.set_slice_whole, Rect.mem_set_unit]
  exact Iff.rfl

/-- Row `r` is in the block of point `r / 10000`. -/
theorem covered2_7 (i : S320000x128.Idx) : ∃ t : Fin cfg2.N, (cfg2.win 7).flush t = true ∧ i ∈ ((cfg2.win 7).blk t).view.set := by
  have hi0 : (i 0).val < 320000 := (i 0).isLt
  have hi1 : (i 1).val < 128 := (i 1).isLt
  have hN : (i 0).val / 10000 < cfg2.N := by rw [show cfg2.N = 32 from N_2]; omega
  obtain ⟨-, -, -, -, -, -, -, -, -, -, -, -, -, -, o0, o1⟩ := idx_facts2 ⟨(i 0).val / 10000, hN⟩
  refine ⟨⟨(i 0).val / 10000, hN⟩, flush2_7 _, ?_⟩
  rw [mem_blk2_7]
  intro a
  match a with
  | ⟨0, _⟩ => show win2_7.index ⟨(i 0).val / 10000, hN⟩ (0 : Fin 2) * 10000 ≤ (i 0).val ∧ (i 0).val < win2_7.index ⟨(i 0).val / 10000, hN⟩ (0 : Fin 2) * 10000 + 10000; simp only [] at o0; omega
  | ⟨1, _⟩ => show win2_7.index ⟨(i 0).val / 10000, hN⟩ (1 : Fin 2) * 128 ≤ (i 1).val ∧ (i 1).val < win2_7.index ⟨(i 0).val / 10000, hN⟩ (1 : Fin 2) * 128 + 128; omega

/-- The edge projection's result array after the region. -/
theorem final2 (c : Dev nD) : (dat2 V O B c).arrAt 7 cfg2.N
    = G2 (V c main_v9) (V c main_arg3) (V c main_arg2) (V c main_v11) (V c main_v12) (V c main_v13) (V c main_v14) :=
  (dat2 V O B c).arrAt_eq_of_cover 7 _ (fun t _ => flushed2_eq V O B c t) covered2_7

end

/-! ## The exit valuations read -/

section
variable (W : Dev nD → Valuation τ sig (Elt Ideal))
variable (O : Dev nD → CellTallies nD τ sig (HIx 1)) (B : Dev nD → Set (SemLoc sig × HIx 1))

/-- After the node projection every buffer but the result is as before, and the result's row `n` is the features' row
    `n` times the transposed weights plus the bias row. -/
theorem R0_eq (d : Dev nD) :
    R0 W O B d (Proc.devRef .tc main_v6) = G0 (W d (Proc.devRef .tc main_arg0)) (W d (Proc.devRef .tc main_v4)) (W d (Proc.devRef .tc main_v5)) := by
  rw [R0_out, final0]; rfl

theorem R0_read (d : Dev nD) :
    (∀ b, b ≠ Proc.devRef .tc main_v6 → R0 W O B d b = W d b)
    ∧ R0 W O B d (Proc.devRef .tc main_v6) = G0 (W d (Proc.devRef .tc main_arg0)) (W d (Proc.devRef .tc main_v4)) (W d (Proc.devRef .tc main_v5)) :=
  ⟨fun b hb => by unfold R0; exact Function.update_of_ne hb _ _, R0_eq W O B d⟩

/-- After the edge projection every buffer but the result is as before, and the result's row `e` is the three products
    of the edge's rows with the weights' row groups, summed in the kernel's order, plus the bias row. -/
theorem R1_eq (d : Dev nD) :
    R1 W O B d (Proc.devRef .tc main_v15) = G2 (W d (Proc.devRef .tc main_v9)) (W d (Proc.devRef .tc main_arg3)) (W d (Proc.devRef .tc main_arg2))
      (W d (Proc.devRef .tc main_v11)) (W d (Proc.devRef .tc main_v12)) (W d (Proc.devRef .tc main_v13)) (W d (Proc.devRef .tc main_v14)) := by
  rw [R1_out, final2]; rfl

theorem R1_read (d : Dev nD) :
    (∀ b, b ≠ Proc.devRef .tc main_v15 → R1 W O B d b = W d b)
    ∧ R1 W O B d (Proc.devRef .tc main_v15) = G2 (W d (Proc.devRef .tc main_v9)) (W d (Proc.devRef .tc main_arg3)) (W d (Proc.devRef .tc main_arg2))
        (W d (Proc.devRef .tc main_v11)) (W d (Proc.devRef .tc main_v12)) (W d (Proc.devRef .tc main_v13)) (W d (Proc.devRef .tc main_v14)) :=
  ⟨fun b hb => by unfold R1; exact Function.update_of_ne hb _ _, R1_eq W O B d⟩

end

end Cert.Proof.TcValue

end
-- ==== Proof.KernelValueAt.lean ====
/-
  The value of the program at the exact instance, for the chain of contents @main's own proof carries: the two
  TensorCore kernel regions' closed forms meet the two hypotheses the stage-by-stage value was proved under, so the
  result array at the end of @main is the specification's function of the launch contents of the arguments.
-/
import proofs.«206094_g687194767628_cont_sun_c4_81_43_alg».proof.Proof.KernelValue
import proofs.«206094_g687194767628_cont_sun_c4_81_43_alg».proof.Proof.TcValue
import proofs.«206094_g687194767628_cont_sun_c4_81_43_alg».proof.Proof.OnKernelIdeal.Main

noncomputable section

open scoped BigOperators

namespace Cert.Proof.KernelValue

open Cert.KernelIdeal Cert.KernelIdeal.Gen
open Cert.Proof.OnKernelIdeal Cert.Proof.OnKernelIdeal.Chain

open Idealize.ShloMosaic Idealize.ShloMosaic.ValueIdx

/-- A TensorCore array's place among the device's buffers. -/
local notation:max "𝐫(" r ")" => (Proc.devRef (τ := τ) Proc.tc r : DevRef τ sig)

/-- The node projection's region rewrites its result to the product with the transposed weight plus the bias row,
    and nothing else. -/
theorem h0_at : H0 (fun W => Tc.R0 W (Tc.Otc (F := Ideal) 0) (Tc.Btc (F := Ideal) 0)) := fun W d =>
  ⟨(TcValue.R0_read W (Tc.Otc (F := Ideal) 0) (Tc.Btc (F := Ideal) 0) d).1, fun n j => by
    have h : v6 (Tc.R0 W (Tc.Otc (F := Ideal) 0) (Tc.Btc (F := Ideal) 0) d) = TcValue.G0 (a0 (W d)) (v4 (W d)) (v5 (W d)) :=
      (TcValue.R0_read W (Tc.Otc (F := Ideal) 0) (Tc.Btc (F := Ideal) 0) d).2
    show v6 (Tc.R0 W (Tc.Otc (F := Ideal) 0) (Tc.Btc (F := Ideal) 0) d) (ix2 n j) = _
    rw [h]; rfl⟩

/-- The edge projection's region rewrites its result to the three products, summed in the kernel's order, plus the
    bias row, and nothing else. -/
theorem h1_at : H1 (fun W => Tc.R1 W (Tc.Otc (F := Ideal) 1) (Tc.Btc (F := Ideal) 1)) := fun W d =>
  ⟨(TcValue.R1_read W (Tc.Otc (F := Ideal) 1) (Tc.Btc (F := Ideal) 1) d).1, fun e j => by
    have h : v15 (Tc.R1 W (Tc.Otc (F := Ideal) 1) (Tc.Btc (F := Ideal) 1) d)
        = TcValue.G2 (v9 (W d)) (a3 (W d)) (a2 (W d)) (v11 (W d)) (v12 (W d)) (v13 (W d)) (v14 (W d)) :=
      (TcValue.R1_read W (Tc.Otc (F := Ideal) 1) (Tc.Btc (F := Ideal) 1) d).2
    show v15 (Tc.R1 W (Tc.Otc (F := Ideal) 1) (Tc.Btc (F := Ideal) 1) d) (ix2 e j) = _
    rw [h]; rfl⟩

/-- The chain @main's proof carries is the composed stages. -/
theorem WC'_eq (m : (ℓ : Loc nD τ sig) → Buf (Elt Ideal) ℓ) :
    Main.WC' (F := Ideal) m
      = Wfin (fun W => Tc.R0 W (Tc.Otc (F := Ideal) 0) (Tc.Btc (F := Ideal) 0)) (fun W => Tc.R1 W (Tc.Otc (F := Ideal) 1) (Tc.Btc (F := Ideal) 1)) m := rfl

/-- THE VALUE of the program: the result array at the end of @main is the specification's function of the
    launch contents of the arguments. -/
theorem kernel_value (m : (ℓ : Loc nD τ sig) → Buf (Elt Ideal) ℓ) (d : Dev nD) :
    (Main.WC' (F := Ideal) m d (Proc.devRef .tc main_v15) : S320000x128.Idx → EReal)
      = Spec.edgeOutSplit (Spec.edgeRelu (Spec.nodeH (m (d, 𝐫(main_arg0))) (m (d, 𝐫(main_arg5))) (m (d, 𝐫(main_arg6)))) (m (d, 𝐫(main_arg1))))
          (m (d, 𝐫(main_arg3))) (m (d, 𝐫(main_arg2))) (m (d, 𝐫(main_arg7))) (m (d, 𝐫(main_arg8))) :=
  value_launch h0_at h1_at m d

/-- No stage writes an argument: at the end of @main each is as launched. -/
theorem kernel_arg (m : (ℓ : Loc nD τ sig) → Buf (Elt Ideal) ℓ) (d : Dev nD) (r : Ref sig .tc)
    (hA : r ∉ opsA_W) (h6 : r ≠ main_v6) (hB : r ∉ opsB_W) (h9 : r ≠ main_v9) (hC : r ∉ opsC_W) (h15 : r ≠ main_v15) :
    Main.WC' (F := Ideal) m d (Proc.devRef .tc r) = m (d, 𝐫(r)) :=
  Wfin_arg h0_at h1_at m d r hA h6 hB h9 hC h15

end Cert.Proof.KernelValue

end
-- ==== Proof.Assemble.lean ====
/-
  The claim from the one thing it rests on: the body of a single vector subcore's task, at the word-level instance
  and at the exact one. Given that body at every place, the three frames, the sanctioned idealization (no rewrite
  was applied: nothing to show) and the equality of results follow: the launch of the thread family with its two
  TensorCore regions and the call between them; the edge list's range from the precondition; the kernel's result
  array as the node projection, the gathered rectified sums and the edge projection in three column bands; the
  reference's as the same with one 148-term product, equal by splitting that sum.
-/
import proofs.«206094_g687194767628_cont_sun_c4_81_43_alg».proof.Defs
import proofs.«206094_g687194767628_cont_sun_c4_81_43_alg».proof.Proof.Gen.Kernel
import proofs.«206094_g687194767628_cont_sun_c4_81_43_alg».proof.Proof.Gen.KernelIdeal
import proofs.«206094_g687194767628_cont_sun_c4_81_43_alg».proof.Proof.Gen.ReferenceIdeal
import proofs.«206094_g687194767628_cont_sun_c4_81_43_alg».proof.Proof.Gen.Pre_input_domain
import proofs.«206094_g687194767628_cont_sun_c4_81_43_alg».proof.Proof.OnKernelIdeal.Frame
import proofs.«206094_g687194767628_cont_sun_c4_81_43_alg».proof.Proof.OnKernelIdeal.IdxRange
import proofs.«206094_g687194767628_cont_sun_c4_81_43_alg».proof.Proof.OnKernel.Frame
import proofs.«206094_g687194767628_cont_sun_c4_81_43_alg».proof.Proof.OnKernel.IdxRange
import proofs.«206094_g687194767628_cont_sun_c4_81_43_alg».proof.Proof.RefValue
import proofs.«206094_g687194767628_cont_sun_c4_81_43_alg».proof.Proof.PreIdx
import proofs.«206094_g687194767628_cont_sun_c4_81_43_alg».proof.Proof.KernelValueAt

noncomputable section

namespace Cert.Proof.Assemble

open Idealize.ShloMosaic Idealize.SL.Sem

/-- The word-level program's frame. -/
theorem frame_p (hb : ∀ d L, Cert.Proof.OnKernel.Tile.TileBody (F := Bits) d L) : Cert.frame_Kernel := fun m ρ hpre =>
  (θ_run (Cert.Kernel.defs (F := Bits)) _ _).mono (fun _ h c => (h c).2)
    (Cert.Proof.OnKernel.Frame.run_read (F := Bits) m ρ hb
      (fun d L => Cert.Proof.OnKernel.Chain.idx_ok m _ _ d (fun i => Cert.Proof.PreIdx.idx_lt _ _ _ _ _ _ _ _ _ (hpre d) i) L))

/-- The idealized program's frame. -/
theorem frame_pi (hb : ∀ d L, Cert.Proof.OnKernelIdeal.Tile.TileBody (F := Ideal) d L) : Cert.frame_KernelIdeal := fun m ρ hpre =>
  (θ_run (Cert.KernelIdeal.defs (F := Ideal)) _ _).mono (fun _ h c => (h c).2)
    (Cert.Proof.OnKernelIdeal.Frame.run_read (F := Ideal) m ρ hb
      (fun d L => Cert.Proof.OnKernelIdeal.Chain.idx_ok m _ _ d (fun i => Cert.Proof.PreIdx.idx_lt _ _ _ _ _ _ _ _ _ (hpre d) i) L))

/-- The two idealized programs end with equal results. -/
theorem algebraic (hb : ∀ d L, Cert.Proof.OnKernelIdeal.Tile.TileBody (F := Ideal) d L) : Cert.algebraic_KernelIdeal_ReferenceIdeal := by
  intro m ρ m' ρ' hpre hagree
  have hidx' : ∀ (c : Dev Cert.ReferenceIdeal.nD) (i : (⟨2, ![2, 320000]⟩ : Shape).Idx),
      0 ≤ (m' ((c.tc : Thread Cert.ReferenceIdeal.nD Cert.ReferenceIdeal.τ).loc Cert.ReferenceIdeal.main_arg1) i).toInt
        ∧ (m' ((c.tc : Thread Cert.ReferenceIdeal.nD Cert.ReferenceIdeal.τ).loc Cert.ReferenceIdeal.main_arg1) i).toInt ≤ 9999 := by
    intro c i
    rw [(hagree c).2.1]
    exact Cert.Proof.PreIdx.idx_range _ _ _ _ _ _ _ _ _ (hpre c) i
  refine ⟨fun c => Cert.Proof.OnKernelIdeal.Main.WC' (F := Ideal) m c (Proc.devRef .tc Cert.KernelIdeal.main_v15),
    Cert.Proof.OnKernelIdeal.Frame.run_read (F := Ideal) m ρ hb
      (fun d L => Cert.Proof.OnKernelIdeal.Chain.idx_ok m _ _ d (fun i => Cert.Proof.PreIdx.idx_lt _ _ _ _ _ _ _ _ _ (hpre d) i) L), ?_⟩
  refine (θ_run (Cert.ReferenceIdeal.defs (F := Ideal)) _ _).mono (fun _ h c => ⟨(h c).1.trans ?_, (h c).2⟩)
    (Cert.Proof.RefValue.run_spec_of_idx m' ρ' hidx')
  obtain ⟨h0, h1, h2, h3, _, h5, h6, h7, h8⟩ := hagree c
  rw [h0, h1, h2, h3, h5, h6, h7, h8, Cert.Proof.Spec.edgeOut_eq_split]
  exact (Cert.Proof.KernelValue.kernel_value m c).symm

/-- Everything the certificate claims, from the task's body at the two instances. -/
theorem claim_of (hbB : ∀ d L, Cert.Proof.OnKernel.Tile.TileBody (F := Bits) d L)
    (hbI : ∀ d L, Cert.Proof.OnKernelIdeal.Tile.TileBody (F := Ideal) d L) : Cert.Claim :=
  ⟨Cert.Kernel.Gen.facts, Cert.KernelIdeal.Gen.facts, Cert.ReferenceIdeal.Gen.facts, Cert.Pre_input_domain.Gen.facts,
    frame_p hbB, frame_pi hbI, Cert.Proof.RefRun.frame_ri, trivial, algebraic hbI⟩

end Cert.Proof.Assemble

end
-- ==== Proof.OnKernelIdeal.TileInv.lean ====
/-
  One vector subcore's task of the gather kernel: the task's own storage, the contents its run passes
  through as functions of the chunk number, and small rules about holdings used by the body's proof.
-/
import proofs.«206094_g687194767628_cont_sun_c4_81_43_alg».proof.Proof.OnKernelIdeal.TileRes

noncomputable section

namespace Cert.Proof.OnKernelIdeal.Tile

open Cert.KernelIdeal Cert.KernelIdeal.Gen
open Cert.Proof.OnKernelIdeal

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Own

variable (d : Dev nD) (L : grid1.Coords)

/-- The cell of one of the task's DMA semaphores. -/
abbrev cellOf (sm : DmaSem sig) : GSem nD τ sig := (thr d L, SemLoc.dma sm)

omit [FloatOps F] in
theorem cell_ne {a b : DmaSem sig} (h : a ≠ b) : cellOf d L a ≠ cellOf d L b :=
  fun e => h (SemLoc.dma.inj (Prod.mk.inj e).2)

omit [FloatOps F] in
theorem ownSems0_V :
    (ownSems0 (thr d L) : sProp 𝕄)
      = iprop(semVal (cellOf d L cc1_scratch8.sem) 0 ∗ semVal (cellOf d L cc1_scratch9.sem) 0 ∗ semVal (cellOf d L cc1_scratch10.sem) 0 ∗ semVal (cellOf d L cc1_scratch11.sem) 0 ∗ semVal (cellOf d L cc1_scratch12.sem) 0 ∗ semVal (cellOf d L cc1_scratch13.sem) 0 ∗ semVal (cellOf d L cc1_scoped0.sem) 0 ∗ semVal (cellOf d L cc1_scoped1.sem) 0
          ∗ bigSep ((((((((((ownCells (thr d L)).erase (cellOf d L cc1_scratch8.sem)).erase (cellOf d L cc1_scratch9.sem)).erase (cellOf d L cc1_scratch10.sem)).erase (cellOf d L cc1_scratch11.sem)).erase (cellOf d L cc1_scratch12.sem)).erase (cellOf d L cc1_scratch13.sem)).erase (cellOf d L cc1_scoped0.sem)).erase (cellOf d L cc1_scoped1.sem)))
              fun g => semVal g 0) := by
  unfold SparseCore.Cfg.ownSems0
  rw [SparseCore.bigSep_erase' ((mem_ownCells (g := (cellOf d L cc1_scratch8.sem))).mpr ⟨rfl, by show (SemLoc.dma cc1_scratch8.sem : SemLoc sig).isScoped .scVector = true; decide⟩),
    SparseCore.bigSep_erase' (Finset.mem_erase.mpr ⟨cell_ne d L (by decide : (cc1_scratch9.sem : DmaSem sig) ≠ cc1_scratch8.sem), (mem_ownCells (g := (cellOf d L cc1_scratch9.sem))).mpr ⟨rfl, by show (SemLoc.dma cc1_scratch9.sem : SemLoc sig).isScoped .scVector = true; decide⟩⟩),
    SparseCore.bigSep_erase' (Finset.mem_erase.mpr ⟨cell_ne d L (by decide : (cc1_scratch10.sem : DmaSem sig) ≠ cc1_scratch9.sem), Finset.mem_erase.mpr ⟨cell_ne d L (by decide : (cc1_scratch10.sem : DmaSem sig) ≠ cc1_scratch8.sem), (mem_ownCells (g := (cellOf d L cc1_scratch10.sem))).mpr ⟨rfl, by show (SemLoc.dma cc1_scratch10.sem : SemLoc sig).isScoped .scVector = true; decide⟩⟩⟩),
    SparseCore.bigSep_erase' (Finset.mem_erase.mpr ⟨cell_ne d L (by decide : (cc1_scratch11.sem : DmaSem sig) ≠ cc1_scratch10.sem), Finset.mem_erase.mpr ⟨cell_ne d L (by decide : (cc1_scratch11.sem : DmaSem sig) ≠ cc1_scratch9.sem), Finset.mem_erase.mpr ⟨cell_ne d L (by decide : (cc1_scratch11.sem : DmaSem sig) ≠ cc1_scratch8.sem), (mem_ownCells (g := (cellOf d L cc1_scratch11.sem))).mpr ⟨rfl, by show (SemLoc.dma cc1_scratch11.sem : SemLoc sig).isScoped .scVector = true; decide⟩⟩⟩⟩),
    SparseCore.bigSep_erase' (Finset.mem_erase.mpr ⟨cell_ne d L (by decide : (cc1_scratch12.sem : DmaSem sig) ≠ cc1_scratch11.sem), Finset.mem_erase.mpr ⟨cell_ne d L (by decide : (cc1_scratch12.sem : DmaSem sig) ≠ cc1_scratch10.sem), Finset.mem_erase.mpr ⟨cell_ne d L (by decide : (cc1_scratch12.sem : DmaSem sig) ≠ cc1_scratch9.sem), Finset.mem_erase.mpr ⟨cell_ne d L (by decide : (cc1_scratch12.sem : DmaSem sig) ≠ cc1_scratch8.sem), (mem_ownCells (g := (cellOf d L cc1_scratch12.sem))).mpr ⟨rfl, by show (SemLoc.dma cc1_scratch12.sem : SemLoc sig).isScoped .scVector = true; decide⟩⟩⟩⟩⟩),
    SparseCore.bigSep_erase' (Finset.mem_erase.mpr ⟨cell_ne d L (by decide : (cc1_scratch13.sem : DmaSem sig) ≠ cc1_scratch12.sem), Finset.mem_erase.mpr ⟨cell_ne d L (by decide : (cc1_scratch13.sem : DmaSem sig) ≠ cc1_scratch11.sem), Finset.mem_erase.mpr ⟨cell_ne d L (by decide : (cc1_scratch13.sem : DmaSem sig) ≠ cc1_scratch10.sem), Finset.mem_erase.mpr ⟨cell_ne d L (by decide : (cc1_scratch13.sem : DmaSem sig) ≠ cc1_scratch9.sem), Finset.mem_erase.mpr ⟨cell_ne d L (by decide : (cc1_scratch13.sem : DmaSem sig) ≠ cc1_scratch8.sem), (mem_ownCells (g := (cellOf d L cc1_scratch13.sem))).mpr ⟨rfl, by show (SemLoc.dma cc1_scratch13.sem : SemLoc sig).isScoped .scVector = true; decide⟩⟩⟩⟩⟩⟩),
    SparseCore.bigSep_erase' (Finset.mem_erase.mpr ⟨cell_ne d L (by decide : (cc1_scoped0.sem : DmaSem sig) ≠ cc1_scratch13.sem), Finset.mem_erase.mpr ⟨cell_ne d L (by decide : (cc1_scoped0.sem : DmaSem sig) ≠ cc1_scratch12.sem), Finset.mem_erase.mpr ⟨cell_ne d L (by decide : (cc1_scoped0.sem : DmaSem sig) ≠ cc1_scratch11.sem), Finset.mem_erase.mpr ⟨cell_ne d L (by decide : (cc1_scoped0.sem : DmaSem sig) ≠ cc1_scratch10.sem), Finset.mem_erase.mpr ⟨cell_ne d L (by decide : (cc1_scoped0.sem : DmaSem sig) ≠ cc1_scratch9.sem), Finset.mem_erase.mpr ⟨cell_ne d L (by decide : (cc1_scoped0.sem : DmaSem sig) ≠ cc1_scratch8.sem), (mem_ownCells (g := (cellOf d L cc1_scoped0.sem))).mpr ⟨rfl, by show (SemLoc.dma cc1_scoped0.sem : SemLoc sig).isScoped .scVector = true; decide⟩⟩⟩⟩⟩⟩⟩),
    SparseCore.bigSep_erase' (Finset.mem_erase.mpr ⟨cell_ne d L (by decide : (cc1_scoped1.sem : DmaSem sig) ≠ cc1_scoped0.sem), Finset.mem_erase.mpr ⟨cell_ne d L (by decide : (cc1_scoped1.sem : DmaSem sig) ≠ cc1_scratch13.sem), Finset.mem_erase.mpr ⟨cell_ne d L (by decide : (cc1_scoped1.sem : DmaSem sig) ≠ cc1_scratch12.sem), Finset.mem_erase.mpr ⟨cell_ne d L (by decide : (cc1_scoped1.sem : DmaSem sig) ≠ cc1_scratch11.sem), Finset.mem_erase.mpr ⟨cell_ne d L (by decide : (cc1_scoped1.sem : DmaSem sig) ≠ cc1_scratch10.sem), Finset.mem_erase.mpr ⟨cell_ne d L (by decide : (cc1_scoped1.sem : DmaSem sig) ≠ cc1_scratch9.sem), Finset.mem_erase.mpr ⟨cell_ne d L (by decide : (cc1_scoped1.sem : DmaSem sig) ≠ cc1_scratch8.sem), (mem_ownCells (g := (cellOf d L cc1_scoped1.sem))).mpr ⟨rfl, by show (SemLoc.dma cc1_scoped1.sem : SemLoc sig).isScoped .scVector = true; decide⟩⟩⟩⟩⟩⟩⟩⟩)]

omit [FloatOps F] in
theorem ownBufs_V :
    (ownBufs (thr d L) : sProp 𝕄)
      = iprop((∃ f, (thr d L).loc cc1_scratch0 ↦{fullShare} f) ∗ (∃ f, (thr d L).loc cc1_scratch1 ↦{fullShare} f) ∗ (∃ f, (thr d L).loc cc1_scratch2 ↦{fullShare} f) ∗ (∃ f, (thr d L).loc cc1_scratch3 ↦{fullShare} f) ∗ (∃ f, (thr d L).loc cc1_scratch4 ↦{fullShare} f) ∗ (∃ f, (thr d L).loc cc1_scratch5 ↦{fullShare} f) ∗ (∃ f, (thr d L).loc cc1_scratch6 ↦{fullShare} f) ∗ (∃ f, (thr d L).loc cc1_scratch7 ↦{fullShare} f)
          ∗ bigSep ((((((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5)).erase ((Proc.scVector (cV L) (jV L)).devRef cc1_scratch6)).erase ((Proc.scVector (cV L) (jV L)).devRef cc1_scratch7)))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc1_scratch0)) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV L) (jV L)) (b := ((Proc.scVector (cV L) (jV L)).devRef cc1_scratch1)) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV L) (jV L)) (b := ((Proc.scVector (cV L) (jV L)).devRef cc1_scratch2)) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector (cV L) (jV L)) (b := ((Proc.scVector (cV L) (jV L)).devRef cc1_scratch3)) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector (cV L) (jV L)) (b := ((Proc.scVector (cV L) (jV L)).devRef cc1_scratch4)) rfl⟩⟩⟩⟩),
    SparseCore.bigSep_erase' (Finset.mem_erase.mpr ⟨fun e => absurd (Proc.devRef_injective _ e) (show (cc1_scratch5 : Ref sig .scVector) ≠ cc1_scratch4 by decide), Finset.mem_erase.mpr ⟨fun e => absurd (Proc.devRef_injective _ e) (show (cc1_scratch5 : Ref sig .scVector) ≠ cc1_scratch3 by decide), Finset.mem_erase.mpr ⟨fun e => absurd (Proc.devRef_injective _ e) (show (cc1_scratch5 : Ref sig .scVector) ≠ cc1_scratch2 by decide), Finset.mem_erase.mpr ⟨fun e => absurd (Proc.devRef_injective _ e) (show (cc1_scratch5 : Ref sig .scVector) ≠ cc1_scratch1 by decide), Finset.mem_erase.mpr ⟨fun e => absurd (Proc.devRef_injective _ e) (show (cc1_scratch5 : Ref sig .scVector) ≠ cc1_scratch0 by decide), SparseCore.Cfg.mem_ownRefs_of_owner (p := Proc.scVector (cV L) (jV L)) (b := ((Proc.scVector (cV L) (jV L)).devRef cc1_scratch5)) rfl⟩⟩⟩⟩⟩),
    SparseCore.bigSep_erase' (Finset.mem_erase.mpr ⟨fun e => absurd (Proc.devRef_injective _ e) (show (cc1_scratch6 : Ref sig .scVector) ≠ cc1_scratch5 by decide), Finset.mem_erase.mpr ⟨fun e => absurd (Proc.devRef_injective _ e) (show (cc1_scratch6 : Ref sig .scVector) ≠ cc1_scratch4 by decide), Finset.mem_erase.mpr ⟨fun e => absurd (Proc.devRef_injective _ e) (show (cc1_scratch6 : Ref sig .scVector) ≠ cc1_scratch3 by decide), Finset.mem_erase.mpr ⟨fun e => absurd (Proc.devRef_injective _ e) (show (cc1_scratch6 : Ref sig .scVector) ≠ cc1_scratch2 by decide), Finset.mem_erase.mpr ⟨fun e => absurd (Proc.devRef_injective _ e) (show (cc1_scratch6 : Ref sig .scVector) ≠ cc1_scratch1 by decide), Finset.mem_erase.mpr ⟨fun e => absurd (Proc.devRef_injective _ e) (show (cc1_scratch6 : Ref sig .scVector) ≠ cc1_scratch0 by decide), SparseCore.Cfg.mem_ownRefs_of_owner (p := Proc.scVector (cV L) (jV L)) (b := ((Proc.scVector (cV L) (jV L)).devRef cc1_scratch6)) rfl⟩⟩⟩⟩⟩⟩),
    SparseCore.bigSep_erase' (Finset.mem_erase.mpr ⟨fun e => absurd (Proc.devRef_injective _ e) (show (cc1_scratch7 : Ref sig .scVector) ≠ cc1_scratch6 by decide), Finset.mem_erase.mpr ⟨fun e => absurd (Proc.devRef_injective _ e) (show (cc1_scratch7 : Ref sig .scVector) ≠ cc1_scratch5 by decide), Finset.mem_erase.mpr ⟨fun e => absurd (Proc.devRef_injective _ e) (show (cc1_scratch7 : Ref sig .scVector) ≠ cc1_scratch4 by decide), Finset.mem_erase.mpr ⟨fun e => absurd (Proc.devRef_injective _ e) (show (cc1_scratch7 : Ref sig .scVector) ≠ cc1_scratch3 by decide), Finset.mem_erase.mpr ⟨fun e => absurd (Proc.devRef_injective _ e) (show (cc1_scratch7 : Ref sig .scVector) ≠ cc1_scratch2 by decide), Finset.mem_erase.mpr ⟨fun e => absurd (Proc.devRef_injective _ e) (show (cc1_scratch7 : Ref sig .scVector) ≠ cc1_scratch1 by decide), Finset.mem_erase.mpr ⟨fun e => absurd (Proc.devRef_injective _ e) (show (cc1_scratch7 : Ref sig .scVector) ≠ cc1_scratch0 by decide), SparseCore.Cfg.mem_ownRefs_of_owner (p := Proc.scVector (cV L) (jV L)) (b := ((Proc.scVector (cV L) (jV L)).devRef cc1_scratch7)) rfl⟩⟩⟩⟩⟩⟩⟩)]

omit [FloatOps F] in
theorem pts_h (q : PosShare TreeShare) (f : Buf (Elt F) (hLoc d)) :
    ((hV).view.loc (thr d L) ↦{q} f : sProp 𝕄) = hLoc d ↦{q} f := rfl
omit [FloatOps F] in
theorem pts_sRowK (f : Buf (Elt F) (sLoc d)) :
    ((sRowK L).view.loc (thr d L) ↦[(sRowK L).view.set]{fullShare} f : sProp 𝕄) = sLoc d ↦[idxSet L]{fullShare} f := rfl
omit [FloatOps F] in
theorem dRowK_set : (dRowK L).view.set = idxSet L := rfl
omit [FloatOps F] in
theorem pts_dRowK (f : Buf (Elt F) (dLoc d)) :
    ((dRowK L).view.loc (thr d L) ↦[(dRowK L).view.set]{fullShare} f : sProp 𝕄) = dLoc d ↦[idxSet L]{fullShare} f := rfl
omit [FloatOps F] in
theorem pts_scr (b : Ref sig .scVector) (f : Buf (Elt F) ((thr d L).loc b)) :
    ((Memref.whole b : Memref sig .scVector _ _ _).view.loc (thr d L) ↦{fullShare} f : sProp 𝕄) = (thr d L).loc b ↦{fullShare} f := rfl

/-- The task's rows of the two index arrays as its scratches hold them after the first two copies. -/
def idxS (sv : Buf (Elt F) (sLoc d)) : Buf (Elt F) ((thr d L).loc cc1_scratch0) := (sRowK L).view.read (Elt F) sv
def idxD (dv : Buf (Elt F) (dLoc d)) : Buf (Elt F) ((thr d L).loc cc1_scratch1) := (dRowK L).view.read (Elt F) dv

omit [FloatOps F] in
theorem idxS_apply (sv : Buf (Elt F) (sLoc d)) (y : S125x80.Idx) : idxS d L sv y = sv ((sRowK L).view.emb y) :=
  (View.read_apply _ _).trans (cast_eq _ _)
omit [FloatOps F] in
theorem idxD_apply (dv : Buf (Elt F) (dLoc d)) (y : S125x80.Idx) : idxD d L dv y = dv ((dRowK L).view.emb y) :=
  (View.read_apply _ _).trans (cast_eq _ _)

omit [FloatOps F] in
theorem idxS_lt {sv : Buf (Elt F) (sLoc d)} {dv : Buf (Elt F) (dLoc d)} (hidx : IdxOK (F := F) d L sv dv) (y : S125x80.Idx) :
    (idxS d L sv y).toNat < 10000 := by
  rw [idxS_apply]; exact (hidx _ ((sRowK L).view.emb_mem_set y)).1
omit [FloatOps F] in
theorem idxD_lt {sv : Buf (Elt F) (sLoc d)} {dv : Buf (Elt F) (dLoc d)} (hidx : IdxOK (F := F) d L sv dv) (y : S125x80.Idx) :
    (idxD d L dv y).toNat < 10000 := by
  rw [idxD_apply]; exact (hidx _ ((dRowK L).view.emb_mem_set y)).2

omit [FloatOps F] in
theorem pts_eq {ℓ : Loc nD τ sig} {I : Finset (Idx ℓ)} {p : PosShare TreeShare} {f g : Buf (Elt F) ℓ} (h : f = g) :
    (ℓ ↦[I]{p} f : sProp 𝕄) ⊢ ℓ ↦[I]{p} g := by subst h; exact .rfl

omit [FloatOps F] in
theorem write_scr (b : Ref sig .scVector) (f w : Buf (Elt F) ((thr d L).loc b)) :
    View.write (Elt F) (Memref.whole b : Memref sig .scVector _ _ _).view f w Finset.univ = w := View.write_whole_univ _ _ _

/-- A resource set aside: held, but not offered to the next steps of the run. -/
def hid (P : sProp 𝕄) : sProp 𝕄 := P
omit [FloatOps F] in
theorem hid_in (P : sProp 𝕄) : P ⊢ hid (F := F) P := .rfl
omit [FloatOps F] in
theorem hid_out (P : sProp 𝕄) : hid (F := F) P ⊢ P := .rfl

omit [FloatOps F] in
/-- A share of some elements is its two halves. -/
theorem pts_halve {ℓ : Loc nD τ sig} {I : Finset (Idx ℓ)} {p : PosShare TreeShare} {f : Buf (Elt F) ℓ} :
    (ℓ ↦[I]{p} f : sProp 𝕄) ⊢ iprop((ℓ ↦[I]{p.left} f) ∗ ℓ ↦[I]{p.right} f) :=
  (pointsTo_share (PosShare.mem_left_op_right p)).1
omit [FloatOps F] in
theorem pts_unhalve {ℓ : Loc nD τ sig} {I : Finset (Idx ℓ)} {p : PosShare TreeShare} {f : Buf (Elt F) ℓ} :
    iprop((ℓ ↦[I]{p.left} f) ∗ ℓ ↦[I]{p.right} f) ⊢ (ℓ ↦[I]{p} f : sProp 𝕄) :=
  (pointsTo_share (PosShare.mem_left_op_right p)).2

/-! ## The contents the run passes through, as functions of the chunk number -/

/-- Entry r of chunk n of a task's index row (chunk numbers past the last read as the last). -/
def chunkIx (n : ℕ) (r : Fin 80) : S125x80.Idx := ix2 (⟨min n 124, by omega⟩ : Fin 125) r

/-- The elements of chunk n of an index scratch. -/
def rowSetN (n : ℕ) : Finset S125x80.Idx := Finset.univ.filter fun x => (x 0).val = n

/-- Chunk n gathered: row r holds the node row that entry r of chunk n of the index list names. -/
def gath (hv : Buf (Elt F) (hLoc d)) (idx : S125x80.Idx → Elt F .i32) (n : ℕ) : S80x128.Idx → Elt F .f32 :=
  fun x => hv (ix2 (nodeOf (idx (chunkIx n (x 0)))) (x 1))

/-- Chunk n computed: the two gathered chunks added and rectified. -/
def obC (hv : Buf (Elt F) (hLoc d)) (sv : Buf (Elt F) (sLoc d)) (dv : Buf (Elt F) (dLoc d)) (n : ℕ) : S80x128.Idx → Elt F .f32 :=
  fun x => relu2 (F := F) (gath d hv (idxS d L sv) n x) (gath d hv (idxD d L dv) n x)

/-- Two chunks added and rectified, entry by entry. -/
def reluRows (a b : S80x128.Idx → Elt F .f32) : S80x128.Idx → Elt F .f32 := fun x => relu2 (F := F) (a x) (b x)

theorem obC_eq (hv : Buf (Elt F) (hLoc d)) (sv : Buf (Elt F) (sLoc d)) (dv : Buf (Elt F) (dLoc d)) (n : ℕ) :
    obC d L hv sv dv n = reluRows (gath d hv (idxS d L sv) n) (gath d hv (idxD d L dv) n) := rfl

/-- The rows of chunk n of the task's part of the result. -/
def chunkSetN (n : ℕ) : Finset S320000x128.Idx :=
  Finset.univ.filter fun x => 10000 * wid L + 80 * n ≤ (x 0).val ∧ (x 0).val < 10000 * wid L + 80 * n + 80

/-! ## The memrefs the run slices, spelt as the program spells them -/

/-- The node features as every gather names them: sliced at the full rectangle. -/
abbrev hS : Memref sig .scVector .hbm S10000x128 .f32 :=
  (hV).slice (Rect.unit (s := S10000x128) ![0, 0] S10000x128.size inb_S10000x128_S10000x128_0_0) (fun _ => rfl)
/-- One chunk (a row of 80) of an index scratch as a gather's offset list. -/
abbrev rowM0 (off : Fin 2 → ℕ) (inb : ∀ a, off a + S1x80.size a ≤ S125x80.size a) (hr : ∀ a, (Rect.unit (s := S125x80) off S1x80.size inb).stride a = 1) :
    Memref sig .scVector .vmem S80 .i32 :=
  ((Memref.whole cc1_scratch0 : Memref sig .scVector .vmem S125x80 .i32).slice (Rect.unit (s := S125x80) off S1x80.size inb) hr).squeeze S80 squeezes_S1x80_S80
abbrev rowM1 (off : Fin 2 → ℕ) (inb : ∀ a, off a + S1x80.size a ≤ S125x80.size a) (hr : ∀ a, (Rect.unit (s := S125x80) off S1x80.size inb).stride a = 1) :
    Memref sig .scVector .vmem S80 .i32 :=
  ((Memref.whole cc1_scratch1 : Memref sig .scVector .vmem S125x80 .i32).slice (Rect.unit (s := S125x80) off S1x80.size inb) hr).squeeze S80 squeezes_S1x80_S80
/-- Eighty rows of the result as a copy-out names them. -/
abbrev oChunkM (off : Fin 2 → ℕ) (inb : ∀ a, off a + S80x128.size a ≤ S320000x128.size a) (hr : ∀ a, (Rect.unit (s := S320000x128) off S80x128.size inb).stride a = 1) :
    Memref sig .scVector .hbm S80x128 .f32 :=
  (oV).slice (Rect.unit (s := S320000x128) off S80x128.size inb) hr

/-- The three row loops' regions on the task's operands. -/
abbrev t2Body (v2 c0 c1 : BitVec 32) (k1 : Fin k1_t1_loop.trips) :=
  k1_t2_body (F := F) L hV (Memref.isWhole_whole _) sV (Memref.isWhole_whole _) dV (Memref.isWhole_whole _) oV (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    (Memref.whole cc1_scratch4) (Memref.isWhole_whole _) (Memref.whole cc1_scratch5) (Memref.isWhole_whole _)
    (Memref.whole cc1_scratch6) (Memref.isWhole_whole _) (Memref.whole cc1_scratch7) (Memref.isWhole_whole _)
    cc1_scratch8 cc1_scratch9 cc1_scratch10 cc1_scratch11 cc1_scratch12 cc1_scratch13 cc1_scoped0 cc1_scoped1 v2 c0 c1 k1
abbrev t3Body (v2 : BitVec 32) :=
  k1_t3_body (F := F) L hV (Memref.isWhole_whole _) sV (Memref.isWhole_whole _) dV (Memref.isWhole_whole _) oV (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    (Memref.whole cc1_scratch4) (Memref.isWhole_whole _) (Memref.whole cc1_scratch5) (Memref.isWhole_whole _)
    (Memref.whole cc1_scratch6) (Memref.isWhole_whole _) (Memref.whole cc1_scratch7) (Memref.isWhole_whole _)
    cc1_scratch8 cc1_scratch9 cc1_scratch10 cc1_scratch11 cc1_scratch12 cc1_scratch13 cc1_scoped0 cc1_scoped1 v2
abbrev t4Body (v2 : BitVec 32) :=
  k1_t4_body (F := F) L hV (Memref.isWhole_whole _) sV (Memref.isWhole_whole _) dV (Memref.isWhole_whole _) oV (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    (Memref.whole cc1_scratch4) (Memref.isWhole_whole _) (Memref.whole cc1_scratch5) (Memref.isWhole_whole _)
    (Memref.whole cc1_scratch6) (Memref.isWhole_whole _) (Memref.whole cc1_scratch7) (Memref.isWhole_whole _)
    cc1_scratch8 cc1_scratch9 cc1_scratch10 cc1_scratch11 cc1_scratch12 cc1_scratch13 cc1_scoped0 cc1_scoped1 v2

/-- A scratch of 80 × 128 floats of the task, held whole. -/
abbrev scr (b : Ref sig .scVector) (f : Buf (Elt F) ((thr d L).loc b)) : sProp 𝕄 :=
  (Memref.whole b : Memref sig .scVector _ _ _).view.loc (thr d L) ↦{fullShare} f

end Own

end Cert.Proof.OnKernelIdeal.Tile

end
-- ==== Proof.OnKernelIdeal.TileLoop.lean ====
/-
  One vector subcore's task of the gather kernel: the outer loop's invariant.
  Two chunks per trip, one per slot; per slot two gathers (source rows, destination rows) and one copy-out are
  in flight across trips, each on a semaphore of its own.
-/
import proofs.«206094_g687194767628_cont_sun_c4_81_43_alg».proof.Proof.OnKernelIdeal.TileInv

noncomputable section

namespace Cert.Proof.OnKernelIdeal.Tile

open Cert.KernelIdeal Cert.KernelIdeal.Gen
open Cert.Proof.OnKernelIdeal

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid1.Coords)

omit [FloatOps F] in
/-- A triple run at the head of a program: its precondition, and the continuation from its postcondition. -/
theorem triple_bind {α β : Type} {c : Thread nD τ} {p : Prog (TpuEff nD τ sig (Elt F) Λ₀ c.2) α} {k : α → Prog (TpuEff nD τ sig (Elt F) Λ₀ c.2) β}
    {P : sProp 𝕄} {Qp : α → sProp 𝕄} {Q : β → sProp 𝕄} [FloatOps F]
    (hp : P ⊢ wp frame (wpE (defs₀ (F := F)) 𝒱₀ c none) Set.univ p Qp) :
    iprop(P ∗ (∀ a, Qp a -∗ wp frame (wpE (defs₀ (F := F)) 𝒱₀ c none) Set.univ (k a) Q))
      ⊢ wp frame (wpE (defs₀ (F := F)) 𝒱₀ c none) Set.univ (p >>= k) Q := by
  rw [wp_bind]
  exact (sep_mono hp .rfl).trans (wp_wand_r _ _ _)

variable (q : PosShare TreeShare) (hv : Buf (Elt F) (hLoc d)) (sv : Buf (Elt F) (sLoc d)) (dv : Buf (Elt F) (dLoc d))

/-! ## Gathers in flight: the Flight with its delivery (the gathered chunk, the chunk's index entries, the share of
the node features) beside the rest of the index scratch's share -/

/-- Slot 0, source rows of chunk n. -/
def gfJ0 (n : ℕ) : sProp 𝕄 :=
  iprop(Transfers.Flight countersEmb (thr d L) (SemLoc.dma cc1_scratch8.sem) default 327680
      iprop(((scr d L cc1_scratch2 (gath d hv (idxS d L sv) n))
          ∗ ((Memref.whole cc1_scratch0 : Memref sig .scVector .vmem S125x80 .i32).view.loc (thr d L) ↦[rowSetN n]{fullShare.left} idxS d L sv))
        ∗ ((hV).view.loc (thr d L) ↦{q.left.left} hv))
    ∗ ((Memref.whole cc1_scratch0 : Memref sig .scVector .vmem S125x80 .i32).view.loc (thr d L) ↦[Finset.univ \ rowSetN n]{fullShare.left} idxS d L sv))
/-- Slot 0, destination rows of chunk n. -/
def gfI0 (n : ℕ) : sProp 𝕄 :=
  iprop(Transfers.Flight countersEmb (thr d L) (SemLoc.dma cc1_scratch10.sem) default 327680
      iprop(((scr d L cc1_scratch4 (gath d hv (idxD d L dv) n))
          ∗ ((Memref.whole cc1_scratch1 : Memref sig .scVector .vmem S125x80 .i32).view.loc (thr d L) ↦[rowSetN n]{fullShare.left} idxD d L dv))
        ∗ ((hV).view.loc (thr d L) ↦{q.left.right} hv))
    ∗ ((Memref.whole cc1_scratch1 : Memref sig .scVector .vmem S125x80 .i32).view.loc (thr d L) ↦[Finset.univ \ rowSetN n]{fullShare.left} idxD d L dv))
/-- Slot 1, source rows of chunk n. -/
def gfJ1 (n : ℕ) : sProp 𝕄 :=
  iprop(Transfers.Flight countersEmb (thr d L) (SemLoc.dma cc1_scratch9.sem) default 327680
      iprop(((scr d L cc1_scratch3 (gath d hv (idxS d L sv) n))
          ∗ ((Memref.whole cc1_scratch0 : Memref sig .scVector .vmem S125x80 .i32).view.loc (thr d L) ↦[rowSetN n]{fullShare.right} idxS d L sv))
        ∗ ((hV).view.loc (thr d L) ↦{q.right.left} hv))
    ∗ ((Memref.whole cc1_scratch0 : Memref sig .scVector .vmem S125x80 .i32).view.loc (thr d L) ↦[Finset.univ \ rowSetN n]{fullShare.right} idxS d L sv))
/-- Slot 1, destination rows of chunk n. -/
def gfI1 (n : ℕ) : sProp 𝕄 :=
  iprop(Transfers.Flight countersEmb (thr d L) (SemLoc.dma cc1_scratch11.sem) default 327680
      iprop(((scr d L cc1_scratch5 (gath d hv (idxD d L dv) n))
          ∗ ((Memref.whole cc1_scratch1 : Memref sig .scVector .vmem S125x80 .i32).view.loc (thr d L) ↦[rowSetN n]{fullShare.right} idxD d L dv))
        ∗ ((hV).view.loc (thr d L) ↦{q.right.right} hv))
    ∗ ((Memref.whole cc1_scratch1 : Memref sig .scVector .vmem S125x80 .i32).view.loc (thr d L) ↦[Finset.univ \ rowSetN n]{fullShare.right} idxD d L dv))

/-- Slot 1 with no gather in flight (after its last chunk): its two scratches, semaphores at zero, its shares. -/
def idle1 : sProp 𝕄 :=
  iprop((∃ f, scr d L cc1_scratch3 f) ∗ (∃ f, scr d L cc1_scratch5 f)
    ∗ semVal (cellOf d L cc1_scratch9.sem) 0 ∗ semVal (cellOf d L cc1_scratch11.sem) 0
    ∗ ((Memref.whole cc1_scratch0 : Memref sig .scVector .vmem S125x80 .i32).view.loc (thr d L) ↦{fullShare.right} idxS d L sv)
    ∗ ((Memref.whole cc1_scratch1 : Memref sig .scVector .vmem S125x80 .i32).view.loc (thr d L) ↦{fullShare.right} idxD d L dv)
    ∗ ((hV).view.loc (thr d L) ↦{q.right.left} hv) ∗ ((hV).view.loc (thr d L) ↦{q.right.right} hv))

/-! ## Copy-outs in flight: chunk n's rows of the result at the value, the staging scratch back -/

/-- Slot 0's copy-out of chunk n. -/
def ofl0 (n : ℕ) : sProp 𝕄 :=
  Transfers.Flight countersEmb (thr d L) (SemLoc.dma cc1_scratch12.sem) default 327680
    iprop(((oV).view.loc (thr d L) ↦[chunkSetN L n]{fullShare} outRows d hv sv dv) ∗ scr d L cc1_scratch6 (obC d L hv sv dv n))
/-- Slot 1's copy-out of chunk n. -/
def ofl1 (n : ℕ) : sProp 𝕄 :=
  Transfers.Flight countersEmb (thr d L) (SemLoc.dma cc1_scratch13.sem) default 327680
    iprop(((oV).view.loc (thr d L) ↦[chunkSetN L n]{fullShare} outRows d hv sv dv) ∗ scr d L cc1_scratch7 (obC d L hv sv dv n))

/-- A slot before its first copy-out: the staging scratch at some contents, the semaphore at zero. -/
def idleOut0 : sProp 𝕄 := iprop((∃ f, scr d L cc1_scratch6 f) ∗ semVal (cellOf d L cc1_scratch12.sem) 0)
def idleOut1 : sProp 𝕄 := iprop((∃ f, scr d L cc1_scratch7 f) ∗ semVal (cellOf d L cc1_scratch13.sem) 0)

/-! ## The task's rows of the result: the chunks below m at the value, the chunks from n on still to be written -/

def doneSetN (m : ℕ) : Finset S320000x128.Idx :=
  Finset.univ.filter fun x => 10000 * wid L ≤ (x 0).val ∧ (x 0).val < 10000 * wid L + 80 * m
def restSetN (n : ℕ) : Finset S320000x128.Idx :=
  Finset.univ.filter fun x => 10000 * wid L + 80 * n ≤ (x 0).val ∧ (x 0).val < 10000 * wid L + 10000

def outPart (m n : ℕ) : sProp 𝕄 :=
  iprop(((oV).view.loc (thr d L) ↦[doneSetN L m]{fullShare} outRows d hv sv dv) ∗ ∃ f, (oV).view.loc (thr d L) ↦[restSetN L n]{fullShare} f)

/-! ## The invariant -/

variable (O : CellTallies nD τ sig (HIx 1)) (W : Waits sig (HIx 1))

/-- Before trip k of the outer loop: the gathers of chunks 2k (slot 0) and 2k + 1 (slot 1) are in flight; from the
    second trip on so are the copy-outs of chunks 2k - 2 and 2k - 1; the chunks below 2k - 2 are at the value. -/
def inv (k : ℕ) (_ : PUnit) : sProp 𝕄 :=
  iprop(Transfers.MayWaits (thr d L) (none : HIx 1) O
    ∗ gfJ0 d L q hv sv (2 * k) ∗ gfI0 d L q hv dv (2 * k)
    ∗ (if 2 * k + 1 < 125 then iprop(gfJ1 d L q hv sv (2 * k + 1) ∗ gfI1 d L q hv dv (2 * k + 1)) else idle1 d L q hv sv dv)
    ∗ (if k = 0 then iprop(idleOut0 d L ∗ idleOut1 d L) else iprop(ofl0 d L hv sv dv (2 * k - 2) ∗ ofl1 d L hv sv dv (2 * k - 1)))
    ∗ outPart d L hv sv dv (2 * k - 2) (2 * k)
    ∗ ∃ W', ⌜∀ p ∈ W', p ∈ W ∨ p.2 = none⌝ ∗ owes (thr d L) O W')

end Cert.Proof.OnKernelIdeal.Tile

end
-- ==== Proof.OnKernelIdeal.TileContent.lean ====
/-
  One vector subcore's task of the gather kernel: the pure equations between what a gather and a copy-out
  write and the chunk functions of the task.

  A gather of 80 node rows at the 80 index words of chunk n of an index scratch leaves, at row r lane j, the
  node feature at (node named by word r of chunk n, j). A copy-out of chunk n computed, to rows
  [10000 w + 80 n, 10000 w + 80 n + 80) of the result, agrees there with the result's value, because edge
  e = 10000 w + 80 n + r is entry (w, n, r) of the index arrays. The task's 10000 rows are the disjoint union
  of its 125 chunks of 80 rows.
-/
import proofs.«206094_g687194767628_cont_sun_c4_81_43_alg».proof.Proof.OnKernelIdeal.TileInv

noncomputable section

namespace Cert.Proof.OnKernelIdeal.Tile

open Cert.KernelIdeal Cert.KernelIdeal.Gen
open Cert.Proof.OnKernelIdeal

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid1.Coords)

/-! ## Indices -/

omit [FloatOps F] in
/-- The source index of a gather of rows of a 10000 × 128 array into 80 × 128: the row the list names for the
    index's row, the index's own lane. -/
theorem gidx_apply (hg : S10000x128.Gathers 0 S80x128) (r : Fin (S80x128.size hg.axis') → Fin (S10000x128.size hg.axis)) (x : S80x128.Idx) :
    hg.idx r x = ix2 (n0 := 10000) (n1 := 128) (r (x 0)) (x 1) := by
  funext b
  match b with
  | ⟨0, _⟩ => exact Shape.Gathers.idx_axis hg r x
  | ⟨1, _⟩ => exact Fin.ext (Shape.Gathers.idx_of_ne hg r x ⟨1, by decide⟩ (by decide))

omit [FloatOps F] in
/-- The index of a list of 80 at row-major position k is k. -/
theorem rowMajor_symm_S80 (k : Fin S80.numel) : S80.rowMajor.symm k = ix1 (n := 80) (k.cast rfl) := by
  apply S80.rowMajor.injective
  rw [Equiv.apply_symm_apply]
  apply Fin.ext
  rw [Shape.rowMajor_val_one]
  rfl

omit [FloatOps F] in
/-- Entry y of a list of 80 is entry y of the one row of the 1 × 80 array it is squeezed from. -/
theorem reshape_S80 (h : S80.numel = S1x80.numel) (y : S80.Idx) :
    Shape.reshapeEquiv h y = ix2 (n0 := 1) (n1 := 80) 0 (y 0) := by
  apply Shape.reshapeEquiv_eq_of_rowMajor
  rw [Shape.rowMajor_val_two, Shape.rowMajor_val_one]
  show 0 * 80 + (y 0).val = (y 0).val
  omega

omit [FloatOps F] in
/-- Entry (t, r) of a 125 × 80 array is entry (0, t, r) of the 1 × 125 × 80 array it is squeezed from. -/
theorem reshape_S125x80 (h : S125x80.numel = S1x125x80.numel) (z : S125x80.Idx) :
    Shape.reshapeEquiv h z = ix3 (n0 := 1) (n1 := 125) (n2 := 80) 0 (z 0) (z 1) := by
  apply Shape.reshapeEquiv_eq_of_rowMajor
  rw [Shape.rowMajor_val_three, Shape.rowMajor_val_two]
  show (0 * 125 + (z 0).val) * 80 + (z 1).val = (z 0).val * 80 + (z 1).val
  omega

omit [FloatOps F] in
theorem off0_lt {off : Fin 2 → ℕ} (inb : ∀ a, off a + S1x80.size a ≤ S125x80.size a) : off 0 < 125 := by
  have h : off 0 + 1 ≤ 125 := inb 0
  omega
omit [FloatOps F] in
theorem off1_lt {off : Fin 2 → ℕ} (inb : ∀ a, off a + S1x80.size a ≤ S125x80.size a) (y : S80.Idx) : off 1 + (y 0).val < 80 := by
  have h : off 1 + 80 ≤ 80 := inb 1
  have h' : (y 0).val < 80 := (y 0).isLt
  omega

omit [FloatOps F] in
/-- The node features read through the full rectangle are the node features. -/
theorem hS_read (hv : Buf (Elt F) (hLoc d)) (z : S10000x128.Idx) : (hS).view.read (Elt F) hv z = hv z := by
  rw [View.read_apply]
  show hv ((Rect.unit (s := S10000x128) ![0, 0] S10000x128.size inb_S10000x128_S10000x128_0_0).emb z) = hv z
  congr 1
  funext a
  apply Fin.ext
  rw [Rect.emb_apply]
  match a with
  | ⟨0, _⟩ => show 0 + 1 * (z 0).val = (z 0).val; omega
  | ⟨1, _⟩ => show 0 + 1 * (z 1).val = (z 1).val; omega

omit [FloatOps F] in
/-- Row n of a 125 × 80 array, as a rectangle's element set and as the indices whose first coordinate is n. -/
theorem rowRect_set (n : ℕ) (inb : ∀ a, (![n, 0] : Fin 2 → ℕ) a + S1x80.size a ≤ S125x80.size a) :
    (Rect.unit (s := S125x80) ![n, 0] S1x80.size inb).set = rowSetN n := by
  ext x
  rw [Rect.mem_set_unit]
  unfold rowSetN
  rw [Finset.mem_filter]
  constructor
  · intro h
    have h0 : n ≤ (x 0).val ∧ (x 0).val < n + 1 := h 0
    exact ⟨Finset.mem_univ _, by omega⟩
  · rintro ⟨-, h⟩ a
    match a with
    | ⟨0, _⟩ => show n ≤ (x 0).val ∧ (x 0).val < n + 1; omega
    | ⟨1, _⟩ =>
      have h1 : (x 1).val < 80 := (x 1).isLt
      show 0 ≤ (x 1).val ∧ (x 1).val < 0 + 80; omega

omit [FloatOps F] in
/-- Entry y of the list of 80 taken out of index scratch 0 — the one-row slice at offsets off, squeezed — is the
    word at row off 0, column off 1 + y. -/
theorem read_list0 (off : Fin 2 → ℕ) (inb : ∀ a, off a + S1x80.size a ≤ S125x80.size a) (hr : ∀ a, (Rect.unit (s := S125x80) off S1x80.size inb).stride a = 1)
    (idx : S125x80.Idx → Elt F .i32) (y : S80.Idx) :
    (rowM0 off inb hr).view.read (Elt F) idx y
      = idx (ix2 (n0 := 125) (n1 := 80) ⟨off 0, off0_lt inb⟩ ⟨off 1 + (y 0).val, off1_lt inb y⟩) := by
  rw [View.read_apply]
  show idx _ = idx _
  congr 1
  simp only [Memref.view_squeeze, Memref.view_slice, Memref.view_whole, View.emb_reshape, View.emb_slice, View.emb_whole]
  show (Rect.unit (s := S125x80) off S1x80.size inb).emb (Shape.reshapeEquiv _ y) = _
  rw [reshape_S80]
  funext a
  apply Fin.ext
  rw [Rect.emb_apply]
  match a with
  | ⟨0, _⟩ => show off 0 + 1 * 0 = off 0; omega
  | ⟨1, _⟩ => show off 1 + 1 * (y 0).val = off 1 + (y 0).val; omega

omit [FloatOps F] in
/-- The node row that entry k of the list of chunk n names, as the gather reads it and as the chunk function does. -/
theorem rows_eq0 (idx : S125x80.Idx → Elt F .i32) (n : ℕ) (hn : n ≤ 124)
    (inb : ∀ a, (![n, 0] : Fin 2 → ℕ) a + S1x80.size a ≤ S125x80.size a) (hr : ∀ a, (Rect.unit (s := S125x80) ![n, 0] S1x80.size inb).stride a = 1)
    (hnum : S80.numel = S80x128.size gathers_S10000x128_S80x128.axis')
    (hin : ∀ x, ((rowM0 ![n, 0] inb hr).view.read (Elt F) idx x).toNat < S10000x128.size gathers_S10000x128_S80x128.axis)
    (k : Fin (S80x128.size gathers_S10000x128_S80x128.axis')) :
    SparseCore.rows ((rowM0 ![n, 0] inb hr).view.read (Elt F) idx) hnum hin k = nodeOf (idx (chunkIx n k)) := by
  have key : (rowM0 ![n, 0] inb hr).view.read (Elt F) idx (S80.rowMajor.symm (k.cast hnum.symm)) = idx (chunkIx n k) := by
    rw [rowMajor_symm_S80, read_list0]
    congr 1
    unfold chunkIx
    funext a
    apply Fin.ext
    match a with
    | ⟨0, _⟩ => show n = min n 124; omega
    | ⟨1, _⟩ => show 0 + k.val = k.val; omega
  apply Fin.ext
  have hlt := hin (S80.rowMajor.symm (k.cast hnum.symm))
  rw [key] at hlt
  show ((rowM0 ![n, 0] inb hr).view.read (Elt F) idx (S80.rowMajor.symm (k.cast hnum.symm))).toNat = (nodeOf (idx (chunkIx n k))).val
  rw [key, nodeOf_val _ hlt]

omit [FloatOps F] in
/-- Entry y of the list of 80 taken out of index scratch 1 — the one-row slice at offsets off, squeezed — is the
    word at row off 0, column off 1 + y. -/
theorem read_list1 (off : Fin 2 → ℕ) (inb : ∀ a, off a + S1x80.size a ≤ S125x80.size a) (hr : ∀ a, (Rect.unit (s := S125x80) off S1x80.size inb).stride a = 1)
    (idx : S125x80.Idx → Elt F .i32) (y : S80.Idx) :
    (rowM1 off inb hr).view.read (Elt F) idx y
      = idx (ix2 (n0 := 125) (n1 := 80) ⟨off 0, off0_lt inb⟩ ⟨off 1 + (y 0).val, off1_lt inb y⟩) := by
  rw [View.read_apply]
  show idx _ = idx _
  congr 1
  simp only [Memref.view_squeeze, Memref.view_slice, Memref.view_whole, View.emb_reshape, View.emb_slice, View.emb_whole]
  show (Rect.unit (s := S125x80) off S1x80.size inb).emb (Shape.reshapeEquiv _ y) = _
  rw [reshape_S80]
  funext a
  apply Fin.ext
  rw [Rect.emb_apply]
  match a with
  | ⟨0, _⟩ => show off 0 + 1 * 0 = off 0; omega
  | ⟨1, _⟩ => show off 1 + 1 * (y 0).val = off 1 + (y 0).val; omega

omit [FloatOps F] in
/-- The node row that entry k of the list of chunk n names, as the gather reads it and as the chunk function does. -/
theorem rows_eq1 (idx : S125x80.Idx → Elt F .i32) (n : ℕ) (hn : n ≤ 124)
    (inb : ∀ a, (![n, 0] : Fin 2 → ℕ) a + S1x80.size a ≤ S125x80.size a) (hr : ∀ a, (Rect.unit (s := S125x80) ![n, 0] S1x80.size inb).stride a = 1)
    (hnum : S80.numel = S80x128.size gathers_S10000x128_S80x128.axis')
    (hin : ∀ x, ((rowM1 ![n, 0] inb hr).view.read (Elt F) idx x).toNat < S10000x128.size gathers_S10000x128_S80x128.axis)
    (k : Fin (S80x128.size gathers_S10000x128_S80x128.axis')) :
    SparseCore.rows ((rowM1 ![n, 0] inb hr).view.read (Elt F) idx) hnum hin k = nodeOf (idx (chunkIx n k)) := by
  have key : (rowM1 ![n, 0] inb hr).view.read (Elt F) idx (S80.rowMajor.symm (k.cast hnum.symm)) = idx (chunkIx n k) := by
    rw [rowMajor_symm_S80, read_list1]
    congr 1
    unfold chunkIx
    funext a
    apply Fin.ext
    match a with
    | ⟨0, _⟩ => show n = min n 124; omega
    | ⟨1, _⟩ => show 0 + k.val = k.val; omega
  apply Fin.ext
  have hlt := hin (S80.rowMajor.symm (k.cast hnum.symm))
  rw [key] at hlt
  show ((rowM1 ![n, 0] inb hr).view.read (Elt F) idx (S80.rowMajor.symm (k.cast hnum.symm))).toNat = (nodeOf (idx (chunkIx n k))).val
  rw [key, nodeOf_val _ hlt]

/-! ## What a gather and a copy-out write -/

theorem rowM0_set (n : ℕ) (off : Fin 2 → ℕ) (inb : ∀ a, off a + S1x80.size a ≤ S125x80.size a) (hr : ∀ a, (Rect.unit (s := S125x80) off S1x80.size inb).stride a = 1)
    (hoff : off = ![n, 0]) : (rowM0 off inb hr).view.set = rowSetN n := by
  subst hoff
  show (((View.whole (cc1_scratch0 : Ref sig .scVector)).slice (Rect.unit (s := S125x80) ![n, 0] S1x80.size inb)).reshape S80 squeezes_S1x80_S80.numel_eq).set = _
  rw [View.set_reshape, View.set_slice_whole]
  exact rowRect_set n inb

theorem rowM1_set (n : ℕ) (off : Fin 2 → ℕ) (inb : ∀ a, off a + S1x80.size a ≤ S125x80.size a) (hr : ∀ a, (Rect.unit (s := S125x80) off S1x80.size inb).stride a = 1)
    (hoff : off = ![n, 0]) : (rowM1 off inb hr).view.set = rowSetN n := by
  subst hoff
  show (((View.whole (cc1_scratch1 : Ref sig .scVector)).slice (Rect.unit (s := S125x80) ![n, 0] S1x80.size inb)).reshape S80 squeezes_S1x80_S80.numel_eq).set = _
  rw [View.set_reshape, View.set_slice_whole]
  exact rowRect_set n inb

theorem gather_payload0 (hv : Buf (Elt F) (hLoc d)) (idx : S125x80.Idx → Elt F .i32) (n : ℕ) (hn : n ≤ 124)
    (off : Fin 2 → ℕ) (inb : ∀ a, off a + S1x80.size a ≤ S125x80.size a) (hr : ∀ a, (Rect.unit (s := S125x80) off S1x80.size inb).stride a = 1) (hoff : off = ![n, 0])
    (hnum : S80.numel = S80x128.size gathers_S10000x128_S80x128.axis')
    (hin : ∀ x, ((rowM0 off inb hr).view.read (Elt F) idx x).toNat < S10000x128.size gathers_S10000x128_S80x128.axis) :
    SparseCore.gatherPayload gathers_S10000x128_S80x128 ((hS).view.read (Elt F) hv) (SparseCore.rows ((rowM0 off inb hr).view.read (Elt F) idx) hnum hin)
      = gath d hv idx n := by
  subst hoff
  funext x
  unfold SparseCore.gatherPayload gath
  rw [gidx_apply, hS_read, rows_eq0 idx n hn inb hr hnum hin]

theorem gather_payload1 (hv : Buf (Elt F) (hLoc d)) (idx : S125x80.Idx → Elt F .i32) (n : ℕ) (hn : n ≤ 124)
    (off : Fin 2 → ℕ) (inb : ∀ a, off a + S1x80.size a ≤ S125x80.size a) (hr : ∀ a, (Rect.unit (s := S125x80) off S1x80.size inb).stride a = 1) (hoff : off = ![n, 0])
    (hnum : S80.numel = S80x128.size gathers_S10000x128_S80x128.axis')
    (hin : ∀ x, ((rowM1 off inb hr).view.read (Elt F) idx x).toNat < S10000x128.size gathers_S10000x128_S80x128.axis) :
    SparseCore.gatherPayload gathers_S10000x128_S80x128 ((hS).view.read (Elt F) hv) (SparseCore.rows ((rowM1 off inb hr).view.read (Elt F) idx) hnum hin)
      = gath d hv idx n := by
  subst hoff
  funext x
  unfold SparseCore.gatherPayload gath
  rw [gidx_apply, hS_read, rows_eq1 idx n hn inb hr hnum hin]

/-- A scratch written whole by one listed piece holds that piece. -/
theorem writes_whole_scr (b : Ref sig .scVector) (f : Buf (Elt F) ((thr d L).loc b)) (g : (Rect.whole b.ty.shape).shape.Idx → Elt F b.ty.elt) :
    ∀ x, (Memref.whole b : Memref sig .scVector _ _ _).view.writes (Elt F) f [⟨Rect.whole b.ty.shape, g⟩] x = g x := by
  intro x
  have e : (Rect.whole b.ty.shape).emb x = x := by
    funext a
    apply Fin.ext
    rw [Rect.emb_apply]
    show 0 + 1 * (x a).val = (x a).val
    omega
  have h := View.read_writes_cons_emb (Memref.whole b : Memref sig .scVector _ _ _).view f (Rect.whole b.ty.shape) g [] x
  rw [e] at h
  exact h

/-! ## The rows of the result -/

theorem oChunk_set (n : ℕ) (hn : n ≤ 124) (off : Fin 2 → ℕ) (inb : ∀ a, off a + S80x128.size a ≤ S320000x128.size a)
    (hr : ∀ a, (Rect.unit (s := S320000x128) off S80x128.size inb).stride a = 1) (hoff : off = ![10000 * wid L + 80 * n, 0]) :
    (oChunkM off inb hr).view.set = chunkSetN L n := by
  subst hoff
  show ((View.whole (main_v9_scv : Ref sig .scVector)).slice (Rect.unit (s := S320000x128) ![10000 * wid L + 80 * n, 0] S80x128.size inb)).set = _
  rw [View.set_slice_whole]
  ext x
  rw [Rect.mem_set_unit]
  unfold chunkSetN
  rw [Finset.mem_filter]
  constructor
  · intro h
    have h0 : 10000 * wid L + 80 * n ≤ (x 0).val ∧ (x 0).val < 10000 * wid L + 80 * n + 80 := h 0
    exact ⟨Finset.mem_univ _, h0⟩
  · rintro ⟨-, h⟩ a
    match a with
    | ⟨0, _⟩ => exact h
    | ⟨1, _⟩ =>
      have h1 : (x 1).val < 128 := (x 1).isLt
      show 0 ≤ (x 1).val ∧ (x 1).val < 0 + 128; omega

omit [FloatOps F] in
/-- Entry (t, r) of the task's row of an index array is entry (w, t, r) of the array. -/
theorem sRowK_emb (z : S125x80.Idx) : (sRowK L).view.emb z = ix3 (⟨wid L, wid_lt L⟩ : Fin 32) (z 0) (z 1) := by
  show (Rect.unit (s := S32x125x80) (k1_off1 L) S1x125x80.size (k1_off1_inb L)).emb (Shape.reshapeEquiv squeezes_S1x125x80_S125x80.numel_eq z) = _
  rw [reshape_S125x80]
  have h0 : k1_off1 L 0 = 2 * (L 1).val + (L 0).val := congrFun (k1_off1_eq L) 0
  have h1 : k1_off1 L 1 = 0 := congrFun (k1_off1_eq L) 1
  have h2 : k1_off1 L 2 = 0 := congrFun (k1_off1_eq L) 2
  funext a
  apply Fin.ext
  rw [Rect.emb_apply]
  match a with
  | ⟨0, _⟩ => show k1_off1 L 0 + 1 * 0 = wid L; rw [h0]; unfold wid; omega
  | ⟨1, _⟩ => show k1_off1 L 1 + 1 * (z 0).val = (z 0).val; rw [h1]; omega
  | ⟨2, _⟩ => show k1_off1 L 2 + 1 * (z 1).val = (z 1).val; rw [h2]; omega
omit [FloatOps F] in
theorem dRowK_emb (z : S125x80.Idx) : (dRowK L).view.emb z = ix3 (⟨wid L, wid_lt L⟩ : Fin 32) (z 0) (z 1) := by
  show (Rect.unit (s := S32x125x80) (k1_off1 L) S1x125x80.size (k1_off1_inb L)).emb (Shape.reshapeEquiv squeezes_S1x125x80_S125x80.numel_eq z) = _
  rw [reshape_S125x80]
  have h0 : k1_off1 L 0 = 2 * (L 1).val + (L 0).val := congrFun (k1_off1_eq L) 0
  have h1 : k1_off1 L 1 = 0 := congrFun (k1_off1_eq L) 1
  have h2 : k1_off1 L 2 = 0 := congrFun (k1_off1_eq L) 2
  funext a
  apply Fin.ext
  rw [Rect.emb_apply]
  match a with
  | ⟨0, _⟩ => show k1_off1 L 0 + 1 * 0 = wid L; rw [h0]; unfold wid; omega
  | ⟨1, _⟩ => show k1_off1 L 1 + 1 * (z 0).val = (z 0).val; rw [h1]; omega
  | ⟨2, _⟩ => show k1_off1 L 2 + 1 * (z 1).val = (z 1).val; rw [h2]; omega

omit [FloatOps F] in
/-- Edge 10000 w + 80 n + r is entry (w, n, r) of the index arrays. -/
theorem edgeIx_chunk (n : ℕ) (hn : n ≤ 124) (r : Fin 80) (e : Fin 320000) (he : e.val = 10000 * wid L + 80 * n + r.val) :
    edgeIx e = ix3 (⟨wid L, wid_lt L⟩ : Fin 32) (⟨n, by omega⟩ : Fin 125) r := by
  have hw := wid_lt L
  have hr := r.isLt
  unfold edgeIx
  funext a
  apply Fin.ext
  match a with
  | ⟨0, _⟩ => show e.val / 10000 = wid L; omega
  | ⟨1, _⟩ => show e.val % 10000 / 80 = n; omega
  | ⟨2, _⟩ => show e.val % 80 = r.val; omega

theorem out_chunk (hv : Buf (Elt F) (hLoc d)) (sv : Buf (Elt F) (sLoc d)) (dv : Buf (Elt F) (dLoc d)) (n : ℕ) (hn : n ≤ 124)
    (off : Fin 2 → ℕ) (inb : ∀ a, off a + S80x128.size a ≤ S320000x128.size a)
    (hr : ∀ a, (Rect.unit (s := S320000x128) off S80x128.size inb).stride a = 1) (hoff : off = ![10000 * wid L + 80 * n, 0])
    (fo : Buf (Elt F) (oLoc d)) :
    ∀ x ∈ (oChunkM off inb hr).view.set,
      (oChunkM off inb hr).view.write (Elt F) fo (obC d L hv sv dv n) Finset.univ x = outRows d hv sv dv x := by
  subst hoff
  intro x hx
  obtain ⟨y, -, rfl⟩ := Finset.mem_map.mp hx
  rw [View.write_emb_of_mem _ _ (Finset.mem_univ y)]
  show obC d L hv sv dv n y = outRows d hv sv dv ((oChunkM ![10000 * wid L + 80 * n, 0] inb hr).view.emb y)
  have hx0 : (((oChunkM ![10000 * wid L + 80 * n, 0] inb hr).view.emb y) 0).val = 10000 * wid L + 80 * n + (y 0).val := by
    show 10000 * wid L + 80 * n + 1 * (y 0).val = _
    omega
  have hx1 : ((oChunkM ![10000 * wid L + 80 * n, 0] inb hr).view.emb y) 1 = y 1 := by
    apply Fin.ext
    show 0 + 1 * (y 1).val = (y 1).val
    omega
  have hc : chunkIx n (y 0) = ix2 (⟨n, by omega⟩ : Fin 125) (y 0) := by
    unfold chunkIx
    funext a
    apply Fin.ext
    match a with
    | ⟨0, _⟩ => show min n 124 = n; omega
    | ⟨1, _⟩ => rfl
  have hE := edgeIx_chunk L n hn (y 0) _ hx0
  unfold obC outRows gath
  rw [idxS_apply, idxD_apply, sRowK_emb, dRowK_emb, hE, hx1, hc]
  rfl

theorem outSet_chunks : outSet L = (Finset.range 125).biUnion (chunkSetN L) := by
  have hw := wid_lt L
  ext x
  show x ∈ (Rect.unit (s := S320000x128) ![10000 * wid L, 0] ![10000, 128] (outRect_inb L)).set ↔ _
  rw [Rect.mem_set_unit, Finset.mem_biUnion]
  constructor
  · intro h
    have h0 : 10000 * wid L ≤ (x 0).val ∧ (x 0).val < 10000 * wid L + 10000 := h 0
    refine ⟨((x 0).val - 10000 * wid L) / 80, Finset.mem_range.mpr (by omega), ?_⟩
    unfold chunkSetN
    rw [Finset.mem_filter]
    exact ⟨Finset.mem_univ _, by omega⟩
  · rintro ⟨n, hn, hx⟩ a
    have hn' := Finset.mem_range.mp hn
    unfold chunkSetN at hx
    rw [Finset.mem_filter] at hx
    match a with
    | ⟨0, _⟩ => show 10000 * wid L ≤ (x 0).val ∧ (x 0).val < 10000 * wid L + 10000; omega
    | ⟨1, _⟩ =>
      have h1 : (x 1).val < 128 := (x 1).isLt
      show 0 ≤ (x 1).val ∧ (x 1).val < 0 + 128; omega

theorem chunkSetN_disjoint {m n : ℕ} (h : m ≠ n) : Disjoint (chunkSetN L m) (chunkSetN L n) := by
  rw [Finset.disjoint_left]
  intro x hm hn
  unfold chunkSetN at hm hn
  rw [Finset.mem_filter] at hm hn
  omega

/-! ## The same, as holdings -/

omit [FloatOps F] in
/-- The task's rows of the result, held at one function, are its 125 chunks, each held at that function. -/
theorem oPts_chunks (f : Buf (Elt F) (oLoc d)) :
    (oLoc d ↦[outSet L]{fullShare} f : sProp 𝕄) = bigSep (Finset.range 125) fun n => oLoc d ↦[chunkSetN L n]{fullShare} f := by
  rw [outSet_chunks, pointsTo_biUnion (Finset.range 125) (ℓ := oLoc d) (chunkSetN L) fun m _ n _ h => chunkSetN_disjoint L h]

omit [FloatOps F] in
/-- Chunk n's rows, held at some contents, as a copy-out's target names them. -/
theorem chunk_held (n : ℕ) (hn : n ≤ 124) (off : Fin 2 → ℕ) (inb : ∀ a, off a + S80x128.size a ≤ S320000x128.size a)
    (hr : ∀ a, (Rect.unit (s := S320000x128) off S80x128.size inb).stride a = 1) (hoff : off = ![10000 * wid L + 80 * n, 0])
    (f : Buf (Elt F) (oLoc d)) :
    (oLoc d ↦[chunkSetN L n]{fullShare} f : sProp 𝕄)
      = (oChunkM off inb hr).view.loc (thr d L) ↦[(oChunkM off inb hr).view.set]{fullShare} f := by
  rw [oChunk_set L n hn off inb hr hoff]

/-- Chunk n's rows after chunk n computed has been copied onto them: held at the result's value. -/
theorem chunk_done (hv : Buf (Elt F) (hLoc d)) (sv : Buf (Elt F) (sLoc d)) (dv : Buf (Elt F) (dLoc d)) (n : ℕ) (hn : n ≤ 124)
    (off : Fin 2 → ℕ) (inb : ∀ a, off a + S80x128.size a ≤ S320000x128.size a)
    (hr : ∀ a, (Rect.unit (s := S320000x128) off S80x128.size inb).stride a = 1) (hoff : off = ![10000 * wid L + 80 * n, 0])
    (fo : Buf (Elt F) (oLoc d)) :
    ((oChunkM off inb hr).view.loc (thr d L) ↦[(oChunkM off inb hr).view.set]{fullShare}
        (oChunkM off inb hr).view.write (Elt F) fo (obC d L hv sv dv n) Finset.univ : sProp 𝕄)
      = oLoc d ↦[chunkSetN L n]{fullShare} outRows d hv sv dv := by
  rw [pointsTo_congr (out_chunk d L hv sv dv n hn off inb hr hoff fo), oChunk_set L n hn off inb hr hoff]

end Cert.Proof.OnKernelIdeal.Tile

end
-- ==== Proof.OnKernelIdeal.TileRows.lean ====
/-
  One vector subcore's task of the gather kernel: its three row loops.

  Each loop runs over the 80 rows of a chunk. Trip r loads row r of the two gathered chunks sixteen lanes at a time,
  adds the two vectors, takes the maximum with zero, and stores the sixteen lanes into row r of a third scratch:
  eight stores side by side cover the row's 128 lanes. Before trip r the third scratch holds the rectified sums on
  its rows below r and its first contents on the others; after the 80 trips it holds the rectified sum of the two
  chunks everywhere, and the two chunks are as they were.
-/
import proofs.«206094_g687194767628_cont_sun_c4_81_43_alg».proof.Proof.OnKernelIdeal.TileInv

noncomputable section

namespace Cert.Proof.OnKernelIdeal.Tile

open Cert.KernelIdeal Cert.KernelIdeal.Gen
open Cert.Proof.OnKernelIdeal

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## One lane group of the task's arithmetic -/

/-- The stored vector of one group of sixteen lanes, read at a lane: the two loaded vectors added and rectified there. -/
theorem pay_lane (va vb : Vec F S1x16 .f32) (x : S1x16.Idx) :
    shapeCast S1x16 (maximumf (addf (shapeCast S16 va shapeCasts_S1x16_S16) (shapeCast S16 vb shapeCasts_S1x16_S16))
      (broadcast S16 (Scalar.ofBits .f32 0x00000000#32 : F .f32))) shapeCasts_S16_S1x16 x = relu2 (F := F) (va x) (vb x) := by
  unfold shapeCast maximumf addf broadcast relu2
  beta_reduce
  rw [Shape.reshapeEquiv_reshapeEquiv, Shape.reshapeEquiv_self]

/-! ## The rows done so far -/

/-- Rows below r hold the rectified sum of a and b, the others what c holds. -/
def rowsUpTo (a b c : S80x128.Idx → Elt F .f32) (r : ℕ) : S80x128.Idx → Elt F .f32 :=
  fun y => if (y 0).val < r then relu2 (F := F) (a y) (b y) else c y

theorem rowsUpTo_zero (a b c : S80x128.Idx → Elt F .f32) : rowsUpTo a b c 0 = c :=
  funext fun y => if_neg (Nat.not_lt_zero _)

theorem rowsUpTo_all (a b c : S80x128.Idx → Elt F .f32) {n : ℕ} (hn : 80 ≤ n) : rowsUpTo a b c n = reluRows a b :=
  funext fun y => if_pos (Nat.lt_of_lt_of_le (show (y 0).val < 80 from (y 0).isLt) hn)

theorem rowsUpTo_succ (a b c : S80x128.Idx → Elt F .f32) (r : ℕ) (y : S80x128.Idx) :
    (if (y 0).val = r then reluRows a b y else rowsUpTo a b c r y) = rowsUpTo a b c (r + 1) y := by
  unfold rowsUpTo reluRows
  by_cases h : (y 0).val = r
  · rw [if_pos h, if_pos (by omega)]
  · rw [if_neg h]
    by_cases h' : (y 0).val < r
    · rw [if_pos h', if_pos (by omega)]
    · rw [if_neg h', if_neg (by omega)]

/-! ## Eight stores side by side along one row -/

/-- Eight stores of sixteen lanes each, side by side along row r, each holding the function G on its lanes: after them
    row r reads G and every other row reads what it held. -/
theorem read_row8 {sg : RefSig} {κ : Kind} {sp : Space} (v : View sg κ sp S80x128 .f32) (f : v.ty.Contents (Elt F))
    (G : S80x128.Idx → Elt F .f32) (r : ℕ)
    (o0 : Fin 2 → ℕ) (i0 : ∀ a, o0 a + S1x16.size a ≤ S80x128.size a) (w0 : (Rect.unit (s := S80x128) o0 S1x16.size i0).shape.Idx → Elt F .f32)
    (o1 : Fin 2 → ℕ) (i1 : ∀ a, o1 a + S1x16.size a ≤ S80x128.size a) (w1 : (Rect.unit (s := S80x128) o1 S1x16.size i1).shape.Idx → Elt F .f32)
    (o2 : Fin 2 → ℕ) (i2 : ∀ a, o2 a + S1x16.size a ≤ S80x128.size a) (w2 : (Rect.unit (s := S80x128) o2 S1x16.size i2).shape.Idx → Elt F .f32)
    (o3 : Fin 2 → ℕ) (i3 : ∀ a, o3 a + S1x16.size a ≤ S80x128.size a) (w3 : (Rect.unit (s := S80x128) o3 S1x16.size i3).shape.Idx → Elt F .f32)
    (o4 : Fin 2 → ℕ) (i4 : ∀ a, o4 a + S1x16.size a ≤ S80x128.size a) (w4 : (Rect.unit (s := S80x128) o4 S1x16.size i4).shape.Idx → Elt F .f32)
    (o5 : Fin 2 → ℕ) (i5 : ∀ a, o5 a + S1x16.size a ≤ S80x128.size a) (w5 : (Rect.unit (s := S80x128) o5 S1x16.size i5).shape.Idx → Elt F .f32)
    (o6 : Fin 2 → ℕ) (i6 : ∀ a, o6 a + S1x16.size a ≤ S80x128.size a) (w6 : (Rect.unit (s := S80x128) o6 S1x16.size i6).shape.Idx → Elt F .f32)
    (o7 : Fin 2 → ℕ) (i7 : ∀ a, o7 a + S1x16.size a ≤ S80x128.size a) (w7 : (Rect.unit (s := S80x128) o7 S1x16.size i7).shape.Idx → Elt F .f32)
    (e0 : o0 = ![r, 0]) (e1 : o1 = ![r, 16]) (e2 : o2 = ![r, 32]) (e3 : o3 = ![r, 48]) (e4 : o4 = ![r, 64]) (e5 : o5 = ![r, 80]) (e6 : o6 = ![r, 96]) (e7 : o7 = ![r, 112])
    (h0 : ∀ x, w0 x = G ((Rect.unit (s := S80x128) o0 S1x16.size i0).emb x))
    (h1 : ∀ x, w1 x = G ((Rect.unit (s := S80x128) o1 S1x16.size i1).emb x))
    (h2 : ∀ x, w2 x = G ((Rect.unit (s := S80x128) o2 S1x16.size i2).emb x))
    (h3 : ∀ x, w3 x = G ((Rect.unit (s := S80x128) o3 S1x16.size i3).emb x))
    (h4 : ∀ x, w4 x = G ((Rect.unit (s := S80x128) o4 S1x16.size i4).emb x))
    (h5 : ∀ x, w5 x = G ((Rect.unit (s := S80x128) o5 S1x16.size i5).emb x))
    (h6 : ∀ x, w6 x = G ((Rect.unit (s := S80x128) o6 S1x16.size i6).emb x))
    (h7 : ∀ x, w7 x = G ((Rect.unit (s := S80x128) o7 S1x16.size i7).emb x))
    (y : S80x128.Idx) :
    v.read (Elt F) (v.writes (Elt F) f
        [⟨Rect.unit (s := S80x128) o7 S1x16.size i7, w7⟩,
          ⟨Rect.unit (s := S80x128) o6 S1x16.size i6, w6⟩,
          ⟨Rect.unit (s := S80x128) o5 S1x16.size i5, w5⟩,
          ⟨Rect.unit (s := S80x128) o4 S1x16.size i4, w4⟩,
          ⟨Rect.unit (s := S80x128) o3 S1x16.size i3, w3⟩,
          ⟨Rect.unit (s := S80x128) o2 S1x16.size i2, w2⟩,
          ⟨Rect.unit (s := S80x128) o1 S1x16.size i1, w1⟩,
          ⟨Rect.unit (s := S80x128) o0 S1x16.size i0, w0⟩]) y
      = if (y 0).val = r then G y else v.read (Elt F) f y := by
  subst e0 e1 e2 e3 e4 e5 e6 e7
  have hy1 : (y 1).val < 128 := (y 1).isLt
  by_cases hr : (y 0).val = r
  · rw [if_pos hr]
    refine View.read_writes_apply_of_pieces v f G _ ?_ y ?_
    · intro p hp
      simp only [List.mem_cons, List.not_mem_nil, or_false] at hp
      rcases hp with rfl | rfl | rfl | rfl | rfl | rfl | rfl | rfl
      exacts [h7, h6, h5, h4, h3, h2, h1, h0]
    · have hc : ∀ (c : ℕ) (i : ∀ a, (![r, c] : Fin 2 → ℕ) a + S1x16.size a ≤ S80x128.size a), c ≤ (y 1).val → (y 1).val < c + 16 →
          y ∈ (Rect.unit (s := S80x128) ![r, c] S1x16.size i).set := by
        intro c i h1 h2
        rw [Rect.mem_set_unit]
        refine Fin.forall_fin_two.mpr ⟨⟨?_, ?_⟩, ⟨?_, ?_⟩⟩
        · show r ≤ (y 0).val; omega
        · show (y 0).val < r + 1; omega
        · show c ≤ (y 1).val; exact h1
        · show (y 1).val < c + 16; exact h2
      rcases (by omega : (y 1).val < 16 ∨ (16 ≤ (y 1).val ∧ (y 1).val < 32) ∨ (32 ≤ (y 1).val ∧ (y 1).val < 48) ∨ (48 ≤ (y 1).val ∧ (y 1).val < 64)
          ∨ (64 ≤ (y 1).val ∧ (y 1).val < 80) ∨ (80 ≤ (y 1).val ∧ (y 1).val < 96) ∨ (96 ≤ (y 1).val ∧ (y 1).val < 112) ∨ (112 ≤ (y 1).val ∧ (y 1).val < 128))
        with h | h | h | h | h | h | h | h
      · exact ⟨⟨_, w0⟩, by simp only [List.mem_cons, true_or, or_true], hc 0 i0 (Nat.zero_le _) h⟩
      · exact ⟨⟨_, w1⟩, by simp only [List.mem_cons, true_or, or_true], hc 16 i1 h.1 h.2⟩
      · exact ⟨⟨_, w2⟩, by simp only [List.mem_cons, true_or, or_true], hc 32 i2 h.1 h.2⟩
      · exact ⟨⟨_, w3⟩, by simp only [List.mem_cons, true_or, or_true], hc 48 i3 h.1 h.2⟩
      · exact ⟨⟨_, w4⟩, by simp only [List.mem_cons, true_or, or_true], hc 64 i4 h.1 h.2⟩
      · exact ⟨⟨_, w5⟩, by simp only [List.mem_cons, true_or, or_true], hc 80 i5 h.1 h.2⟩
      · exact ⟨⟨_, w6⟩, by simp only [List.mem_cons, true_or, or_true], hc 96 i6 h.1 h.2⟩
      · exact ⟨⟨_, w7⟩, by simp only [List.mem_cons, true_or, or_true], hc 112 i7 h.1 h.2⟩
  · rw [if_neg hr]
    refine View.read_writes_apply_of_forall_not_mem v f y _ ?_
    have hn : ∀ (c : ℕ) (i : ∀ a, (![r, c] : Fin 2 → ℕ) a + S1x16.size a ≤ S80x128.size a),
        y ∉ (Rect.unit (s := S80x128) ![r, c] S1x16.size i).set := by
      intro c i hm
      rw [Rect.mem_set_unit] at hm
      have h0 := hm 0
      have h0a : r ≤ (y 0).val := h0.1
      have h0b : (y 0).val < r + 1 := h0.2
      omega
    intro p hp
    simp only [List.mem_cons, List.not_mem_nil, or_false] at hp
    rcases hp with rfl | rfl | rfl | rfl | rfl | rfl | rfl | rfl
    exacts [hn _ i7, hn _ i6, hn _ i5, hn _ i4, hn _ i3, hn _ i2, hn _ i1, hn _ i0]

variable (d : Dev nD) (L : grid1.Coords)

/-! ## The row loop `k1_t2_loop` -/

/-- Trip k's eight stores, over rows below k done, leave rows below k + 1 done. -/
theorem trip_t2_eq (fj : Buf (Elt F) ((thr d L).loc cc1_scratch2)) (fi : Buf (Elt F) ((thr d L).loc cc1_scratch4)) (fo : Buf (Elt F) ((thr d L).loc cc1_scratch6)) (k : Fin k1_t2_loop.trips) :
    (Memref.whole cc1_scratch6 : Memref sig .scVector .vmem S80x128 .f32).view.writes (Elt F) (rowsUpTo fj fi fo k.val)
        [(⟨(Rect.unit (s := S80x128) (k1_off11 k) S1x16.size (k1_off11_inb k)), (k1_pay20 (View.readAt (Elt F) (Memref.whole cc1_scratch2 : Memref sig .scVector .vmem S80x128 .f32).view (Rect.unit (s := S80x128) (k1_off11 k) S1x16.size (k1_off11_inb k)).toLoadRect fj) (View.readAt (Elt F) (Memref.whole cc1_scratch4 : Memref sig .scVector .vmem S80x128 .f32).view (Rect.unit (s := S80x128) (k1_off11 k) S1x16.size (k1_off11_inb k)).toLoadRect fi))⟩ : View.Piece (Elt F) S80x128 .f32),
         (⟨(Rect.unit (s := S80x128) (k1_off10 k) S1x16.size (k1_off10_inb k)), (k1_pay19 (k1_pay8 (View.readAt (Elt F) (Memref.whole cc1_scratch2 : Memref sig .scVector .vmem S80x128 .f32).view (Rect.unit (s := S80x128) (k1_off10 k) S1x16.size (k1_off10_inb k)).toLoadRect fj) (View.readAt (Elt F) (Memref.whole cc1_scratch4 : Memref sig .scVector .vmem S80x128 .f32).view (Rect.unit (s := S80x128) (k1_off10 k) S1x16.size (k1_off10_inb k)).toLoadRect fi)) k1_pay9)⟩ : View.Piece (Elt F) S80x128 .f32),
         (⟨(Rect.unit (s := S80x128) (k1_off9 k) S1x16.size (k1_off9_inb k)), (k1_pay7 (View.readAt (Elt F) (Memref.whole cc1_scratch2 : Memref sig .scVector .vmem S80x128 .f32).view (Rect.unit (s := S80x128) (k1_off9 k) S1x16.size (k1_off9_inb k)).toLoadRect fj) (View.readAt (Elt F) (Memref.whole cc1_scratch4 : Memref sig .scVector .vmem S80x128 .f32).view (Rect.unit (s := S80x128) (k1_off9 k) S1x16.size (k1_off9_inb k)).toLoadRect fi))⟩ : View.Piece (Elt F) S80x128 .f32),
         (⟨(Rect.unit (s := S80x128) (k1_off8 k) S1x16.size (k1_off8_inb k)), (k1_pay6 (View.readAt (Elt F) (Memref.whole cc1_scratch2 : Memref sig .scVector .vmem S80x128 .f32).view (Rect.unit (s := S80x128) (k1_off8 k) S1x16.size (k1_off8_inb k)).toLoadRect fj) (View.readAt (Elt F) (Memref.whole cc1_scratch4 : Memref sig .scVector .vmem S80x128 .f32).view (Rect.unit (s := S80x128) (k1_off8 k) S1x16.size (k1_off8_inb k)).toLoadRect fi))⟩ : View.Piece (Elt F) S80x128 .f32),
         (⟨(Rect.unit (s := S80x128) (k1_off7 k) S1x16.size (k1_off7_inb k)), (k1_pay5 (k1_pay4 (View.readAt (Elt F) (Memref.whole cc1_scratch2 : Memref sig .scVector .vmem S80x128 .f32).view (Rect.unit (s := S80x128) (k1_off7 k) S1x16.size (k1_off7_inb k)).toLoadRect fj)) (View.readAt (Elt F) (Memref.whole cc1_scratch4 : Memref sig .scVector .vmem S80x128 .f32).view (Rect.unit (s := S80x128) (k1_off7 k) S1x16.size (k1_off7_inb k)).toLoadRect fi))⟩ : View.Piece (Elt F) S80x128 .f32),
         (⟨(Rect.unit (s := S80x128) (k1_off6 k) S1x16.size (k1_off6_inb k)), (k1_pay3 (View.readAt (Elt F) (Memref.whole cc1_scratch2 : Memref sig .scVector .vmem S80x128 .f32).view (Rect.unit (s := S80x128) (k1_off6 k) S1x16.size (k1_off6_inb k)).toLoadRect fj) (View.readAt (Elt F) (Memref.whole cc1_scratch4 : Memref sig .scVector .vmem S80x128 .f32).view (Rect.unit (s := S80x128) (k1_off6 k) S1x16.size (k1_off6_inb k)).toLoadRect fi))⟩ : View.Piece (Elt F) S80x128 .f32),
         (⟨(Rect.unit (s := S80x128) (k1_off5 k) S1x16.size (k1_off5_inb k)), (k1_pay2 (View.readAt (Elt F) (Memref.whole cc1_scratch2 : Memref sig .scVector .vmem S80x128 .f32).view (Rect.unit (s := S80x128) (k1_off5 k) S1x16.size (k1_off5_inb k)).toLoadRect fj) (View.readAt (Elt F) (Memref.whole cc1_scratch4 : Memref sig .scVector .vmem S80x128 .f32).view (Rect.unit (s := S80x128) (k1_off5 k) S1x16.size (k1_off5_inb k)).toLoadRect fi))⟩ : View.Piece (Elt F) S80x128 .f32),
         (⟨(Rect.unit (s := S80x128) (k1_off4 k) S1x16.size (k1_off4_inb k)), (k1_pay1 (View.readAt (Elt F) (Memref.whole cc1_scratch2 : Memref sig .scVector .vmem S80x128 .f32).view (Rect.unit (s := S80x128) (k1_off4 k) S1x16.size (k1_off4_inb k)).toLoadRect fj) (View.readAt (Elt F) (Memref.whole cc1_scratch4 : Memref sig .scVector .vmem S80x128 .f32).view (Rect.unit (s := S80x128) (k1_off4 k) S1x16.size (k1_off4_inb k)).toLoadRect fi))⟩ : View.Piece (Elt F) S80x128 .f32)]
      = rowsUpTo fj fi fo (k.val + 1) := by
  funext y
  refine Eq.trans ?_ (rowsUpTo_succ fj fi fo k.val y)
  exact read_row8 (F := F) (Memref.whole cc1_scratch6 : Memref sig .scVector .vmem S80x128 .f32).view (rowsUpTo fj fi fo k.val) (reluRows fj fi) k.val
    _ (k1_off4_inb k) (k1_pay1 (View.readAt (Elt F) (Memref.whole cc1_scratch2 : Memref sig .scVector .vmem S80x128 .f32).view (Rect.unit (s := S80x128) (k1_off4 k) S1x16.size (k1_off4_inb k)).toLoadRect fj) (View.readAt (Elt F) (Memref.whole cc1_scratch4 : Memref sig .scVector .vmem S80x128 .f32).view (Rect.unit (s := S80x128) (k1_off4 k) S1x16.size (k1_off4_inb k)).toLoadRect fi))
    _ (k1_off5_inb k) (k1_pay2 (View.readAt (Elt F) (Memref.whole cc1_scratch2 : Memref sig .scVector .vmem S80x128 .f32).view (Rect.unit (s := S80x128) (k1_off5 k) S1x16.size (k1_off5_inb k)).toLoadRect fj) (View.readAt (Elt F) (Memref.whole cc1_scratch4 : Memref sig .scVector .vmem S80x128 .f32).view (Rect.unit (s := S80x128) (k1_off5 k) S1x16.size (k1_off5_inb k)).toLoadRect fi))
    _ (k1_off6_inb k) (k1_pay3 (View.readAt (Elt F) (Memref.whole cc1_scratch2 : Memref sig .scVector .vmem S80x128 .f32).view (Rect.unit (s := S80x128) (k1_off6 k) S1x16.size (k1_off6_inb k)).toLoadRect fj) (View.readAt (Elt F) (Memref.whole cc1_scratch4 : Memref sig .scVector .vmem S80x128 .f32).view (Rect.unit (s := S80x128) (k1_off6 k) S1x16.size (k1_off6_inb k)).toLoadRect fi))
    _ (k1_off7_inb k) (k1_pay5 (k1_pay4 (View.readAt (Elt F) (Memref.whole cc1_scratch2 : Memref sig .scVector .vmem S80x128 .f32).view (Rect.unit (s := S80x128) (k1_off7 k) S1x16.size (k1_off7_inb k)).toLoadRect fj)) (View.readAt (Elt F) (Memref.whole cc1_scratch4 : Memref sig .scVector .vmem S80x128 .f32).view (Rect.unit (s := S80x128) (k1_off7 k) S1x16.size (k1_off7_inb k)).toLoadRect fi))
    _ (k1_off8_inb k) (k1_pay6 (View.readAt (Elt F) (Memref.whole cc1_scratch2 : Memref sig .scVector .vmem S80x128 .f32).view (Rect.unit (s := S80x128) (k1_off8 k) S1x16.size (k1_off8_inb k)).toLoadRect fj) (View.readAt (Elt F) (Memref.whole cc1_scratch4 : Memref sig .scVector .vmem S80x128 .f32).view (Rect.unit (s := S80x128) (k1_off8 k) S1x16.size (k1_off8_inb k)).toLoadRect fi))
    _ (k1_off9_inb k) (k1_pay7 (View.readAt (Elt F) (Memref.whole cc1_scratch2 : Memref sig .scVector .vmem S80x128 .f32).view (Rect.unit (s := S80x128) (k1_off9 k) S1x16.size (k1_off9_inb k)).toLoadRect fj) (View.readAt (Elt F) (Memref.whole cc1_scratch4 : Memref sig .scVector .vmem S80x128 .f32).view (Rect.unit (s := S80x128) (k1_off9 k) S1x16.size (k1_off9_inb k)).toLoadRect fi))
    _ (k1_off10_inb k) (k1_pay19 (k1_pay8 (View.readAt (Elt F) (Memref.whole cc1_scratch2 : Memref sig .scVector .vmem S80x128 .f32).view (Rect.unit (s := S80x128) (k1_off10 k) S1x16.size (k1_off10_inb k)).toLoadRect fj) (View.readAt (Elt F) (Memref.whole cc1_scratch4 : Memref sig .scVector .vmem S80x128 .f32).view (Rect.unit (s := S80x128) (k1_off10 k) S1x16.size (k1_off10_inb k)).toLoadRect fi)) k1_pay9)
    _ (k1_off11_inb k) (k1_pay20 (View.readAt (Elt F) (Memref.whole cc1_scratch2 : Memref sig .scVector .vmem S80x128 .f32).view (Rect.unit (s := S80x128) (k1_off11 k) S1x16.size (k1_off11_inb k)).toLoadRect fj) (View.readAt (Elt F) (Memref.whole cc1_scratch4 : Memref sig .scVector .vmem S80x128 .f32).view (Rect.unit (s := S80x128) (k1_off11 k) S1x16.size (k1_off11_inb k)).toLoadRect fi))
    (k1_off4_eq k) (k1_off5_eq k) (k1_off6_eq k) (k1_off7_eq k) (k1_off8_eq k) (k1_off9_eq k) (k1_off10_eq k) (k1_off11_eq k)
    (fun x => pay_lane (F := F) _ _ x) (fun x => pay_lane (F := F) _ _ x) (fun x => pay_lane (F := F) _ _ x) (fun x => pay_lane (F := F) _ _ x) (fun x => pay_lane (F := F) _ _ x) (fun x => pay_lane (F := F) _ _ x) (fun x => pay_lane (F := F) _ _ x) (fun x => pay_lane (F := F) _ _ x)
    y

/-- Before trip r: the two gathered chunks as they were, the third scratch with its rows below r done. -/
def inv_t2 (fj : Buf (Elt F) ((thr d L).loc cc1_scratch2)) (fi : Buf (Elt F) ((thr d L).loc cc1_scratch4)) (fo : Buf (Elt F) ((thr d L).loc cc1_scratch6)) (r : ℕ) (_ : Unit) : sProp 𝕄 :=
  iprop(scr d L cc1_scratch2 fj ∗ scr d L cc1_scratch4 fi ∗ scr d L cc1_scratch6 (rowsUpTo fj fi fo r))

/-- The row loop of the even half of a trip of the outer loop: from the two gathered chunks in scratches 2 and 4,
    whatever scratch 6 holds, the loop leaves scratch 6 holding their rectified sum, the gathered chunks unchanged. -/
theorem rows_t2 (v2 c0 c1 : BitVec 32) (k1 : Fin k1_t1_loop.trips)
    (fj : Buf (Elt F) ((thr d L).loc cc1_scratch2)) (fi : Buf (Elt F) ((thr d L).loc cc1_scratch4)) (fo : Buf (Elt F) ((thr d L).loc cc1_scratch6)) :
    (iprop(scr d L cc1_scratch2 fj ∗ scr d L cc1_scratch4 fi ∗ scr d L cc1_scratch6 fo) : sProp 𝕄)
      ⊢ wp frame (wpE (defs₀ (F := F)) 𝒱₀ (thr d L) none) Set.univ (Scf.Loop.for k1_t2_loop k1_t2_ok ⟨⟩ (t2Body (F := F) L v2 c0 c1 k1))
          fun _ => iprop(scr d L cc1_scratch2 fj ∗ scr d L cc1_scratch4 fi ∗ scr d L cc1_scratch6 (reluRows fj fi)) := by
  iintro ⟨Hj, Hi, Ho⟩
  sl_for (inv_t2 d L fj fi fo) $$ [Hj Hi Ho]
  case region =>
    intro k _
    unfold inv_t2
    iintro ⟨Hj, Hi, Ho⟩
    sl_exec
    sl_step
    isplitl [Hj]; · iexact Hj
    isplitl [Hi]; · iexact Hi
    iapply (pts_eq (F := F) (trip_t2_eq (F := F) d L fj fi fo k))
    iexact Ho
  isplitl [Hj Hi Ho]
  · unfold inv_t2
    isplitl [Hj]; · iexact Hj
    isplitl [Hi]; · iexact Hi
    iapply (pts_eq (F := F) (rowsUpTo_zero fj fi fo).symm)
    iexact Ho
  · iintro %_ HI
    unfold inv_t2
    icases HI with ⟨Hj, Hi, Ho⟩
    isplitl [Hj]; · iexact Hj
    isplitl [Hi]; · iexact Hi
    iapply (pts_eq (F := F) (rowsUpTo_all fj fi fo (n := Scf.trips k1_t2_loop.lb k1_t2_loop.ub k1_t2_loop.st) (by decide)))
    iexact Ho

/-! ## The row loop `k1_t3_loop` -/

/-- Trip k's eight stores, over rows below k done, leave rows below k + 1 done. -/
theorem trip_t3_eq (fj : Buf (Elt F) ((thr d L).loc cc1_scratch3)) (fi : Buf (Elt F) ((thr d L).loc cc1_scratch5)) (fo : Buf (Elt F) ((thr d L).loc cc1_scratch7)) (k : Fin k1_t3_loop.trips) :
    (Memref.whole cc1_scratch7 : Memref sig .scVector .vmem S80x128 .f32).view.writes (Elt F) (rowsUpTo fj fi fo k.val)
        [(⟨(Rect.unit (s := S80x128) (k1_off23 k) S1x16.size (k1_off23_inb k)), (k1_pay31 (View.readAt (Elt F) (Memref.whole cc1_scratch3 : Memref sig .scVector .vmem S80x128 .f32).view (Rect.unit (s := S80x128) (k1_off23 k) S1x16.size (k1_off23_inb k)).toLoadRect fj) (View.readAt (Elt F) (Memref.whole cc1_scratch5 : Memref sig .scVector .vmem S80x128 .f32).view (Rect.unit (s := S80x128) (k1_off23 k) S1x16.size (k1_off23_inb k)).toLoadRect fi))⟩ : View.Piece (Elt F) S80x128 .f32),
         (⟨(Rect.unit (s := S80x128) (k1_off22 k) S1x16.size (k1_off22_inb k)), (k1_pay30 (k1_pay17 (View.readAt (Elt F) (Memref.whole cc1_scratch3 : Memref sig .scVector .vmem S80x128 .f32).view (Rect.unit (s := S80x128) (k1_off22 k) S1x16.size (k1_off22_inb k)).toLoadRect fj) (View.readAt (Elt F) (Memref.whole cc1_scratch5 : Memref sig .scVector .vmem S80x128 .f32).view (Rect.unit (s := S80x128) (k1_off22 k) S1x16.size (k1_off22_inb k)).toLoadRect fi)) k1_pay18)⟩ : View.Piece (Elt F) S80x128 .f32),
         (⟨(Rect.unit (s := S80x128) (k1_off21 k) S1x16.size (k1_off21_inb k)), (k1_pay16 (View.readAt (Elt F) (Memref.whole cc1_scratch3 : Memref sig .scVector .vmem S80x128 .f32).view (Rect.unit (s := S80x128) (k1_off21 k) S1x16.size (k1_off21_inb k)).toLoadRect fj) (View.readAt (Elt F) (Memref.whole cc1_scratch5 : Memref sig .scVector .vmem S80x128 .f32).view (Rect.unit (s := S80x128) (k1_off21 k) S1x16.size (k1_off21_inb k)).toLoadRect fi))⟩ : View.Piece (Elt F) S80x128 .f32),
         (⟨(Rect.unit (s := S80x128) (k1_off20 k) S1x16.size (k1_off20_inb k)), (k1_pay15 (View.readAt (Elt F) (Memref.whole cc1_scratch3 : Memref sig .scVector .vmem S80x128 .f32).view (Rect.unit (s := S80x128) (k1_off20 k) S1x16.size (k1_off20_inb k)).toLoadRect fj) (View.readAt (Elt F) (Memref.whole cc1_scratch5 : Memref sig .scVector .vmem S80x128 .f32).view (Rect.unit (s := S80x128) (k1_off20 k) S1x16.size (k1_off20_inb k)).toLoadRect fi))⟩ : View.Piece (Elt F) S80x128 .f32),
         (⟨(Rect.unit (s := S80x128) (k1_off19 k) S1x16.size (k1_off19_inb k)), (k1_pay14 (k1_pay13 (View.readAt (Elt F) (Memref.whole cc1_scratch3 : Memref sig .scVector .vmem S80x128 .f32).view (Rect.unit (s := S80x128) (k1_off19 k) S1x16.size (k1_off19_inb k)).toLoadRect fj)) (View.readAt (Elt F) (Memref.whole cc1_scratch5 : Memref sig .scVector .vmem S80x128 .f32).view (Rect.unit (s := S80x128) (k1_off19 k) S1x16.size (k1_off19_inb k)).toLoadRect fi))⟩ : View.Piece (Elt F) S80x128 .f32),
         (⟨(Rect.unit (s := S80x128) (k1_off18 k) S1x16.size (k1_off18_inb k)), (k1_pay12 (View.readAt (Elt F) (Memref.whole cc1_scratch3 : Memref sig .scVector .vmem S80x128 .f32).view (Rect.unit (s := S80x128) (k1_off18 k) S1x16.size (k1_off18_inb k)).toLoadRect fj) (View.readAt (Elt F) (Memref.whole cc1_scratch5 : Memref sig .scVector .vmem S80x128 .f32).view (Rect.unit (s := S80x128) (k1_off18 k) S1x16.size (k1_off18_inb k)).toLoadRect fi))⟩ : View.Piece (Elt F) S80x128 .f32),
         (⟨(Rect.unit (s := S80x128) (k1_off17 k) S1x16.size (k1_off17_inb k)), (k1_pay11 (View.readAt (Elt F) (Memref.whole cc1_scratch3 : Memref sig .scVector .vmem S80x128 .f32).view (Rect.unit (s := S80x128) (k1_off17 k) S1x16.size (k1_off17_inb k)).toLoadRect fj) (View.readAt (Elt F) (Memref.whole cc1_scratch5 : Memref sig .scVector .vmem S80x128 .f32).view (Rect.unit (s := S80x128) (k1_off17 k) S1x16.size (k1_off17_inb k)).toLoadRect fi))⟩ : View.Piece (Elt F) S80x128 .f32),
         (⟨(Rect.unit (s := S80x128) (k1_off16 k) S1x16.size (k1_off16_inb k)), (k1_pay10 (View.readAt (Elt F) (Memref.whole cc1_scratch3 : Memref sig .scVector .vmem S80x128 .f32).view (Rect.unit (s := S80x128) (k1_off16 k) S1x16.size (k1_off16_inb k)).toLoadRect fj) (View.readAt (Elt F) (Memref.whole cc1_scratch5 : Memref sig .scVector .vmem S80x128 .f32).view (Rect.unit (s := S80x128) (k1_off16 k) S1x16.size (k1_off16_inb k)).toLoadRect fi))⟩ : View.Piece (Elt F) S80x128 .f32)]
      = rowsUpTo fj fi fo (k.val + 1) := by
  funext y
  refine Eq.trans ?_ (rowsUpTo_succ fj fi fo k.val y)
  exact read_row8 (F := F) (Memref.whole cc1_scratch7 : Memref sig .scVector .vmem S80x128 .f32).view (rowsUpTo fj fi fo k.val) (reluRows fj fi) k.val
    _ (k1_off16_inb k) (k1_pay10 (View.readAt (Elt F) (Memref.whole cc1_scratch3 : Memref sig .scVector .vmem S80x128 .f32).view (Rect.unit (s := S80x128) (k1_off16 k) S1x16.size (k1_off16_inb k)).toLoadRect fj) (View.readAt (Elt F) (Memref.whole cc1_scratch5 : Memref sig .scVector .vmem S80x128 .f32).view (Rect.unit (s := S80x128) (k1_off16 k) S1x16.size (k1_off16_inb k)).toLoadRect fi))
    _ (k1_off17_inb k) (k1_pay11 (View.readAt (Elt F) (Memref.whole cc1_scratch3 : Memref sig .scVector .vmem S80x128 .f32).view (Rect.unit (s := S80x128) (k1_off17 k) S1x16.size (k1_off17_inb k)).toLoadRect fj) (View.readAt (Elt F) (Memref.whole cc1_scratch5 : Memref sig .scVector .vmem S80x128 .f32).view (Rect.unit (s := S80x128) (k1_off17 k) S1x16.size (k1_off17_inb k)).toLoadRect fi))
    _ (k1_off18_inb k) (k1_pay12 (View.readAt (Elt F) (Memref.whole cc1_scratch3 : Memref sig .scVector .vmem S80x128 .f32).view (Rect.unit (s := S80x128) (k1_off18 k) S1x16.size (k1_off18_inb k)).toLoadRect fj) (View.readAt (Elt F) (Memref.whole cc1_scratch5 : Memref sig .scVector .vmem S80x128 .f32).view (Rect.unit (s := S80x128) (k1_off18 k) S1x16.size (k1_off18_inb k)).toLoadRect fi))
    _ (k1_off19_inb k) (k1_pay14 (k1_pay13 (View.readAt (Elt F) (Memref.whole cc1_scratch3 : Memref sig .scVector .vmem S80x128 .f32).view (Rect.unit (s := S80x128) (k1_off19 k) S1x16.size (k1_off19_inb k)).toLoadRect fj)) (View.readAt (Elt F) (Memref.whole cc1_scratch5 : Memref sig .scVector .vmem S80x128 .f32).view (Rect.unit (s := S80x128) (k1_off19 k) S1x16.size (k1_off19_inb k)).toLoadRect fi))
    _ (k1_off20_inb k) (k1_pay15 (View.readAt (Elt F) (Memref.whole cc1_scratch3 : Memref sig .scVector .vmem S80x128 .f32).view (Rect.unit (s := S80x128) (k1_off20 k) S1x16.size (k1_off20_inb k)).toLoadRect fj) (View.readAt (Elt F) (Memref.whole cc1_scratch5 : Memref sig .scVector .vmem S80x128 .f32).view (Rect.unit (s := S80x128) (k1_off20 k) S1x16.size (k1_off20_inb k)).toLoadRect fi))
    _ (k1_off21_inb k) (k1_pay16 (View.readAt (Elt F) (Memref.whole cc1_scratch3 : Memref sig .scVector .vmem S80x128 .f32).view (Rect.unit (s := S80x128) (k1_off21 k) S1x16.size (k1_off21_inb k)).toLoadRect fj) (View.readAt (Elt F) (Memref.whole cc1_scratch5 : Memref sig .scVector .vmem S80x128 .f32).view (Rect.unit (s := S80x128) (k1_off21 k) S1x16.size (k1_off21_inb k)).toLoadRect fi))
    _ (k1_off22_inb k) (k1_pay30 (k1_pay17 (View.readAt (Elt F) (Memref.whole cc1_scratch3 : Memref sig .scVector .vmem S80x128 .f32).view (Rect.unit (s := S80x128) (k1_off22 k) S1x16.size (k1_off22_inb k)).toLoadRect fj) (View.readAt (Elt F) (Memref.whole cc1_scratch5 : Memref sig .scVector .vmem S80x128 .f32).view (Rect.unit (s := S80x128) (k1_off22 k) S1x16.size (k1_off22_inb k)).toLoadRect fi)) k1_pay18)
    _ (k1_off23_inb k) (k1_pay31 (View.readAt (Elt F) (Memref.whole cc1_scratch3 : Memref sig .scVector .vmem S80x128 .f32).view (Rect.unit (s := S80x128) (k1_off23 k) S1x16.size (k1_off23_inb k)).toLoadRect fj) (View.readAt (Elt F) (Memref.whole cc1_scratch5 : Memref sig .scVector .vmem S80x128 .f32).view (Rect.unit (s := S80x128) (k1_off23 k) S1x16.size (k1_off23_inb k)).toLoadRect fi))
    (k1_off16_eq k) (k1_off17_eq k) (k1_off18_eq k) (k1_off19_eq k) (k1_off20_eq k) (k1_off21_eq k) (k1_off22_eq k) (k1_off23_eq k)
    (fun x => pay_lane (F := F) _ _ x) (fun x => pay_lane (F := F) _ _ x) (fun x => pay_lane (F := F) _ _ x) (fun x => pay_lane (F := F) _ _ x) (fun x => pay_lane (F := F) _ _ x) (fun x => pay_lane (F := F) _ _ x) (fun x => pay_lane (F := F) _ _ x) (fun x => pay_lane (F := F) _ _ x)
    y

/-- Before trip r: the two gathered chunks as they were, the third scratch with its rows below r done. -/
def inv_t3 (fj : Buf (Elt F) ((thr d L).loc cc1_scratch3)) (fi : Buf (Elt F) ((thr d L).loc cc1_scratch5)) (fo : Buf (Elt F) ((thr d L).loc cc1_scratch7)) (r : ℕ) (_ : Unit) : sProp 𝕄 :=
  iprop(scr d L cc1_scratch3 fj ∗ scr d L cc1_scratch5 fi ∗ scr d L cc1_scratch7 (rowsUpTo fj fi fo r))

/-- The row loop of the odd half: scratches 3 and 5 into scratch 7. -/
theorem rows_t3 (v2 : BitVec 32)
    (fj : Buf (Elt F) ((thr d L).loc cc1_scratch3)) (fi : Buf (Elt F) ((thr d L).loc cc1_scratch5)) (fo : Buf (Elt F) ((thr d L).loc cc1_scratch7)) :
    (iprop(scr d L cc1_scratch3 fj ∗ scr d L cc1_scratch5 fi ∗ scr d L cc1_scratch7 fo) : sProp 𝕄)
      ⊢ wp frame (wpE (defs₀ (F := F)) 𝒱₀ (thr d L) none) Set.univ (Scf.Loop.for k1_t3_loop k1_t3_ok ⟨⟩ (t3Body (F := F) L v2))
          fun _ => iprop(scr d L cc1_scratch3 fj ∗ scr d L cc1_scratch5 fi ∗ scr d L cc1_scratch7 (reluRows fj fi)) := by
  iintro ⟨Hj, Hi, Ho⟩
  sl_for (inv_t3 d L fj fi fo) $$ [Hj Hi Ho]
  case region =>
    intro k _
    unfold inv_t3
    iintro ⟨Hj, Hi, Ho⟩
    sl_exec
    sl_step
    isplitl [Hj]; · iexact Hj
    isplitl [Hi]; · iexact Hi
    iapply (pts_eq (F := F) (trip_t3_eq (F := F) d L fj fi fo k))
    iexact Ho
  isplitl [Hj Hi Ho]
  · unfold inv_t3
    isplitl [Hj]; · iexact Hj
    isplitl [Hi]; · iexact Hi
    iapply (pts_eq (F := F) (rowsUpTo_zero fj fi fo).symm)
    iexact Ho
  · iintro %_ HI
    unfold inv_t3
    icases HI with ⟨Hj, Hi, Ho⟩
    isplitl [Hj]; · iexact Hj
    isplitl [Hi]; · iexact Hi
    iapply (pts_eq (F := F) (rowsUpTo_all fj fi fo (n := Scf.trips k1_t3_loop.lb k1_t3_loop.ub k1_t3_loop.st) (by decide)))
    iexact Ho

/-! ## The row loop `k1_t4_loop` -/

/-- Trip k's eight stores, over rows below k done, leave rows below k + 1 done. -/
theorem trip_t4_eq (fj : Buf (Elt F) ((thr d L).loc cc1_scratch2)) (fi : Buf (Elt F) ((thr d L).loc cc1_scratch4)) (fo : Buf (Elt F) ((thr d L).loc cc1_scratch6)) (k : Fin k1_t4_loop.trips) :
    (Memref.whole cc1_scratch6 : Memref sig .scVector .vmem S80x128 .f32).view.writes (Elt F) (rowsUpTo fj fi fo k.val)
        [(⟨(Rect.unit (s := S80x128) (k1_off34 k) S1x16.size (k1_off34_inb k)), (k1_pay33 (View.readAt (Elt F) (Memref.whole cc1_scratch2 : Memref sig .scVector .vmem S80x128 .f32).view (Rect.unit (s := S80x128) (k1_off34 k) S1x16.size (k1_off34_inb k)).toLoadRect fj) (View.readAt (Elt F) (Memref.whole cc1_scratch4 : Memref sig .scVector .vmem S80x128 .f32).view (Rect.unit (s := S80x128) (k1_off34 k) S1x16.size (k1_off34_inb k)).toLoadRect fi))⟩ : View.Piece (Elt F) S80x128 .f32),
         (⟨(Rect.unit (s := S80x128) (k1_off33 k) S1x16.size (k1_off33_inb k)), (k1_pay32 (k1_pay28 (View.readAt (Elt F) (Memref.whole cc1_scratch2 : Memref sig .scVector .vmem S80x128 .f32).view (Rect.unit (s := S80x128) (k1_off33 k) S1x16.size (k1_off33_inb k)).toLoadRect fj) (View.readAt (Elt F) (Memref.whole cc1_scratch4 : Memref sig .scVector .vmem S80x128 .f32).view (Rect.unit (s := S80x128) (k1_off33 k) S1x16.size (k1_off33_inb k)).toLoadRect fi)) k1_pay29)⟩ : View.Piece (Elt F) S80x128 .f32),
         (⟨(Rect.unit (s := S80x128) (k1_off32 k) S1x16.size (k1_off32_inb k)), (k1_pay27 (View.readAt (Elt F) (Memref.whole cc1_scratch2 : Memref sig .scVector .vmem S80x128 .f32).view (Rect.unit (s := S80x128) (k1_off32 k) S1x16.size (k1_off32_inb k)).toLoadRect fj) (View.readAt (Elt F) (Memref.whole cc1_scratch4 : Memref sig .scVector .vmem S80x128 .f32).view (Rect.unit (s := S80x128) (k1_off32 k) S1x16.size (k1_off32_inb k)).toLoadRect fi))⟩ : View.Piece (Elt F) S80x128 .f32),
         (⟨(Rect.unit (s := S80x128) (k1_off31 k) S1x16.size (k1_off31_inb k)), (k1_pay26 (View.readAt (Elt F) (Memref.whole cc1_scratch2 : Memref sig .scVector .vmem S80x128 .f32).view (Rect.unit (s := S80x128) (k1_off31 k) S1x16.size (k1_off31_inb k)).toLoadRect fj) (View.readAt (Elt F) (Memref.whole cc1_scratch4 : Memref sig .scVector .vmem S80x128 .f32).view (Rect.unit (s := S80x128) (k1_off31 k) S1x16.size (k1_off31_inb k)).toLoadRect fi))⟩ : View.Piece (Elt F) S80x128 .f32),
         (⟨(Rect.unit (s := S80x128) (k1_off30 k) S1x16.size (k1_off30_inb k)), (k1_pay25 (k1_pay24 (View.readAt (Elt F) (Memref.whole cc1_scratch2 : Memref sig .scVector .vmem S80x128 .f32).view (Rect.unit (s := S80x128) (k1_off30 k) S1x16.size (k1_off30_inb k)).toLoadRect fj)) (View.readAt (Elt F) (Memref.whole cc1_scratch4 : Memref sig .scVector .vmem S80x128 .f32).view (Rect.unit (s := S80x128) (k1_off30 k) S1x16.size (k1_off30_inb k)).toLoadRect fi))⟩ : View.Piece (Elt F) S80x128 .f32),
         (⟨(Rect.unit (s := S80x128) (k1_off29 k) S1x16.size (k1_off29_inb k)), (k1_pay23 (View.readAt (Elt F) (Memref.whole cc1_scratch2 : Memref sig .scVector .vmem S80x128 .f32).view (Rect.unit (s := S80x128) (k1_off29 k) S1x16.size (k1_off29_inb k)).toLoadRect fj) (View.readAt (Elt F) (Memref.whole cc1_scratch4 : Memref sig .scVector .vmem S80x128 .f32).view (Rect.unit (s := S80x128) (k1_off29 k) S1x16.size (k1_off29_inb k)).toLoadRect fi))⟩ : View.Piece (Elt F) S80x128 .f32),
         (⟨(Rect.unit (s := S80x128) (k1_off28 k) S1x16.size (k1_off28_inb k)), (k1_pay22 (View.readAt (Elt F) (Memref.whole cc1_scratch2 : Memref sig .scVector .vmem S80x128 .f32).view (Rect.unit (s := S80x128) (k1_off28 k) S1x16.size (k1_off28_inb k)).toLoadRect fj) (View.readAt (Elt F) (Memref.whole cc1_scratch4 : Memref sig .scVector .vmem S80x128 .f32).view (Rect.unit (s := S80x128) (k1_off28 k) S1x16.size (k1_off28_inb k)).toLoadRect fi))⟩ : View.Piece (Elt F) S80x128 .f32),
         (⟨(Rect.unit (s := S80x128) (k1_off27 k) S1x16.size (k1_off27_inb k)), (k1_pay21 (View.readAt (Elt F) (Memref.whole cc1_scratch2 : Memref sig .scVector .vmem S80x128 .f32).view (Rect.unit (s := S80x128) (k1_off27 k) S1x16.size (k1_off27_inb k)).toLoadRect fj) (View.readAt (Elt F) (Memref.whole cc1_scratch4 : Memref sig .scVector .vmem S80x128 .f32).view (Rect.unit (s := S80x128) (k1_off27 k) S1x16.size (k1_off27_inb k)).toLoadRect fi))⟩ : View.Piece (Elt F) S80x128 .f32)]
      = rowsUpTo fj fi fo (k.val + 1) := by
  funext y
  refine Eq.trans ?_ (rowsUpTo_succ fj fi fo k.val y)
  exact read_row8 (F := F) (Memref.whole cc1_scratch6 : Memref sig .scVector .vmem S80x128 .f32).view (rowsUpTo fj fi fo k.val) (reluRows fj fi) k.val
    _ (k1_off27_inb k) (k1_pay21 (View.readAt (Elt F) (Memref.whole cc1_scratch2 : Memref sig .scVector .vmem S80x128 .f32).view (Rect.unit (s := S80x128) (k1_off27 k) S1x16.size (k1_off27_inb k)).toLoadRect fj) (View.readAt (Elt F) (Memref.whole cc1_scratch4 : Memref sig .scVector .vmem S80x128 .f32).view (Rect.unit (s := S80x128) (k1_off27 k) S1x16.size (k1_off27_inb k)).toLoadRect fi))
    _ (k1_off28_inb k) (k1_pay22 (View.readAt (Elt F) (Memref.whole cc1_scratch2 : Memref sig .scVector .vmem S80x128 .f32).view (Rect.unit (s := S80x128) (k1_off28 k) S1x16.size (k1_off28_inb k)).toLoadRect fj) (View.readAt (Elt F) (Memref.whole cc1_scratch4 : Memref sig .scVector .vmem S80x128 .f32).view (Rect.unit (s := S80x128) (k1_off28 k) S1x16.size (k1_off28_inb k)).toLoadRect fi))
    _ (k1_off29_inb k) (k1_pay23 (View.readAt (Elt F) (Memref.whole cc1_scratch2 : Memref sig .scVector .vmem S80x128 .f32).view (Rect.unit (s := S80x128) (k1_off29 k) S1x16.size (k1_off29_inb k)).toLoadRect fj) (View.readAt (Elt F) (Memref.whole cc1_scratch4 : Memref sig .scVector .vmem S80x128 .f32).view (Rect.unit (s := S80x128) (k1_off29 k) S1x16.size (k1_off29_inb k)).toLoadRect fi))
    _ (k1_off30_inb k) (k1_pay25 (k1_pay24 (View.readAt (Elt F) (Memref.whole cc1_scratch2 : Memref sig .scVector .vmem S80x128 .f32).view (Rect.unit (s := S80x128) (k1_off30 k) S1x16.size (k1_off30_inb k)).toLoadRect fj)) (View.readAt (Elt F) (Memref.whole cc1_scratch4 : Memref sig .scVector .vmem S80x128 .f32).view (Rect.unit (s := S80x128) (k1_off30 k) S1x16.size (k1_off30_inb k)).toLoadRect fi))
    _ (k1_off31_inb k) (k1_pay26 (View.readAt (Elt F) (Memref.whole cc1_scratch2 : Memref sig .scVector .vmem S80x128 .f32).view (Rect.unit (s := S80x128) (k1_off31 k) S1x16.size (k1_off31_inb k)).toLoadRect fj) (View.readAt (Elt F) (Memref.whole cc1_scratch4 : Memref sig .scVector .vmem S80x128 .f32).view (Rect.unit (s := S80x128) (k1_off31 k) S1x16.size (k1_off31_inb k)).toLoadRect fi))
    _ (k1_off32_inb k) (k1_pay27 (View.readAt (Elt F) (Memref.whole cc1_scratch2 : Memref sig .scVector .vmem S80x128 .f32).view (Rect.unit (s := S80x128) (k1_off32 k) S1x16.size (k1_off32_inb k)).toLoadRect fj) (View.readAt (Elt F) (Memref.whole cc1_scratch4 : Memref sig .scVector .vmem S80x128 .f32).view (Rect.unit (s := S80x128) (k1_off32 k) S1x16.size (k1_off32_inb k)).toLoadRect fi))
    _ (k1_off33_inb k) (k1_pay32 (k1_pay28 (View.readAt (Elt F) (Memref.whole cc1_scratch2 : Memref sig .scVector .vmem S80x128 .f32).view (Rect.unit (s := S80x128) (k1_off33 k) S1x16.size (k1_off33_inb k)).toLoadRect fj) (View.readAt (Elt F) (Memref.whole cc1_scratch4 : Memref sig .scVector .vmem S80x128 .f32).view (Rect.unit (s := S80x128) (k1_off33 k) S1x16.size (k1_off33_inb k)).toLoadRect fi)) k1_pay29)
    _ (k1_off34_inb k) (k1_pay33 (View.readAt (Elt F) (Memref.whole cc1_scratch2 : Memref sig .scVector .vmem S80x128 .f32).view (Rect.unit (s := S80x128) (k1_off34 k) S1x16.size (k1_off34_inb k)).toLoadRect fj) (View.readAt (Elt F) (Memref.whole cc1_scratch4 : Memref sig .scVector .vmem S80x128 .f32).view (Rect.unit (s := S80x128) (k1_off34 k) S1x16.size (k1_off34_inb k)).toLoadRect fi))
    (k1_off27_eq k) (k1_off28_eq k) (k1_off29_eq k) (k1_off30_eq k) (k1_off31_eq k) (k1_off32_eq k) (k1_off33_eq k) (k1_off34_eq k)
    (fun x => pay_lane (F := F) _ _ x) (fun x => pay_lane (F := F) _ _ x) (fun x => pay_lane (F := F) _ _ x) (fun x => pay_lane (F := F) _ _ x) (fun x => pay_lane (F := F) _ _ x) (fun x => pay_lane (F := F) _ _ x) (fun x => pay_lane (F := F) _ _ x) (fun x => pay_lane (F := F) _ _ x)
    y

/-- Before trip r: the two gathered chunks as they were, the third scratch with its rows below r done. -/
def inv_t4 (fj : Buf (Elt F) ((thr d L).loc cc1_scratch2)) (fi : Buf (Elt F) ((thr d L).loc cc1_scratch4)) (fo : Buf (Elt F) ((thr d L).loc cc1_scratch6)) (r : ℕ) (_ : Unit) : sProp 𝕄 :=
  iprop(scr d L cc1_scratch2 fj ∗ scr d L cc1_scratch4 fi ∗ scr d L cc1_scratch6 (rowsUpTo fj fi fo r))

/-- The row loop of the last chunk, after the outer loop: scratches 2 and 4 into scratch 6. -/
theorem rows_t4 (v2 : BitVec 32)
    (fj : Buf (Elt F) ((thr d L).loc cc1_scratch2)) (fi : Buf (Elt F) ((thr d L).loc cc1_scratch4)) (fo : Buf (Elt F) ((thr d L).loc cc1_scratch6)) :
    (iprop(scr d L cc1_scratch2 fj ∗ scr d L cc1_scratch4 fi ∗ scr d L cc1_scratch6 fo) : sProp 𝕄)
      ⊢ wp frame (wpE (defs₀ (F := F)) 𝒱₀ (thr d L) none) Set.univ (Scf.Loop.for k1_t4_loop k1_t4_ok ⟨⟩ (t4Body (F := F) L v2))
          fun _ => iprop(scr d L cc1_scratch2 fj ∗ scr d L cc1_scratch4 fi ∗ scr d L cc1_scratch6 (reluRows fj fi)) := by
  iintro ⟨Hj, Hi, Ho⟩
  sl_for (inv_t4 d L fj fi fo) $$ [Hj Hi Ho]
  case region =>
    intro k _
    unfold inv_t4
    iintro ⟨Hj, Hi, Ho⟩
    sl_exec
    sl_step
    isplitl [Hj]; · iexact Hj
    isplitl [Hi]; · iexact Hi
    iapply (pts_eq (F := F) (trip_t4_eq (F := F) d L fj fi fo k))
    iexact Ho
  isplitl [Hj Hi Ho]
  · unfold inv_t4
    isplitl [Hj]; · iexact Hj
    isplitl [Hi]; · iexact Hi
    iapply (pts_eq (F := F) (rowsUpTo_zero fj fi fo).symm)
    iexact Ho
  · iintro %_ HI
    unfold inv_t4
    icases HI with ⟨Hj, Hi, Ho⟩
    isplitl [Hj]; · iexact Hj
    isplitl [Hi]; · iexact Hi
    iapply (pts_eq (F := F) (rowsUpTo_all fj fi fo (n := Scf.trips k1_t4_loop.lb k1_t4_loop.ub k1_t4_loop.st) (by decide)))
    iexact Ho

end Cert.Proof.OnKernelIdeal.Tile

end
-- ==== Proof.OnKernelIdeal.TilePieces.lean ====
/-
  One vector subcore's task of the gather kernel: the separable pieces of the body's proof — the row loops and
  the pure equations between what a gather and a copy-out write and the chunk functions of the task.
-/
import proofs.«206094_g687194767628_cont_sun_c4_81_43_alg».proof.Proof.OnKernelIdeal.TileContent
import proofs.«206094_g687194767628_cont_sun_c4_81_43_alg».proof.Proof.OnKernelIdeal.TileRows
-- ==== Proof.OnKernelIdeal.TileOut.lean ====
/-
  One vector subcore's task of the gather kernel: the bookkeeping of the task's rows of the result.

  The task's 10000 rows are 125 chunks of 80 rows. While the outer loop runs, the chunks below m are held at the
  value and the chunks from n on at whatever they hold; chunk n is taken out of the second part to be written, and
  comes back into the first once its copy has landed.
-/
import proofs.«206094_g687194767628_cont_sun_c4_81_43_alg».proof.Proof.OnKernelIdeal.TileLoop
import proofs.«206094_g687194767628_cont_sun_c4_81_43_alg».proof.Proof.OnKernelIdeal.TilePieces

noncomputable section

namespace Cert.Proof.OnKernelIdeal.Tile

open Cert.KernelIdeal Cert.KernelIdeal.Gen
open Cert.Proof.OnKernelIdeal

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid1.Coords)

/-! ## The row sets -/

theorem doneSetN_zero : doneSetN L 0 = ∅ := by
  refine Finset.eq_empty_of_forall_notMem fun x hx => ?_
  unfold doneSetN at hx
  rw [Finset.mem_filter] at hx
  omega

theorem mem_outSet (x : S320000x128.Idx) :
    x ∈ outSet L ↔ 10000 * wid L ≤ (x 0).val ∧ (x 0).val < 10000 * wid L + 10000 := by
  show x ∈ (Rect.unit (s := S320000x128) ![10000 * wid L, 0] ![10000, 128] (outRect_inb L)).set ↔ _
  rw [Rect.mem_set_unit]
  constructor
  · intro h
    exact h 0
  · intro h a
    match a with
    | ⟨0, _⟩ => exact h
    | ⟨1, _⟩ =>
      have h1 : (x 1).val < 128 := (x 1).isLt
      show 0 ≤ (x 1).val ∧ (x 1).val < 0 + 128; omega

theorem restSetN_zero : restSetN L 0 = outSet L := by
  ext x
  rw [mem_outSet]
  unfold restSetN
  rw [Finset.mem_filter]
  constructor
  · rintro ⟨-, h⟩
    omega
  · intro h
    exact ⟨Finset.mem_univ _, by omega⟩

theorem doneSetN_all : doneSetN L 125 = outSet L := by
  ext x
  rw [mem_outSet]
  unfold doneSetN
  rw [Finset.mem_filter]
  constructor
  · rintro ⟨-, h⟩
    omega
  · intro h
    exact ⟨Finset.mem_univ _, by omega⟩

/-- The chunks below m + 1 are the chunks below m and chunk m. -/
theorem doneSetN_succ (m : ℕ) : doneSetN L (m + 1) = doneSetN L m ∪ chunkSetN L m := by
  ext x
  unfold doneSetN chunkSetN
  rw [Finset.mem_union, Finset.mem_filter, Finset.mem_filter, Finset.mem_filter]
  constructor
  · rintro ⟨-, h⟩
    by_cases h' : (x 0).val < 10000 * wid L + 80 * m
    · exact .inl ⟨Finset.mem_univ _, by omega⟩
    · exact .inr ⟨Finset.mem_univ _, by omega⟩
  · rintro (⟨-, h⟩ | ⟨-, h⟩)
    · exact ⟨Finset.mem_univ _, by omega⟩
    · exact ⟨Finset.mem_univ _, by omega⟩

theorem doneSetN_disjoint_chunk (m : ℕ) : Disjoint (doneSetN L m) (chunkSetN L m) := by
  rw [Finset.disjoint_left]
  intro x hm hn
  unfold doneSetN at hm
  unfold chunkSetN at hn
  rw [Finset.mem_filter] at hm hn
  omega

/-- The chunks from n on are chunk n and the chunks from n + 1 on. -/
theorem restSetN_split (n : ℕ) (hn : n ≤ 124) : restSetN L n = chunkSetN L n ∪ restSetN L (n + 1) := by
  ext x
  unfold restSetN chunkSetN
  rw [Finset.mem_union, Finset.mem_filter, Finset.mem_filter, Finset.mem_filter]
  constructor
  · rintro ⟨-, h⟩
    by_cases h' : (x 0).val < 10000 * wid L + 80 * n + 80
    · exact .inl ⟨Finset.mem_univ _, by omega⟩
    · exact .inr ⟨Finset.mem_univ _, by omega⟩
  · rintro (⟨-, h⟩ | ⟨-, h⟩)
    · exact ⟨Finset.mem_univ _, by omega⟩
    · exact ⟨Finset.mem_univ _, by omega⟩

theorem chunk_disjoint_restSetN (n : ℕ) : Disjoint (chunkSetN L n) (restSetN L (n + 1)) := by
  rw [Finset.disjoint_left]
  intro x hm hn
  unfold chunkSetN at hm
  unfold restSetN at hn
  rw [Finset.mem_filter] at hm hn
  omega

/-! ## The holdings -/

variable (hv : Buf (Elt F) (hLoc d)) (sv : Buf (Elt F) (sLoc d)) (dv : Buf (Elt F) (dLoc d))

/-- At the start no chunk is done and every chunk is still to be written. -/
theorem outPart_init (fo : Buf (Elt F) (oLoc d)) :
    ((oV).view.loc (thr d L) ↦[outSet L]{fullShare} fo : sProp 𝕄) ⊢ outPart d L hv sv dv 0 0 := by
  unfold outPart
  rw [doneSetN_zero, restSetN_zero, pointsTo_empty]
  iintro H
  isplitr
  · iempintro
  · iexists fo; iexact H

/-- The chunks below m done and the chunks from n on to be written, with chunk n taken out to be written. -/
theorem outPart_take (m n : ℕ) (hn : n ≤ 124) :
    outPart d L hv sv dv m n
      ⊢ iprop(((oV).view.loc (thr d L) ↦[doneSetN L m]{fullShare} outRows d hv sv dv)
          ∗ (∃ f, (oV).view.loc (thr d L) ↦[chunkSetN L n]{fullShare} f) ∗ ∃ f, (oV).view.loc (thr d L) ↦[restSetN L (n + 1)]{fullShare} f) := by
  unfold outPart
  rw [restSetN_split L n hn]
  iintro ⟨Hd, %f, Hr⟩
  ihave ⟨Hc, Hr'⟩ := (pointsTo_union (chunk_disjoint_restSetN L n)).1 $$ Hr
  isplitl [Hd]; · iexact Hd
  isplitl [Hc]; · iexists f; iexact Hc
  iexists f; iexact Hr'

/-- The two parts are the holding. -/
theorem outPart_fold (m n : ℕ) :
    iprop(((oV).view.loc (thr d L) ↦[doneSetN L m]{fullShare} outRows d hv sv dv) ∗ ∃ f, (oV).view.loc (thr d L) ↦[restSetN L n]{fullShare} f)
      ⊢ outPart d L hv sv dv m n := by
  unfold outPart
  exact .rfl

theorem outPart_unfold (m n : ℕ) :
    outPart d L hv sv dv m n
      ⊢ iprop(((oV).view.loc (thr d L) ↦[doneSetN L m]{fullShare} outRows d hv sv dv) ∗ ∃ f, (oV).view.loc (thr d L) ↦[restSetN L n]{fullShare} f) := by
  unfold outPart
  exact .rfl

/-- Chunk m at the value joins the chunks below m at the value. -/
theorem done_extend (m : ℕ) :
    iprop(((oV).view.loc (thr d L) ↦[doneSetN L m]{fullShare} outRows d hv sv dv) ∗ ((oV).view.loc (thr d L) ↦[chunkSetN L m]{fullShare} outRows d hv sv dv))
      ⊢ ((oV).view.loc (thr d L) ↦[doneSetN L (m + 1)]{fullShare} outRows d hv sv dv : sProp 𝕄) := by
  rw [doneSetN_succ]
  exact (pointsTo_union (doneSetN_disjoint_chunk L m)).2

/-- After the last chunk every row of the task is done. -/
theorem done_all :
    ((oV).view.loc (thr d L) ↦[doneSetN L 125]{fullShare} outRows d hv sv dv : sProp 𝕄) ⊢ (oV).view.loc (thr d L) ↦[outSet L]{fullShare} outRows d hv sv dv := by
  rw [doneSetN_all]

omit [FloatOps F] in
/-- Chunk n's rows, held at some contents, as a copy-out's target names them. -/
theorem chunk_spell (n : ℕ) (hn : n ≤ 124) (off : Fin 2 → ℕ) (inb : ∀ a, off a + S80x128.size a ≤ S320000x128.size a)
    (hr : ∀ a, (Rect.unit (s := S320000x128) off S80x128.size inb).stride a = 1) (hoff : off = ![10000 * wid L + 80 * n, 0])
    (f : Buf (Elt F) (oLoc d)) :
    ((oV).view.loc (thr d L) ↦[chunkSetN L n]{fullShare} f : sProp 𝕄)
      = (oChunkM off inb hr).view.loc (thr d L) ↦[(oChunkM off inb hr).view.set]{fullShare} f :=
  chunk_held d L n hn off inb hr hoff f

end Cert.Proof.OnKernelIdeal.Tile

end
-- ==== Proof.OnKernelIdeal.TileCanon.lean ====
/-
  One vector subcore's task of the gather kernel: a gather in flight, from the form in which the run's steps
  leave it to the form the outer loop's invariant holds it in.

  The two forms differ only in how sets and contents are written: the destination scratch whole, written by one
  piece, holds that piece, which is the chunk gathered; the offset list's elements are row n of the index scratch;
  the node features sliced at the full rectangle are all of them.
-/
import proofs.«206094_g687194767628_cont_sun_c4_81_43_alg».proof.Proof.OnKernelIdeal.TileContent
import proofs.«206094_g687194767628_cont_sun_c4_81_43_alg».proof.Proof.OnKernelIdeal.TileLoop

noncomputable section

namespace Cert.Proof.OnKernelIdeal.Tile

open Cert.KernelIdeal Cert.KernelIdeal.Gen
open Cert.Proof.OnKernelIdeal

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid1.Coords)

omit [FloatOps F] in
/-- The node features sliced at the full rectangle are all of them. -/
theorem hS_set : (hS).view.set = Finset.univ := by
  show ((View.whole (main_v6_scv : Ref sig .scVector)).slice (Rect.unit (s := S10000x128) ![0, 0] S10000x128.size inb_S10000x128_S10000x128_0_0)).set = _
  rw [View.set_slice_whole]
  ext x
  rw [Rect.mem_set_unit]
  simp only [Finset.mem_univ, iff_true]
  intro a
  match a with
  | ⟨0, _⟩ =>
    have h : (x 0).val < 10000 := (x 0).isLt
    show 0 ≤ (x 0).val ∧ (x 0).val < 0 + 10000; omega
  | ⟨1, _⟩ =>
    have h : (x 1).val < 128 := (x 1).isLt
    show 0 ≤ (x 1).val ∧ (x 1).val < 0 + 128; omega

variable (q : PosShare TreeShare) (hv : Buf (Elt F) (hLoc d)) (sv : Buf (Elt F) (sLoc d)) (dv : Buf (Elt F) (dLoc d))

/-- Slot 0, source rows: the gather of chunk n as the run leaves it, beside the rest of the index scratch's share. -/
theorem gfJ0_intro (n : ℕ) (hn : n ≤ 124) (off : Fin 2 → ℕ) (inb : ∀ a, off a + S1x80.size a ≤ S125x80.size a)
    (hr : ∀ a, (Rect.unit (s := S125x80) off S1x80.size inb).stride a = 1) (hoff : off = ![n, 0])
    (f : Buf (Elt F) ((thr d L).loc cc1_scratch2)) (g : (Rect.whole cc1_scratch2.ty.shape).shape.Idx → Elt F cc1_scratch2.ty.elt)
    (hg : g = gath d hv (idxS d L sv) n) :
    (iprop(Transfers.Flight countersEmb (thr d L) (SemLoc.dma cc1_scratch8.sem) default 327680
        iprop((((Memref.whole cc1_scratch2 : Memref sig .scVector _ _ _).view.loc (thr d L) ↦[(Memref.whole cc1_scratch2 : Memref sig .scVector _ _ _).view.set]{fullShare}
                (Memref.whole cc1_scratch2 : Memref sig .scVector _ _ _).view.writes (Elt F) f [⟨Rect.whole cc1_scratch2.ty.shape, g⟩])
            ∗ ((Memref.whole cc1_scratch0 : Memref sig .scVector .vmem S125x80 .i32).view.loc (thr d L) ↦[(rowM0 off inb hr).view.set]{fullShare.left} idxS d L sv))
          ∗ ((hV).view.loc (thr d L) ↦[(hS).view.set]{q.left.left} hv))
      ∗ ((Memref.whole cc1_scratch0 : Memref sig .scVector .vmem S125x80 .i32).view.loc (thr d L) ↦[Finset.univ \ (rowM0 off inb hr).view.set]{fullShare.left} idxS d L sv)) : sProp 𝕄)
      ⊢ gfJ0 d L q hv sv n := by
  unfold gfJ0
  have hset : (Memref.whole cc1_scratch2 : Memref sig .scVector _ _ _).view.set = Finset.univ := View.set_whole _
  rw [rowM0_set n off inb hr hoff, hS_set, hset]
  refine sep_mono (Transfers.Flight_mono _ _ (sep_mono (sep_mono (Entails.of_eq (pointsTo_congr fun x _ => ?_)) .rfl) .rfl)) .rfl
  rw [writes_whole_scr, hg]

/-- Slot 0, destination rows. -/
theorem gfI0_intro (n : ℕ) (hn : n ≤ 124) (off : Fin 2 → ℕ) (inb : ∀ a, off a + S1x80.size a ≤ S125x80.size a)
    (hr : ∀ a, (Rect.unit (s := S125x80) off S1x80.size inb).stride a = 1) (hoff : off = ![n, 0])
    (f : Buf (Elt F) ((thr d L).loc cc1_scratch4)) (g : (Rect.whole cc1_scratch4.ty.shape).shape.Idx → Elt F cc1_scratch4.ty.elt)
    (hg : g = gath d hv (idxD d L dv) n) :
    (iprop(Transfers.Flight countersEmb (thr d L) (SemLoc.dma cc1_scratch10.sem) default 327680
        iprop((((Memref.whole cc1_scratch4 : Memref sig .scVector _ _ _).view.loc (thr d L) ↦[(Memref.whole cc1_scratch4 : Memref sig .scVector _ _ _).view.set]{fullShare}
                (Memref.whole cc1_scratch4 : Memref sig .scVector _ _ _).view.writes (Elt F) f [⟨Rect.whole cc1_scratch4.ty.shape, g⟩])
            ∗ ((Memref.whole cc1_scratch1 : Memref sig .scVector .vmem S125x80 .i32).view.loc (thr d L) ↦[(rowM1 off inb hr).view.set]{fullShare.left} idxD d L dv))
          ∗ ((hV).view.loc (thr d L) ↦[(hS).view.set]{q.left.right} hv))
      ∗ ((Memref.whole cc1_scratch1 : Memref sig .scVector .vmem S125x80 .i32).view.loc (thr d L) ↦[Finset.univ \ (rowM1 off inb hr).view.set]{fullShare.left} idxD d L dv)) : sProp 𝕄)
      ⊢ gfI0 d L q hv dv n := by
  unfold gfI0
  have hset : (Memref.whole cc1_scratch4 : Memref sig .scVector _ _ _).view.set = Finset.univ := View.set_whole _
  rw [rowM1_set n off inb hr hoff, hS_set, hset]
  refine sep_mono (Transfers.Flight_mono _ _ (sep_mono (sep_mono (Entails.of_eq (pointsTo_congr fun x _ => ?_)) .rfl) .rfl)) .rfl
  rw [writes_whole_scr, hg]

/-- Slot 1, source rows. -/
theorem gfJ1_intro (n : ℕ) (hn : n ≤ 124) (off : Fin 2 → ℕ) (inb : ∀ a, off a + S1x80.size a ≤ S125x80.size a)
    (hr : ∀ a, (Rect.unit (s := S125x80) off S1x80.size inb).stride a = 1) (hoff : off = ![n, 0])
    (f : Buf (Elt F) ((thr d L).loc cc1_scratch3)) (g : (Rect.whole cc1_scratch3.ty.shape).shape.Idx → Elt F cc1_scratch3.ty.elt)
    (hg : g = gath d hv (idxS d L sv) n) :
    (iprop(Transfers.Flight countersEmb (thr d L) (SemLoc.dma cc1_scratch9.sem) default 327680
        iprop((((Memref.whole cc1_scratch3 : Memref sig .scVector _ _ _).view.loc (thr d L) ↦[(Memref.whole cc1_scratch3 : Memref sig .scVector _ _ _).view.set]{fullShare}
                (Memref.whole cc1_scratch3 : Memref sig .scVector _ _ _).view.writes (Elt F) f [⟨Rect.whole cc1_scratch3.ty.shape, g⟩])
            ∗ ((Memref.whole cc1_scratch0 : Memref sig .scVector .vmem S125x80 .i32).view.loc (thr d L) ↦[(rowM0 off inb hr).view.set]{fullShare.right} idxS d L sv))
          ∗ ((hV).view.loc (thr d L) ↦[(hS).view.set]{q.right.left} hv))
      ∗ ((Memref.whole cc1_scratch0 : Memref sig .scVector .vmem S125x80 .i32).view.loc (thr d L) ↦[Finset.univ \ (rowM0 off inb hr).view.set]{fullShare.right} idxS d L sv)) : sProp 𝕄)
      ⊢ gfJ1 d L q hv sv n := by
  unfold gfJ1
  have hset : (Memref.whole cc1_scratch3 : Memref sig .scVector _ _ _).view.set = Finset.univ := View.set_whole _
  rw [rowM0_set n off inb hr hoff, hS_set, hset]
  refine sep_mono (Transfers.Flight_mono _ _ (sep_mono (sep_mono (Entails.of_eq (pointsTo_congr fun x _ => ?_)) .rfl) .rfl)) .rfl
  rw [writes_whole_scr, hg]

/-- Slot 1, destination rows. -/
theorem gfI1_intro (n : ℕ) (hn : n ≤ 124) (off : Fin 2 → ℕ) (inb : ∀ a, off a + S1x80.size a ≤ S125x80.size a)
    (hr : ∀ a, (Rect.unit (s := S125x80) off S1x80.size inb).stride a = 1) (hoff : off = ![n, 0])
    (f : Buf (Elt F) ((thr d L).loc cc1_scratch5)) (g : (Rect.whole cc1_scratch5.ty.shape).shape.Idx → Elt F cc1_scratch5.ty.elt)
    (hg : g = gath d hv (idxD d L dv) n) :
    (iprop(Transfers.Flight countersEmb (thr d L) (SemLoc.dma cc1_scratch11.sem) default 327680
        iprop((((Memref.whole cc1_scratch5 : Memref sig .scVector _ _ _).view.loc (thr d L) ↦[(Memref.whole cc1_scratch5 : Memref sig .scVector _ _ _).view.set]{fullShare}
                (Memref.whole cc1_scratch5 : Memref sig .scVector _ _ _).view.writes (Elt F) f [⟨Rect.whole cc1_scratch5.ty.shape, g⟩])
            ∗ ((Memref.whole cc1_scratch1 : Memref sig .scVector .vmem S125x80 .i32).view.loc (thr d L) ↦[(rowM1 off inb hr).view.set]{fullShare.right} idxD d L dv))
          ∗ ((hV).view.loc (thr d L) ↦[(hS).view.set]{q.right.right} hv))
      ∗ ((Memref.whole cc1_scratch1 : Memref sig .scVector .vmem S125x80 .i32).view.loc (thr d L) ↦[Finset.univ \ (rowM1 off inb hr).view.set]{fullShare.right} idxD d L dv)) : sProp 𝕄)
      ⊢ gfI1 d L q hv dv n := by
  unfold gfI1
  have hset : (Memref.whole cc1_scratch5 : Memref sig .scVector _ _ _).view.set = Finset.univ := View.set_whole _
  rw [rowM1_set n off inb hr hoff, hS_set, hset]
  refine sep_mono (Transfers.Flight_mono _ _ (sep_mono (sep_mono (Entails.of_eq (pointsTo_congr fun x _ => ?_)) .rfl) .rfl)) .rfl
  rw [writes_whole_scr, hg]

/-- Slot 0, source rows: the gather of chunk n as the run leaves it, its payload spelt as the gather rule spells it, beside the rest of the index scratch's share. -/
theorem gfJ0_issue (n : ℕ) (hn : n ≤ 124) (off : Fin 2 → ℕ) (inb : ∀ a, off a + S1x80.size a ≤ S125x80.size a)
    (hr : ∀ a, (Rect.unit (s := S125x80) off S1x80.size inb).stride a = 1) (hoff : off = ![n, 0])
    (f : Buf (Elt F) ((thr d L).loc cc1_scratch2))
    (hnum : S80.numel = S80x128.size gathers_S10000x128_S80x128.axis')
    (hin : ∀ x, ((rowM0 off inb hr).view.read (Elt F) (idxS d L sv) x).toNat < S10000x128.size gathers_S10000x128_S80x128.axis) :
    (iprop(Transfers.Flight countersEmb (thr d L) (SemLoc.dma cc1_scratch8.sem) default 327680
        iprop((((Memref.whole cc1_scratch2 : Memref sig .scVector _ _ _).view.loc (thr d L) ↦[(Memref.whole cc1_scratch2 : Memref sig .scVector _ _ _).view.set]{fullShare}
                (Memref.whole cc1_scratch2 : Memref sig .scVector _ _ _).view.writes (Elt F) f
                  [⟨Rect.whole cc1_scratch2.ty.shape, SparseCore.gatherPayload gathers_S10000x128_S80x128 ((hS).view.read (Elt F) hv)
                      (SparseCore.rows ((rowM0 off inb hr).view.read (Elt F) (idxS d L sv)) hnum hin)⟩])
            ∗ ((Memref.whole cc1_scratch0 : Memref sig .scVector .vmem S125x80 .i32).view.loc (thr d L) ↦[(rowM0 off inb hr).view.set]{fullShare.left} idxS d L sv))
          ∗ ((hV).view.loc (thr d L) ↦[(hS).view.set]{q.left.left} hv))
      ∗ ((Memref.whole cc1_scratch0 : Memref sig .scVector .vmem S125x80 .i32).view.loc (thr d L) ↦[Finset.univ \ (rowM0 off inb hr).view.set]{fullShare.left} idxS d L sv)) : sProp 𝕄)
      ⊢ gfJ0 d L q hv sv n :=
  gfJ0_intro d L q hv sv n hn off inb hr hoff f _ (gather_payload0 d hv (idxS d L sv) n hn off inb hr hoff hnum hin)

/-- Slot 0, destination rows. -/
theorem gfI0_issue (n : ℕ) (hn : n ≤ 124) (off : Fin 2 → ℕ) (inb : ∀ a, off a + S1x80.size a ≤ S125x80.size a)
    (hr : ∀ a, (Rect.unit (s := S125x80) off S1x80.size inb).stride a = 1) (hoff : off = ![n, 0])
    (f : Buf (Elt F) ((thr d L).loc cc1_scratch4))
    (hnum : S80.numel = S80x128.size gathers_S10000x128_S80x128.axis')
    (hin : ∀ x, ((rowM1 off inb hr).view.read (Elt F) (idxD d L dv) x).toNat < S10000x128.size gathers_S10000x128_S80x128.axis) :
    (iprop(Transfers.Flight countersEmb (thr d L) (SemLoc.dma cc1_scratch10.sem) default 327680
        iprop((((Memref.whole cc1_scratch4 : Memref sig .scVector _ _ _).view.loc (thr d L) ↦[(Memref.whole cc1_scratch4 : Memref sig .scVector _ _ _).view.set]{fullShare}
                (Memref.whole cc1_scratch4 : Memref sig .scVector _ _ _).view.writes (Elt F) f
                  [⟨Rect.whole cc1_scratch4.ty.shape, SparseCore.gatherPayload gathers_S10000x128_S80x128 ((hS).view.read (Elt F) hv)
                      (SparseCore.rows ((rowM1 off inb hr).view.read (Elt F) (idxD d L dv)) hnum hin)⟩])
            ∗ ((Memref.whole cc1_scratch1 : Memref sig .scVector .vmem S125x80 .i32).view.loc (thr d L) ↦[(rowM1 off inb hr).view.set]{fullShare.left} idxD d L dv))
          ∗ ((hV).view.loc (thr d L) ↦[(hS).view.set]{q.left.right} hv))
      ∗ ((Memref.whole cc1_scratch1 : Memref sig .scVector .vmem S125x80 .i32).view.loc (thr d L) ↦[Finset.univ \ (rowM1 off inb hr).view.set]{fullShare.left} idxD d L dv)) : sProp 𝕄)
      ⊢ gfI0 d L q hv dv n :=
  gfI0_intro d L q hv dv n hn off inb hr hoff f _ (gather_payload1 d hv (idxD d L dv) n hn off inb hr hoff hnum hin)

/-- Slot 1, source rows. -/
theorem gfJ1_issue (n : ℕ) (hn : n ≤ 124) (off : Fin 2 → ℕ) (inb : ∀ a, off a + S1x80.size a ≤ S125x80.size a)
    (hr : ∀ a, (Rect.unit (s := S125x80) off S1x80.size inb).stride a = 1) (hoff : off = ![n, 0])
    (f : Buf (Elt F) ((thr d L).loc cc1_scratch3))
    (hnum : S80.numel = S80x128.size gathers_S10000x128_S80x128.axis')
    (hin : ∀ x, ((rowM0 off inb hr).view.read (Elt F) (idxS d L sv) x).toNat < S10000x128.size gathers_S10000x128_S80x128.axis) :
    (iprop(Transfers.Flight countersEmb (thr d L) (SemLoc.dma cc1_scratch9.sem) default 327680
        iprop((((Memref.whole cc1_scratch3 : Memref sig .scVector _ _ _).view.loc (thr d L) ↦[(Memref.whole cc1_scratch3 : Memref sig .scVector _ _ _).view.set]{fullShare}
                (Memref.whole cc1_scratch3 : Memref sig .scVector _ _ _).view.writes (Elt F) f
                  [⟨Rect.whole cc1_scratch3.ty.shape, SparseCore.gatherPayload gathers_S10000x128_S80x128 ((hS).view.read (Elt F) hv)
                      (SparseCore.rows ((rowM0 off inb hr).view.read (Elt F) (idxS d L sv)) hnum hin)⟩])
            ∗ ((Memref.whole cc1_scratch0 : Memref sig .scVector .vmem S125x80 .i32).view.loc (thr d L) ↦[(rowM0 off inb hr).view.set]{fullShare.right} idxS d L sv))
          ∗ ((hV).view.loc (thr d L) ↦[(hS).view.set]{q.right.left} hv))
      ∗ ((Memref.whole cc1_scratch0 : Memref sig .scVector .vmem S125x80 .i32).view.loc (thr d L) ↦[Finset.univ \ (rowM0 off inb hr).view.set]{fullShare.right} idxS d L sv)) : sProp 𝕄)
      ⊢ gfJ1 d L q hv sv n :=
  gfJ1_intro d L q hv sv n hn off inb hr hoff f _ (gather_payload0 d hv (idxS d L sv) n hn off inb hr hoff hnum hin)

/-- Slot 1, destination rows. -/
theorem gfI1_issue (n : ℕ) (hn : n ≤ 124) (off : Fin 2 → ℕ) (inb : ∀ a, off a + S1x80.size a ≤ S125x80.size a)
    (hr : ∀ a, (Rect.unit (s := S125x80) off S1x80.size inb).stride a = 1) (hoff : off = ![n, 0])
    (f : Buf (Elt F) ((thr d L).loc cc1_scratch5))
    (hnum : S80.numel = S80x128.size gathers_S10000x128_S80x128.axis')
    (hin : ∀ x, ((rowM1 off inb hr).view.read (Elt F) (idxD d L dv) x).toNat < S10000x128.size gathers_S10000x128_S80x128.axis) :
    (iprop(Transfers.Flight countersEmb (thr d L) (SemLoc.dma cc1_scratch11.sem) default 327680
        iprop((((Memref.whole cc1_scratch5 : Memref sig .scVector _ _ _).view.loc (thr d L) ↦[(Memref.whole cc1_scratch5 : Memref sig .scVector _ _ _).view.set]{fullShare}
                (Memref.whole cc1_scratch5 : Memref sig .scVector _ _ _).view.writes (Elt F) f
                  [⟨Rect.whole cc1_scratch5.ty.shape, SparseCore.gatherPayload gathers_S10000x128_S80x128 ((hS).view.read (Elt F) hv)
                      (SparseCore.rows ((rowM1 off inb hr).view.read (Elt F) (idxD d L dv)) hnum hin)⟩])
            ∗ ((Memref.whole cc1_scratch1 : Memref sig .scVector .vmem S125x80 .i32).view.loc (thr d L) ↦[(rowM1 off inb hr).view.set]{fullShare.right} idxD d L dv))
          ∗ ((hV).view.loc (thr d L) ↦[(hS).view.set]{q.right.right} hv))
      ∗ ((Memref.whole cc1_scratch1 : Memref sig .scVector .vmem S125x80 .i32).view.loc (thr d L) ↦[Finset.univ \ (rowM1 off inb hr).view.set]{fullShare.right} idxD d L dv)) : sProp 𝕄)
      ⊢ gfI1 d L q hv dv n :=
  gfI1_intro d L q hv dv n hn off inb hr hoff f _ (gather_payload1 d hv (idxD d L dv) n hn off inb hr hoff hnum hin)

/-! ## A share of some elements beside the same share of the others -/

omit [FloatOps F] in
theorem part_rejoin {ℓ : Loc nD τ sig} {I : Finset (Idx ℓ)} {p : PosShare TreeShare} {f : Buf (Elt F) ℓ} :
    (iprop((ℓ ↦[I]{p} f) ∗ (ℓ ↦[Finset.univ \ I]{p} f)) : sProp 𝕄) ⊢ ℓ ↦{p} f :=
  (pointsTo_split_subset (Finset.subset_univ I)).2
omit [FloatOps F] in
theorem part_split {ℓ : Loc nD τ sig} (I : Finset (Idx ℓ)) {p : PosShare TreeShare} {f : Buf (Elt F) ℓ} :
    (ℓ ↦{p} f : sProp 𝕄) ⊢ iprop((ℓ ↦[I]{p} f) ∗ (ℓ ↦[Finset.univ \ I]{p} f)) :=
  (pointsTo_split_subset (Finset.subset_univ I)).1

/-! ## A copy-out in flight -/

omit [FloatOps F] in
/-- Eighty rows of the result written by one listed piece, the whole 80 × 128 block, hold that piece. -/
theorem writes_whole_chunk (off : Fin 2 → ℕ) (inb : ∀ a, off a + S80x128.size a ≤ S320000x128.size a)
    (hr : ∀ a, (Rect.unit (s := S320000x128) off S80x128.size inb).stride a = 1)
    (fo : Buf (Elt F) (oLoc d)) (g : (Rect.whole S80x128).shape.Idx → Elt F .f32) (y : S80x128.Idx) :
    (oChunkM off inb hr).view.writes (Elt F) fo [⟨Rect.whole S80x128, g⟩] ((oChunkM off inb hr).view.emb y) = g y := by
  have e : (Rect.whole S80x128).emb y = y := by
    funext a
    apply Fin.ext
    rw [Rect.emb_apply]
    show 0 + 1 * (y a).val = (y a).val
    omega
  have h := View.read_writes_cons_emb (oChunkM off inb hr).view fo (Rect.whole S80x128) g [] y
  rw [e, View.read_apply] at h
  exact h

/-- Slot 0: the copy-out of chunk n computed, as the run leaves it after the issue. -/
theorem ofl0_intro (n : ℕ) (hn : n ≤ 124) (off : Fin 2 → ℕ) (inb : ∀ a, off a + S80x128.size a ≤ S320000x128.size a)
    (hr : ∀ a, (Rect.unit (s := S320000x128) off S80x128.size inb).stride a = 1) (hoff : off = ![10000 * wid L + 80 * n, 0])
    (fo : Buf (Elt F) (oLoc d)) (g : (Rect.whole S80x128).shape.Idx → Elt F .f32) (hg : g = obC d L hv sv dv n)
    (f : Buf (Elt F) ((thr d L).loc cc1_scratch6)) (hf : f = obC d L hv sv dv n) :
    (Transfers.Flight countersEmb (thr d L) (SemLoc.dma cc1_scratch12.sem) default 327680
        iprop(((oChunkM off inb hr).view.loc (thr d L) ↦[(oChunkM off inb hr).view.set]{fullShare}
                (oChunkM off inb hr).view.writes (Elt F) fo [⟨Rect.whole S80x128, g⟩])
          ∗ ((Memref.whole cc1_scratch6 : Memref sig .scVector _ _ _).view.loc (thr d L) ↦[(Memref.whole cc1_scratch6 : Memref sig .scVector _ _ _).view.set]{fullShare} f)) : sProp 𝕄)
      ⊢ ofl0 d L hv sv dv n := by
  unfold ofl0
  have hset : (Memref.whole cc1_scratch6 : Memref sig .scVector _ _ _).view.set = Finset.univ := View.set_whole _
  subst hf
  rw [hset]
  refine Transfers.Flight_mono _ _ (sep_mono ?_ .rfl)
  rw [← chunk_done d L hv sv dv n hn off inb hr hoff fo]
  refine Entails.of_eq (pointsTo_congr fun x hx => ?_)
  obtain ⟨y, -, rfl⟩ := Finset.mem_map.mp hx
  rw [writes_whole_chunk, View.write_emb_of_mem _ _ (Finset.mem_univ y), hg]
  rfl

/-- Slot 1. -/
theorem ofl1_intro (n : ℕ) (hn : n ≤ 124) (off : Fin 2 → ℕ) (inb : ∀ a, off a + S80x128.size a ≤ S320000x128.size a)
    (hr : ∀ a, (Rect.unit (s := S320000x128) off S80x128.size inb).stride a = 1) (hoff : off = ![10000 * wid L + 80 * n, 0])
    (fo : Buf (Elt F) (oLoc d)) (g : (Rect.whole S80x128).shape.Idx → Elt F .f32) (hg : g = obC d L hv sv dv n)
    (f : Buf (Elt F) ((thr d L).loc cc1_scratch7)) (hf : f = obC d L hv sv dv n) :
    (Transfers.Flight countersEmb (thr d L) (SemLoc.dma cc1_scratch13.sem) default 327680
        iprop(((oChunkM off inb hr).view.loc (thr d L) ↦[(oChunkM off inb hr).view.set]{fullShare}
                (oChunkM off inb hr).view.writes (Elt F) fo [⟨Rect.whole S80x128, g⟩])
          ∗ ((Memref.whole cc1_scratch7 : Memref sig .scVector _ _ _).view.loc (thr d L) ↦[(Memref.whole cc1_scratch7 : Memref sig .scVector _ _ _).view.set]{fullShare} f)) : sProp 𝕄)
      ⊢ ofl1 d L hv sv dv n := by
  unfold ofl1
  have hset : (Memref.whole cc1_scratch7 : Memref sig .scVector _ _ _).view.set = Finset.univ := View.set_whole _
  subst hf
  rw [hset]
  refine Transfers.Flight_mono _ _ (sep_mono ?_ .rfl)
  rw [← chunk_done d L hv sv dv n hn off inb hr hoff fo]
  refine Entails.of_eq (pointsTo_congr fun x hx => ?_)
  obtain ⟨y, -, rfl⟩ := Finset.mem_map.mp hx
  rw [writes_whole_chunk, View.write_emb_of_mem _ _ (Finset.mem_univ y), hg]
  rfl

end Cert.Proof.OnKernelIdeal.Tile

end
-- ==== Proof.OnKernelIdeal.TileHalf0.lean ====
/-
  One vector subcore's task of the gather kernel: the even half of a trip of the outer loop. The two gathers of the
  trip's even chunk land; from the second trip on the copy-out of the chunk two before it is waited for; the chunk
  is computed row by row and its copy-out started; the gathers of the chunk two after it are issued.
-/
import proofs.«206094_g687194767628_cont_sun_c4_81_43_alg».proof.Proof.OnKernelIdeal.TileLoop
import proofs.«206094_g687194767628_cont_sun_c4_81_43_alg».proof.Proof.OnKernelIdeal.TilePieces
import proofs.«206094_g687194767628_cont_sun_c4_81_43_alg».proof.Proof.OnKernelIdeal.TileOut
import proofs.«206094_g687194767628_cont_sun_c4_81_43_alg».proof.Proof.OnKernelIdeal.TileCanon

set_option maxRecDepth 16384

noncomputable section

namespace Cert.Proof.OnKernelIdeal.Tile

open Cert.KernelIdeal Cert.KernelIdeal.Gen
open Cert.Proof.OnKernelIdeal

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid1.Coords)

variable (q : PosShare TreeShare) (hv : Buf (Elt F) (hLoc d)) (sv : Buf (Elt F) (sLoc d)) (dv : Buf (Elt F) (dLoc d))

/-- The even half of trip k on the task's operands. -/
abbrev half0Prog (v2 : BitVec 32) (k : Fin k1_t1_loop.trips) :=
  k1_part5 (F := F) L hV (Memref.isWhole_whole _) sV (Memref.isWhole_whole _) dV (Memref.isWhole_whole _) oV (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    (Memref.whole cc1_scratch4) (Memref.isWhole_whole _) (Memref.whole cc1_scratch5) (Memref.isWhole_whole _)
    (Memref.whole cc1_scratch6) (Memref.isWhole_whole _) (Memref.whole cc1_scratch7) (Memref.isWhole_whole _)
    cc1_scratch8 cc1_scratch9 cc1_scratch10 cc1_scratch11 cc1_scratch12 cc1_scratch13 cc1_scoped0 cc1_scoped1 v2 0#32 1#32 k

set_option maxRecDepth 65536 in
/-- The even half of trip k: chunk 2k's gathers land, the copy-out of chunk 2k - 2 (from the second trip on) is
    waited for, chunk 2k is computed and its copy-out started, chunk 2k + 2's gathers are issued. -/
theorem half0 (hidx : IdxOK (F := F) d L sv dv) (O : CellTallies nD τ sig (HIx 1)) (W0 : Waits sig (HIx 1))
    (v2 : BitVec 32) (k : Fin k1_t1_loop.trips) :
    (iprop(Transfers.MayWaits (thr d L) (none : HIx 1) O
        ∗ gfJ0 d L q hv sv (2 * k.val) ∗ gfI0 d L q hv dv (2 * k.val)
        ∗ (if k.val = 0 then idleOut0 d L else ofl0 d L hv sv dv (2 * k.val - 2))
        ∗ outPart d L hv sv dv (2 * k.val - 2) (2 * k.val)
        ∗ owes (thr d L) O W0) : sProp 𝕄)
      ⊢ wp frame (wpE (defs₀ (F := F)) 𝒱₀ (thr d L) none) Set.univ (half0Prog (F := F) L v2 k)
          fun _ => iprop(gfJ0 d L q hv sv (2 * k.val + 2) ∗ gfI0 d L q hv dv (2 * k.val + 2)
            ∗ ofl0 d L hv sv dv (2 * k.val)
            ∗ outPart d L hv sv dv (2 * k.val - 1) (2 * k.val + 1)
            ∗ ∃ W1, ⌜∀ p ∈ W1, p ∈ W0 ∨ p.2 = none⌝ ∗ owes (thr d L) O W1) := by
  have hk62 : k.val < 62 := lt_of_lt_of_le k.isLt k1_t1_abs.2.1
  have k1_h2 : k1_cond2 k = 1#1 := by revert k; decide
  have hc1z : k.val = 0 → ¬ (k1_cond1 k = 1#1) := by revert k; decide
  have hc1p : k.val ≠ 0 → k1_cond1 k = 1#1 := by revert k; decide
  have hoff12 : k1_off12 L k = ![10000 * wid L + 80 * (2 * k.val), 0] := by
    rw [k1_off12_eq]
    have e : 20000 * (L 1).val + 10000 * (L 0).val + 160 * k.val = 10000 * wid L + 80 * (2 * k.val) := by unfold wid; omega
    rw [e]
  have hoff13 : k1_off13 k = ![2 * k.val + 2, 0] := k1_off13_eq k
  have hsubC : chunkSetN L (2 * k.val) ⊆ restSetN L (2 * k.val) := by
    intro x hx
    simp only [chunkSetN, restSetN, Finset.mem_filter, Finset.mem_univ, true_and] at hx ⊢
    omega
  have hrestC : restSetN L (2 * k.val) \ chunkSetN L (2 * k.val) = restSetN L (2 * k.val + 1) := by
    ext x
    simp only [chunkSetN, restSetN, Finset.mem_sdiff, Finset.mem_filter, Finset.mem_univ, true_and]
    omega
  have hinS : ∀ (off : Fin 2 → ℕ) (inb : ∀ a, off a + S1x80.size a ≤ S125x80.size a) (hr : ∀ a, (Rect.unit (s := S125x80) off S1x80.size inb).stride a = 1) x,
      ((((Memref.whole cc1_scratch0 : Memref sig .scVector .vmem S125x80 .i32).slice (Rect.unit (s := S125x80) off S1x80.size inb) hr).squeeze S80 squeezes_S1x80_S80).view.read (Elt F) (idxS d L sv) x).toNat
        < S10000x128.size gathers_S10000x128_S80x128.axis := by
    intro off inb hr x
    rw [View.read_apply]
    exact idxS_lt d L hidx _
  have hinD : ∀ (off : Fin 2 → ℕ) (inb : ∀ a, off a + S1x80.size a ≤ S125x80.size a) (hr : ∀ a, (Rect.unit (s := S125x80) off S1x80.size inb).stride a = 1) x,
      ((((Memref.whole cc1_scratch1 : Memref sig .scVector .vmem S125x80 .i32).slice (Rect.unit (s := S125x80) off S1x80.size inb) hr).squeeze S80 squeezes_S1x80_S80).view.read (Elt F) (idxD d L dv) x).toNat
        < S10000x128.size gathers_S10000x128_S80x128.axis := by
    intro off inb hr x
    rw [View.read_apply]
    exact idxD_lt d L hidx _
  simp only [half0Prog, k1_part5_eq_skeleton]; unfold k1_part5_skel
  rw [gfJ0.eq_1 d L q hv sv (2 * k.val), gfI0.eq_1 d L q hv dv (2 * k.val)]
  by_cases hk0 : k.val = 0
  · have k1_h1 : ¬ (k1_cond1 k = 1#1) := hc1z hk0
    have e1 : 2 * k.val - 1 = 2 * k.val - 2 := by omega
    rw [if_pos hk0, e1]; unfold idleOut0
    iintro ⟨#Hmw, ⟨HfJ, HrJ⟩, ⟨HfI, HrI⟩, ⟨⟨%f6, Hb6⟩, Hso0⟩, Hout, HO⟩
    ihave ⟨Hdone, ⟨%fch, Hch⟩, ⟨%frest, Hrest⟩⟩ := (outPart_take d L hv sv dv (2 * k.val - 2) (2 * k.val) (by omega)) $$ Hout
    sl_exec
    icases HfJ_dst with ⟨Hrj, HidxJ⟩
    icases HfI_dst with ⟨Hri, HidxI⟩
    iapply (triple_bind (F := F) (rows_t2 (F := F) d L v2 0#32 1#32 k _ _ f6))
    isplitl [Hrj Hri Hb6]
    · isplitl [Hrj]; · iexact Hrj
      isplitl [Hri]; · iexact Hri
      iexact Hb6
    iintro %_ ⟨Hrj, Hri, Hb6⟩
    ihave Hch' := (Entails.of_eq (chunk_spell d L (2 * k.val) (by omega) (k1_off12 L k) (k1_off12_inb L k) (fun _ => rfl) hoff12 fch)) $$ Hch
    ihave Hi0 : ((Memref.whole cc1_scratch0 : Memref sig .scVector .vmem S125x80 .i32).view.loc (thr d L) ↦{fullShare.left} idxS d L sv) $$ [HidxJ HrJ]
    · iapply (pointsTo_split_subset (Finset.subset_univ (rowSetN (2 * k.val)))).2
      isplitl [HidxJ]; · iexact HidxJ
      iexact HrJ
    ihave Hi1 : ((Memref.whole cc1_scratch1 : Memref sig .scVector .vmem S125x80 .i32).view.loc (thr d L) ↦{fullShare.left} idxD d L dv) $$ [HidxI HrI]
    · iapply (pointsTo_split_subset (Finset.subset_univ (rowSetN (2 * k.val)))).2
      isplitl [HidxI]; · iexact HidxI
      iexact HrI
    ihave XsI := (hid_in (F := F) _) $$ HfI_src
    sl_exec (disch := exact View.amount_pos _ _ (show 0 < S80x128.numel by decide))
    ihave HfI_src := (hid_out (F := F) _) $$ XsI
    sl_exec
    rw [wp_ret]
    imodintro
    isplitl [HfJ Hi0]
    · iapply (gfJ0_intro d L q hv sv (2 * k.val + 2) (by omega) (k1_off13 k) _ _ hoff13 _ _
        (gather_payload0 d hv (idxS d L sv) (2 * k.val + 2) (by omega) (k1_off13 k) _ _ hoff13 _ _))
      isplitl [HfJ]; · iexact HfJ
      iexact Hi0
    isplitl [HfI Hi1]
    · iapply (gfI0_intro d L q hv dv (2 * k.val + 2) (by omega) (k1_off13 k) _ _ hoff13 _ _
        (gather_payload1 d hv (idxD d L dv) (2 * k.val + 2) (by omega) (k1_off13 k) _ _ hoff13 _ _))
      isplitl [HfI]; · iexact HfI
      iexact Hi1
    isplitl [Hso0]
    · iapply (ofl0_intro d L hv sv dv (2 * k.val) (by omega) (k1_off12 L k) _ _ hoff12 fch _ (funext fun _ => rfl) _ (obC_eq d L hv sv dv (2 * k.val)).symm)
      iexact Hso0
    isplitl [Hdone Hrest]
    · iapply (outPart_fold d L hv sv dv (2 * k.val - 2) (2 * k.val + 1))
      isplitl [Hdone]; · iexact Hdone
      iexists frest; iexact Hrest
    iexists _; isplitr
    swap; · iexact HO
    ipureintro
    intro p hp
    simp only [Finset.mem_insert] at hp
    rcases hp with rfl | rfl | hp
    · exact Or.inr rfl
    · exact Or.inr rfl
    · exact Or.inl hp
  · have k1_h1 : k1_cond1 k = 1#1 := hc1p hk0
    have e2 : 2 * k.val - 2 + 1 = 2 * k.val - 1 := by omega
    rw [if_neg hk0, ofl0.eq_1 d L hv sv dv (2 * k.val - 2)]
    iintro ⟨#Hmw, ⟨HfJ, HrJ⟩, ⟨HfI, HrI⟩, Hof, Hout, HO⟩
    ihave ⟨Hdone, ⟨%fch, Hch⟩, ⟨%frest, Hrest⟩⟩ := (outPart_take d L hv sv dv (2 * k.val - 2) (2 * k.val) (by omega)) $$ Hout
    sl_exec
    ihave Hdone' := (done_extend d L hv sv dv (2 * k.val - 2)) $$ [Hdone Hof_dst]
    · isplitl [Hdone]; · iexact Hdone
      iexact Hof_dst
    rw [e2]
    ihave Hdone : ((oV).view.loc (thr d L) ↦[doneSetN L (2 * k.val - 1)]{fullShare} outRows d hv sv dv) $$ [Hdone']
    · iexact Hdone'
    ihave Hso0 : (semVal (cellOf d L cc1_scratch12.sem) 0 : sProp 𝕄) $$ [Hof]
    · iexact Hof
    ihave Hb6 : (scr d L cc1_scratch6 (obC d L hv sv dv (2 * k.val - 2))) $$ [Hof_src]
    · iexact Hof_src
    icases HfJ_dst with ⟨Hrj, HidxJ⟩
    icases HfI_dst with ⟨Hri, HidxI⟩
    iapply (triple_bind (F := F) (rows_t2 (F := F) d L v2 0#32 1#32 k _ _ (obC d L hv sv dv (2 * k.val - 2))))
    isplitl [Hrj Hri Hb6]
    · isplitl [Hrj]; · iexact Hrj
      isplitl [Hri]; · iexact Hri
      iexact Hb6
    iintro %_ ⟨Hrj, Hri, Hb6⟩
    ihave Hch' := (Entails.of_eq (chunk_spell d L (2 * k.val) (by omega) (k1_off12 L k) (k1_off12_inb L k) (fun _ => rfl) hoff12 fch)) $$ Hch
    ihave Hi0 : ((Memref.whole cc1_scratch0 : Memref sig .scVector .vmem S125x80 .i32).view.loc (thr d L) ↦{fullShare.left} idxS d L sv) $$ [HidxJ HrJ]
    · iapply (pointsTo_split_subset (Finset.subset_univ (rowSetN (2 * k.val)))).2
      isplitl [HidxJ]; · iexact HidxJ
      iexact HrJ
    ihave Hi1 : ((Memref.whole cc1_scratch1 : Memref sig .scVector .vmem S125x80 .i32).view.loc (thr d L) ↦{fullShare.left} idxD d L dv) $$ [HidxI HrI]
    · iapply (pointsTo_split_subset (Finset.subset_univ (rowSetN (2 * k.val)))).2
      isplitl [HidxI]; · iexact HidxI
      iexact HrI
    ihave XsI := (hid_in (F := F) _) $$ HfI_src
    sl_exec (disch := exact View.amount_pos _ _ (show 0 < S80x128.numel by decide))
    ihave HfI_src := (hid_out (F := F) _) $$ XsI
    sl_exec
    rw [wp_ret]
    imodintro
    isplitl [HfJ Hi0]
    · iapply (gfJ0_intro d L q hv sv (2 * k.val + 2) (by omega) (k1_off13 k) _ _ hoff13 _ _
        (gather_payload0 d hv (idxS d L sv) (2 * k.val + 2) (by omega) (k1_off13 k) _ _ hoff13 _ _))
      isplitl [HfJ]; · iexact HfJ
      iexact Hi0
    isplitl [HfI Hi1]
    · iapply (gfI0_intro d L q hv dv (2 * k.val + 2) (by omega) (k1_off13 k) _ _ hoff13 _ _
        (gather_payload1 d hv (idxD d L dv) (2 * k.val + 2) (by omega) (k1_off13 k) _ _ hoff13 _ _))
      isplitl [HfI]; · iexact HfI
      iexact Hi1
    isplitl [Hso0]
    · iapply (ofl0_intro d L hv sv dv (2 * k.val) (by omega) (k1_off12 L k) _ _ hoff12 fch _ (funext fun _ => rfl) _ (obC_eq d L hv sv dv (2 * k.val)).symm)
      iexact Hso0
    isplitl [Hdone Hrest]
    · iapply (outPart_fold d L hv sv dv (2 * k.val - 1) (2 * k.val + 1))
      isplitl [Hdone]; · iexact Hdone
      iexists frest; iexact Hrest
    iexists _; isplitr
    swap; · iexact HO
    ipureintro
    intro p hp
    simp only [Finset.mem_insert] at hp
    rcases hp with rfl | rfl | rfl | hp
    · exact Or.inr rfl
    · exact Or.inr rfl
    · exact Or.inr rfl
    · exact Or.inl hp

end Cert.Proof.OnKernelIdeal.Tile

end
-- ==== Proof.OnKernelIdeal.TileHalf1.lean ====
/-
  One vector subcore's task of the gather kernel: the odd half of a trip of the outer loop.
  Chunk 2k + 1 at slot 1: its two gathers land, the copy-out of chunk 2k - 1 (from the second trip on) is
  waited for, chunk 2k + 1 is computed and its copy-out started, chunk 2k + 3's gathers are issued unless
  past the last chunk.
-/
import proofs.«206094_g687194767628_cont_sun_c4_81_43_alg».proof.Proof.OnKernelIdeal.TileLoop
import proofs.«206094_g687194767628_cont_sun_c4_81_43_alg».proof.Proof.OnKernelIdeal.TilePieces
import proofs.«206094_g687194767628_cont_sun_c4_81_43_alg».proof.Proof.OnKernelIdeal.TileCanon

noncomputable section

namespace Cert.Proof.OnKernelIdeal.Tile

open Cert.KernelIdeal Cert.KernelIdeal.Gen
open Cert.Proof.OnKernelIdeal

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid1.Coords)

variable (q : PosShare TreeShare) (hv : Buf (Elt F) (hLoc d)) (sv : Buf (Elt F) (sLoc d)) (dv : Buf (Elt F) (dLoc d))

/-- The odd half of trip k on the task's operands: the rest of the trip's region after the even half. -/
noncomputable def half1Prog (v2 : BitVec 32) (k : Fin k1_t1_loop.trips) :
    Prog (TpuEff nD τ sig (Elt F) Λ₀ (.scVector (cV L) (jV L))) Unit := do
  SparseCore.waitIndirectGather cc1_scratch9.sem hS (Memref.whole cc1_scratch3) (View.wordExact_bits rfl) (Memref.isWhole_whole _).wordExact
  SparseCore.waitIndirectGather cc1_scratch11.sem hS (Memref.whole cc1_scratch5) (View.wordExact_bits rfl) (Memref.isWhole_whole _).wordExact
  if k1_h3 : k1_cond3 k = 1#1 then do
    Prog.lift (.waitDma2 cc1_scratch13.sem (Memref.whole cc1_scratch7) (oChunkM (k1_off15 L) (k1_off15_inb L k k1_h3) (fun _ => rfl)) (Memref.isWhole_whole _).wordExact (View.wordExact_bits rfl))
    pure ⟨⟩
  else do
    pure ⟨⟩
  Scf.Loop.for k1_t3_loop k1_t3_ok ⟨⟩ (t3Body (F := F) L v2)
  Prog.lift (.enqueueDma (Memref.whole cc1_scratch7) (.here (oChunkM (k1_off24 L k) (k1_off24_inb L k) (fun _ => rfl))) (.dma cc1_scratch13.sem) (Memref.isWhole_whole _).wordExact (View.wordExact_bits rfl) ⟨Or.inl rfl, trivial⟩)
  if k1_h4 : k1_cond4 k = 1#1 then do
    SparseCore.enqueueIndirectGather rfl hS (Memref.whole cc1_scratch3) gathers_S10000x128_S80x128 (rowM0 (k1_off25 k) (k1_off25_inb k k1_h4) (fun _ => rfl)) rfl cc1_scratch9.sem (View.wordExact_bits rfl) rfl (Or.inl rfl)
    SparseCore.enqueueIndirectGather rfl hS (Memref.whole cc1_scratch5) gathers_S10000x128_S80x128 (rowM1 (k1_off25 k) (k1_off25_inb k k1_h4) (fun _ => rfl)) rfl cc1_scratch11.sem (View.wordExact_bits rfl) rfl (Or.inl rfl)
    pure ⟨⟩
  else do
    pure ⟨⟩
  pure ⟨⟩

set_option maxRecDepth 65536 in
/-- A trip's region is its even half followed by its odd half. -/
theorem t1Body_eq (v2 : BitVec 32) (k : Fin k1_t1_loop.trips) :
    k1_t1_body (F := F) L hV (Memref.isWhole_whole _) sV (Memref.isWhole_whole _) dV (Memref.isWhole_whole _) oV (Memref.isWhole_whole _)
      (Memref.whole cc1_scratch0) (Memref.isWhole_whole _) (Memref.whole cc1_scratch1) (Memref.isWhole_whole _)
      (Memref.whole cc1_scratch2) (Memref.isWhole_whole _) (Memref.whole cc1_scratch3) (Memref.isWhole_whole _)
      (Memref.whole cc1_scratch4) (Memref.isWhole_whole _) (Memref.whole cc1_scratch5) (Memref.isWhole_whole _)
      (Memref.whole cc1_scratch6) (Memref.isWhole_whole _) (Memref.whole cc1_scratch7) (Memref.isWhole_whole _)
      cc1_scratch8 cc1_scratch9 cc1_scratch10 cc1_scratch11 cc1_scratch12 cc1_scratch13 cc1_scoped0 cc1_scoped1 v2 k ⟨⟩
      = k1_part5 (F := F) L hV (Memref.isWhole_whole _) sV (Memref.isWhole_whole _) dV (Memref.isWhole_whole _) oV (Memref.isWhole_whole _)
      (Memref.whole cc1_scratch0) (Memref.isWhole_whole _) (Memref.whole cc1_scratch1) (Memref.isWhole_whole _)
      (Memref.whole cc1_scratch2) (Memref.isWhole_whole _) (Memref.whole cc1_scratch3) (Memref.isWhole_whole _)
      (Memref.whole cc1_scratch4) (Memref.isWhole_whole _) (Memref.whole cc1_scratch5) (Memref.isWhole_whole _)
      (Memref.whole cc1_scratch6) (Memref.isWhole_whole _) (Memref.whole cc1_scratch7) (Memref.isWhole_whole _)
      cc1_scratch8 cc1_scratch9 cc1_scratch10 cc1_scratch11 cc1_scratch12 cc1_scratch13 cc1_scoped0 cc1_scoped1 v2 0#32 1#32 k >>= fun _ => half1Prog (F := F) L v2 k := rfl

omit [FloatOps F] in
theorem cond3_iff (k : Fin k1_t1_loop.trips) : k1_cond3 k = 1#1 ↔ k.val ≠ 0 := by revert k; decide
omit [FloatOps F] in
theorem cond4_iff (k : Fin k1_t1_loop.trips) : k1_cond4 k = 1#1 ↔ 2 * k.val + 3 < 125 := by revert k; decide

/-! ## The task's rows, chunk by chunk -/

omit [FloatOps F] in
theorem trips_lt (k : Fin k1_t1_loop.trips) : k.val < 62 := by revert k; decide

omit [FloatOps F] in
theorem chunk_sub_rest (n : ℕ) (hn : n ≤ 124) : chunkSetN L n ⊆ restSetN L n := by
  intro x hx
  simp only [chunkSetN, restSetN, Finset.mem_filter, Finset.mem_univ, true_and] at hx ⊢
  omega

omit [FloatOps F] in
theorem rest_sdiff_chunk (n : ℕ) : restSetN L n \ chunkSetN L n = restSetN L (n + 1) := by
  ext x
  simp only [chunkSetN, restSetN, Finset.mem_sdiff, Finset.mem_filter, Finset.mem_univ, true_and]
  omega

omit [FloatOps F] in
theorem done_disj_chunk (m : ℕ) : Disjoint (doneSetN L m) (chunkSetN L m) := by
  rw [Finset.disjoint_left]
  intro x hx hy
  simp only [chunkSetN, doneSetN, Finset.mem_filter, Finset.mem_univ, true_and] at hx hy
  omega

omit [FloatOps F] in
theorem done_union_chunk (m : ℕ) : doneSetN L m ∪ chunkSetN L m = doneSetN L (m + 1) := by
  ext x
  simp only [chunkSetN, doneSetN, Finset.mem_union, Finset.mem_filter, Finset.mem_univ, true_and]
  omega

omit [FloatOps F] in
theorem off24_closed (k : Fin k1_t1_loop.trips) : k1_off24 L k = ![10000 * wid L + 80 * (2 * k.val + 1), 0] := by
  rw [k1_off24_eq]
  unfold wid
  congr 1
  omega

omit [FloatOps F] in
/-- One listed piece over the whole of a window is the plain write of its payload, on the window's elements. -/
theorem writes_whole_eq_write (off : Fin 2 → ℕ) (inb : ∀ a, off a + S80x128.size a ≤ S320000x128.size a)
    (hr : ∀ a, (Rect.unit (s := S320000x128) off S80x128.size inb).stride a = 1) (fo : Buf (Elt F) (oLoc d))
    (g : S80x128.Idx → Elt F .f32) :
    ∀ i ∈ (oChunkM off inb hr).view.set,
      (oChunkM off inb hr).view.writes (Elt F) fo [⟨Rect.whole S80x128, g⟩] i
        = (oChunkM off inb hr).view.write (Elt F) fo g Finset.univ i := by
  intro i hi
  obtain ⟨y, -, rfl⟩ := Finset.mem_map.mp hi
  rw [View.write_emb_of_mem _ _ (Finset.mem_univ y)]
  have e : (Rect.whole S80x128).emb y = y := by
    funext a
    apply Fin.ext
    rw [Rect.emb_apply]
    show 0 + 1 * (y a).val = (y a).val
    omega
  have h := View.read_writes_cons_emb (oChunkM off inb hr).view fo (Rect.whole S80x128) g [] y
  rw [e, View.read_apply] at h
  exact h

set_option maxHeartbeats 4000000 in
/-- The odd half of trip k: chunk 2k + 1's gathers land, the copy-out of chunk 2k - 1 (from the second trip on) is
    waited for, chunk 2k + 1 is computed and its copy-out started, chunk 2k + 3's gathers are issued unless past the
    last chunk. -/
theorem half1 (hidx : IdxOK (F := F) d L sv dv) (O : CellTallies nD τ sig (HIx 1)) (W0 : Waits sig (HIx 1))
    (v2 : BitVec 32) (k : Fin k1_t1_loop.trips) :
    (iprop(Transfers.MayWaits (thr d L) (none : HIx 1) O
        ∗ gfJ1 d L q hv sv (2 * k.val + 1) ∗ gfI1 d L q hv dv (2 * k.val + 1)
        ∗ (if k.val = 0 then idleOut1 d L else ofl1 d L hv sv dv (2 * k.val - 1))
        ∗ outPart d L hv sv dv (2 * k.val - 1) (2 * k.val + 1)
        ∗ owes (thr d L) O W0) : sProp 𝕄)
      ⊢ wp frame (wpE (defs₀ (F := F)) 𝒱₀ (thr d L) none) Set.univ (half1Prog (F := F) L v2 k)
          fun _ => iprop((if 2 * k.val + 3 < 125 then iprop(gfJ1 d L q hv sv (2 * k.val + 3) ∗ gfI1 d L q hv dv (2 * k.val + 3)) else idle1 d L q hv sv dv)
            ∗ ofl1 d L hv sv dv (2 * k.val + 1)
            ∗ outPart d L hv sv dv (2 * k.val) (2 * k.val + 2)
            ∗ ∃ W1, ⌜∀ p ∈ W1, p ∈ W0 ∨ p.2 = none⌝ ∗ owes (thr d L) O W1) := by
  unfold half1Prog
  have hk := trips_lt k
  by_cases hk0 : k.val = 0
  · have h3 : ¬ k1_cond3 k = 1#1 := fun h => (cond3_iff k).1 h hk0
    rw [if_pos hk0]
    unfold gfJ1 gfI1 ofl1 idleOut1 outPart
    iintro ⟨#Hmw, ⟨HfJ, HrJ⟩, ⟨HfI, HrI⟩, ⟨⟨%f7, Hofl_src⟩, Hofl⟩, ⟨Hdone, %fo, Hrest⟩, HO⟩
    have hinS : ∀ (off : Fin 2 → ℕ) (inb : ∀ a, off a + S1x80.size a ≤ S125x80.size a) (hr : ∀ a, (Rect.unit (s := S125x80) off S1x80.size inb).stride a = 1) x,
        ((((Memref.whole cc1_scratch0 : Memref sig .scVector .vmem S125x80 .i32).slice (Rect.unit (s := S125x80) off S1x80.size inb) hr).squeeze S80 squeezes_S1x80_S80).view.read (Elt F) (idxS d L sv) x).toNat
          < S10000x128.size gathers_S10000x128_S80x128.axis := by
      intro off inb hr x
      rw [View.read_apply]
      exact idxS_lt d L hidx _
    have hinD : ∀ (off : Fin 2 → ℕ) (inb : ∀ a, off a + S1x80.size a ≤ S125x80.size a) (hr : ∀ a, (Rect.unit (s := S125x80) off S1x80.size inb).stride a = 1) x,
        ((((Memref.whole cc1_scratch1 : Memref sig .scVector .vmem S125x80 .i32).slice (Rect.unit (s := S125x80) off S1x80.size inb) hr).squeeze S80 squeezes_S1x80_S80).view.read (Elt F) (idxD d L dv) x).toNat
          < S10000x128.size gathers_S10000x128_S80x128.axis := by
      intro off inb hr x
      rw [View.read_apply]
      exact idxD_lt d L hidx _
    sl_exec
    icases HfJ_dst with ⟨Hrj, HidxJ⟩
    icases HfI_dst with ⟨Hri, HidxI⟩
    iapply (triple_bind (F := F) (rows_t3 (F := F) d L v2 _ _ _))
    isplitl [Hrj Hri Hofl_src]
    · isplitl [Hrj]; · iexact Hrj
      isplitl [Hri]; · iexact Hri
      iexact Hofl_src
    iintro %_u ⟨Hrj, Hri, Hob⟩
    -- the copy-out's target: chunk 2k + 1's rows, split off the rows still to be written
    have hset : (oChunkM (k1_off24 L k) (k1_off24_inb L k) (fun _ => rfl)).view.set = chunkSetN L (2 * k.val + 1) :=
      oChunk_set L _ (by omega) _ _ _ (off24_closed L k)
    ihave ⟨Hchunk, Hrest'⟩ := (pointsTo_split_subset (chunk_sub_rest L (2 * k.val + 1) (by omega))).1 $$ Hrest
    ihave Hc0 := (Entails.of_eq (congrArg (fun S => ((oV).view.loc (thr d L) ↦[S]{fullShare} fo : sProp 𝕄)) hset.symm)) $$ Hchunk
    ihave Hc : ((oChunkM (k1_off24 L k) (k1_off24_inb L k) (fun _ => rfl)).view.loc (thr d L) ↦[(oChunkM (k1_off24 L k) (k1_off24_inb L k) (fun _ => rfl)).view.set]{fullShare} fo) $$ [Hc0]
    · iexact Hc0
    sl_exec
    -- the copy-out in flight, in the invariant's spelling
    have hpay : half1.sl.dma0 d L hv sv dv k = obC d L hv sv dv (2 * k.val + 1) := rfl
    have hD : (iprop(((oChunkM (k1_off24 L k) (k1_off24_inb L k) (fun _ => rfl)).view.loc (thr d L) ↦[(oChunkM (k1_off24 L k) (k1_off24_inb L k) (fun _ => rfl)).view.set]{fullShare}
            (oChunkM (k1_off24 L k) (k1_off24_inb L k) (fun _ => rfl)).view.writes (Elt F) fo [⟨Rect.whole S80x128, half1.sl.dma0 d L hv sv dv k⟩])
          ∗ ((Memref.whole cc1_scratch7 : Memref sig .scVector _ _ _).view.loc (thr d L) ↦[(Memref.whole cc1_scratch7 : Memref sig .scVector _ _ _).view.set]{fullShare}
              reluRows (gath d hv (idxS d L sv) (2 * k.val + 1)) (gath d hv (idxD d L dv) (2 * k.val + 1)))) : sProp 𝕄)
        ⊢ iprop(((oV).view.loc (thr d L) ↦[chunkSetN L (2 * k.val + 1)]{fullShare} outRows d hv sv dv) ∗ scr d L cc1_scratch7 (obC d L hv sv dv (2 * k.val + 1))) := by
      refine BIClass.sep_mono ?_ ?_
      · apply Entails.of_eq
        rw [hpay, pointsTo_congr (writes_whole_eq_write (F := F) (d := d) _ _ _ fo _),
          pointsTo_congr (out_chunk d L hv sv dv (2 * k.val + 1) (by omega) _ _ _ (off24_closed L k) fo), hset] <;> rfl
      · apply Entails.of_eq
        rw [View.set_whole] <;> rfl
    ihave Hofl1 := (Transfers.Flight_mono countersEmb (thr d L) hD) $$ Hofl
    have e0 : 2 * k.val - 1 = 2 * k.val := by omega
    ihave Hdone2 := (Entails.of_eq (congrArg (fun S => ((oV).view.loc (thr d L) ↦[S]{fullShare} outRows d hv sv dv : sProp 𝕄)) (congrArg (doneSetN L) e0))) $$ Hdone
    ihave Hrest2 := (Entails.of_eq (congrArg (fun S => ((oV).view.loc (thr d L) ↦[S]{fullShare} fo : sProp 𝕄)) (rest_sdiff_chunk L (2 * k.val + 1)))) $$ Hrest'
    -- the index scratches' shares whole again
    ihave HiS := (pointsTo_split_subset (ℓ := (Memref.whole cc1_scratch0 : Memref sig .scVector .vmem S125x80 .i32).view.loc (thr d L)) (q := fullShare.right) (f := idxS d L sv) (Finset.subset_univ (rowSetN (2 * k.val + 1)))).2 $$ [HidxJ HrJ]
    · isplitl [HidxJ]; · iexact HidxJ
      iexact HrJ
    ihave HiD := (pointsTo_split_subset (ℓ := (Memref.whole cc1_scratch1 : Memref sig .scVector .vmem S125x80 .i32).view.loc (thr d L)) (q := fullShare.right) (f := idxD d L dv) (Finset.subset_univ (rowSetN (2 * k.val + 1)))).2 $$ [HidxI HrI]
    · isplitl [HidxI]; · iexact HidxI
      iexact HrI
    by_cases h4c : 2 * k.val + 3 < 125
    · have h4 : k1_cond4 k = 1#1 := (cond4_iff k).2 h4c
      ihave XfI := (hid_in (F := F) _) $$ HfI_src
      sl_exec
      have hgJ : half1.sl.gather0 d L hv sv k hinS h4 = gath d hv (idxS d L sv) (2 * k.val + 3) :=
        gather_payload0 d hv (idxS d L sv) (2 * k.val + 3) (by omega) _ _ _ (k1_off25_eq k) _ _
      ihave GJ := (gfJ1_intro (F := F) d L q hv sv (2 * k.val + 3) (by omega) (k1_off25 k) (k1_off25_inb k h4) (fun _ => rfl) (k1_off25_eq k) _ _ hgJ) $$ [HfJ HiS]
      · isplitl [HfJ]; · iexact HfJ
        iexact HiS
      ihave HfI_src := (hid_out (F := F) _) $$ XfI
      sl_exec
      have hgI : half1.sl.gather0_1 d L hv dv k hinD h4 = gath d hv (idxD d L dv) (2 * k.val + 3) :=
        gather_payload1 d hv (idxD d L dv) (2 * k.val + 3) (by omega) _ _ _ (k1_off25_eq k) _ _
      ihave GI := (gfI1_intro (F := F) d L q hv dv (2 * k.val + 3) (by omega) (k1_off25 k) (k1_off25_inb k h4) (fun _ => rfl) (k1_off25_eq k) _ _ hgI) $$ [HfI HiD]
      · isplitl [HfI]; · iexact HfI
        iexact HiD
      rw [wp_ret]
      imodintro
      rw [if_pos h4c]
      unfold gfJ1 gfI1
      isplitl [GJ GI]
      · isplitl [GJ]; · iexact GJ
        iexact GI
      isplitl [Hofl1]; · iexact Hofl1
      isplitl [Hdone2 Hrest2]
      · isplitl [Hdone2]; · iexact Hdone2
        iexists fo; iexact Hrest2
      iexists _
      isplitr
      rotate_left
      · iexact HO
      · ipureintro
        intro p hp
        simp only [Finset.mem_insert] at hp
        rcases hp with rfl | rfl | hp
        · exact Or.inr rfl
        · exact Or.inr rfl
        · exact Or.inl hp
    · exfalso; omega
  · have h3 : k1_cond3 k = 1#1 := (cond3_iff k).2 hk0
    rw [if_neg hk0]
    unfold gfJ1 gfI1 ofl1 outPart
    iintro ⟨#Hmw, ⟨HfJ, HrJ⟩, ⟨HfI, HrI⟩, Hofl, ⟨Hdone, %fo, Hrest⟩, HO⟩
    have hinS : ∀ (off : Fin 2 → ℕ) (inb : ∀ a, off a + S1x80.size a ≤ S125x80.size a) (hr : ∀ a, (Rect.unit (s := S125x80) off S1x80.size inb).stride a = 1) x,
        ((((Memref.whole cc1_scratch0 : Memref sig .scVector .vmem S125x80 .i32).slice (Rect.unit (s := S125x80) off S1x80.size inb) hr).squeeze S80 squeezes_S1x80_S80).view.read (Elt F) (idxS d L sv) x).toNat
          < S10000x128.size gathers_S10000x128_S80x128.axis := by
      intro off inb hr x
      rw [View.read_apply]
      exact idxS_lt d L hidx _
    have hinD : ∀ (off : Fin 2 → ℕ) (inb : ∀ a, off a + S1x80.size a ≤ S125x80.size a) (hr : ∀ a, (Rect.unit (s := S125x80) off S1x80.size inb).stride a = 1) x,
        ((((Memref.whole cc1_scratch1 : Memref sig .scVector .vmem S125x80 .i32).slice (Rect.unit (s := S125x80) off S1x80.size inb) hr).squeeze S80 squeezes_S1x80_S80).view.read (Elt F) (idxD d L dv) x).toNat
          < S10000x128.size gathers_S10000x128_S80x128.axis := by
      intro off inb hr x
      rw [View.read_apply]
      exact idxD_lt d L hidx _
    sl_exec
    icases HfJ_dst with ⟨Hrj, HidxJ⟩
    icases HfI_dst with ⟨Hri, HidxI⟩
    iapply (triple_bind (F := F) (rows_t3 (F := F) d L v2 _ _ _))
    isplitl [Hrj Hri Hofl_src]
    · isplitl [Hrj]; · iexact Hrj
      isplitl [Hri]; · iexact Hri
      iexact Hofl_src
    iintro %_u ⟨Hrj, Hri, Hob⟩
    -- the copy-out's target: chunk 2k + 1's rows, split off the rows still to be written
    have hset : (oChunkM (k1_off24 L k) (k1_off24_inb L k) (fun _ => rfl)).view.set = chunkSetN L (2 * k.val + 1) :=
      oChunk_set L _ (by omega) _ _ _ (off24_closed L k)
    ihave ⟨Hchunk, Hrest'⟩ := (pointsTo_split_subset (chunk_sub_rest L (2 * k.val + 1) (by omega))).1 $$ Hrest
    ihave Hc0 := (Entails.of_eq (congrArg (fun S => ((oV).view.loc (thr d L) ↦[S]{fullShare} fo : sProp 𝕄)) hset.symm)) $$ Hchunk
    ihave Hc : ((oChunkM (k1_off24 L k) (k1_off24_inb L k) (fun _ => rfl)).view.loc (thr d L) ↦[(oChunkM (k1_off24 L k) (k1_off24_inb L k) (fun _ => rfl)).view.set]{fullShare} fo) $$ [Hc0]
    · iexact Hc0
    sl_exec
    -- the copy-out in flight, in the invariant's spelling
    have hpay : half1.sl.dma0_1 d L hv sv dv k = obC d L hv sv dv (2 * k.val + 1) := rfl
    have hD : (iprop(((oChunkM (k1_off24 L k) (k1_off24_inb L k) (fun _ => rfl)).view.loc (thr d L) ↦[(oChunkM (k1_off24 L k) (k1_off24_inb L k) (fun _ => rfl)).view.set]{fullShare}
            (oChunkM (k1_off24 L k) (k1_off24_inb L k) (fun _ => rfl)).view.writes (Elt F) fo [⟨Rect.whole S80x128, half1.sl.dma0_1 d L hv sv dv k⟩])
          ∗ ((Memref.whole cc1_scratch7 : Memref sig .scVector _ _ _).view.loc (thr d L) ↦[(Memref.whole cc1_scratch7 : Memref sig .scVector _ _ _).view.set]{fullShare}
              reluRows (gath d hv (idxS d L sv) (2 * k.val + 1)) (gath d hv (idxD d L dv) (2 * k.val + 1)))) : sProp 𝕄)
        ⊢ iprop(((oV).view.loc (thr d L) ↦[chunkSetN L (2 * k.val + 1)]{fullShare} outRows d hv sv dv) ∗ scr d L cc1_scratch7 (obC d L hv sv dv (2 * k.val + 1))) := by
      refine BIClass.sep_mono ?_ ?_
      · apply Entails.of_eq
        rw [hpay, pointsTo_congr (writes_whole_eq_write (F := F) (d := d) _ _ _ fo _),
          pointsTo_congr (out_chunk d L hv sv dv (2 * k.val + 1) (by omega) _ _ _ (off24_closed L k) fo), hset] <;> rfl
      · apply Entails.of_eq
        rw [View.set_whole] <;> rfl
    ihave Hofl1 := (Transfers.Flight_mono countersEmb (thr d L) hD) $$ Hofl
    have e2k : 2 * k.val - 1 + 1 = 2 * k.val := by omega
    ihave Hdone1 := (pointsTo_union (ℓ := (oV).view.loc (thr d L)) (q := fullShare) (f := outRows d hv sv dv) (done_disj_chunk L (2 * k.val - 1))).2 $$ [Hdone Hofl_dst]
    · isplitl [Hdone]; · iexact Hdone
      iexact Hofl_dst
    ihave Hdone2 := (Entails.of_eq (congrArg (fun S => ((oV).view.loc (thr d L) ↦[S]{fullShare} outRows d hv sv dv : sProp 𝕄)) ((done_union_chunk L (2 * k.val - 1)).trans (congrArg (doneSetN L) e2k)))) $$ Hdone1
    ihave Hrest2 := (Entails.of_eq (congrArg (fun S => ((oV).view.loc (thr d L) ↦[S]{fullShare} fo : sProp 𝕄)) (rest_sdiff_chunk L (2 * k.val + 1)))) $$ Hrest'
    -- the index scratches' shares whole again
    ihave HiS := (pointsTo_split_subset (ℓ := (Memref.whole cc1_scratch0 : Memref sig .scVector .vmem S125x80 .i32).view.loc (thr d L)) (q := fullShare.right) (f := idxS d L sv) (Finset.subset_univ (rowSetN (2 * k.val + 1)))).2 $$ [HidxJ HrJ]
    · isplitl [HidxJ]; · iexact HidxJ
      iexact HrJ
    ihave HiD := (pointsTo_split_subset (ℓ := (Memref.whole cc1_scratch1 : Memref sig .scVector .vmem S125x80 .i32).view.loc (thr d L)) (q := fullShare.right) (f := idxD d L dv) (Finset.subset_univ (rowSetN (2 * k.val + 1)))).2 $$ [HidxI HrI]
    · isplitl [HidxI]; · iexact HidxI
      iexact HrI
    by_cases h4c : 2 * k.val + 3 < 125
    · have h4 : k1_cond4 k = 1#1 := (cond4_iff k).2 h4c
      ihave XfI := (hid_in (F := F) _) $$ HfI_src
      sl_exec
      have hgJ : half1.sl.gather0_2 d L hv sv k hinS h4 = gath d hv (idxS d L sv) (2 * k.val + 3) :=
        gather_payload0 d hv (idxS d L sv) (2 * k.val + 3) (by omega) _ _ _ (k1_off25_eq k) _ _
      ihave GJ := (gfJ1_intro (F := F) d L q hv sv (2 * k.val + 3) (by omega) (k1_off25 k) (k1_off25_inb k h4) (fun _ => rfl) (k1_off25_eq k) _ _ hgJ) $$ [HfJ HiS]
      · isplitl [HfJ]; · iexact HfJ
        iexact HiS
      ihave HfI_src := (hid_out (F := F) _) $$ XfI
      sl_exec
      have hgI : half1.sl.gather0_3 d L hv dv k hinD h4 = gath d hv (idxD d L dv) (2 * k.val + 3) :=
        gather_payload1 d hv (idxD d L dv) (2 * k.val + 3) (by omega) _ _ _ (k1_off25_eq k) _ _
      ihave GI := (gfI1_intro (F := F) d L q hv dv (2 * k.val + 3) (by omega) (k1_off25 k) (k1_off25_inb k h4) (fun _ => rfl) (k1_off25_eq k) _ _ hgI) $$ [HfI HiD]
      · isplitl [HfI]; · iexact HfI
        iexact HiD
      rw [wp_ret]
      imodintro
      rw [if_pos h4c]
      unfold gfJ1 gfI1
      isplitl [GJ GI]
      · isplitl [GJ]; · iexact GJ
        iexact GI
      isplitl [Hofl1]; · iexact Hofl1
      isplitl [Hdone2 Hrest2]
      · isplitl [Hdone2]; · iexact Hdone2
        iexists fo; iexact Hrest2
      iexists _
      isplitr
      rotate_left
      · iexact HO
      · ipureintro
        intro p hp
        simp only [Finset.mem_insert] at hp
        rcases hp with rfl | rfl | rfl | hp
        · exact Or.inr rfl
        · exact Or.inr rfl
        · exact Or.inr rfl
        · exact Or.inl hp
    · have h4 : ¬ k1_cond4 k = 1#1 := fun h => h4c ((cond4_iff k).1 h)
      sl_exec
      rw [wp_ret]
      imodintro
      rw [if_neg h4c]
      unfold idle1
      isplitl [Hrj Hri HfJ HfI HiS HiD HfJ_src HfI_src]
      · isplitl [Hrj]; · iexists _; iexact Hrj
        isplitl [Hri]; · iexists _; iexact Hri
        isplitl [HfJ]; · iexact HfJ
        isplitl [HfI]; · iexact HfI
        isplitl [HiS]; · iexact HiS
        isplitl [HiD]; · iexact HiD
        isplitl [HfJ_src]; · iexact HfJ_src
        iexact HfI_src
      isplitl [Hofl1]; · iexact Hofl1
      isplitl [Hdone2 Hrest2]
      · isplitl [Hdone2]; · iexact Hdone2
        iexists fo; iexact Hrest2
      iexists _
      isplitr
      rotate_left
      · iexact HO
      · ipureintro
        intro p hp
        simp only [Finset.mem_insert] at hp
        rcases hp with rfl | rfl | rfl | hp
        · exact Or.inr rfl
        · exact Or.inr rfl
        · exact Or.inr rfl
        · exact Or.inl hp

end Cert.Proof.OnKernelIdeal.Tile

end
-- ==== Proof.OnKernelIdeal.TileTrip.lean ====
/-
  One vector subcore's task of the gather kernel: one trip of the outer loop carries the invariant on. A trip is
  its even half (slot 0: chunk 2k) and then its odd half (slot 1: chunk 2k + 1); each half lands its chunk's
  gathers, waits for its slot's previous copy-out (from the second trip on), computes the chunk, starts its
  copy-out and issues the gathers two chunks ahead (the odd half of the last trip has none left to issue).
-/
import proofs.«206094_g687194767628_cont_sun_c4_81_43_alg».proof.Proof.OnKernelIdeal.TileLoop

noncomputable section

namespace Cert.Proof.OnKernelIdeal.Tile

open Cert.KernelIdeal Cert.KernelIdeal.Gen
open Cert.Proof.OnKernelIdeal

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid1.Coords)

variable (q : PosShare TreeShare) (hv : Buf (Elt F) (hLoc d)) (sv : Buf (Elt F) (sLoc d)) (dv : Buf (Elt F) (dLoc d))

variable (O : CellTallies nD τ sig (HIx 1)) (W : Waits sig (HIx 1))

/-- The invariant before trip k + 1, its conditionals resolved as far as k + 1 ≠ 0 resolves them. -/
theorem inv_succ (k : ℕ) :
    inv d L q hv sv dv O W (k + 1) ⟨⟩
      = iprop(Transfers.MayWaits (thr d L) (none : HIx 1) O
          ∗ gfJ0 d L q hv sv (2 * k + 2) ∗ gfI0 d L q hv dv (2 * k + 2)
          ∗ (if 2 * k + 3 < 125 then iprop(gfJ1 d L q hv sv (2 * k + 3) ∗ gfI1 d L q hv dv (2 * k + 3)) else idle1 d L q hv sv dv)
          ∗ iprop(ofl0 d L hv sv dv (2 * k) ∗ ofl1 d L hv sv dv (2 * k + 1))
          ∗ outPart d L hv sv dv (2 * k) (2 * k + 2)
          ∗ ∃ W', ⌜∀ p ∈ W', p ∈ W ∨ p.2 = none⌝ ∗ owes (thr d L) O W') := by
  unfold inv
  have e1 : 2 * (k + 1) = 2 * k + 2 := by omega
  have e2 : 2 * k + 2 + 1 = 2 * k + 3 := by omega
  have e3 : 2 * k + 2 - 2 = 2 * k := by omega
  have e4 : 2 * k + 2 - 1 = 2 * k + 1 := by omega
  rw [if_neg (Nat.succ_ne_zero k), e1, e2, e3, e4]

/-- The invariant before trip k < 62: slot 1's gathers are in flight. -/
theorem inv_lt (k : ℕ) (hk : k < 62) :
    inv d L q hv sv dv O W k ⟨⟩
      = iprop(Transfers.MayWaits (thr d L) (none : HIx 1) O
          ∗ gfJ0 d L q hv sv (2 * k) ∗ gfI0 d L q hv dv (2 * k)
          ∗ iprop(gfJ1 d L q hv sv (2 * k + 1) ∗ gfI1 d L q hv dv (2 * k + 1))
          ∗ iprop((if k = 0 then idleOut0 d L else ofl0 d L hv sv dv (2 * k - 2)) ∗ (if k = 0 then idleOut1 d L else ofl1 d L hv sv dv (2 * k - 1)))
          ∗ outPart d L hv sv dv (2 * k - 2) (2 * k)
          ∗ ∃ W', ⌜∀ p ∈ W', p ∈ W ∨ p.2 = none⌝ ∗ owes (thr d L) O W') := by
  unfold inv
  rw [if_pos (by omega : 2 * k + 1 < 125)]
  by_cases hk0 : k = 0
  · rw [if_pos hk0, if_pos hk0, if_pos hk0]
  · rw [if_neg hk0, if_neg hk0, if_neg hk0]

omit [FloatOps F] in
/-- A triple run to the end of a program: its precondition, and the post from its postcondition. -/
theorem triple_post {α : Type} {c : Thread nD τ} {p : Prog (TpuEff nD τ sig (Elt F) Λ₀ c.2) α}
    {P : sProp 𝕄} {Qp Q : α → sProp 𝕄} [FloatOps F]
    (hp : P ⊢ wp frame (wpE (defs₀ (F := F)) 𝒱₀ c none) Set.univ p Qp) :
    iprop(P ∗ (∀ a, Qp a -∗ Q a)) ⊢ wp frame (wpE (defs₀ (F := F)) 𝒱₀ c none) Set.univ p Q :=
  (sep_mono hp .rfl).trans (wp_wand_r _ _ _)

/-- A trip carries the invariant on, from its two halves: the even half from the invariant's slot-0 part, the odd
    half from its slot-1 part and what the even half left of the result's rows. -/
theorem trip_of {α : Type} (k : ℕ) (hk : k < 62)
    {p0 : Prog (TpuEff nD τ sig (Elt F) Λ₀ (.scVector (cV L) (jV L))) α} {p1 : Prog (TpuEff nD τ sig (Elt F) Λ₀ (.scVector (cV L) (jV L))) PUnit}
    (h0 : ∀ W0 : Waits sig (HIx 1),
      (iprop(Transfers.MayWaits (thr d L) (none : HIx 1) O
          ∗ gfJ0 d L q hv sv (2 * k) ∗ gfI0 d L q hv dv (2 * k)
          ∗ (if k = 0 then idleOut0 d L else ofl0 d L hv sv dv (2 * k - 2))
          ∗ outPart d L hv sv dv (2 * k - 2) (2 * k)
          ∗ owes (thr d L) O W0) : sProp 𝕄)
        ⊢ wp frame (wpE (defs₀ (F := F)) 𝒱₀ (thr d L) none) Set.univ p0
            fun _ => iprop(gfJ0 d L q hv sv (2 * k + 2) ∗ gfI0 d L q hv dv (2 * k + 2)
              ∗ ofl0 d L hv sv dv (2 * k)
              ∗ outPart d L hv sv dv (2 * k - 1) (2 * k + 1)
              ∗ ∃ W1, ⌜∀ p ∈ W1, p ∈ W0 ∨ p.2 = none⌝ ∗ owes (thr d L) O W1))
    (h1 : ∀ W1 : Waits sig (HIx 1),
      (iprop(Transfers.MayWaits (thr d L) (none : HIx 1) O
          ∗ gfJ1 d L q hv sv (2 * k + 1) ∗ gfI1 d L q hv dv (2 * k + 1)
          ∗ (if k = 0 then idleOut1 d L else ofl1 d L hv sv dv (2 * k - 1))
          ∗ outPart d L hv sv dv (2 * k - 1) (2 * k + 1)
          ∗ owes (thr d L) O W1) : sProp 𝕄)
        ⊢ wp frame (wpE (defs₀ (F := F)) 𝒱₀ (thr d L) none) Set.univ p1
            fun _ => iprop((if 2 * k + 3 < 125 then iprop(gfJ1 d L q hv sv (2 * k + 3) ∗ gfI1 d L q hv dv (2 * k + 3)) else idle1 d L q hv sv dv)
              ∗ ofl1 d L hv sv dv (2 * k + 1)
              ∗ outPart d L hv sv dv (2 * k) (2 * k + 2)
              ∗ ∃ W2, ⌜∀ p ∈ W2, p ∈ W1 ∨ p.2 = none⌝ ∗ owes (thr d L) O W2)) :
    inv d L q hv sv dv O W k ⟨⟩
      ⊢ wp frame (wpE (defs₀ (F := F)) 𝒱₀ (thr d L) none) Set.univ (p0 >>= fun _ => p1) (inv d L q hv sv dv O W (k + 1)) := by
  rw [inv_lt d L q hv sv dv O W k hk]
  iintro ⟨#Hmw, HJ0, HI0, ⟨HJ1, HI1⟩, ⟨Ho0, Ho1⟩, Hpart, %W', %hW', HO⟩
  -- the even half
  iapply (triple_bind (F := F) (h0 W'))
  isplitl [HJ0 HI0 Ho0 Hpart HO]
  · isplitr; · iexact Hmw
    isplitl [HJ0]; · iexact HJ0
    isplitl [HI0]; · iexact HI0
    isplitl [Ho0]; · iexact Ho0
    isplitl [Hpart]; · iexact Hpart
    iexact HO
  iintro %_ ⟨HJ0, HI0, Hf0, Hpart, %W1, %hW1, HO⟩
  -- the odd half
  iapply (triple_post (F := F) (h1 W1))
  isplitl [HJ1 HI1 Ho1 Hpart HO]
  · isplitr; · iexact Hmw
    isplitl [HJ1]; · iexact HJ1
    isplitl [HI1]; · iexact HI1
    isplitl [Ho1]; · iexact Ho1
    isplitl [Hpart]; · iexact Hpart
    iexact HO
  iintro %_ ⟨Hg1, Hf1, Hpart, %W2, %hW2, HO⟩
  -- the invariant before the next trip
  rw [inv_succ d L q hv sv dv O W k]
  isplitr; · iexact Hmw
  isplitl [HJ0]; · iexact HJ0
  isplitl [HI0]; · iexact HI0
  isplitl [Hg1]; · iexact Hg1
  isplitl [Hf0 Hf1]
  · isplitl [Hf0]; · iexact Hf0
    iexact Hf1
  isplitl [Hpart]; · iexact Hpart
  iexists W2; isplitr
  · ipureintro
    intro p hp
    rcases hW2 p hp with h | h
    · rcases hW1 p h with h' | h'
      · exact hW' p h'
      · exact .inr h'
    · exact .inr h
  iexact HO

end Cert.Proof.OnKernelIdeal.Tile

end
-- ==== Proof.OnKernelIdeal.TileTripFull.lean ====
/-
  One vector subcore's task of the gather kernel: one trip of the outer loop carries the invariant on — the even
  half and the odd half, each proved on its own, composed.
-/
import proofs.«206094_g687194767628_cont_sun_c4_81_43_alg».proof.Proof.OnKernelIdeal.TileHalf0
import proofs.«206094_g687194767628_cont_sun_c4_81_43_alg».proof.Proof.OnKernelIdeal.TileHalf1
import proofs.«206094_g687194767628_cont_sun_c4_81_43_alg».proof.Proof.OnKernelIdeal.TileTrip

noncomputable section
namespace Cert.Proof.OnKernelIdeal.Tile
open Cert.KernelIdeal Cert.KernelIdeal.Gen
open Cert.Proof.OnKernelIdeal
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type}
local notation "𝕄" => MT nD τ sig (HIx 1) (Elt F) ℕ UU ℕ
variable [FloatOps F]
variable (d : Dev nD) (L : grid1.Coords)
variable (q : PosShare TreeShare) (hv : Buf (Elt F) (hLoc d)) (sv : Buf (Elt F) (sLoc d)) (dv : Buf (Elt F) (dLoc d))

/-- Trip k of the outer loop on the task's operands. -/
abbrev tripProg (v2 : BitVec 32) (k : Fin k1_t1_loop.trips) :=
  k1_t1_body (F := F) L hV (Memref.isWhole_whole _) sV (Memref.isWhole_whole _) dV (Memref.isWhole_whole _) oV (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    (Memref.whole cc1_scratch4) (Memref.isWhole_whole _) (Memref.whole cc1_scratch5) (Memref.isWhole_whole _)
    (Memref.whole cc1_scratch6) (Memref.isWhole_whole _) (Memref.whole cc1_scratch7) (Memref.isWhole_whole _)
    cc1_scratch8 cc1_scratch9 cc1_scratch10 cc1_scratch11 cc1_scratch12 cc1_scratch13 cc1_scoped0 cc1_scoped1 v2 k ⟨⟩

/-- One trip of the outer loop carries the invariant on. -/
theorem trip (hidx : IdxOK (F := F) d L sv dv) (O : CellTallies nD τ sig (HIx 1)) (W : Waits sig (HIx 1)) (v2 : BitVec 32) (k : Fin k1_t1_loop.trips) :
    inv d L q hv sv dv O W k.val ⟨⟩
      ⊢ wp frame (wpE (defs₀ (F := F)) 𝒱₀ (thr d L) none) Set.univ (tripProg (F := F) L v2 k) (inv d L q hv sv dv O W (k.val + 1)) := by
  rw [show tripProg (F := F) L v2 k = (half0Prog (F := F) L v2 k >>= fun _ => half1Prog (F := F) L v2 k) from t1Body_eq L v2 k]
  exact trip_of d L q hv sv dv O W k.val k.isLt (fun W0 => half0 d L q hv sv dv hidx O W0 v2 k) (fun W1 => half1 d L q hv sv dv hidx O W1 v2 k)

end Cert.Proof.OnKernelIdeal.Tile
end
-- ==== Proof.OnKernelIdeal.TileFinal.lean ====
/-
  One vector subcore's task of the gather kernel: what the run ends in, repackaged into what the task hands back.

  The run ends holding the node features at the share it was handed, the task's rows of the result at the value, the
  two index scratches at the task's index rows, the six data scratches at some contents, its six copy semaphores at
  zero and what it owes; with the task's rows of the two index arrays, the two scoped semaphores at zero and the rest
  of its own storage, that is the task's result beside all of its own scratch and semaphores.
-/
import proofs.«206094_g687194767628_cont_sun_c4_81_43_alg».proof.Proof.OnKernelIdeal.TileLoop

noncomputable section

namespace Cert.Proof.OnKernelIdeal.Tile

open Cert.KernelIdeal Cert.KernelIdeal.Gen
open Cert.Proof.OnKernelIdeal

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid1.Coords)

variable (q : PosShare TreeShare) (hv : Buf (Elt F) (hLoc d)) (sv : Buf (Elt F) (sLoc d)) (dv : Buf (Elt F) (dLoc d))

/-- After the last wait: every share rejoined, the task's rows of the result at the value, the six data scratches at
    some contents, the six semaphores at zero. -/
def epiPost (O : CellTallies nD τ sig (HIx 1)) (W0 : Waits sig (HIx 1)) : sProp 𝕄 :=
  iprop(((hV).view.loc (thr d L) ↦{q} hv) ∗ ((oV).view.loc (thr d L) ↦[outSet L]{fullShare} outRows d hv sv dv)
    ∗ ((Memref.whole cc1_scratch0 : Memref sig .scVector .vmem S125x80 .i32).view.loc (thr d L) ↦{fullShare} idxS d L sv)
    ∗ ((Memref.whole cc1_scratch1 : Memref sig .scVector .vmem S125x80 .i32).view.loc (thr d L) ↦{fullShare} idxD d L dv)
    ∗ (∃ f, scr d L cc1_scratch2 f) ∗ (∃ f, scr d L cc1_scratch3 f) ∗ (∃ f, scr d L cc1_scratch4 f) ∗ (∃ f, scr d L cc1_scratch5 f) ∗ (∃ f, scr d L cc1_scratch6 f) ∗ (∃ f, scr d L cc1_scratch7 f)
    ∗ semVal (cellOf d L cc1_scratch8.sem) 0 ∗ semVal (cellOf d L cc1_scratch9.sem) 0 ∗ semVal (cellOf d L cc1_scratch10.sem) 0 ∗ semVal (cellOf d L cc1_scratch11.sem) 0 ∗ semVal (cellOf d L cc1_scratch12.sem) 0 ∗ semVal (cellOf d L cc1_scratch13.sem) 0
    ∗ ∃ W1, ⌜∀ p ∈ W1, p ∈ W0 ∨ p.2 = none⌝ ∗ owes (thr d L) O W1)

/-- What the run ends in, with the task's rows of the two index arrays and its two scoped semaphores (held from the
    first two copies on) and the rest of its own storage, is what the task hands back beside its own storage whole. -/
theorem final_pack (O : CellTallies nD τ sig (HIx 1)) (W W0 : Waits sig (HIx 1)) (hW0 : ∀ p ∈ W0, p ∈ W ∨ p.2 = none) {RB RS : sProp 𝕄}
    (hB : (ownBufs (thr d L) : sProp 𝕄) = iprop((∃ f, (thr d L).loc cc1_scratch0 ↦{fullShare} f) ∗ (∃ f, (thr d L).loc cc1_scratch1 ↦{fullShare} f) ∗ (∃ f, (thr d L).loc cc1_scratch2 ↦{fullShare} f) ∗ (∃ f, (thr d L).loc cc1_scratch3 ↦{fullShare} f) ∗ (∃ f, (thr d L).loc cc1_scratch4 ↦{fullShare} f) ∗ (∃ f, (thr d L).loc cc1_scratch5 ↦{fullShare} f) ∗ (∃ f, (thr d L).loc cc1_scratch6 ↦{fullShare} f) ∗ (∃ f, (thr d L).loc cc1_scratch7 ↦{fullShare} f) ∗ RB))
    (hS : (ownSems0 (thr d L) : sProp 𝕄) = iprop(semVal (cellOf d L cc1_scratch8.sem) 0 ∗ semVal (cellOf d L cc1_scratch9.sem) 0 ∗ semVal (cellOf d L cc1_scratch10.sem) 0 ∗ semVal (cellOf d L cc1_scratch11.sem) 0 ∗ semVal (cellOf d L cc1_scratch12.sem) 0 ∗ semVal (cellOf d L cc1_scratch13.sem) 0 ∗ semVal (cellOf d L cc1_scoped0.sem) 0 ∗ semVal (cellOf d L cc1_scoped1.sem) 0 ∗ RS)) :
    iprop(epiPost d L q hv sv dv O W0
        ∗ ((sRowK L).view.loc (thr d L) ↦[(sRowK L).view.set]{fullShare} sv) ∗ ((dRowK L).view.loc (thr d L) ↦[(dRowK L).view.set]{fullShare} dv)
        ∗ semVal (cellOf d L cc1_scoped0.sem) 0 ∗ semVal (cellOf d L cc1_scoped1.sem) 0 ∗ RB ∗ RS)
      ⊢ iprop(tdRes d L q hv sv dv ∗ ownBufs (thr d L) ∗ ownSems0 (thr d L) ∗ ∃ W', ⌜∀ p ∈ W', p ∈ W ∨ p.2 = none⌝ ∗ owes (thr d L) O W') := by
  unfold epiPost tdRes
  rw [hB, hS]
  iintro ⟨⟨Hh, Ho, Hi0, Hi1, ⟨%f2, H2⟩, ⟨%f3, H3⟩, ⟨%f4, H4⟩, ⟨%f5, H5⟩, ⟨%f6, H6⟩, ⟨%f7, H7⟩, S8, S9, S10, S11, S12, S13, %W1, %hW1, HO⟩,
    Hs, Hd, Sc0, Sc1, HRB, HRS⟩
  -- the task's result
  isplitl [Hh Hs Hd Ho]
  · isplitl [Hh]; · iexact Hh
    isplitl [Hs]; · iexact Hs
    isplitl [Hd]; · iexact Hd
    iexact Ho
  -- its scratch, each at some contents
  isplitl [Hi0 Hi1 H2 H3 H4 H5 H6 H7 HRB]
  · isplitl [Hi0]; · iexists _; iexact Hi0
    isplitl [Hi1]; · iexists _; iexact Hi1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    iexact HRB
  -- its semaphores at zero
  isplitl [S8 S9 S10 S11 S12 S13 Sc0 Sc1 HRS]
  · isplitl [S8]; · iexact S8
    isplitl [S9]; · iexact S9
    isplitl [S10]; · iexact S10
    isplitl [S11]; · iexact S11
    isplitl [S12]; · iexact S12
    isplitl [S13]; · iexact S13
    isplitl [Sc0]; · iexact Sc0
    isplitl [Sc1]; · iexact Sc1
    iexact HRS
  -- what it owes: the waits recorded are the launch's or at no index
  iexists W1; isplitr
  · ipureintro
    intro p hp
    rcases hW1 p hp with h | h
    · exact hW0 p h
    · exact .inr h
  · iexact HO

end Cert.Proof.OnKernelIdeal.Tile

end
-- ==== Proof.OnKernelIdeal.TileEpilogue.lean ====
/-
  One vector subcore's task of the gather kernel: what follows the outer loop. The last chunk (124, in slot 0):
  its two gathers are waited for, then the copy-out of chunk 122 (the slot's staging scratch comes back), the
  row loop computes the chunk into the staging scratch, its copy-out is issued; the two last waits drain both
  slots' copy-outs. All 125 chunks' rows of the task's block of the result are then at the value.
-/
import proofs.«206094_g687194767628_cont_sun_c4_81_43_alg».proof.Proof.OnKernelIdeal.TileLoop
import proofs.«206094_g687194767628_cont_sun_c4_81_43_alg».proof.Proof.OnKernelIdeal.TilePieces
import proofs.«206094_g687194767628_cont_sun_c4_81_43_alg».proof.Proof.OnKernelIdeal.TileFinal

noncomputable section

namespace Cert.Proof.OnKernelIdeal.Tile

open Cert.KernelIdeal Cert.KernelIdeal.Gen
open Cert.Proof.OnKernelIdeal

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid1.Coords)

/-! ## The program after the outer loop, on the task's operands -/

/-- The rest of the second part of the body after the outer loop: the last chunk's two gathers are waited for,
    then the copy-out of chunk 122, then the row loop. -/
abbrev epiA (v2 : BitVec 32) : Prog (TpuEff nD τ sig (Elt F) Λ₀ (.scVector (cV L) (jV L))) PUnit := do
  let v18 : Memref sig .scVector .hbm S10000x128 .f32 := (hV).slice (Rect.unit (s := S10000x128) ![0, 0] S10000x128.size inb_S10000x128_S10000x128_0_0) (fun _ => rfl)
  SparseCore.waitIndirectGather cc1_scratch8.sem v18 (Memref.whole cc1_scratch2) (View.wordExact_bits rfl) (Memref.isWhole_whole _).wordExact
  let v21 : Memref sig .scVector .hbm S10000x128 .f32 := (hV).slice (Rect.unit (s := S10000x128) ![0, 0] S10000x128.size inb_S10000x128_S10000x128_0_0) (fun _ => rfl)
  SparseCore.waitIndirectGather cc1_scratch10.sem v21 (Memref.whole cc1_scratch4) (View.wordExact_bits rfl) (Memref.isWhole_whole _).wordExact
  if k1_h5 : k1_cond5 = 1#1 then do
    let v35 : Memref sig .scVector .hbm S80x128 .f32 := (oV).slice (Rect.unit (s := S320000x128) (k1_off26 L) S80x128.size (k1_off26_inb L k1_h5)) (fun _ => rfl)
    Prog.lift (.waitDma2 cc1_scratch12.sem (Memref.whole cc1_scratch6) v35 (Memref.isWhole_whole _).wordExact (View.wordExact_bits rfl))
    pure ⟨⟩
  else do
    pure ⟨⟩
  Scf.Loop.for k1_t4_loop k1_t4_ok ⟨⟩ (t4Body (F := F) L v2)
  pure ⟨⟩

/-- The rest of the body after its second part: the last chunk's copy-out and the two last waits. -/
abbrev epiB : Prog (TpuEff nD τ sig (Elt F) Λ₀ (.scVector (cV L) (jV L))) PUnit := do
  let v29 : Memref sig .scVector .hbm S80x128 .f32 := (oV).slice (Rect.unit (s := S320000x128) (k1_off35 L) S80x128.size (k1_off35_inb L)) (fun _ => rfl)
  Prog.lift (.enqueueDma (Memref.whole cc1_scratch6) (.here v29) (.dma cc1_scratch12.sem) (Memref.isWhole_whole _).wordExact (View.wordExact_bits rfl) ⟨Or.inl rfl, trivial⟩)
  let v31 : Memref sig .scVector .hbm S80x128 .f32 := (oV).slice (Rect.unit (s := S320000x128) (k1_off36 L) S80x128.size (k1_off36_inb L)) (fun _ => rfl)
  Prog.lift (.waitDma2 cc1_scratch12.sem (Memref.whole cc1_scratch6) v31 (Memref.isWhole_whole _).wordExact (View.wordExact_bits rfl))
  let v33 : Memref sig .scVector .hbm S80x128 .f32 := (oV).slice (Rect.unit (s := S320000x128) (k1_off36 L) S80x128.size (k1_off36_inb L)) (fun _ => rfl)
  Prog.lift (.waitDma2 cc1_scratch13.sem (Memref.whole cc1_scratch7) v33 (Memref.isWhole_whole _).wordExact (View.wordExact_bits rfl))
  pure ⟨⟩

/-- The body is its first part, its second part, and the rest. -/
theorem body_split : tileProg (F := F) L
    = (k1_part8 (F := F) L hV (Memref.isWhole_whole _) sV (Memref.isWhole_whole _) dV (Memref.isWhole_whole _) oV (Memref.isWhole_whole _)
        (Memref.whole cc1_scratch0) (Memref.isWhole_whole _) (Memref.whole cc1_scratch1) (Memref.isWhole_whole _)
        (Memref.whole cc1_scratch2) (Memref.isWhole_whole _) (Memref.whole cc1_scratch3) (Memref.isWhole_whole _)
        (Memref.whole cc1_scratch4) (Memref.isWhole_whole _) (Memref.whole cc1_scratch5) (Memref.isWhole_whole _)
        (Memref.whole cc1_scratch6) (Memref.isWhole_whole _) (Memref.whole cc1_scratch7) (Memref.isWhole_whole _)
        cc1_scratch8 cc1_scratch9 cc1_scratch10 cc1_scratch11 cc1_scratch12 cc1_scratch13 cc1_scoped0 cc1_scoped1 >>= fun v2 =>
      k1_part9 (F := F) L hV (Memref.isWhole_whole _) sV (Memref.isWhole_whole _) dV (Memref.isWhole_whole _) oV (Memref.isWhole_whole _)
        (Memref.whole cc1_scratch0) (Memref.isWhole_whole _) (Memref.whole cc1_scratch1) (Memref.isWhole_whole _)
        (Memref.whole cc1_scratch2) (Memref.isWhole_whole _) (Memref.whole cc1_scratch3) (Memref.isWhole_whole _)
        (Memref.whole cc1_scratch4) (Memref.isWhole_whole _) (Memref.whole cc1_scratch5) (Memref.isWhole_whole _)
        (Memref.whole cc1_scratch6) (Memref.isWhole_whole _) (Memref.whole cc1_scratch7) (Memref.isWhole_whole _)
        cc1_scratch8 cc1_scratch9 cc1_scratch10 cc1_scratch11 cc1_scratch12 cc1_scratch13 cc1_scoped0 cc1_scoped1 v2 >>= fun _ =>
      epiB (F := F) L) := rfl

set_option maxRecDepth 65536 in
/-- The second part of the body is the two gathers of chunk 1, the outer loop, and the rest. -/
theorem part9_split (v2 : BitVec 32) :
    k1_part9 (F := F) L hV (Memref.isWhole_whole _) sV (Memref.isWhole_whole _) dV (Memref.isWhole_whole _) oV (Memref.isWhole_whole _)
        (Memref.whole cc1_scratch0) (Memref.isWhole_whole _) (Memref.whole cc1_scratch1) (Memref.isWhole_whole _)
        (Memref.whole cc1_scratch2) (Memref.isWhole_whole _) (Memref.whole cc1_scratch3) (Memref.isWhole_whole _)
        (Memref.whole cc1_scratch4) (Memref.isWhole_whole _) (Memref.whole cc1_scratch5) (Memref.isWhole_whole _)
        (Memref.whole cc1_scratch6) (Memref.isWhole_whole _) (Memref.whole cc1_scratch7) (Memref.isWhole_whole _)
        cc1_scratch8 cc1_scratch9 cc1_scratch10 cc1_scratch11 cc1_scratch12 cc1_scratch13 cc1_scoped0 cc1_scoped1 v2
      = (do
        let v9 : Memref sig .scVector .vmem S1x80 .i32 := (Memref.whole cc1_scratch0 : Memref sig .scVector .vmem S125x80 .i32).slice (Rect.unit (s := S125x80) ![1, 0] S1x80.size inb_S125x80_S1x80_1_0) (fun _ => rfl)
        let v10 : Memref sig .scVector .vmem S80 .i32 := v9.squeeze S80 squeezes_S1x80_S80
        let v11 : Memref sig .scVector .hbm S10000x128 .f32 := (hV).slice (Rect.unit (s := S10000x128) ![0, 0] S10000x128.size inb_S10000x128_S10000x128_0_0) (fun _ => rfl)
        SparseCore.enqueueIndirectGather rfl v11 (Memref.whole cc1_scratch3) gathers_S10000x128_S80x128 v10 rfl cc1_scratch9.sem (View.wordExact_bits rfl) rfl (Or.inl rfl)
        let v12 : Memref sig .scVector .vmem S1x80 .i32 := (Memref.whole cc1_scratch1 : Memref sig .scVector .vmem S125x80 .i32).slice (Rect.unit (s := S125x80) ![1, 0] S1x80.size inb_S125x80_S1x80_1_0) (fun _ => rfl)
        let v13 : Memref sig .scVector .vmem S80 .i32 := v12.squeeze S80 squeezes_S1x80_S80
        let v14 : Memref sig .scVector .hbm S10000x128 .f32 := (hV).slice (Rect.unit (s := S10000x128) ![0, 0] S10000x128.size inb_S10000x128_S10000x128_0_0) (fun _ => rfl)
        SparseCore.enqueueIndirectGather rfl v14 (Memref.whole cc1_scratch5) gathers_S10000x128_S80x128 v13 rfl cc1_scratch11.sem (View.wordExact_bits rfl) rfl (Or.inl rfl)
        Scf.Loop.for k1_t1_loop k1_t1_ok ⟨⟩ (k1_t1_body (F := F) L hV (Memref.isWhole_whole _) sV (Memref.isWhole_whole _) dV (Memref.isWhole_whole _) oV (Memref.isWhole_whole _)
        (Memref.whole cc1_scratch0) (Memref.isWhole_whole _) (Memref.whole cc1_scratch1) (Memref.isWhole_whole _)
        (Memref.whole cc1_scratch2) (Memref.isWhole_whole _) (Memref.whole cc1_scratch3) (Memref.isWhole_whole _)
        (Memref.whole cc1_scratch4) (Memref.isWhole_whole _) (Memref.whole cc1_scratch5) (Memref.isWhole_whole _)
        (Memref.whole cc1_scratch6) (Memref.isWhole_whole _) (Memref.whole cc1_scratch7) (Memref.isWhole_whole _)
        cc1_scratch8 cc1_scratch9 cc1_scratch10 cc1_scratch11 cc1_scratch12 cc1_scratch13 cc1_scoped0 cc1_scoped1 v2)
        epiA (F := F) L v2) := rfl

/-! ## The task's rows of the result, chunk by chunk -/

omit [FloatOps F] in
theorem epi_mem_doneSetN {m : ℕ} {x : S320000x128.Idx} :
    x ∈ doneSetN L m ↔ 10000 * wid L ≤ (x 0).val ∧ (x 0).val < 10000 * wid L + 80 * m := by
  unfold doneSetN; simp only [Finset.mem_filter, Finset.mem_univ, _root_.true_and]
omit [FloatOps F] in
theorem epi_mem_chunkSetN {n : ℕ} {x : S320000x128.Idx} :
    x ∈ chunkSetN L n ↔ 10000 * wid L + 80 * n ≤ (x 0).val ∧ (x 0).val < 10000 * wid L + 80 * n + 80 := by
  unfold chunkSetN; simp only [Finset.mem_filter, Finset.mem_univ, _root_.true_and]
omit [FloatOps F] in
theorem epi_mem_restSetN {n : ℕ} {x : S320000x128.Idx} :
    x ∈ restSetN L n ↔ 10000 * wid L + 80 * n ≤ (x 0).val ∧ (x 0).val < 10000 * wid L + 10000 := by
  unfold restSetN; simp only [Finset.mem_filter, Finset.mem_univ, _root_.true_and]
omit [FloatOps F] in
theorem epi_mem_outSet {x : S320000x128.Idx} :
    x ∈ outSet L ↔ 10000 * wid L ≤ (x 0).val ∧ (x 0).val < 10000 * wid L + 10000 := by
  have h1 : (x 1).val < 128 := (x 1).isLt
  rw [show x ∈ outSet L ↔ ((10000 * wid L ≤ (x 0).val ∧ (x 0).val < 10000 * wid L + 10000) ∧ (0 ≤ (x 1).val ∧ (x 1).val < 0 + 128)) from
    Rect.mem_set_unit.trans Fin.forall_fin_two]
  omega

omit [FloatOps F] in
/-- The chunks below m + 1 are the chunks below m and chunk m, apart. -/
theorem epi_doneSetN_succ (m : ℕ) : doneSetN L (m + 1) = doneSetN L m ∪ chunkSetN L m := by
  ext x; rw [Finset.mem_union, epi_mem_doneSetN, epi_mem_doneSetN, epi_mem_chunkSetN]; omega
omit [FloatOps F] in
theorem epi_doneSetN_disjoint (m : ℕ) : Disjoint (doneSetN L m) (chunkSetN L m) :=
  Finset.disjoint_left.mpr fun x h1 h2 => by rw [epi_mem_doneSetN] at h1; rw [epi_mem_chunkSetN] at h2; omega
omit [FloatOps F] in
/-- All 125 chunks are the task's block of the result; the last chunk is what is left after 124. -/
theorem epi_doneSetN_all : doneSetN L 125 = outSet L := by
  ext x; rw [epi_mem_doneSetN, epi_mem_outSet]
omit [FloatOps F] in
theorem epi_restSetN_last : restSetN L 124 = chunkSetN L 124 := by
  ext x; rw [epi_mem_restSetN, epi_mem_chunkSetN]

omit [FloatOps F] in
/-- Chunk m at a function joins the chunks below it at the same function. -/
theorem epi_done_join (m : ℕ) (f : Buf (Elt F) (oLoc d)) :
    (iprop(((oV).view.loc (thr d L) ↦[doneSetN L m]{fullShare} f) ∗ ((oV).view.loc (thr d L) ↦[chunkSetN L m]{fullShare} f)) : sProp 𝕄)
      ⊢ ((oV).view.loc (thr d L) ↦[doneSetN L (m + 1)]{fullShare} f : sProp 𝕄) := by
  rw [epi_doneSetN_succ]; exact (pointsTo_union (epi_doneSetN_disjoint L m)).2

omit [FloatOps F] in
theorem epi_off35_eq : k1_off35 L = ![10000 * wid L + 80 * 124, 0] := by
  rw [k1_off35_eq]; unfold wid; congr 1; omega

variable (q : PosShare TreeShare) (hv : Buf (Elt F) (hLoc d)) (sv : Buf (Elt F) (sLoc d)) (dv : Buf (Elt F) (dLoc d))

/-- Chunk 124 written whole over its rows of the result, from any contents, is the value there. -/
theorem epi_chunk124_val (fr : Buf (Elt F) (oLoc d)) (g : S80x128.Idx → Elt F .f32) (hg : ∀ y, g y = obC d L hv sv dv 124 y) :
    ∀ x ∈ (oChunkM (k1_off35 L) (k1_off35_inb L) (fun _ => rfl)).view.set,
      (oChunkM (k1_off35 L) (k1_off35_inb L) (fun _ => rfl)).view.writes (Elt F) fr [⟨Rect.whole S80x128, g⟩] x = outRows d hv sv dv x := by
  intro x hx
  obtain ⟨y, -, rfl⟩ := Finset.mem_map.mp hx
  have h1 := View.read_writes_cons_emb (oChunkM (k1_off35 L) (k1_off35_inb L) (fun _ => rfl)).view fr (Rect.whole S80x128) g [] y
  rw [Rect.emb_whole_apply, View.read_apply] at h1
  have h2 := out_chunk d L hv sv dv 124 (by omega) (k1_off35 L) (k1_off35_inb L) (fun _ => rfl) (epi_off35_eq L) fr _ hx
  rw [View.write_emb_of_mem _ _ (Finset.mem_univ y)] at h2
  exact (cast_eq _ _).symm.trans (h1.trans ((hg y).trans ((cast_eq _ _).symm.trans h2)))

/-! ## The run after the outer loop -/

set_option maxHeartbeats 4000000 in
/-- From the outer loop's invariant after its last trip — the gathers of chunk 124 in flight in slot 0, slot 1 idle,
    the copy-outs of chunks 122 and 123 in flight, the chunks below 122 at the value — the rest of the body runs to
    its end: every share is rejoined, every semaphore is at zero, the task's whole block of the result is at the value. -/
theorem epilogue (hidx : IdxOK (F := F) d L sv dv) (O : CellTallies nD τ sig (HIx 1)) (W0 : Waits sig (HIx 1)) (v2 : BitVec 32) :
    (iprop(Transfers.MayWaits (thr d L) (none : HIx 1) O
        ∗ gfJ0 d L q hv sv 124 ∗ gfI0 d L q hv dv 124 ∗ idle1 d L q hv sv dv
        ∗ ofl0 d L hv sv dv 122 ∗ ofl1 d L hv sv dv 123
        ∗ outPart d L hv sv dv 122 124
        ∗ owes (thr d L) O W0) : sProp 𝕄)
      ⊢ wp frame (wpE (defs₀ (F := F)) 𝒱₀ (thr d L) none) Set.univ (epiA (F := F) L v2 >>= fun _ => epiB (F := F) L)
          fun _ => epiPost d L q hv sv dv O W0 := by
  unfold gfJ0 gfI0 ofl0 ofl1 outPart
  iintro ⟨#Hmw, ⟨HfJ, HrJ⟩, ⟨HfI, HrI⟩, Hidle, Ho0, Ho1, ⟨Hdone, %fr, Hrest⟩, HO⟩
  ihave Xidle := (hid_in (F := F) _) $$ Hidle
  -- the two gathers of chunk 124 land; the copy-out of chunk 122 is waited for
  sl_exec
  icases HfJ_dst with ⟨Hb2, HiJ⟩
  icases HfI_dst with ⟨Hb4, HiI⟩
  -- the row loop computes chunk 124 into the staging scratch
  iapply (triple_bind (F := F) (rows_t4 (F := F) d L v2 _ _ _))
  isplitl [Hb2 Hb4 Ho0_src]
  · isplitl [Hb2]; · iexact Hb2
    isplitl [Hb4]; · iexact Hb4
    iexact Ho0_src
  iintro %_ ⟨Hb2, Hb4, Hb6⟩
  -- what is left of the task's block is chunk 124's rows, as the copy-out names them
  have hcs : (oChunkM (k1_off35 L) (k1_off35_inb L) (fun _ => rfl)).view.set = chunkSetN L 124 :=
    oChunk_set L 124 (by omega) (k1_off35 L) (k1_off35_inb L) (fun _ => rfl) (epi_off35_eq L)
  ihave Hrest' : ((oChunkM (k1_off35 L) (k1_off35_inb L) (fun _ => rfl)).view.loc (thr d L) ↦[(oChunkM (k1_off35 L) (k1_off35_inb L) (fun _ => rfl)).view.set]{fullShare} fr) $$ [Hrest]
  · rw [hcs, ← epi_restSetN_last]; iexact Hrest
  -- the copy-out of chunk 124, and the two last waits
  sl_exec
  rw [wp_ret]
  imodintro
  -- chunk 124's rows hold the value
  have hval := epi_chunk124_val d L hv sv dv fr (epilogue.sl.dma0 d L hv sv dv) (fun _ => rfl)
  ihave H124a := (Entails.of_eq (pointsTo_congr (ℓ := (oChunkM (k1_off35 L) (k1_off35_inb L) (fun _ => rfl)).view.loc (thr d L)) (q := fullShare) hval)) $$ Hrest'
  ihave H124 : ((oV).view.loc (thr d L) ↦[chunkSetN L 124]{fullShare} outRows d hv sv dv) $$ [H124a]
  · rw [← hcs]; iexact H124a
  ihave H123 := (epi_done_join (F := F) d L 122 _) $$ [Hdone Ho0_dst]
  · isplitl [Hdone]; · iexact Hdone
    iexact Ho0_dst
  ihave H124' := (epi_done_join (F := F) d L 123 _) $$ [H123 Ho1_dst]
  · isplitl [H123]; · iexact H123
    iexact Ho1_dst
  ihave H125 := (epi_done_join (F := F) d L 124 _) $$ [H124' H124]
  · isplitl [H124']; · iexact H124'
    iexact H124
  -- slot 1's idle holdings
  ihave Hidle := (hid_out (F := F) _) $$ Xidle
  unfold idle1
  icases Hidle with ⟨⟨%f3, Hb3⟩, ⟨%f5, Hb5⟩, Hs9, Hs11, HiS1, HiD1, Hhc, Hhd⟩
  unfold epiPost
  -- the node features' share
  isplitl [HfJ_src HfI_src Hhc Hhd]
  · iapply (pts_unhalve (F := F))
    isplitl [HfJ_src HfI_src]
    · iapply (pts_unhalve (F := F))
      isplitl [HfJ_src]; · iexact HfJ_src
      iexact HfI_src
    · iapply (pts_unhalve (F := F))
      isplitl [Hhc]; · iexact Hhc
      iexact Hhd
  -- the task's block of the result
  isplitl [H125]
  · rw [← epi_doneSetN_all]; iexact H125
  -- the two index scratches
  isplitl [HiJ HrJ HiS1]
  · iapply (pts_unhalve (F := F))
    isplitl [HiJ HrJ]
    · iapply (pointsTo_split_subset (Finset.subset_univ (rowSetN 124))).2
      isplitl [HiJ]; · iexact HiJ
      iexact HrJ
    · iexact HiS1
  isplitl [HiI HrI HiD1]
  · iapply (pts_unhalve (F := F))
    isplitl [HiI HrI]
    · iapply (pointsTo_split_subset (Finset.subset_univ (rowSetN 124))).2
      isplitl [HiI]; · iexact HiI
      iexact HrI
    · iexact HiD1
  -- the six data scratches
  isplitl [Hb2]; · iexists _; iexact Hb2
  isplitl [Hb3]; · iexists _; iexact Hb3
  isplitl [Hb4]; · iexists _; iexact Hb4
  isplitl [Hb5]; · iexists _; iexact Hb5
  isplitl [Hb6]; · iexists _; iexact Hb6
  isplitl [Ho1_src]; · iexists _; iexact Ho1_src
  -- the six semaphores
  isplitl [HfJ]; · iexact HfJ
  isplitl [Hs9]; · iexact Hs9
  isplitl [HfI]; · iexact HfI
  isplitl [Hs11]; · iexact Hs11
  isplitl [Ho0]; · iexact Ho0
  isplitl [Ho1]; · iexact Ho1
  -- what the task still owes, its waits recorded
  iexists (insert (SemLoc.dma cc1_scratch13.sem, none) (insert (SemLoc.dma cc1_scratch12.sem, none) (insert (SemLoc.dma cc1_scratch12.sem, none)
    (insert (SemLoc.dma cc1_scratch10.sem, none) (insert (SemLoc.dma cc1_scratch8.sem, none) W0))))); isplitr
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end Cert.Proof.OnKernelIdeal.Tile

end
-- ==== Proof.OnKernelIdeal.TileBody.lean ====
/-
  One vector subcore's task of the gather kernel: the proof of its body, assembled.
-/

import proofs.«206094_g687194767628_cont_sun_c4_81_43_alg».proof.Proof.OnKernelIdeal.TileTripFull
import proofs.«206094_g687194767628_cont_sun_c4_81_43_alg».proof.Proof.OnKernelIdeal.TileEpilogue
import proofs.«206094_g687194767628_cont_sun_c4_81_43_alg».proof.Proof.OnKernelIdeal.TileOut
import proofs.«206094_g687194767628_cont_sun_c4_81_43_alg».proof.Proof.OnKernelIdeal.TileCanon

noncomputable section

namespace Cert.Proof.OnKernelIdeal.Tile

open Cert.KernelIdeal Cert.KernelIdeal.Gen
open Cert.Proof.OnKernelIdeal

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid1.Coords)

omit [FloatOps F] in
/-- A triple, its frame, and what both give. -/
theorem triple_frame {α : Type} {c : Thread nD τ} {p : Prog (TpuEff nD τ sig (Elt F) Λ₀ c.2) α} {P R : sProp 𝕄} {Q1 Q : α → sProp 𝕄} [FloatOps F]
    (hp : P ⊢ wp frame (wpE (defs₀ (F := F)) 𝒱₀ c none) Set.univ p Q1) (hq : ∀ a, iprop(Q1 a ∗ R) ⊢ Q a) :
    iprop(P ∗ R) ⊢ wp frame (wpE (defs₀ (F := F)) 𝒱₀ c none) Set.univ p Q :=
  (sep_mono hp .rfl).trans ((wp_frame_r _ _ _).trans (wp_mono _ _ _ hq))

/-- The invariant after the last trip: slot 0's gathers of the last chunk and the last two copy-outs in flight,
    slot 1 idle. -/
theorem inv_last (q : PosShare TreeShare) (hv : Buf (Elt F) (hLoc d)) (sv : Buf (Elt F) (sLoc d)) (dv : Buf (Elt F) (dLoc d))
    (O : CellTallies nD τ sig (HIx 1)) (W : Waits sig (HIx 1)) (acc : PUnit) (n : ℕ) (hn : n = 62) :
    inv d L q hv sv dv O W n acc
      ⊢ iprop(∃ W0, ⌜∀ p ∈ W0, p ∈ W ∨ p.2 = none⌝
          ∗ (Transfers.MayWaits (thr d L) (none : HIx 1) O ∗ gfJ0 d L q hv sv 124 ∗ gfI0 d L q hv dv 124 ∗ idle1 d L q hv sv dv
            ∗ ofl0 d L hv sv dv 122 ∗ ofl1 d L hv sv dv 123 ∗ outPart d L hv sv dv 122 124 ∗ owes (thr d L) O W0)) := by
  subst hn
  unfold inv
  rw [if_neg (by omega), if_neg (by omega)]
  iintro ⟨Hmw, G0, G1, Hid, ⟨Ho0, Ho1⟩, Hout, %W0, %hW0, HO⟩
  iexists W0; isplitr
  · ipureintro; exact hW0
  isplitl [Hmw]; · iexact Hmw
  isplitl [G0]; · iexact G0
  isplitl [G1]; · iexact G1
  isplitl [Hid]; · iexact Hid
  isplitl [Ho0]; · iexact Ho0
  isplitl [Ho1]; · iexact Ho1
  isplitl [Hout]; · iexact Hout
  iexact HO

theorem tile_body (d : Dev nD) (L : grid1.Coords) : TileBody (F := F) d L := by
  intro q hv sv dv hidx O W hO
  unfold goRes
  rw [body_split (F := F) L]
  simp only [k1_part8_eq_skeleton, part9_split]; unfold k1_part8_skel
  rw [(K (F := F)).scopedBufs_V facts d (cV L) (jV L), SparseCore.Cfg.scopedSems0_V (Val := Elt F) d (cV L) (jV L)]
  iintro ⟨#Hlv, -, ⟨Hh, Hs, Hd, %fo, Ho⟩, Hown, Hosm, HO⟩
  ihave Hown' := (Entails.of_eq (ownBufs_V (F := F) d L)) $$ Hown
  icases Hown' with ⟨⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, Hbufs⟩
  ihave Hosm' := (Entails.of_eq (ownSems0_V (F := F) d L)) $$ Hosm
  icases Hosm' with ⟨Hsj0, Hsj1, Hsi0, Hsi1, Hso0, Hso1, Hsc0, Hsc1, Hsems⟩
  ihave Hmw := ((K (F := F)).mayWaits_none (thr := thr d L) hO) $$ Hlv
  ihave Hh' := (Entails.of_eq (pts_h (F := F) d L q _).symm) $$ Hh
  ihave Hs' := (Entails.of_eq (pts_sRowK (F := F) d L _).symm) $$ Hs
  ihave Hd' := (Entails.of_eq (pts_dRowK (F := F) d L _).symm) $$ Hd
  ihave Hb0' := (Entails.of_eq (pts_scr (F := F) d L cc1_scratch0 _).symm) $$ Hb0
  ihave Hb1' := (Entails.of_eq (pts_scr (F := F) d L cc1_scratch1 _).symm) $$ Hb1
  ihave Hb2' := (Entails.of_eq (pts_scr (F := F) d L cc1_scratch2 _).symm) $$ Hb2
  ihave Hb3' := (Entails.of_eq (pts_scr (F := F) d L cc1_scratch3 _).symm) $$ Hb3
  ihave Hb4' := (Entails.of_eq (pts_scr (F := F) d L cc1_scratch4 _).symm) $$ Hb4
  ihave Hb5' := (Entails.of_eq (pts_scr (F := F) d L cc1_scratch5 _).symm) $$ Hb5
  ihave Hb6' := (Entails.of_eq (pts_scr (F := F) d L cc1_scratch6 _).symm) $$ Hb6
  ihave Hb7' := (Entails.of_eq (pts_scr (F := F) d L cc1_scratch7 _).symm) $$ Hb7
  sl_exec
  ihave Hi0a := (pts_eq (F := F) (write_scr (F := F) d L cc1_scratch0 _ _)) $$ Hb0'
  ihave Hi1a := (pts_eq (F := F) (write_scr (F := F) d L cc1_scratch1 _ _)) $$ Hb1'
  ihave Hi0 : ((Memref.whole cc1_scratch0 : Memref sig .scVector .vmem S125x80 .i32).view.loc (thr d L) ↦{fullShare} idxS d L sv) $$ [Hi0a]
  · iexact Hi0a
  ihave Hi1 : ((Memref.whole cc1_scratch1 : Memref sig .scVector .vmem S125x80 .i32).view.loc (thr d L) ↦{fullShare} idxD d L dv) $$ [Hi1a]
  · iexact Hi1a
  -- the shares: the node features in four (one per gather outstanding at a time), each index scratch in two (one per slot)
  ihave ⟨HhL, HhR⟩ := (pts_halve (F := F)) $$ Hh'
  ihave ⟨Hha, Hhb⟩ := (pts_halve (F := F)) $$ HhL
  ihave ⟨Hhc, Hhd⟩ := (pts_halve (F := F)) $$ HhR
  ihave ⟨HiS0, HiS1⟩ := (pts_halve (F := F)) $$ Hi0
  ihave ⟨HiD0, HiD1⟩ := (pts_halve (F := F)) $$ Hi1
  ihave Xhb := (hid_in (F := F) _) $$ Hhb
  ihave Xhc := (hid_in (F := F) _) $$ Hhc
  ihave Xhd := (hid_in (F := F) _) $$ Hhd
  ihave XiS1 := (hid_in (F := F) _) $$ HiS1
  ihave XiD1 := (hid_in (F := F) _) $$ HiD1
  have hinS : ∀ (off : Fin 2 → ℕ) (inb : ∀ a, off a + S1x80.size a ≤ S125x80.size a) (hr : ∀ a, (Rect.unit (s := S125x80) off S1x80.size inb).stride a = 1) x,
      ((((Memref.whole cc1_scratch0 : Memref sig .scVector .vmem S125x80 .i32).slice (Rect.unit (s := S125x80) off S1x80.size inb) hr).squeeze S80 squeezes_S1x80_S80).view.read (Elt F) (idxS d L sv) x).toNat
        < S10000x128.size gathers_S10000x128_S80x128.axis := by
    intro off inb hr x
    rw [View.read_apply]
    exact idxS_lt d L hidx _
  have hinD : ∀ (off : Fin 2 → ℕ) (inb : ∀ a, off a + S1x80.size a ≤ S125x80.size a) (hr : ∀ a, (Rect.unit (s := S125x80) off S1x80.size inb).stride a = 1) x,
      ((((Memref.whole cc1_scratch1 : Memref sig .scVector .vmem S125x80 .i32).slice (Rect.unit (s := S125x80) off S1x80.size inb) hr).squeeze S80 squeezes_S1x80_S80).view.read (Elt F) (idxD d L dv) x).toNat
        < S10000x128.size gathers_S10000x128_S80x128.axis := by
    intro off inb hr x
    rw [View.read_apply]
    exact idxD_lt d L hidx _
  sl_exec
  ihave Hhb := (hid_out (F := F) _) $$ Xhb
  sl_exec
  ihave XiS0 := (hid_in (F := F) _) $$ HiS0
  ihave XiD0 := (hid_in (F := F) _) $$ HiD0
  ihave Hhc := (hid_out (F := F) _) $$ Xhc
  ihave HiS1 := (hid_out (F := F) _) $$ XiS1
  sl_exec
  ihave Hhd := (hid_out (F := F) _) $$ Xhd
  ihave HiD1 := (hid_out (F := F) _) $$ XiD1
  sl_exec
  ihave HiS0 := (hid_out (F := F) _) $$ XiS0
  ihave HiD0 := (hid_out (F := F) _) $$ XiD0
  ihave G0 : (gfJ0 d L q hv sv (2 * 0)) $$ [Hsj0 HiS0]
  · iapply (gfJ0_intro (F := F) d L q hv sv (2 * 0) (by omega) ![0, 0] inb_S125x80_S1x80_0_0 (fun _ => rfl) rfl f2 _ ?hg0)
    pick_goal 2
    · isplitl [Hsj0]; · iexact Hsj0
      iexact HiS0
    exact gather_payload0 (F := F) d hv _ (2 * 0) (by omega) _ _ _ rfl _ _
  ihave G1 : (gfI0 d L q hv dv (2 * 0)) $$ [Hsi0 HiD0]
  · iapply (gfI0_intro (F := F) d L q hv dv (2 * 0) (by omega) ![0, 0] inb_S125x80_S1x80_0_0 (fun _ => rfl) rfl f4 _ ?hg1)
    pick_goal 2
    · isplitl [Hsi0]; · iexact Hsi0
      iexact HiD0
    exact gather_payload1 (F := F) d hv _ (2 * 0) (by omega) _ _ _ rfl _ _
  ihave G2 : (gfJ1 d L q hv sv (2 * 0 + 1)) $$ [Hsj1 HiS1]
  · iapply (gfJ1_intro (F := F) d L q hv sv (2 * 0 + 1) (by omega) ![1, 0] inb_S125x80_S1x80_1_0 (fun _ => rfl) rfl f3 _ ?hg2)
    pick_goal 2
    · isplitl [Hsj1]; · iexact Hsj1
      iexact HiS1
    exact gather_payload0 (F := F) d hv _ (2 * 0 + 1) (by omega) _ _ _ rfl _ _
  ihave G3 : (gfI1 d L q hv dv (2 * 0 + 1)) $$ [Hsi1 HiD1]
  · iapply (gfI1_intro (F := F) d L q hv dv (2 * 0 + 1) (by omega) ![1, 0] inb_S125x80_S1x80_1_0 (fun _ => rfl) rfl f5 _ ?hg3)
    pick_goal 2
    · isplitl [Hsi1]; · iexact Hsi1
      iexact HiD1
    exact gather_payload1 (F := F) d hv _ (2 * 0 + 1) (by omega) _ _ _ rfl _ _
  ihave Hout := (outPart_init (F := F) d L hv sv dv fo) $$ Ho
  rw [Prog.bind_assoc]
  sl_for (inv d L q hv sv dv O W) $$ [Hmw G0 G1 G2 G3 Hb6' Hb7' Hso0 Hso1 Hout HO]
  case region =>
    intro k acc
    exact trip (F := F) d L q hv sv dv hidx O W (tile_body.sl.v2 L) k
  · unfold inv
    rw [if_pos (by omega : 2 * 0 + 1 < 125), if_pos rfl]
    isplitl [Hmw]; · iexact Hmw
    isplitl [G0]; · iexact G0
    isplitl [G1]; · iexact G1
    isplitl [G2 G3]
    · isplitl [G2]; · iexact G2
      iexact G3
    isplitl [Hb6' Hb7' Hso0 Hso1]
    · unfold idleOut0 idleOut1
      isplitl [Hb6' Hso0]
      · isplitl [Hb6']; · iexists _; iexact Hb6'
        iexact Hso0
      · isplitl [Hb7']; · iexists _; iexact Hb7'
        iexact Hso1
    isplitl [Hout]; · iexact Hout
    iexists _; isplitr
    pick_goal 2
    · iexact HO
    · ipureintro; intro p hp
      rcases Finset.mem_insert.mp hp with rfl | hp
      · exact .inr rfl
      rcases Finset.mem_insert.mp hp with rfl | hp
      · exact .inr rfl
      exact .inl hp
  iintro %acc HI
  ihave HI' := (inv_last (F := F) d L q hv sv dv O W acc _ (by decide)) $$ HI
  icases HI' with ⟨%W0, %hW0, HI'⟩
  sl_respell []
  iclear Hha Hb2' Hhb Hb4' Hhc Hb3' Hhd Hb5'
  iapply (triple_frame (F := F) (epilogue (F := F) d L q hv sv dv hidx O W0 (tile_body.sl.v2 L)) (fun _ => final_pack (F := F) d L q hv sv dv O W W0 hW0 (ownBufs_V (F := F) d L) (ownSems0_V (F := F) d L)))
  isplitl [HI']; · iexact HI'
  isplitl [Hs']; · iexact Hs'
  isplitl [Hd']; · iexact Hd'
  isplitl [Hsc0]; · iexact Hsc0
  isplitl [Hsc1]; · iexact Hsc1
  isplitl [Hbufs]; · iexact Hbufs
  iexact Hsems

end Cert.Proof.OnKernelIdeal.Tile

end
-- ==== Proof.OnKernel.TileInv.lean ====
/-
  One vector subcore's task of the gather kernel: the task's own storage, the contents its run passes
  through as functions of the chunk number, and small rules about holdings used by the body's proof.
-/
import proofs.«206094_g687194767628_cont_sun_c4_81_43_alg».proof.Proof.OnKernel.TileRes

noncomputable section

namespace Cert.Proof.OnKernel.Tile

open Cert.Kernel Cert.Kernel.Gen
open Cert.Proof.OnKernel

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Own

variable (d : Dev nD) (L : grid1.Coords)

/-- The cell of one of the task's DMA semaphores. -/
abbrev cellOf (sm : DmaSem sig) : GSem nD τ sig := (thr d L, SemLoc.dma sm)

omit [FloatOps F] in
theorem cell_ne {a b : DmaSem sig} (h : a ≠ b) : cellOf d L a ≠ cellOf d L b :=
  fun e => h (SemLoc.dma.inj (Prod.mk.inj e).2)

omit [FloatOps F] in
theorem ownSems0_V :
    (ownSems0 (thr d L) : sProp 𝕄)
      = iprop(semVal (cellOf d L cc1_scratch8.sem) 0 ∗ semVal (cellOf d L cc1_scratch9.sem) 0 ∗ semVal (cellOf d L cc1_scratch10.sem) 0 ∗ semVal (cellOf d L cc1_scratch11.sem) 0 ∗ semVal (cellOf d L cc1_scratch12.sem) 0 ∗ semVal (cellOf d L cc1_scratch13.sem) 0 ∗ semVal (cellOf d L cc1_scoped0.sem) 0 ∗ semVal (cellOf d L cc1_scoped1.sem) 0
          ∗ bigSep ((((((((((ownCells (thr d L)).erase (cellOf d L cc1_scratch8.sem)).erase (cellOf d L cc1_scratch9.sem)).erase (cellOf d L cc1_scratch10.sem)).erase (cellOf d L cc1_scratch11.sem)).erase (cellOf d L cc1_scratch12.sem)).erase (cellOf d L cc1_scratch13.sem)).erase (cellOf d L cc1_scoped0.sem)).erase (cellOf d L cc1_scoped1.sem)))
              fun g => semVal g 0) := by
  unfold SparseCore.Cfg.ownSems0
  rw [SparseCore.bigSep_erase' ((mem_ownCells (g := (cellOf d L cc1_scratch8.sem))).mpr ⟨rfl, by show (SemLoc.dma cc1_scratch8.sem : SemLoc sig).isScoped .scVector = true; decide⟩),
    SparseCore.bigSep_erase' (Finset.mem_erase.mpr ⟨cell_ne d L (by decide : (cc1_scratch9.sem : DmaSem sig) ≠ cc1_scratch8.sem), (mem_ownCells (g := (cellOf d L cc1_scratch9.sem))).mpr ⟨rfl, by show (SemLoc.dma cc1_scratch9.sem : SemLoc sig).isScoped .scVector = true; decide⟩⟩),
    SparseCore.bigSep_erase' (Finset.mem_erase.mpr ⟨cell_ne d L (by decide : (cc1_scratch10.sem : DmaSem sig) ≠ cc1_scratch9.sem), Finset.mem_erase.mpr ⟨cell_ne d L (by decide : (cc1_scratch10.sem : DmaSem sig) ≠ cc1_scratch8.sem), (mem_ownCells (g := (cellOf d L cc1_scratch10.sem))).mpr ⟨rfl, by show (SemLoc.dma cc1_scratch10.sem : SemLoc sig).isScoped .scVector = true; decide⟩⟩⟩),
    SparseCore.bigSep_erase' (Finset.mem_erase.mpr ⟨cell_ne d L (by decide : (cc1_scratch11.sem : DmaSem sig) ≠ cc1_scratch10.sem), Finset.mem_erase.mpr ⟨cell_ne d L (by decide : (cc1_scratch11.sem : DmaSem sig) ≠ cc1_scratch9.sem), Finset.mem_erase.mpr ⟨cell_ne d L (by decide : (cc1_scratch11.sem : DmaSem sig) ≠ cc1_scratch8.sem), (mem_ownCells (g := (cellOf d L cc1_scratch11.sem))).mpr ⟨rfl, by show (SemLoc.dma cc1_scratch11.sem : SemLoc sig).isScoped .scVector = true; decide⟩⟩⟩⟩),
    SparseCore.bigSep_erase' (Finset.mem_erase.mpr ⟨cell_ne d L (by decide : (cc1_scratch12.sem : DmaSem sig) ≠ cc1_scratch11.sem), Finset.mem_erase.mpr ⟨cell_ne d L (by decide : (cc1_scratch12.sem : DmaSem sig) ≠ cc1_scratch10.sem), Finset.mem_erase.mpr ⟨cell_ne d L (by decide : (cc1_scratch12.sem : DmaSem sig) ≠ cc1_scratch9.sem), Finset.mem_erase.mpr ⟨cell_ne d L (by decide : (cc1_scratch12.sem : DmaSem sig) ≠ cc1_scratch8.sem), (mem_ownCells (g := (cellOf d L cc1_scratch12.sem))).mpr ⟨rfl, by show (SemLoc.dma cc1_scratch12.sem : SemLoc sig).isScoped .scVector = true; decide⟩⟩⟩⟩⟩),
    SparseCore.bigSep_erase' (Finset.mem_erase.mpr ⟨cell_ne d L (by decide : (cc1_scratch13.sem : DmaSem sig) ≠ cc1_scratch12.sem), Finset.mem_erase.mpr ⟨cell_ne d L (by decide : (cc1_scratch13.sem : DmaSem sig) ≠ cc1_scratch11.sem), Finset.mem_erase.mpr ⟨cell_ne d L (by decide : (cc1_scratch13.sem : DmaSem sig) ≠ cc1_scratch10.sem), Finset.mem_erase.mpr ⟨cell_ne d L (by decide : (cc1_scratch13.sem : DmaSem sig) ≠ cc1_scratch9.sem), Finset.mem_erase.mpr ⟨cell_ne d L (by decide : (cc1_scratch13.sem : DmaSem sig) ≠ cc1_scratch8.sem), (mem_ownCells (g := (cellOf d L cc1_scratch13.sem))).mpr ⟨rfl, by show (SemLoc.dma cc1_scratch13.sem : SemLoc sig).isScoped .scVector = true; decide⟩⟩⟩⟩⟩⟩),
    SparseCore.bigSep_erase' (Finset.mem_erase.mpr ⟨cell_ne d L (by decide : (cc1_scoped0.sem : DmaSem sig) ≠ cc1_scratch13.sem), Finset.mem_erase.mpr ⟨cell_ne d L (by decide : (cc1_scoped0.sem : DmaSem sig) ≠ cc1_scratch12.sem), Finset.mem_erase.mpr ⟨cell_ne d L (by decide : (cc1_scoped0.sem : DmaSem sig) ≠ cc1_scratch11.sem), Finset.mem_erase.mpr ⟨cell_ne d L (by decide : (cc1_scoped0.sem : DmaSem sig) ≠ cc1_scratch10.sem), Finset.mem_erase.mpr ⟨cell_ne d L (by decide : (cc1_scoped0.sem : DmaSem sig) ≠ cc1_scratch9.sem), Finset.mem_erase.mpr ⟨cell_ne d L (by decide : (cc1_scoped0.sem : DmaSem sig) ≠ cc1_scratch8.sem), (mem_ownCells (g := (cellOf d L cc1_scoped0.sem))).mpr ⟨rfl, by show (SemLoc.dma cc1_scoped0.sem : SemLoc sig).isScoped .scVector = true; decide⟩⟩⟩⟩⟩⟩⟩),
    SparseCore.bigSep_erase' (Finset.mem_erase.mpr ⟨cell_ne d L (by decide : (cc1_scoped1.sem : DmaSem sig) ≠ cc1_scoped0.sem), Finset.mem_erase.mpr ⟨cell_ne d L (by decide : (cc1_scoped1.sem : DmaSem sig) ≠ cc1_scratch13.sem), Finset.mem_erase.mpr ⟨cell_ne d L (by decide : (cc1_scoped1.sem : DmaSem sig) ≠ cc1_scratch12.sem), Finset.mem_erase.mpr ⟨cell_ne d L (by decide : (cc1_scoped1.sem : DmaSem sig) ≠ cc1_scratch11.sem), Finset.mem_erase.mpr ⟨cell_ne d L (by decide : (cc1_scoped1.sem : DmaSem sig) ≠ cc1_scratch10.sem), Finset.mem_erase.mpr ⟨cell_ne d L (by decide : (cc1_scoped1.sem : DmaSem sig) ≠ cc1_scratch9.sem), Finset.mem_erase.mpr ⟨cell_ne d L (by decide : (cc1_scoped1.sem : DmaSem sig) ≠ cc1_scratch8.sem), (mem_ownCells (g := (cellOf d L cc1_scoped1.sem))).mpr ⟨rfl, by show (SemLoc.dma cc1_scoped1.sem : SemLoc sig).isScoped .scVector = true; decide⟩⟩⟩⟩⟩⟩⟩⟩)]

omit [FloatOps F] in
theorem ownBufs_V :
    (ownBufs (thr d L) : sProp 𝕄)
      = iprop((∃ f, (thr d L).loc cc1_scratch0 ↦{fullShare} f) ∗ (∃ f, (thr d L).loc cc1_scratch1 ↦{fullShare} f) ∗ (∃ f, (thr d L).loc cc1_scratch2 ↦{fullShare} f) ∗ (∃ f, (thr d L).loc cc1_scratch3 ↦{fullShare} f) ∗ (∃ f, (thr d L).loc cc1_scratch4 ↦{fullShare} f) ∗ (∃ f, (thr d L).loc cc1_scratch5 ↦{fullShare} f) ∗ (∃ f, (thr d L).loc cc1_scratch6 ↦{fullShare} f) ∗ (∃ f, (thr d L).loc cc1_scratch7 ↦{fullShare} f)
          ∗ bigSep ((((((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5)).erase ((Proc.scVector (cV L) (jV L)).devRef cc1_scratch6)).erase ((Proc.scVector (cV L) (jV L)).devRef cc1_scratch7)))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc1_scratch0)) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV L) (jV L)) (b := ((Proc.scVector (cV L) (jV L)).devRef cc1_scratch1)) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV L) (jV L)) (b := ((Proc.scVector (cV L) (jV L)).devRef cc1_scratch2)) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector (cV L) (jV L)) (b := ((Proc.scVector (cV L) (jV L)).devRef cc1_scratch3)) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector (cV L) (jV L)) (b := ((Proc.scVector (cV L) (jV L)).devRef cc1_scratch4)) rfl⟩⟩⟩⟩),
    SparseCore.bigSep_erase' (Finset.mem_erase.mpr ⟨fun e => absurd (Proc.devRef_injective _ e) (show (cc1_scratch5 : Ref sig .scVector) ≠ cc1_scratch4 by decide), Finset.mem_erase.mpr ⟨fun e => absurd (Proc.devRef_injective _ e) (show (cc1_scratch5 : Ref sig .scVector) ≠ cc1_scratch3 by decide), Finset.mem_erase.mpr ⟨fun e => absurd (Proc.devRef_injective _ e) (show (cc1_scratch5 : Ref sig .scVector) ≠ cc1_scratch2 by decide), Finset.mem_erase.mpr ⟨fun e => absurd (Proc.devRef_injective _ e) (show (cc1_scratch5 : Ref sig .scVector) ≠ cc1_scratch1 by decide), Finset.mem_erase.mpr ⟨fun e => absurd (Proc.devRef_injective _ e) (show (cc1_scratch5 : Ref sig .scVector) ≠ cc1_scratch0 by decide), SparseCore.Cfg.mem_ownRefs_of_owner (p := Proc.scVector (cV L) (jV L)) (b := ((Proc.scVector (cV L) (jV L)).devRef cc1_scratch5)) rfl⟩⟩⟩⟩⟩),
    SparseCore.bigSep_erase' (Finset.mem_erase.mpr ⟨fun e => absurd (Proc.devRef_injective _ e) (show (cc1_scratch6 : Ref sig .scVector) ≠ cc1_scratch5 by decide), Finset.mem_erase.mpr ⟨fun e => absurd (Proc.devRef_injective _ e) (show (cc1_scratch6 : Ref sig .scVector) ≠ cc1_scratch4 by decide), Finset.mem_erase.mpr ⟨fun e => absurd (Proc.devRef_injective _ e) (show (cc1_scratch6 : Ref sig .scVector) ≠ cc1_scratch3 by decide), Finset.mem_erase.mpr ⟨fun e => absurd (Proc.devRef_injective _ e) (show (cc1_scratch6 : Ref sig .scVector) ≠ cc1_scratch2 by decide), Finset.mem_erase.mpr ⟨fun e => absurd (Proc.devRef_injective _ e) (show (cc1_scratch6 : Ref sig .scVector) ≠ cc1_scratch1 by decide), Finset.mem_erase.mpr ⟨fun e => absurd (Proc.devRef_injective _ e) (show (cc1_scratch6 : Ref sig .scVector) ≠ cc1_scratch0 by decide), SparseCore.Cfg.mem_ownRefs_of_owner (p := Proc.scVector (cV L) (jV L)) (b := ((Proc.scVector (cV L) (jV L)).devRef cc1_scratch6)) rfl⟩⟩⟩⟩⟩⟩),
    SparseCore.bigSep_erase' (Finset.mem_erase.mpr ⟨fun e => absurd (Proc.devRef_injective _ e) (show (cc1_scratch7 : Ref sig .scVector) ≠ cc1_scratch6 by decide), Finset.mem_erase.mpr ⟨fun e => absurd (Proc.devRef_injective _ e) (show (cc1_scratch7 : Ref sig .scVector) ≠ cc1_scratch5 by decide), Finset.mem_erase.mpr ⟨fun e => absurd (Proc.devRef_injective _ e) (show (cc1_scratch7 : Ref sig .scVector) ≠ cc1_scratch4 by decide), Finset.mem_erase.mpr ⟨fun e => absurd (Proc.devRef_injective _ e) (show (cc1_scratch7 : Ref sig .scVector) ≠ cc1_scratch3 by decide), Finset.mem_erase.mpr ⟨fun e => absurd (Proc.devRef_injective _ e) (show (cc1_scratch7 : Ref sig .scVector) ≠ cc1_scratch2 by decide), Finset.mem_erase.mpr ⟨fun e => absurd (Proc.devRef_injective _ e) (show (cc1_scratch7 : Ref sig .scVector) ≠ cc1_scratch1 by decide), Finset.mem_erase.mpr ⟨fun e => absurd (Proc.devRef_injective _ e) (show (cc1_scratch7 : Ref sig .scVector) ≠ cc1_scratch0 by decide), SparseCore.Cfg.mem_ownRefs_of_owner (p := Proc.scVector (cV L) (jV L)) (b := ((Proc.scVector (cV L) (jV L)).devRef cc1_scratch7)) rfl⟩⟩⟩⟩⟩⟩⟩)]

omit [FloatOps F] in
theorem pts_h (q : PosShare TreeShare) (f : Buf (Elt F) (hLoc d)) :
    ((hV).view.loc (thr d L) ↦{q} f : sProp 𝕄) = hLoc d ↦{q} f := rfl
omit [FloatOps F] in
theorem pts_sRowK (f : Buf (Elt F) (sLoc d)) :
    ((sRowK L).view.loc (thr d L) ↦[(sRowK L).view.set]{fullShare} f : sProp 𝕄) = sLoc d ↦[idxSet L]{fullShare} f := rfl
omit [FloatOps F] in
theorem dRowK_set : (dRowK L).view.set = idxSet L := rfl
omit [FloatOps F] in
theorem pts_dRowK (f : Buf (Elt F) (dLoc d)) :
    ((dRowK L).view.loc (thr d L) ↦[(dRowK L).view.set]{fullShare} f : sProp 𝕄) = dLoc d ↦[idxSet L]{fullShare} f := rfl
omit [FloatOps F] in
theorem pts_scr (b : Ref sig .scVector) (f : Buf (Elt F) ((thr d L).loc b)) :
    ((Memref.whole b : Memref sig .scVector _ _ _).view.loc (thr d L) ↦{fullShare} f : sProp 𝕄) = (thr d L).loc b ↦{fullShare} f := rfl

/-- The task's rows of the two index arrays as its scratches hold them after the first two copies. -/
def idxS (sv : Buf (Elt F) (sLoc d)) : Buf (Elt F) ((thr d L).loc cc1_scratch0) := (sRowK L).view.read (Elt F) sv
def idxD (dv : Buf (Elt F) (dLoc d)) : Buf (Elt F) ((thr d L).loc cc1_scratch1) := (dRowK L).view.read (Elt F) dv

omit [FloatOps F] in
theorem idxS_apply (sv : Buf (Elt F) (sLoc d)) (y : S125x80.Idx) : idxS d L sv y = sv ((sRowK L).view.emb y) :=
  (View.read_apply _ _).trans (cast_eq _ _)
omit [FloatOps F] in
theorem idxD_apply (dv : Buf (Elt F) (dLoc d)) (y : S125x80.Idx) : idxD d L dv y = dv ((dRowK L).view.emb y) :=
  (View.read_apply _ _).trans (cast_eq _ _)

omit [FloatOps F] in
theorem idxS_lt {sv : Buf (Elt F) (sLoc d)} {dv : Buf (Elt F) (dLoc d)} (hidx : IdxOK (F := F) d L sv dv) (y : S125x80.Idx) :
    (idxS d L sv y).toNat < 10000 := by
  rw [idxS_apply]; exact (hidx _ ((sRowK L).view.emb_mem_set y)).1
omit [FloatOps F] in
theorem idxD_lt {sv : Buf (Elt F) (sLoc d)} {dv : Buf (Elt F) (dLoc d)} (hidx : IdxOK (F := F) d L sv dv) (y : S125x80.Idx) :
    (idxD d L dv y).toNat < 10000 := by
  rw [idxD_apply]; exact (hidx _ ((dRowK L).view.emb_mem_set y)).2

omit [FloatOps F] in
theorem pts_eq {ℓ : Loc nD τ sig} {I : Finset (Idx ℓ)} {p : PosShare TreeShare} {f g : Buf (Elt F) ℓ} (h : f = g) :
    (ℓ ↦[I]{p} f : sProp 𝕄) ⊢ ℓ ↦[I]{p} g := by subst h; exact .rfl

omit [FloatOps F] in
theorem write_scr (b : Ref sig .scVector) (f w : Buf (Elt F) ((thr d L).loc b)) :
    View.write (Elt F) (Memref.whole b : Memref sig .scVector _ _ _).view f w Finset.univ = w := View.write_whole_univ _ _ _

/-- A resource set aside: held, but not offered to the next steps of the run. -/
def hid (P : sProp 𝕄) : sProp 𝕄 := P
omit [FloatOps F] in
theorem hid_in (P : sProp 𝕄) : P ⊢ hid (F := F) P := .rfl
omit [FloatOps F] in
theorem hid_out (P : sProp 𝕄) : hid (F := F) P ⊢ P := .rfl

omit [FloatOps F] in
/-- A share of some elements is its two halves. -/
theorem pts_halve {ℓ : Loc nD τ sig} {I : Finset (Idx ℓ)} {p : PosShare TreeShare} {f : Buf (Elt F) ℓ} :
    (ℓ ↦[I]{p} f : sProp 𝕄) ⊢ iprop((ℓ ↦[I]{p.left} f) ∗ ℓ ↦[I]{p.right} f) :=
  (pointsTo_share (PosShare.mem_left_op_right p)).1
omit [FloatOps F] in
theorem pts_unhalve {ℓ : Loc nD τ sig} {I : Finset (Idx ℓ)} {p : PosShare TreeShare} {f : Buf (Elt F) ℓ} :
    iprop((ℓ ↦[I]{p.left} f) ∗ ℓ ↦[I]{p.right} f) ⊢ (ℓ ↦[I]{p} f : sProp 𝕄) :=
  (pointsTo_share (PosShare.mem_left_op_right p)).2

/-! ## The contents the run passes through, as functions of the chunk number -/

/-- Entry r of chunk n of a task's index row (chunk numbers past the last read as the last). -/
def chunkIx (n : ℕ) (r : Fin 80) : S125x80.Idx := ix2 (⟨min n 124, by omega⟩ : Fin 125) r

/-- The elements of chunk n of an index scratch. -/
def rowSetN (n : ℕ) : Finset S125x80.Idx := Finset.univ.filter fun x => (x 0).val = n

/-- Chunk n gathered: row r holds the node row that entry r of chunk n of the index list names. -/
def gath (hv : Buf (Elt F) (hLoc d)) (idx : S125x80.Idx → Elt F .i32) (n : ℕ) : S80x128.Idx → Elt F .f32 :=
  fun x => hv (ix2 (nodeOf (idx (chunkIx n (x 0)))) (x 1))

/-- Chunk n computed: the two gathered chunks added and rectified. -/
def obC (hv : Buf (Elt F) (hLoc d)) (sv : Buf (Elt F) (sLoc d)) (dv : Buf (Elt F) (dLoc d)) (n : ℕ) : S80x128.Idx → Elt F .f32 :=
  fun x => relu2 (F := F) (gath d hv (idxS d L sv) n x) (gath d hv (idxD d L dv) n x)

/-- Two chunks added and rectified, entry by entry. -/
def reluRows (a b : S80x128.Idx → Elt F .f32) : S80x128.Idx → Elt F .f32 := fun x => relu2 (F := F) (a x) (b x)

theorem obC_eq (hv : Buf (Elt F) (hLoc d)) (sv : Buf (Elt F) (sLoc d)) (dv : Buf (Elt F) (dLoc d)) (n : ℕ) :
    obC d L hv sv dv n = reluRows (gath d hv (idxS d L sv) n) (gath d hv (idxD d L dv) n) := rfl

/-- The rows of chunk n of the task's part of the result. -/
def chunkSetN (n : ℕ) : Finset S320000x128.Idx :=
  Finset.univ.filter fun x => 10000 * wid L + 80 * n ≤ (x 0).val ∧ (x 0).val < 10000 * wid L + 80 * n + 80

/-! ## The memrefs the run slices, spelt as the program spells them -/

/-- The node features as every gather names them: sliced at the full rectangle. -/
abbrev hS : Memref sig .scVector .hbm S10000x128 .f32 :=
  (hV).slice (Rect.unit (s := S10000x128) ![0, 0] S10000x128.size inb_S10000x128_S10000x128_0_0) (fun _ => rfl)
/-- One chunk (a row of 80) of an index scratch as a gather's offset list. -/
abbrev rowM0 (off : Fin 2 → ℕ) (inb : ∀ a, off a + S1x80.size a ≤ S125x80.size a) (hr : ∀ a, (Rect.unit (s := S125x80) off S1x80.size inb).stride a = 1) :
    Memref sig .scVector .vmem S80 .i32 :=
  ((Memref.whole cc1_scratch0 : Memref sig .scVector .vmem S125x80 .i32).slice (Rect.unit (s := S125x80) off S1x80.size inb) hr).squeeze S80 squeezes_S1x80_S80
abbrev rowM1 (off : Fin 2 → ℕ) (inb : ∀ a, off a + S1x80.size a ≤ S125x80.size a) (hr : ∀ a, (Rect.unit (s := S125x80) off S1x80.size inb).stride a = 1) :
    Memref sig .scVector .vmem S80 .i32 :=
  ((Memref.whole cc1_scratch1 : Memref sig .scVector .vmem S125x80 .i32).slice (Rect.unit (s := S125x80) off S1x80.size inb) hr).squeeze S80 squeezes_S1x80_S80
/-- Eighty rows of the result as a copy-out names them. -/
abbrev oChunkM (off : Fin 2 → ℕ) (inb : ∀ a, off a + S80x128.size a ≤ S320000x128.size a) (hr : ∀ a, (Rect.unit (s := S320000x128) off S80x128.size inb).stride a = 1) :
    Memref sig .scVector .hbm S80x128 .f32 :=
  (oV).slice (Rect.unit (s := S320000x128) off S80x128.size inb) hr

/-- The three row loops' regions on the task's operands. -/
abbrev t2Body (v2 c0 c1 : BitVec 32) (k1 : Fin k1_t1_loop.trips) :=
  k1_t2_body (F := F) L hV (Memref.isWhole_whole _) sV (Memref.isWhole_whole _) dV (Memref.isWhole_whole _) oV (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    (Memref.whole cc1_scratch4) (Memref.isWhole_whole _) (Memref.whole cc1_scratch5) (Memref.isWhole_whole _)
    (Memref.whole cc1_scratch6) (Memref.isWhole_whole _) (Memref.whole cc1_scratch7) (Memref.isWhole_whole _)
    cc1_scratch8 cc1_scratch9 cc1_scratch10 cc1_scratch11 cc1_scratch12 cc1_scratch13 cc1_scoped0 cc1_scoped1 v2 c0 c1 k1
abbrev t3Body (v2 : BitVec 32) :=
  k1_t3_body (F := F) L hV (Memref.isWhole_whole _) sV (Memref.isWhole_whole _) dV (Memref.isWhole_whole _) oV (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    (Memref.whole cc1_scratch4) (Memref.isWhole_whole _) (Memref.whole cc1_scratch5) (Memref.isWhole_whole _)
    (Memref.whole cc1_scratch6) (Memref.isWhole_whole _) (Memref.whole cc1_scratch7) (Memref.isWhole_whole _)
    cc1_scratch8 cc1_scratch9 cc1_scratch10 cc1_scratch11 cc1_scratch12 cc1_scratch13 cc1_scoped0 cc1_scoped1 v2
abbrev t4Body (v2 : BitVec 32) :=
  k1_t4_body (F := F) L hV (Memref.isWhole_whole _) sV (Memref.isWhole_whole _) dV (Memref.isWhole_whole _) oV (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    (Memref.whole cc1_scratch4) (Memref.isWhole_whole _) (Memref.whole cc1_scratch5) (Memref.isWhole_whole _)
    (Memref.whole cc1_scratch6) (Memref.isWhole_whole _) (Memref.whole cc1_scratch7) (Memref.isWhole_whole _)
    cc1_scratch8 cc1_scratch9 cc1_scratch10 cc1_scratch11 cc1_scratch12 cc1_scratch13 cc1_scoped0 cc1_scoped1 v2

/-- A scratch of 80 × 128 floats of the task, held whole. -/
abbrev scr (b : Ref sig .scVector) (f : Buf (Elt F) ((thr d L).loc b)) : sProp 𝕄 :=
  (Memref.whole b : Memref sig .scVector _ _ _).view.loc (thr d L) ↦{fullShare} f

end Own

end Cert.Proof.OnKernel.Tile

end
-- ==== Proof.OnKernel.TileLoop.lean ====
/-
  One vector subcore's task of the gather kernel: the outer loop's invariant.
  Two chunks per trip, one per slot; per slot two gathers (source rows, destination rows) and one copy-out are
  in flight across trips, each on a semaphore of its own.
-/
import proofs.«206094_g687194767628_cont_sun_c4_81_43_alg».proof.Proof.OnKernel.TileInv

noncomputable section

namespace Cert.Proof.OnKernel.Tile

open Cert.Kernel Cert.Kernel.Gen
open Cert.Proof.OnKernel

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid1.Coords)

omit [FloatOps F] in
/-- A triple run at the head of a program: its precondition, and the continuation from its postcondition. -/
theorem triple_bind {α β : Type} {c : Thread nD τ} {p : Prog (TpuEff nD τ sig (Elt F) Λ₀ c.2) α} {k : α → Prog (TpuEff nD τ sig (Elt F) Λ₀ c.2) β}
    {P : sProp 𝕄} {Qp : α → sProp 𝕄} {Q : β → sProp 𝕄} [FloatOps F]
    (hp : P ⊢ wp frame (wpE (defs₀ (F := F)) 𝒱₀ c none) Set.univ p Qp) :
    iprop(P ∗ (∀ a, Qp a -∗ wp frame (wpE (defs₀ (F := F)) 𝒱₀ c none) Set.univ (k a) Q))
      ⊢ wp frame (wpE (defs₀ (F := F)) 𝒱₀ c none) Set.univ (p >>= k) Q := by
  rw [wp_bind]
  exact (sep_mono hp .rfl).trans (wp_wand_r _ _ _)

variable (q : PosShare TreeShare) (hv : Buf (Elt F) (hLoc d)) (sv : Buf (Elt F) (sLoc d)) (dv : Buf (Elt F) (dLoc d))

/-! ## Gathers in flight: the Flight with its delivery (the gathered chunk, the chunk's index entries, the share of
the node features) beside the rest of the index scratch's share -/

/-- Slot 0, source rows of chunk n. -/
def gfJ0 (n : ℕ) : sProp 𝕄 :=
  iprop(Transfers.Flight countersEmb (thr d L) (SemLoc.dma cc1_scratch8.sem) default 327680
      iprop(((scr d L cc1_scratch2 (gath d hv (idxS d L sv) n))
          ∗ ((Memref.whole cc1_scratch0 : Memref sig .scVector .vmem S125x80 .i32).view.loc (thr d L) ↦[rowSetN n]{fullShare.left} idxS d L sv))
        ∗ ((hV).view.loc (thr d L) ↦{q.left.left} hv))
    ∗ ((Memref.whole cc1_scratch0 : Memref sig .scVector .vmem S125x80 .i32).view.loc (thr d L) ↦[Finset.univ \ rowSetN n]{fullShare.left} idxS d L sv))
/-- Slot 0, destination rows of chunk n. -/
def gfI0 (n : ℕ) : sProp 𝕄 :=
  iprop(Transfers.Flight countersEmb (thr d L) (SemLoc.dma cc1_scratch10.sem) default 327680
      iprop(((scr d L cc1_scratch4 (gath d hv (idxD d L dv) n))
          ∗ ((Memref.whole cc1_scratch1 : Memref sig .scVector .vmem S125x80 .i32).view.loc (thr d L) ↦[rowSetN n]{fullShare.left} idxD d L dv))
        ∗ ((hV).view.loc (thr d L) ↦{q.left.right} hv))
    ∗ ((Memref.whole cc1_scratch1 : Memref sig .scVector .vmem S125x80 .i32).view.loc (thr d L) ↦[Finset.univ \ rowSetN n]{fullShare.left} idxD d L dv))
/-- Slot 1, source rows of chunk n. -/
def gfJ1 (n : ℕ) : sProp 𝕄 :=
  iprop(Transfers.Flight countersEmb (thr d L) (SemLoc.dma cc1_scratch9.sem) default 327680
      iprop(((scr d L cc1_scratch3 (gath d hv (idxS d L sv) n))
          ∗ ((Memref.whole cc1_scratch0 : Memref sig .scVector .vmem S125x80 .i32).view.loc (thr d L) ↦[rowSetN n]{fullShare.right} idxS d L sv))
        ∗ ((hV).view.loc (thr d L) ↦{q.right.left} hv))
    ∗ ((Memref.whole cc1_scratch0 : Memref sig .scVector .vmem S125x80 .i32).view.loc (thr d L) ↦[Finset.univ \ rowSetN n]{fullShare.right} idxS d L sv))
/-- Slot 1, destination rows of chunk n. -/
def gfI1 (n : ℕ) : sProp 𝕄 :=
  iprop(Transfers.Flight countersEmb (thr d L) (SemLoc.dma cc1_scratch11.sem) default 327680
      iprop(((scr d L cc1_scratch5 (gath d hv (idxD d L dv) n))
          ∗ ((Memref.whole cc1_scratch1 : Memref sig .scVector .vmem S125x80 .i32).view.loc (thr d L) ↦[rowSetN n]{fullShare.right} idxD d L dv))
        ∗ ((hV).view.loc (thr d L) ↦{q.right.right} hv))
    ∗ ((Memref.whole cc1_scratch1 : Memref sig .scVector .vmem S125x80 .i32).view.loc (thr d L) ↦[Finset.univ \ rowSetN n]{fullShare.right} idxD d L dv))

/-- Slot 1 with no gather in flight (after its last chunk): its two scratches, semaphores at zero, its shares. -/
def idle1 : sProp 𝕄 :=
  iprop((∃ f, scr d L cc1_scratch3 f) ∗ (∃ f, scr d L cc1_scratch5 f)
    ∗ semVal (cellOf d L cc1_scratch9.sem) 0 ∗ semVal (cellOf d L cc1_scratch11.sem) 0
    ∗ ((Memref.whole cc1_scratch0 : Memref sig .scVector .vmem S125x80 .i32).view.loc (thr d L) ↦{fullShare.right} idxS d L sv)
    ∗ ((Memref.whole cc1_scratch1 : Memref sig .scVector .vmem S125x80 .i32).view.loc (thr d L) ↦{fullShare.right} idxD d L dv)
    ∗ ((hV).view.loc (thr d L) ↦{q.right.left} hv) ∗ ((hV).view.loc (thr d L) ↦{q.right.right} hv))

/-! ## Copy-outs in flight: chunk n's rows of the result at the value, the staging scratch back -/

/-- Slot 0's copy-out of chunk n. -/
def ofl0 (n : ℕ) : sProp 𝕄 :=
  Transfers.Flight countersEmb (thr d L) (SemLoc.dma cc1_scratch12.sem) default 327680
    iprop(((oV).view.loc (thr d L) ↦[chunkSetN L n]{fullShare} outRows d hv sv dv) ∗ scr d L cc1_scratch6 (obC d L hv sv dv n))
/-- Slot 1's copy-out of chunk n. -/
def ofl1 (n : ℕ) : sProp 𝕄 :=
  Transfers.Flight countersEmb (thr d L) (SemLoc.dma cc1_scratch13.sem) default 327680
    iprop(((oV).view.loc (thr d L) ↦[chunkSetN L n]{fullShare} outRows d hv sv dv) ∗ scr d L cc1_scratch7 (obC d L hv sv dv n))

/-- A slot before its first copy-out: the staging scratch at some contents, the semaphore at zero. -/
def idleOut0 : sProp 𝕄 := iprop((∃ f, scr d L cc1_scratch6 f) ∗ semVal (cellOf d L cc1_scratch12.sem) 0)
def idleOut1 : sProp 𝕄 := iprop((∃ f, scr d L cc1_scratch7 f) ∗ semVal (cellOf d L cc1_scratch13.sem) 0)

/-! ## The task's rows of the result: the chunks below m at the value, the chunks from n on still to be written -/

def doneSetN (m : ℕ) : Finset S320000x128.Idx :=
  Finset.univ.filter fun x => 10000 * wid L ≤ (x 0).val ∧ (x 0).val < 10000 * wid L + 80 * m
def restSetN (n : ℕ) : Finset S320000x128.Idx :=
  Finset.univ.filter fun x => 10000 * wid L + 80 * n ≤ (x 0).val ∧ (x 0).val < 10000 * wid L + 10000

def outPart (m n : ℕ) : sProp 𝕄 :=
  iprop(((oV).view.loc (thr d L) ↦[doneSetN L m]{fullShare} outRows d hv sv dv) ∗ ∃ f, (oV).view.loc (thr d L) ↦[restSetN L n]{fullShare} f)

/-! ## The invariant -/

variable (O : CellTallies nD τ sig (HIx 1)) (W : Waits sig (HIx 1))

/-- Before trip k of the outer loop: the gathers of chunks 2k (slot 0) and 2k + 1 (slot 1) are in flight; from the
    second trip on so are the copy-outs of chunks 2k - 2 and 2k - 1; the chunks below 2k - 2 are at the value. -/
def inv (k : ℕ) (_ : PUnit) : sProp 𝕄 :=
  iprop(Transfers.MayWaits (thr d L) (none : HIx 1) O
    ∗ gfJ0 d L q hv sv (2 * k) ∗ gfI0 d L q hv dv (2 * k)
    ∗ (if 2 * k + 1 < 125 then iprop(gfJ1 d L q hv sv (2 * k + 1) ∗ gfI1 d L q hv dv (2 * k + 1)) else idle1 d L q hv sv dv)
    ∗ (if k = 0 then iprop(idleOut0 d L ∗ idleOut1 d L) else iprop(ofl0 d L hv sv dv (2 * k - 2) ∗ ofl1 d L hv sv dv (2 * k - 1)))
    ∗ outPart d L hv sv dv (2 * k - 2) (2 * k)
    ∗ ∃ W', ⌜∀ p ∈ W', p ∈ W ∨ p.2 = none⌝ ∗ owes (thr d L) O W')

end Cert.Proof.OnKernel.Tile

end
-- ==== Proof.OnKernel.TileContent.lean ====
/-
  One vector subcore's task of the gather kernel: the pure equations between what a gather and a copy-out
  write and the chunk functions of the task.

  A gather of 80 node rows at the 80 index words of chunk n of an index scratch leaves, at row r lane j, the
  node feature at (node named by word r of chunk n, j). A copy-out of chunk n computed, to rows
  [10000 w + 80 n, 10000 w + 80 n + 80) of the result, agrees there with the result's value, because edge
  e = 10000 w + 80 n + r is entry (w, n, r) of the index arrays. The task's 10000 rows are the disjoint union
  of its 125 chunks of 80 rows.
-/
import proofs.«206094_g687194767628_cont_sun_c4_81_43_alg».proof.Proof.OnKernel.TileInv

noncomputable section

namespace Cert.Proof.OnKernel.Tile

open Cert.Kernel Cert.Kernel.Gen
open Cert.Proof.OnKernel

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid1.Coords)

/-! ## Indices -/

omit [FloatOps F] in
/-- The source index of a gather of rows of a 10000 × 128 array into 80 × 128: the row the list names for the
    index's row, the index's own lane. -/
theorem gidx_apply (hg : S10000x128.Gathers 0 S80x128) (r : Fin (S80x128.size hg.axis') → Fin (S10000x128.size hg.axis)) (x : S80x128.Idx) :
    hg.idx r x = ix2 (n0 := 10000) (n1 := 128) (r (x 0)) (x 1) := by
  funext b
  match b with
  | ⟨0, _⟩ => exact Shape.Gathers.idx_axis hg r x
  | ⟨1, _⟩ => exact Fin.ext (Shape.Gathers.idx_of_ne hg r x ⟨1, by decide⟩ (by decide))

omit [FloatOps F] in
/-- The index of a list of 80 at row-major position k is k. -/
theorem rowMajor_symm_S80 (k : Fin S80.numel) : S80.rowMajor.symm k = ix1 (n := 80) (k.cast rfl) := by
  apply S80.rowMajor.injective
  rw [Equiv.apply_symm_apply]
  apply Fin.ext
  rw [Shape.rowMajor_val_one]
  rfl

omit [FloatOps F] in
/-- Entry y of a list of 80 is entry y of the one row of the 1 × 80 array it is squeezed from. -/
theorem reshape_S80 (h : S80.numel = S1x80.numel) (y : S80.Idx) :
    Shape.reshapeEquiv h y = ix2 (n0 := 1) (n1 := 80) 0 (y 0) := by
  apply Shape.reshapeEquiv_eq_of_rowMajor
  rw [Shape.rowMajor_val_two, Shape.rowMajor_val_one]
  show 0 * 80 + (y 0).val = (y 0).val
  omega

omit [FloatOps F] in
/-- Entry (t, r) of a 125 × 80 array is entry (0, t, r) of the 1 × 125 × 80 array it is squeezed from. -/
theorem reshape_S125x80 (h : S125x80.numel = S1x125x80.numel) (z : S125x80.Idx) :
    Shape.reshapeEquiv h z = ix3 (n0 := 1) (n1 := 125) (n2 := 80) 0 (z 0) (z 1) := by
  apply Shape.reshapeEquiv_eq_of_rowMajor
  rw [Shape.rowMajor_val_three, Shape.rowMajor_val_two]
  show (0 * 125 + (z 0).val) * 80 + (z 1).val = (z 0).val * 80 + (z 1).val
  omega

omit [FloatOps F] in
theorem off0_lt {off : Fin 2 → ℕ} (inb : ∀ a, off a + S1x80.size a ≤ S125x80.size a) : off 0 < 125 := by
  have h : off 0 + 1 ≤ 125 := inb 0
  omega
omit [FloatOps F] in
theorem off1_lt {off : Fin 2 → ℕ} (inb : ∀ a, off a + S1x80.size a ≤ S125x80.size a) (y : S80.Idx) : off 1 + (y 0).val < 80 := by
  have h : off 1 + 80 ≤ 80 := inb 1
  have h' : (y 0).val < 80 := (y 0).isLt
  omega

omit [FloatOps F] in
/-- The node features read through the full rectangle are the node features. -/
theorem hS_read (hv : Buf (Elt F) (hLoc d)) (z : S10000x128.Idx) : (hS).view.read (Elt F) hv z = hv z := by
  rw [View.read_apply]
  show hv ((Rect.unit (s := S10000x128) ![0, 0] S10000x128.size inb_S10000x128_S10000x128_0_0).emb z) = hv z
  congr 1
  funext a
  apply Fin.ext
  rw [Rect.emb_apply]
  match a with
  | ⟨0, _⟩ => show 0 + 1 * (z 0).val = (z 0).val; omega
  | ⟨1, _⟩ => show 0 + 1 * (z 1).val = (z 1).val; omega

omit [FloatOps F] in
/-- Row n of a 125 × 80 array, as a rectangle's element set and as the indices whose first coordinate is n. -/
theorem rowRect_set (n : ℕ) (inb : ∀ a, (![n, 0] : Fin 2 → ℕ) a + S1x80.size a ≤ S125x80.size a) :
    (Rect.unit (s := S125x80) ![n, 0] S1x80.size inb).set = rowSetN n := by
  ext x
  rw [Rect.mem_set_unit]
  unfold rowSetN
  rw [Finset.mem_filter]
  constructor
  · intro h
    have h0 : n ≤ (x 0).val ∧ (x 0).val < n + 1 := h 0
    exact ⟨Finset.mem_univ _, by omega⟩
  · rintro ⟨-, h⟩ a
    match a with
    | ⟨0, _⟩ => show n ≤ (x 0).val ∧ (x 0).val < n + 1; omega
    | ⟨1, _⟩ =>
      have h1 : (x 1).val < 80 := (x 1).isLt
      show 0 ≤ (x 1).val ∧ (x 1).val < 0 + 80; omega

omit [FloatOps F] in
/-- Entry y of the list of 80 taken out of index scratch 0 — the one-row slice at offsets off, squeezed — is the
    word at row off 0, column off 1 + y. -/
theorem read_list0 (off : Fin 2 → ℕ) (inb : ∀ a, off a + S1x80.size a ≤ S125x80.size a) (hr : ∀ a, (Rect.unit (s := S125x80) off S1x80.size inb).stride a = 1)
    (idx : S125x80.Idx → Elt F .i32) (y : S80.Idx) :
    (rowM0 off inb hr).view.read (Elt F) idx y
      = idx (ix2 (n0 := 125) (n1 := 80) ⟨off 0, off0_lt inb⟩ ⟨off 1 + (y 0).val, off1_lt inb y⟩) := by
  rw [View.read_apply]
  show idx _ = idx _
  congr 1
  simp only [Memref.view_squeeze, Memref.view_slice, Memref.view_whole, View.emb_reshape, View.emb_slice, View.emb_whole]
  show (Rect.unit (s := S125x80) off S1x80.size inb).emb (Shape.reshapeEquiv _ y) = _
  rw [reshape_S80]
  funext a
  apply Fin.ext
  rw [Rect.emb_apply]
  match a with
  | ⟨0, _⟩ => show off 0 + 1 * 0 = off 0; omega
  | ⟨1, _⟩ => show off 1 + 1 * (y 0).val = off 1 + (y 0).val; omega

omit [FloatOps F] in
/-- The node row that entry k of the list of chunk n names, as the gather reads it and as the chunk function does. -/
theorem rows_eq0 (idx : S125x80.Idx → Elt F .i32) (n : ℕ) (hn : n ≤ 124)
    (inb : ∀ a, (![n, 0] : Fin 2 → ℕ) a + S1x80.size a ≤ S125x80.size a) (hr : ∀ a, (Rect.unit (s := S125x80) ![n, 0] S1x80.size inb).stride a = 1)
    (hnum : S80.numel = S80x128.size gathers_S10000x128_S80x128.axis')
    (hin : ∀ x, ((rowM0 ![n, 0] inb hr).view.read (Elt F) idx x).toNat < S10000x128.size gathers_S10000x128_S80x128.axis)
    (k : Fin (S80x128.size gathers_S10000x128_S80x128.axis')) :
    SparseCore.rows ((rowM0 ![n, 0] inb hr).view.read (Elt F) idx) hnum hin k = nodeOf (idx (chunkIx n k)) := by
  have key : (rowM0 ![n, 0] inb hr).view.read (Elt F) idx (S80.rowMajor.symm (k.cast hnum.symm)) = idx (chunkIx n k) := by
    rw [rowMajor_symm_S80, read_list0]
    congr 1
    unfold chunkIx
    funext a
    apply Fin.ext
    match a with
    | ⟨0, _⟩ => show n = min n 124; omega
    | ⟨1, _⟩ => show 0 + k.val = k.val; omega
  apply Fin.ext
  have hlt := hin (S80.rowMajor.symm (k.cast hnum.symm))
  rw [key] at hlt
  show ((rowM0 ![n, 0] inb hr).view.read (Elt F) idx (S80.rowMajor.symm (k.cast hnum.symm))).toNat = (nodeOf (idx (chunkIx n k))).val
  rw [key, nodeOf_val _ hlt]

omit [FloatOps F] in
/-- Entry y of the list of 80 taken out of index scratch 1 — the one-row slice at offsets off, squeezed — is the
    word at row off 0, column off 1 + y. -/
theorem read_list1 (off : Fin 2 → ℕ) (inb : ∀ a, off a + S1x80.size a ≤ S125x80.size a) (hr : ∀ a, (Rect.unit (s := S125x80) off S1x80.size inb).stride a = 1)
    (idx : S125x80.Idx → Elt F .i32) (y : S80.Idx) :
    (rowM1 off inb hr).view.read (Elt F) idx y
      = idx (ix2 (n0 := 125) (n1 := 80) ⟨off 0, off0_lt inb⟩ ⟨off 1 + (y 0).val, off1_lt inb y⟩) := by
  rw [View.read_apply]
  show idx _ = idx _
  congr 1
  simp only [Memref.view_squeeze, Memref.view_slice, Memref.view_whole, View.emb_reshape, View.emb_slice, View.emb_whole]
  show (Rect.unit (s := S125x80) off S1x80.size inb).emb (Shape.reshapeEquiv _ y) = _
  rw [reshape_S80]
  funext a
  apply Fin.ext
  rw [Rect.emb_apply]
  match a with
  | ⟨0, _⟩ => show off 0 + 1 * 0 = off 0; omega
  | ⟨1, _⟩ => show off 1 + 1 * (y 0).val = off 1 + (y 0).val; omega

omit [FloatOps F] in
/-- The node row that entry k of the list of chunk n names, as the gather reads it and as the chunk function does. -/
theorem rows_eq1 (idx : S125x80.Idx → Elt F .i32) (n : ℕ) (hn : n ≤ 124)
    (inb : ∀ a, (![n, 0] : Fin 2 → ℕ) a + S1x80.size a ≤ S125x80.size a) (hr : ∀ a, (Rect.unit (s := S125x80) ![n, 0] S1x80.size inb).stride a = 1)
    (hnum : S80.numel = S80x128.size gathers_S10000x128_S80x128.axis')
    (hin : ∀ x, ((rowM1 ![n, 0] inb hr).view.read (Elt F) idx x).toNat < S10000x128.size gathers_S10000x128_S80x128.axis)
    (k : Fin (S80x128.size gathers_S10000x128_S80x128.axis')) :
    SparseCore.rows ((rowM1 ![n, 0] inb hr).view.read (Elt F) idx) hnum hin k = nodeOf (idx (chunkIx n k)) := by
  have key : (rowM1 ![n, 0] inb hr).view.read (Elt F) idx (S80.rowMajor.symm (k.cast hnum.symm)) = idx (chunkIx n k) := by
    rw [rowMajor_symm_S80, read_list1]
    congr 1
    unfold chunkIx
    funext a
    apply Fin.ext
    match a with
    | ⟨0, _⟩ => show n = min n 124; omega
    | ⟨1, _⟩ => show 0 + k.val = k.val; omega
  apply Fin.ext
  have hlt := hin (S80.rowMajor.symm (k.cast hnum.symm))
  rw [key] at hlt
  show ((rowM1 ![n, 0] inb hr).view.read (Elt F) idx (S80.rowMajor.symm (k.cast hnum.symm))).toNat = (nodeOf (idx (chunkIx n k))).val
  rw [key, nodeOf_val _ hlt]

/-! ## What a gather and a copy-out write -/

theorem rowM0_set (n : ℕ) (off : Fin 2 → ℕ) (inb : ∀ a, off a + S1x80.size a ≤ S125x80.size a) (hr : ∀ a, (Rect.unit (s := S125x80) off S1x80.size inb).stride a = 1)
    (hoff : off = ![n, 0]) : (rowM0 off inb hr).view.set = rowSetN n := by
  subst hoff
  show (((View.whole (cc1_scratch0 : Ref sig .scVector)).slice (Rect.unit (s := S125x80) ![n, 0] S1x80.size inb)).reshape S80 squeezes_S1x80_S80.numel_eq).set = _
  rw [View.set_reshape, View.set_slice_whole]
  exact rowRect_set n inb

theorem rowM1_set (n : ℕ) (off : Fin 2 → ℕ) (inb : ∀ a, off a + S1x80.size a ≤ S125x80.size a) (hr : ∀ a, (Rect.unit (s := S125x80) off S1x80.size inb).stride a = 1)
    (hoff : off = ![n, 0]) : (rowM1 off inb hr).view.set = rowSetN n := by
  subst hoff
  show (((View.whole (cc1_scratch1 : Ref sig .scVector)).slice (Rect.unit (s := S125x80) ![n, 0] S1x80.size inb)).reshape S80 squeezes_S1x80_S80.numel_eq).set = _
  rw [View.set_reshape, View.set_slice_whole]
  exact rowRect_set n inb

theorem gather_payload0 (hv : Buf (Elt F) (hLoc d)) (idx : S125x80.Idx → Elt F .i32) (n : ℕ) (hn : n ≤ 124)
    (off : Fin 2 → ℕ) (inb : ∀ a, off a + S1x80.size a ≤ S125x80.size a) (hr : ∀ a, (Rect.unit (s := S125x80) off S1x80.size inb).stride a = 1) (hoff : off = ![n, 0])
    (hnum : S80.numel = S80x128.size gathers_S10000x128_S80x128.axis')
    (hin : ∀ x, ((rowM0 off inb hr).view.read (Elt F) idx x).toNat < S10000x128.size gathers_S10000x128_S80x128.axis) :
    SparseCore.gatherPayload gathers_S10000x128_S80x128 ((hS).view.read (Elt F) hv) (SparseCore.rows ((rowM0 off inb hr).view.read (Elt F) idx) hnum hin)
      = gath d hv idx n := by
  subst hoff
  funext x
  unfold SparseCore.gatherPayload gath
  rw [gidx_apply, hS_read, rows_eq0 idx n hn inb hr hnum hin]

theorem gather_payload1 (hv : Buf (Elt F) (hLoc d)) (idx : S125x80.Idx → Elt F .i32) (n : ℕ) (hn : n ≤ 124)
    (off : Fin 2 → ℕ) (inb : ∀ a, off a + S1x80.size a ≤ S125x80.size a) (hr : ∀ a, (Rect.unit (s := S125x80) off S1x80.size inb).stride a = 1) (hoff : off = ![n, 0])
    (hnum : S80.numel = S80x128.size gathers_S10000x128_S80x128.axis')
    (hin : ∀ x, ((rowM1 off inb hr).view.read (Elt F) idx x).toNat < S10000x128.size gathers_S10000x128_S80x128.axis) :
    SparseCore.gatherPayload gathers_S10000x128_S80x128 ((hS).view.read (Elt F) hv) (SparseCore.rows ((rowM1 off inb hr).view.read (Elt F) idx) hnum hin)
      = gath d hv idx n := by
  subst hoff
  funext x
  unfold SparseCore.gatherPayload gath
  rw [gidx_apply, hS_read, rows_eq1 idx n hn inb hr hnum hin]

/-- A scratch written whole by one listed piece holds that piece. -/
theorem writes_whole_scr (b : Ref sig .scVector) (f : Buf (Elt F) ((thr d L).loc b)) (g : (Rect.whole b.ty.shape).shape.Idx → Elt F b.ty.elt) :
    ∀ x, (Memref.whole b : Memref sig .scVector _ _ _).view.writes (Elt F) f [⟨Rect.whole b.ty.shape, g⟩] x = g x := by
  intro x
  have e : (Rect.whole b.ty.shape).emb x = x := by
    funext a
    apply Fin.ext
    rw [Rect.emb_apply]
    show 0 + 1 * (x a).val = (x a).val
    omega
  have h := View.read_writes_cons_emb (Memref.whole b : Memref sig .scVector _ _ _).view f (Rect.whole b.ty.shape) g [] x
  rw [e] at h
  exact h

/-! ## The rows of the result -/

theorem oChunk_set (n : ℕ) (hn : n ≤ 124) (off : Fin 2 → ℕ) (inb : ∀ a, off a + S80x128.size a ≤ S320000x128.size a)
    (hr : ∀ a, (Rect.unit (s := S320000x128) off S80x128.size inb).stride a = 1) (hoff : off = ![10000 * wid L + 80 * n, 0]) :
    (oChunkM off inb hr).view.set = chunkSetN L n := by
  subst hoff
  show ((View.whole (main_v9_scv : Ref sig .scVector)).slice (Rect.unit (s := S320000x128) ![10000 * wid L + 80 * n, 0] S80x128.size inb)).set = _
  rw [View.set_slice_whole]
  ext x
  rw [Rect.mem_set_unit]
  unfold chunkSetN
  rw [Finset.mem_filter]
  constructor
  · intro h
    have h0 : 10000 * wid L + 80 * n ≤ (x 0).val ∧ (x 0).val < 10000 * wid L + 80 * n + 80 := h 0
    exact ⟨Finset.mem_univ _, h0⟩
  · rintro ⟨-, h⟩ a
    match a with
    | ⟨0, _⟩ => exact h
    | ⟨1, _⟩ =>
      have h1 : (x 1).val < 128 := (x 1).isLt
      show 0 ≤ (x 1).val ∧ (x 1).val < 0 + 128; omega

omit [FloatOps F] in
/-- Entry (t, r) of the task's row of an index array is entry (w, t, r) of the array. -/
theorem sRowK_emb (z : S125x80.Idx) : (sRowK L).view.emb z = ix3 (⟨wid L, wid_lt L⟩ : Fin 32) (z 0) (z 1) := by
  show (Rect.unit (s := S32x125x80) (k1_off1 L) S1x125x80.size (k1_off1_inb L)).emb (Shape.reshapeEquiv squeezes_S1x125x80_S125x80.numel_eq z) = _
  rw [reshape_S125x80]
  have h0 : k1_off1 L 0 = 2 * (L 1).val + (L 0).val := congrFun (k1_off1_eq L) 0
  have h1 : k1_off1 L 1 = 0 := congrFun (k1_off1_eq L) 1
  have h2 : k1_off1 L 2 = 0 := congrFun (k1_off1_eq L) 2
  funext a
  apply Fin.ext
  rw [Rect.emb_apply]
  match a with
  | ⟨0, _⟩ => show k1_off1 L 0 + 1 * 0 = wid L; rw [h0]; unfold wid; omega
  | ⟨1, _⟩ => show k1_off1 L 1 + 1 * (z 0).val = (z 0).val; rw [h1]; omega
  | ⟨2, _⟩ => show k1_off1 L 2 + 1 * (z 1).val = (z 1).val; rw [h2]; omega
omit [FloatOps F] in
theorem dRowK_emb (z : S125x80.Idx) : (dRowK L).view.emb z = ix3 (⟨wid L, wid_lt L⟩ : Fin 32) (z 0) (z 1) := by
  show (Rect.unit (s := S32x125x80) (k1_off1 L) S1x125x80.size (k1_off1_inb L)).emb (Shape.reshapeEquiv squeezes_S1x125x80_S125x80.numel_eq z) = _
  rw [reshape_S125x80]
  have h0 : k1_off1 L 0 = 2 * (L 1).val + (L 0).val := congrFun (k1_off1_eq L) 0
  have h1 : k1_off1 L 1 = 0 := congrFun (k1_off1_eq L) 1
  have h2 : k1_off1 L 2 = 0 := congrFun (k1_off1_eq L) 2
  funext a
  apply Fin.ext
  rw [Rect.emb_apply]
  match a with
  | ⟨0, _⟩ => show k1_off1 L 0 + 1 * 0 = wid L; rw [h0]; unfold wid; omega
  | ⟨1, _⟩ => show k1_off1 L 1 + 1 * (z 0).val = (z 0).val; rw [h1]; omega
  | ⟨2, _⟩ => show k1_off1 L 2 + 1 * (z 1).val = (z 1).val; rw [h2]; omega

omit [FloatOps F] in
/-- Edge 10000 w + 80 n + r is entry (w, n, r) of the index arrays. -/
theorem edgeIx_chunk (n : ℕ) (hn : n ≤ 124) (r : Fin 80) (e : Fin 320000) (he : e.val = 10000 * wid L + 80 * n + r.val) :
    edgeIx e = ix3 (⟨wid L, wid_lt L⟩ : Fin 32) (⟨n, by omega⟩ : Fin 125) r := by
  have hw := wid_lt L
  have hr := r.isLt
  unfold edgeIx
  funext a
  apply Fin.ext
  match a with
  | ⟨0, _⟩ => show e.val / 10000 = wid L; omega
  | ⟨1, _⟩ => show e.val % 10000 / 80 = n; omega
  | ⟨2, _⟩ => show e.val % 80 = r.val; omega

theorem out_chunk (hv : Buf (Elt F) (hLoc d)) (sv : Buf (Elt F) (sLoc d)) (dv : Buf (Elt F) (dLoc d)) (n : ℕ) (hn : n ≤ 124)
    (off : Fin 2 → ℕ) (inb : ∀ a, off a + S80x128.size a ≤ S320000x128.size a)
    (hr : ∀ a, (Rect.unit (s := S320000x128) off S80x128.size inb).stride a = 1) (hoff : off = ![10000 * wid L + 80 * n, 0])
    (fo : Buf (Elt F) (oLoc d)) :
    ∀ x ∈ (oChunkM off inb hr).view.set,
      (oChunkM off inb hr).view.write (Elt F) fo (obC d L hv sv dv n) Finset.univ x = outRows d hv sv dv x := by
  subst hoff
  intro x hx
  obtain ⟨y, -, rfl⟩ := Finset.mem_map.mp hx
  rw [View.write_emb_of_mem _ _ (Finset.mem_univ y)]
  show obC d L hv sv dv n y = outRows d hv sv dv ((oChunkM ![10000 * wid L + 80 * n, 0] inb hr).view.emb y)
  have hx0 : (((oChunkM ![10000 * wid L + 80 * n, 0] inb hr).view.emb y) 0).val = 10000 * wid L + 80 * n + (y 0).val := by
    show 10000 * wid L + 80 * n + 1 * (y 0).val = _
    omega
  have hx1 : ((oChunkM ![10000 * wid L + 80 * n, 0] inb hr).view.emb y) 1 = y 1 := by
    apply Fin.ext
    show 0 + 1 * (y 1).val = (y 1).val
    omega
  have hc : chunkIx n (y 0) = ix2 (⟨n, by omega⟩ : Fin 125) (y 0) := by
    unfold chunkIx
    funext a
    apply Fin.ext
    match a with
    | ⟨0, _⟩ => show min n 124 = n; omega
    | ⟨1, _⟩ => rfl
  have hE := edgeIx_chunk L n hn (y 0) _ hx0
  unfold obC outRows gath
  rw [idxS_apply, idxD_apply, sRowK_emb, dRowK_emb, hE, hx1, hc]
  rfl

theorem outSet_chunks : outSet L = (Finset.range 125).biUnion (chunkSetN L) := by
  have hw := wid_lt L
  ext x
  show x ∈ (Rect.unit (s := S320000x128) ![10000 * wid L, 0] ![10000, 128] (outRect_inb L)).set ↔ _
  rw [Rect.mem_set_unit, Finset.mem_biUnion]
  constructor
  · intro h
    have h0 : 10000 * wid L ≤ (x 0).val ∧ (x 0).val < 10000 * wid L + 10000 := h 0
    refine ⟨((x 0).val - 10000 * wid L) / 80, Finset.mem_range.mpr (by omega), ?_⟩
    unfold chunkSetN
    rw [Finset.mem_filter]
    exact ⟨Finset.mem_univ _, by omega⟩
  · rintro ⟨n, hn, hx⟩ a
    have hn' := Finset.mem_range.mp hn
    unfold chunkSetN at hx
    rw [Finset.mem_filter] at hx
    match a with
    | ⟨0, _⟩ => show 10000 * wid L ≤ (x 0).val ∧ (x 0).val < 10000 * wid L + 10000; omega
    | ⟨1, _⟩ =>
      have h1 : (x 1).val < 128 := (x 1).isLt
      show 0 ≤ (x 1).val ∧ (x 1).val < 0 + 128; omega

theorem chunkSetN_disjoint {m n : ℕ} (h : m ≠ n) : Disjoint (chunkSetN L m) (chunkSetN L n) := by
  rw [Finset.disjoint_left]
  intro x hm hn
  unfold chunkSetN at hm hn
  rw [Finset.mem_filter] at hm hn
  omega

/-! ## The same, as holdings -/

omit [FloatOps F] in
/-- The task's rows of the result, held at one function, are its 125 chunks, each held at that function. -/
theorem oPts_chunks (f : Buf (Elt F) (oLoc d)) :
    (oLoc d ↦[outSet L]{fullShare} f : sProp 𝕄) = bigSep (Finset.range 125) fun n => oLoc d ↦[chunkSetN L n]{fullShare} f := by
  rw [outSet_chunks, pointsTo_biUnion (Finset.range 125) (ℓ := oLoc d) (chunkSetN L) fun m _ n _ h => chunkSetN_disjoint L h]

omit [FloatOps F] in
/-- Chunk n's rows, held at some contents, as a copy-out's target names them. -/
theorem chunk_held (n : ℕ) (hn : n ≤ 124) (off : Fin 2 → ℕ) (inb : ∀ a, off a + S80x128.size a ≤ S320000x128.size a)
    (hr : ∀ a, (Rect.unit (s := S320000x128) off S80x128.size inb).stride a = 1) (hoff : off = ![10000 * wid L + 80 * n, 0])
    (f : Buf (Elt F) (oLoc d)) :
    (oLoc d ↦[chunkSetN L n]{fullShare} f : sProp 𝕄)
      = (oChunkM off inb hr).view.loc (thr d L) ↦[(oChunkM off inb hr).view.set]{fullShare} f := by
  rw [oChunk_set L n hn off inb hr hoff]

/-- Chunk n's rows after chunk n computed has been copied onto them: held at the result's value. -/
theorem chunk_done (hv : Buf (Elt F) (hLoc d)) (sv : Buf (Elt F) (sLoc d)) (dv : Buf (Elt F) (dLoc d)) (n : ℕ) (hn : n ≤ 124)
    (off : Fin 2 → ℕ) (inb : ∀ a, off a + S80x128.size a ≤ S320000x128.size a)
    (hr : ∀ a, (Rect.unit (s := S320000x128) off S80x128.size inb).stride a = 1) (hoff : off = ![10000 * wid L + 80 * n, 0])
    (fo : Buf (Elt F) (oLoc d)) :
    ((oChunkM off inb hr).view.loc (thr d L) ↦[(oChunkM off inb hr).view.set]{fullShare}
        (oChunkM off inb hr).view.write (Elt F) fo (obC d L hv sv dv n) Finset.univ : sProp 𝕄)
      = oLoc d ↦[chunkSetN L n]{fullShare} outRows d hv sv dv := by
  rw [pointsTo_congr (out_chunk d L hv sv dv n hn off inb hr hoff fo), oChunk_set L n hn off inb hr hoff]

end Cert.Proof.OnKernel.Tile

end
-- ==== Proof.OnKernel.TileRows.lean ====
/-
  One vector subcore's task of the gather kernel: its three row loops.

  Each loop runs over the 80 rows of a chunk. Trip r loads row r of the two gathered chunks sixteen lanes at a time,
  adds the two vectors, takes the maximum with zero, and stores the sixteen lanes into row r of a third scratch:
  eight stores side by side cover the row's 128 lanes. Before trip r the third scratch holds the rectified sums on
  its rows below r and its first contents on the others; after the 80 trips it holds the rectified sum of the two
  chunks everywhere, and the two chunks are as they were.
-/
import proofs.«206094_g687194767628_cont_sun_c4_81_43_alg».proof.Proof.OnKernel.TileInv

noncomputable section

namespace Cert.Proof.OnKernel.Tile

open Cert.Kernel Cert.Kernel.Gen
open Cert.Proof.OnKernel

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## One lane group of the task's arithmetic -/

/-- The stored vector of one group of sixteen lanes, read at a lane: the two loaded vectors added and rectified there. -/
theorem pay_lane (va vb : Vec F S1x16 .f32) (x : S1x16.Idx) :
    shapeCast S1x16 (maximumf (addf (shapeCast S16 va shapeCasts_S1x16_S16) (shapeCast S16 vb shapeCasts_S1x16_S16))
      (broadcast S16 (Scalar.ofBits .f32 0x00000000#32 : F .f32))) shapeCasts_S16_S1x16 x = relu2 (F := F) (va x) (vb x) := by
  unfold shapeCast maximumf addf broadcast relu2
  beta_reduce
  rw [Shape.reshapeEquiv_reshapeEquiv, Shape.reshapeEquiv_self]

/-! ## The rows done so far -/

/-- Rows below r hold the rectified sum of a and b, the others what c holds. -/
def rowsUpTo (a b c : S80x128.Idx → Elt F .f32) (r : ℕ) : S80x128.Idx → Elt F .f32 :=
  fun y => if (y 0).val < r then relu2 (F := F) (a y) (b y) else c y

theorem rowsUpTo_zero (a b c : S80x128.Idx → Elt F .f32) : rowsUpTo a b c 0 = c :=
  funext fun y => if_neg (Nat.not_lt_zero _)

theorem rowsUpTo_all (a b c : S80x128.Idx → Elt F .f32) {n : ℕ} (hn : 80 ≤ n) : rowsUpTo a b c n = reluRows a b :=
  funext fun y => if_pos (Nat.lt_of_lt_of_le (show (y 0).val < 80 from (y 0).isLt) hn)

theorem rowsUpTo_succ (a b c : S80x128.Idx → Elt F .f32) (r : ℕ) (y : S80x128.Idx) :
    (if (y 0).val = r then reluRows a b y else rowsUpTo a b c r y) = rowsUpTo a b c (r + 1) y := by
  unfold rowsUpTo reluRows
  by_cases h : (y 0).val = r
  · rw [if_pos h, if_pos (by omega)]
  · rw [if_neg h]
    by_cases h' : (y 0).val < r
    · rw [if_pos h', if_pos (by omega)]
    · rw [if_neg h', if_neg (by omega)]

/-! ## Eight stores side by side along one row -/

/-- Eight stores of sixteen lanes each, side by side along row r, each holding the function G on its lanes: after them
    row r reads G and every other row reads what it held. -/
theorem read_row8 {sg : RefSig} {κ : Kind} {sp : Space} (v : View sg κ sp S80x128 .f32) (f : v.ty.Contents (Elt F))
    (G : S80x128.Idx → Elt F .f32) (r : ℕ)
    (o0 : Fin 2 → ℕ) (i0 : ∀ a, o0 a + S1x16.size a ≤ S80x128.size a) (w0 : (Rect.unit (s := S80x128) o0 S1x16.size i0).shape.Idx → Elt F .f32)
    (o1 : Fin 2 → ℕ) (i1 : ∀ a, o1 a + S1x16.size a ≤ S80x128.size a) (w1 : (Rect.unit (s := S80x128) o1 S1x16.size i1).shape.Idx → Elt F .f32)
    (o2 : Fin 2 → ℕ) (i2 : ∀ a, o2 a + S1x16.size a ≤ S80x128.size a) (w2 : (Rect.unit (s := S80x128) o2 S1x16.size i2).shape.Idx → Elt F .f32)
    (o3 : Fin 2 → ℕ) (i3 : ∀ a, o3 a + S1x16.size a ≤ S80x128.size a) (w3 : (Rect.unit (s := S80x128) o3 S1x16.size i3).shape.Idx → Elt F .f32)
    (o4 : Fin 2 → ℕ) (i4 : ∀ a, o4 a + S1x16.size a ≤ S80x128.size a) (w4 : (Rect.unit (s := S80x128) o4 S1x16.size i4).shape.Idx → Elt F .f32)
    (o5 : Fin 2 → ℕ) (i5 : ∀ a, o5 a + S1x16.size a ≤ S80x128.size a) (w5 : (Rect.unit (s := S80x128) o5 S1x16.size i5).shape.Idx → Elt F .f32)
    (o6 : Fin 2 → ℕ) (i6 : ∀ a, o6 a + S1x16.size a ≤ S80x128.size a) (w6 : (Rect.unit (s := S80x128) o6 S1x16.size i6).shape.Idx → Elt F .f32)
    (o7 : Fin 2 → ℕ) (i7 : ∀ a, o7 a + S1x16.size a ≤ S80x128.size a) (w7 : (Rect.unit (s := S80x128) o7 S1x16.size i7).shape.Idx → Elt F .f32)
    (e0 : o0 = ![r, 0]) (e1 : o1 = ![r, 16]) (e2 : o2 = ![r, 32]) (e3 : o3 = ![r, 48]) (e4 : o4 = ![r, 64]) (e5 : o5 = ![r, 80]) (e6 : o6 = ![r, 96]) (e7 : o7 = ![r, 112])
    (h0 : ∀ x, w0 x = G ((Rect.unit (s := S80x128) o0 S1x16.size i0).emb x))
    (h1 : ∀ x, w1 x = G ((Rect.unit (s := S80x128) o1 S1x16.size i1).emb x))
    (h2 : ∀ x, w2 x = G ((Rect.unit (s := S80x128) o2 S1x16.size i2).emb x))
    (h3 : ∀ x, w3 x = G ((Rect.unit (s := S80x128) o3 S1x16.size i3).emb x))
    (h4 : ∀ x, w4 x = G ((Rect.unit (s := S80x128) o4 S1x16.size i4).emb x))
    (h5 : ∀ x, w5 x = G ((Rect.unit (s := S80x128) o5 S1x16.size i5).emb x))
    (h6 : ∀ x, w6 x = G ((Rect.unit (s := S80x128) o6 S1x16.size i6).emb x))
    (h7 : ∀ x, w7 x = G ((Rect.unit (s := S80x128) o7 S1x16.size i7).emb x))
    (y : S80x128.Idx) :
    v.read (Elt F) (v.writes (Elt F) f
        [⟨Rect.unit (s := S80x128) o7 S1x16.size i7, w7⟩,
          ⟨Rect.unit (s := S80x128) o6 S1x16.size i6, w6⟩,
          ⟨Rect.unit (s := S80x128) o5 S1x16.size i5, w5⟩,
          ⟨Rect.unit (s := S80x128) o4 S1x16.size i4, w4⟩,
          ⟨Rect.unit (s := S80x128) o3 S1x16.size i3, w3⟩,
          ⟨Rect.unit (s := S80x128) o2 S1x16.size i2, w2⟩,
          ⟨Rect.unit (s := S80x128) o1 S1x16.size i1, w1⟩,
          ⟨Rect.unit (s := S80x128) o0 S1x16.size i0, w0⟩]) y
      = if (y 0).val = r then G y else v.read (Elt F) f y := by
  subst e0 e1 e2 e3 e4 e5 e6 e7
  have hy1 : (y 1).val < 128 := (y 1).isLt
  by_cases hr : (y 0).val = r
  · rw [if_pos hr]
    refine View.read_writes_apply_of_pieces v f G _ ?_ y ?_
    · intro p hp
      simp only [List.mem_cons, List.not_mem_nil, or_false] at hp
      rcases hp with rfl | rfl | rfl | rfl | rfl | rfl | rfl | rfl
      exacts [h7, h6, h5, h4, h3, h2, h1, h0]
    · have hc : ∀ (c : ℕ) (i : ∀ a, (![r, c] : Fin 2 → ℕ) a + S1x16.size a ≤ S80x128.size a), c ≤ (y 1).val → (y 1).val < c + 16 →
          y ∈ (Rect.unit (s := S80x128) ![r, c] S1x16.size i).set := by
        intro c i h1 h2
        rw [Rect.mem_set_unit]
        refine Fin.forall_fin_two.mpr ⟨⟨?_, ?_⟩, ⟨?_, ?_⟩⟩
        · show r ≤ (y 0).val; omega
        · show (y 0).val < r + 1; omega
        · show c ≤ (y 1).val; exact h1
        · show (y 1).val < c + 16; exact h2
      rcases (by omega : (y 1).val < 16 ∨ (16 ≤ (y 1).val ∧ (y 1).val < 32) ∨ (32 ≤ (y 1).val ∧ (y 1).val < 48) ∨ (48 ≤ (y 1).val ∧ (y 1).val < 64)
          ∨ (64 ≤ (y 1).val ∧ (y 1).val < 80) ∨ (80 ≤ (y 1).val ∧ (y 1).val < 96) ∨ (96 ≤ (y 1).val ∧ (y 1).val < 112) ∨ (112 ≤ (y 1).val ∧ (y 1).val < 128))
        with h | h | h | h | h | h | h | h
      · exact ⟨⟨_, w0⟩, by simp only [List.mem_cons, true_or, or_true], hc 0 i0 (Nat.zero_le _) h⟩
      · exact ⟨⟨_, w1⟩, by simp only [List.mem_cons, true_or, or_true], hc 16 i1 h.1 h.2⟩
      · exact ⟨⟨_, w2⟩, by simp only [List.mem_cons, true_or, or_true], hc 32 i2 h.1 h.2⟩
      · exact ⟨⟨_, w3⟩, by simp only [List.mem_cons, true_or, or_true], hc 48 i3 h.1 h.2⟩
      · exact ⟨⟨_, w4⟩, by simp only [List.mem_cons, true_or, or_true], hc 64 i4 h.1 h.2⟩
      · exact ⟨⟨_, w5⟩, by simp only [List.mem_cons, true_or, or_true], hc 80 i5 h.1 h.2⟩
      · exact ⟨⟨_, w6⟩, by simp only [List.mem_cons, true_or, or_true], hc 96 i6 h.1 h.2⟩
      · exact ⟨⟨_, w7⟩, by simp only [List.mem_cons, true_or, or_true], hc 112 i7 h.1 h.2⟩
  · rw [if_neg hr]
    refine View.read_writes_apply_of_forall_not_mem v f y _ ?_
    have hn : ∀ (c : ℕ) (i : ∀ a, (![r, c] : Fin 2 → ℕ) a + S1x16.size a ≤ S80x128.size a),
        y ∉ (Rect.unit (s := S80x128) ![r, c] S1x16.size i).set := by
      intro c i hm
      rw [Rect.mem_set_unit] at hm
      have h0 := hm 0
      have h0a : r ≤ (y 0).val := h0.1
      have h0b : (y 0).val < r + 1 := h0.2
      omega
    intro p hp
    simp only [List.mem_cons, List.not_mem_nil, or_false] at hp
    rcases hp with rfl | rfl | rfl | rfl | rfl | rfl | rfl | rfl
    exacts [hn _ i7, hn _ i6, hn _ i5, hn _ i4, hn _ i3, hn _ i2, hn _ i1, hn _ i0]

variable (d : Dev nD) (L : grid1.Coords)

/-! ## The row loop `k1_t2_loop` -/

/-- Trip k's eight stores, over rows below k done, leave rows below k + 1 done. -/
theorem trip_t2_eq (fj : Buf (Elt F) ((thr d L).loc cc1_scratch2)) (fi : Buf (Elt F) ((thr d L).loc cc1_scratch4)) (fo : Buf (Elt F) ((thr d L).loc cc1_scratch6)) (k : Fin k1_t2_loop.trips) :
    (Memref.whole cc1_scratch6 : Memref sig .scVector .vmem S80x128 .f32).view.writes (Elt F) (rowsUpTo fj fi fo k.val)
        [(⟨(Rect.unit (s := S80x128) (k1_off11 k) S1x16.size (k1_off11_inb k)), (k1_pay20 (View.readAt (Elt F) (Memref.whole cc1_scratch2 : Memref sig .scVector .vmem S80x128 .f32).view (Rect.unit (s := S80x128) (k1_off11 k) S1x16.size (k1_off11_inb k)).toLoadRect fj) (View.readAt (Elt F) (Memref.whole cc1_scratch4 : Memref sig .scVector .vmem S80x128 .f32).view (Rect.unit (s := S80x128) (k1_off11 k) S1x16.size (k1_off11_inb k)).toLoadRect fi))⟩ : View.Piece (Elt F) S80x128 .f32),
         (⟨(Rect.unit (s := S80x128) (k1_off10 k) S1x16.size (k1_off10_inb k)), (k1_pay19 (k1_pay8 (View.readAt (Elt F) (Memref.whole cc1_scratch2 : Memref sig .scVector .vmem S80x128 .f32).view (Rect.unit (s := S80x128) (k1_off10 k) S1x16.size (k1_off10_inb k)).toLoadRect fj) (View.readAt (Elt F) (Memref.whole cc1_scratch4 : Memref sig .scVector .vmem S80x128 .f32).view (Rect.unit (s := S80x128) (k1_off10 k) S1x16.size (k1_off10_inb k)).toLoadRect fi)) k1_pay9)⟩ : View.Piece (Elt F) S80x128 .f32),
         (⟨(Rect.unit (s := S80x128) (k1_off9 k) S1x16.size (k1_off9_inb k)), (k1_pay7 (View.readAt (Elt F) (Memref.whole cc1_scratch2 : Memref sig .scVector .vmem S80x128 .f32).view (Rect.unit (s := S80x128) (k1_off9 k) S1x16.size (k1_off9_inb k)).toLoadRect fj) (View.readAt (Elt F) (Memref.whole cc1_scratch4 : Memref sig .scVector .vmem S80x128 .f32).view (Rect.unit (s := S80x128) (k1_off9 k) S1x16.size (k1_off9_inb k)).toLoadRect fi))⟩ : View.Piece (Elt F) S80x128 .f32),
         (⟨(Rect.unit (s := S80x128) (k1_off8 k) S1x16.size (k1_off8_inb k)), (k1_pay6 (View.readAt (Elt F) (Memref.whole cc1_scratch2 : Memref sig .scVector .vmem S80x128 .f32).view (Rect.unit (s := S80x128) (k1_off8 k) S1x16.size (k1_off8_inb k)).toLoadRect fj) (View.readAt (Elt F) (Memref.whole cc1_scratch4 : Memref sig .scVector .vmem S80x128 .f32).view (Rect.unit (s := S80x128) (k1_off8 k) S1x16.size (k1_off8_inb k)).toLoadRect fi))⟩ : View.Piece (Elt F) S80x128 .f32),
         (⟨(Rect.unit (s := S80x128) (k1_off7 k) S1x16.size (k1_off7_inb k)), (k1_pay5 (k1_pay4 (View.readAt (Elt F) (Memref.whole cc1_scratch2 : Memref sig .scVector .vmem S80x128 .f32).view (Rect.unit (s := S80x128) (k1_off7 k) S1x16.size (k1_off7_inb k)).toLoadRect fj)) (View.readAt (Elt F) (Memref.whole cc1_scratch4 : Memref sig .scVector .vmem S80x128 .f32).view (Rect.unit (s := S80x128) (k1_off7 k) S1x16.size (k1_off7_inb k)).toLoadRect fi))⟩ : View.Piece (Elt F) S80x128 .f32),
         (⟨(Rect.unit (s := S80x128) (k1_off6 k) S1x16.size (k1_off6_inb k)), (k1_pay3 (View.readAt (Elt F) (Memref.whole cc1_scratch2 : Memref sig .scVector .vmem S80x128 .f32).view (Rect.unit (s := S80x128) (k1_off6 k) S1x16.size (k1_off6_inb k)).toLoadRect fj) (View.readAt (Elt F) (Memref.whole cc1_scratch4 : Memref sig .scVector .vmem S80x128 .f32).view (Rect.unit (s := S80x128) (k1_off6 k) S1x16.size (k1_off6_inb k)).toLoadRect fi))⟩ : View.Piece (Elt F) S80x128 .f32),
         (⟨(Rect.unit (s := S80x128) (k1_off5 k) S1x16.size (k1_off5_inb k)), (k1_pay2 (View.readAt (Elt F) (Memref.whole cc1_scratch2 : Memref sig .scVector .vmem S80x128 .f32).view (Rect.unit (s := S80x128) (k1_off5 k) S1x16.size (k1_off5_inb k)).toLoadRect fj) (View.readAt (Elt F) (Memref.whole cc1_scratch4 : Memref sig .scVector .vmem S80x128 .f32).view (Rect.unit (s := S80x128) (k1_off5 k) S1x16.size (k1_off5_inb k)).toLoadRect fi))⟩ : View.Piece (Elt F) S80x128 .f32),
         (⟨(Rect.unit (s := S80x128) (k1_off4 k) S1x16.size (k1_off4_inb k)), (k1_pay1 (View.readAt (Elt F) (Memref.whole cc1_scratch2 : Memref sig .scVector .vmem S80x128 .f32).view (Rect.unit (s := S80x128) (k1_off4 k) S1x16.size (k1_off4_inb k)).toLoadRect fj) (View.readAt (Elt F) (Memref.whole cc1_scratch4 : Memref sig .scVector .vmem S80x128 .f32).view (Rect.unit (s := S80x128) (k1_off4 k) S1x16.size (k1_off4_inb k)).toLoadRect fi))⟩ : View.Piece (Elt F) S80x128 .f32)]
      = rowsUpTo fj fi fo (k.val + 1) := by
  funext y
  refine Eq.trans ?_ (rowsUpTo_succ fj fi fo k.val y)
  exact read_row8 (F := F) (Memref.whole cc1_scratch6 : Memref sig .scVector .vmem S80x128 .f32).view (rowsUpTo fj fi fo k.val) (reluRows fj fi) k.val
    _ (k1_off4_inb k) (k1_pay1 (View.readAt (Elt F) (Memref.whole cc1_scratch2 : Memref sig .scVector .vmem S80x128 .f32).view (Rect.unit (s := S80x128) (k1_off4 k) S1x16.size (k1_off4_inb k)).toLoadRect fj) (View.readAt (Elt F) (Memref.whole cc1_scratch4 : Memref sig .scVector .vmem S80x128 .f32).view (Rect.unit (s := S80x128) (k1_off4 k) S1x16.size (k1_off4_inb k)).toLoadRect fi))
    _ (k1_off5_inb k) (k1_pay2 (View.readAt (Elt F) (Memref.whole cc1_scratch2 : Memref sig .scVector .vmem S80x128 .f32).view (Rect.unit (s := S80x128) (k1_off5 k) S1x16.size (k1_off5_inb k)).toLoadRect fj) (View.readAt (Elt F) (Memref.whole cc1_scratch4 : Memref sig .scVector .vmem S80x128 .f32).view (Rect.unit (s := S80x128) (k1_off5 k) S1x16.size (k1_off5_inb k)).toLoadRect fi))
    _ (k1_off6_inb k) (k1_pay3 (View.readAt (Elt F) (Memref.whole cc1_scratch2 : Memref sig .scVector .vmem S80x128 .f32).view (Rect.unit (s := S80x128) (k1_off6 k) S1x16.size (k1_off6_inb k)).toLoadRect fj) (View.readAt (Elt F) (Memref.whole cc1_scratch4 : Memref sig .scVector .vmem S80x128 .f32).view (Rect.unit (s := S80x128) (k1_off6 k) S1x16.size (k1_off6_inb k)).toLoadRect fi))
    _ (k1_off7_inb k) (k1_pay5 (k1_pay4 (View.readAt (Elt F) (Memref.whole cc1_scratch2 : Memref sig .scVector .vmem S80x128 .f32).view (Rect.unit (s := S80x128) (k1_off7 k) S1x16.size (k1_off7_inb k)).toLoadRect fj)) (View.readAt (Elt F) (Memref.whole cc1_scratch4 : Memref sig .scVector .vmem S80x128 .f32).view (Rect.unit (s := S80x128) (k1_off7 k) S1x16.size (k1_off7_inb k)).toLoadRect fi))
    _ (k1_off8_inb k) (k1_pay6 (View.readAt (Elt F) (Memref.whole cc1_scratch2 : Memref sig .scVector .vmem S80x128 .f32).view (Rect.unit (s := S80x128) (k1_off8 k) S1x16.size (k1_off8_inb k)).toLoadRect fj) (View.readAt (Elt F) (Memref.whole cc1_scratch4 : Memref sig .scVector .vmem S80x128 .f32).view (Rect.unit (s := S80x128) (k1_off8 k) S1x16.size (k1_off8_inb k)).toLoadRect fi))
    _ (k1_off9_inb k) (k1_pay7 (View.readAt (Elt F) (Memref.whole cc1_scratch2 : Memref sig .scVector .vmem S80x128 .f32).view (Rect.unit (s := S80x128) (k1_off9 k) S1x16.size (k1_off9_inb k)).toLoadRect fj) (View.readAt (Elt F) (Memref.whole cc1_scratch4 : Memref sig .scVector .vmem S80x128 .f32).view (Rect.unit (s := S80x128) (k1_off9 k) S1x16.size (k1_off9_inb k)).toLoadRect fi))
    _ (k1_off10_inb k) (k1_pay19 (k1_pay8 (View.readAt (Elt F) (Memref.whole cc1_scratch2 : Memref sig .scVector .vmem S80x128 .f32).view (Rect.unit (s := S80x128) (k1_off10 k) S1x16.size (k1_off10_inb k)).toLoadRect fj) (View.readAt (Elt F) (Memref.whole cc1_scratch4 : Memref sig .scVector .vmem S80x128 .f32).view (Rect.unit (s := S80x128) (k1_off10 k) S1x16.size (k1_off10_inb k)).toLoadRect fi)) k1_pay9)
    _ (k1_off11_inb k) (k1_pay20 (View.readAt (Elt F) (Memref.whole cc1_scratch2 : Memref sig .scVector .vmem S80x128 .f32).view (Rect.unit (s := S80x128) (k1_off11 k) S1x16.size (k1_off11_inb k)).toLoadRect fj) (View.readAt (Elt F) (Memref.whole cc1_scratch4 : Memref sig .scVector .vmem S80x128 .f32).view (Rect.unit (s := S80x128) (k1_off11 k) S1x16.size (k1_off11_inb k)).toLoadRect fi))
    (k1_off4_eq k) (k1_off5_eq k) (k1_off6_eq k) (k1_off7_eq k) (k1_off8_eq k) (k1_off9_eq k) (k1_off10_eq k) (k1_off11_eq k)
    (fun x => pay_lane (F := F) _ _ x) (fun x => pay_lane (F := F) _ _ x) (fun x => pay_lane (F := F) _ _ x) (fun x => pay_lane (F := F) _ _ x) (fun x => pay_lane (F := F) _ _ x) (fun x => pay_lane (F := F) _ _ x) (fun x => pay_lane (F := F) _ _ x) (fun x => pay_lane (F := F) _ _ x)
    y

/-- Before trip r: the two gathered chunks as they were, the third scratch with its rows below r done. -/
def inv_t2 (fj : Buf (Elt F) ((thr d L).loc cc1_scratch2)) (fi : Buf (Elt F) ((thr d L).loc cc1_scratch4)) (fo : Buf (Elt F) ((thr d L).loc cc1_scratch6)) (r : ℕ) (_ : Unit) : sProp 𝕄 :=
  iprop(scr d L cc1_scratch2 fj ∗ scr d L cc1_scratch4 fi ∗ scr d L cc1_scratch6 (rowsUpTo fj fi fo r))

/-- The row loop of the even half of a trip of the outer loop: from the two gathered chunks in scratches 2 and 4,
    whatever scratch 6 holds, the loop leaves scratch 6 holding their rectified sum, the gathered chunks unchanged. -/
theorem rows_t2 (v2 c0 c1 : BitVec 32) (k1 : Fin k1_t1_loop.trips)
    (fj : Buf (Elt F) ((thr d L).loc cc1_scratch2)) (fi : Buf (Elt F) ((thr d L).loc cc1_scratch4)) (fo : Buf (Elt F) ((thr d L).loc cc1_scratch6)) :
    (iprop(scr d L cc1_scratch2 fj ∗ scr d L cc1_scratch4 fi ∗ scr d L cc1_scratch6 fo) : sProp 𝕄)
      ⊢ wp frame (wpE (defs₀ (F := F)) 𝒱₀ (thr d L) none) Set.univ (Scf.Loop.for k1_t2_loop k1_t2_ok ⟨⟩ (t2Body (F := F) L v2 c0 c1 k1))
          fun _ => iprop(scr d L cc1_scratch2 fj ∗ scr d L cc1_scratch4 fi ∗ scr d L cc1_scratch6 (reluRows fj fi)) := by
  iintro ⟨Hj, Hi, Ho⟩
  sl_for (inv_t2 d L fj fi fo) $$ [Hj Hi Ho]
  case region =>
    intro k _
    unfold inv_t2
    iintro ⟨Hj, Hi, Ho⟩
    sl_exec
    sl_step
    isplitl [Hj]; · iexact Hj
    isplitl [Hi]; · iexact Hi
    iapply (pts_eq (F := F) (trip_t2_eq (F := F) d L fj fi fo k))
    iexact Ho
  isplitl [Hj Hi Ho]
  · unfold inv_t2
    isplitl [Hj]; · iexact Hj
    isplitl [Hi]; · iexact Hi
    iapply (pts_eq (F := F) (rowsUpTo_zero fj fi fo).symm)
    iexact Ho
  · iintro %_ HI
    unfold inv_t2
    icases HI with ⟨Hj, Hi, Ho⟩
    isplitl [Hj]; · iexact Hj
    isplitl [Hi]; · iexact Hi
    iapply (pts_eq (F := F) (rowsUpTo_all fj fi fo (n := Scf.trips k1_t2_loop.lb k1_t2_loop.ub k1_t2_loop.st) (by decide)))
    iexact Ho

/-! ## The row loop `k1_t3_loop` -/

/-- Trip k's eight stores, over rows below k done, leave rows below k + 1 done. -/
theorem trip_t3_eq (fj : Buf (Elt F) ((thr d L).loc cc1_scratch3)) (fi : Buf (Elt F) ((thr d L).loc cc1_scratch5)) (fo : Buf (Elt F) ((thr d L).loc cc1_scratch7)) (k : Fin k1_t3_loop.trips) :
    (Memref.whole cc1_scratch7 : Memref sig .scVector .vmem S80x128 .f32).view.writes (Elt F) (rowsUpTo fj fi fo k.val)
        [(⟨(Rect.unit (s := S80x128) (k1_off23 k) S1x16.size (k1_off23_inb k)), (k1_pay31 (View.readAt (Elt F) (Memref.whole cc1_scratch3 : Memref sig .scVector .vmem S80x128 .f32).view (Rect.unit (s := S80x128) (k1_off23 k) S1x16.size (k1_off23_inb k)).toLoadRect fj) (View.readAt (Elt F) (Memref.whole cc1_scratch5 : Memref sig .scVector .vmem S80x128 .f32).view (Rect.unit (s := S80x128) (k1_off23 k) S1x16.size (k1_off23_inb k)).toLoadRect fi))⟩ : View.Piece (Elt F) S80x128 .f32),
         (⟨(Rect.unit (s := S80x128) (k1_off22 k) S1x16.size (k1_off22_inb k)), (k1_pay30 (k1_pay17 (View.readAt (Elt F) (Memref.whole cc1_scratch3 : Memref sig .scVector .vmem S80x128 .f32).view (Rect.unit (s := S80x128) (k1_off22 k) S1x16.size (k1_off22_inb k)).toLoadRect fj) (View.readAt (Elt F) (Memref.whole cc1_scratch5 : Memref sig .scVector .vmem S80x128 .f32).view (Rect.unit (s := S80x128) (k1_off22 k) S1x16.size (k1_off22_inb k)).toLoadRect fi)) k1_pay18)⟩ : View.Piece (Elt F) S80x128 .f32),
         (⟨(Rect.unit (s := S80x128) (k1_off21 k) S1x16.size (k1_off21_inb k)), (k1_pay16 (View.readAt (Elt F) (Memref.whole cc1_scratch3 : Memref sig .scVector .vmem S80x128 .f32).view (Rect.unit (s := S80x128) (k1_off21 k) S1x16.size (k1_off21_inb k)).toLoadRect fj) (View.readAt (Elt F) (Memref.whole cc1_scratch5 : Memref sig .scVector .vmem S80x128 .f32).view (Rect.unit (s := S80x128) (k1_off21 k) S1x16.size (k1_off21_inb k)).toLoadRect fi))⟩ : View.Piece (Elt F) S80x128 .f32),
         (⟨(Rect.unit (s := S80x128) (k1_off20 k) S1x16.size (k1_off20_inb k)), (k1_pay15 (View.readAt (Elt F) (Memref.whole cc1_scratch3 : Memref sig .scVector .vmem S80x128 .f32).view (Rect.unit (s := S80x128) (k1_off20 k) S1x16.size (k1_off20_inb k)).toLoadRect fj) (View.readAt (Elt F) (Memref.whole cc1_scratch5 : Memref sig .scVector .vmem S80x128 .f32).view (Rect.unit (s := S80x128) (k1_off20 k) S1x16.size (k1_off20_inb k)).toLoadRect fi))⟩ : View.Piece (Elt F) S80x128 .f32),
         (⟨(Rect.unit (s := S80x128) (k1_off19 k) S1x16.size (k1_off19_inb k)), (k1_pay14 (k1_pay13 (View.readAt (Elt F) (Memref.whole cc1_scratch3 : Memref sig .scVector .vmem S80x128 .f32).view (Rect.unit (s := S80x128) (k1_off19 k) S1x16.size (k1_off19_inb k)).toLoadRect fj)) (View.readAt (Elt F) (Memref.whole cc1_scratch5 : Memref sig .scVector .vmem S80x128 .f32).view (Rect.unit (s := S80x128) (k1_off19 k) S1x16.size (k1_off19_inb k)).toLoadRect fi))⟩ : View.Piece (Elt F) S80x128 .f32),
         (⟨(Rect.unit (s := S80x128) (k1_off18 k) S1x16.size (k1_off18_inb k)), (k1_pay12 (View.readAt (Elt F) (Memref.whole cc1_scratch3 : Memref sig .scVector .vmem S80x128 .f32).view (Rect.unit (s := S80x128) (k1_off18 k) S1x16.size (k1_off18_inb k)).toLoadRect fj) (View.readAt (Elt F) (Memref.whole cc1_scratch5 : Memref sig .scVector .vmem S80x128 .f32).view (Rect.unit (s := S80x128) (k1_off18 k) S1x16.size (k1_off18_inb k)).toLoadRect fi))⟩ : View.Piece (Elt F) S80x128 .f32),
         (⟨(Rect.unit (s := S80x128) (k1_off17 k) S1x16.size (k1_off17_inb k)), (k1_pay11 (View.readAt (Elt F) (Memref.whole cc1_scratch3 : Memref sig .scVector .vmem S80x128 .f32).view (Rect.unit (s := S80x128) (k1_off17 k) S1x16.size (k1_off17_inb k)).toLoadRect fj) (View.readAt (Elt F) (Memref.whole cc1_scratch5 : Memref sig .scVector .vmem S80x128 .f32).view (Rect.unit (s := S80x128) (k1_off17 k) S1x16.size (k1_off17_inb k)).toLoadRect fi))⟩ : View.Piece (Elt F) S80x128 .f32),
         (⟨(Rect.unit (s := S80x128) (k1_off16 k) S1x16.size (k1_off16_inb k)), (k1_pay10 (View.readAt (Elt F) (Memref.whole cc1_scratch3 : Memref sig .scVector .vmem S80x128 .f32).view (Rect.unit (s := S80x128) (k1_off16 k) S1x16.size (k1_off16_inb k)).toLoadRect fj) (View.readAt (Elt F) (Memref.whole cc1_scratch5 : Memref sig .scVector .vmem S80x128 .f32).view (Rect.unit (s := S80x128) (k1_off16 k) S1x16.size (k1_off16_inb k)).toLoadRect fi))⟩ : View.Piece (Elt F) S80x128 .f32)]
      = rowsUpTo fj fi fo (k.val + 1) := by
  funext y
  refine Eq.trans ?_ (rowsUpTo_succ fj fi fo k.val y)
  exact read_row8 (F := F) (Memref.whole cc1_scratch7 : Memref sig .scVector .vmem S80x128 .f32).view (rowsUpTo fj fi fo k.val) (reluRows fj fi) k.val
    _ (k1_off16_inb k) (k1_pay10 (View.readAt (Elt F) (Memref.whole cc1_scratch3 : Memref sig .scVector .vmem S80x128 .f32).view (Rect.unit (s := S80x128) (k1_off16 k) S1x16.size (k1_off16_inb k)).toLoadRect fj) (View.readAt (Elt F) (Memref.whole cc1_scratch5 : Memref sig .scVector .vmem S80x128 .f32).view (Rect.unit (s := S80x128) (k1_off16 k) S1x16.size (k1_off16_inb k)).toLoadRect fi))
    _ (k1_off17_inb k) (k1_pay11 (View.readAt (Elt F) (Memref.whole cc1_scratch3 : Memref sig .scVector .vmem S80x128 .f32).view (Rect.unit (s := S80x128) (k1_off17 k) S1x16.size (k1_off17_inb k)).toLoadRect fj) (View.readAt (Elt F) (Memref.whole cc1_scratch5 : Memref sig .scVector .vmem S80x128 .f32).view (Rect.unit (s := S80x128) (k1_off17 k) S1x16.size (k1_off17_inb k)).toLoadRect fi))
    _ (k1_off18_inb k) (k1_pay12 (View.readAt (Elt F) (Memref.whole cc1_scratch3 : Memref sig .scVector .vmem S80x128 .f32).view (Rect.unit (s := S80x128) (k1_off18 k) S1x16.size (k1_off18_inb k)).toLoadRect fj) (View.readAt (Elt F) (Memref.whole cc1_scratch5 : Memref sig .scVector .vmem S80x128 .f32).view (Rect.unit (s := S80x128) (k1_off18 k) S1x16.size (k1_off18_inb k)).toLoadRect fi))
    _ (k1_off19_inb k) (k1_pay14 (k1_pay13 (View.readAt (Elt F) (Memref.whole cc1_scratch3 : Memref sig .scVector .vmem S80x128 .f32).view (Rect.unit (s := S80x128) (k1_off19 k) S1x16.size (k1_off19_inb k)).toLoadRect fj)) (View.readAt (Elt F) (Memref.whole cc1_scratch5 : Memref sig .scVector .vmem S80x128 .f32).view (Rect.unit (s := S80x128) (k1_off19 k) S1x16.size (k1_off19_inb k)).toLoadRect fi))
    _ (k1_off20_inb k) (k1_pay15 (View.readAt (Elt F) (Memref.whole cc1_scratch3 : Memref sig .scVector .vmem S80x128 .f32).view (Rect.unit (s := S80x128) (k1_off20 k) S1x16.size (k1_off20_inb k)).toLoadRect fj) (View.readAt (Elt F) (Memref.whole cc1_scratch5 : Memref sig .scVector .vmem S80x128 .f32).view (Rect.unit (s := S80x128) (k1_off20 k) S1x16.size (k1_off20_inb k)).toLoadRect fi))
    _ (k1_off21_inb k) (k1_pay16 (View.readAt (Elt F) (Memref.whole cc1_scratch3 : Memref sig .scVector .vmem S80x128 .f32).view (Rect.unit (s := S80x128) (k1_off21 k) S1x16.size (k1_off21_inb k)).toLoadRect fj) (View.readAt (Elt F) (Memref.whole cc1_scratch5 : Memref sig .scVector .vmem S80x128 .f32).view (Rect.unit (s := S80x128) (k1_off21 k) S1x16.size (k1_off21_inb k)).toLoadRect fi))
    _ (k1_off22_inb k) (k1_pay30 (k1_pay17 (View.readAt (Elt F) (Memref.whole cc1_scratch3 : Memref sig .scVector .vmem S80x128 .f32).view (Rect.unit (s := S80x128) (k1_off22 k) S1x16.size (k1_off22_inb k)).toLoadRect fj) (View.readAt (Elt F) (Memref.whole cc1_scratch5 : Memref sig .scVector .vmem S80x128 .f32).view (Rect.unit (s := S80x128) (k1_off22 k) S1x16.size (k1_off22_inb k)).toLoadRect fi)) k1_pay18)
    _ (k1_off23_inb k) (k1_pay31 (View.readAt (Elt F) (Memref.whole cc1_scratch3 : Memref sig .scVector .vmem S80x128 .f32).view (Rect.unit (s := S80x128) (k1_off23 k) S1x16.size (k1_off23_inb k)).toLoadRect fj) (View.readAt (Elt F) (Memref.whole cc1_scratch5 : Memref sig .scVector .vmem S80x128 .f32).view (Rect.unit (s := S80x128) (k1_off23 k) S1x16.size (k1_off23_inb k)).toLoadRect fi))
    (k1_off16_eq k) (k1_off17_eq k) (k1_off18_eq k) (k1_off19_eq k) (k1_off20_eq k) (k1_off21_eq k) (k1_off22_eq k) (k1_off23_eq k)
    (fun x => pay_lane (F := F) _ _ x) (fun x => pay_lane (F := F) _ _ x) (fun x => pay_lane (F := F) _ _ x) (fun x => pay_lane (F := F) _ _ x) (fun x => pay_lane (F := F) _ _ x) (fun x => pay_lane (F := F) _ _ x) (fun x => pay_lane (F := F) _ _ x) (fun x => pay_lane (F := F) _ _ x)
    y

/-- Before trip r: the two gathered chunks as they were, the third scratch with its rows below r done. -/
def inv_t3 (fj : Buf (Elt F) ((thr d L).loc cc1_scratch3)) (fi : Buf (Elt F) ((thr d L).loc cc1_scratch5)) (fo : Buf (Elt F) ((thr d L).loc cc1_scratch7)) (r : ℕ) (_ : Unit) : sProp 𝕄 :=
  iprop(scr d L cc1_scratch3 fj ∗ scr d L cc1_scratch5 fi ∗ scr d L cc1_scratch7 (rowsUpTo fj fi fo r))

/-- The row loop of the odd half: scratches 3 and 5 into scratch 7. -/
theorem rows_t3 (v2 : BitVec 32)
    (fj : Buf (Elt F) ((thr d L).loc cc1_scratch3)) (fi : Buf (Elt F) ((thr d L).loc cc1_scratch5)) (fo : Buf (Elt F) ((thr d L).loc cc1_scratch7)) :
    (iprop(scr d L cc1_scratch3 fj ∗ scr d L cc1_scratch5 fi ∗ scr d L cc1_scratch7 fo) : sProp 𝕄)
      ⊢ wp frame (wpE (defs₀ (F := F)) 𝒱₀ (thr d L) none) Set.univ (Scf.Loop.for k1_t3_loop k1_t3_ok ⟨⟩ (t3Body (F := F) L v2))
          fun _ => iprop(scr d L cc1_scratch3 fj ∗ scr d L cc1_scratch5 fi ∗ scr d L cc1_scratch7 (reluRows fj fi)) := by
  iintro ⟨Hj, Hi, Ho⟩
  sl_for (inv_t3 d L fj fi fo) $$ [Hj Hi Ho]
  case region =>
    intro k _
    unfold inv_t3
    iintro ⟨Hj, Hi, Ho⟩
    sl_exec
    sl_step
    isplitl [Hj]; · iexact Hj
    isplitl [Hi]; · iexact Hi
    iapply (pts_eq (F := F) (trip_t3_eq (F := F) d L fj fi fo k))
    iexact Ho
  isplitl [Hj Hi Ho]
  · unfold inv_t3
    isplitl [Hj]; · iexact Hj
    isplitl [Hi]; · iexact Hi
    iapply (pts_eq (F := F) (rowsUpTo_zero fj fi fo).symm)
    iexact Ho
  · iintro %_ HI
    unfold inv_t3
    icases HI with ⟨Hj, Hi, Ho⟩
    isplitl [Hj]; · iexact Hj
    isplitl [Hi]; · iexact Hi
    iapply (pts_eq (F := F) (rowsUpTo_all fj fi fo (n := Scf.trips k1_t3_loop.lb k1_t3_loop.ub k1_t3_loop.st) (by decide)))
    iexact Ho

/-! ## The row loop `k1_t4_loop` -/

/-- Trip k's eight stores, over rows below k done, leave rows below k + 1 done. -/
theorem trip_t4_eq (fj : Buf (Elt F) ((thr d L).loc cc1_scratch2)) (fi : Buf (Elt F) ((thr d L).loc cc1_scratch4)) (fo : Buf (Elt F) ((thr d L).loc cc1_scratch6)) (k : Fin k1_t4_loop.trips) :
    (Memref.whole cc1_scratch6 : Memref sig .scVector .vmem S80x128 .f32).view.writes (Elt F) (rowsUpTo fj fi fo k.val)
        [(⟨(Rect.unit (s := S80x128) (k1_off34 k) S1x16.size (k1_off34_inb k)), (k1_pay33 (View.readAt (Elt F) (Memref.whole cc1_scratch2 : Memref sig .scVector .vmem S80x128 .f32).view (Rect.unit (s := S80x128) (k1_off34 k) S1x16.size (k1_off34_inb k)).toLoadRect fj) (View.readAt (Elt F) (Memref.whole cc1_scratch4 : Memref sig .scVector .vmem S80x128 .f32).view (Rect.unit (s := S80x128) (k1_off34 k) S1x16.size (k1_off34_inb k)).toLoadRect fi))⟩ : View.Piece (Elt F) S80x128 .f32),
         (⟨(Rect.unit (s := S80x128) (k1_off33 k) S1x16.size (k1_off33_inb k)), (k1_pay32 (k1_pay28 (View.readAt (Elt F) (Memref.whole cc1_scratch2 : Memref sig .scVector .vmem S80x128 .f32).view (Rect.unit (s := S80x128) (k1_off33 k) S1x16.size (k1_off33_inb k)).toLoadRect fj) (View.readAt (Elt F) (Memref.whole cc1_scratch4 : Memref sig .scVector .vmem S80x128 .f32).view (Rect.unit (s := S80x128) (k1_off33 k) S1x16.size (k1_off33_inb k)).toLoadRect fi)) k1_pay29)⟩ : View.Piece (Elt F) S80x128 .f32),
         (⟨(Rect.unit (s := S80x128) (k1_off32 k) S1x16.size (k1_off32_inb k)), (k1_pay27 (View.readAt (Elt F) (Memref.whole cc1_scratch2 : Memref sig .scVector .vmem S80x128 .f32).view (Rect.unit (s := S80x128) (k1_off32 k) S1x16.size (k1_off32_inb k)).toLoadRect fj) (View.readAt (Elt F) (Memref.whole cc1_scratch4 : Memref sig .scVector .vmem S80x128 .f32).view (Rect.unit (s := S80x128) (k1_off32 k) S1x16.size (k1_off32_inb k)).toLoadRect fi))⟩ : View.Piece (Elt F) S80x128 .f32),
         (⟨(Rect.unit (s := S80x128) (k1_off31 k) S1x16.size (k1_off31_inb k)), (k1_pay26 (View.readAt (Elt F) (Memref.whole cc1_scratch2 : Memref sig .scVector .vmem S80x128 .f32).view (Rect.unit (s := S80x128) (k1_off31 k) S1x16.size (k1_off31_inb k)).toLoadRect fj) (View.readAt (Elt F) (Memref.whole cc1_scratch4 : Memref sig .scVector .vmem S80x128 .f32).view (Rect.unit (s := S80x128) (k1_off31 k) S1x16.size (k1_off31_inb k)).toLoadRect fi))⟩ : View.Piece (Elt F) S80x128 .f32),
         (⟨(Rect.unit (s := S80x128) (k1_off30 k) S1x16.size (k1_off30_inb k)), (k1_pay25 (k1_pay24 (View.readAt (Elt F) (Memref.whole cc1_scratch2 : Memref sig .scVector .vmem S80x128 .f32).view (Rect.unit (s := S80x128) (k1_off30 k) S1x16.size (k1_off30_inb k)).toLoadRect fj)) (View.readAt (Elt F) (Memref.whole cc1_scratch4 : Memref sig .scVector .vmem S80x128 .f32).view (Rect.unit (s := S80x128) (k1_off30 k) S1x16.size (k1_off30_inb k)).toLoadRect fi))⟩ : View.Piece (Elt F) S80x128 .f32),
         (⟨(Rect.unit (s := S80x128) (k1_off29 k) S1x16.size (k1_off29_inb k)), (k1_pay23 (View.readAt (Elt F) (Memref.whole cc1_scratch2 : Memref sig .scVector .vmem S80x128 .f32).view (Rect.unit (s := S80x128) (k1_off29 k) S1x16.size (k1_off29_inb k)).toLoadRect fj) (View.readAt (Elt F) (Memref.whole cc1_scratch4 : Memref sig .scVector .vmem S80x128 .f32).view (Rect.unit (s := S80x128) (k1_off29 k) S1x16.size (k1_off29_inb k)).toLoadRect fi))⟩ : View.Piece (Elt F) S80x128 .f32),
         (⟨(Rect.unit (s := S80x128) (k1_off28 k) S1x16.size (k1_off28_inb k)), (k1_pay22 (View.readAt (Elt F) (Memref.whole cc1_scratch2 : Memref sig .scVector .vmem S80x128 .f32).view (Rect.unit (s := S80x128) (k1_off28 k) S1x16.size (k1_off28_inb k)).toLoadRect fj) (View.readAt (Elt F) (Memref.whole cc1_scratch4 : Memref sig .scVector .vmem S80x128 .f32).view (Rect.unit (s := S80x128) (k1_off28 k) S1x16.size (k1_off28_inb k)).toLoadRect fi))⟩ : View.Piece (Elt F) S80x128 .f32),
         (⟨(Rect.unit (s := S80x128) (k1_off27 k) S1x16.size (k1_off27_inb k)), (k1_pay21 (View.readAt (Elt F) (Memref.whole cc1_scratch2 : Memref sig .scVector .vmem S80x128 .f32).view (Rect.unit (s := S80x128) (k1_off27 k) S1x16.size (k1_off27_inb k)).toLoadRect fj) (View.readAt (Elt F) (Memref.whole cc1_scratch4 : Memref sig .scVector .vmem S80x128 .f32).view (Rect.unit (s := S80x128) (k1_off27 k) S1x16.size (k1_off27_inb k)).toLoadRect fi))⟩ : View.Piece (Elt F) S80x128 .f32)]
      = rowsUpTo fj fi fo (k.val + 1) := by
  funext y
  refine Eq.trans ?_ (rowsUpTo_succ fj fi fo k.val y)
  exact read_row8 (F := F) (Memref.whole cc1_scratch6 : Memref sig .scVector .vmem S80x128 .f32).view (rowsUpTo fj fi fo k.val) (reluRows fj fi) k.val
    _ (k1_off27_inb k) (k1_pay21 (View.readAt (Elt F) (Memref.whole cc1_scratch2 : Memref sig .scVector .vmem S80x128 .f32).view (Rect.unit (s := S80x128) (k1_off27 k) S1x16.size (k1_off27_inb k)).toLoadRect fj) (View.readAt (Elt F) (Memref.whole cc1_scratch4 : Memref sig .scVector .vmem S80x128 .f32).view (Rect.unit (s := S80x128) (k1_off27 k) S1x16.size (k1_off27_inb k)).toLoadRect fi))
    _ (k1_off28_inb k) (k1_pay22 (View.readAt (Elt F) (Memref.whole cc1_scratch2 : Memref sig .scVector .vmem S80x128 .f32).view (Rect.unit (s := S80x128) (k1_off28 k) S1x16.size (k1_off28_inb k)).toLoadRect fj) (View.readAt (Elt F) (Memref.whole cc1_scratch4 : Memref sig .scVector .vmem S80x128 .f32).view (Rect.unit (s := S80x128) (k1_off28 k) S1x16.size (k1_off28_inb k)).toLoadRect fi))
    _ (k1_off29_inb k) (k1_pay23 (View.readAt (Elt F) (Memref.whole cc1_scratch2 : Memref sig .scVector .vmem S80x128 .f32).view (Rect.unit (s := S80x128) (k1_off29 k) S1x16.size (k1_off29_inb k)).toLoadRect fj) (View.readAt (Elt F) (Memref.whole cc1_scratch4 : Memref sig .scVector .vmem S80x128 .f32).view (Rect.unit (s := S80x128) (k1_off29 k) S1x16.size (k1_off29_inb k)).toLoadRect fi))
    _ (k1_off30_inb k) (k1_pay25 (k1_pay24 (View.readAt (Elt F) (Memref.whole cc1_scratch2 : Memref sig .scVector .vmem S80x128 .f32).view (Rect.unit (s := S80x128) (k1_off30 k) S1x16.size (k1_off30_inb k)).toLoadRect fj)) (View.readAt (Elt F) (Memref.whole cc1_scratch4 : Memref sig .scVector .vmem S80x128 .f32).view (Rect.unit (s := S80x128) (k1_off30 k) S1x16.size (k1_off30_inb k)).toLoadRect fi))
    _ (k1_off31_inb k) (k1_pay26 (View.readAt (Elt F) (Memref.whole cc1_scratch2 : Memref sig .scVector .vmem S80x128 .f32).view (Rect.unit (s := S80x128) (k1_off31 k) S1x16.size (k1_off31_inb k)).toLoadRect fj) (View.readAt (Elt F) (Memref.whole cc1_scratch4 : Memref sig .scVector .vmem S80x128 .f32).view (Rect.unit (s := S80x128) (k1_off31 k) S1x16.size (k1_off31_inb k)).toLoadRect fi))
    _ (k1_off32_inb k) (k1_pay27 (View.readAt (Elt F) (Memref.whole cc1_scratch2 : Memref sig .scVector .vmem S80x128 .f32).view (Rect.unit (s := S80x128) (k1_off32 k) S1x16.size (k1_off32_inb k)).toLoadRect fj) (View.readAt (Elt F) (Memref.whole cc1_scratch4 : Memref sig .scVector .vmem S80x128 .f32).view (Rect.unit (s := S80x128) (k1_off32 k) S1x16.size (k1_off32_inb k)).toLoadRect fi))
    _ (k1_off33_inb k) (k1_pay32 (k1_pay28 (View.readAt (Elt F) (Memref.whole cc1_scratch2 : Memref sig .scVector .vmem S80x128 .f32).view (Rect.unit (s := S80x128) (k1_off33 k) S1x16.size (k1_off33_inb k)).toLoadRect fj) (View.readAt (Elt F) (Memref.whole cc1_scratch4 : Memref sig .scVector .vmem S80x128 .f32).view (Rect.unit (s := S80x128) (k1_off33 k) S1x16.size (k1_off33_inb k)).toLoadRect fi)) k1_pay29)
    _ (k1_off34_inb k) (k1_pay33 (View.readAt (Elt F) (Memref.whole cc1_scratch2 : Memref sig .scVector .vmem S80x128 .f32).view (Rect.unit (s := S80x128) (k1_off34 k) S1x16.size (k1_off34_inb k)).toLoadRect fj) (View.readAt (Elt F) (Memref.whole cc1_scratch4 : Memref sig .scVector .vmem S80x128 .f32).view (Rect.unit (s := S80x128) (k1_off34 k) S1x16.size (k1_off34_inb k)).toLoadRect fi))
    (k1_off27_eq k) (k1_off28_eq k) (k1_off29_eq k) (k1_off30_eq k) (k1_off31_eq k) (k1_off32_eq k) (k1_off33_eq k) (k1_off34_eq k)
    (fun x => pay_lane (F := F) _ _ x) (fun x => pay_lane (F := F) _ _ x) (fun x => pay_lane (F := F) _ _ x) (fun x => pay_lane (F := F) _ _ x) (fun x => pay_lane (F := F) _ _ x) (fun x => pay_lane (F := F) _ _ x) (fun x => pay_lane (F := F) _ _ x) (fun x => pay_lane (F := F) _ _ x)
    y

/-- Before trip r: the two gathered chunks as they were, the third scratch with its rows below r done. -/
def inv_t4 (fj : Buf (Elt F) ((thr d L).loc cc1_scratch2)) (fi : Buf (Elt F) ((thr d L).loc cc1_scratch4)) (fo : Buf (Elt F) ((thr d L).loc cc1_scratch6)) (r : ℕ) (_ : Unit) : sProp 𝕄 :=
  iprop(scr d L cc1_scratch2 fj ∗ scr d L cc1_scratch4 fi ∗ scr d L cc1_scratch6 (rowsUpTo fj fi fo r))

/-- The row loop of the last chunk, after the outer loop: scratches 2 and 4 into scratch 6. -/
theorem rows_t4 (v2 : BitVec 32)
    (fj : Buf (Elt F) ((thr d L).loc cc1_scratch2)) (fi : Buf (Elt F) ((thr d L).loc cc1_scratch4)) (fo : Buf (Elt F) ((thr d L).loc cc1_scratch6)) :
    (iprop(scr d L cc1_scratch2 fj ∗ scr d L cc1_scratch4 fi ∗ scr d L cc1_scratch6 fo) : sProp 𝕄)
      ⊢ wp frame (wpE (defs₀ (F := F)) 𝒱₀ (thr d L) none) Set.univ (Scf.Loop.for k1_t4_loop k1_t4_ok ⟨⟩ (t4Body (F := F) L v2))
          fun _ => iprop(scr d L cc1_scratch2 fj ∗ scr d L cc1_scratch4 fi ∗ scr d L cc1_scratch6 (reluRows fj fi)) := by
  iintro ⟨Hj, Hi, Ho⟩
  sl_for (inv_t4 d L fj fi fo) $$ [Hj Hi Ho]
  case region =>
    intro k _
    unfold inv_t4
    iintro ⟨Hj, Hi, Ho⟩
    sl_exec
    sl_step
    isplitl [Hj]; · iexact Hj
    isplitl [Hi]; · iexact Hi
    iapply (pts_eq (F := F) (trip_t4_eq (F := F) d L fj fi fo k))
    iexact Ho
  isplitl [Hj Hi Ho]
  · unfold inv_t4
    isplitl [Hj]; · iexact Hj
    isplitl [Hi]; · iexact Hi
    iapply (pts_eq (F := F) (rowsUpTo_zero fj fi fo).symm)
    iexact Ho
  · iintro %_ HI
    unfold inv_t4
    icases HI with ⟨Hj, Hi, Ho⟩
    isplitl [Hj]; · iexact Hj
    isplitl [Hi]; · iexact Hi
    iapply (pts_eq (F := F) (rowsUpTo_all fj fi fo (n := Scf.trips k1_t4_loop.lb k1_t4_loop.ub k1_t4_loop.st) (by decide)))
    iexact Ho

end Cert.Proof.OnKernel.Tile

end
-- ==== Proof.OnKernel.TilePieces.lean ====
/-
  One vector subcore's task of the gather kernel: the separable pieces of the body's proof — the row loops and
  the pure equations between what a gather and a copy-out write and the chunk functions of the task.
-/
import proofs.«206094_g687194767628_cont_sun_c4_81_43_alg».proof.Proof.OnKernel.TileContent
import proofs.«206094_g687194767628_cont_sun_c4_81_43_alg».proof.Proof.OnKernel.TileRows
-- ==== Proof.OnKernel.TileOut.lean ====
/-
  One vector subcore's task of the gather kernel: the bookkeeping of the task's rows of the result.

  The task's 10000 rows are 125 chunks of 80 rows. While the outer loop runs, the chunks below m are held at the
  value and the chunks from n on at whatever they hold; chunk n is taken out of the second part to be written, and
  comes back into the first once its copy has landed.
-/
import proofs.«206094_g687194767628_cont_sun_c4_81_43_alg».proof.Proof.OnKernel.TileLoop
import proofs.«206094_g687194767628_cont_sun_c4_81_43_alg».proof.Proof.OnKernel.TilePieces

noncomputable section

namespace Cert.Proof.OnKernel.Tile

open Cert.Kernel Cert.Kernel.Gen
open Cert.Proof.OnKernel

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid1.Coords)

/-! ## The row sets -/

theorem doneSetN_zero : doneSetN L 0 = ∅ := by
  refine Finset.eq_empty_of_forall_notMem fun x hx => ?_
  unfold doneSetN at hx
  rw [Finset.mem_filter] at hx
  omega

theorem mem_outSet (x : S320000x128.Idx) :
    x ∈ outSet L ↔ 10000 * wid L ≤ (x 0).val ∧ (x 0).val < 10000 * wid L + 10000 := by
  show x ∈ (Rect.unit (s := S320000x128) ![10000 * wid L, 0] ![10000, 128] (outRect_inb L)).set ↔ _
  rw [Rect.mem_set_unit]
  constructor
  · intro h
    exact h 0
  · intro h a
    match a with
    | ⟨0, _⟩ => exact h
    | ⟨1, _⟩ =>
      have h1 : (x 1).val < 128 := (x 1).isLt
      show 0 ≤ (x 1).val ∧ (x 1).val < 0 + 128; omega

theorem restSetN_zero : restSetN L 0 = outSet L := by
  ext x
  rw [mem_outSet]
  unfold restSetN
  rw [Finset.mem_filter]
  constructor
  · rintro ⟨-, h⟩
    omega
  · intro h
    exact ⟨Finset.mem_univ _, by omega⟩

theorem doneSetN_all : doneSetN L 125 = outSet L := by
  ext x
  rw [mem_outSet]
  unfold doneSetN
  rw [Finset.mem_filter]
  constructor
  · rintro ⟨-, h⟩
    omega
  · intro h
    exact ⟨Finset.mem_univ _, by omega⟩

/-- The chunks below m + 1 are the chunks below m and chunk m. -/
theorem doneSetN_succ (m : ℕ) : doneSetN L (m + 1) = doneSetN L m ∪ chunkSetN L m := by
  ext x
  unfold doneSetN chunkSetN
  rw [Finset.mem_union, Finset.mem_filter, Finset.mem_filter, Finset.mem_filter]
  constructor
  · rintro ⟨-, h⟩
    by_cases h' : (x 0).val < 10000 * wid L + 80 * m
    · exact .inl ⟨Finset.mem_univ _, by omega⟩
    · exact .inr ⟨Finset.mem_univ _, by omega⟩
  · rintro (⟨-, h⟩ | ⟨-, h⟩)
    · exact ⟨Finset.mem_univ _, by omega⟩
    · exact ⟨Finset.mem_univ _, by omega⟩

theorem doneSetN_disjoint_chunk (m : ℕ) : Disjoint (doneSetN L m) (chunkSetN L m) := by
  rw [Finset.disjoint_left]
  intro x hm hn
  unfold doneSetN at hm
  unfold chunkSetN at hn
  rw [Finset.mem_filter] at hm hn
  omega

/-- The chunks from n on are chunk n and the chunks from n + 1 on. -/
theorem restSetN_split (n : ℕ) (hn : n ≤ 124) : restSetN L n = chunkSetN L n ∪ restSetN L (n + 1) := by
  ext x
  unfold restSetN chunkSetN
  rw [Finset.mem_union, Finset.mem_filter, Finset.mem_filter, Finset.mem_filter]
  constructor
  · rintro ⟨-, h⟩
    by_cases h' : (x 0).val < 10000 * wid L + 80 * n + 80
    · exact .inl ⟨Finset.mem_univ _, by omega⟩
    · exact .inr ⟨Finset.mem_univ _, by omega⟩
  · rintro (⟨-, h⟩ | ⟨-, h⟩)
    · exact ⟨Finset.mem_univ _, by omega⟩
    · exact ⟨Finset.mem_univ _, by omega⟩

theorem chunk_disjoint_restSetN (n : ℕ) : Disjoint (chunkSetN L n) (restSetN L (n + 1)) := by
  rw [Finset.disjoint_left]
  intro x hm hn
  unfold chunkSetN at hm
  unfold restSetN at hn
  rw [Finset.mem_filter] at hm hn
  omega

/-! ## The holdings -/

variable (hv : Buf (Elt F) (hLoc d)) (sv : Buf (Elt F) (sLoc d)) (dv : Buf (Elt F) (dLoc d))

/-- At the start no chunk is done and every chunk is still to be written. -/
theorem outPart_init (fo : Buf (Elt F) (oLoc d)) :
    ((oV).view.loc (thr d L) ↦[outSet L]{fullShare} fo : sProp 𝕄) ⊢ outPart d L hv sv dv 0 0 := by
  unfold outPart
  rw [doneSetN_zero, restSetN_zero, pointsTo_empty]
  iintro H
  isplitr
  · iempintro
  · iexists fo; iexact H

/-- The chunks below m done and the chunks from n on to be written, with chunk n taken out to be written. -/
theorem outPart_take (m n : ℕ) (hn : n ≤ 124) :
    outPart d L hv sv dv m n
      ⊢ iprop(((oV).view.loc (thr d L) ↦[doneSetN L m]{fullShare} outRows d hv sv dv)
          ∗ (∃ f, (oV).view.loc (thr d L) ↦[chunkSetN L n]{fullShare} f) ∗ ∃ f, (oV).view.loc (thr d L) ↦[restSetN L (n + 1)]{fullShare} f) := by
  unfold outPart
  rw [restSetN_split L n hn]
  iintro ⟨Hd, %f, Hr⟩
  ihave ⟨Hc, Hr'⟩ := (pointsTo_union (chunk_disjoint_restSetN L n)).1 $$ Hr
  isplitl [Hd]; · iexact Hd
  isplitl [Hc]; · iexists f; iexact Hc
  iexists f; iexact Hr'

/-- The two parts are the holding. -/
theorem outPart_fold (m n : ℕ) :
    iprop(((oV).view.loc (thr d L) ↦[doneSetN L m]{fullShare} outRows d hv sv dv) ∗ ∃ f, (oV).view.loc (thr d L) ↦[restSetN L n]{fullShare} f)
      ⊢ outPart d L hv sv dv m n := by
  unfold outPart
  exact .rfl

theorem outPart_unfold (m n : ℕ) :
    outPart d L hv sv dv m n
      ⊢ iprop(((oV).view.loc (thr d L) ↦[doneSetN L m]{fullShare} outRows d hv sv dv) ∗ ∃ f, (oV).view.loc (thr d L) ↦[restSetN L n]{fullShare} f) := by
  unfold outPart
  exact .rfl

/-- Chunk m at the value joins the chunks below m at the value. -/
theorem done_extend (m : ℕ) :
    iprop(((oV).view.loc (thr d L) ↦[doneSetN L m]{fullShare} outRows d hv sv dv) ∗ ((oV).view.loc (thr d L) ↦[chunkSetN L m]{fullShare} outRows d hv sv dv))
      ⊢ ((oV).view.loc (thr d L) ↦[doneSetN L (m + 1)]{fullShare} outRows d hv sv dv : sProp 𝕄) := by
  rw [doneSetN_succ]
  exact (pointsTo_union (doneSetN_disjoint_chunk L m)).2

/-- After the last chunk every row of the task is done. -/
theorem done_all :
    ((oV).view.loc (thr d L) ↦[doneSetN L 125]{fullShare} outRows d hv sv dv : sProp 𝕄) ⊢ (oV).view.loc (thr d L) ↦[outSet L]{fullShare} outRows d hv sv dv := by
  rw [doneSetN_all]

omit [FloatOps F] in
/-- Chunk n's rows, held at some contents, as a copy-out's target names them. -/
theorem chunk_spell (n : ℕ) (hn : n ≤ 124) (off : Fin 2 → ℕ) (inb : ∀ a, off a + S80x128.size a ≤ S320000x128.size a)
    (hr : ∀ a, (Rect.unit (s := S320000x128) off S80x128.size inb).stride a = 1) (hoff : off = ![10000 * wid L + 80 * n, 0])
    (f : Buf (Elt F) (oLoc d)) :
    ((oV).view.loc (thr d L) ↦[chunkSetN L n]{fullShare} f : sProp 𝕄)
      = (oChunkM off inb hr).view.loc (thr d L) ↦[(oChunkM off inb hr).view.set]{fullShare} f :=
  chunk_held d L n hn off inb hr hoff f

end Cert.Proof.OnKernel.Tile

end
-- ==== Proof.OnKernel.TileCanon.lean ====
/-
  One vector subcore's task of the gather kernel: a gather in flight, from the form in which the run's steps
  leave it to the form the outer loop's invariant holds it in.

  The two forms differ only in how sets and contents are written: the destination scratch whole, written by one
  piece, holds that piece, which is the chunk gathered; the offset list's elements are row n of the index scratch;
  the node features sliced at the full rectangle are all of them.
-/
import proofs.«206094_g687194767628_cont_sun_c4_81_43_alg».proof.Proof.OnKernel.TileContent
import proofs.«206094_g687194767628_cont_sun_c4_81_43_alg».proof.Proof.OnKernel.TileLoop

noncomputable section

namespace Cert.Proof.OnKernel.Tile

open Cert.Kernel Cert.Kernel.Gen
open Cert.Proof.OnKernel

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid1.Coords)

omit [FloatOps F] in
/-- The node features sliced at the full rectangle are all of them. -/
theorem hS_set : (hS).view.set = Finset.univ := by
  show ((View.whole (main_v6_scv : Ref sig .scVector)).slice (Rect.unit (s := S10000x128) ![0, 0] S10000x128.size inb_S10000x128_S10000x128_0_0)).set = _
  rw [View.set_slice_whole]
  ext x
  rw [Rect.mem_set_unit]
  simp only [Finset.mem_univ, iff_true]
  intro a
  match a with
  | ⟨0, _⟩ =>
    have h : (x 0).val < 10000 := (x 0).isLt
    show 0 ≤ (x 0).val ∧ (x 0).val < 0 + 10000; omega
  | ⟨1, _⟩ =>
    have h : (x 1).val < 128 := (x 1).isLt
    show 0 ≤ (x 1).val ∧ (x 1).val < 0 + 128; omega

variable (q : PosShare TreeShare) (hv : Buf (Elt F) (hLoc d)) (sv : Buf (Elt F) (sLoc d)) (dv : Buf (Elt F) (dLoc d))

/-- Slot 0, source rows: the gather of chunk n as the run leaves it, beside the rest of the index scratch's share. -/
theorem gfJ0_intro (n : ℕ) (hn : n ≤ 124) (off : Fin 2 → ℕ) (inb : ∀ a, off a + S1x80.size a ≤ S125x80.size a)
    (hr : ∀ a, (Rect.unit (s := S125x80) off S1x80.size inb).stride a = 1) (hoff : off = ![n, 0])
    (f : Buf (Elt F) ((thr d L).loc cc1_scratch2)) (g : (Rect.whole cc1_scratch2.ty.shape).shape.Idx → Elt F cc1_scratch2.ty.elt)
    (hg : g = gath d hv (idxS d L sv) n) :
    (iprop(Transfers.Flight countersEmb (thr d L) (SemLoc.dma cc1_scratch8.sem) default 327680
        iprop((((Memref.whole cc1_scratch2 : Memref sig .scVector _ _ _).view.loc (thr d L) ↦[(Memref.whole cc1_scratch2 : Memref sig .scVector _ _ _).view.set]{fullShare}
                (Memref.whole cc1_scratch2 : Memref sig .scVector _ _ _).view.writes (Elt F) f [⟨Rect.whole cc1_scratch2.ty.shape, g⟩])
            ∗ ((Memref.whole cc1_scratch0 : Memref sig .scVector .vmem S125x80 .i32).view.loc (thr d L) ↦[(rowM0 off inb hr).view.set]{fullShare.left} idxS d L sv))
          ∗ ((hV).view.loc (thr d L) ↦[(hS).view.set]{q.left.left} hv))
      ∗ ((Memref.whole cc1_scratch0 : Memref sig .scVector .vmem S125x80 .i32).view.loc (thr d L) ↦[Finset.univ \ (rowM0 off inb hr).view.set]{fullShare.left} idxS d L sv)) : sProp 𝕄)
      ⊢ gfJ0 d L q hv sv n := by
  unfold gfJ0
  have hset : (Memref.whole cc1_scratch2 : Memref sig .scVector _ _ _).view.set = Finset.univ := View.set_whole _
  rw [rowM0_set n off inb hr hoff, hS_set, hset]
  refine sep_mono (Transfers.Flight_mono _ _ (sep_mono (sep_mono (Entails.of_eq (pointsTo_congr fun x _ => ?_)) .rfl) .rfl)) .rfl
  rw [writes_whole_scr, hg]

/-- Slot 0, destination rows. -/
theorem gfI0_intro (n : ℕ) (hn : n ≤ 124) (off : Fin 2 → ℕ) (inb : ∀ a, off a + S1x80.size a ≤ S125x80.size a)
    (hr : ∀ a, (Rect.unit (s := S125x80) off S1x80.size inb).stride a = 1) (hoff : off = ![n, 0])
    (f : Buf (Elt F) ((thr d L).loc cc1_scratch4)) (g : (Rect.whole cc1_scratch4.ty.shape).shape.Idx → Elt F cc1_scratch4.ty.elt)
    (hg : g = gath d hv (idxD d L dv) n) :
    (iprop(Transfers.Flight countersEmb (thr d L) (SemLoc.dma cc1_scratch10.sem) default 327680
        iprop((((Memref.whole cc1_scratch4 : Memref sig .scVector _ _ _).view.loc (thr d L) ↦[(Memref.whole cc1_scratch4 : Memref sig .scVector _ _ _).view.set]{fullShare}
                (Memref.whole cc1_scratch4 : Memref sig .scVector _ _ _).view.writes (Elt F) f [⟨Rect.whole cc1_scratch4.ty.shape, g⟩])
            ∗ ((Memref.whole cc1_scratch1 : Memref sig .scVector .vmem S125x80 .i32).view.loc (thr d L) ↦[(rowM1 off inb hr).view.set]{fullShare.left} idxD d L dv))
          ∗ ((hV).view.loc (thr d L) ↦[(hS).view.set]{q.left.right} hv))
      ∗ ((Memref.whole cc1_scratch1 : Memref sig .scVector .vmem S125x80 .i32).view.loc (thr d L) ↦[Finset.univ \ (rowM1 off inb hr).view.set]{fullShare.left} idxD d L dv)) : sProp 𝕄)
      ⊢ gfI0 d L q hv dv n := by
  unfold gfI0
  have hset : (Memref.whole cc1_scratch4 : Memref sig .scVector _ _ _).view.set = Finset.univ := View.set_whole _
  rw [rowM1_set n off inb hr hoff, hS_set, hset]
  refine sep_mono (Transfers.Flight_mono _ _ (sep_mono (sep_mono (Entails.of_eq (pointsTo_congr fun x _ => ?_)) .rfl) .rfl)) .rfl
  rw [writes_whole_scr, hg]

/-- Slot 1, source rows. -/
theorem gfJ1_intro (n : ℕ) (hn : n ≤ 124) (off : Fin 2 → ℕ) (inb : ∀ a, off a + S1x80.size a ≤ S125x80.size a)
    (hr : ∀ a, (Rect.unit (s := S125x80) off S1x80.size inb).stride a = 1) (hoff : off = ![n, 0])
    (f : Buf (Elt F) ((thr d L).loc cc1_scratch3)) (g : (Rect.whole cc1_scratch3.ty.shape).shape.Idx → Elt F cc1_scratch3.ty.elt)
    (hg : g = gath d hv (idxS d L sv) n) :
    (iprop(Transfers.Flight countersEmb (thr d L) (SemLoc.dma cc1_scratch9.sem) default 327680
        iprop((((Memref.whole cc1_scratch3 : Memref sig .scVector _ _ _).view.loc (thr d L) ↦[(Memref.whole cc1_scratch3 : Memref sig .scVector _ _ _).view.set]{fullShare}
                (Memref.whole cc1_scratch3 : Memref sig .scVector _ _ _).view.writes (Elt F) f [⟨Rect.whole cc1_scratch3.ty.shape, g⟩])
            ∗ ((Memref.whole cc1_scratch0 : Memref sig .scVector .vmem S125x80 .i32).view.loc (thr d L) ↦[(rowM0 off inb hr).view.set]{fullShare.right} idxS d L sv))
          ∗ ((hV).view.loc (thr d L) ↦[(hS).view.set]{q.right.left} hv))
      ∗ ((Memref.whole cc1_scratch0 : Memref sig .scVector .vmem S125x80 .i32).view.loc (thr d L) ↦[Finset.univ \ (rowM0 off inb hr).view.set]{fullShare.right} idxS d L sv)) : sProp 𝕄)
      ⊢ gfJ1 d L q hv sv n := by
  unfold gfJ1
  have hset : (Memref.whole cc1_scratch3 : Memref sig .scVector _ _ _).view.set = Finset.univ := View.set_whole _
  rw [rowM0_set n off inb hr hoff, hS_set, hset]
  refine sep_mono (Transfers.Flight_mono _ _ (sep_mono (sep_mono (Entails.of_eq (pointsTo_congr fun x _ => ?_)) .rfl) .rfl)) .rfl
  rw [writes_whole_scr, hg]

/-- Slot 1, destination rows. -/
theorem gfI1_intro (n : ℕ) (hn : n ≤ 124) (off : Fin 2 → ℕ) (inb : ∀ a, off a + S1x80.size a ≤ S125x80.size a)
    (hr : ∀ a, (Rect.unit (s := S125x80) off S1x80.size inb).stride a = 1) (hoff : off = ![n, 0])
    (f : Buf (Elt F) ((thr d L).loc cc1_scratch5)) (g : (Rect.whole cc1_scratch5.ty.shape).shape.Idx → Elt F cc1_scratch5.ty.elt)
    (hg : g = gath d hv (idxD d L dv) n) :
    (iprop(Transfers.Flight countersEmb (thr d L) (SemLoc.dma cc1_scratch11.sem) default 327680
        iprop((((Memref.whole cc1_scratch5 : Memref sig .scVector _ _ _).view.loc (thr d L) ↦[(Memref.whole cc1_scratch5 : Memref sig .scVector _ _ _).view.set]{fullShare}
                (Memref.whole cc1_scratch5 : Memref sig .scVector _ _ _).view.writes (Elt F) f [⟨Rect.whole cc1_scratch5.ty.shape, g⟩])
            ∗ ((Memref.whole cc1_scratch1 : Memref sig .scVector .vmem S125x80 .i32).view.loc (thr d L) ↦[(rowM1 off inb hr).view.set]{fullShare.right} idxD d L dv))
          ∗ ((hV).view.loc (thr d L) ↦[(hS).view.set]{q.right.right} hv))
      ∗ ((Memref.whole cc1_scratch1 : Memref sig .scVector .vmem S125x80 .i32).view.loc (thr d L) ↦[Finset.univ \ (rowM1 off inb hr).view.set]{fullShare.right} idxD d L dv)) : sProp 𝕄)
      ⊢ gfI1 d L q hv dv n := by
  unfold gfI1
  have hset : (Memref.whole cc1_scratch5 : Memref sig .scVector _ _ _).view.set = Finset.univ := View.set_whole _
  rw [rowM1_set n off inb hr hoff, hS_set, hset]
  refine sep_mono (Transfers.Flight_mono _ _ (sep_mono (sep_mono (Entails.of_eq (pointsTo_congr fun x _ => ?_)) .rfl) .rfl)) .rfl
  rw [writes_whole_scr, hg]

/-- Slot 0, source rows: the gather of chunk n as the run leaves it, its payload spelt as the gather rule spells it, beside the rest of the index scratch's share. -/
theorem gfJ0_issue (n : ℕ) (hn : n ≤ 124) (off : Fin 2 → ℕ) (inb : ∀ a, off a + S1x80.size a ≤ S125x80.size a)
    (hr : ∀ a, (Rect.unit (s := S125x80) off S1x80.size inb).stride a = 1) (hoff : off = ![n, 0])
    (f : Buf (Elt F) ((thr d L).loc cc1_scratch2))
    (hnum : S80.numel = S80x128.size gathers_S10000x128_S80x128.axis')
    (hin : ∀ x, ((rowM0 off inb hr).view.read (Elt F) (idxS d L sv) x).toNat < S10000x128.size gathers_S10000x128_S80x128.axis) :
    (iprop(Transfers.Flight countersEmb (thr d L) (SemLoc.dma cc1_scratch8.sem) default 327680
        iprop((((Memref.whole cc1_scratch2 : Memref sig .scVector _ _ _).view.loc (thr d L) ↦[(Memref.whole cc1_scratch2 : Memref sig .scVector _ _ _).view.set]{fullShare}
                (Memref.whole cc1_scratch2 : Memref sig .scVector _ _ _).view.writes (Elt F) f
                  [⟨Rect.whole cc1_scratch2.ty.shape, SparseCore.gatherPayload gathers_S10000x128_S80x128 ((hS).view.read (Elt F) hv)
                      (SparseCore.rows ((rowM0 off inb hr).view.read (Elt F) (idxS d L sv)) hnum hin)⟩])
            ∗ ((Memref.whole cc1_scratch0 : Memref sig .scVector .vmem S125x80 .i32).view.loc (thr d L) ↦[(rowM0 off inb hr).view.set]{fullShare.left} idxS d L sv))
          ∗ ((hV).view.loc (thr d L) ↦[(hS).view.set]{q.left.left} hv))
      ∗ ((Memref.whole cc1_scratch0 : Memref sig .scVector .vmem S125x80 .i32).view.loc (thr d L) ↦[Finset.univ \ (rowM0 off inb hr).view.set]{fullShare.left} idxS d L sv)) : sProp 𝕄)
      ⊢ gfJ0 d L q hv sv n :=
  gfJ0_intro d L q hv sv n hn off inb hr hoff f _ (gather_payload0 d hv (idxS d L sv) n hn off inb hr hoff hnum hin)

/-- Slot 0, destination rows. -/
theorem gfI0_issue (n : ℕ) (hn : n ≤ 124) (off : Fin 2 → ℕ) (inb : ∀ a, off a + S1x80.size a ≤ S125x80.size a)
    (hr : ∀ a, (Rect.unit (s := S125x80) off S1x80.size inb).stride a = 1) (hoff : off = ![n, 0])
    (f : Buf (Elt F) ((thr d L).loc cc1_scratch4))
    (hnum : S80.numel = S80x128.size gathers_S10000x128_S80x128.axis')
    (hin : ∀ x, ((rowM1 off inb hr).view.read (Elt F) (idxD d L dv) x).toNat < S10000x128.size gathers_S10000x128_S80x128.axis) :
    (iprop(Transfers.Flight countersEmb (thr d L) (SemLoc.dma cc1_scratch10.sem) default 327680
        iprop((((Memref.whole cc1_scratch4 : Memref sig .scVector _ _ _).view.loc (thr d L) ↦[(Memref.whole cc1_scratch4 : Memref sig .scVector _ _ _).view.set]{fullShare}
                (Memref.whole cc1_scratch4 : Memref sig .scVector _ _ _).view.writes (Elt F) f
                  [⟨Rect.whole cc1_scratch4.ty.shape, SparseCore.gatherPayload gathers_S10000x128_S80x128 ((hS).view.read (Elt F) hv)
                      (SparseCore.rows ((rowM1 off inb hr).view.read (Elt F) (idxD d L dv)) hnum hin)⟩])
            ∗ ((Memref.whole cc1_scratch1 : Memref sig .scVector .vmem S125x80 .i32).view.loc (thr d L) ↦[(rowM1 off inb hr).view.set]{fullShare.left} idxD d L dv))
          ∗ ((hV).view.loc (thr d L) ↦[(hS).view.set]{q.left.right} hv))
      ∗ ((Memref.whole cc1_scratch1 : Memref sig .scVector .vmem S125x80 .i32).view.loc (thr d L) ↦[Finset.univ \ (rowM1 off inb hr).view.set]{fullShare.left} idxD d L dv)) : sProp 𝕄)
      ⊢ gfI0 d L q hv dv n :=
  gfI0_intro d L q hv dv n hn off inb hr hoff f _ (gather_payload1 d hv (idxD d L dv) n hn off inb hr hoff hnum hin)

/-- Slot 1, source rows. -/
theorem gfJ1_issue (n : ℕ) (hn : n ≤ 124) (off : Fin 2 → ℕ) (inb : ∀ a, off a + S1x80.size a ≤ S125x80.size a)
    (hr : ∀ a, (Rect.unit (s := S125x80) off S1x80.size inb).stride a = 1) (hoff : off = ![n, 0])
    (f : Buf (Elt F) ((thr d L).loc cc1_scratch3))
    (hnum : S80.numel = S80x128.size gathers_S10000x128_S80x128.axis')
    (hin : ∀ x, ((rowM0 off inb hr).view.read (Elt F) (idxS d L sv) x).toNat < S10000x128.size gathers_S10000x128_S80x128.axis) :
    (iprop(Transfers.Flight countersEmb (thr d L) (SemLoc.dma cc1_scratch9.sem) default 327680
        iprop((((Memref.whole cc1_scratch3 : Memref sig .scVector _ _ _).view.loc (thr d L) ↦[(Memref.whole cc1_scratch3 : Memref sig .scVector _ _ _).view.set]{fullShare}
                (Memref.whole cc1_scratch3 : Memref sig .scVector _ _ _).view.writes (Elt F) f
                  [⟨Rect.whole cc1_scratch3.ty.shape, SparseCore.gatherPayload gathers_S10000x128_S80x128 ((hS).view.read (Elt F) hv)
                      (SparseCore.rows ((rowM0 off inb hr).view.read (Elt F) (idxS d L sv)) hnum hin)⟩])
            ∗ ((Memref.whole cc1_scratch0 : Memref sig .scVector .vmem S125x80 .i32).view.loc (thr d L) ↦[(rowM0 off inb hr).view.set]{fullShare.right} idxS d L sv))
          ∗ ((hV).view.loc (thr d L) ↦[(hS).view.set]{q.right.left} hv))
      ∗ ((Memref.whole cc1_scratch0 : Memref sig .scVector .vmem S125x80 .i32).view.loc (thr d L) ↦[Finset.univ \ (rowM0 off inb hr).view.set]{fullShare.right} idxS d L sv)) : sProp 𝕄)
      ⊢ gfJ1 d L q hv sv n :=
  gfJ1_intro d L q hv sv n hn off inb hr hoff f _ (gather_payload0 d hv (idxS d L sv) n hn off inb hr hoff hnum hin)

/-- Slot 1, destination rows. -/
theorem gfI1_issue (n : ℕ) (hn : n ≤ 124) (off : Fin 2 → ℕ) (inb : ∀ a, off a + S1x80.size a ≤ S125x80.size a)
    (hr : ∀ a, (Rect.unit (s := S125x80) off S1x80.size inb).stride a = 1) (hoff : off = ![n, 0])
    (f : Buf (Elt F) ((thr d L).loc cc1_scratch5))
    (hnum : S80.numel = S80x128.size gathers_S10000x128_S80x128.axis')
    (hin : ∀ x, ((rowM1 off inb hr).view.read (Elt F) (idxD d L dv) x).toNat < S10000x128.size gathers_S10000x128_S80x128.axis) :
    (iprop(Transfers.Flight countersEmb (thr d L) (SemLoc.dma cc1_scratch11.sem) default 327680
        iprop((((Memref.whole cc1_scratch5 : Memref sig .scVector _ _ _).view.loc (thr d L) ↦[(Memref.whole cc1_scratch5 : Memref sig .scVector _ _ _).view.set]{fullShare}
                (Memref.whole cc1_scratch5 : Memref sig .scVector _ _ _).view.writes (Elt F) f
                  [⟨Rect.whole cc1_scratch5.ty.shape, SparseCore.gatherPayload gathers_S10000x128_S80x128 ((hS).view.read (Elt F) hv)
                      (SparseCore.rows ((rowM1 off inb hr).view.read (Elt F) (idxD d L dv)) hnum hin)⟩])
            ∗ ((Memref.whole cc1_scratch1 : Memref sig .scVector .vmem S125x80 .i32).view.loc (thr d L) ↦[(rowM1 off inb hr).view.set]{fullShare.right} idxD d L dv))
          ∗ ((hV).view.loc (thr d L) ↦[(hS).view.set]{q.right.right} hv))
      ∗ ((Memref.whole cc1_scratch1 : Memref sig .scVector .vmem S125x80 .i32).view.loc (thr d L) ↦[Finset.univ \ (rowM1 off inb hr).view.set]{fullShare.right} idxD d L dv)) : sProp 𝕄)
      ⊢ gfI1 d L q hv dv n :=
  gfI1_intro d L q hv dv n hn off inb hr hoff f _ (gather_payload1 d hv (idxD d L dv) n hn off inb hr hoff hnum hin)

/-! ## A share of some elements beside the same share of the others -/

omit [FloatOps F] in
theorem part_rejoin {ℓ : Loc nD τ sig} {I : Finset (Idx ℓ)} {p : PosShare TreeShare} {f : Buf (Elt F) ℓ} :
    (iprop((ℓ ↦[I]{p} f) ∗ (ℓ ↦[Finset.univ \ I]{p} f)) : sProp 𝕄) ⊢ ℓ ↦{p} f :=
  (pointsTo_split_subset (Finset.subset_univ I)).2
omit [FloatOps F] in
theorem part_split {ℓ : Loc nD τ sig} (I : Finset (Idx ℓ)) {p : PosShare TreeShare} {f : Buf (Elt F) ℓ} :
    (ℓ ↦{p} f : sProp 𝕄) ⊢ iprop((ℓ ↦[I]{p} f) ∗ (ℓ ↦[Finset.univ \ I]{p} f)) :=
  (pointsTo_split_subset (Finset.subset_univ I)).1

/-! ## A copy-out in flight -/

omit [FloatOps F] in
/-- Eighty rows of the result written by one listed piece, the whole 80 × 128 block, hold that piece. -/
theorem writes_whole_chunk (off : Fin 2 → ℕ) (inb : ∀ a, off a + S80x128.size a ≤ S320000x128.size a)
    (hr : ∀ a, (Rect.unit (s := S320000x128) off S80x128.size inb).stride a = 1)
    (fo : Buf (Elt F) (oLoc d)) (g : (Rect.whole S80x128).shape.Idx → Elt F .f32) (y : S80x128.Idx) :
    (oChunkM off inb hr).view.writes (Elt F) fo [⟨Rect.whole S80x128, g⟩] ((oChunkM off inb hr).view.emb y) = g y := by
  have e : (Rect.whole S80x128).emb y = y := by
    funext a
    apply Fin.ext
    rw [Rect.emb_apply]
    show 0 + 1 * (y a).val = (y a).val
    omega
  have h := View.read_writes_cons_emb (oChunkM off inb hr).view fo (Rect.whole S80x128) g [] y
  rw [e, View.read_apply] at h
  exact h

/-- Slot 0: the copy-out of chunk n computed, as the run leaves it after the issue. -/
theorem ofl0_intro (n : ℕ) (hn : n ≤ 124) (off : Fin 2 → ℕ) (inb : ∀ a, off a + S80x128.size a ≤ S320000x128.size a)
    (hr : ∀ a, (Rect.unit (s := S320000x128) off S80x128.size inb).stride a = 1) (hoff : off = ![10000 * wid L + 80 * n, 0])
    (fo : Buf (Elt F) (oLoc d)) (g : (Rect.whole S80x128).shape.Idx → Elt F .f32) (hg : g = obC d L hv sv dv n)
    (f : Buf (Elt F) ((thr d L).loc cc1_scratch6)) (hf : f = obC d L hv sv dv n) :
    (Transfers.Flight countersEmb (thr d L) (SemLoc.dma cc1_scratch12.sem) default 327680
        iprop(((oChunkM off inb hr).view.loc (thr d L) ↦[(oChunkM off inb hr).view.set]{fullShare}
                (oChunkM off inb hr).view.writes (Elt F) fo [⟨Rect.whole S80x128, g⟩])
          ∗ ((Memref.whole cc1_scratch6 : Memref sig .scVector _ _ _).view.loc (thr d L) ↦[(Memref.whole cc1_scratch6 : Memref sig .scVector _ _ _).view.set]{fullShare} f)) : sProp 𝕄)
      ⊢ ofl0 d L hv sv dv n := by
  unfold ofl0
  have hset : (Memref.whole cc1_scratch6 : Memref sig .scVector _ _ _).view.set = Finset.univ := View.set_whole _
  subst hf
  rw [hset]
  refine Transfers.Flight_mono _ _ (sep_mono ?_ .rfl)
  rw [← chunk_done d L hv sv dv n hn off inb hr hoff fo]
  refine Entails.of_eq (pointsTo_congr fun x hx => ?_)
  obtain ⟨y, -, rfl⟩ := Finset.mem_map.mp hx
  rw [writes_whole_chunk, View.write_emb_of_mem _ _ (Finset.mem_univ y), hg]
  rfl

/-- Slot 1. -/
theorem ofl1_intro (n : ℕ) (hn : n ≤ 124) (off : Fin 2 → ℕ) (inb : ∀ a, off a + S80x128.size a ≤ S320000x128.size a)
    (hr : ∀ a, (Rect.unit (s := S320000x128) off S80x128.size inb).stride a = 1) (hoff : off = ![10000 * wid L + 80 * n, 0])
    (fo : Buf (Elt F) (oLoc d)) (g : (Rect.whole S80x128).shape.Idx → Elt F .f32) (hg : g = obC d L hv sv dv n)
    (f : Buf (Elt F) ((thr d L).loc cc1_scratch7)) (hf : f = obC d L hv sv dv n) :
    (Transfers.Flight countersEmb (thr d L) (SemLoc.dma cc1_scratch13.sem) default 327680
        iprop(((oChunkM off inb hr).view.loc (thr d L) ↦[(oChunkM off inb hr).view.set]{fullShare}
                (oChunkM off inb hr).view.writes (Elt F) fo [⟨Rect.whole S80x128, g⟩])
          ∗ ((Memref.whole cc1_scratch7 : Memref sig .scVector _ _ _).view.loc (thr d L) ↦[(Memref.whole cc1_scratch7 : Memref sig .scVector _ _ _).view.set]{fullShare} f)) : sProp 𝕄)
      ⊢ ofl1 d L hv sv dv n := by
  unfold ofl1
  have hset : (Memref.whole cc1_scratch7 : Memref sig .scVector _ _ _).view.set = Finset.univ := View.set_whole _
  subst hf
  rw [hset]
  refine Transfers.Flight_mono _ _ (sep_mono ?_ .rfl)
  rw [← chunk_done d L hv sv dv n hn off inb hr hoff fo]
  refine Entails.of_eq (pointsTo_congr fun x hx => ?_)
  obtain ⟨y, -, rfl⟩ := Finset.mem_map.mp hx
  rw [writes_whole_chunk, View.write_emb_of_mem _ _ (Finset.mem_univ y), hg]
  rfl

end Cert.Proof.OnKernel.Tile

end
-- ==== Proof.OnKernel.TileHalf0.lean ====
/-
  One vector subcore's task of the gather kernel: the even half of a trip of the outer loop. The two gathers of the
  trip's even chunk land; from the second trip on the copy-out of the chunk two before it is waited for; the chunk
  is computed row by row and its copy-out started; the gathers of the chunk two after it are issued.
-/
import proofs.«206094_g687194767628_cont_sun_c4_81_43_alg».proof.Proof.OnKernel.TileLoop
import proofs.«206094_g687194767628_cont_sun_c4_81_43_alg».proof.Proof.OnKernel.TilePieces
import proofs.«206094_g687194767628_cont_sun_c4_81_43_alg».proof.Proof.OnKernel.TileOut
import proofs.«206094_g687194767628_cont_sun_c4_81_43_alg».proof.Proof.OnKernel.TileCanon

set_option maxRecDepth 16384

noncomputable section

namespace Cert.Proof.OnKernel.Tile

open Cert.Kernel Cert.Kernel.Gen
open Cert.Proof.OnKernel

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid1.Coords)

variable (q : PosShare TreeShare) (hv : Buf (Elt F) (hLoc d)) (sv : Buf (Elt F) (sLoc d)) (dv : Buf (Elt F) (dLoc d))

/-- The even half of trip k on the task's operands. -/
abbrev half0Prog (v2 : BitVec 32) (k : Fin k1_t1_loop.trips) :=
  k1_part5 (F := F) L hV (Memref.isWhole_whole _) sV (Memref.isWhole_whole _) dV (Memref.isWhole_whole _) oV (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    (Memref.whole cc1_scratch4) (Memref.isWhole_whole _) (Memref.whole cc1_scratch5) (Memref.isWhole_whole _)
    (Memref.whole cc1_scratch6) (Memref.isWhole_whole _) (Memref.whole cc1_scratch7) (Memref.isWhole_whole _)
    cc1_scratch8 cc1_scratch9 cc1_scratch10 cc1_scratch11 cc1_scratch12 cc1_scratch13 cc1_scoped0 cc1_scoped1 v2 0#32 1#32 k

set_option maxRecDepth 65536 in
/-- The even half of trip k: chunk 2k's gathers land, the copy-out of chunk 2k - 2 (from the second trip on) is
    waited for, chunk 2k is computed and its copy-out started, chunk 2k + 2's gathers are issued. -/
theorem half0 (hidx : IdxOK (F := F) d L sv dv) (O : CellTallies nD τ sig (HIx 1)) (W0 : Waits sig (HIx 1))
    (v2 : BitVec 32) (k : Fin k1_t1_loop.trips) :
    (iprop(Transfers.MayWaits (thr d L) (none : HIx 1) O
        ∗ gfJ0 d L q hv sv (2 * k.val) ∗ gfI0 d L q hv dv (2 * k.val)
        ∗ (if k.val = 0 then idleOut0 d L else ofl0 d L hv sv dv (2 * k.val - 2))
        ∗ outPart d L hv sv dv (2 * k.val - 2) (2 * k.val)
        ∗ owes (thr d L) O W0) : sProp 𝕄)
      ⊢ wp frame (wpE (defs₀ (F := F)) 𝒱₀ (thr d L) none) Set.univ (half0Prog (F := F) L v2 k)
          fun _ => iprop(gfJ0 d L q hv sv (2 * k.val + 2) ∗ gfI0 d L q hv dv (2 * k.val + 2)
            ∗ ofl0 d L hv sv dv (2 * k.val)
            ∗ outPart d L hv sv dv (2 * k.val - 1) (2 * k.val + 1)
            ∗ ∃ W1, ⌜∀ p ∈ W1, p ∈ W0 ∨ p.2 = none⌝ ∗ owes (thr d L) O W1) := by
  have hk62 : k.val < 62 := lt_of_lt_of_le k.isLt k1_t1_abs.2.1
  have k1_h2 : k1_cond2 k = 1#1 := by revert k; decide
  have hc1z : k.val = 0 → ¬ (k1_cond1 k = 1#1) := by revert k; decide
  have hc1p : k.val ≠ 0 → k1_cond1 k = 1#1 := by revert k; decide
  have hoff12 : k1_off12 L k = ![10000 * wid L + 80 * (2 * k.val), 0] := by
    rw [k1_off12_eq]
    have e : 20000 * (L 1).val + 10000 * (L 0).val + 160 * k.val = 10000 * wid L + 80 * (2 * k.val) := by unfold wid; omega
    rw [e]
  have hoff13 : k1_off13 k = ![2 * k.val + 2, 0] := k1_off13_eq k
  have hsubC : chunkSetN L (2 * k.val) ⊆ restSetN L (2 * k.val) := by
    intro x hx
    simp only [chunkSetN, restSetN, Finset.mem_filter, Finset.mem_univ, true_and] at hx ⊢
    omega
  have hrestC : restSetN L (2 * k.val) \ chunkSetN L (2 * k.val) = restSetN L (2 * k.val + 1) := by
    ext x
    simp only [chunkSetN, restSetN, Finset.mem_sdiff, Finset.mem_filter, Finset.mem_univ, true_and]
    omega
  have hinS : ∀ (off : Fin 2 → ℕ) (inb : ∀ a, off a + S1x80.size a ≤ S125x80.size a) (hr : ∀ a, (Rect.unit (s := S125x80) off S1x80.size inb).stride a = 1) x,
      ((((Memref.whole cc1_scratch0 : Memref sig .scVector .vmem S125x80 .i32).slice (Rect.unit (s := S125x80) off S1x80.size inb) hr).squeeze S80 squeezes_S1x80_S80).view.read (Elt F) (idxS d L sv) x).toNat
        < S10000x128.size gathers_S10000x128_S80x128.axis := by
    intro off inb hr x
    rw [View.read_apply]
    exact idxS_lt d L hidx _
  have hinD : ∀ (off : Fin 2 → ℕ) (inb : ∀ a, off a + S1x80.size a ≤ S125x80.size a) (hr : ∀ a, (Rect.unit (s := S125x80) off S1x80.size inb).stride a = 1) x,
      ((((Memref.whole cc1_scratch1 : Memref sig .scVector .vmem S125x80 .i32).slice (Rect.unit (s := S125x80) off S1x80.size inb) hr).squeeze S80 squeezes_S1x80_S80).view.read (Elt F) (idxD d L dv) x).toNat
        < S10000x128.size gathers_S10000x128_S80x128.axis := by
    intro off inb hr x
    rw [View.read_apply]
    exact idxD_lt d L hidx _
  simp only [half0Prog, k1_part5_eq_skeleton]; unfold k1_part5_skel
  rw [gfJ0.eq_1 d L q hv sv (2 * k.val), gfI0.eq_1 d L q hv dv (2 * k.val)]
  by_cases hk0 : k.val = 0
  · have k1_h1 : ¬ (k1_cond1 k = 1#1) := hc1z hk0
    have e1 : 2 * k.val - 1 = 2 * k.val - 2 := by omega
    rw [if_pos hk0, e1]; unfold idleOut0
    iintro ⟨#Hmw, ⟨HfJ, HrJ⟩, ⟨HfI, HrI⟩, ⟨⟨%f6, Hb6⟩, Hso0⟩, Hout, HO⟩
    ihave ⟨Hdone, ⟨%fch, Hch⟩, ⟨%frest, Hrest⟩⟩ := (outPart_take d L hv sv dv (2 * k.val - 2) (2 * k.val) (by omega)) $$ Hout
    sl_exec
    icases HfJ_dst with ⟨Hrj, HidxJ⟩
    icases HfI_dst with ⟨Hri, HidxI⟩
    iapply (triple_bind (F := F) (rows_t2 (F := F) d L v2 0#32 1#32 k _ _ f6))
    isplitl [Hrj Hri Hb6]
    · isplitl [Hrj]; · iexact Hrj
      isplitl [Hri]; · iexact Hri
      iexact Hb6
    iintro %_ ⟨Hrj, Hri, Hb6⟩
    ihave Hch' := (Entails.of_eq (chunk_spell d L (2 * k.val) (by omega) (k1_off12 L k) (k1_off12_inb L k) (fun _ => rfl) hoff12 fch)) $$ Hch
    ihave Hi0 : ((Memref.whole cc1_scratch0 : Memref sig .scVector .vmem S125x80 .i32).view.loc (thr d L) ↦{fullShare.left} idxS d L sv) $$ [HidxJ HrJ]
    · iapply (pointsTo_split_subset (Finset.subset_univ (rowSetN (2 * k.val)))).2
      isplitl [HidxJ]; · iexact HidxJ
      iexact HrJ
    ihave Hi1 : ((Memref.whole cc1_scratch1 : Memref sig .scVector .vmem S125x80 .i32).view.loc (thr d L) ↦{fullShare.left} idxD d L dv) $$ [HidxI HrI]
    · iapply (pointsTo_split_subset (Finset.subset_univ (rowSetN (2 * k.val)))).2
      isplitl [HidxI]; · iexact HidxI
      iexact HrI
    ihave XsI := (hid_in (F := F) _) $$ HfI_src
    sl_exec (disch := exact View.amount_pos _ _ (show 0 < S80x128.numel by decide))
    ihave HfI_src := (hid_out (F := F) _) $$ XsI
    sl_exec
    rw [wp_ret]
    imodintro
    isplitl [HfJ Hi0]
    · iapply (gfJ0_intro d L q hv sv (2 * k.val + 2) (by omega) (k1_off13 k) _ _ hoff13 _ _
        (gather_payload0 d hv (idxS d L sv) (2 * k.val + 2) (by omega) (k1_off13 k) _ _ hoff13 _ _))
      isplitl [HfJ]; · iexact HfJ
      iexact Hi0
    isplitl [HfI Hi1]
    · iapply (gfI0_intro d L q hv dv (2 * k.val + 2) (by omega) (k1_off13 k) _ _ hoff13 _ _
        (gather_payload1 d hv (idxD d L dv) (2 * k.val + 2) (by omega) (k1_off13 k) _ _ hoff13 _ _))
      isplitl [HfI]; · iexact HfI
      iexact Hi1
    isplitl [Hso0]
    · iapply (ofl0_intro d L hv sv dv (2 * k.val) (by omega) (k1_off12 L k) _ _ hoff12 fch _ (funext fun _ => rfl) _ (obC_eq d L hv sv dv (2 * k.val)).symm)
      iexact Hso0
    isplitl [Hdone Hrest]
    · iapply (outPart_fold d L hv sv dv (2 * k.val - 2) (2 * k.val + 1))
      isplitl [Hdone]; · iexact Hdone
      iexists frest; iexact Hrest
    iexists _; isplitr
    swap; · iexact HO
    ipureintro
    intro p hp
    simp only [Finset.mem_insert] at hp
    rcases hp with rfl | rfl | hp
    · exact Or.inr rfl
    · exact Or.inr rfl
    · exact Or.inl hp
  · have k1_h1 : k1_cond1 k = 1#1 := hc1p hk0
    have e2 : 2 * k.val - 2 + 1 = 2 * k.val - 1 := by omega
    rw [if_neg hk0, ofl0.eq_1 d L hv sv dv (2 * k.val - 2)]
    iintro ⟨#Hmw, ⟨HfJ, HrJ⟩, ⟨HfI, HrI⟩, Hof, Hout, HO⟩
    ihave ⟨Hdone, ⟨%fch, Hch⟩, ⟨%frest, Hrest⟩⟩ := (outPart_take d L hv sv dv (2 * k.val - 2) (2 * k.val) (by omega)) $$ Hout
    sl_exec
    ihave Hdone' := (done_extend d L hv sv dv (2 * k.val - 2)) $$ [Hdone Hof_dst]
    · isplitl [Hdone]; · iexact Hdone
      iexact Hof_dst
    rw [e2]
    ihave Hdone : ((oV).view.loc (thr d L) ↦[doneSetN L (2 * k.val - 1)]{fullShare} outRows d hv sv dv) $$ [Hdone']
    · iexact Hdone'
    ihave Hso0 : (semVal (cellOf d L cc1_scratch12.sem) 0 : sProp 𝕄) $$ [Hof]
    · iexact Hof
    ihave Hb6 : (scr d L cc1_scratch6 (obC d L hv sv dv (2 * k.val - 2))) $$ [Hof_src]
    · iexact Hof_src
    icases HfJ_dst with ⟨Hrj, HidxJ⟩
    icases HfI_dst with ⟨Hri, HidxI⟩
    iapply (triple_bind (F := F) (rows_t2 (F := F) d L v2 0#32 1#32 k _ _ (obC d L hv sv dv (2 * k.val - 2))))
    isplitl [Hrj Hri Hb6]
    · isplitl [Hrj]; · iexact Hrj
      isplitl [Hri]; · iexact Hri
      iexact Hb6
    iintro %_ ⟨Hrj, Hri, Hb6⟩
    ihave Hch' := (Entails.of_eq (chunk_spell d L (2 * k.val) (by omega) (k1_off12 L k) (k1_off12_inb L k) (fun _ => rfl) hoff12 fch)) $$ Hch
    ihave Hi0 : ((Memref.whole cc1_scratch0 : Memref sig .scVector .vmem S125x80 .i32).view.loc (thr d L) ↦{fullShare.left} idxS d L sv) $$ [HidxJ HrJ]
    · iapply (pointsTo_split_subset (Finset.subset_univ (rowSetN (2 * k.val)))).2
      isplitl [HidxJ]; · iexact HidxJ
      iexact HrJ
    ihave Hi1 : ((Memref.whole cc1_scratch1 : Memref sig .scVector .vmem S125x80 .i32).view.loc (thr d L) ↦{fullShare.left} idxD d L dv) $$ [HidxI HrI]
    · iapply (pointsTo_split_subset (Finset.subset_univ (rowSetN (2 * k.val)))).2
      isplitl [HidxI]; · iexact HidxI
      iexact HrI
    ihave XsI := (hid_in (F := F) _) $$ HfI_src
    sl_exec (disch := exact View.amount_pos _ _ (show 0 < S80x128.numel by decide))
    ihave HfI_src := (hid_out (F := F) _) $$ XsI
    sl_exec
    rw [wp_ret]
    imodintro
    isplitl [HfJ Hi0]
    · iapply (gfJ0_intro d L q hv sv (2 * k.val + 2) (by omega) (k1_off13 k) _ _ hoff13 _ _
        (gather_payload0 d hv (idxS d L sv) (2 * k.val + 2) (by omega) (k1_off13 k) _ _ hoff13 _ _))
      isplitl [HfJ]; · iexact HfJ
      iexact Hi0
    isplitl [HfI Hi1]
    · iapply (gfI0_intro d L q hv dv (2 * k.val + 2) (by omega) (k1_off13 k) _ _ hoff13 _ _
        (gather_payload1 d hv (idxD d L dv) (2 * k.val + 2) (by omega) (k1_off13 k) _ _ hoff13 _ _))
      isplitl [HfI]; · iexact HfI
      iexact Hi1
    isplitl [Hso0]
    · iapply (ofl0_intro d L hv sv dv (2 * k.val) (by omega) (k1_off12 L k) _ _ hoff12 fch _ (funext fun _ => rfl) _ (obC_eq d L hv sv dv (2 * k.val)).symm)
      iexact Hso0
    isplitl [Hdone Hrest]
    · iapply (outPart_fold d L hv sv dv (2 * k.val - 1) (2 * k.val + 1))
      isplitl [Hdone]; · iexact Hdone
      iexists frest; iexact Hrest
    iexists _; isplitr
    swap; · iexact HO
    ipureintro
    intro p hp
    simp only [Finset.mem_insert] at hp
    rcases hp with rfl | rfl | rfl | hp
    · exact Or.inr rfl
    · exact Or.inr rfl
    · exact Or.inr rfl
    · exact Or.inl hp

end Cert.Proof.OnKernel.Tile

end
-- ==== Proof.OnKernel.TileHalf1.lean ====
/-
  One vector subcore's task of the gather kernel: the odd half of a trip of the outer loop.
  Chunk 2k + 1 at slot 1: its two gathers land, the copy-out of chunk 2k - 1 (from the second trip on) is
  waited for, chunk 2k + 1 is computed and its copy-out started, chunk 2k + 3's gathers are issued unless
  past the last chunk.
-/
import proofs.«206094_g687194767628_cont_sun_c4_81_43_alg».proof.Proof.OnKernel.TileLoop
import proofs.«206094_g687194767628_cont_sun_c4_81_43_alg».proof.Proof.OnKernel.TilePieces
import proofs.«206094_g687194767628_cont_sun_c4_81_43_alg».proof.Proof.OnKernel.TileCanon

noncomputable section

namespace Cert.Proof.OnKernel.Tile

open Cert.Kernel Cert.Kernel.Gen
open Cert.Proof.OnKernel

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid1.Coords)

variable (q : PosShare TreeShare) (hv : Buf (Elt F) (hLoc d)) (sv : Buf (Elt F) (sLoc d)) (dv : Buf (Elt F) (dLoc d))

/-- The odd half of trip k on the task's operands: the rest of the trip's region after the even half. -/
noncomputable def half1Prog (v2 : BitVec 32) (k : Fin k1_t1_loop.trips) :
    Prog (TpuEff nD τ sig (Elt F) Λ₀ (.scVector (cV L) (jV L))) Unit := do
  SparseCore.waitIndirectGather cc1_scratch9.sem hS (Memref.whole cc1_scratch3) (View.wordExact_bits rfl) (Memref.isWhole_whole _).wordExact
  SparseCore.waitIndirectGather cc1_scratch11.sem hS (Memref.whole cc1_scratch5) (View.wordExact_bits rfl) (Memref.isWhole_whole _).wordExact
  if k1_h3 : k1_cond3 k = 1#1 then do
    Prog.lift (.waitDma2 cc1_scratch13.sem (Memref.whole cc1_scratch7) (oChunkM (k1_off15 L) (k1_off15_inb L k k1_h3) (fun _ => rfl)) (Memref.isWhole_whole _).wordExact (View.wordExact_bits rfl))
    pure ⟨⟩
  else do
    pure ⟨⟩
  Scf.Loop.for k1_t3_loop k1_t3_ok ⟨⟩ (t3Body (F := F) L v2)
  Prog.lift (.enqueueDma (Memref.whole cc1_scratch7) (.here (oChunkM (k1_off24 L k) (k1_off24_inb L k) (fun _ => rfl))) (.dma cc1_scratch13.sem) (Memref.isWhole_whole _).wordExact (View.wordExact_bits rfl) ⟨Or.inl rfl, trivial⟩)
  if k1_h4 : k1_cond4 k = 1#1 then do
    SparseCore.enqueueIndirectGather rfl hS (Memref.whole cc1_scratch3) gathers_S10000x128_S80x128 (rowM0 (k1_off25 k) (k1_off25_inb k k1_h4) (fun _ => rfl)) rfl cc1_scratch9.sem (View.wordExact_bits rfl) rfl (Or.inl rfl)
    SparseCore.enqueueIndirectGather rfl hS (Memref.whole cc1_scratch5) gathers_S10000x128_S80x128 (rowM1 (k1_off25 k) (k1_off25_inb k k1_h4) (fun _ => rfl)) rfl cc1_scratch11.sem (View.wordExact_bits rfl) rfl (Or.inl rfl)
    pure ⟨⟩
  else do
    pure ⟨⟩
  pure ⟨⟩

set_option maxRecDepth 65536 in
/-- A trip's region is its even half followed by its odd half. -/
theorem t1Body_eq (v2 : BitVec 32) (k : Fin k1_t1_loop.trips) :
    k1_t1_body (F := F) L hV (Memref.isWhole_whole _) sV (Memref.isWhole_whole _) dV (Memref.isWhole_whole _) oV (Memref.isWhole_whole _)
      (Memref.whole cc1_scratch0) (Memref.isWhole_whole _) (Memref.whole cc1_scratch1) (Memref.isWhole_whole _)
      (Memref.whole cc1_scratch2) (Memref.isWhole_whole _) (Memref.whole cc1_scratch3) (Memref.isWhole_whole _)
      (Memref.whole cc1_scratch4) (Memref.isWhole_whole _) (Memref.whole cc1_scratch5) (Memref.isWhole_whole _)
      (Memref.whole cc1_scratch6) (Memref.isWhole_whole _) (Memref.whole cc1_scratch7) (Memref.isWhole_whole _)
      cc1_scratch8 cc1_scratch9 cc1_scratch10 cc1_scratch11 cc1_scratch12 cc1_scratch13 cc1_scoped0 cc1_scoped1 v2 k ⟨⟩
      = k1_part5 (F := F) L hV (Memref.isWhole_whole _) sV (Memref.isWhole_whole _) dV (Memref.isWhole_whole _) oV (Memref.isWhole_whole _)
      (Memref.whole cc1_scratch0) (Memref.isWhole_whole _) (Memref.whole cc1_scratch1) (Memref.isWhole_whole _)
      (Memref.whole cc1_scratch2) (Memref.isWhole_whole _) (Memref.whole cc1_scratch3) (Memref.isWhole_whole _)
      (Memref.whole cc1_scratch4) (Memref.isWhole_whole _) (Memref.whole cc1_scratch5) (Memref.isWhole_whole _)
      (Memref.whole cc1_scratch6) (Memref.isWhole_whole _) (Memref.whole cc1_scratch7) (Memref.isWhole_whole _)
      cc1_scratch8 cc1_scratch9 cc1_scratch10 cc1_scratch11 cc1_scratch12 cc1_scratch13 cc1_scoped0 cc1_scoped1 v2 0#32 1#32 k >>= fun _ => half1Prog (F := F) L v2 k := rfl

omit [FloatOps F] in
theorem cond3_iff (k : Fin k1_t1_loop.trips) : k1_cond3 k = 1#1 ↔ k.val ≠ 0 := by revert k; decide
omit [FloatOps F] in
theorem cond4_iff (k : Fin k1_t1_loop.trips) : k1_cond4 k = 1#1 ↔ 2 * k.val + 3 < 125 := by revert k; decide

/-! ## The task's rows, chunk by chunk -/

omit [FloatOps F] in
theorem trips_lt (k : Fin k1_t1_loop.trips) : k.val < 62 := by revert k; decide

omit [FloatOps F] in
theorem chunk_sub_rest (n : ℕ) (hn : n ≤ 124) : chunkSetN L n ⊆ restSetN L n := by
  intro x hx
  simp only [chunkSetN, restSetN, Finset.mem_filter, Finset.mem_univ, true_and] at hx ⊢
  omega

omit [FloatOps F] in
theorem rest_sdiff_chunk (n : ℕ) : restSetN L n \ chunkSetN L n = restSetN L (n + 1) := by
  ext x
  simp only [chunkSetN, restSetN, Finset.mem_sdiff, Finset.mem_filter, Finset.mem_univ, true_and]
  omega

omit [FloatOps F] in
theorem done_disj_chunk (m : ℕ) : Disjoint (doneSetN L m) (chunkSetN L m) := by
  rw [Finset.disjoint_left]
  intro x hx hy
  simp only [chunkSetN, doneSetN, Finset.mem_filter, Finset.mem_univ, true_and] at hx hy
  omega

omit [FloatOps F] in
theorem done_union_chunk (m : ℕ) : doneSetN L m ∪ chunkSetN L m = doneSetN L (m + 1) := by
  ext x
  simp only [chunkSetN, doneSetN, Finset.mem_union, Finset.mem_filter, Finset.mem_univ, true_and]
  omega

omit [FloatOps F] in
theorem off24_closed (k : Fin k1_t1_loop.trips) : k1_off24 L k = ![10000 * wid L + 80 * (2 * k.val + 1), 0] := by
  rw [k1_off24_eq]
  unfold wid
  congr 1
  omega

omit [FloatOps F] in
/-- One listed piece over the whole of a window is the plain write of its payload, on the window's elements. -/
theorem writes_whole_eq_write (off : Fin 2 → ℕ) (inb : ∀ a, off a + S80x128.size a ≤ S320000x128.size a)
    (hr : ∀ a, (Rect.unit (s := S320000x128) off S80x128.size inb).stride a = 1) (fo : Buf (Elt F) (oLoc d))
    (g : S80x128.Idx → Elt F .f32) :
    ∀ i ∈ (oChunkM off inb hr).view.set,
      (oChunkM off inb hr).view.writes (Elt F) fo [⟨Rect.whole S80x128, g⟩] i
        = (oChunkM off inb hr).view.write (Elt F) fo g Finset.univ i := by
  intro i hi
  obtain ⟨y, -, rfl⟩ := Finset.mem_map.mp hi
  rw [View.write_emb_of_mem _ _ (Finset.mem_univ y)]
  have e : (Rect.whole S80x128).emb y = y := by
    funext a
    apply Fin.ext
    rw [Rect.emb_apply]
    show 0 + 1 * (y a).val = (y a).val
    omega
  have h := View.read_writes_cons_emb (oChunkM off inb hr).view fo (Rect.whole S80x128) g [] y
  rw [e, View.read_apply] at h
  exact h

set_option maxHeartbeats 4000000 in
/-- The odd half of trip k: chunk 2k + 1's gathers land, the copy-out of chunk 2k - 1 (from the second trip on) is
    waited for, chunk 2k + 1 is computed and its copy-out started, chunk 2k + 3's gathers are issued unless past the
    last chunk. -/
theorem half1 (hidx : IdxOK (F := F) d L sv dv) (O : CellTallies nD τ sig (HIx 1)) (W0 : Waits sig (HIx 1))
    (v2 : BitVec 32) (k : Fin k1_t1_loop.trips) :
    (iprop(Transfers.MayWaits (thr d L) (none : HIx 1) O
        ∗ gfJ1 d L q hv sv (2 * k.val + 1) ∗ gfI1 d L q hv dv (2 * k.val + 1)
        ∗ (if k.val = 0 then idleOut1 d L else ofl1 d L hv sv dv (2 * k.val - 1))
        ∗ outPart d L hv sv dv (2 * k.val - 1) (2 * k.val + 1)
        ∗ owes (thr d L) O W0) : sProp 𝕄)
      ⊢ wp frame (wpE (defs₀ (F := F)) 𝒱₀ (thr d L) none) Set.univ (half1Prog (F := F) L v2 k)
          fun _ => iprop((if 2 * k.val + 3 < 125 then iprop(gfJ1 d L q hv sv (2 * k.val + 3) ∗ gfI1 d L q hv dv (2 * k.val + 3)) else idle1 d L q hv sv dv)
            ∗ ofl1 d L hv sv dv (2 * k.val + 1)
            ∗ outPart d L hv sv dv (2 * k.val) (2 * k.val + 2)
            ∗ ∃ W1, ⌜∀ p ∈ W1, p ∈ W0 ∨ p.2 = none⌝ ∗ owes (thr d L) O W1) := by
  unfold half1Prog
  have hk := trips_lt k
  by_cases hk0 : k.val = 0
  · have h3 : ¬ k1_cond3 k = 1#1 := fun h => (cond3_iff k).1 h hk0
    rw [if_pos hk0]
    unfold gfJ1 gfI1 ofl1 idleOut1 outPart
    iintro ⟨#Hmw, ⟨HfJ, HrJ⟩, ⟨HfI, HrI⟩, ⟨⟨%f7, Hofl_src⟩, Hofl⟩, ⟨Hdone, %fo, Hrest⟩, HO⟩
    have hinS : ∀ (off : Fin 2 → ℕ) (inb : ∀ a, off a + S1x80.size a ≤ S125x80.size a) (hr : ∀ a, (Rect.unit (s := S125x80) off S1x80.size inb).stride a = 1) x,
        ((((Memref.whole cc1_scratch0 : Memref sig .scVector .vmem S125x80 .i32).slice (Rect.unit (s := S125x80) off S1x80.size inb) hr).squeeze S80 squeezes_S1x80_S80).view.read (Elt F) (idxS d L sv) x).toNat
          < S10000x128.size gathers_S10000x128_S80x128.axis := by
      intro off inb hr x
      rw [View.read_apply]
      exact idxS_lt d L hidx _
    have hinD : ∀ (off : Fin 2 → ℕ) (inb : ∀ a, off a + S1x80.size a ≤ S125x80.size a) (hr : ∀ a, (Rect.unit (s := S125x80) off S1x80.size inb).stride a = 1) x,
        ((((Memref.whole cc1_scratch1 : Memref sig .scVector .vmem S125x80 .i32).slice (Rect.unit (s := S125x80) off S1x80.size inb) hr).squeeze S80 squeezes_S1x80_S80).view.read (Elt F) (idxD d L dv) x).toNat
          < S10000x128.size gathers_S10000x128_S80x128.axis := by
      intro off inb hr x
      rw [View.read_apply]
      exact idxD_lt d L hidx _
    sl_exec
    icases HfJ_dst with ⟨Hrj, HidxJ⟩
    icases HfI_dst with ⟨Hri, HidxI⟩
    iapply (triple_bind (F := F) (rows_t3 (F := F) d L v2 _ _ _))
    isplitl [Hrj Hri Hofl_src]
    · isplitl [Hrj]; · iexact Hrj
      isplitl [Hri]; · iexact Hri
      iexact Hofl_src
    iintro %_u ⟨Hrj, Hri, Hob⟩
    -- the copy-out's target: chunk 2k + 1's rows, split off the rows still to be written
    have hset : (oChunkM (k1_off24 L k) (k1_off24_inb L k) (fun _ => rfl)).view.set = chunkSetN L (2 * k.val + 1) :=
      oChunk_set L _ (by omega) _ _ _ (off24_closed L k)
    ihave ⟨Hchunk, Hrest'⟩ := (pointsTo_split_subset (chunk_sub_rest L (2 * k.val + 1) (by omega))).1 $$ Hrest
    ihave Hc0 := (Entails.of_eq (congrArg (fun S => ((oV).view.loc (thr d L) ↦[S]{fullShare} fo : sProp 𝕄)) hset.symm)) $$ Hchunk
    ihave Hc : ((oChunkM (k1_off24 L k) (k1_off24_inb L k) (fun _ => rfl)).view.loc (thr d L) ↦[(oChunkM (k1_off24 L k) (k1_off24_inb L k) (fun _ => rfl)).view.set]{fullShare} fo) $$ [Hc0]
    · iexact Hc0
    sl_exec
    -- the copy-out in flight, in the invariant's spelling
    have hpay : half1.sl.dma0 d L hv sv dv k = obC d L hv sv dv (2 * k.val + 1) := rfl
    have hD : (iprop(((oChunkM (k1_off24 L k) (k1_off24_inb L k) (fun _ => rfl)).view.loc (thr d L) ↦[(oChunkM (k1_off24 L k) (k1_off24_inb L k) (fun _ => rfl)).view.set]{fullShare}
            (oChunkM (k1_off24 L k) (k1_off24_inb L k) (fun _ => rfl)).view.writes (Elt F) fo [⟨Rect.whole S80x128, half1.sl.dma0 d L hv sv dv k⟩])
          ∗ ((Memref.whole cc1_scratch7 : Memref sig .scVector _ _ _).view.loc (thr d L) ↦[(Memref.whole cc1_scratch7 : Memref sig .scVector _ _ _).view.set]{fullShare}
              reluRows (gath d hv (idxS d L sv) (2 * k.val + 1)) (gath d hv (idxD d L dv) (2 * k.val + 1)))) : sProp 𝕄)
        ⊢ iprop(((oV).view.loc (thr d L) ↦[chunkSetN L (2 * k.val + 1)]{fullShare} outRows d hv sv dv) ∗ scr d L cc1_scratch7 (obC d L hv sv dv (2 * k.val + 1))) := by
      refine BIClass.sep_mono ?_ ?_
      · apply Entails.of_eq
        rw [hpay, pointsTo_congr (writes_whole_eq_write (F := F) (d := d) _ _ _ fo _),
          pointsTo_congr (out_chunk d L hv sv dv (2 * k.val + 1) (by omega) _ _ _ (off24_closed L k) fo), hset] <;> rfl
      · apply Entails.of_eq
        rw [View.set_whole] <;> rfl
    ihave Hofl1 := (Transfers.Flight_mono countersEmb (thr d L) hD) $$ Hofl
    have e0 : 2 * k.val - 1 = 2 * k.val := by omega
    ihave Hdone2 := (Entails.of_eq (congrArg (fun S => ((oV).view.loc (thr d L) ↦[S]{fullShare} outRows d hv sv dv : sProp 𝕄)) (congrArg (doneSetN L) e0))) $$ Hdone
    ihave Hrest2 := (Entails.of_eq (congrArg (fun S => ((oV).view.loc (thr d L) ↦[S]{fullShare} fo : sProp 𝕄)) (rest_sdiff_chunk L (2 * k.val + 1)))) $$ Hrest'
    -- the index scratches' shares whole again
    ihave HiS := (pointsTo_split_subset (ℓ := (Memref.whole cc1_scratch0 : Memref sig .scVector .vmem S125x80 .i32).view.loc (thr d L)) (q := fullShare.right) (f := idxS d L sv) (Finset.subset_univ (rowSetN (2 * k.val + 1)))).2 $$ [HidxJ HrJ]
    · isplitl [HidxJ]; · iexact HidxJ
      iexact HrJ
    ihave HiD := (pointsTo_split_subset (ℓ := (Memref.whole cc1_scratch1 : Memref sig .scVector .vmem S125x80 .i32).view.loc (thr d L)) (q := fullShare.right) (f := idxD d L dv) (Finset.subset_univ (rowSetN (2 * k.val + 1)))).2 $$ [HidxI HrI]
    · isplitl [HidxI]; · iexact HidxI
      iexact HrI
    by_cases h4c : 2 * k.val + 3 < 125
    · have h4 : k1_cond4 k = 1#1 := (cond4_iff k).2 h4c
      ihave XfI := (hid_in (F := F) _) $$ HfI_src
      sl_exec
      have hgJ : half1.sl.gather0 d L hv sv k hinS h4 = gath d hv (idxS d L sv) (2 * k.val + 3) :=
        gather_payload0 d hv (idxS d L sv) (2 * k.val + 3) (by omega) _ _ _ (k1_off25_eq k) _ _
      ihave GJ := (gfJ1_intro (F := F) d L q hv sv (2 * k.val + 3) (by omega) (k1_off25 k) (k1_off25_inb k h4) (fun _ => rfl) (k1_off25_eq k) _ _ hgJ) $$ [HfJ HiS]
      · isplitl [HfJ]; · iexact HfJ
        iexact HiS
      ihave HfI_src := (hid_out (F := F) _) $$ XfI
      sl_exec
      have hgI : half1.sl.gather0_1 d L hv dv k hinD h4 = gath d hv (idxD d L dv) (2 * k.val + 3) :=
        gather_payload1 d hv (idxD d L dv) (2 * k.val + 3) (by omega) _ _ _ (k1_off25_eq k) _ _
      ihave GI := (gfI1_intro (F := F) d L q hv dv (2 * k.val + 3) (by omega) (k1_off25 k) (k1_off25_inb k h4) (fun _ => rfl) (k1_off25_eq k) _ _ hgI) $$ [HfI HiD]
      · isplitl [HfI]; · iexact HfI
        iexact HiD
      rw [wp_ret]
      imodintro
      rw [if_pos h4c]
      unfold gfJ1 gfI1
      isplitl [GJ GI]
      · isplitl [GJ]; · iexact GJ
        iexact GI
      isplitl [Hofl1]; · iexact Hofl1
      isplitl [Hdone2 Hrest2]
      · isplitl [Hdone2]; · iexact Hdone2
        iexists fo; iexact Hrest2
      iexists _
      isplitr
      rotate_left
      · iexact HO
      · ipureintro
        intro p hp
        simp only [Finset.mem_insert] at hp
        rcases hp with rfl | rfl | hp
        · exact Or.inr rfl
        · exact Or.inr rfl
        · exact Or.inl hp
    · exfalso; omega
  · have h3 : k1_cond3 k = 1#1 := (cond3_iff k).2 hk0
    rw [if_neg hk0]
    unfold gfJ1 gfI1 ofl1 outPart
    iintro ⟨#Hmw, ⟨HfJ, HrJ⟩, ⟨HfI, HrI⟩, Hofl, ⟨Hdone, %fo, Hrest⟩, HO⟩
    have hinS : ∀ (off : Fin 2 → ℕ) (inb : ∀ a, off a + S1x80.size a ≤ S125x80.size a) (hr : ∀ a, (Rect.unit (s := S125x80) off S1x80.size inb).stride a = 1) x,
        ((((Memref.whole cc1_scratch0 : Memref sig .scVector .vmem S125x80 .i32).slice (Rect.unit (s := S125x80) off S1x80.size inb) hr).squeeze S80 squeezes_S1x80_S80).view.read (Elt F) (idxS d L sv) x).toNat
          < S10000x128.size gathers_S10000x128_S80x128.axis := by
      intro off inb hr x
      rw [View.read_apply]
      exact idxS_lt d L hidx _
    have hinD : ∀ (off : Fin 2 → ℕ) (inb : ∀ a, off a + S1x80.size a ≤ S125x80.size a) (hr : ∀ a, (Rect.unit (s := S125x80) off S1x80.size inb).stride a = 1) x,
        ((((Memref.whole cc1_scratch1 : Memref sig .scVector .vmem S125x80 .i32).slice (Rect.unit (s := S125x80) off S1x80.size inb) hr).squeeze S80 squeezes_S1x80_S80).view.read (Elt F) (idxD d L dv) x).toNat
          < S10000x128.size gathers_S10000x128_S80x128.axis := by
      intro off inb hr x
      rw [View.read_apply]
      exact idxD_lt d L hidx _
    sl_exec
    icases HfJ_dst with ⟨Hrj, HidxJ⟩
    icases HfI_dst with ⟨Hri, HidxI⟩
    iapply (triple_bind (F := F) (rows_t3 (F := F) d L v2 _ _ _))
    isplitl [Hrj Hri Hofl_src]
    · isplitl [Hrj]; · iexact Hrj
      isplitl [Hri]; · iexact Hri
      iexact Hofl_src
    iintro %_u ⟨Hrj, Hri, Hob⟩
    -- the copy-out's target: chunk 2k + 1's rows, split off the rows still to be written
    have hset : (oChunkM (k1_off24 L k) (k1_off24_inb L k) (fun _ => rfl)).view.set = chunkSetN L (2 * k.val + 1) :=
      oChunk_set L _ (by omega) _ _ _ (off24_closed L k)
    ihave ⟨Hchunk, Hrest'⟩ := (pointsTo_split_subset (chunk_sub_rest L (2 * k.val + 1) (by omega))).1 $$ Hrest
    ihave Hc0 := (Entails.of_eq (congrArg (fun S => ((oV).view.loc (thr d L) ↦[S]{fullShare} fo : sProp 𝕄)) hset.symm)) $$ Hchunk
    ihave Hc : ((oChunkM (k1_off24 L k) (k1_off24_inb L k) (fun _ => rfl)).view.loc (thr d L) ↦[(oChunkM (k1_off24 L k) (k1_off24_inb L k) (fun _ => rfl)).view.set]{fullShare} fo) $$ [Hc0]
    · iexact Hc0
    sl_exec
    -- the copy-out in flight, in the invariant's spelling
    have hpay : half1.sl.dma0_1 d L hv sv dv k = obC d L hv sv dv (2 * k.val + 1) := rfl
    have hD : (iprop(((oChunkM (k1_off24 L k) (k1_off24_inb L k) (fun _ => rfl)).view.loc (thr d L) ↦[(oChunkM (k1_off24 L k) (k1_off24_inb L k) (fun _ => rfl)).view.set]{fullShare}
            (oChunkM (k1_off24 L k) (k1_off24_inb L k) (fun _ => rfl)).view.writes (Elt F) fo [⟨Rect.whole S80x128, half1.sl.dma0_1 d L hv sv dv k⟩])
          ∗ ((Memref.whole cc1_scratch7 : Memref sig .scVector _ _ _).view.loc (thr d L) ↦[(Memref.whole cc1_scratch7 : Memref sig .scVector _ _ _).view.set]{fullShare}
              reluRows (gath d hv (idxS d L sv) (2 * k.val + 1)) (gath d hv (idxD d L dv) (2 * k.val + 1)))) : sProp 𝕄)
        ⊢ iprop(((oV).view.loc (thr d L) ↦[chunkSetN L (2 * k.val + 1)]{fullShare} outRows d hv sv dv) ∗ scr d L cc1_scratch7 (obC d L hv sv dv (2 * k.val + 1))) := by
      refine BIClass.sep_mono ?_ ?_
      · apply Entails.of_eq
        rw [hpay, pointsTo_congr (writes_whole_eq_write (F := F) (d := d) _ _ _ fo _),
          pointsTo_congr (out_chunk d L hv sv dv (2 * k.val + 1) (by omega) _ _ _ (off24_closed L k) fo), hset] <;> rfl
      · apply Entails.of_eq
        rw [View.set_whole] <;> rfl
    ihave Hofl1 := (Transfers.Flight_mono countersEmb (thr d L) hD) $$ Hofl
    have e2k : 2 * k.val - 1 + 1 = 2 * k.val := by omega
    ihave Hdone1 := (pointsTo_union (ℓ := (oV).view.loc (thr d L)) (q := fullShare) (f := outRows d hv sv dv) (done_disj_chunk L (2 * k.val - 1))).2 $$ [Hdone Hofl_dst]
    · isplitl [Hdone]; · iexact Hdone
      iexact Hofl_dst
    ihave Hdone2 := (Entails.of_eq (congrArg (fun S => ((oV).view.loc (thr d L) ↦[S]{fullShare} outRows d hv sv dv : sProp 𝕄)) ((done_union_chunk L (2 * k.val - 1)).trans (congrArg (doneSetN L) e2k)))) $$ Hdone1
    ihave Hrest2 := (Entails.of_eq (congrArg (fun S => ((oV).view.loc (thr d L) ↦[S]{fullShare} fo : sProp 𝕄)) (rest_sdiff_chunk L (2 * k.val + 1)))) $$ Hrest'
    -- the index scratches' shares whole again
    ihave HiS := (pointsTo_split_subset (ℓ := (Memref.whole cc1_scratch0 : Memref sig .scVector .vmem S125x80 .i32).view.loc (thr d L)) (q := fullShare.right) (f := idxS d L sv) (Finset.subset_univ (rowSetN (2 * k.val + 1)))).2 $$ [HidxJ HrJ]
    · isplitl [HidxJ]; · iexact HidxJ
      iexact HrJ
    ihave HiD := (pointsTo_split_subset (ℓ := (Memref.whole cc1_scratch1 : Memref sig .scVector .vmem S125x80 .i32).view.loc (thr d L)) (q := fullShare.right) (f := idxD d L dv) (Finset.subset_univ (rowSetN (2 * k.val + 1)))).2 $$ [HidxI HrI]
    · isplitl [HidxI]; · iexact HidxI
      iexact HrI
    by_cases h4c : 2 * k.val + 3 < 125
    · have h4 : k1_cond4 k = 1#1 := (cond4_iff k).2 h4c
      ihave XfI := (hid_in (F := F) _) $$ HfI_src
      sl_exec
      have hgJ : half1.sl.gather0_2 d L hv sv k hinS h4 = gath d hv (idxS d L sv) (2 * k.val + 3) :=
        gather_payload0 d hv (idxS d L sv) (2 * k.val + 3) (by omega) _ _ _ (k1_off25_eq k) _ _
      ihave GJ := (gfJ1_intro (F := F) d L q hv sv (2 * k.val + 3) (by omega) (k1_off25 k) (k1_off25_inb k h4) (fun _ => rfl) (k1_off25_eq k) _ _ hgJ) $$ [HfJ HiS]
      · isplitl [HfJ]; · iexact HfJ
        iexact HiS
      ihave HfI_src := (hid_out (F := F) _) $$ XfI
      sl_exec
      have hgI : half1.sl.gather0_3 d L hv dv k hinD h4 = gath d hv (idxD d L dv) (2 * k.val + 3) :=
        gather_payload1 d hv (idxD d L dv) (2 * k.val + 3) (by omega) _ _ _ (k1_off25_eq k) _ _
      ihave GI := (gfI1_intro (F := F) d L q hv dv (2 * k.val + 3) (by omega) (k1_off25 k) (k1_off25_inb k h4) (fun _ => rfl) (k1_off25_eq k) _ _ hgI) $$ [HfI HiD]
      · isplitl [HfI]; · iexact HfI
        iexact HiD
      rw [wp_ret]
      imodintro
      rw [if_pos h4c]
      unfold gfJ1 gfI1
      isplitl [GJ GI]
      · isplitl [GJ]; · iexact GJ
        iexact GI
      isplitl [Hofl1]; · iexact Hofl1
      isplitl [Hdone2 Hrest2]
      · isplitl [Hdone2]; · iexact Hdone2
        iexists fo; iexact Hrest2
      iexists _
      isplitr
      rotate_left
      · iexact HO
      · ipureintro
        intro p hp
        simp only [Finset.mem_insert] at hp
        rcases hp with rfl | rfl | rfl | hp
        · exact Or.inr rfl
        · exact Or.inr rfl
        · exact Or.inr rfl
        · exact Or.inl hp
    · have h4 : ¬ k1_cond4 k = 1#1 := fun h => h4c ((cond4_iff k).1 h)
      sl_exec
      rw [wp_ret]
      imodintro
      rw [if_neg h4c]
      unfold idle1
      isplitl [Hrj Hri HfJ HfI HiS HiD HfJ_src HfI_src]
      · isplitl [Hrj]; · iexists _; iexact Hrj
        isplitl [Hri]; · iexists _; iexact Hri
        isplitl [HfJ]; · iexact HfJ
        isplitl [HfI]; · iexact HfI
        isplitl [HiS]; · iexact HiS
        isplitl [HiD]; · iexact HiD
        isplitl [HfJ_src]; · iexact HfJ_src
        iexact HfI_src
      isplitl [Hofl1]; · iexact Hofl1
      isplitl [Hdone2 Hrest2]
      · isplitl [Hdone2]; · iexact Hdone2
        iexists fo; iexact Hrest2
      iexists _
      isplitr
      rotate_left
      · iexact HO
      · ipureintro
        intro p hp
        simp only [Finset.mem_insert] at hp
        rcases hp with rfl | rfl | rfl | hp
        · exact Or.inr rfl
        · exact Or.inr rfl
        · exact Or.inr rfl
        · exact Or.inl hp

end Cert.Proof.OnKernel.Tile

end
-- ==== Proof.OnKernel.TileTrip.lean ====
/-
  One vector subcore's task of the gather kernel: one trip of the outer loop carries the invariant on. A trip is
  its even half (slot 0: chunk 2k) and then its odd half (slot 1: chunk 2k + 1); each half lands its chunk's
  gathers, waits for its slot's previous copy-out (from the second trip on), computes the chunk, starts its
  copy-out and issues the gathers two chunks ahead (the odd half of the last trip has none left to issue).
-/
import proofs.«206094_g687194767628_cont_sun_c4_81_43_alg».proof.Proof.OnKernel.TileLoop

noncomputable section

namespace Cert.Proof.OnKernel.Tile

open Cert.Kernel Cert.Kernel.Gen
open Cert.Proof.OnKernel

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid1.Coords)

variable (q : PosShare TreeShare) (hv : Buf (Elt F) (hLoc d)) (sv : Buf (Elt F) (sLoc d)) (dv : Buf (Elt F) (dLoc d))

variable (O : CellTallies nD τ sig (HIx 1)) (W : Waits sig (HIx 1))

/-- The invariant before trip k + 1, its conditionals resolved as far as k + 1 ≠ 0 resolves them. -/
theorem inv_succ (k : ℕ) :
    inv d L q hv sv dv O W (k + 1) ⟨⟩
      = iprop(Transfers.MayWaits (thr d L) (none : HIx 1) O
          ∗ gfJ0 d L q hv sv (2 * k + 2) ∗ gfI0 d L q hv dv (2 * k + 2)
          ∗ (if 2 * k + 3 < 125 then iprop(gfJ1 d L q hv sv (2 * k + 3) ∗ gfI1 d L q hv dv (2 * k + 3)) else idle1 d L q hv sv dv)
          ∗ iprop(ofl0 d L hv sv dv (2 * k) ∗ ofl1 d L hv sv dv (2 * k + 1))
          ∗ outPart d L hv sv dv (2 * k) (2 * k + 2)
          ∗ ∃ W', ⌜∀ p ∈ W', p ∈ W ∨ p.2 = none⌝ ∗ owes (thr d L) O W') := by
  unfold inv
  have e1 : 2 * (k + 1) = 2 * k + 2 := by omega
  have e2 : 2 * k + 2 + 1 = 2 * k + 3 := by omega
  have e3 : 2 * k + 2 - 2 = 2 * k := by omega
  have e4 : 2 * k + 2 - 1 = 2 * k + 1 := by omega
  rw [if_neg (Nat.succ_ne_zero k), e1, e2, e3, e4]

/-- The invariant before trip k < 62: slot 1's gathers are in flight. -/
theorem inv_lt (k : ℕ) (hk : k < 62) :
    inv d L q hv sv dv O W k ⟨⟩
      = iprop(Transfers.MayWaits (thr d L) (none : HIx 1) O
          ∗ gfJ0 d L q hv sv (2 * k) ∗ gfI0 d L q hv dv (2 * k)
          ∗ iprop(gfJ1 d L q hv sv (2 * k + 1) ∗ gfI1 d L q hv dv (2 * k + 1))
          ∗ iprop((if k = 0 then idleOut0 d L else ofl0 d L hv sv dv (2 * k - 2)) ∗ (if k = 0 then idleOut1 d L else ofl1 d L hv sv dv (2 * k - 1)))
          ∗ outPart d L hv sv dv (2 * k - 2) (2 * k)
          ∗ ∃ W', ⌜∀ p ∈ W', p ∈ W ∨ p.2 = none⌝ ∗ owes (thr d L) O W') := by
  unfold inv
  rw [if_pos (by omega : 2 * k + 1 < 125)]
  by_cases hk0 : k = 0
  · rw [if_pos hk0, if_pos hk0, if_pos hk0]
  · rw [if_neg hk0, if_neg hk0, if_neg hk0]

omit [FloatOps F] in
/-- A triple run to the end of a program: its precondition, and the post from its postcondition. -/
theorem triple_post {α : Type} {c : Thread nD τ} {p : Prog (TpuEff nD τ sig (Elt F) Λ₀ c.2) α}
    {P : sProp 𝕄} {Qp Q : α → sProp 𝕄} [FloatOps F]
    (hp : P ⊢ wp frame (wpE (defs₀ (F := F)) 𝒱₀ c none) Set.univ p Qp) :
    iprop(P ∗ (∀ a, Qp a -∗ Q a)) ⊢ wp frame (wpE (defs₀ (F := F)) 𝒱₀ c none) Set.univ p Q :=
  (sep_mono hp .rfl).trans (wp_wand_r _ _ _)

/-- A trip carries the invariant on, from its two halves: the even half from the invariant's slot-0 part, the odd
    half from its slot-1 part and what the even half left of the result's rows. -/
theorem trip_of {α : Type} (k : ℕ) (hk : k < 62)
    {p0 : Prog (TpuEff nD τ sig (Elt F) Λ₀ (.scVector (cV L) (jV L))) α} {p1 : Prog (TpuEff nD τ sig (Elt F) Λ₀ (.scVector (cV L) (jV L))) PUnit}
    (h0 : ∀ W0 : Waits sig (HIx 1),
      (iprop(Transfers.MayWaits (thr d L) (none : HIx 1) O
          ∗ gfJ0 d L q hv sv (2 * k) ∗ gfI0 d L q hv dv (2 * k)
          ∗ (if k = 0 then idleOut0 d L else ofl0 d L hv sv dv (2 * k - 2))
          ∗ outPart d L hv sv dv (2 * k - 2) (2 * k)
          ∗ owes (thr d L) O W0) : sProp 𝕄)
        ⊢ wp frame (wpE (defs₀ (F := F)) 𝒱₀ (thr d L) none) Set.univ p0
            fun _ => iprop(gfJ0 d L q hv sv (2 * k + 2) ∗ gfI0 d L q hv dv (2 * k + 2)
              ∗ ofl0 d L hv sv dv (2 * k)
              ∗ outPart d L hv sv dv (2 * k - 1) (2 * k + 1)
              ∗ ∃ W1, ⌜∀ p ∈ W1, p ∈ W0 ∨ p.2 = none⌝ ∗ owes (thr d L) O W1))
    (h1 : ∀ W1 : Waits sig (HIx 1),
      (iprop(Transfers.MayWaits (thr d L) (none : HIx 1) O
          ∗ gfJ1 d L q hv sv (2 * k + 1) ∗ gfI1 d L q hv dv (2 * k + 1)
          ∗ (if k = 0 then idleOut1 d L else ofl1 d L hv sv dv (2 * k - 1))
          ∗ outPart d L hv sv dv (2 * k - 1) (2 * k + 1)
          ∗ owes (thr d L) O W1) : sProp 𝕄)
        ⊢ wp frame (wpE (defs₀ (F := F)) 𝒱₀ (thr d L) none) Set.univ p1
            fun _ => iprop((if 2 * k + 3 < 125 then iprop(gfJ1 d L q hv sv (2 * k + 3) ∗ gfI1 d L q hv dv (2 * k + 3)) else idle1 d L q hv sv dv)
              ∗ ofl1 d L hv sv dv (2 * k + 1)
              ∗ outPart d L hv sv dv (2 * k) (2 * k + 2)
              ∗ ∃ W2, ⌜∀ p ∈ W2, p ∈ W1 ∨ p.2 = none⌝ ∗ owes (thr d L) O W2)) :
    inv d L q hv sv dv O W k ⟨⟩
      ⊢ wp frame (wpE (defs₀ (F := F)) 𝒱₀ (thr d L) none) Set.univ (p0 >>= fun _ => p1) (inv d L q hv sv dv O W (k + 1)) := by
  rw [inv_lt d L q hv sv dv O W k hk]
  iintro ⟨#Hmw, HJ0, HI0, ⟨HJ1, HI1⟩, ⟨Ho0, Ho1⟩, Hpart, %W', %hW', HO⟩
  -- the even half
  iapply (triple_bind (F := F) (h0 W'))
  isplitl [HJ0 HI0 Ho0 Hpart HO]
  · isplitr; · iexact Hmw
    isplitl [HJ0]; · iexact HJ0
    isplitl [HI0]; · iexact HI0
    isplitl [Ho0]; · iexact Ho0
    isplitl [Hpart]; · iexact Hpart
    iexact HO
  iintro %_ ⟨HJ0, HI0, Hf0, Hpart, %W1, %hW1, HO⟩
  -- the odd half
  iapply (triple_post (F := F) (h1 W1))
  isplitl [HJ1 HI1 Ho1 Hpart HO]
  · isplitr; · iexact Hmw
    isplitl [HJ1]; · iexact HJ1
    isplitl [HI1]; · iexact HI1
    isplitl [Ho1]; · iexact Ho1
    isplitl [Hpart]; · iexact Hpart
    iexact HO
  iintro %_ ⟨Hg1, Hf1, Hpart, %W2, %hW2, HO⟩
  -- the invariant before the next trip
  rw [inv_succ d L q hv sv dv O W k]
  isplitr; · iexact Hmw
  isplitl [HJ0]; · iexact HJ0
  isplitl [HI0]; · iexact HI0
  isplitl [Hg1]; · iexact Hg1
  isplitl [Hf0 Hf1]
  · isplitl [Hf0]; · iexact Hf0
    iexact Hf1
  isplitl [Hpart]; · iexact Hpart
  iexists W2; isplitr
  · ipureintro
    intro p hp
    rcases hW2 p hp with h | h
    · rcases hW1 p h with h' | h'
      · exact hW' p h'
      · exact .inr h'
    · exact .inr h
  iexact HO

end Cert.Proof.OnKernel.Tile

end
-- ==== Proof.OnKernel.TileTripFull.lean ====
/-
  One vector subcore's task of the gather kernel: one trip of the outer loop carries the invariant on — the even
  half and the odd half, each proved on its own, composed.
-/
import proofs.«206094_g687194767628_cont_sun_c4_81_43_alg».proof.Proof.OnKernel.TileHalf0
import proofs.«206094_g687194767628_cont_sun_c4_81_43_alg».proof.Proof.OnKernel.TileHalf1
import proofs.«206094_g687194767628_cont_sun_c4_81_43_alg».proof.Proof.OnKernel.TileTrip

noncomputable section
namespace Cert.Proof.OnKernel.Tile
open Cert.Kernel Cert.Kernel.Gen
open Cert.Proof.OnKernel
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type}
local notation "𝕄" => MT nD τ sig (HIx 1) (Elt F) ℕ UU ℕ
variable [FloatOps F]
variable (d : Dev nD) (L : grid1.Coords)
variable (q : PosShare TreeShare) (hv : Buf (Elt F) (hLoc d)) (sv : Buf (Elt F) (sLoc d)) (dv : Buf (Elt F) (dLoc d))

/-- Trip k of the outer loop on the task's operands. -/
abbrev tripProg (v2 : BitVec 32) (k : Fin k1_t1_loop.trips) :=
  k1_t1_body (F := F) L hV (Memref.isWhole_whole _) sV (Memref.isWhole_whole _) dV (Memref.isWhole_whole _) oV (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    (Memref.whole cc1_scratch4) (Memref.isWhole_whole _) (Memref.whole cc1_scratch5) (Memref.isWhole_whole _)
    (Memref.whole cc1_scratch6) (Memref.isWhole_whole _) (Memref.whole cc1_scratch7) (Memref.isWhole_whole _)
    cc1_scratch8 cc1_scratch9 cc1_scratch10 cc1_scratch11 cc1_scratch12 cc1_scratch13 cc1_scoped0 cc1_scoped1 v2 k ⟨⟩

/-- One trip of the outer loop carries the invariant on. -/
theorem trip (hidx : IdxOK (F := F) d L sv dv) (O : CellTallies nD τ sig (HIx 1)) (W : Waits sig (HIx 1)) (v2 : BitVec 32) (k : Fin k1_t1_loop.trips) :
    inv d L q hv sv dv O W k.val ⟨⟩
      ⊢ wp frame (wpE (defs₀ (F := F)) 𝒱₀ (thr d L) none) Set.univ (tripProg (F := F) L v2 k) (inv d L q hv sv dv O W (k.val + 1)) := by
  rw [show tripProg (F := F) L v2 k = (half0Prog (F := F) L v2 k >>= fun _ => half1Prog (F := F) L v2 k) from t1Body_eq L v2 k]
  exact trip_of d L q hv sv dv O W k.val k.isLt (fun W0 => half0 d L q hv sv dv hidx O W0 v2 k) (fun W1 => half1 d L q hv sv dv hidx O W1 v2 k)

end Cert.Proof.OnKernel.Tile
end
-- ==== Proof.OnKernel.TileFinal.lean ====
/-
  One vector subcore's task of the gather kernel: what the run ends in, repackaged into what the task hands back.

  The run ends holding the node features at the share it was handed, the task's rows of the result at the value, the
  two index scratches at the task's index rows, the six data scratches at some contents, its six copy semaphores at
  zero and what it owes; with the task's rows of the two index arrays, the two scoped semaphores at zero and the rest
  of its own storage, that is the task's result beside all of its own scratch and semaphores.
-/
import proofs.«206094_g687194767628_cont_sun_c4_81_43_alg».proof.Proof.OnKernel.TileLoop

noncomputable section

namespace Cert.Proof.OnKernel.Tile

open Cert.Kernel Cert.Kernel.Gen
open Cert.Proof.OnKernel

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid1.Coords)

variable (q : PosShare TreeShare) (hv : Buf (Elt F) (hLoc d)) (sv : Buf (Elt F) (sLoc d)) (dv : Buf (Elt F) (dLoc d))

/-- After the last wait: every share rejoined, the task's rows of the result at the value, the six data scratches at
    some contents, the six semaphores at zero. -/
def epiPost (O : CellTallies nD τ sig (HIx 1)) (W0 : Waits sig (HIx 1)) : sProp 𝕄 :=
  iprop(((hV).view.loc (thr d L) ↦{q} hv) ∗ ((oV).view.loc (thr d L) ↦[outSet L]{fullShare} outRows d hv sv dv)
    ∗ ((Memref.whole cc1_scratch0 : Memref sig .scVector .vmem S125x80 .i32).view.loc (thr d L) ↦{fullShare} idxS d L sv)
    ∗ ((Memref.whole cc1_scratch1 : Memref sig .scVector .vmem S125x80 .i32).view.loc (thr d L) ↦{fullShare} idxD d L dv)
    ∗ (∃ f, scr d L cc1_scratch2 f) ∗ (∃ f, scr d L cc1_scratch3 f) ∗ (∃ f, scr d L cc1_scratch4 f) ∗ (∃ f, scr d L cc1_scratch5 f) ∗ (∃ f, scr d L cc1_scratch6 f) ∗ (∃ f, scr d L cc1_scratch7 f)
    ∗ semVal (cellOf d L cc1_scratch8.sem) 0 ∗ semVal (cellOf d L cc1_scratch9.sem) 0 ∗ semVal (cellOf d L cc1_scratch10.sem) 0 ∗ semVal (cellOf d L cc1_scratch11.sem) 0 ∗ semVal (cellOf d L cc1_scratch12.sem) 0 ∗ semVal (cellOf d L cc1_scratch13.sem) 0
    ∗ ∃ W1, ⌜∀ p ∈ W1, p ∈ W0 ∨ p.2 = none⌝ ∗ owes (thr d L) O W1)

/-- What the run ends in, with the task's rows of the two index arrays and its two scoped semaphores (held from the
    first two copies on) and the rest of its own storage, is what the task hands back beside its own storage whole. -/
theorem final_pack (O : CellTallies nD τ sig (HIx 1)) (W W0 : Waits sig (HIx 1)) (hW0 : ∀ p ∈ W0, p ∈ W ∨ p.2 = none) {RB RS : sProp 𝕄}
    (hB : (ownBufs (thr d L) : sProp 𝕄) = iprop((∃ f, (thr d L).loc cc1_scratch0 ↦{fullShare} f) ∗ (∃ f, (thr d L).loc cc1_scratch1 ↦{fullShare} f) ∗ (∃ f, (thr d L).loc cc1_scratch2 ↦{fullShare} f) ∗ (∃ f, (thr d L).loc cc1_scratch3 ↦{fullShare} f) ∗ (∃ f, (thr d L).loc cc1_scratch4 ↦{fullShare} f) ∗ (∃ f, (thr d L).loc cc1_scratch5 ↦{fullShare} f) ∗ (∃ f, (thr d L).loc cc1_scratch6 ↦{fullShare} f) ∗ (∃ f, (thr d L).loc cc1_scratch7 ↦{fullShare} f) ∗ RB))
    (hS : (ownSems0 (thr d L) : sProp 𝕄) = iprop(semVal (cellOf d L cc1_scratch8.sem) 0 ∗ semVal (cellOf d L cc1_scratch9.sem) 0 ∗ semVal (cellOf d L cc1_scratch10.sem) 0 ∗ semVal (cellOf d L cc1_scratch11.sem) 0 ∗ semVal (cellOf d L cc1_scratch12.sem) 0 ∗ semVal (cellOf d L cc1_scratch13.sem) 0 ∗ semVal (cellOf d L cc1_scoped0.sem) 0 ∗ semVal (cellOf d L cc1_scoped1.sem) 0 ∗ RS)) :
    iprop(epiPost d L q hv sv dv O W0
        ∗ ((sRowK L).view.loc (thr d L) ↦[(sRowK L).view.set]{fullShare} sv) ∗ ((dRowK L).view.loc (thr d L) ↦[(dRowK L).view.set]{fullShare} dv)
        ∗ semVal (cellOf d L cc1_scoped0.sem) 0 ∗ semVal (cellOf d L cc1_scoped1.sem) 0 ∗ RB ∗ RS)
      ⊢ iprop(tdRes d L q hv sv dv ∗ ownBufs (thr d L) ∗ ownSems0 (thr d L) ∗ ∃ W', ⌜∀ p ∈ W', p ∈ W ∨ p.2 = none⌝ ∗ owes (thr d L) O W') := by
  unfold epiPost tdRes
  rw [hB, hS]
  iintro ⟨⟨Hh, Ho, Hi0, Hi1, ⟨%f2, H2⟩, ⟨%f3, H3⟩, ⟨%f4, H4⟩, ⟨%f5, H5⟩, ⟨%f6, H6⟩, ⟨%f7, H7⟩, S8, S9, S10, S11, S12, S13, %W1, %hW1, HO⟩,
    Hs, Hd, Sc0, Sc1, HRB, HRS⟩
  -- the task's result
  isplitl [Hh Hs Hd Ho]
  · isplitl [Hh]; · iexact Hh
    isplitl [Hs]; · iexact Hs
    isplitl [Hd]; · iexact Hd
    iexact Ho
  -- its scratch, each at some contents
  isplitl [Hi0 Hi1 H2 H3 H4 H5 H6 H7 HRB]
  · isplitl [Hi0]; · iexists _; iexact Hi0
    isplitl [Hi1]; · iexists _; iexact Hi1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    iexact HRB
  -- its semaphores at zero
  isplitl [S8 S9 S10 S11 S12 S13 Sc0 Sc1 HRS]
  · isplitl [S8]; · iexact S8
    isplitl [S9]; · iexact S9
    isplitl [S10]; · iexact S10
    isplitl [S11]; · iexact S11
    isplitl [S12]; · iexact S12
    isplitl [S13]; · iexact S13
    isplitl [Sc0]; · iexact Sc0
    isplitl [Sc1]; · iexact Sc1
    iexact HRS
  -- what it owes: the waits recorded are the launch's or at no index
  iexists W1; isplitr
  · ipureintro
    intro p hp
    rcases hW1 p hp with h | h
    · exact hW0 p h
    · exact .inr h
  · iexact HO

end Cert.Proof.OnKernel.Tile

end
-- ==== Proof.OnKernel.TileEpilogue.lean ====
/-
  One vector subcore's task of the gather kernel: what follows the outer loop. The last chunk (124, in slot 0):
  its two gathers are waited for, then the copy-out of chunk 122 (the slot's staging scratch comes back), the
  row loop computes the chunk into the staging scratch, its copy-out is issued; the two last waits drain both
  slots' copy-outs. All 125 chunks' rows of the task's block of the result are then at the value.
-/
import proofs.«206094_g687194767628_cont_sun_c4_81_43_alg».proof.Proof.OnKernel.TileLoop
import proofs.«206094_g687194767628_cont_sun_c4_81_43_alg».proof.Proof.OnKernel.TilePieces
import proofs.«206094_g687194767628_cont_sun_c4_81_43_alg».proof.Proof.OnKernel.TileFinal

noncomputable section

namespace Cert.Proof.OnKernel.Tile

open Cert.Kernel Cert.Kernel.Gen
open Cert.Proof.OnKernel

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid1.Coords)

/-! ## The program after the outer loop, on the task's operands -/

/-- The rest of the second part of the body after the outer loop: the last chunk's two gathers are waited for,
    then the copy-out of chunk 122, then the row loop. -/
abbrev epiA (v2 : BitVec 32) : Prog (TpuEff nD τ sig (Elt F) Λ₀ (.scVector (cV L) (jV L))) PUnit := do
  let v18 : Memref sig .scVector .hbm S10000x128 .f32 := (hV).slice (Rect.unit (s := S10000x128) ![0, 0] S10000x128.size inb_S10000x128_S10000x128_0_0) (fun _ => rfl)
  SparseCore.waitIndirectGather cc1_scratch8.sem v18 (Memref.whole cc1_scratch2) (View.wordExact_bits rfl) (Memref.isWhole_whole _).wordExact
  let v21 : Memref sig .scVector .hbm S10000x128 .f32 := (hV).slice (Rect.unit (s := S10000x128) ![0, 0] S10000x128.size inb_S10000x128_S10000x128_0_0) (fun _ => rfl)
  SparseCore.waitIndirectGather cc1_scratch10.sem v21 (Memref.whole cc1_scratch4) (View.wordExact_bits rfl) (Memref.isWhole_whole _).wordExact
  if k1_h5 : k1_cond5 = 1#1 then do
    let v35 : Memref sig .scVector .hbm S80x128 .f32 := (oV).slice (Rect.unit (s := S320000x128) (k1_off26 L) S80x128.size (k1_off26_inb L k1_h5)) (fun _ => rfl)
    Prog.lift (.waitDma2 cc1_scratch12.sem (Memref.whole cc1_scratch6) v35 (Memref.isWhole_whole _).wordExact (View.wordExact_bits rfl))
    pure ⟨⟩
  else do
    pure ⟨⟩
  Scf.Loop.for k1_t4_loop k1_t4_ok ⟨⟩ (t4Body (F := F) L v2)
  pure ⟨⟩

/-- The rest of the body after its second part: the last chunk's copy-out and the two last waits. -/
abbrev epiB : Prog (TpuEff nD τ sig (Elt F) Λ₀ (.scVector (cV L) (jV L))) PUnit := do
  let v29 : Memref sig .scVector .hbm S80x128 .f32 := (oV).slice (Rect.unit (s := S320000x128) (k1_off35 L) S80x128.size (k1_off35_inb L)) (fun _ => rfl)
  Prog.lift (.enqueueDma (Memref.whole cc1_scratch6) (.here v29) (.dma cc1_scratch12.sem) (Memref.isWhole_whole _).wordExact (View.wordExact_bits rfl) ⟨Or.inl rfl, trivial⟩)
  let v31 : Memref sig .scVector .hbm S80x128 .f32 := (oV).slice (Rect.unit (s := S320000x128) (k1_off36 L) S80x128.size (k1_off36_inb L)) (fun _ => rfl)
  Prog.lift (.waitDma2 cc1_scratch12.sem (Memref.whole cc1_scratch6) v31 (Memref.isWhole_whole _).wordExact (View.wordExact_bits rfl))
  let v33 : Memref sig .scVector .hbm S80x128 .f32 := (oV).slice (Rect.unit (s := S320000x128) (k1_off36 L) S80x128.size (k1_off36_inb L)) (fun _ => rfl)
  Prog.lift (.waitDma2 cc1_scratch13.sem (Memref.whole cc1_scratch7) v33 (Memref.isWhole_whole _).wordExact (View.wordExact_bits rfl))
  pure ⟨⟩

/-- The body is its first part, its second part, and the rest. -/
theorem body_split : tileProg (F := F) L
    = (k1_part8 (F := F) L hV (Memref.isWhole_whole _) sV (Memref.isWhole_whole _) dV (Memref.isWhole_whole _) oV (Memref.isWhole_whole _)
        (Memref.whole cc1_scratch0) (Memref.isWhole_whole _) (Memref.whole cc1_scratch1) (Memref.isWhole_whole _)
        (Memref.whole cc1_scratch2) (Memref.isWhole_whole _) (Memref.whole cc1_scratch3) (Memref.isWhole_whole _)
        (Memref.whole cc1_scratch4) (Memref.isWhole_whole _) (Memref.whole cc1_scratch5) (Memref.isWhole_whole _)
        (Memref.whole cc1_scratch6) (Memref.isWhole_whole _) (Memref.whole cc1_scratch7) (Memref.isWhole_whole _)
        cc1_scratch8 cc1_scratch9 cc1_scratch10 cc1_scratch11 cc1_scratch12 cc1_scratch13 cc1_scoped0 cc1_scoped1 >>= fun v2 =>
      k1_part9 (F := F) L hV (Memref.isWhole_whole _) sV (Memref.isWhole_whole _) dV (Memref.isWhole_whole _) oV (Memref.isWhole_whole _)
        (Memref.whole cc1_scratch0) (Memref.isWhole_whole _) (Memref.whole cc1_scratch1) (Memref.isWhole_whole _)
        (Memref.whole cc1_scratch2) (Memref.isWhole_whole _) (Memref.whole cc1_scratch3) (Memref.isWhole_whole _)
        (Memref.whole cc1_scratch4) (Memref.isWhole_whole _) (Memref.whole cc1_scratch5) (Memref.isWhole_whole _)
        (Memref.whole cc1_scratch6) (Memref.isWhole_whole _) (Memref.whole cc1_scratch7) (Memref.isWhole_whole _)
        cc1_scratch8 cc1_scratch9 cc1_scratch10 cc1_scratch11 cc1_scratch12 cc1_scratch13 cc1_scoped0 cc1_scoped1 v2 >>= fun _ =>
      epiB (F := F) L) := rfl

set_option maxRecDepth 65536 in
/-- The second part of the body is the two gathers of chunk 1, the outer loop, and the rest. -/
theorem part9_split (v2 : BitVec 32) :
    k1_part9 (F := F) L hV (Memref.isWhole_whole _) sV (Memref.isWhole_whole _) dV (Memref.isWhole_whole _) oV (Memref.isWhole_whole _)
        (Memref.whole cc1_scratch0) (Memref.isWhole_whole _) (Memref.whole cc1_scratch1) (Memref.isWhole_whole _)
        (Memref.whole cc1_scratch2) (Memref.isWhole_whole _) (Memref.whole cc1_scratch3) (Memref.isWhole_whole _)
        (Memref.whole cc1_scratch4) (Memref.isWhole_whole _) (Memref.whole cc1_scratch5) (Memref.isWhole_whole _)
        (Memref.whole cc1_scratch6) (Memref.isWhole_whole _) (Memref.whole cc1_scratch7) (Memref.isWhole_whole _)
        cc1_scratch8 cc1_scratch9 cc1_scratch10 cc1_scratch11 cc1_scratch12 cc1_scratch13 cc1_scoped0 cc1_scoped1 v2
      = (do
        let v9 : Memref sig .scVector .vmem S1x80 .i32 := (Memref.whole cc1_scratch0 : Memref sig .scVector .vmem S125x80 .i32).slice (Rect.unit (s := S125x80) ![1, 0] S1x80.size inb_S125x80_S1x80_1_0) (fun _ => rfl)
        let v10 : Memref sig .scVector .vmem S80 .i32 := v9.squeeze S80 squeezes_S1x80_S80
        let v11 : Memref sig .scVector .hbm S10000x128 .f32 := (hV).slice (Rect.unit (s := S10000x128) ![0, 0] S10000x128.size inb_S10000x128_S10000x128_0_0) (fun _ => rfl)
        SparseCore.enqueueIndirectGather rfl v11 (Memref.whole cc1_scratch3) gathers_S10000x128_S80x128 v10 rfl cc1_scratch9.sem (View.wordExact_bits rfl) rfl (Or.inl rfl)
        let v12 : Memref sig .scVector .vmem S1x80 .i32 := (Memref.whole cc1_scratch1 : Memref sig .scVector .vmem S125x80 .i32).slice (Rect.unit (s := S125x80) ![1, 0] S1x80.size inb_S125x80_S1x80_1_0) (fun _ => rfl)
        let v13 : Memref sig .scVector .vmem S80 .i32 := v12.squeeze S80 squeezes_S1x80_S80
        let v14 : Memref sig .scVector .hbm S10000x128 .f32 := (hV).slice (Rect.unit (s := S10000x128) ![0, 0] S10000x128.size inb_S10000x128_S10000x128_0_0) (fun _ => rfl)
        SparseCore.enqueueIndirectGather rfl v14 (Memref.whole cc1_scratch5) gathers_S10000x128_S80x128 v13 rfl cc1_scratch11.sem (View.wordExact_bits rfl) rfl (Or.inl rfl)
        Scf.Loop.for k1_t1_loop k1_t1_ok ⟨⟩ (k1_t1_body (F := F) L hV (Memref.isWhole_whole _) sV (Memref.isWhole_whole _) dV (Memref.isWhole_whole _) oV (Memref.isWhole_whole _)
        (Memref.whole cc1_scratch0) (Memref.isWhole_whole _) (Memref.whole cc1_scratch1) (Memref.isWhole_whole _)
        (Memref.whole cc1_scratch2) (Memref.isWhole_whole _) (Memref.whole cc1_scratch3) (Memref.isWhole_whole _)
        (Memref.whole cc1_scratch4) (Memref.isWhole_whole _) (Memref.whole cc1_scratch5) (Memref.isWhole_whole _)
        (Memref.whole cc1_scratch6) (Memref.isWhole_whole _) (Memref.whole cc1_scratch7) (Memref.isWhole_whole _)
        cc1_scratch8 cc1_scratch9 cc1_scratch10 cc1_scratch11 cc1_scratch12 cc1_scratch13 cc1_scoped0 cc1_scoped1 v2)
        epiA (F := F) L v2) := rfl

/-! ## The task's rows of the result, chunk by chunk -/

omit [FloatOps F] in
theorem epi_mem_doneSetN {m : ℕ} {x : S320000x128.Idx} :
    x ∈ doneSetN L m ↔ 10000 * wid L ≤ (x 0).val ∧ (x 0).val < 10000 * wid L + 80 * m := by
  unfold doneSetN; simp only [Finset.mem_filter, Finset.mem_univ, _root_.true_and]
omit [FloatOps F] in
theorem epi_mem_chunkSetN {n : ℕ} {x : S320000x128.Idx} :
    x ∈ chunkSetN L n ↔ 10000 * wid L + 80 * n ≤ (x 0).val ∧ (x 0).val < 10000 * wid L + 80 * n + 80 := by
  unfold chunkSetN; simp only [Finset.mem_filter, Finset.mem_univ, _root_.true_and]
omit [FloatOps F] in
theorem epi_mem_restSetN {n : ℕ} {x : S320000x128.Idx} :
    x ∈ restSetN L n ↔ 10000 * wid L + 80 * n ≤ (x 0).val ∧ (x 0).val < 10000 * wid L + 10000 := by
  unfold restSetN; simp only [Finset.mem_filter, Finset.mem_univ, _root_.true_and]
omit [FloatOps F] in
theorem epi_mem_outSet {x : S320000x128.Idx} :
    x ∈ outSet L ↔ 10000 * wid L ≤ (x 0).val ∧ (x 0).val < 10000 * wid L + 10000 := by
  have h1 : (x 1).val < 128 := (x 1).isLt
  rw [show x ∈ outSet L ↔ ((10000 * wid L ≤ (x 0).val ∧ (x 0).val < 10000 * wid L + 10000) ∧ (0 ≤ (x 1).val ∧ (x 1).val < 0 + 128)) from
    Rect.mem_set_unit.trans Fin.forall_fin_two]
  omega

omit [FloatOps F] in
/-- The chunks below m + 1 are the chunks below m and chunk m, apart. -/
theorem epi_doneSetN_succ (m : ℕ) : doneSetN L (m + 1) = doneSetN L m ∪ chunkSetN L m := by
  ext x; rw [Finset.mem_union, epi_mem_doneSetN, epi_mem_doneSetN, epi_mem_chunkSetN]; omega
omit [FloatOps F] in
theorem epi_doneSetN_disjoint (m : ℕ) : Disjoint (doneSetN L m) (chunkSetN L m) :=
  Finset.disjoint_left.mpr fun x h1 h2 => by rw [epi_mem_doneSetN] at h1; rw [epi_mem_chunkSetN] at h2; omega
omit [FloatOps F] in
/-- All 125 chunks are the task's block of the result; the last chunk is what is left after 124. -/
theorem epi_doneSetN_all : doneSetN L 125 = outSet L := by
  ext x; rw [epi_mem_doneSetN, epi_mem_outSet]
omit [FloatOps F] in
theorem epi_restSetN_last : restSetN L 124 = chunkSetN L 124 := by
  ext x; rw [epi_mem_restSetN, epi_mem_chunkSetN]

omit [FloatOps F] in
/-- Chunk m at a function joins the chunks below it at the same function. -/
theorem epi_done_join (m : ℕ) (f : Buf (Elt F) (oLoc d)) :
    (iprop(((oV).view.loc (thr d L) ↦[doneSetN L m]{fullShare} f) ∗ ((oV).view.loc (thr d L) ↦[chunkSetN L m]{fullShare} f)) : sProp 𝕄)
      ⊢ ((oV).view.loc (thr d L) ↦[doneSetN L (m + 1)]{fullShare} f : sProp 𝕄) := by
  rw [epi_doneSetN_succ]; exact (pointsTo_union (epi_doneSetN_disjoint L m)).2

omit [FloatOps F] in
theorem epi_off35_eq : k1_off35 L = ![10000 * wid L + 80 * 124, 0] := by
  rw [k1_off35_eq]; unfold wid; congr 1; omega

variable (q : PosShare TreeShare) (hv : Buf (Elt F) (hLoc d)) (sv : Buf (Elt F) (sLoc d)) (dv : Buf (Elt F) (dLoc d))

/-- Chunk 124 written whole over its rows of the result, from any contents, is the value there. -/
theorem epi_chunk124_val (fr : Buf (Elt F) (oLoc d)) (g : S80x128.Idx → Elt F .f32) (hg : ∀ y, g y = obC d L hv sv dv 124 y) :
    ∀ x ∈ (oChunkM (k1_off35 L) (k1_off35_inb L) (fun _ => rfl)).view.set,
      (oChunkM (k1_off35 L) (k1_off35_inb L) (fun _ => rfl)).view.writes (Elt F) fr [⟨Rect.whole S80x128, g⟩] x = outRows d hv sv dv x := by
  intro x hx
  obtain ⟨y, -, rfl⟩ := Finset.mem_map.mp hx
  have h1 := View.read_writes_cons_emb (oChunkM (k1_off35 L) (k1_off35_inb L) (fun _ => rfl)).view fr (Rect.whole S80x128) g [] y
  rw [Rect.emb_whole_apply, View.read_apply] at h1
  have h2 := out_chunk d L hv sv dv 124 (by omega) (k1_off35 L) (k1_off35_inb L) (fun _ => rfl) (epi_off35_eq L) fr _ hx
  rw [View.write_emb_of_mem _ _ (Finset.mem_univ y)] at h2
  exact (cast_eq _ _).symm.trans (h1.trans ((hg y).trans ((cast_eq _ _).symm.trans h2)))

/-! ## The run after the outer loop -/

set_option maxHeartbeats 4000000 in
/-- From the outer loop's invariant after its last trip — the gathers of chunk 124 in flight in slot 0, slot 1 idle,
    the copy-outs of chunks 122 and 123 in flight, the chunks below 122 at the value — the rest of the body runs to
    its end: every share is rejoined, every semaphore is at zero, the task's whole block of the result is at the value. -/
theorem epilogue (hidx : IdxOK (F := F) d L sv dv) (O : CellTallies nD τ sig (HIx 1)) (W0 : Waits sig (HIx 1)) (v2 : BitVec 32) :
    (iprop(Transfers.MayWaits (thr d L) (none : HIx 1) O
        ∗ gfJ0 d L q hv sv 124 ∗ gfI0 d L q hv dv 124 ∗ idle1 d L q hv sv dv
        ∗ ofl0 d L hv sv dv 122 ∗ ofl1 d L hv sv dv 123
        ∗ outPart d L hv sv dv 122 124
        ∗ owes (thr d L) O W0) : sProp 𝕄)
      ⊢ wp frame (wpE (defs₀ (F := F)) 𝒱₀ (thr d L) none) Set.univ (epiA (F := F) L v2 >>= fun _ => epiB (F := F) L)
          fun _ => epiPost d L q hv sv dv O W0 := by
  unfold gfJ0 gfI0 ofl0 ofl1 outPart
  iintro ⟨#Hmw, ⟨HfJ, HrJ⟩, ⟨HfI, HrI⟩, Hidle, Ho0, Ho1, ⟨Hdone, %fr, Hrest⟩, HO⟩
  ihave Xidle := (hid_in (F := F) _) $$ Hidle
  -- the two gathers of chunk 124 land; the copy-out of chunk 122 is waited for
  sl_exec
  icases HfJ_dst with ⟨Hb2, HiJ⟩
  icases HfI_dst with ⟨Hb4, HiI⟩
  -- the row loop computes chunk 124 into the staging scratch
  iapply (triple_bind (F := F) (rows_t4 (F := F) d L v2 _ _ _))
  isplitl [Hb2 Hb4 Ho0_src]
  · isplitl [Hb2]; · iexact Hb2
    isplitl [Hb4]; · iexact Hb4
    iexact Ho0_src
  iintro %_ ⟨Hb2, Hb4, Hb6⟩
  -- what is left of the task's block is chunk 124's rows, as the copy-out names them
  have hcs : (oChunkM (k1_off35 L) (k1_off35_inb L) (fun _ => rfl)).view.set = chunkSetN L 124 :=
    oChunk_set L 124 (by omega) (k1_off35 L) (k1_off35_inb L) (fun _ => rfl) (epi_off35_eq L)
  ihave Hrest' : ((oChunkM (k1_off35 L) (k1_off35_inb L) (fun _ => rfl)).view.loc (thr d L) ↦[(oChunkM (k1_off35 L) (k1_off35_inb L) (fun _ => rfl)).view.set]{fullShare} fr) $$ [Hrest]
  · rw [hcs, ← epi_restSetN_last]; iexact Hrest
  -- the copy-out of chunk 124, and the two last waits
  sl_exec
  rw [wp_ret]
  imodintro
  -- chunk 124's rows hold the value
  have hval := epi_chunk124_val d L hv sv dv fr (epilogue.sl.dma0 d L hv sv dv) (fun _ => rfl)
  ihave H124a := (Entails.of_eq (pointsTo_congr (ℓ := (oChunkM (k1_off35 L) (k1_off35_inb L) (fun _ => rfl)).view.loc (thr d L)) (q := fullShare) hval)) $$ Hrest'
  ihave H124 : ((oV).view.loc (thr d L) ↦[chunkSetN L 124]{fullShare} outRows d hv sv dv) $$ [H124a]
  · rw [← hcs]; iexact H124a
  ihave H123 := (epi_done_join (F := F) d L 122 _) $$ [Hdone Ho0_dst]
  · isplitl [Hdone]; · iexact Hdone
    iexact Ho0_dst
  ihave H124' := (epi_done_join (F := F) d L 123 _) $$ [H123 Ho1_dst]
  · isplitl [H123]; · iexact H123
    iexact Ho1_dst
  ihave H125 := (epi_done_join (F := F) d L 124 _) $$ [H124' H124]
  · isplitl [H124']; · iexact H124'
    iexact H124
  -- slot 1's idle holdings
  ihave Hidle := (hid_out (F := F) _) $$ Xidle
  unfold idle1
  icases Hidle with ⟨⟨%f3, Hb3⟩, ⟨%f5, Hb5⟩, Hs9, Hs11, HiS1, HiD1, Hhc, Hhd⟩
  unfold epiPost
  -- the node features' share
  isplitl [HfJ_src HfI_src Hhc Hhd]
  · iapply (pts_unhalve (F := F))
    isplitl [HfJ_src HfI_src]
    · iapply (pts_unhalve (F := F))
      isplitl [HfJ_src]; · iexact HfJ_src
      iexact HfI_src
    · iapply (pts_unhalve (F := F))
      isplitl [Hhc]; · iexact Hhc
      iexact Hhd
  -- the task's block of the result
  isplitl [H125]
  · rw [← epi_doneSetN_all]; iexact H125
  -- the two index scratches
  isplitl [HiJ HrJ HiS1]
  · iapply (pts_unhalve (F := F))
    isplitl [HiJ HrJ]
    · iapply (pointsTo_split_subset (Finset.subset_univ (rowSetN 124))).2
      isplitl [HiJ]; · iexact HiJ
      iexact HrJ
    · iexact HiS1
  isplitl [HiI HrI HiD1]
  · iapply (pts_unhalve (F := F))
    isplitl [HiI HrI]
    · iapply (pointsTo_split_subset (Finset.subset_univ (rowSetN 124))).2
      isplitl [HiI]; · iexact HiI
      iexact HrI
    · iexact HiD1
  -- the six data scratches
  isplitl [Hb2]; · iexists _; iexact Hb2
  isplitl [Hb3]; · iexists _; iexact Hb3
  isplitl [Hb4]; · iexists _; iexact Hb4
  isplitl [Hb5]; · iexists _; iexact Hb5
  isplitl [Hb6]; · iexists _; iexact Hb6
  isplitl [Ho1_src]; · iexists _; iexact Ho1_src
  -- the six semaphores
  isplitl [HfJ]; · iexact HfJ
  isplitl [Hs9]; · iexact Hs9
  isplitl [HfI]; · iexact HfI
  isplitl [Hs11]; · iexact Hs11
  isplitl [Ho0]; · iexact Ho0
  isplitl [Ho1]; · iexact Ho1
  -- what the task still owes, its waits recorded
  iexists (insert (SemLoc.dma cc1_scratch13.sem, none) (insert (SemLoc.dma cc1_scratch12.sem, none) (insert (SemLoc.dma cc1_scratch12.sem, none)
    (insert (SemLoc.dma cc1_scratch10.sem, none) (insert (SemLoc.dma cc1_scratch8.sem, none) W0))))); isplitr
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end Cert.Proof.OnKernel.Tile

end
-- ==== Proof.OnKernel.TileBody.lean ====
/-
  One vector subcore's task of the gather kernel: the proof of its body, assembled.
-/

import proofs.«206094_g687194767628_cont_sun_c4_81_43_alg».proof.Proof.OnKernel.TileTripFull
import proofs.«206094_g687194767628_cont_sun_c4_81_43_alg».proof.Proof.OnKernel.TileEpilogue
import proofs.«206094_g687194767628_cont_sun_c4_81_43_alg».proof.Proof.OnKernel.TileOut
import proofs.«206094_g687194767628_cont_sun_c4_81_43_alg».proof.Proof.OnKernel.TileCanon

noncomputable section

namespace Cert.Proof.OnKernel.Tile

open Cert.Kernel Cert.Kernel.Gen
open Cert.Proof.OnKernel

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid1.Coords)

omit [FloatOps F] in
/-- A triple, its frame, and what both give. -/
theorem triple_frame {α : Type} {c : Thread nD τ} {p : Prog (TpuEff nD τ sig (Elt F) Λ₀ c.2) α} {P R : sProp 𝕄} {Q1 Q : α → sProp 𝕄} [FloatOps F]
    (hp : P ⊢ wp frame (wpE (defs₀ (F := F)) 𝒱₀ c none) Set.univ p Q1) (hq : ∀ a, iprop(Q1 a ∗ R) ⊢ Q a) :
    iprop(P ∗ R) ⊢ wp frame (wpE (defs₀ (F := F)) 𝒱₀ c none) Set.univ p Q :=
  (sep_mono hp .rfl).trans ((wp_frame_r _ _ _).trans (wp_mono _ _ _ hq))

/-- The invariant after the last trip: slot 0's gathers of the last chunk and the last two copy-outs in flight,
    slot 1 idle. -/
theorem inv_last (q : PosShare TreeShare) (hv : Buf (Elt F) (hLoc d)) (sv : Buf (Elt F) (sLoc d)) (dv : Buf (Elt F) (dLoc d))
    (O : CellTallies nD τ sig (HIx 1)) (W : Waits sig (HIx 1)) (acc : PUnit) (n : ℕ) (hn : n = 62) :
    inv d L q hv sv dv O W n acc
      ⊢ iprop(∃ W0, ⌜∀ p ∈ W0, p ∈ W ∨ p.2 = none⌝
          ∗ (Transfers.MayWaits (thr d L) (none : HIx 1) O ∗ gfJ0 d L q hv sv 124 ∗ gfI0 d L q hv dv 124 ∗ idle1 d L q hv sv dv
            ∗ ofl0 d L hv sv dv 122 ∗ ofl1 d L hv sv dv 123 ∗ outPart d L hv sv dv 122 124 ∗ owes (thr d L) O W0)) := by
  subst hn
  unfold inv
  rw [if_neg (by omega), if_neg (by omega)]
  iintro ⟨Hmw, G0, G1, Hid, ⟨Ho0, Ho1⟩, Hout, %W0, %hW0, HO⟩
  iexists W0; isplitr
  · ipureintro; exact hW0
  isplitl [Hmw]; · iexact Hmw
  isplitl [G0]; · iexact G0
  isplitl [G1]; · iexact G1
  isplitl [Hid]; · iexact Hid
  isplitl [Ho0]; · iexact Ho0
  isplitl [Ho1]; · iexact Ho1
  isplitl [Hout]; · iexact Hout
  iexact HO

theorem tile_body (d : Dev nD) (L : grid1.Coords) : TileBody (F := F) d L := by
  intro q hv sv dv hidx O W hO
  unfold goRes
  rw [body_split (F := F) L]
  simp only [k1_part8_eq_skeleton, part9_split]; unfold k1_part8_skel
  rw [(K (F := F)).scopedBufs_V facts d (cV L) (jV L), SparseCore.Cfg.scopedSems0_V (Val := Elt F) d (cV L) (jV L)]
  iintro ⟨#Hlv, -, ⟨Hh, Hs, Hd, %fo, Ho⟩, Hown, Hosm, HO⟩
  ihave Hown' := (Entails.of_eq (ownBufs_V (F := F) d L)) $$ Hown
  icases Hown' with ⟨⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, Hbufs⟩
  ihave Hosm' := (Entails.of_eq (ownSems0_V (F := F) d L)) $$ Hosm
  icases Hosm' with ⟨Hsj0, Hsj1, Hsi0, Hsi1, Hso0, Hso1, Hsc0, Hsc1, Hsems⟩
  ihave Hmw := ((K (F := F)).mayWaits_none (thr := thr d L) hO) $$ Hlv
  ihave Hh' := (Entails.of_eq (pts_h (F := F) d L q _).symm) $$ Hh
  ihave Hs' := (Entails.of_eq (pts_sRowK (F := F) d L _).symm) $$ Hs
  ihave Hd' := (Entails.of_eq (pts_dRowK (F := F) d L _).symm) $$ Hd
  ihave Hb0' := (Entails.of_eq (pts_scr (F := F) d L cc1_scratch0 _).symm) $$ Hb0
  ihave Hb1' := (Entails.of_eq (pts_scr (F := F) d L cc1_scratch1 _).symm) $$ Hb1
  ihave Hb2' := (Entails.of_eq (pts_scr (F := F) d L cc1_scratch2 _).symm) $$ Hb2
  ihave Hb3' := (Entails.of_eq (pts_scr (F := F) d L cc1_scratch3 _).symm) $$ Hb3
  ihave Hb4' := (Entails.of_eq (pts_scr (F := F) d L cc1_scratch4 _).symm) $$ Hb4
  ihave Hb5' := (Entails.of_eq (pts_scr (F := F) d L cc1_scratch5 _).symm) $$ Hb5
  ihave Hb6' := (Entails.of_eq (pts_scr (F := F) d L cc1_scratch6 _).symm) $$ Hb6
  ihave Hb7' := (Entails.of_eq (pts_scr (F := F) d L cc1_scratch7 _).symm) $$ Hb7
  sl_exec
  ihave Hi0a := (pts_eq (F := F) (write_scr (F := F) d L cc1_scratch0 _ _)) $$ Hb0'
  ihave Hi1a := (pts_eq (F := F) (write_scr (F := F) d L cc1_scratch1 _ _)) $$ Hb1'
  ihave Hi0 : ((Memref.whole cc1_scratch0 : Memref sig .scVector .vmem S125x80 .i32).view.loc (thr d L) ↦{fullShare} idxS d L sv) $$ [Hi0a]
  · iexact Hi0a
  ihave Hi1 : ((Memref.whole cc1_scratch1 : Memref sig .scVector .vmem S125x80 .i32).view.loc (thr d L) ↦{fullShare} idxD d L dv) $$ [Hi1a]
  · iexact Hi1a
  -- the shares: the node features in four (one per gather outstanding at a time), each index scratch in two (one per slot)
  ihave ⟨HhL, HhR⟩ := (pts_halve (F := F)) $$ Hh'
  ihave ⟨Hha, Hhb⟩ := (pts_halve (F := F)) $$ HhL
  ihave ⟨Hhc, Hhd⟩ := (pts_halve (F := F)) $$ HhR
  ihave ⟨HiS0, HiS1⟩ := (pts_halve (F := F)) $$ Hi0
  ihave ⟨HiD0, HiD1⟩ := (pts_halve (F := F)) $$ Hi1
  ihave Xhb := (hid_in (F := F) _) $$ Hhb
  ihave Xhc := (hid_in (F := F) _) $$ Hhc
  ihave Xhd := (hid_in (F := F) _) $$ Hhd
  ihave XiS1 := (hid_in (F := F) _) $$ HiS1
  ihave XiD1 := (hid_in (F := F) _) $$ HiD1
  have hinS : ∀ (off : Fin 2 → ℕ) (inb : ∀ a, off a + S1x80.size a ≤ S125x80.size a) (hr : ∀ a, (Rect.unit (s := S125x80) off S1x80.size inb).stride a = 1) x,
      ((((Memref.whole cc1_scratch0 : Memref sig .scVector .vmem S125x80 .i32).slice (Rect.unit (s := S125x80) off S1x80.size inb) hr).squeeze S80 squeezes_S1x80_S80).view.read (Elt F) (idxS d L sv) x).toNat
        < S10000x128.size gathers_S10000x128_S80x128.axis := by
    intro off inb hr x
    rw [View.read_apply]
    exact idxS_lt d L hidx _
  have hinD : ∀ (off : Fin 2 → ℕ) (inb : ∀ a, off a + S1x80.size a ≤ S125x80.size a) (hr : ∀ a, (Rect.unit (s := S125x80) off S1x80.size inb).stride a = 1) x,
      ((((Memref.whole cc1_scratch1 : Memref sig .scVector .vmem S125x80 .i32).slice (Rect.unit (s := S125x80) off S1x80.size inb) hr).squeeze S80 squeezes_S1x80_S80).view.read (Elt F) (idxD d L dv) x).toNat
        < S10000x128.size gathers_S10000x128_S80x128.axis := by
    intro off inb hr x
    rw [View.read_apply]
    exact idxD_lt d L hidx _
  sl_exec
  ihave Hhb := (hid_out (F := F) _) $$ Xhb
  sl_exec
  ihave XiS0 := (hid_in (F := F) _) $$ HiS0
  ihave XiD0 := (hid_in (F := F) _) $$ HiD0
  ihave Hhc := (hid_out (F := F) _) $$ Xhc
  ihave HiS1 := (hid_out (F := F) _) $$ XiS1
  sl_exec
  ihave Hhd := (hid_out (F := F) _) $$ Xhd
  ihave HiD1 := (hid_out (F := F) _) $$ XiD1
  sl_exec
  ihave HiS0 := (hid_out (F := F) _) $$ XiS0
  ihave HiD0 := (hid_out (F := F) _) $$ XiD0
  ihave G0 : (gfJ0 d L q hv sv (2 * 0)) $$ [Hsj0 HiS0]
  · iapply (gfJ0_intro (F := F) d L q hv sv (2 * 0) (by omega) ![0, 0] inb_S125x80_S1x80_0_0 (fun _ => rfl) rfl f2 _ ?hg0)
    pick_goal 2
    · isplitl [Hsj0]; · iexact Hsj0
      iexact HiS0
    exact gather_payload0 (F := F) d hv _ (2 * 0) (by omega) _ _ _ rfl _ _
  ihave G1 : (gfI0 d L q hv dv (2 * 0)) $$ [Hsi0 HiD0]
  · iapply (gfI0_intro (F := F) d L q hv dv (2 * 0) (by omega) ![0, 0] inb_S125x80_S1x80_0_0 (fun _ => rfl) rfl f4 _ ?hg1)
    pick_goal 2
    · isplitl [Hsi0]; · iexact Hsi0
      iexact HiD0
    exact gather_payload1 (F := F) d hv _ (2 * 0) (by omega) _ _ _ rfl _ _
  ihave G2 : (gfJ1 d L q hv sv (2 * 0 + 1)) $$ [Hsj1 HiS1]
  · iapply (gfJ1_intro (F := F) d L q hv sv (2 * 0 + 1) (by omega) ![1, 0] inb_S125x80_S1x80_1_0 (fun _ => rfl) rfl f3 _ ?hg2)
    pick_goal 2
    · isplitl [Hsj1]; · iexact Hsj1
      iexact HiS1
    exact gather_payload0 (F := F) d hv _ (2 * 0 + 1) (by omega) _ _ _ rfl _ _
  ihave G3 : (gfI1 d L q hv dv (2 * 0 + 1)) $$ [Hsi1 HiD1]
  · iapply (gfI1_intro (F := F) d L q hv dv (2 * 0 + 1) (by omega) ![1, 0] inb_S125x80_S1x80_1_0 (fun _ => rfl) rfl f5 _ ?hg3)
    pick_goal 2
    · isplitl [Hsi1]; · iexact Hsi1
      iexact HiD1
    exact gather_payload1 (F := F) d hv _ (2 * 0 + 1) (by omega) _ _ _ rfl _ _
  ihave Hout := (outPart_init (F := F) d L hv sv dv fo) $$ Ho
  rw [Prog.bind_assoc]
  sl_for (inv d L q hv sv dv O W) $$ [Hmw G0 G1 G2 G3 Hb6' Hb7' Hso0 Hso1 Hout HO]
  case region =>
    intro k acc
    exact trip (F := F) d L q hv sv dv hidx O W (tile_body.sl.v2 L) k
  · unfold inv
    rw [if_pos (by omega : 2 * 0 + 1 < 125), if_pos rfl]
    isplitl [Hmw]; · iexact Hmw
    isplitl [G0]; · iexact G0
    isplitl [G1]; · iexact G1
    isplitl [G2 G3]
    · isplitl [G2]; · iexact G2
      iexact G3
    isplitl [Hb6' Hb7' Hso0 Hso1]
    · unfold idleOut0 idleOut1
      isplitl [Hb6' Hso0]
      · isplitl [Hb6']; · iexists _; iexact Hb6'
        iexact Hso0
      · isplitl [Hb7']; · iexists _; iexact Hb7'
        iexact Hso1
    isplitl [Hout]; · iexact Hout
    iexists _; isplitr
    pick_goal 2
    · iexact HO
    · ipureintro; intro p hp
      rcases Finset.mem_insert.mp hp with rfl | hp
      · exact .inr rfl
      rcases Finset.mem_insert.mp hp with rfl | hp
      · exact .inr rfl
      exact .inl hp
  iintro %acc HI
  ihave HI' := (inv_last (F := F) d L q hv sv dv O W acc _ (by decide)) $$ HI
  icases HI' with ⟨%W0, %hW0, HI'⟩
  sl_respell []
  iclear Hha Hb2' Hhb Hb4' Hhc Hb3' Hhd Hb5'
  iapply (triple_frame (F := F) (epilogue (F := F) d L q hv sv dv hidx O W0 (tile_body.sl.v2 L)) (fun _ => final_pack (F := F) d L q hv sv dv O W W0 hW0 (ownBufs_V (F := F) d L) (ownSems0_V (F := F) d L)))
  isplitl [HI']; · iexact HI'
  isplitl [Hs']; · iexact Hs'
  isplitl [Hd']; · iexact Hd'
  isplitl [Hsc0]; · iexact Hsc0
  isplitl [Hsc1]; · iexact Hsc1
  isplitl [Hbufs]; · iexact Hbufs
  iexact Hsems

end Cert.Proof.OnKernel.Tile

end
-- ==== Proof.lean ====
/-
  The certificate's proof. The kernel computes, per edge e and output column j,
      out[e, j] = Σ_{k<128} x_em[e, k]·W2[j, k] + Σ_{k<16} edge_attr[e, k]·W2[j, 128 + k] + Σ_{k<4} edge_f[e, k]·W2[j, 144 + k] + b2[j],
      x_em[e, k] = max(h[src e, k] + h[dst e, k], 0),   h[n, k] = Σ_i x[n, i]·W1[k, i] + b1[k],
  in three steps: the node projection h on the TensorCore, block by block of 1000 rows; the gather of the two
  endpoint rows of every edge, their sum and its rectification on the 32 vector subcores of the two SparseCores, each
  taking 10000 consecutive edges in 125 chunks of 80 through two alternating sets of buffers; and the edge projection
  on the TensorCore, block by block of 10000 rows, as three products over the column bands of W2. The reference
  computes the same h and x_em (its row lookup is the plain one because every entry of the edge list names a node: the
  precondition) and one product over the 148 concatenated columns. Over the extended reals the 148-term sum is the
  three band sums added in order — addition there is commutative and associative, infinities included — so the two
  results are equal entry by entry; no finiteness is used.
  The three frames: every thread of the family terminates without a fault and the nine arguments end as they began —
  no host operation, neither kernel region and no task writes one. The idealization rewrote no operation, so what it
  preserves is nothing to show.
  All of it follows (Assemble.lean) from the body of one vector subcore's task at a symbolic place, proved once for
  any float instance and read at the word-level instance and at the exact one.
-/
import proofs.«206094_g687194767628_cont_sun_c4_81_43_alg».proof.Proof.Assemble
import proofs.«206094_g687194767628_cont_sun_c4_81_43_alg».proof.Proof.OnKernelIdeal.TileBody
import proofs.«206094_g687194767628_cont_sun_c4_81_43_alg».proof.Proof.OnKernel.TileBody

noncomputable section

namespace Cert.Proof

open Idealize.ShloMosaic Idealize.SL.Sem

theorem claim : Cert.Claim :=
  Cert.Proof.Assemble.claim_of (fun d L => Cert.Proof.OnKernel.Tile.tile_body (F := Bits) d L)
    (fun d L => Cert.Proof.OnKernelIdeal.Tile.tile_body (F := Ideal) d L)

end Cert.Proof

end
